-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x100 : Shape := ⟨2, ![16384, 100]⟩
abbrev S16384x26 : Shape := ⟨2, ![16384, 26]⟩
abbrev S100x128 : Shape := ⟨2, ![100, 128]⟩
abbrev S26000x128 : Shape := ⟨2, ![26000, 128]⟩
abbrev S26x128 : Shape := ⟨2, ![26, 128]⟩
abbrev S_ : Shape := ⟨0, ![]⟩

class Facts : Prop where
  bcast_S_S16384x100 : S_.BroadcastsInDim S16384x100 (![] : Fin 0 → Fin S16384x100.rank)
  reducesTo_S16384x100_S_d0_1 : S16384x100.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S26000x128 : S_.BroadcastsInDim S26000x128 (![] : Fin 0 → Fin S26000x128.rank)
  reducesTo_S26000x128_S_d0_1 : S26000x128.ReducesTo [0, 1] S_
  bcast_S_S26x128 : S_.BroadcastsInDim S26x128 (![] : Fin 0 → Fin S26x128.rank)
  reducesTo_S26x128_S_d0_1 : S26x128.ReducesTo [0, 1] S_
  bcast_S_S16384x26 : S_.BroadcastsInDim S16384x26 (![] : Fin 0 → Fin S16384x26.rank)
  reducesTo_S16384x26_S_d0_1 : S16384x26.ReducesTo [0, 1] S_

variable [Facts]

def fn_part1 {F : FTy → Type} [FloatOps F] (main_arg1 : IVec S16384x26 32) (main_arg5 : FVec F S26x128 .f32) (main_v13 : IVec S_ 1) (main_v16 : IVec S26000x128 1) : IVec S_ 1 :=
  let main_c_5 : IVec S_ 1 := constantI S_ 1 1#1
  let main_v17 : IVec S_ 1 := (fun x v => Host.reduce IntOp.andi x v reducesTo_S26000x128_S_d0_1 h_S_) main_v16 main_c_5
  let main_v18 : IVec S_ 1 := andi main_v13 main_v17
  let main_v19 : FVec F S26x128 .f32 := Host.absf main_arg5
  let main_cst_6 : FVec F S_ .f32 := constant S_ .f32 0x7F800000#32
  let main_v20 : FVec F S26x128 .f32 := broadcastInDim S26x128 ![] bcast_S_S26x128 main_cst_6
  let main_v21 : IVec S26x128 1 := cmpf .olt main_v19 main_v20
  let main_c_7 : IVec S_ 1 := constantI S_ 1 1#1
  let main_v22 : IVec S_ 1 := (fun x v => Host.reduce IntOp.andi x v reducesTo_S26x128_S_d0_1 h_S_) main_v21 main_c_7
  let main_v23 : IVec S_ 1 := andi main_v18 main_v22
  let main_c_8 : IVec S_ 32 := constantI S_ 32 0#32
  let main_v24 : IVec S16384x26 32 := broadcastInDim S16384x26 ![] bcast_S_S16384x26 main_c_8
  let main_v25 : IVec S16384x26 1 := cmpi .sge main_arg1 main_v24
  let main_c_9 : IVec S_ 32 := constantI S_ 32 999#32
  let main_v26 : IVec S16384x26 32 := broadcastInDim S16384x26 ![] bcast_S_S16384x26 main_c_9
  let main_v27 : IVec S16384x26 1 := cmpi .sle main_arg1 main_v26
  let main_v28 : IVec S16384x26 1 := andi main_v25 main_v27
  let main_c_10 : IVec S_ 1 := constantI S_ 1 1#1
  let main_v29 : IVec S_ 1 := (fun x v => Host.reduce IntOp.andi x v reducesTo_S16384x26_S_d0_1 h_S_) main_v28 main_c_10
  let main_v30 : IVec S_ 1 := andi main_v23 main_v29
  main_v30

def fn {F : FTy → Type} [FloatOps F] (main_arg0 : FVec F S16384x100 .f32) (main_arg1 : IVec S16384x26 32) (main_arg2 : FVec F S100x128 .f32) (main_arg3 : FVec F S100x128 .f32) (main_arg4 : FVec F S26000x128 .f32) (main_arg5 : FVec F S26x128 .f32) : IVec S_ 1 :=
  let main_v0 : FVec F S16384x100 .f32 := Host.absf main_arg0
  let main_cst : FVec F S_ .f32 := constant S_ .f32 0x7F800000#32
  let main_v1 : FVec F S16384x100 .f32 := broadcastInDim S16384x100 ![] bcast_S_S16384x100 main_cst
  let main_v2 : IVec S16384x100 1 := cmpf .olt main_v0 main_v1
  let main_c : IVec S_ 1 := constantI S_ 1 1#1
  let main_v3 : IVec S_ 1 := (fun x v => Host.reduce IntOp.andi x v reducesTo_S16384x100_S_d0_1 h_S_) main_v2 main_c
  let main_v4 : FVec F S100x128 .f32 := Host.absf main_arg2
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S100x128 .f32 := Host.absf main_arg3
  let main_cst_2 : FVec F S_ .f32 := constant S_ .f32 0x7F800000#32
  let main_v10 : FVec F S100x128 .f32 := broadcastInDim S100x128 ![] bcast_S_S100x128 main_cst_2
  let main_v11 : IVec S100x128 1 := cmpf .olt main_v9 main_v10
  let main_c_3 : IVec S_ 1 := constantI S_ 1 1#1
  let main_v12 : IVec S_ 1 := (fun x v => Host.reduce IntOp.andi x v reducesTo_S100x128_S_d0_1 h_S_) main_v11 main_c_3
  let main_v13 : IVec S_ 1 := andi main_v8 main_v12
  let main_v14 : FVec F S26000x128 .f32 := Host.absf main_arg4
  let main_cst_4 : FVec F S_ .f32 := constant S_ .f32 0x7F800000#32
  let main_v15 : FVec F S26000x128 .f32 := broadcastInDim S26000x128 ![] bcast_S_S26000x128 main_cst_4
  let main_v16 : IVec S26000x128 1 := cmpf .olt main_v14 main_v15
  fn_part1 (F := F) main_arg1 main_arg5 main_v13 main_v16
-- ==== Kernel.lean ====
abbrev S16384x100 : Shape := ⟨2, ![16384, 100]⟩
abbrev S16384x26 : Shape := ⟨2, ![16384, 26]⟩
abbrev S100x128 : Shape := ⟨2, ![100, 128]⟩
abbrev S26000x128 : Shape := ⟨2, ![26000, 128]⟩
abbrev S26x128 : Shape := ⟨2, ![26, 128]⟩
abbrev S26 : Shape := ⟨1, ![26]⟩
abbrev S_ : Shape := ⟨0, ![]⟩
abbrev S26x16384 : Shape := ⟨2, ![26, 16384]⟩
abbrev S26x1 : Shape := ⟨2, ![26, 1]⟩
abbrev S32x104x128 : Shape := ⟨3, ![32, 104, 128]⟩
abbrev S2064384x128 : Shape := ⟨2, ![2064384, 128]⟩
abbrev S104x128 : Shape := ⟨2, ![104, 128]⟩
abbrev S128x128 : Shape := ⟨2, ![128, 128]⟩
abbrev S1x104x128 : Shape := ⟨3, ![1, 104, 128]⟩
abbrev S1x128 : Shape := ⟨2, ![1, 128]⟩
abbrev S128 : Shape := ⟨1, ![128]⟩
abbrev S1x16 : Shape := ⟨2, ![1, 16]⟩
abbrev S16 : Shape := ⟨1, ![16]⟩
abbrev S126x16384x128 : Shape := ⟨3, ![126, 16384, 128]⟩
abbrev S512x100 : Shape := ⟨2, ![512, 100]⟩
abbrev S100x512x128 : Shape := ⟨3, ![100, 512, 128]⟩
abbrev S512x1 : Shape := ⟨2, ![512, 1]⟩
abbrev S512x128 : Shape := ⟨2, ![512, 128]⟩
abbrev S1x512x128 : Shape := ⟨3, ![1, 512, 128]⟩
abbrev S16384x126x128 : Shape := ⟨3, ![16384, 126, 128]⟩

abbrev nBuf : Table → Nat
  | .hbm => 19
  | .local .tc .vmem => 6
  | .local .scVector .vmem => 4
  | _ => 0

abbrev bufTy : (tb : Table) → Fin (nBuf tb) → BufTy
  | .hbm, ⟨0, _⟩ => ⟨S16384x100, .f32⟩
  | .hbm, ⟨1, _⟩ => ⟨S16384x26, .i32⟩
  | .hbm, ⟨2, _⟩ => ⟨S100x128, .f32⟩
  | .hbm, ⟨3, _⟩ => ⟨S100x128, .f32⟩
  | .hbm, ⟨4, _⟩ => ⟨S26000x128, .f32⟩
  | .hbm, ⟨5, _⟩ => ⟨S26x128, .f32⟩
  | .hbm, ⟨6, _⟩ => ⟨S26, .i32⟩
  | .hbm, ⟨7, _⟩ => ⟨S_, .i32⟩
  | .hbm, ⟨8, _⟩ => ⟨S26, .i32⟩
  | .hbm, ⟨9, _⟩ => ⟨S26, .i32⟩
  | .hbm, ⟨10, _⟩ => ⟨S26x16384, .i32⟩
  | .hbm, ⟨11, _⟩ => ⟨S26x1, .i32⟩
  | .hbm, ⟨12, _⟩ => ⟨S26x16384, .i32⟩
  | .hbm, ⟨13, _⟩ => ⟨S26x16384, .i32⟩
  | .hbm, ⟨14, _⟩ => ⟨S32x104x128, .i32⟩
  | .hbm, ⟨15, _⟩ => ⟨S2064384x128, .f32⟩
  | .hbm, ⟨16, _⟩ => ⟨S126x16384x128, .f32⟩
  | .hbm, ⟨17, _⟩ => ⟨S126x16384x128, .f32⟩
  | .hbm, ⟨18, _⟩ => ⟨S16384x126x128, .f32⟩
  | .local .tc .vmem, ⟨0, _⟩ => ⟨S512x100, .f32⟩
  | .local .tc .vmem, ⟨1, _⟩ => ⟨S512x100, .f32⟩
  | .local .tc .vmem, ⟨2, _⟩ => ⟨S100x128, .f32⟩
  | .local .tc .vmem, ⟨3, _⟩ => ⟨S100x128, .f32⟩
  | .local .tc .vmem, ⟨4, _⟩ => ⟨S100x512x128, .f32⟩
  | .local .tc .vmem, ⟨5, _⟩ => ⟨S100x512x128, .f32⟩
  | .local .scVector .vmem, ⟨0, _⟩ => ⟨S104x128, .i32⟩
  | .local .scVector .vmem, ⟨1, _⟩ => ⟨S26x128, .f32⟩
  | .local .scVector .vmem, ⟨2, _⟩ => ⟨S128x128, .f32⟩
  | .local .scVector .vmem, ⟨3, _⟩ => ⟨S128x128, .f32⟩
  | _, _ => ⟨S16384x100, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_arg4_scv : Ref sig .scVector := ⟨.hbm, 4, rfl⟩
abbrev main_v7_scv : Ref sig .scVector := ⟨.hbm, 14, rfl⟩
abbrev main_arg5_scv : Ref sig .scVector := ⟨.hbm, 5, rfl⟩
abbrev main_v8_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r0 : BitVec 32 := 0#32
  let c0_i32_7_r0 : BitVec 32 := 0#32
  ![v1.toNat, 0, 0]
@[reducible] def k0_t1_loop : Scf.Loop 32 :=
  let c0_i32_4 : BitVec 32 := 0#32
  let c52_i32 : BitVec 32 := 52#32
  let v6 : BitVec 32 := Scalar.addi c0_i32_4 c52_i32
  let c1_i32 : BitVec 32 := 1#32
  ⟨c0_i32_4, v6, c1_i32⟩
def k0_off2 (k0_t1 : Fin k0_t1_loop.trips) : Fin 2 → Nat :=
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c0_i32_8 : BitVec 32 := 0#32
  ![v7.toNat, 0]
def k0_off3 (k0_t1 : Fin k0_t1_loop.trips) : Fin 2 → Nat :=
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c0_i32_11 : BitVec 32 := 0#32
  ![v8.toNat, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c128_i32 : BitVec 32 := 128#32
  let v15 : BitVec 32 := Scalar.muli v7 c128_i32
  let v16 : BitVec 32 := Scalar.addi v2 v15
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c16384_i32 : BitVec 32 := 16384#32
  let c0_i32_16 : BitVec 32 := 0#32
  let v23 : BitVec 1 := Scalar.cmpi .sgt c16384_i32 c0_i32_16
  let v24 : BitVec 32 := Scalar.extui v23
  let c0_i32_17 : BitVec 32 := 0#32
  let v25 : BitVec 1 := Scalar.cmpi .slt c16384_i32 c0_i32_17
  let v26 : BitVec 32 := Scalar.extui v25
  let v27 : BitVec 32 := Scalar.subi v24 v26
  let v28 : BitVec 1 := Scalar.cmpi .ne v22 v27
  let v29 : BitVec 32 := Scalar.remsi v16 c16384_i32
  let c0_i32_18 : BitVec 32 := 0#32
  let v30 : BitVec 1 := Scalar.cmpi .ne v29 c0_i32_18
  let v31 : BitVec 1 := Scalar.andi v28 v30
  let v17 : BitVec 32 := Scalar.divsi v16 c16384_i32
  let c1_i32_19 : BitVec 32 := 1#32
  let v32 : BitVec 32 := Scalar.subi v17 c1_i32_19
  let v33 : BitVec 32 := Scalar.select v31 v32 v17
  let v34 : Index := Scalar.indexCast v33
  let c0 : Index := 0#32
  ![v34.toNat, 0]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c128_i32 : BitVec 32 := 128#32
  let v15 : BitVec 32 := Scalar.muli v7 c128_i32
  let v16 : BitVec 32 := Scalar.addi v2 v15
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c16384_i32 : BitVec 32 := 16384#32
  let c0_i32_16 : BitVec 32 := 0#32
  let v23 : BitVec 1 := Scalar.cmpi .sgt c16384_i32 c0_i32_16
  let v24 : BitVec 32 := Scalar.extui v23
  let c0_i32_17 : BitVec 32 := 0#32
  let v25 : BitVec 1 := Scalar.cmpi .slt c16384_i32 c0_i32_17
  let v26 : BitVec 32 := Scalar.extui v25
  let v27 : BitVec 32 := Scalar.subi v24 v26
  let v28 : BitVec 1 := Scalar.cmpi .ne v22 v27
  let v29 : BitVec 32 := Scalar.remsi v16 c16384_i32
  let c0_i32_18 : BitVec 32 := 0#32
  let v30 : BitVec 1 := Scalar.cmpi .ne v29 c0_i32_18
  let v31 : BitVec 1 := Scalar.andi v28 v30
  let v17 : BitVec 32 := Scalar.divsi v16 c16384_i32
  let c1_i32_19 : BitVec 32 := 1#32
  let v32 : BitVec 32 := Scalar.subi v17 c1_i32_19
  let v33 : BitVec 32 := Scalar.select v31 v32 v17
  let v37 : Index := Scalar.indexCast v33
  let c16 : Index := 16#32
  ![v37.toNat, 16]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c128_i32 : BitVec 32 := 128#32
  let v15 : BitVec 32 := Scalar.muli v7 c128_i32
  let v16 : BitVec 32 := Scalar.addi v2 v15
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c16384_i32 : BitVec 32 := 16384#32
  let c0_i32_16 : BitVec 32 := 0#32
  let v23 : BitVec 1 := Scalar.cmpi .sgt c16384_i32 c0_i32_16
  let v24 : BitVec 32 := Scalar.extui v23
  let c0_i32_17 : BitVec 32 := 0#32
  let v25 : BitVec 1 := Scalar.cmpi .slt c16384_i32 c0_i32_17
  let v26 : BitVec 32 := Scalar.extui v25
  let v27 : BitVec 32 := Scalar.subi v24 v26
  let v28 : BitVec 1 := Scalar.cmpi .ne v22 v27
  let v29 : BitVec 32 := Scalar.remsi v16 c16384_i32
  let c0_i32_18 : BitVec 32 := 0#32
  let v30 : BitVec 1 := Scalar.cmpi .ne v29 c0_i32_18
  let v31 : BitVec 1 := Scalar.andi v28 v30
  let v17 : BitVec 32 := Scalar.divsi v16 c16384_i32
  let c1_i32_19 : BitVec 32 := 1#32
  let v32 : BitVec 32 := Scalar.subi v17 c1_i32_19
  let v33 : BitVec 32 := Scalar.select v31 v32 v17
  let v40 : Index := Scalar.indexCast v33
  let c32 : Index := 32#32
  ![v40.toNat, 32]
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c128_i32 : BitVec 32 := 128#32
  let v15 : BitVec 32 := Scalar.muli v7 c128_i32
  let v16 : BitVec 32 := Scalar.addi v2 v15
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c16384_i32 : BitVec 32 := 16384#32
  let c0_i32_16 : BitVec 32 := 0#32
  let v23 : BitVec 1 := Scalar.cmpi .sgt c16384_i32 c0_i32_16
  let v24 : BitVec 32 := Scalar.extui v23
  let c0_i32_17 : BitVec 32 := 0#32
  let v25 : BitVec 1 := Scalar.cmpi .slt c16384_i32 c0_i32_17
  let v26 : BitVec 32 := Scalar.extui v25
  let v27 : BitVec 32 := Scalar.subi v24 v26
  let v28 : BitVec 1 := Scalar.cmpi .ne v22 v27
  let v29 : BitVec 32 := Scalar.remsi v16 c16384_i32
  let c0_i32_18 : BitVec 32 := 0#32
  let v30 : BitVec 1 := Scalar.cmpi .ne v29 c0_i32_18
  let v31 : BitVec 1 := Scalar.andi v28 v30
  let v17 : BitVec 32 := Scalar.divsi v16 c16384_i32
  let c1_i32_19 : BitVec 32 := 1#32
  let v32 : BitVec 32 := Scalar.subi v17 c1_i32_19
  let v33 : BitVec 32 := Scalar.select v31 v32 v17
  let v43 : Index := Scalar.indexCast v33
  let c48 : Index := 48#32
  ![v43.toNat, 48]
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c128_i32 : BitVec 32 := 128#32
  let v15 : BitVec 32 := Scalar.muli v7 c128_i32
  let v16 : BitVec 32 := Scalar.addi v2 v15
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c16384_i32 : BitVec 32 := 16384#32
  let c0_i32_16 : BitVec 32 := 0#32
  let v23 : BitVec 1 := Scalar.cmpi .sgt c16384_i32 c0_i32_16
  let v24 : BitVec 32 := Scalar.extui v23
  let c0_i32_17 : BitVec 32 := 0#32
  let v25 : BitVec 1 := Scalar.cmpi .slt c16384_i32 c0_i32_17
  let v26 : BitVec 32 := Scalar.extui v25
  let v27 : BitVec 32 := Scalar.subi v24 v26
  let v28 : BitVec 1 := Scalar.cmpi .ne v22 v27
  let v29 : BitVec 32 := Scalar.remsi v16 c16384_i32
  let c0_i32_18 : BitVec 32 := 0#32
  let v30 : BitVec 1 := Scalar.cmpi .ne v29 c0_i32_18
  let v31 : BitVec 1 := Scalar.andi v28 v30
  let v17 : BitVec 32 := Scalar.divsi v16 c16384_i32
  let c1_i32_19 : BitVec 32 := 1#32
  let v32 : BitVec 32 := Scalar.subi v17 c1_i32_19
  let v33 : BitVec 32 := Scalar.select v31 v32 v17
  let v46 : Index := Scalar.indexCast v33
  let c64 : Index := 64#32
  ![v46.toNat, 64]
def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c128_i32 : BitVec 32 := 128#32
  let v15 : BitVec 32 := Scalar.muli v7 c128_i32
  let v16 : BitVec 32 := Scalar.addi v2 v15
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c16384_i32 : BitVec 32 := 16384#32
  let c0_i32_16 : BitVec 32 := 0#32
  let v23 : BitVec 1 := Scalar.cmpi .sgt c16384_i32 c0_i32_16
  let v24 : BitVec 32 := Scalar.extui v23
  let c0_i32_17 : BitVec 32 := 0#32
  let v25 : BitVec 1 := Scalar.cmpi .slt c16384_i32 c0_i32_17
  let v26 : BitVec 32 := Scalar.extui v25
  let v27 : BitVec 32 := Scalar.subi v24 v26
  let v28 : BitVec 1 := Scalar.cmpi .ne v22 v27
  let v29 : BitVec 32 := Scalar.remsi v16 c16384_i32
  let c0_i32_18 : BitVec 32 := 0#32
  let v30 : BitVec 1 := Scalar.cmpi .ne v29 c0_i32_18
  let v31 : BitVec 1 := Scalar.andi v28 v30
  let v17 : BitVec 32 := Scalar.divsi v16 c16384_i32
  let c1_i32_19 : BitVec 32 := 1#32
  let v32 : BitVec 32 := Scalar.subi v17 c1_i32_19
  let v33 : BitVec 32 := Scalar.select v31 v32 v17
  let v49 : Index := Scalar.indexCast v33
  let c80 : Index := 80#32
  ![v49.toNat, 80]
def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c128_i32 : BitVec 32 := 128#32
  let v15 : BitVec 32 := Scalar.muli v7 c128_i32
  let v16 : BitVec 32 := Scalar.addi v2 v15
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c16384_i32 : BitVec 32 := 16384#32
  let c0_i32_16 : BitVec 32 := 0#32
  let v23 : BitVec 1 := Scalar.cmpi .sgt c16384_i32 c0_i32_16
  let v24 : BitVec 32 := Scalar.extui v23
  let c0_i32_17 : BitVec 32 := 0#32
  let v25 : BitVec 1 := Scalar.cmpi .slt c16384_i32 c0_i32_17
  let v26 : BitVec 32 := Scalar.extui v25
  let v27 : BitVec 32 := Scalar.subi v24 v26
  let v28 : BitVec 1 := Scalar.cmpi .ne v22 v27
  let v29 : BitVec 32 := Scalar.remsi v16 c16384_i32
  let c0_i32_18 : BitVec 32 := 0#32
  let v30 : BitVec 1 := Scalar.cmpi .ne v29 c0_i32_18
  let v31 : BitVec 1 := Scalar.andi v28 v30
  let v17 : BitVec 32 := Scalar.divsi v16 c16384_i32
  let c1_i32_19 : BitVec 32 := 1#32
  let v32 : BitVec 32 := Scalar.subi v17 c1_i32_19
  let v33 : BitVec 32 := Scalar.select v31 v32 v17
  let v52 : Index := Scalar.indexCast v33
  let c96 : Index := 96#32
  ![v52.toNat, 96]
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c128_i32 : BitVec 32 := 128#32
  let v15 : BitVec 32 := Scalar.muli v7 c128_i32
  let v16 : BitVec 32 := Scalar.addi v2 v15
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c16384_i32 : BitVec 32 := 16384#32
  let c0_i32_16 : BitVec 32 := 0#32
  let v23 : BitVec 1 := Scalar.cmpi .sgt c16384_i32 c0_i32_16
  let v24 : BitVec 32 := Scalar.extui v23
  let c0_i32_17 : BitVec 32 := 0#32
  let v25 : BitVec 1 := Scalar.cmpi .slt c16384_i32 c0_i32_17
  let v26 : BitVec 32 := Scalar.extui v25
  let v27 : BitVec 32 := Scalar.subi v24 v26
  let v28 : BitVec 1 := Scalar.cmpi .ne v22 v27
  let v29 : BitVec 32 := Scalar.remsi v16 c16384_i32
  let c0_i32_18 : BitVec 32 := 0#32
  let v30 : BitVec 1 := Scalar.cmpi .ne v29 c0_i32_18
  let v31 : BitVec 1 := Scalar.andi v28 v30
  let v17 : BitVec 32 := Scalar.divsi v16 c16384_i32
  let c1_i32_19 : BitVec 32 := 1#32
  let v32 : BitVec 32 := Scalar.subi v17 c1_i32_19
  let v33 : BitVec 32 := Scalar.select v31 v32 v17
  let v55 : Index := Scalar.indexCast v33
  let c112 : Index := 112#32
  ![v55.toNat, 112]
@[reducible] def k0_t2_loop : Scf.Loop 32 :=
  let c0_i32_21 : BitVec 32 := 0#32
  let c128_i32_22 : BitVec 32 := 128#32
  let v58 : BitVec 32 := Scalar.addi c0_i32_21 c128_i32_22
  let c1_i32_23 : BitVec 32 := 1#32
  ⟨c0_i32_21, v58, c1_i32_23⟩
def k0_off12 (k0_t2 : Fin k0_t2_loop.trips) : Fin 2 → Nat :=
  let c0_i32_21 : BitVec 32 := 0#32
  let c1_i32_23 : BitVec 32 := 1#32
  let arg13 : BitVec 32 := Scf.iv c0_i32_21 c1_i32_23 k0_t2
  let v116 : Index := Scalar.indexCast arg13
  let c0_54 : Index := 0#32
  ![v116.toNat, 0]
def k0_off13 (k0_t2 : Fin k0_t2_loop.trips) : Fin 2 → Nat :=
  let c0_i32_21 : BitVec 32 := 0#32
  let c1_i32_23 : BitVec 32 := 1#32
  let arg13 : BitVec 32 := Scf.iv c0_i32_21 c1_i32_23 k0_t2
  let v124 : Index := Scalar.indexCast arg13
  let c16_56 : Index := 16#32
  ![v124.toNat, 16]
def k0_off14 (k0_t2 : Fin k0_t2_loop.trips) : Fin 2 → Nat :=
  let c0_i32_21 : BitVec 32 := 0#32
  let c1_i32_23 : BitVec 32 := 1#32
  let arg13 : BitVec 32 := Scf.iv c0_i32_21 c1_i32_23 k0_t2
  let v132 : Index := Scalar.indexCast arg13
  let c32_58 : Index := 32#32
  ![v132.toNat, 32]
def k0_off15 (k0_t2 : Fin k0_t2_loop.trips) : Fin 2 → Nat :=
  let c0_i32_21 : BitVec 32 := 0#32
  let c1_i32_23 : BitVec 32 := 1#32
  let arg13 : BitVec 32 := Scf.iv c0_i32_21 c1_i32_23 k0_t2
  let v140 : Index := Scalar.indexCast arg13
  let c48_60 : Index := 48#32
  ![v140.toNat, 48]
def k0_off16 (k0_t2 : Fin k0_t2_loop.trips) : Fin 2 → Nat :=
  let c0_i32_21 : BitVec 32 := 0#32
  let c1_i32_23 : BitVec 32 := 1#32
  let arg13 : BitVec 32 := Scf.iv c0_i32_21 c1_i32_23 k0_t2
  let v148 : Index := Scalar.indexCast arg13
  let c64_62 : Index := 64#32
  ![v148.toNat, 64]
def k0_off17 (k0_t2 : Fin k0_t2_loop.trips) : Fin 2 → Nat :=
  let c0_i32_21 : BitVec 32 := 0#32
  let c1_i32_23 : BitVec 32 := 1#32
  let arg13 : BitVec 32 := Scf.iv c0_i32_21 c1_i32_23 k0_t2
  let v156 : Index := Scalar.indexCast arg13
  let c80_64 : Index := 80#32
  ![v156.toNat, 80]
def k0_off18 (k0_t2 : Fin k0_t2_loop.trips) : Fin 2 → Nat :=
  let c0_i32_21 : BitVec 32 := 0#32
  let c1_i32_23 : BitVec 32 := 1#32
  let arg13 : BitVec 32 := Scf.iv c0_i32_21 c1_i32_23 k0_t2
  let v164 : Index := Scalar.indexCast arg13
  let c96_66 : Index := 96#32
  ![v164.toNat, 96]
def k0_off19 (k0_t2 : Fin k0_t2_loop.trips) : Fin 2 → Nat :=
  let c0_i32_21 : BitVec 32 := 0#32
  let c1_i32_23 : BitVec 32 := 1#32
  let arg13 : BitVec 32 := Scf.iv c0_i32_21 c1_i32_23 k0_t2
  let v172 : Index := Scalar.indexCast arg13
  let c112_68 : Index := 112#32
  ![v172.toNat, 112]
def k0_off20 (i : grid0.Coords) (k0_t1 : Fin k0_t1_loop.trips) : Fin 2 → Nat :=
  let c1638400_i32 : BitVec 32 := 1638400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v59 : BitVec 32 := Scalar.addi c1638400_i32 v2
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c128_i32_25 : BitVec 32 := 128#32
  let v60 : BitVec 32 := Scalar.muli v7 c128_i32_25
  let v61 : BitVec 32 := Scalar.addi v59 v60
  let c0_i32_54_r2 : BitVec 32 := 0#32
  ![v61.toNat, 0]
def k0_cond1 (k0_t1 : Fin k0_t1_loop.trips) : BitVec 1 :=
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c1_i32_29 : BitVec 32 := 1#32
  let v65 : BitVec 32 := Scalar.addi v8 c1_i32_29
  let c104_i32 : BitVec 32 := 104#32
  let v66 : BitVec 1 := Scalar.cmpi .slt v65 c104_i32
  let v67 : BitVec 32 := Scalar.extui v66
  let c0_i32_30 : BitVec 32 := 0#32
  let v68 : BitVec 1 := Scalar.cmpi .ne v67 c0_i32_30
  v68

def k0_off21 (k0_t1 : Fin k0_t1_loop.trips) : Fin 2 → Nat :=
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c1_i32_54 : BitVec 32 := 1#32
  let v116 : BitVec 32 := Scalar.addi v8 c1_i32_54
  let c0_i32_55 : BitVec 32 := 0#32
  ![v116.toNat, 0]
def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c128_i32_31 : BitVec 32 := 128#32
  let v69 : BitVec 32 := Scalar.muli v8 c128_i32_31
  let v70 : BitVec 32 := Scalar.addi v2 v69
  let c0_i32_33 : BitVec 32 := 0#32
  let v72 : BitVec 1 := Scalar.cmpi .sgt v70 c0_i32_33
  let v73 : BitVec 32 := Scalar.extui v72
  let c0_i32_34 : BitVec 32 := 0#32
  let v74 : BitVec 1 := Scalar.cmpi .slt v70 c0_i32_34
  let v75 : BitVec 32 := Scalar.extui v74
  let v76 : BitVec 32 := Scalar.subi v73 v75
  let c16384_i32_32 : BitVec 32 := 16384#32
  let c0_i32_35 : BitVec 32 := 0#32
  let v77 : BitVec 1 := Scalar.cmpi .sgt c16384_i32_32 c0_i32_35
  let v78 : BitVec 32 := Scalar.extui v77
  let c0_i32_36 : BitVec 32 := 0#32
  let v79 : BitVec 1 := Scalar.cmpi .slt c16384_i32_32 c0_i32_36
  let v80 : BitVec 32 := Scalar.extui v79
  let v81 : BitVec 32 := Scalar.subi v78 v80
  let v82 : BitVec 1 := Scalar.cmpi .ne v76 v81
  let v83 : BitVec 32 := Scalar.remsi v70 c16384_i32_32
  let c0_i32_37 : BitVec 32 := 0#32
  let v84 : BitVec 1 := Scalar.cmpi .ne v83 c0_i32_37
  let v85 : BitVec 1 := Scalar.andi v82 v84
  let v71 : BitVec 32 := Scalar.divsi v70 c16384_i32_32
  let c1_i32_38 : BitVec 32 := 1#32
  let v86 : BitVec 32 := Scalar.subi v71 c1_i32_38
  let v87 : BitVec 32 := Scalar.select v85 v86 v71
  let v88 : Index := Scalar.indexCast v87
  let c0_39 : Index := 0#32
  ![v88.toNat, 0]
def k0_off23 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c128_i32_31 : BitVec 32 := 128#32
  let v69 : BitVec 32 := Scalar.muli v8 c128_i32_31
  let v70 : BitVec 32 := Scalar.addi v2 v69
  let c0_i32_33 : BitVec 32 := 0#32
  let v72 : BitVec 1 := Scalar.cmpi .sgt v70 c0_i32_33
  let v73 : BitVec 32 := Scalar.extui v72
  let c0_i32_34 : BitVec 32 := 0#32
  let v74 : BitVec 1 := Scalar.cmpi .slt v70 c0_i32_34
  let v75 : BitVec 32 := Scalar.extui v74
  let v76 : BitVec 32 := Scalar.subi v73 v75
  let c16384_i32_32 : BitVec 32 := 16384#32
  let c0_i32_35 : BitVec 32 := 0#32
  let v77 : BitVec 1 := Scalar.cmpi .sgt c16384_i32_32 c0_i32_35
  let v78 : BitVec 32 := Scalar.extui v77
  let c0_i32_36 : BitVec 32 := 0#32
  let v79 : BitVec 1 := Scalar.cmpi .slt c16384_i32_32 c0_i32_36
  let v80 : BitVec 32 := Scalar.extui v79
  let v81 : BitVec 32 := Scalar.subi v78 v80
  let v82 : BitVec 1 := Scalar.cmpi .ne v76 v81
  let v83 : BitVec 32 := Scalar.remsi v70 c16384_i32_32
  let c0_i32_37 : BitVec 32 := 0#32
  let v84 : BitVec 1 := Scalar.cmpi .ne v83 c0_i32_37
  let v85 : BitVec 1 := Scalar.andi v82 v84
  let v71 : BitVec 32 := Scalar.divsi v70 c16384_i32_32
  let c1_i32_38 : BitVec 32 := 1#32
  let v86 : BitVec 32 := Scalar.subi v71 c1_i32_38
  let v87 : BitVec 32 := Scalar.select v85 v86 v71
  let v91 : Index := Scalar.indexCast v87
  let c16_40 : Index := 16#32
  ![v91.toNat, 16]
def k0_off24 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c128_i32_31 : BitVec 32 := 128#32
  let v69 : BitVec 32 := Scalar.muli v8 c128_i32_31
  let v70 : BitVec 32 := Scalar.addi v2 v69
  let c0_i32_33 : BitVec 32 := 0#32
  let v72 : BitVec 1 := Scalar.cmpi .sgt v70 c0_i32_33
  let v73 : BitVec 32 := Scalar.extui v72
  let c0_i32_34 : BitVec 32 := 0#32
  let v74 : BitVec 1 := Scalar.cmpi .slt v70 c0_i32_34
  let v75 : BitVec 32 := Scalar.extui v74
  let v76 : BitVec 32 := Scalar.subi v73 v75
  let c16384_i32_32 : BitVec 32 := 16384#32
  let c0_i32_35 : BitVec 32 := 0#32
  let v77 : BitVec 1 := Scalar.cmpi .sgt c16384_i32_32 c0_i32_35
  let v78 : BitVec 32 := Scalar.extui v77
  let c0_i32_36 : BitVec 32 := 0#32
  let v79 : BitVec 1 := Scalar.cmpi .slt c16384_i32_32 c0_i32_36
  let v80 : BitVec 32 := Scalar.extui v79
  let v81 : BitVec 32 := Scalar.subi v78 v80
  let v82 : BitVec 1 := Scalar.cmpi .ne v76 v81
  let v83 : BitVec 32 := Scalar.remsi v70 c16384_i32_32
  let c0_i32_37 : BitVec 32 := 0#32
  let v84 : BitVec 1 := Scalar.cmpi .ne v83 c0_i32_37
  let v85 : BitVec 1 := Scalar.andi v82 v84
  let v71 : BitVec 32 := Scalar.divsi v70 c16384_i32_32
  let c1_i32_38 : BitVec 32 := 1#32
  let v86 : BitVec 32 := Scalar.subi v71 c1_i32_38
  let v87 : BitVec 32 := Scalar.select v85 v86 v71
  let v94 : Index := Scalar.indexCast v87
  let c32_41 : Index := 32#32
  ![v94.toNat, 32]
def k0_off25 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c128_i32_31 : BitVec 32 := 128#32
  let v69 : BitVec 32 := Scalar.muli v8 c128_i32_31
  let v70 : BitVec 32 := Scalar.addi v2 v69
  let c0_i32_33 : BitVec 32 := 0#32
  let v72 : BitVec 1 := Scalar.cmpi .sgt v70 c0_i32_33
  let v73 : BitVec 32 := Scalar.extui v72
  let c0_i32_34 : BitVec 32 := 0#32
  let v74 : BitVec 1 := Scalar.cmpi .slt v70 c0_i32_34
  let v75 : BitVec 32 := Scalar.extui v74
  let v76 : BitVec 32 := Scalar.subi v73 v75
  let c16384_i32_32 : BitVec 32 := 16384#32
  let c0_i32_35 : BitVec 32 := 0#32
  let v77 : BitVec 1 := Scalar.cmpi .sgt c16384_i32_32 c0_i32_35
  let v78 : BitVec 32 := Scalar.extui v77
  let c0_i32_36 : BitVec 32 := 0#32
  let v79 : BitVec 1 := Scalar.cmpi .slt c16384_i32_32 c0_i32_36
  let v80 : BitVec 32 := Scalar.extui v79
  let v81 : BitVec 32 := Scalar.subi v78 v80
  let v82 : BitVec 1 := Scalar.cmpi .ne v76 v81
  let v83 : BitVec 32 := Scalar.remsi v70 c16384_i32_32
  let c0_i32_37 : BitVec 32 := 0#32
  let v84 : BitVec 1 := Scalar.cmpi .ne v83 c0_i32_37
  let v85 : BitVec 1 := Scalar.andi v82 v84
  let v71 : BitVec 32 := Scalar.divsi v70 c16384_i32_32
  let c1_i32_38 : BitVec 32 := 1#32
  let v86 : BitVec 32 := Scalar.subi v71 c1_i32_38
  let v87 : BitVec 32 := Scalar.select v85 v86 v71
  let v97 : Index := Scalar.indexCast v87
  let c48_42 : Index := 48#32
  ![v97.toNat, 48]
def k0_off26 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c128_i32_31 : BitVec 32 := 128#32
  let v69 : BitVec 32 := Scalar.muli v8 c128_i32_31
  let v70 : BitVec 32 := Scalar.addi v2 v69
  let c0_i32_33 : BitVec 32 := 0#32
  let v72 : BitVec 1 := Scalar.cmpi .sgt v70 c0_i32_33
  let v73 : BitVec 32 := Scalar.extui v72
  let c0_i32_34 : BitVec 32 := 0#32
  let v74 : BitVec 1 := Scalar.cmpi .slt v70 c0_i32_34
  let v75 : BitVec 32 := Scalar.extui v74
  let v76 : BitVec 32 := Scalar.subi v73 v75
  let c16384_i32_32 : BitVec 32 := 16384#32
  let c0_i32_35 : BitVec 32 := 0#32
  let v77 : BitVec 1 := Scalar.cmpi .sgt c16384_i32_32 c0_i32_35
  let v78 : BitVec 32 := Scalar.extui v77
  let c0_i32_36 : BitVec 32 := 0#32
  let v79 : BitVec 1 := Scalar.cmpi .slt c16384_i32_32 c0_i32_36
  let v80 : BitVec 32 := Scalar.extui v79
  let v81 : BitVec 32 := Scalar.subi v78 v80
  let v82 : BitVec 1 := Scalar.cmpi .ne v76 v81
  let v83 : BitVec 32 := Scalar.remsi v70 c16384_i32_32
  let c0_i32_37 : BitVec 32 := 0#32
  let v84 : BitVec 1 := Scalar.cmpi .ne v83 c0_i32_37
  let v85 : BitVec 1 := Scalar.andi v82 v84
  let v71 : BitVec 32 := Scalar.divsi v70 c16384_i32_32
  let c1_i32_38 : BitVec 32 := 1#32
  let v86 : BitVec 32 := Scalar.subi v71 c1_i32_38
  let v87 : BitVec 32 := Scalar.select v85 v86 v71
  let v100 : Index := Scalar.indexCast v87
  let c64_43 : Index := 64#32
  ![v100.toNat, 64]
def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c128_i32_31 : BitVec 32 := 128#32
  let v69 : BitVec 32 := Scalar.muli v8 c128_i32_31
  let v70 : BitVec 32 := Scalar.addi v2 v69
  let c0_i32_33 : BitVec 32 := 0#32
  let v72 : BitVec 1 := Scalar.cmpi .sgt v70 c0_i32_33
  let v73 : BitVec 32 := Scalar.extui v72
  let c0_i32_34 : BitVec 32 := 0#32
  let v74 : BitVec 1 := Scalar.cmpi .slt v70 c0_i32_34
  let v75 : BitVec 32 := Scalar.extui v74
  let v76 : BitVec 32 := Scalar.subi v73 v75
  let c16384_i32_32 : BitVec 32 := 16384#32
  let c0_i32_35 : BitVec 32 := 0#32
  let v77 : BitVec 1 := Scalar.cmpi .sgt c16384_i32_32 c0_i32_35
  let v78 : BitVec 32 := Scalar.extui v77
  let c0_i32_36 : BitVec 32 := 0#32
  let v79 : BitVec 1 := Scalar.cmpi .slt c16384_i32_32 c0_i32_36
  let v80 : BitVec 32 := Scalar.extui v79
  let v81 : BitVec 32 := Scalar.subi v78 v80
  let v82 : BitVec 1 := Scalar.cmpi .ne v76 v81
  let v83 : BitVec 32 := Scalar.remsi v70 c16384_i32_32
  let c0_i32_37 : BitVec 32 := 0#32
  let v84 : BitVec 1 := Scalar.cmpi .ne v83 c0_i32_37
  let v85 : BitVec 1 := Scalar.andi v82 v84
  let v71 : BitVec 32 := Scalar.divsi v70 c16384_i32_32
  let c1_i32_38 : BitVec 32 := 1#32
  let v86 : BitVec 32 := Scalar.subi v71 c1_i32_38
  let v87 : BitVec 32 := Scalar.select v85 v86 v71
  let v103 : Index := Scalar.indexCast v87
  let c80_44 : Index := 80#32
  ![v103.toNat, 80]
def k0_off28 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c128_i32_31 : BitVec 32 := 128#32
  let v69 : BitVec 32 := Scalar.muli v8 c128_i32_31
  let v70 : BitVec 32 := Scalar.addi v2 v69
  let c0_i32_33 : BitVec 32 := 0#32
  let v72 : BitVec 1 := Scalar.cmpi .sgt v70 c0_i32_33
  let v73 : BitVec 32 := Scalar.extui v72
  let c0_i32_34 : BitVec 32 := 0#32
  let v74 : BitVec 1 := Scalar.cmpi .slt v70 c0_i32_34
  let v75 : BitVec 32 := Scalar.extui v74
  let v76 : BitVec 32 := Scalar.subi v73 v75
  let c16384_i32_32 : BitVec 32 := 16384#32
  let c0_i32_35 : BitVec 32 := 0#32
  let v77 : BitVec 1 := Scalar.cmpi .sgt c16384_i32_32 c0_i32_35
  let v78 : BitVec 32 := Scalar.extui v77
  let c0_i32_36 : BitVec 32 := 0#32
  let v79 : BitVec 1 := Scalar.cmpi .slt c16384_i32_32 c0_i32_36
  let v80 : BitVec 32 := Scalar.extui v79
  let v81 : BitVec 32 := Scalar.subi v78 v80
  let v82 : BitVec 1 := Scalar.cmpi .ne v76 v81
  let v83 : BitVec 32 := Scalar.remsi v70 c16384_i32_32
  let c0_i32_37 : BitVec 32 := 0#32
  let v84 : BitVec 1 := Scalar.cmpi .ne v83 c0_i32_37
  let v85 : BitVec 1 := Scalar.andi v82 v84
  let v71 : BitVec 32 := Scalar.divsi v70 c16384_i32_32
  let c1_i32_38 : BitVec 32 := 1#32
  let v86 : BitVec 32 := Scalar.subi v71 c1_i32_38
  let v87 : BitVec 32 := Scalar.select v85 v86 v71
  let v106 : Index := Scalar.indexCast v87
  let c96_45 : Index := 96#32
  ![v106.toNat, 96]
def k0_off29 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c128_i32_31 : BitVec 32 := 128#32
  let v69 : BitVec 32 := Scalar.muli v8 c128_i32_31
  let v70 : BitVec 32 := Scalar.addi v2 v69
  let c0_i32_33 : BitVec 32 := 0#32
  let v72 : BitVec 1 := Scalar.cmpi .sgt v70 c0_i32_33
  let v73 : BitVec 32 := Scalar.extui v72
  let c0_i32_34 : BitVec 32 := 0#32
  let v74 : BitVec 1 := Scalar.cmpi .slt v70 c0_i32_34
  let v75 : BitVec 32 := Scalar.extui v74
  let v76 : BitVec 32 := Scalar.subi v73 v75
  let c16384_i32_32 : BitVec 32 := 16384#32
  let c0_i32_35 : BitVec 32 := 0#32
  let v77 : BitVec 1 := Scalar.cmpi .sgt c16384_i32_32 c0_i32_35
  let v78 : BitVec 32 := Scalar.extui v77
  let c0_i32_36 : BitVec 32 := 0#32
  let v79 : BitVec 1 := Scalar.cmpi .slt c16384_i32_32 c0_i32_36
  let v80 : BitVec 32 := Scalar.extui v79
  let v81 : BitVec 32 := Scalar.subi v78 v80
  let v82 : BitVec 1 := Scalar.cmpi .ne v76 v81
  let v83 : BitVec 32 := Scalar.remsi v70 c16384_i32_32
  let c0_i32_37 : BitVec 32 := 0#32
  let v84 : BitVec 1 := Scalar.cmpi .ne v83 c0_i32_37
  let v85 : BitVec 1 := Scalar.andi v82 v84
  let v71 : BitVec 32 := Scalar.divsi v70 c16384_i32_32
  let c1_i32_38 : BitVec 32 := 1#32
  let v86 : BitVec 32 := Scalar.subi v71 c1_i32_38
  let v87 : BitVec 32 := Scalar.select v85 v86 v71
  let v109 : Index := Scalar.indexCast v87
  let c112_46 : Index := 112#32
  ![v109.toNat, 112]
@[reducible] def k0_t3_loop : Scf.Loop 32 :=
  let c0_i32_48 : BitVec 32 := 0#32
  let c128_i32_49 : BitVec 32 := 128#32
  let v112 : BitVec 32 := Scalar.addi c0_i32_48 c128_i32_49
  let c1_i32_50 : BitVec 32 := 1#32
  ⟨c0_i32_48, v112, c1_i32_50⟩
def k0_off30 (k0_t3 : Fin k0_t3_loop.trips) : Fin 2 → Nat :=
  let c0_i32_48 : BitVec 32 := 0#32
  let c1_i32_50 : BitVec 32 := 1#32
  let arg13 : BitVec 32 := Scf.iv c0_i32_48 c1_i32_50 k0_t3
  let v116 : Index := Scalar.indexCast arg13
  let c0_54 : Index := 0#32
  ![v116.toNat, 0]
def k0_off31 (k0_t3 : Fin k0_t3_loop.trips) : Fin 2 → Nat :=
  let c0_i32_48 : BitVec 32 := 0#32
  let c1_i32_50 : BitVec 32 := 1#32
  let arg13 : BitVec 32 := Scf.iv c0_i32_48 c1_i32_50 k0_t3
  let v124 : Index := Scalar.indexCast arg13
  let c16_56 : Index := 16#32
  ![v124.toNat, 16]
def k0_off32 (k0_t3 : Fin k0_t3_loop.trips) : Fin 2 → Nat :=
  let c0_i32_48 : BitVec 32 := 0#32
  let c1_i32_50 : BitVec 32 := 1#32
  let arg13 : BitVec 32 := Scf.iv c0_i32_48 c1_i32_50 k0_t3
  let v132 : Index := Scalar.indexCast arg13
  let c32_58 : Index := 32#32
  ![v132.toNat, 32]
def k0_off33 (k0_t3 : Fin k0_t3_loop.trips) : Fin 2 → Nat :=
  let c0_i32_48 : BitVec 32 := 0#32
  let c1_i32_50 : BitVec 32 := 1#32
  let arg13 : BitVec 32 := Scf.iv c0_i32_48 c1_i32_50 k0_t3
  let v140 : Index := Scalar.indexCast arg13
  let c48_60 : Index := 48#32
  ![v140.toNat, 48]
def k0_off34 (k0_t3 : Fin k0_t3_loop.trips) : Fin 2 → Nat :=
  let c0_i32_48 : BitVec 32 := 0#32
  let c1_i32_50 : BitVec 32 := 1#32
  let arg13 : BitVec 32 := Scf.iv c0_i32_48 c1_i32_50 k0_t3
  let v148 : Index := Scalar.indexCast arg13
  let c64_62 : Index := 64#32
  ![v148.toNat, 64]
def k0_off35 (k0_t3 : Fin k0_t3_loop.trips) : Fin 2 → Nat :=
  let c0_i32_48 : BitVec 32 := 0#32
  let c1_i32_50 : BitVec 32 := 1#32
  let arg13 : BitVec 32 := Scf.iv c0_i32_48 c1_i32_50 k0_t3
  let v156 : Index := Scalar.indexCast arg13
  let c80_64 : Index := 80#32
  ![v156.toNat, 80]
def k0_off36 (k0_t3 : Fin k0_t3_loop.trips) : Fin 2 → Nat :=
  let c0_i32_48 : BitVec 32 := 0#32
  let c1_i32_50 : BitVec 32 := 1#32
  let arg13 : BitVec 32 := Scf.iv c0_i32_48 c1_i32_50 k0_t3
  let v164 : Index := Scalar.indexCast arg13
  let c96_66 : Index := 96#32
  ![v164.toNat, 96]
def k0_off37 (k0_t3 : Fin k0_t3_loop.trips) : Fin 2 → Nat :=
  let c0_i32_48 : BitVec 32 := 0#32
  let c1_i32_50 : BitVec 32 := 1#32
  let arg13 : BitVec 32 := Scf.iv c0_i32_48 c1_i32_50 k0_t3
  let v172 : Index := Scalar.indexCast arg13
  let c112_68 : Index := 112#32
  ![v172.toNat, 112]
def k0_off38 (i : grid0.Coords) (k0_t1 : Fin k0_t1_loop.trips) : Fin 2 → Nat :=
  let c1638400_i32_52 : BitVec 32 := 1638400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v113 : BitVec 32 := Scalar.addi c1638400_i32_52 v2
  let c2_i32_6 : BitVec 32 := 2#32
  let c0_i32_4 : BitVec 32 := 0#32
  let c1_i32 : BitVec 32 := 1#32
  let arg12 : BitVec 32 := Scf.iv c0_i32_4 c1_i32 k0_t1
  let v7 : BitVec 32 := Scalar.muli c2_i32_6 arg12
  let c1_i32_7 : BitVec 32 := 1#32
  let v8 : BitVec 32 := Scalar.addi v7 c1_i32_7
  let c128_i32_53 : BitVec 32 := 128#32
  let v114 : BitVec 32 := Scalar.muli v8 c128_i32_53
  let v115 : BitVec 32 := Scalar.addi v113 v114
  let c0_i32_54_r3 : BitVec 32 := 0#32
  ![v115.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S100x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S26 : S_.BroadcastsInDim S26 (![] : Fin 0 → Fin S26.rank)
  transposes_S16384x26_S26x16384_1_0 : S16384x26.Transposes [1, 0] S26x16384
  bcast_S26_S26x1_0 : S26.BroadcastsInDim S26x1 (![0] : Fin 1 → Fin S26x1.rank)
  bcast_S26x1_S26x16384_0_1 : S26x1.BroadcastsInDim S26x16384 (![0, 1] : Fin 2 → Fin S26x16384.rank)
  shapeCasts_S26x16384_S32x104x128 : S26x16384.ShapeCasts S32x104x128
  squeezes_S1x104x128_S104x128 : S1x104x128.Squeezes S104x128
  inb_S104x128_S1x128_0_0 : ∀ a, (![0, 0] : Fin 2 → Nat) a + S1x128.size a ≤ S104x128.size a
  squeezes_S1x128_S128 : S1x128.Squeezes S128
  inb_S26000x128_S26000x128_0_0 : ∀ a, (![0, 0] : Fin 2 → Nat) a + S26000x128.size a ≤ S26000x128.size a
  gathers_S26000x128_S128x128 : S26000x128.Gathers 0 S128x128
  h_S1x16 : 0 < S1x16.numel
  shapeCasts_S1x16_S16 : S1x16.ShapeCasts S16
  shapeCasts_S16_S1x16 : S16.ShapeCasts S1x16
  shapeCasts_S2064384x128_S126x16384x128 : S2064384x128.ShapeCasts S126x16384x128
  inb_S512x100_S512x1_0_0 : ∀ a, (![0, 0] : Fin 2 → Nat) a + S512x1.size a ≤ S512x100.size a
  h_S512x1 : 0 < S512x1.numel
  inb_S100x128_S1x128_0_0 : ∀ a, (![0, 0] : Fin 2 → Nat) a + S1x128.size a ≤ S100x128.size a
  h_S1x128 : 0 < S1x128.numel
  broadcasts_S512x1_S512x128 : S512x1.Broadcasts S512x128
  broadcasts_S1x128_S512x128 : S1x128.Broadcasts S512x128
  inb_S100x512x128_S1x512x128_0_0_0 : ∀ a, (![0, 0, 0] : Fin 3 → Nat) a + S1x512x128.size a ≤ S100x512x128.size a
  h_S1x512x128 : 0 < S1x512x128.numel
  shapeCasts_S1x512x128_S512x128 : S1x512x128.ShapeCasts S512x128
  shapeCasts_S512x128_S1x512x128 : S512x128.ShapeCasts S1x512x128
  inb_S512x100_S512x1_0_1 : ∀ a, (![0, 1] : Fin 2 → Nat) a + S512x1.size a ≤ S512x100.size a
  inb_S100x128_S1x128_1_0 : ∀ a, (![1, 0] : Fin 2 → Nat) a + S1x128.size a ≤ S100x128.size a
  inb_S100x512x128_S1x512x128_1_0_0 : ∀ a, (![1, 0, 0] : Fin 3 → Nat) a + S1x512x128.size a ≤ S100x512x128.size a
  inb_S512x100_S512x1_0_2 : ∀ a, (![0, 2] : Fin 2 → Nat) a + S512x1.size a ≤ S512x100.size a
  inb_S100x128_S1x128_2_0 : ∀ a, (![2, 0] : Fin 2 → Nat) a + S1x128.size a ≤ S100x128.size a
  inb_S100x512x128_S1x512x128_2_0_0 : ∀ a, (![2, 0, 0] : Fin 3 → Nat) a + S1x512x128.size a ≤ S100x512x128.size a
  inb_S512x100_S512x1_0_3 : ∀ a, (![0, 3] : Fin 2 → Nat) a + S512x1.size a ≤ S512x100.size a
  inb_S100x128_S1x128_3_0 : ∀ a, (![3, 0] : Fin 2 → Nat) a + S1x128.size a ≤ S100x128.size a
  inb_S100x512x128_S1x512x128_3_0_0 : ∀ a, (![3, 0, 0] : Fin 3 → Nat) a + S1x512x128.size a ≤ S100x512x128.size a
  inb_S512x100_S512x1_0_4 : ∀ a, (![0, 4] : Fin 2 → Nat) a + S512x1.size a ≤ S512x100.size a
  inb_S100x128_S1x128_4_0 : ∀ a, (![4, 0] : Fin 2 → Nat) a + S1x128.size a ≤ S100x128.size a
  inb_S100x512x128_S1x512x128_4_0_0 : ∀ a, (![4, 0, 0] : Fin 3 → Nat) a + S1x512x128.size a ≤ S100x512x128.size a
  inb_S512x100_S512x1_0_5 : ∀ a, (![0, 5] : Fin 2 → Nat) a + S512x1.size a ≤ S512x100.size a
  inb_S100x128_S1x128_5_0 : ∀ a, (![5, 0] : Fin 2 → Nat) a + S1x128.size a ≤ S100x128.size a
  inb_S100x512x128_S1x512x128_5_0_0 : ∀ a, (![5, 0, 0] : Fin 3 → Nat) a + S1x512x128.size a ≤ S100x512x128.size a
  inb_S512x100_S512x1_0_6 : ∀ a, (![0, 6] : Fin 2 → Nat) a + S512x1.size a ≤ S512x100.size a
  inb_S100x128_S1x128_6_0 : ∀ a, (![6, 0] : Fin 2 → Nat) a + S1x128.size a ≤ S100x128.size a
  inb_S100x512x128_S1x512x128_6_0_0 : ∀ a, (![6, 0, 0] : Fin 3 → Nat) a + S1x512x128.size a ≤ S100x512x128.size a
  inb_S512x100_S512x1_0_7 : ∀ a, (![0, 7] : Fin 2 → Nat) a + S512x1.size a ≤ S512x100.size a
  inb_S100x128_S1x128_7_0 : ∀ a, (![7, 0] : Fin 2 → Nat) a + S1x128.size a ≤ S100x128.size a
  inb_S100x512x128_S1x512x128_7_0_0 : ∀ a, (![7, 0, 0] : Fin 3 → Nat) a + S1x512x128.size a ≤ S100x512x128.size a
  inb_S512x100_S512x1_0_8 : ∀ a, (![0, 8] : Fin 2 → Nat) a + S512x1.size a ≤ S512x100.size a
  inb_S100x128_S1x128_8_0 : ∀ a, (![8, 0] : Fin 2 → Nat) a + S1x128.size a ≤ S100x128.size a
  inb_S100x512x128_S1x512x128_8_0_0 : ∀ a, (![8, 0, 0] : Fin 3 → Nat) a + S1x512x128.size a ≤ S100x512x128.size a
  inb_S512x100_S512x1_0_9 : ∀ a, (![0, 9] : Fin 2 → Nat) a + S512x1.size a ≤ S512x100.size a
  inb_S100x128_S1x128_9_0 : ∀ a, (![9, 0] : Fin 2 → Nat) a + S1x128.size a ≤ S100x128.size a
  inb_S100x512x128_S1x512x128_9_0_0 : ∀ a, (![9, 0, 0] : Fin 3 → Nat) a + S1x512x128.size a ≤ S100x512x128.size a
  inb_S512x100_S512x1_0_10 : ∀ a, (![0, 10] : Fin 2 → Nat) a + S512x1.size a ≤ S512x100.size a
  inb_S100x128_S1x128_10_0 : ∀ a, (![10, 0] : Fin 2 → Nat) a + S1x128.size a ≤ S100x128.size a
  inb_S100x512x128_S1x512x128_10_0_0 : ∀ a, (![10, 0, 0] : Fin 3 → Nat) a + S1x512x128.size a ≤ S100x512x128.size a
  inb_S512x100_S512x1_0_11 : ∀ a, (![0, 11] : Fin 2 → Nat) a + S512x1.size a ≤ S512x100.size a
  inb_S100x128_S1x128_11_0 : ∀ a, (![11, 0] : Fin 2 → Nat) a + S1x128.size a ≤ S100x128.size a
  inb_S100x512x128_S1x512x128_11_0_0 : ∀ a, (![11, 0, 0] : Fin 3 → Nat) a + S1x512x128.size a ≤ S100x512x128.size a
  inb_S512x100_S512x1_0_12 : ∀ a, (![0, 12] : Fin 2 → Nat) a + S512x1.size a ≤ S512x100.size a
  inb_S100x128_S1x128_12_0 : ∀ a, (![12, 0] : Fin 2 → Nat) a + S1x128.size a ≤ S100x128.size a
  inb_S100x512x128_S1x512x128_12_0_0 : ∀ a, (![12, 0, 0] : Fin 3 → Nat) a + S1x512x128.size a ≤ S100x512x128.size a
  inb_S512x100_S512x1_0_13 : ∀ a, (![0, 13] : Fin 2 → Nat) a + S512x1.size a ≤ S512x100.size a
  inb_S100x128_S1x128_13_0 : ∀ a, (![13, 0] : Fin 2 → Nat) a + S1x128.size a ≤ S100x128.size a
  inb_S100x512x128_S1x512x128_13_0_0 : ∀ a, (![13, 0, 0] : Fin 3 → Nat) a + S1x512x128.size a ≤ S100x512x128.size a
  inb_S512x100_S512x1_0_14 : ∀ a, (![0, 14] : Fin 2 → Nat) a + S512x1.size a ≤ S512x100.size a
  inb_S100x128_S1x128_14_0 : ∀ a, (![14, 0] : Fin 2 → Nat) a + S1x128.size a ≤ S100x128.size a
  inb_S100x512x128_S1x512x128_14_0_0 : ∀ a, (![14, 0, 0] : Fin 3 → Nat) a + S1x512x128.size a ≤ S100x512x128.size a
  inb_S512x100_S512x1_0_15 : ∀ a, (![0, 15] : Fin 2 → Nat) a + S512x1.size a ≤ S512x100.size a
  inb_S100x128_S1x128_15_0 : ∀ a, (![15, 0] : Fin 2 → Nat) a + S1x128.size a ≤ S100x128.size a
  inb_S100x512x128_S1x512x128_15_0_0 : ∀ a, (![15, 0, 0] : Fin 3 → Nat) a + S1x512x128.size a ≤ S100x512x128.size a
  inb_S512x100_S512x1_0_16 : ∀ a, (![0, 16] : Fin 2 → Nat) a + S512x1.size a ≤ S512x100.size a
  inb_S100x128_S1x128_16_0 : ∀ a, (![16, 0] : Fin 2 → Nat) a + S1x128.size a ≤ S100x128.size a
  inb_S100x512x128_S1x512x128_16_0_0 : ∀ a, (![16, 0, 0] : Fin 3 → Nat) a + S1x512x128.size a ≤ S100x512x128.size a
  inb_S512x100_S512x1_0_17 : ∀ a, (![0, 17] : Fin 2 → Nat) a + S512x1.size a ≤ S512x100.size a
  inb_S100x128_S1x128_17_0 : ∀ a, (![17, 0] : Fin 2 → Nat) a + S1x128.size a ≤ S100x128.size a
  inb_S100x512x128_S1x512x128_17_0_0 : ∀ a, (![17, 0, 0] : Fin 3 → Nat) a + S1x512x128.size a ≤ S100x512x128.size a
  inb_S512x100_S512x1_0_18 : ∀ a, (![0, 18] : Fin 2 → Nat) a + S512x1.size a ≤ S512x100.size a
  inb_S100x128_S1x128_18_0 : ∀ a, (![18, 0] : Fin 2 → Nat) a + S1x128.size a ≤ S100x128.size a
  inb_S100x512x128_S1x512x128_18_0_0 : ∀ a, (![18, 0, 0] : Fin 3 → Nat) a + S1x512x128.size a ≤ S100x512x128.size a
  inb_S512x100_S512x1_0_19 : ∀ a, (![0, 19] : Fin 2 → Nat) a + S512x1.size a ≤ S512x100.size a
  inb_S100x128_S1x128_19_0 : ∀ a, (![19, 0] : Fin 2 → Nat) a + S1x128.size a ≤ S100x128.size a
  inb_S100x512x128_S1x512x128_19_0_0 : ∀ a, (![19, 0, 0] : Fin 3 → Nat) a + S1x512x128.size a ≤ S100x512x128.size a
  inb_S512x100_S512x1_0_20 : ∀ a, (![0, 20] : Fin 2 → Nat) a + S512x1.size a ≤ S512x100.size a
  inb_S100x128_S1x128_20_0 : ∀ a, (![20, 0] : Fin 2 → Nat) a + S1x128.size a ≤ S100x128.size a
  inb_S100x512x128_S1x512x128_20_0_0 : ∀ a, (![20, 0, 0] : Fin 3 → Nat) a + S1x512x128.size a ≤ S100x512x128.size a
  inb_S512x100_S512x1_0_21 : ∀ a, (![0, 21] : Fin 2 → Nat) a + S512x1.size a ≤ S512x100.size a
  inb_S100x128_S1x128_21_0 : ∀ a, (![21, 0] : Fin 2 → Nat) a + S1x128.size a ≤ S100x128.size a
  inb_S100x512x128_S1x512x128_21_0_0 : ∀ a, (![21, 0, 0] : Fin 3 → Nat) a + S1x512x128.size a ≤ S100x512x128.size a
  inb_S512x100_S512x1_0_22 : ∀ a, (![0, 22] : Fin 2 → Nat) a + S512x1.size a ≤ S512x100.size a
  inb_S100x128_S1x128_22_0 : ∀ a, (![22, 0] : Fin 2 → Nat) a + S1x128.size a ≤ S100x128.size a
  inb_S100x512x128_S1x512x128_22_0_0 : ∀ a, (![22, 0, 0] : Fin 3 → Nat) a + S1x512x128.size a ≤ S100x512x128.size a
  inb_S512x100_S512x1_0_23 : ∀ a, (![0, 23] : Fin 2 → Nat) a + S512x1.size a ≤ S512x100.size a
  inb_S100x128_S1x128_23_0 : ∀ a, (![23, 0] : Fin 2 → Nat) a + S1x128.size a ≤ S100x128.size a
  inb_S100x512x128_S1x512x128_23_0_0 : ∀ a, (![23, 0, 0] : Fin 3 → Nat) a + S1x512x128.size a ≤ S100x512x128.size a
  inb_S512x100_S512x1_0_24 : ∀ a, (![0, 24] : Fin 2 → Nat) a + S512x1.size a ≤ S512x100.size a
  inb_S100x128_S1x128_24_0 : ∀ a, (![24, 0] : Fin 2 → Nat) a + S1x128.size a ≤ S100x128.size a
  inb_S100x512x128_S1x512x128_24_0_0 : ∀ a, (![24, 0, 0] : Fin 3 → Nat) a + S1x512x128.size a ≤ S100x512x128.size a
  inb_S512x100_S512x1_0_25 : ∀ a, (![0, 25] : Fin 2 → Nat) a + S512x1.size a ≤ S512x100.size a
  inb_S100x128_S1x128_25_0 : ∀ a, (![25, 0] : Fin 2 → Nat) a + S1x128.size a ≤ S100x128.size a
  inb_S100x512x128_S1x512x128_25_0_0 : ∀ a, (![25, 0, 0] : Fin 3 → Nat) a + S1x512x128.size a ≤ S100x512x128.size a
  inb_S512x100_S512x1_0_26 : ∀ a, (![0, 26] : Fin 2 → Nat) a + S512x1.size a ≤ S512x100.size a
  inb_S100x128_S1x128_26_0 : ∀ a, (![26, 0] : Fin 2 → Nat) a + S1x128.size a ≤ S100x128.size a
  inb_S100x512x128_S1x512x128_26_0_0 : ∀ a, (![26, 0, 0] : Fin 3 → Nat) a + S1x512x128.size a ≤ S100x512x128.size a
  inb_S512x100_S512x1_0_27 : ∀ a, (![0, 27] : Fin 2 → Nat) a + S512x1.size a ≤ S512x100.size a
  inb_S100x128_S1x128_27_0 : ∀ a, (![27, 0] : Fin 2 → Nat) a + S1x128.size a ≤ S100x128.size a
  inb_S100x512x128_S1x512x128_27_0_0 : ∀ a, (![27, 0, 0] : Fin 3 → Nat) a + S1x512x128.size a ≤ S100x512x128.size a
  inb_S512x100_S512x1_0_28 : ∀ a, (![0, 28] : Fin 2 → Nat) a + S512x1.size a ≤ S512x100.size a
  inb_S100x128_S1x128_28_0 : ∀ a, (![28, 0] : Fin 2 → Nat) a + S1x128.size a ≤ S100x128.size a
  inb_S100x512x128_S1x512x128_28_0_0 : ∀ a, (![28, 0, 0] : Fin 3 → Nat) a + S1x512x128.size a ≤ S100x512x128.size a
  inb_S512x100_S512x1_0_29 : ∀ a, (![0, 29] : Fin 2 → Nat) a + S512x1.size a ≤ S512x100.size a
  inb_S100x128_S1x128_29_0 : ∀ a, (![29, 0] : Fin 2 → Nat) a + S1x128.size a ≤ S100x128.size a
  inb_S100x512x128_S1x512x128_29_0_0 : ∀ a, (![29, 0, 0] : Fin 3 → Nat) a + S1x512x128.size a ≤ S100x512x128.size a
  inb_S512x100_S512x1_0_30 : ∀ a, (![0, 30] : Fin 2 → Nat) a + S512x1.size a ≤ S512x100.size a
  inb_S100x128_S1x128_30_0 : ∀ a, (![30, 0] : Fin 2 → Nat) a + S1x128.size a ≤ S100x128.size a
  inb_S100x512x128_S1x512x128_30_0_0 : ∀ a, (![30, 0, 0] : Fin 3 → Nat) a + S1x512x128.size a ≤ S100x512x128.size a
  inb_S512x100_S512x1_0_31 : ∀ a, (![0, 31] : Fin 2 → Nat) a + S512x1.size a ≤ S512x100.size a
  inb_S100x128_S1x128_31_0 : ∀ a, (![31, 0] : Fin 2 → Nat) a + S1x128.size a ≤ S100x128.size a
  inb_S100x512x128_S1x512x128_31_0_0 : ∀ a, (![31, 0, 0] : Fin 3 → Nat) a + S1x512x128.size a ≤ S100x512x128.size a
  inb_S512x100_S512x1_0_32 : ∀ a, (![0, 32] : Fin 2 → Nat) a + S512x1.size a ≤ S512x100.size a
  inb_S100x128_S1x128_32_0 : ∀ a, (![32, 0] : Fin 2 → Nat) a + S1x128.size a ≤ S100x128.size a
  inb_S100x512x128_S1x512x128_32_0_0 : ∀ a, (![32, 0, 0] : Fin 3 → Nat) a + S1x512x128.size a ≤ S100x512x128.size a
  inb_S512x100_S512x1_0_33 : ∀ a, (![0, 33] : Fin 2 → Nat) a + S512x1.size a ≤ S512x100.size a
  inb_S100x128_S1x128_33_0 : ∀ a, (![33, 0] : Fin 2 → Nat) a + S1x128.size a ≤ S100x128.size a
  inb_S100x512x128_S1x512x128_33_0_0 : ∀ a, (![33, 0, 0] : Fin 3 → Nat) a + S1x512x128.size a ≤ S100x512x128.size a
  inb_S512x100_S512x1_0_34 : ∀ a, (![0, 34] : Fin 2 → Nat) a + S512x1.size a ≤ S512x100.size a
  inb_S100x128_S1x128_34_0 : ∀ a, (![34, 0] : Fin 2 → Nat) a + S1x128.size a ≤ S100x128.size a
  inb_S100x512x128_S1x512x128_34_0_0 : ∀ a, (![34, 0, 0] : Fin 3 → Nat) a + S1x512x128.size a ≤ S100x512x128.size a
  inb_S512x100_S512x1_0_35 : ∀ a, (![0, 35] : Fin 2 → Nat) a + S512x1.size a ≤ S512x100.size a
  inb_S100x128_S1x128_35_0 : ∀ a, (![35, 0] : Fin 2 → Nat) a + S1x128.size a ≤ S100x128.size a
  inb_S100x512x128_S1x512x128_35_0_0 : ∀ a, (![35, 0, 0] : Fin 3 → Nat) a + S1x512x128.size a ≤ S100x512x128.size a
  inb_S512x100_S512x1_0_36 : ∀ a, (![0, 36] : Fin 2 → Nat) a + S512x1.size a ≤ S512x100.size a
  inb_S100x128_S1x128_36_0 : ∀ a, (![36, 0] : Fin 2 → Nat) a + S1x128.size a ≤ S100x128.size a
  inb_S100x512x128_S1x512x128_36_0_0 : ∀ a, (![36, 0, 0] : Fin 3 → Nat) a + S1x512x128.size a ≤ S100x512x128.size a
  inb_S512x100_S512x1_0_37 : ∀ a, (![0, 37] : Fin 2 → Nat) a + S512x1.size a ≤ S512x100.size a
  inb_S100x128_S1x128_37_0 : ∀ a, (![37, 0] : Fin 2 → Nat) a + S1x128.size a ≤ S100x128.size a
  inb_S100x512x128_S1x512x128_37_0_0 : ∀ a, (![37, 0, 0] : Fin 3 → Nat) a + S1x512x128.size a ≤ S100x512x128.size a
  inb_S512x100_S512x1_0_38 : ∀ a, (![0, 38] : Fin 2 → Nat) a + S512x1.size a ≤ S512x100.size a
  inb_S100x128_S1x128_38_0 : ∀ a, (![38, 0] : Fin 2 → Nat) a + S1x128.size a ≤ S100x128.size a
  inb_S100x512x128_S1x512x128_38_0_0 : ∀ a, (![38, 0, 0] : Fin 3 → Nat) a + S1x512x128.size a ≤ S100x512x128.size a
  inb_S512x100_S512x1_0_39 : ∀ a, (![0, 39] : Fin 2 → Nat) a + S512x1.size a ≤ S512x100.size a
  inb_S100x128_S1x128_39_0 : ∀ a, (![39, 0] : Fin 2 → Nat) a + S1x128.size a ≤ S100x128.size a
  inb_S100x512x128_S1x512x128_39_0_0 : ∀ a, (![39, 0, 0] : Fin 3 → Nat) a + S1x512x128.size a ≤ S100x512x128.size a
  inb_S512x100_S512x1_0_40 : ∀ a, (![0, 40] : Fin 2 → Nat) a + S512x1.size a ≤ S512x100.size a
  inb_S100x128_S1x128_40_0 : ∀ a, (![40, 0] : Fin 2 → Nat) a + S1x128.size a ≤ S100x128.size a
  inb_S100x512x128_S1x512x128_40_0_0 : ∀ a, (![40, 0, 0] : Fin 3 → Nat) a + S1x512x128.size a ≤ S100x512x128.size a
  inb_S512x100_S512x1_0_41 : ∀ a, (![0, 41] : Fin 2 → Nat) a + S512x1.size a ≤ S512x100.size a
  inb_S100x128_S1x128_41_0 : ∀ a, (![41, 0] : Fin 2 → Nat) a + S1x128.size a ≤ S100x128.size a
  inb_S100x512x128_S1x512x128_41_0_0 : ∀ a, (![41, 0, 0] : Fin 3 → Nat) a + S1x512x128.size a ≤ S100x512x128.size a
  inb_S512x100_S512x1_0_42 : ∀ a, (![0, 42] : Fin 2 → Nat) a + S512x1.size a ≤ S512x100.size a
  inb_S100x128_S1x128_42_0 : ∀ a, (![42, 0] : Fin 2 → Nat) a + S1x128.size a ≤ S100x128.size a
  inb_S100x512x128_S1x512x128_42_0_0 : ∀ a, (![42, 0, 0] : Fin 3 → Nat) a + S1x512x128.size a ≤ S100x512x128.size a
  inb_S512x100_S512x1_0_43 : ∀ a, (![0, 43] : Fin 2 → Nat) a + S512x1.size a ≤ S512x100.size a
  inb_S100x128_S1x128_43_0 : ∀ a, (![43, 0] : Fin 2 → Nat) a + S1x128.size a ≤ S100x128.size a
  inb_S100x512x128_S1x512x128_43_0_0 : ∀ a, (![43, 0, 0] : Fin 3 → Nat) a + S1x512x128.size a ≤ S100x512x128.size a
  inb_S512x100_S512x1_0_44 : ∀ a, (![0, 44] : Fin 2 → Nat) a + S512x1.size a ≤ S512x100.size a
  inb_S100x128_S1x128_44_0 : ∀ a, (![44, 0] : Fin 2 → Nat) a + S1x128.size a ≤ S100x128.size a
  inb_S100x512x128_S1x512x128_44_0_0 : ∀ a, (![44, 0, 0] : Fin 3 → Nat) a + S1x512x128.size a ≤ S100x512x128.size a
  inb_S512x100_S512x1_0_45 : ∀ a, (![0, 45] : Fin 2 → Nat) a + S512x1.size a ≤ S512x100.size a
  inb_S100x128_S1x128_45_0 : ∀ a, (![45, 0] : Fin 2 → Nat) a + S1x128.size a ≤ S100x128.size a
  inb_S100x512x128_S1x512x128_45_0_0 : ∀ a, (![45, 0, 0] : Fin 3 → Nat) a + S1x512x128.size a ≤ S100x512x128.size a
  inb_S512x100_S512x1_0_46 : ∀ a, (![0, 46] : Fin 2 → Nat) a + S512x1.size a ≤ S512x100.size a
  inb_S100x128_S1x128_46_0 : ∀ a, (![46, 0] : Fin 2 → Nat) a + S1x128.size a ≤ S100x128.size a
  inb_S100x512x128_S1x512x128_46_0_0 : ∀ a, (![46, 0, 0] : Fin 3 → Nat) a + S1x512x128.size a ≤ S100x512x128.size a
  inb_S512x100_S512x1_0_47 : ∀ a, (![0, 47] : Fin 2 → Nat) a + S512x1.size a ≤ S512x100.size a
  inb_S100x128_S1x128_47_0 : ∀ a, (![47, 0] : Fin 2 → Nat) a + S1x128.size a ≤ S100x128.size a
  inb_S100x512x128_S1x512x128_47_0_0 : ∀ a, (![47, 0, 0] : Fin 3 → Nat) a + S1x512x128.size a ≤ S100x512x128.size a
  inb_S512x100_S512x1_0_48 : ∀ a, (![0, 48] : Fin 2 → Nat) a + S512x1.size a ≤ S512x100.size a
  inb_S100x128_S1x128_48_0 : ∀ a, (![48, 0] : Fin 2 → Nat) a + S1x128.size a ≤ S100x128.size a
  inb_S100x512x128_S1x512x128_48_0_0 : ∀ a, (![48, 0, 0] : Fin 3 → Nat) a + S1x512x128.size a ≤ S100x512x128.size a
  inb_S512x100_S512x1_0_49 : ∀ a, (![0, 49] : Fin 2 → Nat) a + S512x1.size a ≤ S512x100.size a
  inb_S100x128_S1x128_49_0 : ∀ a, (![49, 0] : Fin 2 → Nat) a + S1x128.size a ≤ S100x128.size a
  inb_S100x512x128_S1x512x128_49_0_0 : ∀ a, (![49, 0, 0] : Fin 3 → Nat) a + S1x512x128.size a ≤ S100x512x128.size a
  inb_S512x100_S512x1_0_50 : ∀ a, (![0, 50] : Fin 2 → Nat) a + S512x1.size a ≤ S512x100.size a
  inb_S100x128_S1x128_50_0 : ∀ a, (![50, 0] : Fin 2 → Nat) a + S1x128.size a ≤ S100x128.size a
  inb_S100x512x128_S1x512x128_50_0_0 : ∀ a, (![50, 0, 0] : Fin 3 → Nat) a + S1x512x128.size a ≤ S100x512x128.size a
  inb_S512x100_S512x1_0_51 : ∀ a, (![0, 51] : Fin 2 → Nat) a + S512x1.size a ≤ S512x100.size a
  inb_S100x128_S1x128_51_0 : ∀ a, (![51, 0] : Fin 2 → Nat) a + S1x128.size a ≤ S100x128.size a
  inb_S100x512x128_S1x512x128_51_0_0 : ∀ a, (![51, 0, 0] : Fin 3 → Nat) a + S1x512x128.size a ≤ S100x512x128.size a
  inb_S512x100_S512x1_0_52 : ∀ a, (![0, 52] : Fin 2 → Nat) a + S512x1.size a ≤ S512x100.size a
  inb_S100x128_S1x128_52_0 : ∀ a, (![52, 0] : Fin 2 → Nat) a + S1x128.size a ≤ S100x128.size a
  inb_S100x512x128_S1x512x128_52_0_0 : ∀ a, (![52, 0, 0] : Fin 3 → Nat) a + S1x512x128.size a ≤ S100x512x128.size a
  inb_S512x100_S512x1_0_53 : ∀ a, (![0, 53] : Fin 2 → Nat) a + S512x1.size a ≤ S512x100.size a
  inb_S100x128_S1x128_53_0 : ∀ a, (![53, 0] : Fin 2 → Nat) a + S1x128.size a ≤ S100x128.size a
  inb_S100x512x128_S1x512x128_53_0_0 : ∀ a, (![53, 0, 0] : Fin 3 → Nat) a + S1x512x128.size a ≤ S100x512x128.size a
  inb_S512x100_S512x1_0_54 : ∀ a, (![0, 54] : Fin 2 → Nat) a + S512x1.size a ≤ S512x100.size a
  inb_S100x128_S1x128_54_0 : ∀ a, (![54, 0] : Fin 2 → Nat) a + S1x128.size a ≤ S100x128.size a
  inb_S100x512x128_S1x512x128_54_0_0 : ∀ a, (![54, 0, 0] : Fin 3 → Nat) a + S1x512x128.size a ≤ S100x512x128.size a
  inb_S512x100_S512x1_0_55 : ∀ a, (![0, 55] : Fin 2 → Nat) a + S512x1.size a ≤ S512x100.size a
  inb_S100x128_S1x128_55_0 : ∀ a, (![55, 0] : Fin 2 → Nat) a + S1x128.size a ≤ S100x128.size a
  inb_S100x512x128_S1x512x128_55_0_0 : ∀ a, (![55, 0, 0] : Fin 3 → Nat) a + S1x512x128.size a ≤ S100x512x128.size a
  inb_S512x100_S512x1_0_56 : ∀ a, (![0, 56] : Fin 2 → Nat) a + S512x1.size a ≤ S512x100.size a
  inb_S100x128_S1x128_56_0 : ∀ a, (![56, 0] : Fin 2 → Nat) a + S1x128.size a ≤ S100x128.size a
  inb_S100x512x128_S1x512x128_56_0_0 : ∀ a, (![56, 0, 0] : Fin 3 → Nat) a + S1x512x128.size a ≤ S100x512x128.size a
  inb_S512x100_S512x1_0_57 : ∀ a, (![0, 57] : Fin 2 → Nat) a + S512x1.size a ≤ S512x100.size a
  inb_S100x128_S1x128_57_0 : ∀ a, (![57, 0] : Fin 2 → Nat) a + S1x128.size a ≤ S100x128.size a
  inb_S100x512x128_S1x512x128_57_0_0 : ∀ a, (![57, 0, 0] : Fin 3 → Nat) a + S1x512x128.size a ≤ S100x512x128.size a
  inb_S512x100_S512x1_0_58 : ∀ a, (![0, 58] : Fin 2 → Nat) a + S512x1.size a ≤ S512x100.size a
  inb_S100x128_S1x128_58_0 : ∀ a, (![58, 0] : Fin 2 → Nat) a + S1x128.size a ≤ S100x128.size a
  inb_S100x512x128_S1x512x128_58_0_0 : ∀ a, (![58, 0, 0] : Fin 3 → Nat) a + S1x512x128.size a ≤ S100x512x128.size a
  inb_S512x100_S512x1_0_59 : ∀ a, (![0, 59] : Fin 2 → Nat) a + S512x1.size a ≤ S512x100.size a
  inb_S100x128_S1x128_59_0 : ∀ a, (![59, 0] : Fin 2 → Nat) a + S1x128.size a ≤ S100x128.size a
  inb_S100x512x128_S1x512x128_59_0_0 : ∀ a, (![59, 0, 0] : Fin 3 → Nat) a + S1x512x128.size a ≤ S100x512x128.size a
  inb_S512x100_S512x1_0_60 : ∀ a, (![0, 60] : Fin 2 → Nat) a + S512x1.size a ≤ S512x100.size a
  inb_S100x128_S1x128_60_0 : ∀ a, (![60, 0] : Fin 2 → Nat) a + S1x128.size a ≤ S100x128.size a
  inb_S100x512x128_S1x512x128_60_0_0 : ∀ a, (![60, 0, 0] : Fin 3 → Nat) a + S1x512x128.size a ≤ S100x512x128.size a
  inb_S512x100_S512x1_0_61 : ∀ a, (![0, 61] : Fin 2 → Nat) a + S512x1.size a ≤ S512x100.size a
  inb_S100x128_S1x128_61_0 : ∀ a, (![61, 0] : Fin 2 → Nat) a + S1x128.size a ≤ S100x128.size a
  inb_S100x512x128_S1x512x128_61_0_0 : ∀ a, (![61, 0, 0] : Fin 3 → Nat) a + S1x512x128.size a ≤ S100x512x128.size a
  inb_S512x100_S512x1_0_62 : ∀ a, (![0, 62] : Fin 2 → Nat) a + S512x1.size a ≤ S512x100.size a
  inb_S100x128_S1x128_62_0 : ∀ a, (![62, 0] : Fin 2 → Nat) a + S1x128.size a ≤ S100x128.size a
  inb_S100x512x128_S1x512x128_62_0_0 : ∀ a, (![62, 0, 0] : Fin 3 → Nat) a + S1x512x128.size a ≤ S100x512x128.size a
  inb_S512x100_S512x1_0_63 : ∀ a, (![0, 63] : Fin 2 → Nat) a + S512x1.size a ≤ S512x100.size a
  inb_S100x128_S1x128_63_0 : ∀ a, (![63, 0] : Fin 2 → Nat) a + S1x128.size a ≤ S100x128.size a
  inb_S100x512x128_S1x512x128_63_0_0 : ∀ a, (![63, 0, 0] : Fin 3 → Nat) a + S1x512x128.size a ≤ S100x512x128.size a
  inb_S512x100_S512x1_0_64 : ∀ a, (![0, 64] : Fin 2 → Nat) a + S512x1.size a ≤ S512x100.size a
  inb_S100x128_S1x128_64_0 : ∀ a, (![64, 0] : Fin 2 → Nat) a + S1x128.size a ≤ S100x128.size a
  inb_S100x512x128_S1x512x128_64_0_0 : ∀ a, (![64, 0, 0] : Fin 3 → Nat) a + S1x512x128.size a ≤ S100x512x128.size a
  inb_S512x100_S512x1_0_65 : ∀ a, (![0, 65] : Fin 2 → Nat) a + S512x1.size a ≤ S512x100.size a
  inb_S100x128_S1x128_65_0 : ∀ a, (![65, 0] : Fin 2 → Nat) a + S1x128.size a ≤ S100x128.size a
  inb_S100x512x128_S1x512x128_65_0_0 : ∀ a, (![65, 0, 0] : Fin 3 → Nat) a + S1x512x128.size a ≤ S100x512x128.size a
  inb_S512x100_S512x1_0_66 : ∀ a, (![0, 66] : Fin 2 → Nat) a + S512x1.size a ≤ S512x100.size a
  inb_S100x128_S1x128_66_0 : ∀ a, (![66, 0] : Fin 2 → Nat) a + S1x128.size a ≤ S100x128.size a
  inb_S100x512x128_S1x512x128_66_0_0 : ∀ a, (![66, 0, 0] : Fin 3 → Nat) a + S1x512x128.size a ≤ S100x512x128.size a
  inb_S512x100_S512x1_0_67 : ∀ a, (![0, 67] : Fin 2 → Nat) a + S512x1.size a ≤ S512x100.size a
  inb_S100x128_S1x128_67_0 : ∀ a, (![67, 0] : Fin 2 → Nat) a + S1x128.size a ≤ S100x128.size a
  inb_S100x512x128_S1x512x128_67_0_0 : ∀ a, (![67, 0, 0] : Fin 3 → Nat) a + S1x512x128.size a ≤ S100x512x128.size a
  inb_S512x100_S512x1_0_68 : ∀ a, (![0, 68] : Fin 2 → Nat) a + S512x1.size a ≤ S512x100.size a
  inb_S100x128_S1x128_68_0 : ∀ a, (![68, 0] : Fin 2 → Nat) a + S1x128.size a ≤ S100x128.size a
  inb_S100x512x128_S1x512x128_68_0_0 : ∀ a, (![68, 0, 0] : Fin 3 → Nat) a + S1x512x128.size a ≤ S100x512x128.size a
  inb_S512x100_S512x1_0_69 : ∀ a, (![0, 69] : Fin 2 → Nat) a + S512x1.size a ≤ S512x100.size a
  inb_S100x128_S1x128_69_0 : ∀ a, (![69, 0] : Fin 2 → Nat) a + S1x128.size a ≤ S100x128.size a
  inb_S100x512x128_S1x512x128_69_0_0 : ∀ a, (![69, 0, 0] : Fin 3 → Nat) a + S1x512x128.size a ≤ S100x512x128.size a
  inb_S512x100_S512x1_0_70 : ∀ a, (![0, 70] : Fin 2 → Nat) a + S512x1.size a ≤ S512x100.size a
  inb_S100x128_S1x128_70_0 : ∀ a, (![70, 0] : Fin 2 → Nat) a + S1x128.size a ≤ S100x128.size a
  inb_S100x512x128_S1x512x128_70_0_0 : ∀ a, (![70, 0, 0] : Fin 3 → Nat) a + S1x512x128.size a ≤ S100x512x128.size a
  inb_S512x100_S512x1_0_71 : ∀ a, (![0, 71] : Fin 2 → Nat) a + S512x1.size a ≤ S512x100.size a
  inb_S100x128_S1x128_71_0 : ∀ a, (![71, 0] : Fin 2 → Nat) a + S1x128.size a ≤ S100x128.size a
  inb_S100x512x128_S1x512x128_71_0_0 : ∀ a, (![71, 0, 0] : Fin 3 → Nat) a + S1x512x128.size a ≤ S100x512x128.size a
  inb_S512x100_S512x1_0_72 : ∀ a, (![0, 72] : Fin 2 → Nat) a + S512x1.size a ≤ S512x100.size a
  inb_S100x128_S1x128_72_0 : ∀ a, (![72, 0] : Fin 2 → Nat) a + S1x128.size a ≤ S100x128.size a
  inb_S100x512x128_S1x512x128_72_0_0 : ∀ a, (![72, 0, 0] : Fin 3 → Nat) a + S1x512x128.size a ≤ S100x512x128.size a
  inb_S512x100_S512x1_0_73 : ∀ a, (![0, 73] : Fin 2 → Nat) a + S512x1.size a ≤ S512x100.size a
  inb_S100x128_S1x128_73_0 : ∀ a, (![73, 0] : Fin 2 → Nat) a + S1x128.size a ≤ S100x128.size a
  inb_S100x512x128_S1x512x128_73_0_0 : ∀ a, (![73, 0, 0] : Fin 3 → Nat) a + S1x512x128.size a ≤ S100x512x128.size a
  inb_S512x100_S512x1_0_74 : ∀ a, (![0, 74] : Fin 2 → Nat) a + S512x1.size a ≤ S512x100.size a
  inb_S100x128_S1x128_74_0 : ∀ a, (![74, 0] : Fin 2 → Nat) a + S1x128.size a ≤ S100x128.size a
  inb_S100x512x128_S1x512x128_74_0_0 : ∀ a, (![74, 0, 0] : Fin 3 → Nat) a + S1x512x128.size a ≤ S100x512x128.size a
  inb_S512x100_S512x1_0_75 : ∀ a, (![0, 75] : Fin 2 → Nat) a + S512x1.size a ≤ S512x100.size a
  inb_S100x128_S1x128_75_0 : ∀ a, (![75, 0] : Fin 2 → Nat) a + S1x128.size a ≤ S100x128.size a
  inb_S100x512x128_S1x512x128_75_0_0 : ∀ a, (![75, 0, 0] : Fin 3 → Nat) a + S1x512x128.size a ≤ S100x512x128.size a
  inb_S512x100_S512x1_0_76 : ∀ a, (![0, 76] : Fin 2 → Nat) a + S512x1.size a ≤ S512x100.size a
  inb_S100x128_S1x128_76_0 : ∀ a, (![76, 0] : Fin 2 → Nat) a + S1x128.size a ≤ S100x128.size a
  inb_S100x512x128_S1x512x128_76_0_0 : ∀ a, (![76, 0, 0] : Fin 3 → Nat) a + S1x512x128.size a ≤ S100x512x128.size a
  inb_S512x100_S512x1_0_77 : ∀ a, (![0, 77] : Fin 2 → Nat) a + S512x1.size a ≤ S512x100.size a
  inb_S100x128_S1x128_77_0 : ∀ a, (![77, 0] : Fin 2 → Nat) a + S1x128.size a ≤ S100x128.size a
  inb_S100x512x128_S1x512x128_77_0_0 : ∀ a, (![77, 0, 0] : Fin 3 → Nat) a + S1x512x128.size a ≤ S100x512x128.size a
  inb_S512x100_S512x1_0_78 : ∀ a, (![0, 78] : Fin 2 → Nat) a + S512x1.size a ≤ S512x100.size a
  inb_S100x128_S1x128_78_0 : ∀ a, (![78, 0] : Fin 2 → Nat) a + S1x128.size a ≤ S100x128.size a
  inb_S100x512x128_S1x512x128_78_0_0 : ∀ a, (![78, 0, 0] : Fin 3 → Nat) a + S1x512x128.size a ≤ S100x512x128.size a
  inb_S512x100_S512x1_0_79 : ∀ a, (![0, 79] : Fin 2 → Nat) a + S512x1.size a ≤ S512x100.size a
  inb_S100x128_S1x128_79_0 : ∀ a, (![79, 0] : Fin 2 → Nat) a + S1x128.size a ≤ S100x128.size a
  inb_S100x512x128_S1x512x128_79_0_0 : ∀ a, (![79, 0, 0] : Fin 3 → Nat) a + S1x512x128.size a ≤ S100x512x128.size a
  inb_S512x100_S512x1_0_80 : ∀ a, (![0, 80] : Fin 2 → Nat) a + S512x1.size a ≤ S512x100.size a
  inb_S100x128_S1x128_80_0 : ∀ a, (![80, 0] : Fin 2 → Nat) a + S1x128.size a ≤ S100x128.size a
  inb_S100x512x128_S1x512x128_80_0_0 : ∀ a, (![80, 0, 0] : Fin 3 → Nat) a + S1x512x128.size a ≤ S100x512x128.size a
  inb_S512x100_S512x1_0_81 : ∀ a, (![0, 81] : Fin 2 → Nat) a + S512x1.size a ≤ S512x100.size a
  inb_S100x128_S1x128_81_0 : ∀ a, (![81, 0] : Fin 2 → Nat) a + S1x128.size a ≤ S100x128.size a
  inb_S100x512x128_S1x512x128_81_0_0 : ∀ a, (![81, 0, 0] : Fin 3 → Nat) a + S1x512x128.size a ≤ S100x512x128.size a
  inb_S512x100_S512x1_0_82 : ∀ a, (![0, 82] : Fin 2 → Nat) a + S512x1.size a ≤ S512x100.size a
  inb_S100x128_S1x128_82_0 : ∀ a, (![82, 0] : Fin 2 → Nat) a + S1x128.size a ≤ S100x128.size a
  inb_S100x512x128_S1x512x128_82_0_0 : ∀ a, (![82, 0, 0] : Fin 3 → Nat) a + S1x512x128.size a ≤ S100x512x128.size a
  inb_S512x100_S512x1_0_83 : ∀ a, (![0, 83] : Fin 2 → Nat) a + S512x1.size a ≤ S512x100.size a
  inb_S100x128_S1x128_83_0 : ∀ a, (![83, 0] : Fin 2 → Nat) a + S1x128.size a ≤ S100x128.size a
  inb_S100x512x128_S1x512x128_83_0_0 : ∀ a, (![83, 0, 0] : Fin 3 → Nat) a + S1x512x128.size a ≤ S100x512x128.size a
  inb_S512x100_S512x1_0_84 : ∀ a, (![0, 84] : Fin 2 → Nat) a + S512x1.size a ≤ S512x100.size a
  inb_S100x128_S1x128_84_0 : ∀ a, (![84, 0] : Fin 2 → Nat) a + S1x128.size a ≤ S100x128.size a
  inb_S100x512x128_S1x512x128_84_0_0 : ∀ a, (![84, 0, 0] : Fin 3 → Nat) a + S1x512x128.size a ≤ S100x512x128.size a
  inb_S512x100_S512x1_0_85 : ∀ a, (![0, 85] : Fin 2 → Nat) a + S512x1.size a ≤ S512x100.size a
  inb_S100x128_S1x128_85_0 : ∀ a, (![85, 0] : Fin 2 → Nat) a + S1x128.size a ≤ S100x128.size a
  inb_S100x512x128_S1x512x128_85_0_0 : ∀ a, (![85, 0, 0] : Fin 3 → Nat) a + S1x512x128.size a ≤ S100x512x128.size a
  inb_S512x100_S512x1_0_86 : ∀ a, (![0, 86] : Fin 2 → Nat) a + S512x1.size a ≤ S512x100.size a
  inb_S100x128_S1x128_86_0 : ∀ a, (![86, 0] : Fin 2 → Nat) a + S1x128.size a ≤ S100x128.size a
  inb_S100x512x128_S1x512x128_86_0_0 : ∀ a, (![86, 0, 0] : Fin 3 → Nat) a + S1x512x128.size a ≤ S100x512x128.size a
  inb_S512x100_S512x1_0_87 : ∀ a, (![0, 87] : Fin 2 → Nat) a + S512x1.size a ≤ S512x100.size a
  inb_S100x128_S1x128_87_0 : ∀ a, (![87, 0] : Fin 2 → Nat) a + S1x128.size a ≤ S100x128.size a
  inb_S100x512x128_S1x512x128_87_0_0 : ∀ a, (![87, 0, 0] : Fin 3 → Nat) a + S1x512x128.size a ≤ S100x512x128.size a
  inb_S512x100_S512x1_0_88 : ∀ a, (![0, 88] : Fin 2 → Nat) a + S512x1.size a ≤ S512x100.size a
  inb_S100x128_S1x128_88_0 : ∀ a, (![88, 0] : Fin 2 → Nat) a + S1x128.size a ≤ S100x128.size a
  inb_S100x512x128_S1x512x128_88_0_0 : ∀ a, (![88, 0, 0] : Fin 3 → Nat) a + S1x512x128.size a ≤ S100x512x128.size a
  inb_S512x100_S512x1_0_89 : ∀ a, (![0, 89] : Fin 2 → Nat) a + S512x1.size a ≤ S512x100.size a
  inb_S100x128_S1x128_89_0 : ∀ a, (![89, 0] : Fin 2 → Nat) a + S1x128.size a ≤ S100x128.size a
  inb_S100x512x128_S1x512x128_89_0_0 : ∀ a, (![89, 0, 0] : Fin 3 → Nat) a + S1x512x128.size a ≤ S100x512x128.size a
  inb_S512x100_S512x1_0_90 : ∀ a, (![0, 90] : Fin 2 → Nat) a + S512x1.size a ≤ S512x100.size a
  inb_S100x128_S1x128_90_0 : ∀ a, (![90, 0] : Fin 2 → Nat) a + S1x128.size a ≤ S100x128.size a
  inb_S100x512x128_S1x512x128_90_0_0 : ∀ a, (![90, 0, 0] : Fin 3 → Nat) a + S1x512x128.size a ≤ S100x512x128.size a
  inb_S512x100_S512x1_0_91 : ∀ a, (![0, 91] : Fin 2 → Nat) a + S512x1.size a ≤ S512x100.size a
  inb_S100x128_S1x128_91_0 : ∀ a, (![91, 0] : Fin 2 → Nat) a + S1x128.size a ≤ S100x128.size a
  inb_S100x512x128_S1x512x128_91_0_0 : ∀ a, (![91, 0, 0] : Fin 3 → Nat) a + S1x512x128.size a ≤ S100x512x128.size a
  inb_S512x100_S512x1_0_92 : ∀ a, (![0, 92] : Fin 2 → Nat) a + S512x1.size a ≤ S512x100.size a
  inb_S100x128_S1x128_92_0 : ∀ a, (![92, 0] : Fin 2 → Nat) a + S1x128.size a ≤ S100x128.size a
  inb_S100x512x128_S1x512x128_92_0_0 : ∀ a, (![92, 0, 0] : Fin 3 → Nat) a + S1x512x128.size a ≤ S100x512x128.size a
  inb_S512x100_S512x1_0_93 : ∀ a, (![0, 93] : Fin 2 → Nat) a + S512x1.size a ≤ S512x100.size a
  inb_S100x128_S1x128_93_0 : ∀ a, (![93, 0] : Fin 2 → Nat) a + S1x128.size a ≤ S100x128.size a
  inb_S100x512x128_S1x512x128_93_0_0 : ∀ a, (![93, 0, 0] : Fin 3 → Nat) a + S1x512x128.size a ≤ S100x512x128.size a
  inb_S512x100_S512x1_0_94 : ∀ a, (![0, 94] : Fin 2 → Nat) a + S512x1.size a ≤ S512x100.size a
  inb_S100x128_S1x128_94_0 : ∀ a, (![94, 0] : Fin 2 → Nat) a + S1x128.size a ≤ S100x128.size a
  inb_S100x512x128_S1x512x128_94_0_0 : ∀ a, (![94, 0, 0] : Fin 3 → Nat) a + S1x512x128.size a ≤ S100x512x128.size a
  inb_S512x100_S512x1_0_95 : ∀ a, (![0, 95] : Fin 2 → Nat) a + S512x1.size a ≤ S512x100.size a
  inb_S100x128_S1x128_95_0 : ∀ a, (![95, 0] : Fin 2 → Nat) a + S1x128.size a ≤ S100x128.size a
  inb_S100x512x128_S1x512x128_95_0_0 : ∀ a, (![95, 0, 0] : Fin 3 → Nat) a + S1x512x128.size a ≤ S100x512x128.size a
  inb_S512x100_S512x1_0_96 : ∀ a, (![0, 96] : Fin 2 → Nat) a + S512x1.size a ≤ S512x100.size a
  inb_S100x128_S1x128_96_0 : ∀ a, (![96, 0] : Fin 2 → Nat) a + S1x128.size a ≤ S100x128.size a
  inb_S100x512x128_S1x512x128_96_0_0 : ∀ a, (![96, 0, 0] : Fin 3 → Nat) a + S1x512x128.size a ≤ S100x512x128.size a
  inb_S512x100_S512x1_0_97 : ∀ a, (![0, 97] : Fin 2 → Nat) a + S512x1.size a ≤ S512x100.size a
  inb_S100x128_S1x128_97_0 : ∀ a, (![97, 0] : Fin 2 → Nat) a + S1x128.size a ≤ S100x128.size a
  inb_S100x512x128_S1x512x128_97_0_0 : ∀ a, (![97, 0, 0] : Fin 3 → Nat) a + S1x512x128.size a ≤ S100x512x128.size a
  inb_S512x100_S512x1_0_98 : ∀ a, (![0, 98] : Fin 2 → Nat) a + S512x1.size a ≤ S512x100.size a
  inb_S100x128_S1x128_98_0 : ∀ a, (![98, 0] : Fin 2 → Nat) a + S1x128.size a ≤ S100x128.size a
  inb_S100x512x128_S1x512x128_98_0_0 : ∀ a, (![98, 0, 0] : Fin 3 → Nat) a + S1x512x128.size a ≤ S100x512x128.size a
  inb_S512x100_S512x1_0_99 : ∀ a, (![0, 99] : Fin 2 → Nat) a + S512x1.size a ≤ S512x100.size a
  inb_S100x128_S1x128_99_0 : ∀ a, (![99, 0] : Fin 2 → Nat) a + S1x128.size a ≤ S100x128.size a
  inb_S100x512x128_S1x512x128_99_0_0 : ∀ a, (![99, 0, 0] : Fin 3 → Nat) a + S1x512x128.size a ≤ S100x512x128.size a
  transposes_S126x16384x128_S16384x126x128_1_0_2 : S126x16384x128.Transposes [1, 0, 2] S16384x126x128
  hcc0_scratch4 : 0 + S_.numel ≤ 12
  hcc0_scratch5 : 1 + S_.numel ≤ 12
  hcc0_scoped0 : 2 + S_.numel ≤ 12
  hcc0_scoped1 : 3 + S_.numel ≤ 12
  hcc0_scoped2 : 4 + S_.numel ≤ 12
  hcc0_scoped3 : 5 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x104x128.size a ≤ S32x104x128.size a
  k0_t1_ok : k0_t1_loop.OK
  k0_off2_inb : ∀ k0_t1 : Fin k0_t1_loop.trips, ∀ a, (k0_off2 k0_t1) a + S1x128.size a ≤ S104x128.size a
  k0_off3_inb : ∀ k0_t1 : Fin k0_t1_loop.trips, ∀ a, (k0_off3 k0_t1) a + S1x128.size a ≤ S104x128.size a
  k0_off4_inb : ∀ (i : grid0.Coords) (k0_t1 : Fin k0_t1_loop.trips), ∀ a, (k0_off4 i k0_t1) a + S1x16.size a ≤ S26x128.size a
  k0_off5_inb : ∀ (i : grid0.Coords) (k0_t1 : Fin k0_t1_loop.trips), ∀ a, (k0_off5 i k0_t1) a + S1x16.size a ≤ S26x128.size a
  k0_off6_inb : ∀ (i : grid0.Coords) (k0_t1 : Fin k0_t1_loop.trips), ∀ a, (k0_off6 i k0_t1) a + S1x16.size a ≤ S26x128.size a
  k0_off7_inb : ∀ (i : grid0.Coords) (k0_t1 : Fin k0_t1_loop.trips), ∀ a, (k0_off7 i k0_t1) a + S1x16.size a ≤ S26x128.size a
  k0_off8_inb : ∀ (i : grid0.Coords) (k0_t1 : Fin k0_t1_loop.trips), ∀ a, (k0_off8 i k0_t1) a + S1x16.size a ≤ S26x128.size a
  k0_off9_inb : ∀ (i : grid0.Coords) (k0_t1 : Fin k0_t1_loop.trips), ∀ a, (k0_off9 i k0_t1) a + S1x16.size a ≤ S26x128.size a
  k0_off10_inb : ∀ (i : grid0.Coords) (k0_t1 : Fin k0_t1_loop.trips), ∀ a, (k0_off10 i k0_t1) a + S1x16.size a ≤ S26x128.size a
  k0_off11_inb : ∀ (i : grid0.Coords) (k0_t1 : Fin k0_t1_loop.trips), ∀ a, (k0_off11 i k0_t1) a + S1x16.size a ≤ S26x128.size a
  k0_t2_ok : k0_t2_loop.OK
  k0_off12_inb : ∀ k0_t2 : Fin k0_t2_loop.trips, ∀ a, (k0_off12 k0_t2) a + S1x16.size a ≤ S128x128.size a
  k0_off13_inb : ∀ k0_t2 : Fin k0_t2_loop.trips, ∀ a, (k0_off13 k0_t2) a + S1x16.size a ≤ S128x128.size a
  k0_off14_inb : ∀ k0_t2 : Fin k0_t2_loop.trips, ∀ a, (k0_off14 k0_t2) a + S1x16.size a ≤ S128x128.size a
  k0_off15_inb : ∀ k0_t2 : Fin k0_t2_loop.trips, ∀ a, (k0_off15 k0_t2) a + S1x16.size a ≤ S128x128.size a
  k0_off16_inb : ∀ k0_t2 : Fin k0_t2_loop.trips, ∀ a, (k0_off16 k0_t2) a + S1x16.size a ≤ S128x128.size a
  k0_off17_inb : ∀ k0_t2 : Fin k0_t2_loop.trips, ∀ a, (k0_off17 k0_t2) a + S1x16.size a ≤ S128x128.size a
  k0_off18_inb : ∀ k0_t2 : Fin k0_t2_loop.trips, ∀ a, (k0_off18 k0_t2) a + S1x16.size a ≤ S128x128.size a
  k0_off19_inb : ∀ k0_t2 : Fin k0_t2_loop.trips, ∀ a, (k0_off19 k0_t2) a + S1x16.size a ≤ S128x128.size a
  k0_off20_inb : ∀ (i : grid0.Coords) (k0_t1 : Fin k0_t1_loop.trips), ∀ a, (k0_off20 i k0_t1) a + S128x128.size a ≤ S2064384x128.size a
  k0_off21_inb : ∀ k0_t1 : Fin k0_t1_loop.trips, ∀ (k0_h1 : k0_cond1 k0_t1 = 1#1), ∀ a, (k0_off21 k0_t1) a + S1x128.size a ≤ S104x128.size a
  k0_off22_inb : ∀ (i : grid0.Coords) (k0_t1 : Fin k0_t1_loop.trips), ∀ a, (k0_off22 i k0_t1) a + S1x16.size a ≤ S26x128.size a
  k0_off23_inb : ∀ (i : grid0.Coords) (k0_t1 : Fin k0_t1_loop.trips), ∀ a, (k0_off23 i k0_t1) a + S1x16.size a ≤ S26x128.size a
  k0_off24_inb : ∀ (i : grid0.Coords) (k0_t1 : Fin k0_t1_loop.trips), ∀ a, (k0_off24 i k0_t1) a + S1x16.size a ≤ S26x128.size a
  k0_off25_inb : ∀ (i : grid0.Coords) (k0_t1 : Fin k0_t1_loop.trips), ∀ a, (k0_off25 i k0_t1) a + S1x16.size a ≤ S26x128.size a
  k0_off26_inb : ∀ (i : grid0.Coords) (k0_t1 : Fin k0_t1_loop.trips), ∀ a, (k0_off26 i k0_t1) a + S1x16.size a ≤ S26x128.size a
  k0_off27_inb : ∀ (i : grid0.Coords) (k0_t1 : Fin k0_t1_loop.trips), ∀ a, (k0_off27 i k0_t1) a + S1x16.size a ≤ S26x128.size a
  k0_off28_inb : ∀ (i : grid0.Coords) (k0_t1 : Fin k0_t1_loop.trips), ∀ a, (k0_off28 i k0_t1) a + S1x16.size a ≤ S26x128.size a
  k0_off29_inb : ∀ (i : grid0.Coords) (k0_t1 : Fin k0_t1_loop.trips), ∀ a, (k0_off29 i k0_t1) a + S1x16.size a ≤ S26x128.size a
  k0_t3_ok : k0_t3_loop.OK
  k0_off30_inb : ∀ k0_t3 : Fin k0_t3_loop.trips, ∀ a, (k0_off30 k0_t3) a + S1x16.size a ≤ S128x128.size a
  k0_off31_inb : ∀ k0_t3 : Fin k0_t3_loop.trips, ∀ a, (k0_off31 k0_t3) a + S1x16.size a ≤ S128x128.size a
  k0_off32_inb : ∀ k0_t3 : Fin k0_t3_loop.trips, ∀ a, (k0_off32 k0_t3) a + S1x16.size a ≤ S128x128.size a
  k0_off33_inb : ∀ k0_t3 : Fin k0_t3_loop.trips, ∀ a, (k0_off33 k0_t3) a + S1x16.size a ≤ S128x128.size a
  k0_off34_inb : ∀ k0_t3 : Fin k0_t3_loop.trips, ∀ a, (k0_off34 k0_t3) a + S1x16.size a ≤ S128x128.size a
  k0_off35_inb : ∀ k0_t3 : Fin k0_t3_loop.trips, ∀ a, (k0_off35 k0_t3) a + S1x16.size a ≤ S128x128.size a
  k0_off36_inb : ∀ k0_t3 : Fin k0_t3_loop.trips, ∀ a, (k0_off36 k0_t3) a + S1x16.size a ≤ S128x128.size a
  k0_off37_inb : ∀ k0_t3 : Fin k0_t3_loop.trips, ∀ a, (k0_off37 k0_t3) a + S1x16.size a ≤ S128x128.size a
  k0_off38_inb : ∀ (i : grid0.Coords) (k0_t1 : Fin k0_t1_loop.trips), ∀ a, (k0_off38 i k0_t1) a + S128x128.size a ≤ S2064384x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x100.size a ≤ S16384x100.size a
  hwx1_0 : ∀ i : grid1.Coords, EltTy.bits .f32 = 32 ∨ (Rect.block (s := S16384x100) S512x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x128.size a ≤ S100x128.size a
  hwx1_1 : ∀ i : grid1.Coords, EltTy.bits .f32 = 32 ∨ (Rect.block (s := S100x128) S100x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x128.size a ≤ S100x128.size a
  hwx1_2 : ∀ i : grid1.Coords, EltTy.bits .f32 = 32 ∨ (Rect.block (s := S100x128) S100x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_4 i = cc1_transform_4 i'
  hstart1_3 : ∀ (i : grid1.Coords) a, cc1_transform_4 i a * S100x512x128.size a < S126x16384x128.size a
  hwx1_3 : ∀ i : grid1.Coords, EltTy.bits .f32 = 32 ∨ (Rect.unit (s := S126x16384x128) (fun a => cc1_transform_4 i a * S100x512x128.size a) (fun a => (Pipeline.Clip.of (cc1_transform_4 i a) (S100x512x128.size a) (S126x16384x128.size a)).extent (S100x512x128.size a)) fun a => Pipeline.Clip.inb (Pipeline.Clip.ok_of (hstart1_3 i a))).WholeWords (EltTy.packing .f32)
  hwxs1_3 : ∀ i : grid1.Coords, EltTy.bits .f32 = 32 ∨ (Rect.unit (s := S100x512x128) (fun _ => 0) (fun a => (Pipeline.Clip.of (cc1_transform_4 i a) (S100x512x128.size a) (S126x16384x128.size a)).extent (S100x512x128.size a)) fun a => (Nat.zero_add _).trans_le (Pipeline.Clip.extent_le (Pipeline.Clip.ok_of (hstart1_3 i a)))).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3

abbrev win1_0 : Pipeline.Window sig grid1 :=
  Pipeline.Window.ofSpec (Memref.whole main_arg0) S512x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S100x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S100x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v10) S100x512x128.size cc1_transform_4 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x100 : Shape := ⟨2, ![16384, 100]⟩
abbrev S16384x26 : Shape := ⟨2, ![16384, 26]⟩
abbrev S100x128 : Shape := ⟨2, ![100, 128]⟩
abbrev S26000x128 : Shape := ⟨2, ![26000, 128]⟩
abbrev S26x128 : Shape := ⟨2, ![26, 128]⟩
abbrev S1x100x128 : Shape := ⟨3, ![1, 100, 128]⟩
abbrev S16384x100x1 : Shape := ⟨3, ![16384, 100, 1]⟩
abbrev S16384x100x128 : Shape := ⟨3, ![16384, 100, 128]⟩
abbrev S26 : Shape := ⟨1, ![26]⟩
abbrev S_ : Shape := ⟨0, ![]⟩
abbrev S1x26 : Shape := ⟨2, ![1, 26]⟩
abbrev S16384x26x1 : Shape := ⟨3, ![16384, 26, 1]⟩
abbrev S1 : Shape := ⟨1, ![1]⟩
abbrev S1x1x1 : Shape := ⟨3, ![1, 1, 1]⟩
abbrev S16384x26x128 : Shape := ⟨3, ![16384, 26, 128]⟩
abbrev S1x26x128 : Shape := ⟨3, ![1, 26, 128]⟩
abbrev S16384x126x128 : Shape := ⟨3, ![16384, 126, 128]⟩

abbrev nBuf : Space → Nat
  | .hbm => 48
  | .vmem => 0
  | .smem => 0
  | _ => 0

abbrev bufTy : (tb : Table) → Fin (tcTables nBuf tb) → BufTy
  | .hbm, ⟨0, _⟩ => ⟨S16384x100, .f32⟩
  | .hbm, ⟨1, _⟩ => ⟨S16384x26, .i32⟩
  | .hbm, ⟨2, _⟩ => ⟨S100x128, .f32⟩
  | .hbm, ⟨3, _⟩ => ⟨S100x128, .f32⟩
  | .hbm, ⟨4, _⟩ => ⟨S26000x128, .f32⟩
  | .hbm, ⟨5, _⟩ => ⟨S26x128, .f32⟩
  | .hbm, ⟨6, _⟩ => ⟨S1x100x128, .f32⟩
  | .hbm, ⟨7, _⟩ => ⟨S16384x100x1, .f32⟩
  | .hbm, ⟨8, _⟩ => ⟨S16384x100x128, .f32⟩
  | .hbm, ⟨9, _⟩ => ⟨S16384x100x128, .f32⟩
  | .hbm, ⟨10, _⟩ => ⟨S16384x100x128, .f32⟩
  | .hbm, ⟨11, _⟩ => ⟨S1x100x128, .f32⟩
  | .hbm, ⟨12, _⟩ => ⟨S16384x100x128, .f32⟩
  | .hbm, ⟨13, _⟩ => ⟨S16384x100x128, .f32⟩
  | .hbm, ⟨14, _⟩ => ⟨S26, .i32⟩
  | .hbm, ⟨15, _⟩ => ⟨S_, .i32⟩
  | .hbm, ⟨16, _⟩ => ⟨S26, .i32⟩
  | .hbm, ⟨17, _⟩ => ⟨S26, .i32⟩
  | .hbm, ⟨18, _⟩ => ⟨S1x26, .i32⟩
  | .hbm, ⟨19, _⟩ => ⟨S16384x26, .i32⟩
  | .hbm, ⟨20, _⟩ => ⟨S16384x26, .i32⟩
  | .hbm, ⟨21, _⟩ => ⟨S_, .i32⟩
  | .hbm, ⟨22, _⟩ => ⟨S16384x26, .i32⟩
  | .hbm, ⟨23, _⟩ => ⟨S16384x26, .i1⟩
  | .hbm, ⟨24, _⟩ => ⟨S_, .i32⟩
  | .hbm, ⟨25, _⟩ => ⟨S16384x26, .i32⟩
  | .hbm, ⟨26, _⟩ => ⟨S16384x26, .i32⟩
  | .hbm, ⟨27, _⟩ => ⟨S16384x26, .i32⟩
  | .hbm, ⟨28, _⟩ => ⟨S16384x26x1, .i32⟩
  | .hbm, ⟨29, _⟩ => ⟨S1, .i32⟩
  | .hbm, ⟨30, _⟩ => ⟨S_, .i32⟩
  | .hbm, ⟨31, _⟩ => ⟨S16384x26x1, .i32⟩
  | .hbm, ⟨32, _⟩ => ⟨S16384x26x1, .i1⟩
  | .hbm, ⟨33, _⟩ => ⟨S1x1x1, .i32⟩
  | .hbm, ⟨34, _⟩ => ⟨S16384x26x1, .i32⟩
  | .hbm, ⟨35, _⟩ => ⟨S16384x26x1, .i1⟩
  | .hbm, ⟨36, _⟩ => ⟨S16384x26x1, .i1⟩
  | .hbm, ⟨37, _⟩ => ⟨S_, .i1⟩
  | .hbm, ⟨38, _⟩ => ⟨S16384x26, .i1⟩
  | .hbm, ⟨39, _⟩ => ⟨S16384x26x128, .f32⟩
  | .hbm, ⟨40, _⟩ => ⟨S16384x26x128, .i1⟩
  | .hbm, ⟨41, _⟩ => ⟨S_, .f32⟩
  | .hbm, ⟨42, _⟩ => ⟨S16384x26x128, .f32⟩
  | .hbm, ⟨43, _⟩ => ⟨S16384x26x128, .f32⟩
  | .hbm, ⟨44, _⟩ => ⟨S1x26x128, .f32⟩
  | .hbm, ⟨45, _⟩ => ⟨S16384x26x128, .f32⟩
  | .hbm, ⟨46, _⟩ => ⟨S16384x26x128, .f32⟩
  | .hbm, ⟨47, _⟩ => ⟨S16384x126x128, .f32⟩
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]

class Facts₀ : Prop where
  bcast_S100x128_S1x100x128_1_2 : S100x128.BroadcastsInDim S1x100x128 (![1, 2] : Fin 2 → Fin S1x100x128.rank)
  bcast_S16384x100_S16384x100x1_0_1 : S16384x100.BroadcastsInDim S16384x100x1 (![0, 1] : Fin 2 → Fin S16384x100x1.rank)
  bcast_S1x100x128_S16384x100x128_0_1_2 : S1x100x128.BroadcastsInDim S16384x100x128 (![0, 1, 2] : Fin 3 → Fin S16384x100x128.rank)
  bcast_S16384x100x1_S16384x100x128_0_1_2 : S16384x100x1.BroadcastsInDim S16384x100x128 (![0, 1, 2] : Fin 3 → Fin S16384x100x128.rank)
  bcast_S_S26 : S_.BroadcastsInDim S26 (![] : Fin 0 → Fin S26.rank)
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  bcast_S16384x26_S16384x26x128_0_1 : S16384x26.BroadcastsInDim S16384x26x128 (![0, 1] : Fin 2 → Fin S16384x26x128.rank)
  bcast_S_S16384x26x128 : S_.BroadcastsInDim S16384x26x128 (![] : Fin 0 → Fin S16384x26x128.rank)
  bcast_S26x128_S1x26x128_1_2 : S26x128.BroadcastsInDim S1x26x128 (![1, 2] : Fin 2 → Fin S1x26x128.rank)
  bcast_S1x26x128_S16384x26x128_0_1_2 : S1x26x128.BroadcastsInDim S16384x26x128 (![0, 1, 2] : Fin 3 → Fin S16384x26x128.rank)
  concatenates_S16384x100x128_S16384x26x128_S16384x126x128_d1 : Shape.Concatenates [S16384x100x128, S16384x26x128] S16384x126x128 1
  gather_S26000x128_S16384x26x1_S16384x26x128_2_0_n_n_0_2_1128_wf : GatherDims.WF S26000x128 S16384x26x1 S16384x26x128 [2] [0] [] [0] [] 2 ![1, 128]

variable [Facts₀]

def gather_S26000x128_S16384x26x1_S16384x26x128_2_0_n_n_0_2_1128 : GatherDims S26000x128 S16384x26x1 S16384x26x128 where
  offsetDims := [2]
  collapsedSliceDims := [0]
  operandBatchingDims := []
  startIndicesBatchingDims := []
  startIndexMap := [0]
  indexVectorDim := 2
  sliceSizes := ![1, 128]
  wf := gather_S26000x128_S16384x26x1_S16384x26x128_2_0_n_n_0_2_1128_wf

class Facts : Prop extends Facts₀ where

variable [Facts]
-- ==== Proof.Setup.lean ====
/-
  The idealized kernel's program as the launch theorem for programs with SparseCore calls reads it, and the
  resource algebra the proof works in: the launch handshakes' rounds, the TensorCore pipeline's staging cells'
  rounds, and the counters of the tiles' own copies.
-/
import proofs.«207390_g85444079387303_cont_sun_c4_501_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207390_g85444079387303_cont_sun_c4_501_21_alg».proof.Proof.Gen.KernelIdeal
import proofs.«207390_g85444079387303_cont_sun_c4_501_21_alg».proof.Proof.Gen.KernelIdeal.Launch
import proofs.«207390_g85444079387303_cont_sun_c4_501_21_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program: the kernels' two, the one TensorCore pipeline's entry and body calls. -/
abbrev ΛP : Labels := Pipeline.Sig Λ₀ (Fin 1) fun p => (pcfgs (F := F) p).Adm
/-- The SparseCore calls' configuration. -/
abbrev K : SparseCore.Cfg τ sig (ΛP (F := F)) 1 := sc (F := F)
/-- The body table under the SparseCore dispatch: the kernels' and the pipeline's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's staging cells' rounds, the copies' counters. -/
abbrev UH : Type := URounds (GSem nD τ sig) ℕ
abbrev UP : Type := UR sig nD τ
abbrev UU : Type := UH × (UP × Counters)

/-- The handshakes' component. -/
abbrev EH : Emb UH (MT nD τ sig (HIx 1) (Elt F) ℕ UU ℕ) := embL
/-- The pipeline's component: the left of the right. -/
def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KI

end
-- ==== Proof.Spec.lean ====
/-
  The result both programs compute, as one function of the six argument arrays, index by index.
  For a batch row b, a token t and a lane d: when t < 100 the token is numeric,
  x[b,t] * w[t,d] + nb[t,d]; otherwise it is categorical with feature f = t - 100: row
  xc[b,f] + 1000 f of the embedding table (the row number clamped into the table, which changes
  nothing where 0 ≤ xc ≤ 999) plus the feature's bias cb[f,d]. Stated over any float instance.
-/
import Idealize.ShloMosaic.PureOps
import Idealize.ShloMosaic.Lib.ValueIdx

noncomputable section

namespace Cert.Proof.Spec

open Idealize.ShloMosaic Idealize.ShloMosaic.ValueIdx

abbrev SX : Shape := ⟨2, ![16384, 100]⟩
abbrev SC : Shape := ⟨2, ![16384, 26]⟩
abbrev SW : Shape := ⟨2, ![100, 128]⟩
abbrev ST : Shape := ⟨2, ![26000, 128]⟩
abbrev SB : Shape := ⟨2, ![26, 128]⟩
abbrev SO : Shape := ⟨3, ![16384, 126, 128]⟩

variable {F : FTy → Type} [FloatOps F]

/-- The table row a categorical entry names: its code plus 1000 per feature, clamped into the table. -/
def rowOf (xc : IVec SC 32) (b : Fin 16384) (f : Fin 26) : Fin 26000 :=
  ⟨min ((xc (ix2 b f)).toNat + 1000 * f.val) 25999, by omega⟩

/-- The tokenizer's output at one index. -/
def G (x : FVec F SX .f32) (xc : IVec SC 32) (w nb : FVec F SW .f32) (tab : FVec F ST .f32) (cb : FVec F SB .f32) :
    FVec F SO .f32 := fun i =>
  if h : (i 1).val < 100 then
    FloatOps.addf (FloatOps.mulf (x (ix2 (i 0) ⟨(i 1).val, h⟩)) (w (ix2 ⟨(i 1).val, h⟩ (i 2)))) (nb (ix2 ⟨(i 1).val, h⟩ (i 2)))
  else
    FloatOps.addf (tab (ix2 (rowOf xc (i 0) ⟨(i 1).val - 100, by have := (i 1).isLt; simp at this; omega⟩) (i 2)))
      (cb (ix2 ⟨(i 1).val - 100, by have := (i 1).isLt; simp at this; omega⟩ (i 2)))

/-! ## The two intermediate arrays of the kernel's program -/

abbrev SRows : Shape := ⟨2, ![2064384, 128]⟩
abbrev STok : Shape := ⟨3, ![126, 16384, 128]⟩

/-- What the row-gathering call leaves in its output array of 126 · 16384 rows: row 1638400 + 16384 f + b is the
    table row named by xc[b,f] plus the bias of feature f; the first 1638400 rows stay as they were. -/
def catRows (xc : IVec SC 32) (tab : FVec F ST .f32) (cb : FVec F SB .f32) (prev : FVec F SRows .f32) : FVec F SRows .f32 := fun i =>
  if h : 1638400 ≤ (i 0).val then
    FloatOps.addf
      (tab (ix2 (rowOf xc ⟨((i 0).val - 1638400) % 16384, Nat.mod_lt _ (by norm_num)⟩
        ⟨((i 0).val - 1638400) / 16384, by have := (i 0).isLt; simp at this; omega⟩) (i 1)))
      (cb (ix2 ⟨((i 0).val - 1638400) / 16384, by have := (i 0).isLt; simp at this; omega⟩ (i 1)))
  else prev i

/-- What the numeric call leaves in the token-major array: tokens below 100 are x[b,t] * w[t,d] + nb[t,d]; the
    26 categorical tokens stay as the array held them. -/
def numTokens (x : FVec F SX .f32) (w nb : FVec F SW .f32) (prev : FVec F STok .f32) : FVec F STok .f32 := fun i =>
  if h : (i 0).val < 100 then
    FloatOps.addf (FloatOps.mulf (x (ix2 (i 1) ⟨(i 0).val, h⟩)) (w (ix2 ⟨(i 0).val, h⟩ (i 2)))) (nb (ix2 ⟨(i 0).val, h⟩ (i 2)))
  else prev i

end Cert.Proof.Spec

end
-- ==== Proof.Pay.lean ====
/-
  What the launch handshakes carry for the row-gathering call: each vector subcore gets a read share of the table, of the bias and of the index array, and its own 104 chunks of 128 output rows; it returns the shares and the chunks at the gathered rows plus bias.
-/
import proofs.«207390_g85444079387303_cont_sun_c4_501_21_alg».proof.Proof.Setup
import proofs.«207390_g85444079387303_cont_sun_c4_501_21_alg».proof.Proof.Spec
import proofs.«207390_g85444079387303_cont_sun_c4_501_21_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Spec (SRows)

/-! ## The arrays, as locations of the device -/

abbrev tabLoc (d : Dev nD) : Loc nD τ sig := (SparseCore.T d).loc main_arg4
abbrev biasLoc (d : Dev nD) : Loc nD τ sig := (SparseCore.T d).loc main_arg5
abbrev gidxLoc (d : Dev nD) : Loc nD τ sig := (SparseCore.T d).loc main_v7
abbrev outLoc (d : Dev nD) : Loc nD τ sig := (SparseCore.T d).loc main_v8

/-- The output array as a vector subcore's body names it. -/
abbrev outV : Memref sig .scVector .hbm S2064384x128 .f32 := Memref.whole main_v8_scv

abbrev cV (L : grid0.Coords) : Fin τ.nSC := (L 0).castLE hcore0
abbrev jV (L : grid0.Coords) : Fin τ.nSub := (L 1).castLE hsub0

/-- The grid point of SparseCore c, vector subcore s. -/
def coordsV (c : Fin (grid0.bound 0)) (s : Fin (grid0.bound 1)) : grid0.Coords :=
  fun | 0 => c | 1 => s | ⟨_ + 2, h⟩ => absurd h (Nat.not_lt.2 (Nat.le_add_left _ _))

/-! ## A task's output rows: 52 pairs of 128-row chunks, as the body slices them -/

/-- The even chunk of trip k: rows 1638400 + 13312 (2 s + c) + 256 k onward. -/
abbrev chunkA (L : grid0.Coords) (k : Fin k0_t1_loop.trips) : Memref sig .scVector .hbm S128x128 .f32 :=
  (outV).slice (Rect.unit (s := S2064384x128) (k0_off20 L k) S128x128.size (k0_off20_inb L k)) (fun _ => rfl)
/-- The odd chunk of trip k: 128 rows further. -/
abbrev chunkB (L : grid0.Coords) (k : Fin k0_t1_loop.trips) : Memref sig .scVector .hbm S128x128 .f32 :=
  (outV).slice (Rect.unit (s := S2064384x128) (k0_off38 L k) S128x128.size (k0_off38_inb L k)) (fun _ => rfl)

/-- A task's output rows held at contents f, chunk by chunk. -/
def outPieces (d : Dev nD) (L : grid0.Coords) (f : Buf (Elt F) (outLoc d)) : sProp 𝕄 :=
  bigSep Finset.univ fun k : Fin k0_t1_loop.trips =>
    iprop((outLoc d ↦[(chunkA L k).view.set]{fullShare} f) ∗ (outLoc d ↦[(chunkB L k).view.set]{fullShare} f))

/-! ## What the call writes -/

variable [FloatOps F]

/-- The output array after the call, from the index array's words fg (read as table row numbers, clamped into the
    table), the table, the bias and the prior contents: row 1638400 + r holds table row fg[r] plus the bias of feature
    r / 16384; rows below 1638400 are as before. The flat position r is cut as the index array is laid out, into
    (r / 13312, r % 13312 / 128, r % 128). -/
def scRows (fg : IVec S32x104x128 32) (tab : FVec F S26000x128 .f32) (cb : FVec F S26x128 .f32) (prev : FVec F S2064384x128 .f32) :
    FVec F S2064384x128 .f32 := fun i =>
  if h : 1638400 ≤ (i 0).val then
    FloatOps.addf
      (tab (ValueIdx.ix2 ⟨min (fg (ValueIdx.ix3 ⟨((i 0).val - 1638400) / 13312, by have := (i 0).isLt; simp at this; omega⟩
          ⟨((i 0).val - 1638400) % 13312 / 128, by omega⟩ ⟨((i 0).val - 1638400) % 128, Nat.mod_lt _ (by norm_num)⟩)).toNat 25999, by omega⟩ (i 1)))
      (cb (ValueIdx.ix2 ⟨((i 0).val - 1638400) / 16384, by have := (i 0).isLt; simp at this; omega⟩ (i 1)))
  else prev i

/-! ## The payloads -/

variable (q : PosShare TreeShare)

/-- The read shares: SparseCore c's share of the whole, cut again for its sixteen vector subcores. -/
abbrev shC (c : Fin 2) : PosShare TreeShare := Transfers.shareTok fullShare 2 c
abbrev shT (c : Fin 2) (s : Fin 16) : PosShare TreeShare := Transfers.shareTok (shC c) 16 s

/-- What the task at grid point L is handed: the three read shares at share sh and its output chunks at prev. -/
def taskIn (d : Dev nD) (L : grid0.Coords) (sh : PosShare TreeShare) (ft : Buf (Elt F) (tabLoc d)) (fg : Buf (Elt F) (gidxLoc d))
    (fb : Buf (Elt F) (biasLoc d)) (prev : Buf (Elt F) (outLoc d)) : sProp 𝕄 :=
  iprop((tabLoc d ↦{sh} ft) ∗ (gidxLoc d ↦{sh} fg) ∗ (biasLoc d ↦{sh} fb) ∗ outPieces d L prev)

/-- What it hands back: the shares, and its chunks at what the call writes. -/
def taskOut (d : Dev nD) (L : grid0.Coords) (sh : PosShare TreeShare) (ft : Buf (Elt F) (tabLoc d)) (fg : Buf (Elt F) (gidxLoc d))
    (fb : Buf (Elt F) (biasLoc d)) (prev : Buf (Elt F) (outLoc d)) : sProp 𝕄 :=
  iprop((tabLoc d ↦{sh} ft) ∗ (gidxLoc d ↦{sh} fg) ∗ (biasLoc d ↦{sh} fb) ∗ outPieces d L (scRows fg ft fb prev))

theorem nCore_zero : (K (F := F)).nCore 0 = 2 := rfl
theorem nSub_zero : (K (F := F)).nSub 0 = 16 := rfl

/-- The grid point of the launch theorem's (SparseCore, vector subcore) pair. -/
abbrev LL (c : Fin 2) (s : Fin 16) : grid0.Coords := coordsV ⟨c.val, c.isLt⟩ ⟨s.val, s.isLt⟩

/-- The one call's payloads, for given contents of the table, the index array, the bias and the output array at the
    call: a SparseCore's start and done carry its sixteen tasks' operands and results, a task's go and taskDone its
    own. -/
def P (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) :
    (K (F := F)).Pay (nD := nD) (Val := Elt F) (Name := ℕ) (U := UU) where
  st := fun q d c => match q with
    | 0 => bigSep Finset.univ fun s : Fin 16 => taskIn d (LL (Fin.cast nCore_zero c) s) (shT (Fin.cast nCore_zero c) s) (ft d) (fg d) (fb d) (prev d)
  dn := fun q d c => match q with
    | 0 => bigSep Finset.univ fun s : Fin 16 => taskOut d (LL (Fin.cast nCore_zero c) s) (shT (Fin.cast nCore_zero c) s) (ft d) (fg d) (fb d) (prev d)
  go := fun q d c s => match q with
    | 0 => taskIn d (LL (Fin.cast nCore_zero c) (Fin.cast nSub_zero s)) (shT (Fin.cast nCore_zero c) (Fin.cast nSub_zero s)) (ft d) (fg d) (fb d) (prev d)
  td := fun q d c s => match q with
    | 0 => taskOut d (LL (Fin.cast nCore_zero c) (Fin.cast nSub_zero s)) (shT (Fin.cast nCore_zero c) (Fin.cast nSub_zero s)) (ft d) (fg d) (fb d) (prev d)
  x := fun _ _ => iprop(emp)

end Cert.Proof.KI

end
-- ==== Proof.LaunchCover.lean ====
/-
  The resources of the row-gathering call. The output array whole is its rows below the categorical block and, for each
  of the 32 tasks, 52 pairs of 128-row chunks: a chunk holds the rows from its first row number on, the first rows of
  the 2 * 16 * 52 * 2 chunks are 1638400 + 128 n for n below 3328 each once, so the chunks are pairwise disjoint and
  cover rows 1638400 to 2064383. A read-only array held whole is 32 read shares and a remainder. From the four arrays
  held whole the call's operands, and from its results the arrays again, the output array at what the call writes.
-/
import proofs.«207390_g85444079387303_cont_sun_c4_501_21_alg».proof.Proof.Pay
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

/-! ## The output array cut into the rows below the categorical block and the tasks' chunks -/

/-- The rows the call leaves alone: those below 1638400. -/
def lowRows : Finset S2064384x128.Idx := Finset.univ.filter fun i => (i 0).val < 1638400

/-- The first row of a chunk: 1638400 + 13312 (2 s + c) + 256 k, plus 128 for the odd chunk of the pair. -/
def chunkBase (c : Fin 2) (s : Fin 16) (k : Fin k0_t1_loop.trips) (h : Fin 2) : ℕ :=
  1638400 + 13312 * (2 * s.val + c.val) + 256 * k.val + 128 * h.val

/-- A chunk's elements. -/
def pieceSet (t : Fin 2 × Fin 16 × Fin k0_t1_loop.trips × Fin 2) : Finset S2064384x128.Idx :=
  if t.2.2.2 = 0 then (chunkA (LL t.1 t.2.1) t.2.2.1).view.set else (chunkB (LL t.1 t.2.1) t.2.2.1).view.set

theorem trips_eq : k0_t1_loop.trips = 52 := by decide

theorem set_chunkA (L : grid0.Coords) (k : Fin k0_t1_loop.trips) : (chunkA L k).view.set
    = (Rect.unit (s := S2064384x128) (k0_off20 L k) S128x128.size (k0_off20_inb L k)).set := View.set_slice_whole _ _
theorem set_chunkB (L : grid0.Coords) (k : Fin k0_t1_loop.trips) : (chunkB L k).view.set
    = (Rect.unit (s := S2064384x128) (k0_off38 L k) S128x128.size (k0_off38_inb L k)).set := View.set_slice_whole _ _

theorem LL_zero (c : Fin 2) (s : Fin 16) : ((LL c s) 0).val = c.val := rfl
theorem LL_one (c : Fin 2) (s : Fin 16) : ((LL c s) 1).val = s.val := rfl
theorem size128_zero : S128x128.size 0 = 128 := rfl
theorem size128_one : S128x128.size 1 = 128 := rfl
theorem vec2_zero (X Y : ℕ) : (![X, Y] : Fin 2 → ℕ) 0 = X := rfl
theorem vec2_one (X Y : ℕ) : (![X, Y] : Fin 2 → ℕ) 1 = Y := rfl

theorem mem_chunkA (c : Fin 2) (s : Fin 16) (k : Fin k0_t1_loop.trips) (i : S2064384x128.Idx) :
    Iff (i ∈ (chunkA (LL c s) k).view.set) (chunkBase c s k 0 ≤ (i 0).val ∧ (i 0).val < chunkBase c s k 0 + 128) := by
  rw [set_chunkA, Rect.mem_set_unit, k0_off20_eq, Fin.forall_fin_two, vec2_zero, vec2_one, LL_zero, LL_one, size128_zero, size128_one]
  have h1 : (i 1).val < 128 := (i 1).isLt
  unfold chunkBase
  rw [Fin.val_zero]
  constructor
  · intro h; omega
  · intro h; omega

theorem mem_chunkB (c : Fin 2) (s : Fin 16) (k : Fin k0_t1_loop.trips) (i : S2064384x128.Idx) :
    Iff (i ∈ (chunkB (LL c s) k).view.set) (chunkBase c s k 1 ≤ (i 0).val ∧ (i 0).val < chunkBase c s k 1 + 128) := by
  rw [set_chunkB, Rect.mem_set_unit, k0_off38_eq, Fin.forall_fin_two, vec2_zero, vec2_one, LL_zero, LL_one, size128_zero, size128_one]
  have h1 : (i 1).val < 128 := (i 1).isLt
  unfold chunkBase
  rw [Fin.val_one]
  constructor
  · intro h; omega
  · intro h; omega

theorem mem_pieceSet (t : Fin 2 × Fin 16 × Fin k0_t1_loop.trips × Fin 2) (i : S2064384x128.Idx) :
    Iff (i ∈ pieceSet t) (chunkBase t.1 t.2.1 t.2.2.1 t.2.2.2 ≤ (i 0).val ∧ (i 0).val < chunkBase t.1 t.2.1 t.2.2.1 t.2.2.2 + 128) := by
  obtain ⟨c, s, k, h⟩ := t
  show Iff (i ∈ if h = 0 then (chunkA (LL c s) k).view.set else (chunkB (LL c s) k).view.set) _
  by_cases h0 : h = 0
  · subst h0; rw [if_pos rfl]; exact mem_chunkA c s k i
  · have h1 : h = 1 := by
      apply Fin.ext; have := h.isLt; have : h.val ≠ 0 := fun e => h0 (Fin.ext e); show h.val = 1; omega
    subst h1; rw [if_neg (by decide)]; exact mem_chunkB c s k i

theorem pieces_disjoint : ∀ t ∈ (Finset.univ : Finset (Fin 2 × Fin 16 × Fin k0_t1_loop.trips × Fin 2)), ∀ t' ∈ (Finset.univ : Finset (Fin 2 × Fin 16 × Fin k0_t1_loop.trips × Fin 2)),
    t ≠ t' → Disjoint (pieceSet t) (pieceSet t') := by
  intro t _ t' _ hne
  rw [Finset.disjoint_left]
  intro i hi hi'
  rw [mem_pieceSet] at hi hi'
  obtain ⟨c, s, k, h⟩ := t
  obtain ⟨c', s', k', h'⟩ := t'
  apply hne
  unfold chunkBase at hi hi'
  have hc := c.isLt; have hc' := c'.isLt; have hs := s.isLt; have hs' := s'.isLt
  have hk : k.val < 52 := trips_eq ▸ k.isLt
  have hk' : k'.val < 52 := trips_eq ▸ k'.isLt
  have hh := h.isLt; have hh' := h'.isLt
  simp only at hi hi'
  have e1 : s.val = s'.val := by omega
  have e2 : c.val = c'.val := by omega
  have e3 : k.val = k'.val := by omega
  have e4 : h.val = h'.val := by omega
  rw [Fin.ext e1, Fin.ext e2, Fin.ext e3, Fin.ext e4]

theorem pieces_cover : (Finset.univ : Finset (Fin 2 × Fin 16 × Fin k0_t1_loop.trips × Fin 2)).biUnion pieceSet = Finset.univ \ lowRows := by
  ext i
  simp only [Finset.mem_biUnion, Finset.mem_univ, true_and, Finset.mem_sdiff, lowRows, Finset.mem_filter, not_lt]
  have hi : (i 0).val < 2064384 := (i 0).isLt
  constructor
  · rintro ⟨t, ht⟩
    rw [mem_pieceSet] at ht
    unfold chunkBase at ht; omega
  · intro h
    have hw : ((i 0).val - 1638400) / 13312 < 32 := by omega
    refine ⟨(⟨(((i 0).val - 1638400) / 13312) % 2, Nat.mod_lt _ (by norm_num)⟩, ⟨(((i 0).val - 1638400) / 13312) / 2, by omega⟩,
      ⟨(((i 0).val - 1638400) % 13312) / 256, by rw [trips_eq]; omega⟩, ⟨(((i 0).val - 1638400) % 256) / 128, by omega⟩), ?_⟩
    rw [mem_pieceSet]
    unfold chunkBase
    simp only
    omega

/-- The output array whole is its low rows and every task's chunks. -/
theorem out_split (d : Dev nD) (f : Buf (Elt F) (outLoc d)) :
    (outLoc d ↦{fullShare} f : sProp 𝕄)
      = iprop((outLoc d ↦[lowRows]{fullShare} f) ∗ bigSep Finset.univ fun c : Fin 2 => bigSep Finset.univ fun s : Fin 16 => outPieces d (LL c s) f) := by
  have hs : (outLoc d ↦[Finset.univ]{fullShare} f : sProp 𝕄) ⊣⊢ iprop((outLoc d ↦[lowRows]{fullShare} f) ∗ outLoc d ↦[Finset.univ \ lowRows]{fullShare} f) :=
    pointsTo_split_subset (Finset.subset_univ lowRows)
  rw [BI.equiv_iff.mp ⟨hs.1, hs.2⟩, ← pieces_cover, pointsTo_biUnion Finset.univ (ℓ := outLoc d) pieceSet pieces_disjoint,
    BI.bigSep_univ_prod]
  congr 1
  refine bigSep_congr fun c _ => ?_
  rw [BI.bigSep_univ_prod]
  refine bigSep_congr fun s _ => ?_
  rw [BI.bigSep_univ_prod]
  unfold outPieces
  refine bigSep_congr fun k _ => ?_
  rw [bigSep_univ_two]
  rfl

/-! ## A read-only array cut into the 32 tasks' read shares -/

/-- What is left of an array held whole once the tasks' read shares are cut off. -/
def shRem (ℓ : Loc nD τ sig) (f : Buf (Elt F) ℓ) : sProp 𝕄 :=
  iprop((ℓ ↦{Transfers.shareDrop fullShare 2} f) ∗ bigSep Finset.univ fun c : Fin 2 => ℓ ↦{Transfers.shareDrop (shC c) 16} f)

theorem shares_two (ℓ : Loc nD τ sig) (f : Buf (Elt F) ℓ) : (ℓ ↦{fullShare} f : sProp 𝕄)
    = iprop((ℓ ↦{Transfers.shareDrop fullShare 2} f) ∗ bigSep Finset.univ fun c : Fin 2 => ℓ ↦{shC c} f) :=
  BI.equiv_iff.mp ⟨(Transfers.pointsTo_toks fullShare 2).1, (Transfers.pointsTo_toks fullShare 2).2⟩

theorem shares_sixteen (ℓ : Loc nD τ sig) (f : Buf (Elt F) ℓ) (c : Fin 2) : (ℓ ↦{shC c} f : sProp 𝕄)
    = iprop((ℓ ↦{Transfers.shareDrop (shC c) 16} f) ∗ bigSep Finset.univ fun s : Fin 16 => ℓ ↦{shT c s} f) :=
  BI.equiv_iff.mp ⟨(Transfers.pointsTo_toks (shC c) 16).1, (Transfers.pointsTo_toks (shC c) 16).2⟩

theorem shares_split (ℓ : Loc nD τ sig) (f : Buf (Elt F) ℓ) :
    (ℓ ↦{fullShare} f : sProp 𝕄) ⊢ iprop(shRem ℓ f ∗ bigSep Finset.univ fun c : Fin 2 => bigSep Finset.univ fun s : Fin 16 => ℓ ↦{shT c s} f) := by
  rw [shares_two, bigSep_congr (fun c _ => shares_sixteen ℓ f c), bigSep_sep']
  unfold shRem
  iintro ⟨H1, H2, H3⟩
  isplitl [H1 H2]
  · isplitl [H1] <;> iassumption
  iexact H3

theorem shares_join (ℓ : Loc nD τ sig) (f : Buf (Elt F) ℓ) :
    iprop(shRem ℓ f ∗ bigSep Finset.univ fun c : Fin 2 => bigSep Finset.univ fun s : Fin 16 => ℓ ↦{shT c s} f) ⊢ (ℓ ↦{fullShare} f : sProp 𝕄) := by
  rw [shares_two, bigSep_congr (fun c _ => shares_sixteen ℓ f c), bigSep_sep']
  unfold shRem
  iintro ⟨⟨H1, H2⟩, H3⟩
  isplitl [H1]; · iexact H1
  isplitl [H2] <;> iassumption

/-! ## The call's operands from the four arrays held whole, and the arrays back from its results -/

variable [FloatOps F]

/-- What @main keeps while the call runs: the remainders of the three read-only arrays and the output array's low rows. -/
def remAll (d : Dev nD) (ft : Buf (Elt F) (tabLoc d)) (fg : Buf (Elt F) (gidxLoc d)) (fb : Buf (Elt F) (biasLoc d)) (prev : Buf (Elt F) (outLoc d)) : sProp 𝕄 :=
  iprop(shRem (tabLoc d) ft ∗ shRem (gidxLoc d) fg ∗ shRem (biasLoc d) fb ∗ (outLoc d ↦[lowRows]{fullShare} prev))

omit [FloatOps F] in
theorem tasks_in (d : Dev nD) (ft : Buf (Elt F) (tabLoc d)) (fg : Buf (Elt F) (gidxLoc d)) (fb : Buf (Elt F) (biasLoc d)) (prev : Buf (Elt F) (outLoc d)) :
    (bigSep Finset.univ fun c : Fin 2 => bigSep Finset.univ fun s : Fin 16 => taskIn d (LL c s) (shT c s) ft fg fb prev)
      = iprop((bigSep Finset.univ fun c : Fin 2 => bigSep Finset.univ fun s : Fin 16 => (tabLoc d ↦{shT c s} ft : sProp 𝕄))
          ∗ (bigSep Finset.univ fun c : Fin 2 => bigSep Finset.univ fun s : Fin 16 => (gidxLoc d ↦{shT c s} fg : sProp 𝕄))
          ∗ (bigSep Finset.univ fun c : Fin 2 => bigSep Finset.univ fun s : Fin 16 => (biasLoc d ↦{shT c s} fb : sProp 𝕄))
          ∗ (bigSep Finset.univ fun c : Fin 2 => bigSep Finset.univ fun s : Fin 16 => outPieces d (LL c s) prev)) := by
  unfold taskIn
  simp only [bigSep_sep']

theorem tasks_out (d : Dev nD) (ft : Buf (Elt F) (tabLoc d)) (fg : Buf (Elt F) (gidxLoc d)) (fb : Buf (Elt F) (biasLoc d)) (prev : Buf (Elt F) (outLoc d)) :
    (bigSep Finset.univ fun c : Fin 2 => bigSep Finset.univ fun s : Fin 16 => taskOut d (LL c s) (shT c s) ft fg fb prev)
      = iprop((bigSep Finset.univ fun c : Fin 2 => bigSep Finset.univ fun s : Fin 16 => (tabLoc d ↦{shT c s} ft : sProp 𝕄))
          ∗ (bigSep Finset.univ fun c : Fin 2 => bigSep Finset.univ fun s : Fin 16 => (gidxLoc d ↦{shT c s} fg : sProp 𝕄))
          ∗ (bigSep Finset.univ fun c : Fin 2 => bigSep Finset.univ fun s : Fin 16 => (biasLoc d ↦{shT c s} fb : sProp 𝕄))
          ∗ (bigSep Finset.univ fun c : Fin 2 => bigSep Finset.univ fun s : Fin 16 => outPieces d (LL c s) (scRows fg ft fb prev))) := by
  unfold taskOut
  simp only [bigSep_sep']

omit [FloatOps F] in
theorem st_split (d : Dev nD) (ft : Buf (Elt F) (tabLoc d)) (fg : Buf (Elt F) (gidxLoc d)) (fb : Buf (Elt F) (biasLoc d)) (prev : Buf (Elt F) (outLoc d)) :
    iprop((tabLoc d ↦{fullShare} ft) ∗ (gidxLoc d ↦{fullShare} fg) ∗ (biasLoc d ↦{fullShare} fb) ∗ (outLoc d ↦{fullShare} prev))
      ⊢ (iprop(remAll d ft fg fb prev
          ∗ bigSep Finset.univ fun c : Fin 2 => bigSep Finset.univ fun s : Fin 16 => taskIn d (LL c s) (shT c s) ft fg fb prev) : sProp 𝕄) := by
  rw [tasks_in, out_split d prev]
  unfold remAll
  iintro ⟨Ht, Hg, Hb, Hl, Ho⟩
  ihave Ht' := (shares_split (tabLoc d) ft) $$ Ht
  icases Ht' with ⟨Htr, Htt⟩
  ihave Hg' := (shares_split (gidxLoc d) fg) $$ Hg
  icases Hg' with ⟨Hgr, Hgt⟩
  ihave Hb' := (shares_split (biasLoc d) fb) $$ Hb
  icases Hb' with ⟨Hbr, Hbt⟩
  isplitl [Htr Hgr Hbr Hl]
  · isplitl [Htr]; · iexact Htr
    isplitl [Hgr]; · iexact Hgr
    isplitl [Hbr]; · iexact Hbr
    iexact Hl
  isplitl [Htt]; · iexact Htt
  isplitl [Hgt]; · iexact Hgt
  isplitl [Hbt]; · iexact Hbt
  iexact Ho

/-- The rows below the categorical block are as before the call. -/
theorem scRows_low (fg : IVec S32x104x128 32) (tab : FVec F S26000x128 .f32) (cb : FVec F S26x128 .f32) (prev : FVec F S2064384x128 .f32) :
    ∀ i ∈ lowRows, prev i = scRows fg tab cb prev i := by
  intro i hi
  have h : (i 0).val < 1638400 := (Finset.mem_filter.mp hi).2
  unfold scRows
  rw [dif_neg (by omega)]

theorem dn_join (d : Dev nD) (ft : Buf (Elt F) (tabLoc d)) (fg : Buf (Elt F) (gidxLoc d)) (fb : Buf (Elt F) (biasLoc d)) (prev : Buf (Elt F) (outLoc d)) :
    (iprop(remAll d ft fg fb prev
          ∗ bigSep Finset.univ fun c : Fin 2 => bigSep Finset.univ fun s : Fin 16 => taskOut d (LL c s) (shT c s) ft fg fb prev) : sProp 𝕄)
      ⊢ iprop((tabLoc d ↦{fullShare} ft) ∗ (gidxLoc d ↦{fullShare} fg) ∗ (biasLoc d ↦{fullShare} fb) ∗ (outLoc d ↦{fullShare} scRows fg ft fb prev)) := by
  rw [tasks_out, out_split d (scRows fg ft fb prev)]
  unfold remAll
  rw [pointsTo_congr (ℓ := outLoc d) (I := lowRows) (f := prev) (g := scRows fg ft fb prev) (scRows_low fg ft fb prev)]
  iintro ⟨⟨Htr, Hgr, Hbr, Hl⟩, Htt, Hgt, Hbt, Ho⟩
  isplitl [Htr Htt]
  · iapply (shares_join (tabLoc d) ft); isplitl [Htr] <;> iassumption
  isplitl [Hgr Hgt]
  · iapply (shares_join (gidxLoc d) fg); isplitl [Hgr] <;> iassumption
  isplitl [Hbr Hbt]
  · iapply (shares_join (biasLoc d) fb); isplitl [Hbr] <;> iassumption
  isplitl [Hl] <;> iassumption

end Cert.Proof.KI

end
-- ==== Proof.LaunchTerm.lean ====
/-
  The host stretch of the program as pure terms: the index array as a function of the categorical codes
  (the codes transposed, 1000 times the feature number added, laid out as 32 x 104 x 128), read at an index,
  with the bound that makes every word a row of the table when the codes are at most 999; and the program's
  result as one term of the six arguments and the prior contents of the gathered-rows array.
-/
import proofs.«207390_g85444079387303_cont_sun_c4_501_21_alg».proof.Proof.Pay
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

/-- The per-feature offsets: 1000 times the feature number. -/
def featOff : IVec S26 32 :=
  muli (iotaInDim S26 32 0) (broadcastInDim S26 ![] bcast_S_S26 (constantI S_ 32 1000#32))

/-- The index array as a function of the categorical codes: the codes transposed, the feature's offset added, laid out as 32 x 104 x 128. -/
def gidxOf (xc : IVec S16384x26 32) : IVec S32x104x128 32 :=
  shapeCast S32x104x128
    (addi (transpose S26x16384 [1, 0] xc transposes_S16384x26_S26x16384_1_0)
      (broadcastInDim S26x16384 ![0, 1] bcast_S26x1_S26x16384_0_1
        (broadcastInDim S26x1 ![0] bcast_S26_S26x1_0 featOff)))
    shapeCasts_S26x16384_S32x104x128

theorem featOff_apply (f : Fin 26) : featOff (ix1 f) = BitVec.ofNat 32 (1000 * f.val) := by
  show IntOp.muli (BitVec.ofNat 32 f.val) (1000#32) = _
  unfold IntOp.muli
  apply BitVec.eq_of_toNat_eq
  have := f.isLt
  simp only [BitVec.toNat_mul, BitVec.toNat_ofNat]
  omega

/-- The index array at the position of feature f and batch row b. -/
theorem gidxOf_apply (xc : IVec S16384x26 32) (i : S32x104x128.Idx) (f : Fin 26) (b : Fin 16384)
    (h : ((i 0).val * 104 + (i 1).val) * 128 + (i 2).val = f.val * 16384 + b.val) :
    gidxOf xc i = xc (ix2 b f) + BitVec.ofNat 32 (1000 * f.val) := by
  unfold gidxOf
  refine (shapeCast_apply _ _ i (ix2 f b) ?_).trans ?_
  · rw [Shape.rowMajor_val_two, Shape.rowMajor_val_three]; exact h.symm
  show IntOp.addi _ _ = _
  unfold IntOp.addi
  congr 1
  · exact transpose_ix2_apply xc _ f b
  · refine (broadcastInDim_apply _ _ _ (ix2 f b) (ix2 f 0) fun a => match a with | ⟨0, _⟩ => rfl | ⟨1, _⟩ => rfl).trans ?_
    refine (broadcastInDim_apply _ _ _ (ix2 f 0) (ix1 f) fun a => match a with | ⟨0, _⟩ => rfl).trans ?_
    exact featOff_apply f

theorem gidxOf_toNat (xc : IVec S16384x26 32) (hx : ∀ j, (xc j).toNat ≤ 999) (i : S32x104x128.Idx) (f : Fin 26) (b : Fin 16384)
    (h : ((i 0).val * 104 + (i 1).val) * 128 + (i 2).val = f.val * 16384 + b.val) :
    (gidxOf xc i).toNat = (xc (ix2 b f)).toNat + 1000 * f.val := by
  rw [gidxOf_apply xc i f b h]
  have := hx (ix2 b f); have := f.isLt
  simp only [BitVec.toNat_add, BitVec.toNat_ofNat]
  omega

/-- Every word of the index array names a row of the table. -/
theorem gidx_inb (xc : IVec S16384x26 32) (hx : ∀ j, (xc j).toNat ≤ 999) (i : S32x104x128.Idx) : (gidxOf xc i).toNat < 26000 := by
  have h0 := (i 0).isLt; have h1 := (i 1).isLt; have h2 := (i 2).isLt
  simp only [S32x104x128] at h0 h1 h2
  have h0' : (i 0).val < 32 := h0
  have h1' : (i 1).val < 104 := h1
  have h2' : (i 2).val < 128 := h2
  have hp : (((i 0).val * 104 + (i 1).val) * 128 + (i 2).val) / 16384 < 26 := by omega
  rw [gidxOf_toNat xc hx i ⟨_, hp⟩ ⟨(((i 0).val * 104 + (i 1).val) * 128 + (i 2).val) % 16384, Nat.mod_lt _ (by norm_num)⟩ (by show _ = _ / 16384 * 16384 + _ % 16384; omega)]
  have := hx (ix2 ⟨(((i 0).val * 104 + (i 1).val) * 128 + (i 2).val) % 16384, Nat.mod_lt _ (by norm_num)⟩ ⟨_, hp⟩)
  show _ + 1000 * (_ / 16384) < 26000
  omega

open Cert.Proof.Spec (numTokens)

/-! ## The index array and the result as pure terms -/

/-- The result as a term of the six arguments and the prior contents of the gathered-rows array. -/
def kernelTerm [FloatOps F] (x : FVec F S16384x100 .f32) (xc : IVec S16384x26 32) (w nb : FVec F S100x128 .f32) (tab : FVec F S26000x128 .f32)
    (cb : FVec F S26x128 .f32) (prev8 : FVec F S2064384x128 .f32) : FVec F S16384x126x128 .f32 :=
  transpose S16384x126x128 [1, 0, 2]
    (numTokens (F := F) x w nb (shapeCast S126x16384x128 (scRows (gidxOf xc) tab cb prev8) shapeCasts_S2064384x128_S126x16384x128))
    transposes_S126x16384x128_S16384x126x128_1_0_2

end Cert.Proof.KI

end
-- ==== Proof.LaunchHost.lean ====
/-
  The two obligations the launch takes as hypotheses (a vector subcore's task, the numeric call's region), and the
  payloads of the row-gathering call at the launch memory.
-/
import proofs.«207390_g85444079387303_cont_sun_c4_501_21_alg».proof.Proof.LaunchTerm
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

open Cert.Proof.Spec (numTokens)

variable [FloatOps F]

/-! ## The two obligations taken as hypotheses -/

def HTile : Prop :=
  ∀ (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)),
    (∀ d i, ((fg d) i).toNat < 26000) → (K (F := F)).TileObl (D (F := F)) 𝒱 (P ft fg fb prev) v₀ 0

def RegionStmt : Prop :=
  ∀ (d : Dev nD)
    (x : Buf (Elt F) ((T d : Thread nD τ).loc main_arg0)) (w : Buf (Elt F) ((T d : Thread nD τ).loc main_arg2))
    (nb : Buf (Elt F) ((T d : Thread nD τ).loc main_arg3)) (prev : Buf (Elt F) ((T d : Thread nD τ).loc main_v10))
    (O : CellTallies nD τ sig (HIx 1)) (hO : ∀ g, O g none = 0) (b : ℕ) {Φ : PUnit → sProp 𝕄},
    iprop((levAts (K (F := F)).L (K (F := F)).lev : sProp 𝕄) ∗ boundary (T d : Thread nD τ)
        ∗ ((T d : Thread nD τ).loc main_arg0 ↦{fullShare} x) ∗ ((T d : Thread nD τ).loc main_arg2 ↦{fullShare} w)
        ∗ ((T d : Thread nD τ).loc main_arg3 ↦{fullShare} nb) ∗ ((T d : Thread nD τ).loc main_v10 ↦{fullShare} prev)
        ∗ (∃ W, ⌜(K (F := F)).WBelow (T d) W b⌝ ∗ owes (T d : Thread nD τ) O W)
        ∗ Pipeline.cellsGhost (cfgs) EP 0 d ∗ Pipeline.toksInit (cfgs) EP 0 d
        ∗ (iprop(boundary (T d : Thread nD τ)
            ∗ ((T d : Thread nD τ).loc main_arg0 ↦{fullShare} x) ∗ ((T d : Thread nD τ).loc main_arg2 ↦{fullShare} w)
            ∗ ((T d : Thread nD τ).loc main_arg3 ↦{fullShare} nb)
            ∗ ((T d : Thread nD τ).loc main_v10 ↦{fullShare} (Cert.Proof.Spec.numTokens (F := F) x w nb prev))
            ∗ (∃ W, ⌜(K (F := F)).WBelow (T d) W b⌝ ∗ owes (T d : Thread nD τ) O W)) -∗ Φ ⟨⟩))
      ⊢ wp frame (wpE ((K (F := F)).defs (D (F := F))) 𝒱 (T d) none) Set.univ
          (Prog.lift (.customCall (SparseCore.inner (Pipeline.entry 0)) ())) Φ

/-! ## The launch memory, the payloads at it -/

variable (m : (ℓ : Loc nD τ sig) → Buf (Elt F) ℓ) (ρ : Dev nD → PrngReg)

abbrev xLoc (d : Dev nD) : Loc nD τ sig := (SparseCore.T d).loc main_arg0
abbrev xcLoc (d : Dev nD) : Loc nD τ sig := (SparseCore.T d).loc main_arg1
abbrev wLoc (d : Dev nD) : Loc nD τ sig := (SparseCore.T d).loc main_arg2
abbrev nbLoc (d : Dev nD) : Loc nD τ sig := (SparseCore.T d).loc main_arg3
abbrev resLoc (d : Dev nD) : Loc nD τ sig := (SparseCore.T d).loc main_v11

/-- The index array's contents at the call. -/
def gidxAt (d : Dev nD) : Buf (Elt F) (gidxLoc d) := gidxOf (m (xcLoc d))

/-- The payloads at the launch memory. -/
abbrev Pm : (K (F := F)).Pay (nD := nD) (Val := Elt F) (Name := ℕ) (U := UU) :=
  P (fun d => m (tabLoc d)) (gidxAt m) (fun d => m (biasLoc d)) (fun d => m (outLoc d))

instance P_storable (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) : (P ft fg fb prev).IsStorable where
  st q d c := match q with | 0 => by unfold P taskIn outPieces; infer_instance
  dn q d c := match q with | 0 => by unfold P taskOut outPieces; infer_instance
  go q d c i := match q with | 0 => by unfold P taskIn outPieces; infer_instance
  td q d c i := match q with | 0 => by unfold P taskOut outPieces; infer_instance

end Cert.Proof.KI

end
-- ==== Proof.LaunchSplit.lean ====
/-
  What the launch theorem asks beside @main: a SparseCore's operands are its sixteen tasks' operands (the payloads are
  stated so; only the tasks' index type differs); the launch element yields the handshakes' rounds, each device's
  staging cells' ghost state and launch tokens, and nothing for the kernels' own proofs; and what @main leaves — the
  result and the six arguments each held whole — reads the claim off any final state.
-/
import proofs.«207390_g85444079387303_cont_sun_c4_501_21_alg».proof.Proof.LaunchHost
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

variable [FloatOps F]

/-! ## A SparseCore's operands are its sixteen tasks' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem P_st (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) (c : Fin ((K (F := F)).nCore 0)) :
    (P ft fg fb prev).st 0 d c = bigSep Finset.univ fun s : Fin 16 => taskIn d (LL (Fin.cast nCore_zero c) s) (shT (Fin.cast nCore_zero c) s) (ft d) (fg d) (fb d) (prev d) := by
  unfold P; dsimp only
theorem P_dn (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) (c : Fin ((K (F := F)).nCore 0)) :
    (P ft fg fb prev).dn 0 d c = bigSep Finset.univ fun s : Fin 16 => taskOut d (LL (Fin.cast nCore_zero c) s) (shT (Fin.cast nCore_zero c) s) (ft d) (fg d) (fb d) (prev d) := by
  unfold P; dsimp only
theorem P_go (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) (c : Fin ((K (F := F)).nCore 0)) (i : Fin ((K (F := F)).nSub 0)) :
    (P ft fg fb prev).go 0 d c i = taskIn d (LL (Fin.cast nCore_zero c) (Fin.cast nSub_zero i)) (shT (Fin.cast nCore_zero c) (Fin.cast nSub_zero i)) (ft d) (fg d) (fb d) (prev d) := rfl
theorem P_td (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) (c : Fin ((K (F := F)).nCore 0)) (i : Fin ((K (F := F)).nSub 0)) :
    (P ft fg fb prev).td 0 d c i = taskOut d (LL (Fin.cast nCore_zero c) (Fin.cast nSub_zero i)) (shT (Fin.cast nCore_zero c) (Fin.cast nSub_zero i)) (ft d) (fg d) (fb d) (prev d) := rfl

theorem vecSplit (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) :
    (K (F := F)).VecSplit' (P ft fg fb prev) 0 := by
  intro d c
  rw [P_st, P_dn, bigSep_congr (fun i _ => P_go ft fg fb prev d c i), bigSep_congr (fun i _ => P_td ft fg fb prev d c i)]
  rw [bigSep_tasks (F := F) (fun s => taskIn d (LL (Fin.cast nCore_zero c) s) (shT (Fin.cast nCore_zero c) s) (ft d) (fg d) (fb d) (prev d)),
    bigSep_tasks (F := F) (fun s => taskOut d (LL (Fin.cast nCore_zero c) s) (shT (Fin.cast nCore_zero c) s) (ft d) (fg d) (fb d) (prev d))]
  iintro H; imodintro
  isplitl [H]; · iexact H
  iintro H; iexact H

/-! ## The launch element -/

variable (m : (ℓ : Loc nD τ sig) → Buf (Elt F) ℓ) (ρ : Dev nD → PrngReg)

/-- What @main's proof starts from on device d: the one pipeline's staging cells' ghost state and launch tokens. -/
abbrev G (d : Dev nD) : sProp 𝕄 := iprop(Pipeline.cellsGhost (cfgs) EP 0 d ∗ Pipeline.toksInit (cfgs) EP 0 d)

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave H2 := (show (BI.own ((embR : Emb (UP × Counters) 𝕄) (initOf (Pipeline.cells (nD := nD) (τ := τ) cfgs cellOf_inj) (Pipeline.launchToks (nD := nD) (τ := τ) cfgs cellOf_inj), (1 : Counters))) : sProp 𝕄)
      ⊢ iprop(BI.own ((EP : Emb UP 𝕄) (initOf (Pipeline.cells (nD := nD) (τ := τ) cfgs cellOf_inj) (Pipeline.launchToks (nD := nD) (τ := τ) cfgs cellOf_inj)))
          ∗ BI.own (((Emb.inr : Emb Counters (UP × Counters)).trans (embR : Emb (UP × Counters) 𝕄)) (1 : Counters)))
      from own_pair_emb (embR : Emb (UP × Counters) 𝕄) _ _) $$ HR
  icases H2 with ⟨HP, -⟩
  imod (Pipeline.fund_ghost (cfgs) (EP : Emb UP 𝕄) cellOf_inj) $$ HP with ⟨Hg, Ht⟩
  imodintro
  isplitl [HH]; · iexact HH
  isplitl [Hg Ht]
  · rw [bigSep_sep']
    have hg : (bigSep Finset.univ fun c : Dev nD => bigSep Finset.univ fun p : Fin 1 => (Pipeline.cellsGhost (cfgs) (EP : Emb UP 𝕄) p c : sProp 𝕄))
        = bigSep Finset.univ fun c : Dev nD => Pipeline.cellsGhost (cfgs) (EP : Emb UP 𝕄) 0 c :=
      bigSep_congr fun c _ => bigSep_univ_of_subsingleton (0 : Fin 1)
    have ht : (bigSep Finset.univ fun c : Dev nD => bigSep Finset.univ fun p : Fin 1 => (Pipeline.toksInit (cfgs) (EP : Emb UP 𝕄) p c : sProp 𝕄))
        = bigSep Finset.univ fun c : Dev nD => Pipeline.toksInit (cfgs) (EP : Emb UP 𝕄) 0 c :=
      bigSep_congr fun c _ => bigSep_univ_of_subsingleton (0 : Fin 1)
    isplitl [Hg]
    · iapply (Entails.of_eq hg); iexact Hg
    · iapply (Entails.of_eq ht); iexact Ht
  rw [show (bigSep Finset.univ fun thr : Thread nD τ => bigSep Finset.univ fun q : Fin 1 => (Pm m).x q thr) = (iprop(emp) : sProp 𝕄) from by
    show (bigSep Finset.univ fun _ : Thread nD τ => bigSep Finset.univ fun _ : Fin 1 => (iprop(emp) : sProp 𝕄)) = iprop(emp)
    rw [bigSep_congr fun _ _ => bigSep_emp' _, bigSep_emp']]
  iempintro

/-! ## What @main leaves, read off the final memory -/

/-- What @main leaves the claim: the result at the term of the arguments, the six arguments as launched. -/
abbrev FIN (d : Dev nD) : sProp 𝕄 :=
  iprop((resLoc d ↦{fullShare} kernelTerm (F := F) (m (xLoc d)) (m (xcLoc d)) (m (wLoc d)) (m (nbLoc d)) (m (tabLoc d)) (m (biasLoc d)) (m (outLoc d)))
    ∗ (xLoc d ↦{fullShare} m (xLoc d)) ∗ (xcLoc d ↦{fullShare} m (xcLoc d)) ∗ (wLoc d ↦{fullShare} m (wLoc d))
    ∗ (nbLoc d ↦{fullShare} m (nbLoc d)) ∗ (tabLoc d ↦{fullShare} m (tabLoc d)) ∗ (biasLoc d ↦{fullShare} m (biasLoc d)))

def fq (d : Dev nD) (s' : Phys nD τ sig (Elt F)) : Prop :=
  s'.mem.mem (resLoc d) = kernelTerm (F := F) (m (xLoc d)) (m (xcLoc d)) (m (wLoc d)) (m (nbLoc d)) (m (tabLoc d)) (m (biasLoc d)) (m (outLoc d))
    ∧ s'.mem.mem (xLoc d) = m (xLoc d) ∧ s'.mem.mem (xcLoc d) = m (xcLoc d) ∧ s'.mem.mem (wLoc d) = m (wLoc d)
    ∧ s'.mem.mem (nbLoc d) = m (nbLoc d) ∧ s'.mem.mem (tabLoc d) = m (tabLoc d) ∧ s'.mem.mem (biasLoc d) = m (biasLoc d)

/-- A buffer held whole agrees with the state. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4, H5, H6⟩, HSI⟩
  ihave H := (read_whole (resLoc d) _ s') $$ [H0 HSI]
  · isplitl [H0] <;> iassumption
  icases H with ⟨%h0, HSI⟩
  ihave H := (read_whole (xLoc d) _ s') $$ [H1 HSI]
  · isplitl [H1] <;> iassumption
  icases H with ⟨%h1, HSI⟩
  ihave H := (read_whole (xcLoc d) _ s') $$ [H2 HSI]
  · isplitl [H2] <;> iassumption
  icases H with ⟨%h2, HSI⟩
  ihave H := (read_whole (wLoc d) _ s') $$ [H3 HSI]
  · isplitl [H3] <;> iassumption
  icases H with ⟨%h3, HSI⟩
  ihave H := (read_whole (nbLoc d) _ s') $$ [H4 HSI]
  · isplitl [H4] <;> iassumption
  icases H with ⟨%h4, HSI⟩
  ihave H := (read_whole (tabLoc d) _ s') $$ [H5 HSI]
  · isplitl [H5] <;> iassumption
  icases H with ⟨%h5, HSI⟩
  ihave H := (read_whole (biasLoc d) _ s') $$ [H6 HSI]
  · isplitl [H6] <;> iassumption
  icases H with ⟨%h6, -⟩
  ipureintro; exact ⟨h0, h1, h2, h3, h4, h5, h6⟩

end Cert.Proof.KI

end
-- ==== Proof.LaunchOps.lean ====
/-
  @main on the TensorCore as a stretch of nine host operations — whose last result is the index array, equal to its
  term of the categorical codes — followed by the row-gathering call, a reshape, a copy, the numeric call and a
  transpose; the TensorCore's nineteen arrays listed one by one; and one host operation from one buffer to another,
  both held whole: the source is as before, the destination holds the operation's function of the source.
-/
import proofs.«207390_g85444079387303_cont_sun_c4_501_21_alg».proof.Proof.LaunchHost
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

variable [FloatOps F]

/-! ## @main as a stretch of host operations and what follows -/

abbrev dr (r : Ref sig .tc) : DevRef τ sig := Proc.devRef .tc r

/-- The nine host operations that compute the index array. -/
def ops1 : List (HloOp τ sig (Elt F)) :=
  [StableHlo.nullary main_v0 (iotaInDim S26 32 0),
   StableHlo.nullary main_c (constantI S_ 32 1000#32),
   StableHlo.unary main_c main_v1 (broadcastInDim S26 ![] bcast_S_S26 : (⟨S_, .i32⟩ : BufTy).Contents (Elt F) → (⟨S26, .i32⟩ : BufTy).Contents (Elt F)),
   StableHlo.binary main_v0 main_v1 main_v2 (muli : (⟨S26, .i32⟩ : BufTy).Contents (Elt F) → (⟨S26, .i32⟩ : BufTy).Contents (Elt F) → (⟨S26, .i32⟩ : BufTy).Contents (Elt F)),
   StableHlo.unary main_arg1 main_v3 ((transpose S26x16384 [1, 0] · transposes_S16384x26_S26x16384_1_0) : (⟨S16384x26, .i32⟩ : BufTy).Contents (Elt F) → (⟨S26x16384, .i32⟩ : BufTy).Contents (Elt F)),
   StableHlo.unary main_v2 main_v4 (broadcastInDim S26x1 ![0] bcast_S26_S26x1_0 : (⟨S26, .i32⟩ : BufTy).Contents (Elt F) → (⟨S26x1, .i32⟩ : BufTy).Contents (Elt F)),
   StableHlo.unary main_v4 main_v5 (broadcastInDim S26x16384 ![0, 1] bcast_S26x1_S26x16384_0_1 : (⟨S26x1, .i32⟩ : BufTy).Contents (Elt F) → (⟨S26x16384, .i32⟩ : BufTy).Contents (Elt F)),
   StableHlo.binary main_v3 main_v5 main_v6 (addi : (⟨S26x16384, .i32⟩ : BufTy).Contents (Elt F) → (⟨S26x16384, .i32⟩ : BufTy).Contents (Elt F) → (⟨S26x16384, .i32⟩ : BufTy).Contents (Elt F)),
   StableHlo.reshape main_v6 main_v7 rfl shapeCasts_S26x16384_S32x104x128]

/-- What follows them: the row-gathering call, the reshape and the copy, the numeric call, the transpose. -/
def rest (d : Dev nD) : Prog (TpuEff nD τ sig (Elt F) (SparseCore.Sig (ΛP (F := F)) 1) .tc) PUnit := do
  sc.run d 0
  hlo rfl (StableHlo.reshape main_v8 main_v9 rfl shapeCasts_S2064384x128_S126x16384x128) (fun _ => .ret ⟨⟩)
  hlo rfl (StableHlo.unary main_v9 main_v10 id) (fun _ => .ret ⟨⟩)
  Prog.lift (.customCall (SparseCore.inner (Pipeline.entry 0)) ())
  hlo rfl (StableHlo.unary main_v10 main_v11 ((transpose S16384x126x128 [1, 0, 2] · transposes_S126x16384x128_S16384x126x128_1_0_2) : (⟨S126x16384x128, .f32⟩ : BufTy).Contents (Elt F) → (⟨S16384x126x128, .f32⟩ : BufTy).Contents (Elt F))) (fun _ => .ret ⟨⟩)
  pure ⟨⟩

theorem main_eq (d : Dev nD) : main (F := F) d = (seq (ops1 (F := F)) >>= fun _ => rest d) := rfl

/-- The buffers the nine operations touch. -/
abbrev S1 : Finset (DevRef τ sig) :=
  {dr main_arg1, dr main_v0, dr main_c, dr main_v1, dr main_v2, dr main_v3, dr main_v4, dr main_v5, dr main_v6, dr main_v7}

theorem ops1_sub : ∀ op ∈ ops1 (F := F), op.bufs ⊆ S1 := by
  intro op h
  simp only [ops1, List.mem_cons, List.mem_nil_iff, or_false] at h
  rcases h with rfl | rfl | rfl | rfl | rfl | rfl | rfl | rfl | rfl
  · show ({dr main_v0} : Finset (DevRef τ sig)) ⊆ S1; decide
  · show ({dr main_c} : Finset (DevRef τ sig)) ⊆ S1; decide
  · show ({dr main_c, dr main_v1} : Finset (DevRef τ sig)) ⊆ S1; decide
  · show ({dr main_v0, dr main_v1, dr main_v2} : Finset (DevRef τ sig)) ⊆ S1; decide
  · show ({dr main_arg1, dr main_v3} : Finset (DevRef τ sig)) ⊆ S1; decide
  · show ({dr main_v2, dr main_v4} : Finset (DevRef τ sig)) ⊆ S1; decide
  · show ({dr main_v4, dr main_v5} : Finset (DevRef τ sig)) ⊆ S1; decide
  · show ({dr main_v3, dr main_v5, dr main_v6} : Finset (DevRef τ sig)) ⊆ S1; decide
  · show ({dr main_v6, dr main_v7} : Finset (DevRef τ sig)) ⊆ S1; decide

theorem ops1_fresh : ∀ op ∈ ops1 (F := F), op.fresh = ∅ := by
  intro op h
  simp only [ops1, List.mem_cons, List.mem_nil_iff, or_false] at h
  rcases h with rfl | rfl | rfl | rfl | rfl | rfl | rfl | rfl | rfl <;> rfl

theorem after_v7 (V : Valuation τ sig (Elt F)) : after (ops1 (F := F)) V (dr main_v7) = gidxOf (V (dr main_arg1)) := by
  unfold ops1
  after_results
  rfl

theorem after_arg1 (V : Valuation τ sig (Elt F)) : after (ops1 (F := F)) V (dr main_arg1) = V (dr main_arg1) := by
  unfold ops1
  after_results

/-! ## The TensorCore's arrays, one by one -/

omit [FloatOps F] in
theorem unscopedBufs_eq (d : Dev nD) (W : (b : Ref sig .tc) → Buf (Elt F) ((d.tc : Thread nD τ).loc b)) :
    (unscopedBufs d W : sProp 𝕄) = iprop((((d.tc : Thread nD τ).loc main_arg0) ↦{fullShare} W main_arg0)
        ∗ (((d.tc : Thread nD τ).loc main_arg1) ↦{fullShare} W main_arg1)
        ∗ (((d.tc : Thread nD τ).loc main_arg2) ↦{fullShare} W main_arg2)
        ∗ (((d.tc : Thread nD τ).loc main_arg3) ↦{fullShare} W main_arg3)
        ∗ (((d.tc : Thread nD τ).loc main_arg4) ↦{fullShare} W main_arg4)
        ∗ (((d.tc : Thread nD τ).loc main_arg5) ↦{fullShare} W main_arg5)
        ∗ (((d.tc : Thread nD τ).loc main_v0) ↦{fullShare} W main_v0)
        ∗ (((d.tc : Thread nD τ).loc main_c) ↦{fullShare} W main_c)
        ∗ (((d.tc : Thread nD τ).loc main_v1) ↦{fullShare} W main_v1)
        ∗ (((d.tc : Thread nD τ).loc main_v2) ↦{fullShare} W main_v2)
        ∗ (((d.tc : Thread nD τ).loc main_v3) ↦{fullShare} W main_v3)
        ∗ (((d.tc : Thread nD τ).loc main_v4) ↦{fullShare} W main_v4)
        ∗ (((d.tc : Thread nD τ).loc main_v5) ↦{fullShare} W main_v5)
        ∗ (((d.tc : Thread nD τ).loc main_v6) ↦{fullShare} W main_v6)
        ∗ (((d.tc : Thread nD τ).loc main_v7) ↦{fullShare} W main_v7)
        ∗ (((d.tc : Thread nD τ).loc main_v8) ↦{fullShare} W main_v8)
        ∗ (((d.tc : Thread nD τ).loc main_v9) ↦{fullShare} W main_v9)
        ∗ (((d.tc : Thread nD τ).loc main_v10) ↦{fullShare} W main_v10)
        ∗ (((d.tc : Thread nD τ).loc main_v11) ↦{fullShare} W main_v11)) := by
  unfold unscopedBufs
  exact bigSep_eq_bigSepL_of_eq [main_arg0, main_arg1, main_arg2, main_arg3, main_arg4, main_arg5, main_v0, main_c, main_v1, main_v2, main_v3, main_v4, main_v5, main_v6, main_v7, main_v8, main_v9, main_v10, main_v11] (by decide) (by decide) _

omit [FloatOps F] in
theorem held_S1 (d : Dev nD) (W : Valuation τ sig (Elt F)) :
    (held (T d) S1 W : sProp 𝕄) = iprop((((d, dr main_arg1) : Loc nD τ sig) ↦{fullShare} W (dr main_arg1))
        ∗ (((d, dr main_v0) : Loc nD τ sig) ↦{fullShare} W (dr main_v0))
        ∗ (((d, dr main_c) : Loc nD τ sig) ↦{fullShare} W (dr main_c))
        ∗ (((d, dr main_v1) : Loc nD τ sig) ↦{fullShare} W (dr main_v1))
        ∗ (((d, dr main_v2) : Loc nD τ sig) ↦{fullShare} W (dr main_v2))
        ∗ (((d, dr main_v3) : Loc nD τ sig) ↦{fullShare} W (dr main_v3))
        ∗ (((d, dr main_v4) : Loc nD τ sig) ↦{fullShare} W (dr main_v4))
        ∗ (((d, dr main_v5) : Loc nD τ sig) ↦{fullShare} W (dr main_v5))
        ∗ (((d, dr main_v6) : Loc nD τ sig) ↦{fullShare} W (dr main_v6))
        ∗ (((d, dr main_v7) : Loc nD τ sig) ↦{fullShare} W (dr main_v7))) := by
  unfold held
  exact bigSep_eq_bigSepL_of_eq [dr main_arg1, dr main_v0, dr main_c, dr main_v1, dr main_v2, dr main_v3, dr main_v4, dr main_v5, dr main_v6, dr main_v7] (by decide) (by decide) _

/-- After the nine operations: the codes as they were, the index array at its term. -/
theorem held_S1_out (d : Dev nD) (V : Valuation τ sig (Elt F)) :
    (held (T d) S1 (after (ops1 (F := F)) V) : sProp 𝕄)
      ⊢ iprop((((d, dr main_arg1) : Loc nD τ sig) ↦{fullShare} V (dr main_arg1)) ∗ (((d, dr main_v7) : Loc nD τ sig) ↦{fullShare} gidxOf (V (dr main_arg1)))) := by
  rw [held_S1, after_arg1, after_v7]
  iintro ⟨H1, -, -, -, -, -, -, -, -, H7⟩
  isplitl [H1] <;> iassumption

/-! ## One host operation from one buffer to another, both held whole -/

omit [FloatOps F] in
theorem held_pair (d : Dev nD) (a y : DevRef τ sig) (hne : a ≠ y) (W : Valuation τ sig (Elt F)) :
    (held (T d) {a, y} W : sProp 𝕄) = iprop((((d, a) : Loc nD τ sig) ↦{fullShare} W a) ∗ (((d, y) : Loc nD τ sig) ↦{fullShare} W y)) := by
  unfold held
  rw [SparseCore.bigSep_insert' (by rw [Finset.mem_singleton]; exact hne), bigSep_singleton]

theorem wp_host2 (d : Dev nD) {op : HloOp τ sig (Elt F)} (x y : Ref sig .tc) (hxy : x ≠ y) (hb : op.bufs = {dr x, dr y}) (hf : op.fresh = ∅)
    (g : (dr x).ty.Contents (Elt F) → (dr y).ty.Contents (Elt F))
    (hx : ∀ V : Valuation τ sig (Elt F), op.result V (dr x) = V (dr x)) (hy : ∀ V : Valuation τ sig (Elt F), op.result V (dr y) = g (V (dr x)))
    (V₀ : Valuation τ sig (Elt F)) (fx : (dr x).ty.Contents (Elt F)) (fy : (dr y).ty.Contents (Elt F)) {Q : PUnit → sProp 𝕄} :
    iprop(boundary (T d : Thread nD τ) ∗ (((d, dr x) : Loc nD τ sig) ↦{fullShare} fx) ∗ (((d, dr y) : Loc nD τ sig) ↦{fullShare} fy))
      ⊢ iprop(((boundary (T d : Thread nD τ) ∗ (((d, dr x) : Loc nD τ sig) ↦{fullShare} fx) ∗ (((d, dr y) : Loc nD τ sig) ↦{fullShare} g fx)) -∗ Q ⟨⟩)
        -∗ wp frame (wpE ((K (F := F)).defs (D (F := F))) 𝒱 (T d) none) Set.univ
            (hlo rfl op fun _ => .ret ⟨⟩ : Prog (TpuEff nD τ sig (Elt F) (SparseCore.Sig (ΛP (F := F)) 1) .tc) PUnit) Q) := by
  have hne : dr x ≠ dr y := fun e => hxy (Proc.devRef_injective _ e)
  have hVx : (Function.update (Function.update V₀ (dr x) fx) (dr y) fy) (dr x) = fx := by
    rw [Function.update_of_ne hne, Function.update_self]
  have hVy : (Function.update (Function.update V₀ (dr x) fx) (dr y) fy) (dr y) = fy := Function.update_self _ _ _
  have hpost : (held (T d) {dr x, dr y} (op.result (Function.update (Function.update V₀ (dr x) fx) (dr y) fy)) : sProp 𝕄)
      = iprop((((d, dr x) : Loc nD τ sig) ↦{fullShare} fx) ∗ (((d, dr y) : Loc nD τ sig) ↦{fullShare} g fx)) := by
    rw [held_pair d _ _ hne, hx, hy, hVx]
  iintro ⟨Hb, Hx, Hy⟩ Hk
  iapply (wp_hlo_within 𝒱 (T d) none Set.univ (op := op) (S := {dr x, dr y}) (hb ▸ Finset.Subset.refl _)
    (V := Function.update (Function.update V₀ (dr x) fx) (dr y) fy) hf) $$ [Hb Hx Hy]
  · isplitl [Hb]; · iexact Hb
    rw [held_pair d _ _ hne, hVx, hVy]
    isplitl [Hx] <;> iassumption
  iintro ⟨Hb, Hh⟩
  rw [wp_ret]; imodintro
  ihave Hh' := (Entails.of_eq hpost) $$ Hh
  icases Hh' with ⟨Hx, Hy⟩
  iapply Hk
  isplitl [Hb]; · iexact Hb
  isplitl [Hx] <;> iassumption

end Cert.Proof.KI

end
-- ==== Proof.LaunchMain.lean ====
/-
  @main on a device's TensorCore, from what the launch deals it to the result held at its term of the arguments and the
  six arguments held as launched. The nine host operations run as one stretch and leave the index array at its term; the
  three read-only operands of the row-gathering call go out as read shares and the output array as its low rows and
  the tasks' chunks, and come back joined, the output array at what the call writes; the reshape and the copy are two
  host steps; the numeric call is the region hypothesis, entered with what the TensorCore owes after the call; the
  transpose is a last host step.
-/
import proofs.«207390_g85444079387303_cont_sun_c4_501_21_alg».proof.Proof.LaunchCover
import proofs.«207390_g85444079387303_cont_sun_c4_501_21_alg».proof.Proof.LaunchSplit
import proofs.«207390_g85444079387303_cont_sun_c4_501_21_alg».proof.Proof.LaunchOps
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The launch memory as a valuation of device d's buffers. -/
def V0 (d : Dev nD) : Valuation τ sig (Elt F) := fun b => m (d, b)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) :
    (bigSep Finset.univ fun c : Fin ((K (F := F)).nCore 0) => (P ft fg fb prev).st 0 d c)
      = bigSep Finset.univ fun c : Fin 2 => bigSep Finset.univ fun s : Fin 16 => taskIn d (LL c s) (shT c s) (ft d) (fg d) (fb d) (prev d) := by
  rw [bigSep_congr (fun c _ => P_st ft fg fb prev d c)]
  exact bigSep_cores (F := F) (fun c => bigSep Finset.univ fun s : Fin 16 => taskIn d (LL c s) (shT c s) (ft d) (fg d) (fb d) (prev d))

theorem dn0_eq (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) :
    (bigSep Finset.univ fun c : Fin ((K (F := F)).nCore 0) => (P ft fg fb prev).dn 0 d c)
      = bigSep Finset.univ fun c : Fin 2 => bigSep Finset.univ fun s : Fin 16 => taskOut d (LL c s) (shT c s) (ft d) (fg d) (fb d) (prev d) := by
  rw [bigSep_congr (fun c _ => P_dn ft fg fb prev d c)]
  exact bigSep_cores (F := F) (fun c => bigSep Finset.univ fun s : Fin 16 => taskOut d (LL c s) (shT c s) (ft d) (fg d) (fb d) (prev d))

/-- A unary host operation from buffer x to buffer y, both held whole. -/
theorem wp_unary2 (d : Dev nD) (x y : Ref sig .tc) (hxy : x ≠ y) (f : x.ty.Contents (Elt F) → y.ty.Contents (Elt F))
    (hx : x.space ≠ .host ∧ (dr x).isScoped = false) (hy : y.space ≠ .host ∧ (dr y).isScoped = false)
    (V₀ : Valuation τ sig (Elt F)) (fx : (dr x).ty.Contents (Elt F)) (fy : (dr y).ty.Contents (Elt F)) {Q : PUnit → sProp 𝕄} :
    iprop(boundary (T d : Thread nD τ) ∗ (((d, dr x) : Loc nD τ sig) ↦{fullShare} fx) ∗ (((d, dr y) : Loc nD τ sig) ↦{fullShare} fy))
      ⊢ iprop(((boundary (T d : Thread nD τ) ∗ (((d, dr x) : Loc nD τ sig) ↦{fullShare} fx) ∗ (((d, dr y) : Loc nD τ sig) ↦{fullShare} f fx)) -∗ Q ⟨⟩)
        -∗ wp frame (wpE ((K (F := F)).defs (D (F := F))) 𝒱 (T d) none) Set.univ
            (hlo rfl (StableHlo.unary x y f hx hy) fun _ => .ret ⟨⟩ : Prog (TpuEff nD τ sig (Elt F) (SparseCore.Sig (ΛP (F := F)) 1) .tc) PUnit) Q) :=
  wp_host2 d x y hxy rfl rfl f (fun V => StableHlo.unary_result_ne x y f hx hy V hxy) (fun V => StableHlo.unary_result x y f hx hy V) V₀ fx fy

/-- A reshape from buffer x to buffer y, both held whole. -/
theorem wp_reshape2 (d : Dev nD) (x y : Ref sig .tc) (hxy : x ≠ y) (he : x.ty.elt = y.ty.elt) (hn : x.ty.shape.ShapeCasts y.ty.shape)
    (hx : x.space ≠ .host ∧ (dr x).isScoped = false) (hy : y.space ≠ .host ∧ (dr y).isScoped = false)
    (V₀ : Valuation τ sig (Elt F)) (fx : (dr x).ty.Contents (Elt F)) (fy : (dr y).ty.Contents (Elt F)) {Q : PUnit → sProp 𝕄} :
    iprop(boundary (T d : Thread nD τ) ∗ (((d, dr x) : Loc nD τ sig) ↦{fullShare} fx) ∗ (((d, dr y) : Loc nD τ sig) ↦{fullShare} fy))
      ⊢ iprop(((boundary (T d : Thread nD τ) ∗ (((d, dr x) : Loc nD τ sig) ↦{fullShare} fx)
            ∗ (((d, dr y) : Loc nD τ sig) ↦{fullShare} (fun i => he ▸ shapeCast y.ty.shape fx hn i : (dr y).ty.Contents (Elt F)))) -∗ Q ⟨⟩)
        -∗ wp frame (wpE ((K (F := F)).defs (D (F := F))) 𝒱 (T d) none) Set.univ
            (hlo rfl (StableHlo.reshape x y he hn hx hy) fun _ => .ret ⟨⟩ : Prog (TpuEff nD τ sig (Elt F) (SparseCore.Sig (ΛP (F := F)) 1) .tc) PUnit) Q) :=
  wp_host2 d x y hxy rfl rfl (fun z => (fun i => he ▸ shapeCast y.ty.shape z hn i : (dr y).ty.Contents (Elt F)))
    (fun V => StableHlo.reshape_result_ne x y he hn hx hy V hxy) (fun V => StableHlo.reshape_result x y he hn hx hy V) V₀ fx fy

set_option backward.isDefEq.respectTransparency.types false in
set_option maxHeartbeats 1000000 in
/-- @main on device d's TensorCore. -/
theorem hmain (hregion : RegionStmt (F := F)) (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, main_eq]
  simp only [bigSepL_cons_cons, bigSepL_singleton]
  iintro ⟨#Hctx, Hst, ⟨Hb, ⟨Ha0, Ha1, Ha2, Ha3, Ha4, Ha5, Hv0, Hc, Hv1, Hv2, Hv3, Hv4, Hv5, Hv6, Hv7, Hv8, Hv9, Hv10, Hv11⟩, -, -⟩, ⟨Hcg, Hti⟩⟩
  -- the nine host operations
  iapply (wp_seq 𝒱 none Set.univ d S1 (fun _ => rest (F := F) d) (ops1 (F := F)) ops1_sub ops1_fresh (V0 m d)) $$ [Hb Ha1 Hv0 Hc Hv1 Hv2 Hv3 Hv4 Hv5 Hv6 Hv7]
  · isplitl [Hb]; · iexact Hb
    rw [held_S1]
    isplitl [Ha1]; · iexact Ha1
    isplitl [Hv0]; · iexact Hv0
    isplitl [Hc]; · iexact Hc
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  iintro ⟨Hb, Hh⟩
  ihave Hh' := (held_S1_out d (V0 m d)) $$ Hh
  icases Hh' with ⟨Ha1, Hv7⟩
  simp only [rest, wp_bind, wp_pure]
  -- the row-gathering call
  ihave Hsp := (st_split d (m (tabLoc d)) (gidxAt m d) (m (biasLoc d)) (m (outLoc d))) $$ [Ha4 Hv7 Ha5 Hv8]
  · isplitl [Ha4]; · iexact Ha4
    isplitl [Hv7]; · iexact Hv7
    isplitl [Ha5]; · iexact Ha5
    iexact Hv8
  icases Hsp with ⟨Hrem, Htasks⟩
  iapply ((K (F := F)).wp_run (D (F := F)) 𝒱 (EH := EH) (P := Pm m) κ d 0)
  isplitr; · iexact Hctx
  isplitl [Hst]; · iexact Hst
  isplitl [Htasks]
  · rw [st0_eq]; iexact Htasks
  iintro ⟨Hst, Hdn⟩
  ihave Hdn' := (Entails.of_eq (dn0_eq (fun d => m (tabLoc d)) (gidxAt m) (fun d => m (biasLoc d)) (fun d => m (outLoc d)) d)) $$ Hdn
  ihave Hj := (dn_join d (m (tabLoc d)) (gidxAt m d) (m (biasLoc d)) (m (outLoc d))) $$ [Hrem Hdn']
  · isplitl [Hrem] <;> iassumption
  icases Hj with ⟨Ha4, Hv7, Ha5, Hv8⟩
  -- the gathered rows laid out token-major, then copied into the numeric call's buffer
  iapply (wp_reshape2 d main_v8 main_v9 (by decide) rfl shapeCasts_S2064384x128_S126x16384x128 _ _ (V0 m d) _ _) $$ [Hb Hv8 Hv9]
  · isplitl [Hb]; · iexact Hb
    isplitl [Hv8] <;> iassumption
  iintro ⟨Hb, Hv8, Hv9⟩
  iapply (wp_unary2 d main_v9 main_v10 (by decide) id _ _ (V0 m d) _ _) $$ [Hb Hv9 Hv10]
  · isplitl [Hb]; · iexact Hb
    isplitl [Hv9] <;> iassumption
  iintro ⟨Hb, Hv9, Hv10⟩
  -- the numeric call
  have hO : ∀ g, (K (F := F)).Otc d ((0 : Fin 1).val + 1) g none = 0 := fun g => by
    rw [(K (F := F)).Otc_end d (n := (0 : Fin 1).val + 1) (show 1 ≤ (0 : Fin 1).val + 1 from le_refl 1)]; rfl
  unfold SparseCore.Cfg.tcSt
  icases Hst with ⟨HO, Hrest⟩
  ihave Hlev := (SparseCore.Cfg.ctx_levAts κ) $$ Hctx
  iapply (hregion d (m (xLoc d)) (m (wLoc d)) (m (nbLoc d)) _ ((K (F := F)).Otc d ((0 : Fin 1).val + 1)) hO (8 * ((0 : Fin 1).val + 1)))
  isplitl [Hlev]; · iexact Hlev
  isplitl [Hb]; · iexact Hb
  isplitl [Ha0]; · iexact Ha0
  isplitl [Ha2]; · iexact Ha2
  isplitl [Ha3]; · iexact Ha3
  isplitl [Hv10]; · iexact Hv10
  isplitl [HO]; · iexact HO
  isplitl [Hcg]; · iexact Hcg
  isplitl [Hti]; · iexact Hti
  iintro ⟨Hb, Ha0, Ha2, Ha3, Hv10, HO⟩
  -- the transpose
  iapply (wp_unary2 d main_v10 main_v11 (by decide)
      ((transpose S16384x126x128 [1, 0, 2] · transposes_S126x16384x128_S16384x126x128_1_0_2) : (⟨S126x16384x128, .f32⟩ : BufTy).Contents (Elt F) → (⟨S16384x126x128, .f32⟩ : BufTy).Contents (Elt F))
      _ _ (V0 m d) _ _) $$ [Hb Hv10 Hv11]
  · isplitl [Hb]; · iexact Hb
    isplitl [Hv10] <;> iassumption
  iintro ⟨Hb, Hv10, Hv11⟩
  imodintro
  isplitl [HO Hrest]
  · isplitl [HO]; · iexact HO
    iexact Hrest
  isplitl [Hv11]; · iexact Hv11
  isplitl [Ha0]; · iexact Ha0
  isplitl [Ha1]; · iexact Ha1
  isplitl [Ha2]; · iexact Ha2
  isplitl [Ha3]; · iexact Ha3
  isplitl [Ha4]; · iexact Ha4
  iexact Ha5

end Cert.Proof.KI

end
-- ==== Proof.LaunchRun.lean ====
/-
  The program's run, from the launch theorem for programs with SparseCore calls: given a vector subcore's task and the
  numeric call's region, from any launch memory whose categorical codes are at most 999 every fair execution of the
  device's threads terminates, nothing faulting, and the final memory holds the result at its term of the arguments
  and the six arguments unchanged.
-/
import proofs.«207390_g85444079387303_cont_sun_c4_501_21_alg».proof.Proof.LaunchMain
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The claim's post: the result is the term of the arguments, the arguments are unchanged. -/
def QC : PUnit × MemSt nD τ sig (Elt F) → Prop := fun r => ∀ c : Dev nD,
  r.2.mem ((c.tc : Thread nD τ).loc main_v11)
      = kernelTerm (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_v8))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

/-- The program's run: from any launch memory whose categorical codes are at most 999, every fair execution of the
    device's threads terminates, and the final memory holds the result at its term of the arguments and the arguments
    as launched. -/
theorem run_main [∀ e, Nonempty (Elt F e)] (htile : HTile (F := F)) (hregion : RegionStmt (F := F))
    (hpre : ∀ d j, (m ((SparseCore.T d : Thread nD τ).loc main_arg1) j).toNat ≤ 999) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := Pm m) facts v₀
    (fun q hq => match q with | 0 => nomatch hq)
    (fun q _ => match q with | 0 => htile _ _ _ _ fun d i => gidx_inb _ (hpre d) i)
    (fun q _ => match q with | 0 => SparseCore.Cfg.VecSplit.of_plain (vecSplit _ _ _ _))
    m ρ main (G (F := F)) (FIN m) (u₀ (F := F)) (sep_elim_left.trans (hu₀ m)) (hmain m ρ hregion) (fq m) (hfin m) (QC m) (fun _ h => h)

end Cert.Proof.KI

end
-- ==== Proof.WordSetup.lean ====
/-
  The idealized kernel's program as the launch theorem for programs with SparseCore calls reads it, and the
  resource algebra the proof works in: the launch handshakes' rounds, the TensorCore pipeline's staging cells'
  rounds, and the counters of the tiles' own copies.
-/
import proofs.«207390_g85444079387303_cont_sun_c4_501_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207390_g85444079387303_cont_sun_c4_501_21_alg».proof.Proof.Gen.Kernel
import proofs.«207390_g85444079387303_cont_sun_c4_501_21_alg».proof.Proof.Gen.Kernel.Launch
import proofs.«207390_g85444079387303_cont_sun_c4_501_21_alg».proof.Proof.Gen.Kernel.Points

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program: the kernels' two, the one TensorCore pipeline's entry and body calls. -/
abbrev ΛP : Labels := Pipeline.Sig Λ₀ (Fin 1) fun p => (pcfgs (F := F) p).Adm
/-- The SparseCore calls' configuration. -/
abbrev K : SparseCore.Cfg τ sig (ΛP (F := F)) 1 := sc (F := F)
/-- The body table under the SparseCore dispatch: the kernels' and the pipeline's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's staging cells' rounds, the copies' counters. -/
abbrev UH : Type := URounds (GSem nD τ sig) ℕ
abbrev UP : Type := UR sig nD τ
abbrev UU : Type := UH × (UP × Counters)

/-- The handshakes' component. -/
abbrev EH : Emb UH (MT nD τ sig (HIx 1) (Elt F) ℕ UU ℕ) := embL
/-- The pipeline's component: the left of the right. -/
def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KW

end
-- ==== Proof.WordPay.lean ====
/-
  What the launch handshakes carry for the row-gathering call: each vector subcore gets a read share of the table, of the bias and of the index array, and its own 104 chunks of 128 output rows; it returns the shares and the chunks at the gathered rows plus bias.
-/
import proofs.«207390_g85444079387303_cont_sun_c4_501_21_alg».proof.Proof.WordSetup
import proofs.«207390_g85444079387303_cont_sun_c4_501_21_alg».proof.Proof.Spec
import proofs.«207390_g85444079387303_cont_sun_c4_501_21_alg».proof.Proof.Gen.Kernel.Skeleton

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Spec (SRows)

/-! ## The arrays, as locations of the device -/

abbrev tabLoc (d : Dev nD) : Loc nD τ sig := (SparseCore.T d).loc main_arg4
abbrev biasLoc (d : Dev nD) : Loc nD τ sig := (SparseCore.T d).loc main_arg5
abbrev gidxLoc (d : Dev nD) : Loc nD τ sig := (SparseCore.T d).loc main_v7
abbrev outLoc (d : Dev nD) : Loc nD τ sig := (SparseCore.T d).loc main_v8

/-- The output array as a vector subcore's body names it. -/
abbrev outV : Memref sig .scVector .hbm S2064384x128 .f32 := Memref.whole main_v8_scv

abbrev cV (L : grid0.Coords) : Fin τ.nSC := (L 0).castLE hcore0
abbrev jV (L : grid0.Coords) : Fin τ.nSub := (L 1).castLE hsub0

/-- The grid point of SparseCore c, vector subcore s. -/
def coordsV (c : Fin (grid0.bound 0)) (s : Fin (grid0.bound 1)) : grid0.Coords :=
  fun | 0 => c | 1 => s | ⟨_ + 2, h⟩ => absurd h (Nat.not_lt.2 (Nat.le_add_left _ _))

/-! ## A task's output rows: 52 pairs of 128-row chunks, as the body slices them -/

/-- The even chunk of trip k: rows 1638400 + 13312 (2 s + c) + 256 k onward. -/
abbrev chunkA (L : grid0.Coords) (k : Fin k0_t1_loop.trips) : Memref sig .scVector .hbm S128x128 .f32 :=
  (outV).slice (Rect.unit (s := S2064384x128) (k0_off20 L k) S128x128.size (k0_off20_inb L k)) (fun _ => rfl)
/-- The odd chunk of trip k: 128 rows further. -/
abbrev chunkB (L : grid0.Coords) (k : Fin k0_t1_loop.trips) : Memref sig .scVector .hbm S128x128 .f32 :=
  (outV).slice (Rect.unit (s := S2064384x128) (k0_off38 L k) S128x128.size (k0_off38_inb L k)) (fun _ => rfl)

/-- A task's output rows held at contents f, chunk by chunk. -/
def outPieces (d : Dev nD) (L : grid0.Coords) (f : Buf (Elt F) (outLoc d)) : sProp 𝕄 :=
  bigSep Finset.univ fun k : Fin k0_t1_loop.trips =>
    iprop((outLoc d ↦[(chunkA L k).view.set]{fullShare} f) ∗ (outLoc d ↦[(chunkB L k).view.set]{fullShare} f))

/-! ## What the call writes -/

variable [FloatOps F]

/-- The output array after the call, from the index array's words fg (read as table row numbers, clamped into the
    table), the table, the bias and the prior contents: row 1638400 + r holds table row fg[r] plus the bias of feature
    r / 16384; rows below 1638400 are as before. The flat position r is cut as the index array is laid out, into
    (r / 13312, r % 13312 / 128, r % 128). -/
def scRows (fg : IVec S32x104x128 32) (tab : FVec F S26000x128 .f32) (cb : FVec F S26x128 .f32) (prev : FVec F S2064384x128 .f32) :
    FVec F S2064384x128 .f32 := fun i =>
  if h : 1638400 ≤ (i 0).val then
    FloatOps.addf
      (tab (ValueIdx.ix2 ⟨min (fg (ValueIdx.ix3 ⟨((i 0).val - 1638400) / 13312, by have := (i 0).isLt; simp at this; omega⟩
          ⟨((i 0).val - 1638400) % 13312 / 128, by omega⟩ ⟨((i 0).val - 1638400) % 128, Nat.mod_lt _ (by norm_num)⟩)).toNat 25999, by omega⟩ (i 1)))
      (cb (ValueIdx.ix2 ⟨((i 0).val - 1638400) / 16384, by have := (i 0).isLt; simp at this; omega⟩ (i 1)))
  else prev i

/-! ## The payloads -/

variable (q : PosShare TreeShare)

/-- The read shares: SparseCore c's share of the whole, cut again for its sixteen vector subcores. -/
abbrev shC (c : Fin 2) : PosShare TreeShare := Transfers.shareTok fullShare 2 c
abbrev shT (c : Fin 2) (s : Fin 16) : PosShare TreeShare := Transfers.shareTok (shC c) 16 s

/-- What the task at grid point L is handed: the three read shares at share sh and its output chunks at prev. -/
def taskIn (d : Dev nD) (L : grid0.Coords) (sh : PosShare TreeShare) (ft : Buf (Elt F) (tabLoc d)) (fg : Buf (Elt F) (gidxLoc d))
    (fb : Buf (Elt F) (biasLoc d)) (prev : Buf (Elt F) (outLoc d)) : sProp 𝕄 :=
  iprop((tabLoc d ↦{sh} ft) ∗ (gidxLoc d ↦{sh} fg) ∗ (biasLoc d ↦{sh} fb) ∗ outPieces d L prev)

/-- What it hands back: the shares, and its chunks at what the call writes. -/
def taskOut (d : Dev nD) (L : grid0.Coords) (sh : PosShare TreeShare) (ft : Buf (Elt F) (tabLoc d)) (fg : Buf (Elt F) (gidxLoc d))
    (fb : Buf (Elt F) (biasLoc d)) (prev : Buf (Elt F) (outLoc d)) : sProp 𝕄 :=
  iprop((tabLoc d ↦{sh} ft) ∗ (gidxLoc d ↦{sh} fg) ∗ (biasLoc d ↦{sh} fb) ∗ outPieces d L (scRows fg ft fb prev))

theorem nCore_zero : (K (F := F)).nCore 0 = 2 := rfl
theorem nSub_zero : (K (F := F)).nSub 0 = 16 := rfl

/-- The grid point of the launch theorem's (SparseCore, vector subcore) pair. -/
abbrev LL (c : Fin 2) (s : Fin 16) : grid0.Coords := coordsV ⟨c.val, c.isLt⟩ ⟨s.val, s.isLt⟩

/-- The one call's payloads, for given contents of the table, the index array, the bias and the output array at the
    call: a SparseCore's start and done carry its sixteen tasks' operands and results, a task's go and taskDone its
    own. -/
def P (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) :
    (K (F := F)).Pay (nD := nD) (Val := Elt F) (Name := ℕ) (U := UU) where
  st := fun q d c => match q with
    | 0 => bigSep Finset.univ fun s : Fin 16 => taskIn d (LL (Fin.cast nCore_zero c) s) (shT (Fin.cast nCore_zero c) s) (ft d) (fg d) (fb d) (prev d)
  dn := fun q d c => match q with
    | 0 => bigSep Finset.univ fun s : Fin 16 => taskOut d (LL (Fin.cast nCore_zero c) s) (shT (Fin.cast nCore_zero c) s) (ft d) (fg d) (fb d) (prev d)
  go := fun q d c s => match q with
    | 0 => taskIn d (LL (Fin.cast nCore_zero c) (Fin.cast nSub_zero s)) (shT (Fin.cast nCore_zero c) (Fin.cast nSub_zero s)) (ft d) (fg d) (fb d) (prev d)
  td := fun q d c s => match q with
    | 0 => taskOut d (LL (Fin.cast nCore_zero c) (Fin.cast nSub_zero s)) (shT (Fin.cast nCore_zero c) (Fin.cast nSub_zero s)) (ft d) (fg d) (fb d) (prev d)
  x := fun _ _ => iprop(emp)

end Cert.Proof.KW

end
-- ==== Proof.WordLaunchCover.lean ====
/-
  The resources of the row-gathering call. The output array whole is its rows below the categorical block and, for each
  of the 32 tasks, 52 pairs of 128-row chunks: a chunk holds the rows from its first row number on, the first rows of
  the 2 * 16 * 52 * 2 chunks are 1638400 + 128 n for n below 3328 each once, so the chunks are pairwise disjoint and
  cover rows 1638400 to 2064383. A read-only array held whole is 32 read shares and a remainder. From the four arrays
  held whole the call's operands, and from its results the arrays again, the output array at what the call writes.
-/
import proofs.«207390_g85444079387303_cont_sun_c4_501_21_alg».proof.Proof.WordPay
import Idealize.ShloMosaic.Lib.Pipeline.Value
import Idealize.ShloMosaic.Lib.ValueLayout

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

/-! ## The output array cut into the rows below the categorical block and the tasks' chunks -/

/-- The rows the call leaves alone: those below 1638400. -/
def lowRows : Finset S2064384x128.Idx := Finset.univ.filter fun i => (i 0).val < 1638400

/-- The first row of a chunk: 1638400 + 13312 (2 s + c) + 256 k, plus 128 for the odd chunk of the pair. -/
def chunkBase (c : Fin 2) (s : Fin 16) (k : Fin k0_t1_loop.trips) (h : Fin 2) : ℕ :=
  1638400 + 13312 * (2 * s.val + c.val) + 256 * k.val + 128 * h.val

/-- A chunk's elements. -/
def pieceSet (t : Fin 2 × Fin 16 × Fin k0_t1_loop.trips × Fin 2) : Finset S2064384x128.Idx :=
  if t.2.2.2 = 0 then (chunkA (LL t.1 t.2.1) t.2.2.1).view.set else (chunkB (LL t.1 t.2.1) t.2.2.1).view.set

theorem trips_eq : k0_t1_loop.trips = 52 := by decide

theorem set_chunkA (L : grid0.Coords) (k : Fin k0_t1_loop.trips) : (chunkA L k).view.set
    = (Rect.unit (s := S2064384x128) (k0_off20 L k) S128x128.size (k0_off20_inb L k)).set := View.set_slice_whole _ _
theorem set_chunkB (L : grid0.Coords) (k : Fin k0_t1_loop.trips) : (chunkB L k).view.set
    = (Rect.unit (s := S2064384x128) (k0_off38 L k) S128x128.size (k0_off38_inb L k)).set := View.set_slice_whole _ _

theorem LL_zero (c : Fin 2) (s : Fin 16) : ((LL c s) 0).val = c.val := rfl
theorem LL_one (c : Fin 2) (s : Fin 16) : ((LL c s) 1).val = s.val := rfl
theorem size128_zero : S128x128.size 0 = 128 := rfl
theorem size128_one : S128x128.size 1 = 128 := rfl
theorem vec2_zero (X Y : ℕ) : (![X, Y] : Fin 2 → ℕ) 0 = X := rfl
theorem vec2_one (X Y : ℕ) : (![X, Y] : Fin 2 → ℕ) 1 = Y := rfl

theorem mem_chunkA (c : Fin 2) (s : Fin 16) (k : Fin k0_t1_loop.trips) (i : S2064384x128.Idx) :
    Iff (i ∈ (chunkA (LL c s) k).view.set) (chunkBase c s k 0 ≤ (i 0).val ∧ (i 0).val < chunkBase c s k 0 + 128) := by
  rw [set_chunkA, Rect.mem_set_unit, k0_off20_eq, Fin.forall_fin_two, vec2_zero, vec2_one, LL_zero, LL_one, size128_zero, size128_one]
  have h1 : (i 1).val < 128 := (i 1).isLt
  unfold chunkBase
  rw [Fin.val_zero]
  constructor
  · intro h; omega
  · intro h; omega

theorem mem_chunkB (c : Fin 2) (s : Fin 16) (k : Fin k0_t1_loop.trips) (i : S2064384x128.Idx) :
    Iff (i ∈ (chunkB (LL c s) k).view.set) (chunkBase c s k 1 ≤ (i 0).val ∧ (i 0).val < chunkBase c s k 1 + 128) := by
  rw [set_chunkB, Rect.mem_set_unit, k0_off38_eq, Fin.forall_fin_two, vec2_zero, vec2_one, LL_zero, LL_one, size128_zero, size128_one]
  have h1 : (i 1).val < 128 := (i 1).isLt
  unfold chunkBase
  rw [Fin.val_one]
  constructor
  · intro h; omega
  · intro h; omega

theorem mem_pieceSet (t : Fin 2 × Fin 16 × Fin k0_t1_loop.trips × Fin 2) (i : S2064384x128.Idx) :
    Iff (i ∈ pieceSet t) (chunkBase t.1 t.2.1 t.2.2.1 t.2.2.2 ≤ (i 0).val ∧ (i 0).val < chunkBase t.1 t.2.1 t.2.2.1 t.2.2.2 + 128) := by
  obtain ⟨c, s, k, h⟩ := t
  show Iff (i ∈ if h = 0 then (chunkA (LL c s) k).view.set else (chunkB (LL c s) k).view.set) _
  by_cases h0 : h = 0
  · subst h0; rw [if_pos rfl]; exact mem_chunkA c s k i
  · have h1 : h = 1 := by
      apply Fin.ext; have := h.isLt; have : h.val ≠ 0 := fun e => h0 (Fin.ext e); show h.val = 1; omega
    subst h1; rw [if_neg (by decide)]; exact mem_chunkB c s k i

theorem pieces_disjoint : ∀ t ∈ (Finset.univ : Finset (Fin 2 × Fin 16 × Fin k0_t1_loop.trips × Fin 2)), ∀ t' ∈ (Finset.univ : Finset (Fin 2 × Fin 16 × Fin k0_t1_loop.trips × Fin 2)),
    t ≠ t' → Disjoint (pieceSet t) (pieceSet t') := by
  intro t _ t' _ hne
  rw [Finset.disjoint_left]
  intro i hi hi'
  rw [mem_pieceSet] at hi hi'
  obtain ⟨c, s, k, h⟩ := t
  obtain ⟨c', s', k', h'⟩ := t'
  apply hne
  unfold chunkBase at hi hi'
  have hc := c.isLt; have hc' := c'.isLt; have hs := s.isLt; have hs' := s'.isLt
  have hk : k.val < 52 := trips_eq ▸ k.isLt
  have hk' : k'.val < 52 := trips_eq ▸ k'.isLt
  have hh := h.isLt; have hh' := h'.isLt
  simp only at hi hi'
  have e1 : s.val = s'.val := by omega
  have e2 : c.val = c'.val := by omega
  have e3 : k.val = k'.val := by omega
  have e4 : h.val = h'.val := by omega
  rw [Fin.ext e1, Fin.ext e2, Fin.ext e3, Fin.ext e4]

theorem pieces_cover : (Finset.univ : Finset (Fin 2 × Fin 16 × Fin k0_t1_loop.trips × Fin 2)).biUnion pieceSet = Finset.univ \ lowRows := by
  ext i
  simp only [Finset.mem_biUnion, Finset.mem_univ, true_and, Finset.mem_sdiff, lowRows, Finset.mem_filter, not_lt]
  have hi : (i 0).val < 2064384 := (i 0).isLt
  constructor
  · rintro ⟨t, ht⟩
    rw [mem_pieceSet] at ht
    unfold chunkBase at ht; omega
  · intro h
    have hw : ((i 0).val - 1638400) / 13312 < 32 := by omega
    refine ⟨(⟨(((i 0).val - 1638400) / 13312) % 2, Nat.mod_lt _ (by norm_num)⟩, ⟨(((i 0).val - 1638400) / 13312) / 2, by omega⟩,
      ⟨(((i 0).val - 1638400) % 13312) / 256, by rw [trips_eq]; omega⟩, ⟨(((i 0).val - 1638400) % 256) / 128, by omega⟩), ?_⟩
    rw [mem_pieceSet]
    unfold chunkBase
    simp only
    omega

/-- The output array whole is its low rows and every task's chunks. -/
theorem out_split (d : Dev nD) (f : Buf (Elt F) (outLoc d)) :
    (outLoc d ↦{fullShare} f : sProp 𝕄)
      = iprop((outLoc d ↦[lowRows]{fullShare} f) ∗ bigSep Finset.univ fun c : Fin 2 => bigSep Finset.univ fun s : Fin 16 => outPieces d (LL c s) f) := by
  have hs : (outLoc d ↦[Finset.univ]{fullShare} f : sProp 𝕄) ⊣⊢ iprop((outLoc d ↦[lowRows]{fullShare} f) ∗ outLoc d ↦[Finset.univ \ lowRows]{fullShare} f) :=
    pointsTo_split_subset (Finset.subset_univ lowRows)
  rw [BI.equiv_iff.mp ⟨hs.1, hs.2⟩, ← pieces_cover, pointsTo_biUnion Finset.univ (ℓ := outLoc d) pieceSet pieces_disjoint,
    BI.bigSep_univ_prod]
  congr 1
  refine bigSep_congr fun c _ => ?_
  rw [BI.bigSep_univ_prod]
  refine bigSep_congr fun s _ => ?_
  rw [BI.bigSep_univ_prod]
  unfold outPieces
  refine bigSep_congr fun k _ => ?_
  rw [bigSep_univ_two]
  rfl

/-! ## A read-only array cut into the 32 tasks' read shares -/

/-- What is left of an array held whole once the tasks' read shares are cut off. -/
def shRem (ℓ : Loc nD τ sig) (f : Buf (Elt F) ℓ) : sProp 𝕄 :=
  iprop((ℓ ↦{Transfers.shareDrop fullShare 2} f) ∗ bigSep Finset.univ fun c : Fin 2 => ℓ ↦{Transfers.shareDrop (shC c) 16} f)

theorem shares_two (ℓ : Loc nD τ sig) (f : Buf (Elt F) ℓ) : (ℓ ↦{fullShare} f : sProp 𝕄)
    = iprop((ℓ ↦{Transfers.shareDrop fullShare 2} f) ∗ bigSep Finset.univ fun c : Fin 2 => ℓ ↦{shC c} f) :=
  BI.equiv_iff.mp ⟨(Transfers.pointsTo_toks fullShare 2).1, (Transfers.pointsTo_toks fullShare 2).2⟩

theorem shares_sixteen (ℓ : Loc nD τ sig) (f : Buf (Elt F) ℓ) (c : Fin 2) : (ℓ ↦{shC c} f : sProp 𝕄)
    = iprop((ℓ ↦{Transfers.shareDrop (shC c) 16} f) ∗ bigSep Finset.univ fun s : Fin 16 => ℓ ↦{shT c s} f) :=
  BI.equiv_iff.mp ⟨(Transfers.pointsTo_toks (shC c) 16).1, (Transfers.pointsTo_toks (shC c) 16).2⟩

theorem shares_split (ℓ : Loc nD τ sig) (f : Buf (Elt F) ℓ) :
    (ℓ ↦{fullShare} f : sProp 𝕄) ⊢ iprop(shRem ℓ f ∗ bigSep Finset.univ fun c : Fin 2 => bigSep Finset.univ fun s : Fin 16 => ℓ ↦{shT c s} f) := by
  rw [shares_two, bigSep_congr (fun c _ => shares_sixteen ℓ f c), bigSep_sep']
  unfold shRem
  iintro ⟨H1, H2, H3⟩
  isplitl [H1 H2]
  · isplitl [H1] <;> iassumption
  iexact H3

theorem shares_join (ℓ : Loc nD τ sig) (f : Buf (Elt F) ℓ) :
    iprop(shRem ℓ f ∗ bigSep Finset.univ fun c : Fin 2 => bigSep Finset.univ fun s : Fin 16 => ℓ ↦{shT c s} f) ⊢ (ℓ ↦{fullShare} f : sProp 𝕄) := by
  rw [shares_two, bigSep_congr (fun c _ => shares_sixteen ℓ f c), bigSep_sep']
  unfold shRem
  iintro ⟨⟨H1, H2⟩, H3⟩
  isplitl [H1]; · iexact H1
  isplitl [H2] <;> iassumption

/-! ## The call's operands from the four arrays held whole, and the arrays back from its results -/

variable [FloatOps F]

/-- What @main keeps while the call runs: the remainders of the three read-only arrays and the output array's low rows. -/
def remAll (d : Dev nD) (ft : Buf (Elt F) (tabLoc d)) (fg : Buf (Elt F) (gidxLoc d)) (fb : Buf (Elt F) (biasLoc d)) (prev : Buf (Elt F) (outLoc d)) : sProp 𝕄 :=
  iprop(shRem (tabLoc d) ft ∗ shRem (gidxLoc d) fg ∗ shRem (biasLoc d) fb ∗ (outLoc d ↦[lowRows]{fullShare} prev))

omit [FloatOps F] in
theorem tasks_in (d : Dev nD) (ft : Buf (Elt F) (tabLoc d)) (fg : Buf (Elt F) (gidxLoc d)) (fb : Buf (Elt F) (biasLoc d)) (prev : Buf (Elt F) (outLoc d)) :
    (bigSep Finset.univ fun c : Fin 2 => bigSep Finset.univ fun s : Fin 16 => taskIn d (LL c s) (shT c s) ft fg fb prev)
      = iprop((bigSep Finset.univ fun c : Fin 2 => bigSep Finset.univ fun s : Fin 16 => (tabLoc d ↦{shT c s} ft : sProp 𝕄))
          ∗ (bigSep Finset.univ fun c : Fin 2 => bigSep Finset.univ fun s : Fin 16 => (gidxLoc d ↦{shT c s} fg : sProp 𝕄))
          ∗ (bigSep Finset.univ fun c : Fin 2 => bigSep Finset.univ fun s : Fin 16 => (biasLoc d ↦{shT c s} fb : sProp 𝕄))
          ∗ (bigSep Finset.univ fun c : Fin 2 => bigSep Finset.univ fun s : Fin 16 => outPieces d (LL c s) prev)) := by
  unfold taskIn
  simp only [bigSep_sep']

theorem tasks_out (d : Dev nD) (ft : Buf (Elt F) (tabLoc d)) (fg : Buf (Elt F) (gidxLoc d)) (fb : Buf (Elt F) (biasLoc d)) (prev : Buf (Elt F) (outLoc d)) :
    (bigSep Finset.univ fun c : Fin 2 => bigSep Finset.univ fun s : Fin 16 => taskOut d (LL c s) (shT c s) ft fg fb prev)
      = iprop((bigSep Finset.univ fun c : Fin 2 => bigSep Finset.univ fun s : Fin 16 => (tabLoc d ↦{shT c s} ft : sProp 𝕄))
          ∗ (bigSep Finset.univ fun c : Fin 2 => bigSep Finset.univ fun s : Fin 16 => (gidxLoc d ↦{shT c s} fg : sProp 𝕄))
          ∗ (bigSep Finset.univ fun c : Fin 2 => bigSep Finset.univ fun s : Fin 16 => (biasLoc d ↦{shT c s} fb : sProp 𝕄))
          ∗ (bigSep Finset.univ fun c : Fin 2 => bigSep Finset.univ fun s : Fin 16 => outPieces d (LL c s) (scRows fg ft fb prev))) := by
  unfold taskOut
  simp only [bigSep_sep']

omit [FloatOps F] in
theorem st_split (d : Dev nD) (ft : Buf (Elt F) (tabLoc d)) (fg : Buf (Elt F) (gidxLoc d)) (fb : Buf (Elt F) (biasLoc d)) (prev : Buf (Elt F) (outLoc d)) :
    iprop((tabLoc d ↦{fullShare} ft) ∗ (gidxLoc d ↦{fullShare} fg) ∗ (biasLoc d ↦{fullShare} fb) ∗ (outLoc d ↦{fullShare} prev))
      ⊢ (iprop(remAll d ft fg fb prev
          ∗ bigSep Finset.univ fun c : Fin 2 => bigSep Finset.univ fun s : Fin 16 => taskIn d (LL c s) (shT c s) ft fg fb prev) : sProp 𝕄) := by
  rw [tasks_in, out_split d prev]
  unfold remAll
  iintro ⟨Ht, Hg, Hb, Hl, Ho⟩
  ihave Ht' := (shares_split (tabLoc d) ft) $$ Ht
  icases Ht' with ⟨Htr, Htt⟩
  ihave Hg' := (shares_split (gidxLoc d) fg) $$ Hg
  icases Hg' with ⟨Hgr, Hgt⟩
  ihave Hb' := (shares_split (biasLoc d) fb) $$ Hb
  icases Hb' with ⟨Hbr, Hbt⟩
  isplitl [Htr Hgr Hbr Hl]
  · isplitl [Htr]; · iexact Htr
    isplitl [Hgr]; · iexact Hgr
    isplitl [Hbr]; · iexact Hbr
    iexact Hl
  isplitl [Htt]; · iexact Htt
  isplitl [Hgt]; · iexact Hgt
  isplitl [Hbt]; · iexact Hbt
  iexact Ho

/-- The rows below the categorical block are as before the call. -/
theorem scRows_low (fg : IVec S32x104x128 32) (tab : FVec F S26000x128 .f32) (cb : FVec F S26x128 .f32) (prev : FVec F S2064384x128 .f32) :
    ∀ i ∈ lowRows, prev i = scRows fg tab cb prev i := by
  intro i hi
  have h : (i 0).val < 1638400 := (Finset.mem_filter.mp hi).2
  unfold scRows
  rw [dif_neg (by omega)]

theorem dn_join (d : Dev nD) (ft : Buf (Elt F) (tabLoc d)) (fg : Buf (Elt F) (gidxLoc d)) (fb : Buf (Elt F) (biasLoc d)) (prev : Buf (Elt F) (outLoc d)) :
    (iprop(remAll d ft fg fb prev
          ∗ bigSep Finset.univ fun c : Fin 2 => bigSep Finset.univ fun s : Fin 16 => taskOut d (LL c s) (shT c s) ft fg fb prev) : sProp 𝕄)
      ⊢ iprop((tabLoc d ↦{fullShare} ft) ∗ (gidxLoc d ↦{fullShare} fg) ∗ (biasLoc d ↦{fullShare} fb) ∗ (outLoc d ↦{fullShare} scRows fg ft fb prev)) := by
  rw [tasks_out, out_split d (scRows fg ft fb prev)]
  unfold remAll
  rw [pointsTo_congr (ℓ := outLoc d) (I := lowRows) (f := prev) (g := scRows fg ft fb prev) (scRows_low fg ft fb prev)]
  iintro ⟨⟨Htr, Hgr, Hbr, Hl⟩, Htt, Hgt, Hbt, Ho⟩
  isplitl [Htr Htt]
  · iapply (shares_join (tabLoc d) ft); isplitl [Htr] <;> iassumption
  isplitl [Hgr Hgt]
  · iapply (shares_join (gidxLoc d) fg); isplitl [Hgr] <;> iassumption
  isplitl [Hbr Hbt]
  · iapply (shares_join (biasLoc d) fb); isplitl [Hbr] <;> iassumption
  isplitl [Hl] <;> iassumption

end Cert.Proof.KW

end
-- ==== Proof.WordLaunchTerm.lean ====
/-
  The host stretch of the program as pure terms: the index array as a function of the categorical codes
  (the codes transposed, 1000 times the feature number added, laid out as 32 x 104 x 128), read at an index,
  with the bound that makes every word a row of the table when the codes are at most 999; and the program's
  result as one term of the six arguments and the prior contents of the gathered-rows array.
-/
import proofs.«207390_g85444079387303_cont_sun_c4_501_21_alg».proof.Proof.WordPay
import Idealize.ShloMosaic.Lib.Pipeline.Value
import Idealize.ShloMosaic.Lib.ValueLayout

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

/-- The per-feature offsets: 1000 times the feature number. -/
def featOff : IVec S26 32 :=
  muli (iotaInDim S26 32 0) (broadcastInDim S26 ![] bcast_S_S26 (constantI S_ 32 1000#32))

/-- The index array as a function of the categorical codes: the codes transposed, the feature's offset added, laid out as 32 x 104 x 128. -/
def gidxOf (xc : IVec S16384x26 32) : IVec S32x104x128 32 :=
  shapeCast S32x104x128
    (addi (transpose S26x16384 [1, 0] xc transposes_S16384x26_S26x16384_1_0)
      (broadcastInDim S26x16384 ![0, 1] bcast_S26x1_S26x16384_0_1
        (broadcastInDim S26x1 ![0] bcast_S26_S26x1_0 featOff)))
    shapeCasts_S26x16384_S32x104x128

theorem featOff_apply (f : Fin 26) : featOff (ix1 f) = BitVec.ofNat 32 (1000 * f.val) := by
  show IntOp.muli (BitVec.ofNat 32 f.val) (1000#32) = _
  unfold IntOp.muli
  apply BitVec.eq_of_toNat_eq
  have := f.isLt
  simp only [BitVec.toNat_mul, BitVec.toNat_ofNat]
  omega

/-- The index array at the position of feature f and batch row b. -/
theorem gidxOf_apply (xc : IVec S16384x26 32) (i : S32x104x128.Idx) (f : Fin 26) (b : Fin 16384)
    (h : ((i 0).val * 104 + (i 1).val) * 128 + (i 2).val = f.val * 16384 + b.val) :
    gidxOf xc i = xc (ix2 b f) + BitVec.ofNat 32 (1000 * f.val) := by
  unfold gidxOf
  refine (shapeCast_apply _ _ i (ix2 f b) ?_).trans ?_
  · rw [Shape.rowMajor_val_two, Shape.rowMajor_val_three]; exact h.symm
  show IntOp.addi _ _ = _
  unfold IntOp.addi
  congr 1
  · exact transpose_ix2_apply xc _ f b
  · refine (broadcastInDim_apply _ _ _ (ix2 f b) (ix2 f 0) fun a => match a with | ⟨0, _⟩ => rfl | ⟨1, _⟩ => rfl).trans ?_
    refine (broadcastInDim_apply _ _ _ (ix2 f 0) (ix1 f) fun a => match a with | ⟨0, _⟩ => rfl).trans ?_
    exact featOff_apply f

theorem gidxOf_toNat (xc : IVec S16384x26 32) (hx : ∀ j, (xc j).toNat ≤ 999) (i : S32x104x128.Idx) (f : Fin 26) (b : Fin 16384)
    (h : ((i 0).val * 104 + (i 1).val) * 128 + (i 2).val = f.val * 16384 + b.val) :
    (gidxOf xc i).toNat = (xc (ix2 b f)).toNat + 1000 * f.val := by
  rw [gidxOf_apply xc i f b h]
  have := hx (ix2 b f); have := f.isLt
  simp only [BitVec.toNat_add, BitVec.toNat_ofNat]
  omega

/-- Every word of the index array names a row of the table. -/
theorem gidx_inb (xc : IVec S16384x26 32) (hx : ∀ j, (xc j).toNat ≤ 999) (i : S32x104x128.Idx) : (gidxOf xc i).toNat < 26000 := by
  have h0 := (i 0).isLt; have h1 := (i 1).isLt; have h2 := (i 2).isLt
  simp only [S32x104x128] at h0 h1 h2
  have h0' : (i 0).val < 32 := h0
  have h1' : (i 1).val < 104 := h1
  have h2' : (i 2).val < 128 := h2
  have hp : (((i 0).val * 104 + (i 1).val) * 128 + (i 2).val) / 16384 < 26 := by omega
  rw [gidxOf_toNat xc hx i ⟨_, hp⟩ ⟨(((i 0).val * 104 + (i 1).val) * 128 + (i 2).val) % 16384, Nat.mod_lt _ (by norm_num)⟩ (by show _ = _ / 16384 * 16384 + _ % 16384; omega)]
  have := hx (ix2 ⟨(((i 0).val * 104 + (i 1).val) * 128 + (i 2).val) % 16384, Nat.mod_lt _ (by norm_num)⟩ ⟨_, hp⟩)
  show _ + 1000 * (_ / 16384) < 26000
  omega

open Cert.Proof.Spec (numTokens)

/-! ## The index array and the result as pure terms -/

/-- The result as a term of the six arguments and the prior contents of the gathered-rows array. -/
def kernelTerm [FloatOps F] (x : FVec F S16384x100 .f32) (xc : IVec S16384x26 32) (w nb : FVec F S100x128 .f32) (tab : FVec F S26000x128 .f32)
    (cb : FVec F S26x128 .f32) (prev8 : FVec F S2064384x128 .f32) : FVec F S16384x126x128 .f32 :=
  transpose S16384x126x128 [1, 0, 2]
    (numTokens (F := F) x w nb (shapeCast S126x16384x128 (scRows (gidxOf xc) tab cb prev8) shapeCasts_S2064384x128_S126x16384x128))
    transposes_S126x16384x128_S16384x126x128_1_0_2

end Cert.Proof.KW

end
-- ==== Proof.WordLaunchHost.lean ====
/-
  The two obligations the launch takes as hypotheses (a vector subcore's task, the numeric call's region), and the
  payloads of the row-gathering call at the launch memory.
-/
import proofs.«207390_g85444079387303_cont_sun_c4_501_21_alg».proof.Proof.WordLaunchTerm
import Idealize.ShloMosaic.Lib.Pipeline.Value
import Idealize.ShloMosaic.Lib.ValueLayout

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

open Cert.Proof.Spec (numTokens)

variable [FloatOps F]

/-! ## The two obligations taken as hypotheses -/

def HTile : Prop :=
  ∀ (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)),
    (∀ d i, ((fg d) i).toNat < 26000) → (K (F := F)).TileObl (D (F := F)) 𝒱 (P ft fg fb prev) v₀ 0

def RegionStmt : Prop :=
  ∀ (d : Dev nD)
    (x : Buf (Elt F) ((T d : Thread nD τ).loc main_arg0)) (w : Buf (Elt F) ((T d : Thread nD τ).loc main_arg2))
    (nb : Buf (Elt F) ((T d : Thread nD τ).loc main_arg3)) (prev : Buf (Elt F) ((T d : Thread nD τ).loc main_v10))
    (O : CellTallies nD τ sig (HIx 1)) (hO : ∀ g, O g none = 0) (b : ℕ) {Φ : PUnit → sProp 𝕄},
    iprop((levAts (K (F := F)).L (K (F := F)).lev : sProp 𝕄) ∗ boundary (T d : Thread nD τ)
        ∗ ((T d : Thread nD τ).loc main_arg0 ↦{fullShare} x) ∗ ((T d : Thread nD τ).loc main_arg2 ↦{fullShare} w)
        ∗ ((T d : Thread nD τ).loc main_arg3 ↦{fullShare} nb) ∗ ((T d : Thread nD τ).loc main_v10 ↦{fullShare} prev)
        ∗ (∃ W, ⌜(K (F := F)).WBelow (T d) W b⌝ ∗ owes (T d : Thread nD τ) O W)
        ∗ Pipeline.cellsGhost (cfgs) EP 0 d ∗ Pipeline.toksInit (cfgs) EP 0 d
        ∗ (iprop(boundary (T d : Thread nD τ)
            ∗ ((T d : Thread nD τ).loc main_arg0 ↦{fullShare} x) ∗ ((T d : Thread nD τ).loc main_arg2 ↦{fullShare} w)
            ∗ ((T d : Thread nD τ).loc main_arg3 ↦{fullShare} nb)
            ∗ ((T d : Thread nD τ).loc main_v10 ↦{fullShare} (Cert.Proof.Spec.numTokens (F := F) x w nb prev))
            ∗ (∃ W, ⌜(K (F := F)).WBelow (T d) W b⌝ ∗ owes (T d : Thread nD τ) O W)) -∗ Φ ⟨⟩))
      ⊢ wp frame (wpE ((K (F := F)).defs (D (F := F))) 𝒱 (T d) none) Set.univ
          (Prog.lift (.customCall (SparseCore.inner (Pipeline.entry 0)) ())) Φ

/-! ## The launch memory, the payloads at it -/

variable (m : (ℓ : Loc nD τ sig) → Buf (Elt F) ℓ) (ρ : Dev nD → PrngReg)

abbrev xLoc (d : Dev nD) : Loc nD τ sig := (SparseCore.T d).loc main_arg0
abbrev xcLoc (d : Dev nD) : Loc nD τ sig := (SparseCore.T d).loc main_arg1
abbrev wLoc (d : Dev nD) : Loc nD τ sig := (SparseCore.T d).loc main_arg2
abbrev nbLoc (d : Dev nD) : Loc nD τ sig := (SparseCore.T d).loc main_arg3
abbrev resLoc (d : Dev nD) : Loc nD τ sig := (SparseCore.T d).loc main_v11

/-- The index array's contents at the call. -/
def gidxAt (d : Dev nD) : Buf (Elt F) (gidxLoc d) := gidxOf (m (xcLoc d))

/-- The payloads at the launch memory. -/
abbrev Pm : (K (F := F)).Pay (nD := nD) (Val := Elt F) (Name := ℕ) (U := UU) :=
  P (fun d => m (tabLoc d)) (gidxAt m) (fun d => m (biasLoc d)) (fun d => m (outLoc d))

instance P_storable (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) : (P ft fg fb prev).IsStorable where
  st q d c := match q with | 0 => by unfold P taskIn outPieces; infer_instance
  dn q d c := match q with | 0 => by unfold P taskOut outPieces; infer_instance
  go q d c i := match q with | 0 => by unfold P taskIn outPieces; infer_instance
  td q d c i := match q with | 0 => by unfold P taskOut outPieces; infer_instance

end Cert.Proof.KW

end
-- ==== Proof.WordLaunchSplit.lean ====
/-
  What the launch theorem asks beside @main: a SparseCore's operands are its sixteen tasks' operands (the payloads are
  stated so; only the tasks' index type differs); the launch element yields the handshakes' rounds, each device's
  staging cells' ghost state and launch tokens, and nothing for the kernels' own proofs; and what @main leaves — the
  result and the six arguments each held whole — reads the claim off any final state.
-/
import proofs.«207390_g85444079387303_cont_sun_c4_501_21_alg».proof.Proof.WordLaunchHost
import Idealize.ShloMosaic.Lib.Pipeline.Value
import Idealize.ShloMosaic.Lib.ValueLayout

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

variable [FloatOps F]

/-! ## A SparseCore's operands are its sixteen tasks' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem P_st (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) (c : Fin ((K (F := F)).nCore 0)) :
    (P ft fg fb prev).st 0 d c = bigSep Finset.univ fun s : Fin 16 => taskIn d (LL (Fin.cast nCore_zero c) s) (shT (Fin.cast nCore_zero c) s) (ft d) (fg d) (fb d) (prev d) := by
  unfold P; dsimp only
theorem P_dn (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) (c : Fin ((K (F := F)).nCore 0)) :
    (P ft fg fb prev).dn 0 d c = bigSep Finset.univ fun s : Fin 16 => taskOut d (LL (Fin.cast nCore_zero c) s) (shT (Fin.cast nCore_zero c) s) (ft d) (fg d) (fb d) (prev d) := by
  unfold P; dsimp only
theorem P_go (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) (c : Fin ((K (F := F)).nCore 0)) (i : Fin ((K (F := F)).nSub 0)) :
    (P ft fg fb prev).go 0 d c i = taskIn d (LL (Fin.cast nCore_zero c) (Fin.cast nSub_zero i)) (shT (Fin.cast nCore_zero c) (Fin.cast nSub_zero i)) (ft d) (fg d) (fb d) (prev d) := rfl
theorem P_td (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) (c : Fin ((K (F := F)).nCore 0)) (i : Fin ((K (F := F)).nSub 0)) :
    (P ft fg fb prev).td 0 d c i = taskOut d (LL (Fin.cast nCore_zero c) (Fin.cast nSub_zero i)) (shT (Fin.cast nCore_zero c) (Fin.cast nSub_zero i)) (ft d) (fg d) (fb d) (prev d) := rfl

theorem vecSplit (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) :
    (K (F := F)).VecSplit' (P ft fg fb prev) 0 := by
  intro d c
  rw [P_st, P_dn, bigSep_congr (fun i _ => P_go ft fg fb prev d c i), bigSep_congr (fun i _ => P_td ft fg fb prev d c i)]
  rw [bigSep_tasks (F := F) (fun s => taskIn d (LL (Fin.cast nCore_zero c) s) (shT (Fin.cast nCore_zero c) s) (ft d) (fg d) (fb d) (prev d)),
    bigSep_tasks (F := F) (fun s => taskOut d (LL (Fin.cast nCore_zero c) s) (shT (Fin.cast nCore_zero c) s) (ft d) (fg d) (fb d) (prev d))]
  iintro H; imodintro
  isplitl [H]; · iexact H
  iintro H; iexact H

/-! ## The launch element -/

variable (m : (ℓ : Loc nD τ sig) → Buf (Elt F) ℓ) (ρ : Dev nD → PrngReg)

/-- What @main's proof starts from on device d: the one pipeline's staging cells' ghost state and launch tokens. -/
abbrev G (d : Dev nD) : sProp 𝕄 := iprop(Pipeline.cellsGhost (cfgs) EP 0 d ∗ Pipeline.toksInit (cfgs) EP 0 d)

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave H2 := (show (BI.own ((embR : Emb (UP × Counters) 𝕄) (initOf (Pipeline.cells (nD := nD) (τ := τ) cfgs cellOf_inj) (Pipeline.launchToks (nD := nD) (τ := τ) cfgs cellOf_inj), (1 : Counters))) : sProp 𝕄)
      ⊢ iprop(BI.own ((EP : Emb UP 𝕄) (initOf (Pipeline.cells (nD := nD) (τ := τ) cfgs cellOf_inj) (Pipeline.launchToks (nD := nD) (τ := τ) cfgs cellOf_inj)))
          ∗ BI.own (((Emb.inr : Emb Counters (UP × Counters)).trans (embR : Emb (UP × Counters) 𝕄)) (1 : Counters)))
      from own_pair_emb (embR : Emb (UP × Counters) 𝕄) _ _) $$ HR
  icases H2 with ⟨HP, -⟩
  imod (Pipeline.fund_ghost (cfgs) (EP : Emb UP 𝕄) cellOf_inj) $$ HP with ⟨Hg, Ht⟩
  imodintro
  isplitl [HH]; · iexact HH
  isplitl [Hg Ht]
  · rw [bigSep_sep']
    have hg : (bigSep Finset.univ fun c : Dev nD => bigSep Finset.univ fun p : Fin 1 => (Pipeline.cellsGhost (cfgs) (EP : Emb UP 𝕄) p c : sProp 𝕄))
        = bigSep Finset.univ fun c : Dev nD => Pipeline.cellsGhost (cfgs) (EP : Emb UP 𝕄) 0 c :=
      bigSep_congr fun c _ => bigSep_univ_of_subsingleton (0 : Fin 1)
    have ht : (bigSep Finset.univ fun c : Dev nD => bigSep Finset.univ fun p : Fin 1 => (Pipeline.toksInit (cfgs) (EP : Emb UP 𝕄) p c : sProp 𝕄))
        = bigSep Finset.univ fun c : Dev nD => Pipeline.toksInit (cfgs) (EP : Emb UP 𝕄) 0 c :=
      bigSep_congr fun c _ => bigSep_univ_of_subsingleton (0 : Fin 1)
    isplitl [Hg]
    · iapply (Entails.of_eq hg); iexact Hg
    · iapply (Entails.of_eq ht); iexact Ht
  rw [show (bigSep Finset.univ fun thr : Thread nD τ => bigSep Finset.univ fun q : Fin 1 => (Pm m).x q thr) = (iprop(emp) : sProp 𝕄) from by
    show (bigSep Finset.univ fun _ : Thread nD τ => bigSep Finset.univ fun _ : Fin 1 => (iprop(emp) : sProp 𝕄)) = iprop(emp)
    rw [bigSep_congr fun _ _ => bigSep_emp' _, bigSep_emp']]
  iempintro

/-! ## What @main leaves, read off the final memory -/

/-- What @main leaves the claim: the result at the term of the arguments, the six arguments as launched. -/
abbrev FIN (d : Dev nD) : sProp 𝕄 :=
  iprop((resLoc d ↦{fullShare} kernelTerm (F := F) (m (xLoc d)) (m (xcLoc d)) (m (wLoc d)) (m (nbLoc d)) (m (tabLoc d)) (m (biasLoc d)) (m (outLoc d)))
    ∗ (xLoc d ↦{fullShare} m (xLoc d)) ∗ (xcLoc d ↦{fullShare} m (xcLoc d)) ∗ (wLoc d ↦{fullShare} m (wLoc d))
    ∗ (nbLoc d ↦{fullShare} m (nbLoc d)) ∗ (tabLoc d ↦{fullShare} m (tabLoc d)) ∗ (biasLoc d ↦{fullShare} m (biasLoc d)))

def fq (d : Dev nD) (s' : Phys nD τ sig (Elt F)) : Prop :=
  s'.mem.mem (resLoc d) = kernelTerm (F := F) (m (xLoc d)) (m (xcLoc d)) (m (wLoc d)) (m (nbLoc d)) (m (tabLoc d)) (m (biasLoc d)) (m (outLoc d))
    ∧ s'.mem.mem (xLoc d) = m (xLoc d) ∧ s'.mem.mem (xcLoc d) = m (xcLoc d) ∧ s'.mem.mem (wLoc d) = m (wLoc d)
    ∧ s'.mem.mem (nbLoc d) = m (nbLoc d) ∧ s'.mem.mem (tabLoc d) = m (tabLoc d) ∧ s'.mem.mem (biasLoc d) = m (biasLoc d)

/-- A buffer held whole agrees with the state. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4, H5, H6⟩, HSI⟩
  ihave H := (read_whole (resLoc d) _ s') $$ [H0 HSI]
  · isplitl [H0] <;> iassumption
  icases H with ⟨%h0, HSI⟩
  ihave H := (read_whole (xLoc d) _ s') $$ [H1 HSI]
  · isplitl [H1] <;> iassumption
  icases H with ⟨%h1, HSI⟩
  ihave H := (read_whole (xcLoc d) _ s') $$ [H2 HSI]
  · isplitl [H2] <;> iassumption
  icases H with ⟨%h2, HSI⟩
  ihave H := (read_whole (wLoc d) _ s') $$ [H3 HSI]
  · isplitl [H3] <;> iassumption
  icases H with ⟨%h3, HSI⟩
  ihave H := (read_whole (nbLoc d) _ s') $$ [H4 HSI]
  · isplitl [H4] <;> iassumption
  icases H with ⟨%h4, HSI⟩
  ihave H := (read_whole (tabLoc d) _ s') $$ [H5 HSI]
  · isplitl [H5] <;> iassumption
  icases H with ⟨%h5, HSI⟩
  ihave H := (read_whole (biasLoc d) _ s') $$ [H6 HSI]
  · isplitl [H6] <;> iassumption
  icases H with ⟨%h6, -⟩
  ipureintro; exact ⟨h0, h1, h2, h3, h4, h5, h6⟩

end Cert.Proof.KW

end
-- ==== Proof.WordLaunchOps.lean ====
/-
  @main on the TensorCore as a stretch of nine host operations — whose last result is the index array, equal to its
  term of the categorical codes — followed by the row-gathering call, a reshape, a copy, the numeric call and a
  transpose; the TensorCore's nineteen arrays listed one by one; and one host operation from one buffer to another,
  both held whole: the source is as before, the destination holds the operation's function of the source.
-/
import proofs.«207390_g85444079387303_cont_sun_c4_501_21_alg».proof.Proof.WordLaunchHost
import Idealize.ShloMosaic.Lib.Pipeline.Value
import Idealize.ShloMosaic.Lib.ValueLayout

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

variable [FloatOps F]

/-! ## @main as a stretch of host operations and what follows -/

abbrev dr (r : Ref sig .tc) : DevRef τ sig := Proc.devRef .tc r

/-- The nine host operations that compute the index array. -/
def ops1 : List (HloOp τ sig (Elt F)) :=
  [StableHlo.nullary main_v0 (iotaInDim S26 32 0),
   StableHlo.nullary main_c (constantI S_ 32 1000#32),
   StableHlo.unary main_c main_v1 (broadcastInDim S26 ![] bcast_S_S26 : (⟨S_, .i32⟩ : BufTy).Contents (Elt F) → (⟨S26, .i32⟩ : BufTy).Contents (Elt F)),
   StableHlo.binary main_v0 main_v1 main_v2 (muli : (⟨S26, .i32⟩ : BufTy).Contents (Elt F) → (⟨S26, .i32⟩ : BufTy).Contents (Elt F) → (⟨S26, .i32⟩ : BufTy).Contents (Elt F)),
   StableHlo.unary main_arg1 main_v3 ((transpose S26x16384 [1, 0] · transposes_S16384x26_S26x16384_1_0) : (⟨S16384x26, .i32⟩ : BufTy).Contents (Elt F) → (⟨S26x16384, .i32⟩ : BufTy).Contents (Elt F)),
   StableHlo.unary main_v2 main_v4 (broadcastInDim S26x1 ![0] bcast_S26_S26x1_0 : (⟨S26, .i32⟩ : BufTy).Contents (Elt F) → (⟨S26x1, .i32⟩ : BufTy).Contents (Elt F)),
   StableHlo.unary main_v4 main_v5 (broadcastInDim S26x16384 ![0, 1] bcast_S26x1_S26x16384_0_1 : (⟨S26x1, .i32⟩ : BufTy).Contents (Elt F) → (⟨S26x16384, .i32⟩ : BufTy).Contents (Elt F)),
   StableHlo.binary main_v3 main_v5 main_v6 (addi : (⟨S26x16384, .i32⟩ : BufTy).Contents (Elt F) → (⟨S26x16384, .i32⟩ : BufTy).Contents (Elt F) → (⟨S26x16384, .i32⟩ : BufTy).Contents (Elt F)),
   StableHlo.reshape main_v6 main_v7 rfl shapeCasts_S26x16384_S32x104x128]

/-- What follows them: the row-gathering call, the reshape and the copy, the numeric call, the transpose. -/
def rest (d : Dev nD) : Prog (TpuEff nD τ sig (Elt F) (SparseCore.Sig (ΛP (F := F)) 1) .tc) PUnit := do
  sc.run d 0
  hlo rfl (StableHlo.reshape main_v8 main_v9 rfl shapeCasts_S2064384x128_S126x16384x128) (fun _ => .ret ⟨⟩)
  hlo rfl (StableHlo.unary main_v9 main_v10 id) (fun _ => .ret ⟨⟩)
  Prog.lift (.customCall (SparseCore.inner (Pipeline.entry 0)) ())
  hlo rfl (StableHlo.unary main_v10 main_v11 ((transpose S16384x126x128 [1, 0, 2] · transposes_S126x16384x128_S16384x126x128_1_0_2) : (⟨S126x16384x128, .f32⟩ : BufTy).Contents (Elt F) → (⟨S16384x126x128, .f32⟩ : BufTy).Contents (Elt F))) (fun _ => .ret ⟨⟩)
  pure ⟨⟩

theorem main_eq (d : Dev nD) : main (F := F) d = (seq (ops1 (F := F)) >>= fun _ => rest d) := rfl

/-- The buffers the nine operations touch. -/
abbrev S1 : Finset (DevRef τ sig) :=
  {dr main_arg1, dr main_v0, dr main_c, dr main_v1, dr main_v2, dr main_v3, dr main_v4, dr main_v5, dr main_v6, dr main_v7}

theorem ops1_sub : ∀ op ∈ ops1 (F := F), op.bufs ⊆ S1 := by
  intro op h
  simp only [ops1, List.mem_cons, List.mem_nil_iff, or_false] at h
  rcases h with rfl | rfl | rfl | rfl | rfl | rfl | rfl | rfl | rfl
  · show ({dr main_v0} : Finset (DevRef τ sig)) ⊆ S1; decide
  · show ({dr main_c} : Finset (DevRef τ sig)) ⊆ S1; decide
  · show ({dr main_c, dr main_v1} : Finset (DevRef τ sig)) ⊆ S1; decide
  · show ({dr main_v0, dr main_v1, dr main_v2} : Finset (DevRef τ sig)) ⊆ S1; decide
  · show ({dr main_arg1, dr main_v3} : Finset (DevRef τ sig)) ⊆ S1; decide
  · show ({dr main_v2, dr main_v4} : Finset (DevRef τ sig)) ⊆ S1; decide
  · show ({dr main_v4, dr main_v5} : Finset (DevRef τ sig)) ⊆ S1; decide
  · show ({dr main_v3, dr main_v5, dr main_v6} : Finset (DevRef τ sig)) ⊆ S1; decide
  · show ({dr main_v6, dr main_v7} : Finset (DevRef τ sig)) ⊆ S1; decide

theorem ops1_fresh : ∀ op ∈ ops1 (F := F), op.fresh = ∅ := by
  intro op h
  simp only [ops1, List.mem_cons, List.mem_nil_iff, or_false] at h
  rcases h with rfl | rfl | rfl | rfl | rfl | rfl | rfl | rfl | rfl <;> rfl

theorem after_v7 (V : Valuation τ sig (Elt F)) : after (ops1 (F := F)) V (dr main_v7) = gidxOf (V (dr main_arg1)) := by
  unfold ops1
  after_results
  rfl

theorem after_arg1 (V : Valuation τ sig (Elt F)) : after (ops1 (F := F)) V (dr main_arg1) = V (dr main_arg1) := by
  unfold ops1
  after_results

/-! ## The TensorCore's arrays, one by one -/

omit [FloatOps F] in
theorem unscopedBufs_eq (d : Dev nD) (W : (b : Ref sig .tc) → Buf (Elt F) ((d.tc : Thread nD τ).loc b)) :
    (unscopedBufs d W : sProp 𝕄) = iprop((((d.tc : Thread nD τ).loc main_arg0) ↦{fullShare} W main_arg0)
        ∗ (((d.tc : Thread nD τ).loc main_arg1) ↦{fullShare} W main_arg1)
        ∗ (((d.tc : Thread nD τ).loc main_arg2) ↦{fullShare} W main_arg2)
        ∗ (((d.tc : Thread nD τ).loc main_arg3) ↦{fullShare} W main_arg3)
        ∗ (((d.tc : Thread nD τ).loc main_arg4) ↦{fullShare} W main_arg4)
        ∗ (((d.tc : Thread nD τ).loc main_arg5) ↦{fullShare} W main_arg5)
        ∗ (((d.tc : Thread nD τ).loc main_v0) ↦{fullShare} W main_v0)
        ∗ (((d.tc : Thread nD τ).loc main_c) ↦{fullShare} W main_c)
        ∗ (((d.tc : Thread nD τ).loc main_v1) ↦{fullShare} W main_v1)
        ∗ (((d.tc : Thread nD τ).loc main_v2) ↦{fullShare} W main_v2)
        ∗ (((d.tc : Thread nD τ).loc main_v3) ↦{fullShare} W main_v3)
        ∗ (((d.tc : Thread nD τ).loc main_v4) ↦{fullShare} W main_v4)
        ∗ (((d.tc : Thread nD τ).loc main_v5) ↦{fullShare} W main_v5)
        ∗ (((d.tc : Thread nD τ).loc main_v6) ↦{fullShare} W main_v6)
        ∗ (((d.tc : Thread nD τ).loc main_v7) ↦{fullShare} W main_v7)
        ∗ (((d.tc : Thread nD τ).loc main_v8) ↦{fullShare} W main_v8)
        ∗ (((d.tc : Thread nD τ).loc main_v9) ↦{fullShare} W main_v9)
        ∗ (((d.tc : Thread nD τ).loc main_v10) ↦{fullShare} W main_v10)
        ∗ (((d.tc : Thread nD τ).loc main_v11) ↦{fullShare} W main_v11)) := by
  unfold unscopedBufs
  exact bigSep_eq_bigSepL_of_eq [main_arg0, main_arg1, main_arg2, main_arg3, main_arg4, main_arg5, main_v0, main_c, main_v1, main_v2, main_v3, main_v4, main_v5, main_v6, main_v7, main_v8, main_v9, main_v10, main_v11] (by decide) (by decide) _

omit [FloatOps F] in
theorem held_S1 (d : Dev nD) (W : Valuation τ sig (Elt F)) :
    (held (T d) S1 W : sProp 𝕄) = iprop((((d, dr main_arg1) : Loc nD τ sig) ↦{fullShare} W (dr main_arg1))
        ∗ (((d, dr main_v0) : Loc nD τ sig) ↦{fullShare} W (dr main_v0))
        ∗ (((d, dr main_c) : Loc nD τ sig) ↦{fullShare} W (dr main_c))
        ∗ (((d, dr main_v1) : Loc nD τ sig) ↦{fullShare} W (dr main_v1))
        ∗ (((d, dr main_v2) : Loc nD τ sig) ↦{fullShare} W (dr main_v2))
        ∗ (((d, dr main_v3) : Loc nD τ sig) ↦{fullShare} W (dr main_v3))
        ∗ (((d, dr main_v4) : Loc nD τ sig) ↦{fullShare} W (dr main_v4))
        ∗ (((d, dr main_v5) : Loc nD τ sig) ↦{fullShare} W (dr main_v5))
        ∗ (((d, dr main_v6) : Loc nD τ sig) ↦{fullShare} W (dr main_v6))
        ∗ (((d, dr main_v7) : Loc nD τ sig) ↦{fullShare} W (dr main_v7))) := by
  unfold held
  exact bigSep_eq_bigSepL_of_eq [dr main_arg1, dr main_v0, dr main_c, dr main_v1, dr main_v2, dr main_v3, dr main_v4, dr main_v5, dr main_v6, dr main_v7] (by decide) (by decide) _

/-- After the nine operations: the codes as they were, the index array at its term. -/
theorem held_S1_out (d : Dev nD) (V : Valuation τ sig (Elt F)) :
    (held (T d) S1 (after (ops1 (F := F)) V) : sProp 𝕄)
      ⊢ iprop((((d, dr main_arg1) : Loc nD τ sig) ↦{fullShare} V (dr main_arg1)) ∗ (((d, dr main_v7) : Loc nD τ sig) ↦{fullShare} gidxOf (V (dr main_arg1)))) := by
  rw [held_S1, after_arg1, after_v7]
  iintro ⟨H1, -, -, -, -, -, -, -, -, H7⟩
  isplitl [H1] <;> iassumption

/-! ## One host operation from one buffer to another, both held whole -/

omit [FloatOps F] in
theorem held_pair (d : Dev nD) (a y : DevRef τ sig) (hne : a ≠ y) (W : Valuation τ sig (Elt F)) :
    (held (T d) {a, y} W : sProp 𝕄) = iprop((((d, a) : Loc nD τ sig) ↦{fullShare} W a) ∗ (((d, y) : Loc nD τ sig) ↦{fullShare} W y)) := by
  unfold held
  rw [SparseCore.bigSep_insert' (by rw [Finset.mem_singleton]; exact hne), bigSep_singleton]

theorem wp_host2 (d : Dev nD) {op : HloOp τ sig (Elt F)} (x y : Ref sig .tc) (hxy : x ≠ y) (hb : op.bufs = {dr x, dr y}) (hf : op.fresh = ∅)
    (g : (dr x).ty.Contents (Elt F) → (dr y).ty.Contents (Elt F))
    (hx : ∀ V : Valuation τ sig (Elt F), op.result V (dr x) = V (dr x)) (hy : ∀ V : Valuation τ sig (Elt F), op.result V (dr y) = g (V (dr x)))
    (V₀ : Valuation τ sig (Elt F)) (fx : (dr x).ty.Contents (Elt F)) (fy : (dr y).ty.Contents (Elt F)) {Q : PUnit → sProp 𝕄} :
    iprop(boundary (T d : Thread nD τ) ∗ (((d, dr x) : Loc nD τ sig) ↦{fullShare} fx) ∗ (((d, dr y) : Loc nD τ sig) ↦{fullShare} fy))
      ⊢ iprop(((boundary (T d : Thread nD τ) ∗ (((d, dr x) : Loc nD τ sig) ↦{fullShare} fx) ∗ (((d, dr y) : Loc nD τ sig) ↦{fullShare} g fx)) -∗ Q ⟨⟩)
        -∗ wp frame (wpE ((K (F := F)).defs (D (F := F))) 𝒱 (T d) none) Set.univ
            (hlo rfl op fun _ => .ret ⟨⟩ : Prog (TpuEff nD τ sig (Elt F) (SparseCore.Sig (ΛP (F := F)) 1) .tc) PUnit) Q) := by
  have hne : dr x ≠ dr y := fun e => hxy (Proc.devRef_injective _ e)
  have hVx : (Function.update (Function.update V₀ (dr x) fx) (dr y) fy) (dr x) = fx := by
    rw [Function.update_of_ne hne, Function.update_self]
  have hVy : (Function.update (Function.update V₀ (dr x) fx) (dr y) fy) (dr y) = fy := Function.update_self _ _ _
  have hpost : (held (T d) {dr x, dr y} (op.result (Function.update (Function.update V₀ (dr x) fx) (dr y) fy)) : sProp 𝕄)
      = iprop((((d, dr x) : Loc nD τ sig) ↦{fullShare} fx) ∗ (((d, dr y) : Loc nD τ sig) ↦{fullShare} g fx)) := by
    rw [held_pair d _ _ hne, hx, hy, hVx]
  iintro ⟨Hb, Hx, Hy⟩ Hk
  iapply (wp_hlo_within 𝒱 (T d) none Set.univ (op := op) (S := {dr x, dr y}) (hb ▸ Finset.Subset.refl _)
    (V := Function.update (Function.update V₀ (dr x) fx) (dr y) fy) hf) $$ [Hb Hx Hy]
  · isplitl [Hb]; · iexact Hb
    rw [held_pair d _ _ hne, hVx, hVy]
    isplitl [Hx] <;> iassumption
  iintro ⟨Hb, Hh⟩
  rw [wp_ret]; imodintro
  ihave Hh' := (Entails.of_eq hpost) $$ Hh
  icases Hh' with ⟨Hx, Hy⟩
  iapply Hk
  isplitl [Hb]; · iexact Hb
  isplitl [Hx] <;> iassumption

end Cert.Proof.KW

end
-- ==== Proof.WordLaunchMain.lean ====
/-
  @main on a device's TensorCore, from what the launch deals it to the result held at its term of the arguments and the
  six arguments held as launched. The nine host operations run as one stretch and leave the index array at its term; the
  three read-only operands of the row-gathering call go out as read shares and the output array as its low rows and
  the tasks' chunks, and come back joined, the output array at what the call writes; the reshape and the copy are two
  host steps; the numeric call is the region hypothesis, entered with what the TensorCore owes after the call; the
  transpose is a last host step.
-/
import proofs.«207390_g85444079387303_cont_sun_c4_501_21_alg».proof.Proof.WordLaunchCover
import proofs.«207390_g85444079387303_cont_sun_c4_501_21_alg».proof.Proof.WordLaunchSplit
import proofs.«207390_g85444079387303_cont_sun_c4_501_21_alg».proof.Proof.WordLaunchOps
import Idealize.ShloMosaic.Lib.Pipeline.Value
import Idealize.ShloMosaic.Lib.ValueLayout

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The launch memory as a valuation of device d's buffers. -/
def V0 (d : Dev nD) : Valuation τ sig (Elt F) := fun b => m (d, b)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) :
    (bigSep Finset.univ fun c : Fin ((K (F := F)).nCore 0) => (P ft fg fb prev).st 0 d c)
      = bigSep Finset.univ fun c : Fin 2 => bigSep Finset.univ fun s : Fin 16 => taskIn d (LL c s) (shT c s) (ft d) (fg d) (fb d) (prev d) := by
  rw [bigSep_congr (fun c _ => P_st ft fg fb prev d c)]
  exact bigSep_cores (F := F) (fun c => bigSep Finset.univ fun s : Fin 16 => taskIn d (LL c s) (shT c s) (ft d) (fg d) (fb d) (prev d))

theorem dn0_eq (ft : (d : Dev nD) → Buf (Elt F) (tabLoc d)) (fg : (d : Dev nD) → Buf (Elt F) (gidxLoc d))
    (fb : (d : Dev nD) → Buf (Elt F) (biasLoc d)) (prev : (d : Dev nD) → Buf (Elt F) (outLoc d)) (d : Dev nD) :
    (bigSep Finset.univ fun c : Fin ((K (F := F)).nCore 0) => (P ft fg fb prev).dn 0 d c)
      = bigSep Finset.univ fun c : Fin 2 => bigSep Finset.univ fun s : Fin 16 => taskOut d (LL c s) (shT c s) (ft d) (fg d) (fb d) (prev d) := by
  rw [bigSep_congr (fun c _ => P_dn ft fg fb prev d c)]
  exact bigSep_cores (F := F) (fun c => bigSep Finset.univ fun s : Fin 16 => taskOut d (LL c s) (shT c s) (ft d) (fg d) (fb d) (prev d))

/-- A unary host operation from buffer x to buffer y, both held whole. -/
theorem wp_unary2 (d : Dev nD) (x y : Ref sig .tc) (hxy : x ≠ y) (f : x.ty.Contents (Elt F) → y.ty.Contents (Elt F))
    (hx : x.space ≠ .host ∧ (dr x).isScoped = false) (hy : y.space ≠ .host ∧ (dr y).isScoped = false)
    (V₀ : Valuation τ sig (Elt F)) (fx : (dr x).ty.Contents (Elt F)) (fy : (dr y).ty.Contents (Elt F)) {Q : PUnit → sProp 𝕄} :
    iprop(boundary (T d : Thread nD τ) ∗ (((d, dr x) : Loc nD τ sig) ↦{fullShare} fx) ∗ (((d, dr y) : Loc nD τ sig) ↦{fullShare} fy))
      ⊢ iprop(((boundary (T d : Thread nD τ) ∗ (((d, dr x) : Loc nD τ sig) ↦{fullShare} fx) ∗ (((d, dr y) : Loc nD τ sig) ↦{fullShare} f fx)) -∗ Q ⟨⟩)
        -∗ wp frame (wpE ((K (F := F)).defs (D (F := F))) 𝒱 (T d) none) Set.univ
            (hlo rfl (StableHlo.unary x y f hx hy) fun _ => .ret ⟨⟩ : Prog (TpuEff nD τ sig (Elt F) (SparseCore.Sig (ΛP (F := F)) 1) .tc) PUnit) Q) :=
  wp_host2 d x y hxy rfl rfl f (fun V => StableHlo.unary_result_ne x y f hx hy V hxy) (fun V => StableHlo.unary_result x y f hx hy V) V₀ fx fy

/-- A reshape from buffer x to buffer y, both held whole. -/
theorem wp_reshape2 (d : Dev nD) (x y : Ref sig .tc) (hxy : x ≠ y) (he : x.ty.elt = y.ty.elt) (hn : x.ty.shape.ShapeCasts y.ty.shape)
    (hx : x.space ≠ .host ∧ (dr x).isScoped = false) (hy : y.space ≠ .host ∧ (dr y).isScoped = false)
    (V₀ : Valuation τ sig (Elt F)) (fx : (dr x).ty.Contents (Elt F)) (fy : (dr y).ty.Contents (Elt F)) {Q : PUnit → sProp 𝕄} :
    iprop(boundary (T d : Thread nD τ) ∗ (((d, dr x) : Loc nD τ sig) ↦{fullShare} fx) ∗ (((d, dr y) : Loc nD τ sig) ↦{fullShare} fy))
      ⊢ iprop(((boundary (T d : Thread nD τ) ∗ (((d, dr x) : Loc nD τ sig) ↦{fullShare} fx)
            ∗ (((d, dr y) : Loc nD τ sig) ↦{fullShare} (fun i => he ▸ shapeCast y.ty.shape fx hn i : (dr y).ty.Contents (Elt F)))) -∗ Q ⟨⟩)
        -∗ wp frame (wpE ((K (F := F)).defs (D (F := F))) 𝒱 (T d) none) Set.univ
            (hlo rfl (StableHlo.reshape x y he hn hx hy) fun _ => .ret ⟨⟩ : Prog (TpuEff nD τ sig (Elt F) (SparseCore.Sig (ΛP (F := F)) 1) .tc) PUnit) Q) :=
  wp_host2 d x y hxy rfl rfl (fun z => (fun i => he ▸ shapeCast y.ty.shape z hn i : (dr y).ty.Contents (Elt F)))
    (fun V => StableHlo.reshape_result_ne x y he hn hx hy V hxy) (fun V => StableHlo.reshape_result x y he hn hx hy V) V₀ fx fy

set_option backward.isDefEq.respectTransparency.types false in
set_option maxHeartbeats 1000000 in
/-- @main on device d's TensorCore. -/
theorem hmain (hregion : RegionStmt (F := F)) (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, main_eq]
  simp only [bigSepL_cons_cons, bigSepL_singleton]
  iintro ⟨#Hctx, Hst, ⟨Hb, ⟨Ha0, Ha1, Ha2, Ha3, Ha4, Ha5, Hv0, Hc, Hv1, Hv2, Hv3, Hv4, Hv5, Hv6, Hv7, Hv8, Hv9, Hv10, Hv11⟩, -, -⟩, ⟨Hcg, Hti⟩⟩
  -- the nine host operations
  iapply (wp_seq 𝒱 none Set.univ d S1 (fun _ => rest (F := F) d) (ops1 (F := F)) ops1_sub ops1_fresh (V0 m d)) $$ [Hb Ha1 Hv0 Hc Hv1 Hv2 Hv3 Hv4 Hv5 Hv6 Hv7]
  · isplitl [Hb]; · iexact Hb
    rw [held_S1]
    isplitl [Ha1]; · iexact Ha1
    isplitl [Hv0]; · iexact Hv0
    isplitl [Hc]; · iexact Hc
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  iintro ⟨Hb, Hh⟩
  ihave Hh' := (held_S1_out d (V0 m d)) $$ Hh
  icases Hh' with ⟨Ha1, Hv7⟩
  simp only [rest, wp_bind, wp_pure]
  -- the row-gathering call
  ihave Hsp := (st_split d (m (tabLoc d)) (gidxAt m d) (m (biasLoc d)) (m (outLoc d))) $$ [Ha4 Hv7 Ha5 Hv8]
  · isplitl [Ha4]; · iexact Ha4
    isplitl [Hv7]; · iexact Hv7
    isplitl [Ha5]; · iexact Ha5
    iexact Hv8
  icases Hsp with ⟨Hrem, Htasks⟩
  iapply ((K (F := F)).wp_run (D (F := F)) 𝒱 (EH := EH) (P := Pm m) κ d 0)
  isplitr; · iexact Hctx
  isplitl [Hst]; · iexact Hst
  isplitl [Htasks]
  · rw [st0_eq]; iexact Htasks
  iintro ⟨Hst, Hdn⟩
  ihave Hdn' := (Entails.of_eq (dn0_eq (fun d => m (tabLoc d)) (gidxAt m) (fun d => m (biasLoc d)) (fun d => m (outLoc d)) d)) $$ Hdn
  ihave Hj := (dn_join d (m (tabLoc d)) (gidxAt m d) (m (biasLoc d)) (m (outLoc d))) $$ [Hrem Hdn']
  · isplitl [Hrem] <;> iassumption
  icases Hj with ⟨Ha4, Hv7, Ha5, Hv8⟩
  -- the gathered rows laid out token-major, then copied into the numeric call's buffer
  iapply (wp_reshape2 d main_v8 main_v9 (by decide) rfl shapeCasts_S2064384x128_S126x16384x128 _ _ (V0 m d) _ _) $$ [Hb Hv8 Hv9]
  · isplitl [Hb]; · iexact Hb
    isplitl [Hv8] <;> iassumption
  iintro ⟨Hb, Hv8, Hv9⟩
  iapply (wp_unary2 d main_v9 main_v10 (by decide) id _ _ (V0 m d) _ _) $$ [Hb Hv9 Hv10]
  · isplitl [Hb]; · iexact Hb
    isplitl [Hv9] <;> iassumption
  iintro ⟨Hb, Hv9, Hv10⟩
  -- the numeric call
  have hO : ∀ g, (K (F := F)).Otc d ((0 : Fin 1).val + 1) g none = 0 := fun g => by
    rw [(K (F := F)).Otc_end d (n := (0 : Fin 1).val + 1) (show 1 ≤ (0 : Fin 1).val + 1 from le_refl 1)]; rfl
  unfold SparseCore.Cfg.tcSt
  icases Hst with ⟨HO, Hrest⟩
  ihave Hlev := (SparseCore.Cfg.ctx_levAts κ) $$ Hctx
  iapply (hregion d (m (xLoc d)) (m (wLoc d)) (m (nbLoc d)) _ ((K (F := F)).Otc d ((0 : Fin 1).val + 1)) hO (8 * ((0 : Fin 1).val + 1)))
  isplitl [Hlev]; · iexact Hlev
  isplitl [Hb]; · iexact Hb
  isplitl [Ha0]; · iexact Ha0
  isplitl [Ha2]; · iexact Ha2
  isplitl [Ha3]; · iexact Ha3
  isplitl [Hv10]; · iexact Hv10
  isplitl [HO]; · iexact HO
  isplitl [Hcg]; · iexact Hcg
  isplitl [Hti]; · iexact Hti
  iintro ⟨Hb, Ha0, Ha2, Ha3, Hv10, HO⟩
  -- the transpose
  iapply (wp_unary2 d main_v10 main_v11 (by decide)
      ((transpose S16384x126x128 [1, 0, 2] · transposes_S126x16384x128_S16384x126x128_1_0_2) : (⟨S126x16384x128, .f32⟩ : BufTy).Contents (Elt F) → (⟨S16384x126x128, .f32⟩ : BufTy).Contents (Elt F))
      _ _ (V0 m d) _ _) $$ [Hb Hv10 Hv11]
  · isplitl [Hb]; · iexact Hb
    isplitl [Hv10] <;> iassumption
  iintro ⟨Hb, Hv10, Hv11⟩
  imodintro
  isplitl [HO Hrest]
  · isplitl [HO]; · iexact HO
    iexact Hrest
  isplitl [Hv11]; · iexact Hv11
  isplitl [Ha0]; · iexact Ha0
  isplitl [Ha1]; · iexact Ha1
  isplitl [Ha2]; · iexact Ha2
  isplitl [Ha3]; · iexact Ha3
  isplitl [Ha4]; · iexact Ha4
  iexact Ha5

end Cert.Proof.KW

end
-- ==== Proof.WordLaunchRun.lean ====
/-
  The program's run, from the launch theorem for programs with SparseCore calls: given a vector subcore's task and the
  numeric call's region, from any launch memory whose categorical codes are at most 999 every fair execution of the
  device's threads terminates, nothing faulting, and the final memory holds the result at its term of the arguments
  and the six arguments unchanged.
-/
import proofs.«207390_g85444079387303_cont_sun_c4_501_21_alg».proof.Proof.WordLaunchMain
import Idealize.ShloMosaic.Lib.Pipeline.Value
import Idealize.ShloMosaic.Lib.ValueLayout

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The claim's post: the result is the term of the arguments, the arguments are unchanged. -/
def QC : PUnit × MemSt nD τ sig (Elt F) → Prop := fun r => ∀ c : Dev nD,
  r.2.mem ((c.tc : Thread nD τ).loc main_v11)
      = kernelTerm (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_v8))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

/-- The program's run: from any launch memory whose categorical codes are at most 999, every fair execution of the
    device's threads terminates, and the final memory holds the result at its term of the arguments and the arguments
    as launched. -/
theorem run_main [∀ e, Nonempty (Elt F e)] (htile : HTile (F := F)) (hregion : RegionStmt (F := F))
    (hpre : ∀ d j, (m ((SparseCore.T d : Thread nD τ).loc main_arg1) j).toNat ≤ 999) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := Pm m) facts v₀
    (fun q hq => match q with | 0 => nomatch hq)
    (fun q _ => match q with | 0 => htile _ _ _ _ fun d i => gidx_inb _ (hpre d) i)
    (fun q _ => match q with | 0 => SparseCore.Cfg.VecSplit.of_plain (vecSplit _ _ _ _))
    m ρ main (G (F := F)) (FIN m) (u₀ (F := F)) (sep_elim_left.trans (hu₀ m)) (hmain m ρ hregion) (fq m) (hfin m) (QC m) (fun _ h => h)

end Cert.Proof.KW

end
-- ==== Proof.KernelValue.lean ====
/-
  The kernel's result term is the common specification, index by index, for any float values. The
  result is the token-major array with its first two axes exchanged. For a token below 100 the
  token-major array holds value times weight plus bias, which is the specification as it stands.
  For a token t from 100 on it holds, unchanged, the gathered-rows array at row 16384 t + b, a
  categorical row: with r = 16384 (t - 100) + b its table row is named by the index array at the
  position (r / 13312, r % 13312 / 128, r % 128), whose three coordinates recombine row-major to r,
  so it is the code of batch row b and feature t - 100 plus 1000 (t - 100) (no wrap-around, the codes
  being at most 999), clamped as the specification clamps it; and r / 16384 = t - 100 names the bias.
-/
import proofs.«207390_g85444079387303_cont_sun_c4_501_21_alg».proof.Proof.LaunchTerm
import Idealize.ShloMosaic.Lib.Pipeline.Value
import Idealize.ShloMosaic.Lib.ValueLayout

noncomputable section

namespace Cert.Proof.KI

open Cert.KernelIdeal Cert.KernelIdeal.Gen
open Idealize.ShloMosaic
open Idealize.ShloMosaic.ValueIdx

variable {F : FTy → Type}

open Cert.Proof.Spec (numTokens)

variable [FloatOps F]

/-- The gathered-rows array at a categorical row: the specification's table row plus the feature's bias. -/
theorem scRows_cat (xc : IVec S16384x26 32) (tab : FVec F S26000x128 .f32) (cb : FVec F S26x128 .f32)
    (prev8 : FVec F S2064384x128 .f32) (hxc : ∀ j, (xc j).toNat ≤ 999)
    (R : Fin 2064384) (d : Fin 128) (f : Fin 26) (b : Fin 16384) (hR : R.val = 1638400 + f.val * 16384 + b.val) :
    scRows (gidxOf xc) tab cb prev8 (ix2 R d)
      = FloatOps.addf (tab (ix2 (Cert.Proof.Spec.rowOf xc b f) d)) (cb (ix2 f d)) := by
  have hf := f.isLt
  have hb := b.isLt
  unfold scRows
  rw [dif_pos (show 1638400 ≤ ((ix2 R d : S2064384x128.Idx) 0).val from by show 1638400 ≤ R.val; omega)]
  have hr : R.val - 1638400 = f.val * 16384 + b.val := by omega
  refine congrArg₂ FloatOps.addf ?_ ?_
  · refine congrArg (fun r => tab (ix2 r d)) (Fin.ext ?_)
    show min (gidxOf xc (ix3 ⟨(R.val - 1638400) / 13312, _⟩ ⟨(R.val - 1638400) % 13312 / 128, _⟩ ⟨(R.val - 1638400) % 128, _⟩)).toNat 25999
      = min ((xc (ix2 b f)).toNat + 1000 * f.val) 25999
    rw [gidxOf_toNat xc hxc _ f b (by
      show ((R.val - 1638400) / 13312 * 104 + (R.val - 1638400) % 13312 / 128) * 128 + (R.val - 1638400) % 128 = _
      omega)]
  · refine congrArg (fun r => cb (ix2 r d)) (Fin.ext ?_)
    show (R.val - 1638400) / 16384 = f.val
    omega

/-- The kernel's term is the specification. -/
theorem kernelTerm_eq_G (x : FVec F S16384x100 .f32) (xc : IVec S16384x26 32) (w nb : FVec F S100x128 .f32)
    (tab : FVec F S26000x128 .f32) (cb : FVec F S26x128 .f32) (prev8 : FVec F S2064384x128 .f32)
    (hxc : ∀ j, (xc j).toNat ≤ 999) :
    kernelTerm x xc w nb tab cb prev8 = Cert.Proof.Spec.G x xc w nb tab cb := by
  funext i
  obtain ⟨b, t, d, rfl⟩ : ∃ (b : Fin 16384) (t : Fin 126) (d : Fin 128), i = ix3 b t d :=
    ⟨i 0, i 1, i 2, eq_ix3 i⟩
  unfold kernelTerm
  refine (transpose_apply _ _ _ (ix3 b t d) (ix3 t b d) fun c => match c with
    | ⟨0, _⟩ => rfl | ⟨1, _⟩ => rfl | ⟨2, _⟩ => rfl).trans ?_
  unfold Cert.Proof.Spec.numTokens Cert.Proof.Spec.G
  by_cases ht : t.val < 100
  · rw [dif_pos (show ((ix3 t b d : Cert.Proof.Spec.STok.Idx) 0).val < 100 from ht),
      dif_pos (show ((ix3 b t d : Cert.Proof.Spec.SO.Idx) 1).val < 100 from ht)]
  · rw [dif_neg (show ¬ ((ix3 t b d : Cert.Proof.Spec.STok.Idx) 0).val < 100 from ht),
      dif_neg (show ¬ ((ix3 b t d : Cert.Proof.Spec.SO.Idx) 1).val < 100 from ht)]
    have htl := t.isLt
    have hbl := b.isLt
    refine (shapeCast_apply _ _ (ix3 t b d) (ix2 (⟨t.val * 16384 + b.val, by omega⟩ : Fin 2064384) d) ?_).trans ?_
    · rw [Shape.rowMajor_val_two, Shape.rowMajor_val_three]; rfl
    exact scRows_cat xc tab cb prev8 hxc _ d ⟨t.val - 100, by omega⟩ b (by show t.val * 16384 + b.val = 1638400 + (t.val - 100) * 16384 + b.val; omega)

end Cert.Proof.KI

end
-- ==== Proof.RefTerm.lean ====
/-
  What the reference program computes, as one term of its six argument arrays: the numeric tokens
  (weight times value plus bias, each operand broadcast to the common shape), the table row numbers
  (code plus 1000 per feature), the row lookup (negative row numbers wrapped by the table's height,
  the lookup itself clamped into the table, a not-a-number fill where the wrapped row number falls
  outside the table), the categorical bias added, and the two token blocks joined along the token
  axis. One definition per stage, each the program's own operations composed.
-/
import proofs.«207390_g85444079387303_cont_sun_c4_501_21_alg».proof.ReferenceIdeal

noncomputable section

namespace Cert.Proof.RefSide

open Cert.ReferenceIdeal Cert.ReferenceIdeal.Facts₀ Idealize.ShloMosaic

variable {F : FTy → Type} [FloatOps F] [Cert.ReferenceIdeal.Facts]

/-! ## The composed term, piece by piece -/

/-- The numeric tokens: weight times value plus bias, over batch row, numeric feature and lane. -/
def numTok (a0 : FVec F S16384x100 .f32) (a2 a3 : FVec F S100x128 .f32) : FVec F S16384x100x128 .f32 :=
  addf
    (mulf
      (broadcastInDim S16384x100x128 ![0, 1, 2] bcast_S1x100x128_S16384x100x128_0_1_2
        (broadcastInDim S1x100x128 ![1, 2] bcast_S100x128_S1x100x128_1_2 a2))
      (broadcastInDim S16384x100x128 ![0, 1, 2] bcast_S16384x100x1_S16384x100x128_0_1_2
        (broadcastInDim S16384x100x1 ![0, 1] bcast_S16384x100_S16384x100x1_0_1 a0)))
    (broadcastInDim S16384x100x128 ![0, 1, 2] bcast_S1x100x128_S16384x100x128_0_1_2
      (broadcastInDim S1x100x128 ![1, 2] bcast_S100x128_S1x100x128_1_2 a3))

/-- The offsets 0, 1000, 2000, … of the features' blocks of table rows. -/
def offs : IVec S26 32 :=
  muli (iotaInDim S26 32 0) (broadcastInDim S26 ![] bcast_S_S26 (constantI S_ 32 1000#32))

/-- The table row number of each categorical entry: its code plus its feature's offset. -/
def rowIdx (a1 : IVec S16384x26 32) : IVec S16384x26 32 :=
  addi a1
    (broadcastInDim S16384x26 ![0, 1] bcast_S1x26_S16384x26_0_1
      (broadcastInDim S1x26 ![1] bcast_S26_S1x26_1 offs))

/-- The row numbers with the negative ones wrapped by the table's height. -/
def wrapped (a1 : IVec S16384x26 32) : IVec S16384x26 32 :=
  select
    (cmpi .slt (rowIdx a1) (broadcastInDim S16384x26 ![] bcast_S_S16384x26 (constantI S_ 32 0#32)))
    (addi (rowIdx a1) (broadcastInDim S16384x26 ![] bcast_S_S16384x26 (constantI S_ 32 26000#32)))
    (rowIdx a1)

/-- The wrapped row numbers as the lookup's index vectors (of length one). -/
def idx3 (a1 : IVec S16384x26 32) : IVec S16384x26x1 32 :=
  broadcastInDim S16384x26x1 ![0, 1] bcast_S16384x26_S16384x26x1_0_1 (wrapped a1)

/-- Where the wrapped row number lies inside the table. -/
def inTable (a1 : IVec S16384x26 32) : IVec S16384x26 1 :=
  Host.reduce IntOp.andi
    (andi
      (cmpi .sge (idx3 a1) (broadcastInDim S16384x26x1 ![] bcast_S_S16384x26x1 (constantI S_ 32 0#32)))
      (cmpi .sle (idx3 a1)
        (broadcastInDim S16384x26x1 ![0, 1, 2] bcast_S1x1x1_S16384x26x1_0_1_2
          (broadcastInDim S1x1x1 ![2] bcast_S1_S1x1x1_2 (constantI S1 32 25999#32)))))
    (constantI S_ 1 1#1) reducesTo_S16384x26x1_S16384x26_d2 h_S_

/-- The looked-up table rows, not-a-number where the row number lies outside the table. -/
def taken (a1 : IVec S16384x26 32) (a4 : FVec F S26000x128 .f32) : FVec F S16384x26x128 .f32 :=
  select
    (broadcastInDim S16384x26x128 ![0, 1] bcast_S16384x26_S16384x26x128_0_1 (inTable a1))
    (Host.gather gather_S26000x128_S16384x26x1_S16384x26x128_2_0_n_n_0_2_1128 a4 (idx3 a1))
    (broadcastInDim S16384x26x128 ![] bcast_S_S16384x26x128 (constant S_ .f32 0x7FC00000#32))

/-- The categorical tokens: the looked-up row plus the feature's bias. -/
def catTok (a1 : IVec S16384x26 32) (a4 : FVec F S26000x128 .f32) (a5 : FVec F S26x128 .f32) :
    FVec F S16384x26x128 .f32 :=
  addf (taken a1 a4)
    (broadcastInDim S16384x26x128 ![0, 1, 2] bcast_S1x26x128_S16384x26x128_0_1_2
      (broadcastInDim S1x26x128 ![1, 2] bcast_S26x128_S1x26x128_1_2 a5))

/-- What the reference computes from its six arguments: the numeric tokens, then the categorical ones,
    along the token axis. -/
def refTerm (a0 : FVec F S16384x100 .f32) (a1 : IVec S16384x26 32) (a2 a3 : FVec F S100x128 .f32)
    (a4 : FVec F S26000x128 .f32) (a5 : FVec F S26x128 .f32) : FVec F S16384x126x128 .f32 :=
  concatenate S16384x126x128 1 [⟨S16384x100x128, numTok a0 a2 a3⟩, ⟨S16384x26x128, catTok a1 a4 a5⟩]
    concatenates_S16384x100x128_S16384x26x128_S16384x126x128_d1

end Cert.Proof.RefSide

end
-- ==== Proof.RefRun.lean ====
/-
  The reference program's run, read back. Its @main is a straight line of tensor operations: the
  numeric tokens (weight times value plus bias, each operand broadcast to the common shape), the
  table row numbers (code plus 1000 per feature), the row lookup (negative row numbers wrapped by
  the table's height, the lookup itself clamped into the table, a not-a-number fill where the
  wrapped row number falls outside the table), the categorical bias added, and the two token
  blocks joined along the token axis. Listed as one sequence of operations, the called functions'
  operations in place at their call sites; every execution then ends with the result buffer at
  the operations' composed term of the six arguments and the arguments unchanged.
-/
import proofs.«207390_g85444079387303_cont_sun_c4_501_21_alg».proof.Proof.RefTerm
import Idealize.ShloMosaic.Lib.StableHlo.Run

noncomputable section

namespace Cert.Proof.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-! ## The program as a list of operations -/

/-- @main's operations in order, the two called functions' operations in place at their call sites
    (the row lookup's twenty-two, the selection inside it one), over the calls' own buffers. -/
abbrev ops : List (HloOp τ sig (Elt F)) :=
  [ unary main_arg2 main_v0 (broadcastInDim S1x100x128 ![1, 2] bcast_S100x128_S1x100x128_1_2 : (⟨S100x128, .f32⟩ : BufTy).Contents (Elt F) → (⟨S1x100x128, .f32⟩ : BufTy).Contents (Elt F)),
    unary main_arg0 main_v1 (broadcastInDim S16384x100x1 ![0, 1] bcast_S16384x100_S16384x100x1_0_1 : (⟨S16384x100, .f32⟩ : BufTy).Contents (Elt F) → (⟨S16384x100x1, .f32⟩ : BufTy).Contents (Elt F)),
    unary main_v0 main_v2 (broadcastInDim S16384x100x128 ![0, 1, 2] bcast_S1x100x128_S16384x100x128_0_1_2 : (⟨S1x100x128, .f32⟩ : BufTy).Contents (Elt F) → (⟨S16384x100x128, .f32⟩ : BufTy).Contents (Elt F)),
    unary main_v1 main_v3 (broadcastInDim S16384x100x128 ![0, 1, 2] bcast_S16384x100x1_S16384x100x128_0_1_2 : (⟨S16384x100x1, .f32⟩ : BufTy).Contents (Elt F) → (⟨S16384x100x128, .f32⟩ : BufTy).Contents (Elt F)),
    binary main_v2 main_v3 main_v4 (mulf : (⟨S16384x100x128, .f32⟩ : BufTy).Contents (Elt F) → (⟨S16384x100x128, .f32⟩ : BufTy).Contents (Elt F) → (⟨S16384x100x128, .f32⟩ : BufTy).Contents (Elt F)),
    unary main_arg3 main_v5 (broadcastInDim S1x100x128 ![1, 2] bcast_S100x128_S1x100x128_1_2 : (⟨S100x128, .f32⟩ : BufTy).Contents (Elt F) → (⟨S1x100x128, .f32⟩ : BufTy).Contents (Elt F)),
    unary main_v5 main_v6 (broadcastInDim S16384x100x128 ![0, 1, 2] bcast_S1x100x128_S16384x100x128_0_1_2 : (⟨S1x100x128, .f32⟩ : BufTy).Contents (Elt F) → (⟨S16384x100x128, .f32⟩ : BufTy).Contents (Elt F)),
    binary main_v4 main_v6 main_v7 (addf : (⟨S16384x100x128, .f32⟩ : BufTy).Contents (Elt F) → (⟨S16384x100x128, .f32⟩ : BufTy).Contents (Elt F) → (⟨S16384x100x128, .f32⟩ : BufTy).Contents (Elt F)),
    nullary main_v8 (iotaInDim S26 32 0),
    nullary main_c (constantI S_ 32 1000#32),
    unary main_c main_v9 (broadcastInDim S26 ![] bcast_S_S26 : (⟨S_, .i32⟩ : BufTy).Contents (Elt F) → (⟨S26, .i32⟩ : BufTy).Contents (Elt F)),
    binary main_v8 main_v9 main_v10 (muli : (⟨S26, .i32⟩ : BufTy).Contents (Elt F) → (⟨S26, .i32⟩ : BufTy).Contents (Elt F) → (⟨S26, .i32⟩ : BufTy).Contents (Elt F)),
    unary main_v10 main_v11 (broadcastInDim S1x26 ![1] bcast_S26_S1x26_1 : (⟨S26, .i32⟩ : BufTy).Contents (Elt F) → (⟨S1x26, .i32⟩ : BufTy).Contents (Elt F)),
    unary main_v11 main_v12 (broadcastInDim S16384x26 ![0, 1] bcast_S1x26_S16384x26_0_1 : (⟨S1x26, .i32⟩ : BufTy).Contents (Elt F) → (⟨S16384x26, .i32⟩ : BufTy).Contents (Elt F)),
    binary main_arg1 main_v12 main_v13 (addi : (⟨S16384x26, .i32⟩ : BufTy).Contents (Elt F) → (⟨S16384x26, .i32⟩ : BufTy).Contents (Elt F) → (⟨S16384x26, .i32⟩ : BufTy).Contents (Elt F)),
    TRef.nullary main_call0.c (constantI S_ 32 0#32),
    TRef.unary main_call0.c main_call0.v0 (broadcastInDim S16384x26 ![] bcast_S_S16384x26),
    TRef.binary (.of main_v13) main_call0.v0 main_call0.v1 (cmpi .slt),
    TRef.nullary main_call0.c_0 (constantI S_ 32 26000#32),
    TRef.unary main_call0.c_0 main_call0.v2 (broadcastInDim S16384x26 ![] bcast_S_S16384x26),
    TRef.binary (.of main_v13) main_call0.v2 main_call0.v3 addi,
    TRef.ternary main_call0.v1 main_call0.v3 (.of main_v13) main_call0.call0.v0 select,
    TRef.unary main_call0.call0.v0 main_call0.v5 (broadcastInDim S16384x26x1 ![0, 1] bcast_S16384x26_S16384x26x1_0_1),
    TRef.nullary main_call0.c_1 (constantI S1 32 25999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_arg4) main_call0.v5 main_call0.v13 (fun x i => Host.gather gather_S26000x128_S16384x26x1_S16384x26x128_2_0_n_n_0_2_1128 x i),
    TRef.unary main_call0.v12 main_call0.v14 (broadcastInDim S16384x26x128 ![0, 1] bcast_S16384x26_S16384x26x128_0_1),
    TRef.nullary main_call0.cst (constant S_ .f32 0x7FC00000#32),
    TRef.unary main_call0.cst main_call0.v15 (broadcastInDim S16384x26x128 ![] bcast_S_S16384x26x128),
    TRef.ternary main_call0.v14 main_call0.v13 main_call0.v15 main_call0.v16 select,
    unary main_arg5 main_v15 (broadcastInDim S1x26x128 ![1, 2] bcast_S26x128_S1x26x128_1_2 : (⟨S26x128, .f32⟩ : BufTy).Contents (Elt F) → (⟨S1x26x128, .f32⟩ : BufTy).Contents (Elt F)),
    unary main_v15 main_v16 (broadcastInDim S16384x26x128 ![0, 1, 2] bcast_S1x26x128_S16384x26x128_0_1_2 : (⟨S1x26x128, .f32⟩ : BufTy).Contents (Elt F) → (⟨S16384x26x128, .f32⟩ : BufTy).Contents (Elt F)),
    binary main_v14 main_v16 main_v17 (addf : (⟨S16384x26x128, .f32⟩ : BufTy).Contents (Elt F) → (⟨S16384x26x128, .f32⟩ : BufTy).Contents (Elt F) → (⟨S16384x26x128, .f32⟩ : BufTy).Contents (Elt F)),
    binary main_v7 main_v17 main_v18 ((fun a b => concatenate S16384x126x128 1 [⟨S16384x100x128, a⟩, ⟨S16384x26x128, b⟩] concatenates_S16384x100x128_S16384x26x128_S16384x126x128_d1) : (⟨S16384x100x128, .f32⟩ : BufTy).Contents (Elt F) → (⟨S16384x26x128, .f32⟩ : BufTy).Contents (Elt F) → (⟨S16384x126x128, .f32⟩ : BufTy).Contents (Elt F)) ]

-- forty-two binds re-associated: the rewrite under the chain recurses once per statement
set_option maxRecDepth 2048 in
/-- @main is that straight line: the two functions' definitions unfolded at their calls and the records
    at their fields, both sides are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub .., binary_bufs_sub ..⟩

/-- Joining two blocks respects equality of the blocks. -/
theorem concat_congr {α : Type} {x x' : S16384x100x128.Idx → α} {y y' : S16384x26x128.Idx → α} (hx : x = x') (hy : y = y') :
    concatenate S16384x126x128 1 [⟨S16384x100x128, x⟩, ⟨S16384x26x128, y⟩]
        concatenates_S16384x100x128_S16384x26x128_S16384x126x128_d1
      = concatenate S16384x126x128 1 [⟨S16384x100x128, x'⟩, ⟨S16384x26x128, y'⟩]
        concatenates_S16384x100x128_S16384x26x128_S16384x126x128_d1 := by
  subst hx; subst hy; rfl

attribute [local irreducible] Host.reduce Host.gather in
set_option maxRecDepth 8192 in
set_option maxHeartbeats 1000000 in
/-- The fold of the operations at the result buffer is the composed term of the arguments' contents: the
    last operation joins what the line before it left at the two token blocks' buffers, and each of those is
    its operations' results read one after the other at their own buffers, the typed references' transports
    the identity at these literal references. The reduction and the lookup are kept folded meanwhile: the
    equation never looks inside them. -/
theorem after_v18 (V : Valuation τ sig (Elt F)) :
    after ops V (main_v18 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rw [binary_result]
  refine concat_congr ?_ ?_
  · after_results_simp
    rfl
  · after_results_simp
    rfl

set_option maxRecDepth 8192 in
theorem after_arg0 (V : Valuation τ sig (Elt F)) :
    after ops V (main_arg0 : DevRef τ sig) = V (main_arg0 : DevRef τ sig) := by after_results_simp
set_option maxRecDepth 8192 in
theorem after_arg1 (V : Valuation τ sig (Elt F)) :
    after ops V (main_arg1 : DevRef τ sig) = V (main_arg1 : DevRef τ sig) := by after_results_simp
set_option maxRecDepth 8192 in
theorem after_arg2 (V : Valuation τ sig (Elt F)) :
    after ops V (main_arg2 : DevRef τ sig) = V (main_arg2 : DevRef τ sig) := by after_results_simp
set_option maxRecDepth 8192 in
theorem after_arg3 (V : Valuation τ sig (Elt F)) :
    after ops V (main_arg3 : DevRef τ sig) = V (main_arg3 : DevRef τ sig) := by after_results_simp
set_option maxRecDepth 8192 in
theorem after_arg4 (V : Valuation τ sig (Elt F)) :
    after ops V (main_arg4 : DevRef τ sig) = V (main_arg4 : DevRef τ sig) := by after_results_simp
set_option maxRecDepth 8192 in
theorem after_arg5 (V : Valuation τ sig (Elt F)) :
    after ops V (main_arg5 : DevRef τ sig) = V (main_arg5 : DevRef τ sig) := by after_results_simp

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v18)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v18).trans (after_v18 _),
      (h c main_arg0).trans (after_arg0 _), (h c main_arg1).trans (after_arg1 _),
      (h c main_arg2).trans (after_arg2 _), (h c main_arg3).trans (after_arg3 _),
      (h c main_arg4).trans (after_arg4 _), (h c main_arg5).trans (after_arg5 _)⟩)
    (run_seq scopedRefs_eq scopedSems_eq defs main (fun _ => ops) main_eq (fun _ => ops_sub) m ρ)

end Cert.Proof.RefSide

end
-- ==== Proof.PreFacts.lean ====
/-
  What the input-domain predicate says of the categorical codes: when the predicate's value is
  all ones, every entry of the code array is, as a natural number, at most 999. The predicate is
  a conjunction whose last conjunct is a reduction by "and" over the elementwise conjunction of
  two signed comparisons, 0 ≤ x and x ≤ 999; a reduction by "and" that is one has a one at every
  index, and the two signed comparisons together bound the unsigned reading.
-/
import proofs.«207390_g85444079387303_cont_sun_c4_501_21_alg».proof.Pre_input_domain
import proofs.«207390_g85444079387303_cont_sun_c4_501_21_alg».proof.Proof.Gen.Pre_input_domain
import Idealize.ShloMosaic.Lib.ReduceAll
import Idealize.ShloMosaic.Lib.Affine
import Idealize.ShloMosaic.Lib.ValueIdx

namespace Cert.Proof.PreFacts

open Idealize.ShloMosaic Idealize.ShloMosaic.ValueIdx

/-- The rank-0 shape has one index. -/
instance : Subsingleton Cert.Pre_input_domain.S_.Idx := ⟨fun a b => funext fun d => d.elim0⟩

/-- A 32-bit word that is signed-nonnegative and signed-at-most 999 is at most 999 unsigned. -/
theorem toNat_le_of_signed (x : BitVec 32) (h0 : (0#32 : BitVec 32).toInt ≤ x.toInt)
    (h1 : x.toInt ≤ (999#32 : BitVec 32).toInt) : x.toNat ≤ 999 := by
  have e0 : (0#32 : BitVec 32).toInt = 0 := by decide
  have e1 : (999#32 : BitVec 32).toInt = 999 := by decide
  rw [e0] at h0
  rw [e1] at h1
  have hc := BitVec.toInt_eq_toNat_cond x
  have hl := x.isLt
  split at hc <;> omega

/-- Under the input-domain predicate every categorical code is at most 999. -/
theorem xcat_range {F : FTy → Type} [FloatOps F] [Cert.Pre_input_domain.Facts]
    (a0 : FVec F Cert.Pre_input_domain.S16384x100 .f32) (a1 : IVec Cert.Pre_input_domain.S16384x26 32)
    (a2 : FVec F Cert.Pre_input_domain.S100x128 .f32) (a3 : FVec F Cert.Pre_input_domain.S100x128 .f32)
    (a4 : FVec F Cert.Pre_input_domain.S26000x128 .f32) (a5 : FVec F Cert.Pre_input_domain.S26x128 .f32)
    (h : Cert.Pre_input_domain.fn (F := F) a0 a1 a2 a3 a4 a5 = fun _ => 1#1) :
    ∀ j, (a1 j).toNat ≤ 999 := by
  intro j
  have h0 := congrFun h ix0
  dsimp only [Cert.Pre_input_domain.fn, Cert.Pre_input_domain.fn_part1] at h0
  have h1 := (IntOp.andi_eq_one.1 h0).2
  have h2 := Host.reduce_andi_all _ _ _ _ _ h1 j
  have h3 := IntOp.andi_eq_one.1 h2
  have hge := IntOp.cmpi_sge.1 h3.1
  have hle := IntOp.cmpi_sle.1 h3.2
  exact toNat_le_of_signed (a1 j) hge hle

end Cert.Proof.PreFacts
-- ==== Proof.RefValue.lean ====
/-
  Under the input-domain predicate the reference's term is the common specification, index by index.
  A numeric token reads weight, value and bias through its broadcasts; the product commutes on the
  extended reals. A categorical token reads the table at the row number code + 1000·feature: the
  codes lie in [0, 999], so the row number lies in [0, 25999] without wrapping as a 32-bit word, is
  not negative (no wrap by the table's height), passes the bounds test (no fill) and is its own
  clamp into the table.
-/
import proofs.«207390_g85444079387303_cont_sun_c4_501_21_alg».proof.Proof.RefTerm
import proofs.«207390_g85444079387303_cont_sun_c4_501_21_alg».proof.Proof.PreFacts
import proofs.«207390_g85444079387303_cont_sun_c4_501_21_alg».proof.Proof.Spec
import Idealize.ShloMosaic.Lib.Pipeline.Value
import Idealize.ShloMosaic.Lib.ValueIdx
import Idealize.ShloMosaic.Lib.ReduceAll
import Idealize.ShloMosaic.Lib.Affine

noncomputable section

namespace Cert.Proof.RefSide

open Cert.ReferenceIdeal Cert.ReferenceIdeal.Facts₀ Idealize.ShloMosaic Idealize.ShloMosaic.ValueIdx

variable [Cert.ReferenceIdeal.Facts]

/-! ## The broadcasts read at an index -/

section Bcast
variable {α : Type}

theorem bc_w (x : S100x128.Idx → α) (o : Fin 1) (t : Fin 100) (d : Fin 128) :
    broadcastInDim S1x100x128 ![1, 2] bcast_S100x128_S1x100x128_1_2 x (ix3 o t d) = x (ix2 t d) :=
  broadcastInDim_apply _ _ x _ _ fun a => match a with | ⟨0, _⟩ => rfl | ⟨1, _⟩ => rfl

theorem bc_w_full (x : S1x100x128.Idx → α) (b : Fin 16384) (t : Fin 100) (d : Fin 128) :
    broadcastInDim S16384x100x128 ![0, 1, 2] bcast_S1x100x128_S16384x100x128_0_1_2 x (ix3 b t d) = x (ix3 0 t d) :=
  broadcastInDim_apply _ _ x _ _ fun a => match a with | ⟨0, _⟩ => rfl | ⟨1, _⟩ => rfl | ⟨2, _⟩ => rfl

theorem bc_x (x : S16384x100.Idx → α) (b : Fin 16384) (t : Fin 100) (o : Fin 1) :
    broadcastInDim S16384x100x1 ![0, 1] bcast_S16384x100_S16384x100x1_0_1 x (ix3 b t o) = x (ix2 b t) :=
  broadcastInDim_apply _ _ x _ _ fun a => match a with | ⟨0, _⟩ => rfl | ⟨1, _⟩ => rfl

theorem bc_x_full (x : S16384x100x1.Idx → α) (b : Fin 16384) (t : Fin 100) (d : Fin 128) :
    broadcastInDim S16384x100x128 ![0, 1, 2] bcast_S16384x100x1_S16384x100x128_0_1_2 x (ix3 b t d) = x (ix3 b t 0) :=
  broadcastInDim_apply _ _ x _ _ fun a => match a with | ⟨0, _⟩ => rfl | ⟨1, _⟩ => rfl | ⟨2, _⟩ => rfl

theorem bc_off (x : S26.Idx → α) (o : Fin 1) (f : Fin 26) :
    broadcastInDim S1x26 ![1] bcast_S26_S1x26_1 x (ix2 o f) = x (ix1 f) :=
  broadcastInDim_apply _ _ x _ _ fun a => match a with | ⟨0, _⟩ => rfl

theorem bc_off_full (x : S1x26.Idx → α) (b : Fin 16384) (f : Fin 26) :
    broadcastInDim S16384x26 ![0, 1] bcast_S1x26_S16384x26_0_1 x (ix2 b f) = x (ix2 0 f) :=
  broadcastInDim_apply _ _ x _ _ fun a => match a with | ⟨0, _⟩ => rfl | ⟨1, _⟩ => rfl

theorem bc_idx (x : S16384x26.Idx → α) (b : Fin 16384) (f : Fin 26) (o : Fin 1) :
    broadcastInDim S16384x26x1 ![0, 1] bcast_S16384x26_S16384x26x1_0_1 x (ix3 b f o) = x (ix2 b f) :=
  broadcastInDim_apply _ _ x _ _ fun a => match a with | ⟨0, _⟩ => rfl | ⟨1, _⟩ => rfl

theorem bc_mask (x : S16384x26.Idx → α) (b : Fin 16384) (f : Fin 26) (d : Fin 128) :
    broadcastInDim S16384x26x128 ![0, 1] bcast_S16384x26_S16384x26x128_0_1 x (ix3 b f d) = x (ix2 b f) :=
  broadcastInDim_apply _ _ x _ _ fun a => match a with | ⟨0, _⟩ => rfl | ⟨1, _⟩ => rfl

theorem bc_cb (x : S26x128.Idx → α) (o : Fin 1) (f : Fin 26) (d : Fin 128) :
    broadcastInDim S1x26x128 ![1, 2] bcast_S26x128_S1x26x128_1_2 x (ix3 o f d) = x (ix2 f d) :=
  broadcastInDim_apply _ _ x _ _ fun a => match a with | ⟨0, _⟩ => rfl | ⟨1, _⟩ => rfl

theorem bc_cb_full (x : S1x26x128.Idx → α) (b : Fin 16384) (f : Fin 26) (d : Fin 128) :
    broadcastInDim S16384x26x128 ![0, 1, 2] bcast_S1x26x128_S16384x26x128_0_1_2 x (ix3 b f d) = x (ix3 0 f d) :=
  broadcastInDim_apply _ _ x _ _ fun a => match a with | ⟨0, _⟩ => rfl | ⟨1, _⟩ => rfl | ⟨2, _⟩ => rfl

end Bcast

/-! ## The numeric tokens -/

/-- A numeric token at an index: weight times value plus bias, for any float values. -/
theorem numTok_apply {F : FTy → Type} [FloatOps F] (a0 : FVec F S16384x100 .f32) (a2 a3 : FVec F S100x128 .f32)
    (b : Fin 16384) (t : Fin 100) (d : Fin 128) :
    numTok a0 a2 a3 (ix3 b t d)
      = FloatOps.addf (FloatOps.mulf (a2 (ix2 t d)) (a0 (ix2 b t))) (a3 (ix2 t d)) := by
  show FloatOps.addf (FloatOps.mulf
      (broadcastInDim S16384x100x128 ![0, 1, 2] bcast_S1x100x128_S16384x100x128_0_1_2
        (broadcastInDim S1x100x128 ![1, 2] bcast_S100x128_S1x100x128_1_2 a2) (ix3 b t d))
      (broadcastInDim S16384x100x128 ![0, 1, 2] bcast_S16384x100x1_S16384x100x128_0_1_2
        (broadcastInDim S16384x100x1 ![0, 1] bcast_S16384x100_S16384x100x1_0_1 a0) (ix3 b t d)))
      (broadcastInDim S16384x100x128 ![0, 1, 2] bcast_S1x100x128_S16384x100x128_0_1_2
        (broadcastInDim S1x100x128 ![1, 2] bcast_S100x128_S1x100x128_1_2 a3) (ix3 b t d)) = _
  rw [bc_w_full, bc_w, bc_x_full, bc_x, bc_w_full, bc_w]

/-! ## The row numbers -/

/-- The row number at an index: the code plus 1000 times the feature, as 32-bit words. -/
theorem rowIdx_apply (a1 : IVec S16384x26 32) (b : Fin 16384) (f : Fin 26) :
    rowIdx a1 (ix2 b f) = a1 (ix2 b f) + BitVec.ofNat 32 f.val * 1000#32 := by
  show IntOp.addi (a1 (ix2 b f))
      (broadcastInDim S16384x26 ![0, 1] bcast_S1x26_S16384x26_0_1
        (broadcastInDim S1x26 ![1] bcast_S26_S1x26_1 offs) (ix2 b f)) = _
  rw [bc_off_full, bc_off]
  rfl

/-- With the code at most 999 the sum does not wrap: the row number is code + 1000·feature. -/
theorem rowIdx_toNat (a1 : IVec S16384x26 32) (b : Fin 16384) (f : Fin 26) (h : (a1 (ix2 b f)).toNat ≤ 999) :
    (rowIdx a1 (ix2 b f)).toNat = (a1 (ix2 b f)).toNat + 1000 * f.val := by
  have hf := f.isLt
  rw [rowIdx_apply, BitVec.toNat_add, BitVec.toNat_mul, BitVec.toNat_ofNat, BitVec.toNat_ofNat]
  omega

/-- A word below 2³¹ read signed is itself. -/
theorem toInt_of_small (x : BitVec 32) (h : x.toNat < 2 ^ 31) : x.toInt = (x.toNat : Int) := by
  have e := BitVec.toInt_eq_toNat_cond x
  split at e <;> omega

/-- The row number is not negative, so it is not wrapped. -/
theorem wrapped_apply (a1 : IVec S16384x26 32) (b : Fin 16384) (f : Fin 26) (h : (a1 (ix2 b f)).toNat ≤ 999) :
    wrapped a1 (ix2 b f) = rowIdx a1 (ix2 b f) := by
  have hn := rowIdx_toNat a1 b f h
  have hf := f.isLt
  show Scalar.select (IntOp.cmpi .slt (rowIdx a1 (ix2 b f)) 0#32)
      (IntOp.addi (rowIdx a1 (ix2 b f)) 26000#32) (rowIdx a1 (ix2 b f)) = _
  have hc : IntOp.cmpi .slt (rowIdx a1 (ix2 b f)) 0#32 = 0#1 := by
    apply eq_zero_of_ne_one
    rw [IntOp.cmpi_slt, toInt_of_small _ (by omega)]
    have e0 : (0#32 : BitVec 32).toInt = 0 := by decide
    rw [e0]; omega
  rw [hc, select_zero]

/-- The lookup's index vector at an index is the wrapped row number. -/
theorem idx3_apply (a1 : IVec S16384x26 32) (b : Fin 16384) (f : Fin 26) (o : Fin 1) :
    idx3 a1 (ix3 b f o) = wrapped a1 (ix2 b f) := bc_idx (wrapped a1) b f o

/-! ## The bounds test -/

/-- A left fold by "and" from one over words that are all one is one. -/
theorem foldl_andi_one {ι : Type} (g : ι → BitVec 1) :
    ∀ l : List ι, (∀ n ∈ l, g n = 1#1) → l.foldl (fun r n => IntOp.andi r (g n)) 1#1 = 1#1
  | [], _ => rfl
  | a :: l, h => by
    have e : IntOp.andi (1#1 : BitVec 1) (g a) = 1#1 := by rw [h a List.mem_cons_self]; decide
    rw [List.foldl_cons, e]
    exact foldl_andi_one g l fun n hn => h n (List.mem_cons_of_mem _ hn)

/-- A reduction by "and" from the constant one over an array of ones is one. -/
theorem reduce_andi_one {s t u : Shape} {axes : List (Fin s.rank)} (x : s.Idx → BitVec 1) (h : s.ReducesTo axes t)
    (hu : 0 < u.numel) (j : t.Idx) (hx : ∀ i, x i = 1#1) :
    Host.reduce IntOp.andi x (constantI u 1 1#1) h hu j = 1#1 := by
  rw [Host.reduce_eq_foldl]
  exact foldl_andi_one x _ fun i _ => hx i

/-- With every code at most 999 every wrapped row number lies inside the table. -/
theorem inTable_apply (a1 : IVec S16384x26 32) (h : ∀ j, (a1 j).toNat ≤ 999) (j : S16384x26.Idx) :
    inTable a1 j = 1#1 := by
  unfold inTable
  apply reduce_andi_one
  intro i
  obtain ⟨b, f, o, rfl⟩ : ∃ (b : Fin 16384) (f : Fin 26) (o : Fin 1), i = ix3 b f o := ⟨i 0, i 1, i 2, eq_ix3 i⟩
  show IntOp.andi (IntOp.cmpi .sge (idx3 a1 (ix3 b f o)) 0#32) (IntOp.cmpi .sle (idx3 a1 (ix3 b f o)) 25999#32) = 1#1
  rw [idx3_apply, wrapped_apply a1 b f (h _)]
  have hn := rowIdx_toNat a1 b f (h _)
  have hf := f.isLt
  have hx := h (ix2 b f)
  have e0 : (0#32 : BitVec 32).toInt = 0 := by decide
  have e1 : (25999#32 : BitVec 32).toInt = 25999 := by decide
  refine IntOp.andi_eq_one.2 ⟨IntOp.cmpi_sge.2 ?_, IntOp.cmpi_sle.2 ?_⟩
  · rw [e0, toInt_of_small _ (by omega)]; omega
  · rw [e1, toInt_of_small _ (by omega)]; omega

/-! ## The lookup -/

local notation "𝔇" => gather_S26000x128_S16384x26x1_S16384x26x128_2_0_n_n_0_2_1128

/-- The lookup at an index: the table at the row its index vector names, read signed and clamped into the
    table, and at the result's lane. -/
theorem gather_apply {α : Type} (x : S26000x128.Idx → α) (idx : IVec S16384x26x1 32)
    (b : Fin 16384) (f : Fin 26) (d : Fin 128) :
    Host.gather 𝔇 x idx (ix3 b f d)
      = x (ix2 ⟨min (idx (ix3 b f 0)).toInt.toNat 25999, by omega⟩ d) := by
  unfold Host.gather
  congr 1
  funext a
  refine Fin.ext ?_
  match a with
  | ⟨0, _⟩ =>
    show GatherDims.start 𝔇 (ix3 b f d) idx 0 + GatherDims.batchCoord 𝔇 (ix3 b f d) 0
        + GatherDims.offCoord 𝔇 (ix3 b f d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (𝔇).startIndexMap from List.mem_singleton.mpr rfl)]
    have hsi : (𝔇).siIdx (ix3 b f d) ⟨List.idxOf (0 : Fin 2) (𝔇).startIndexMap,
        List.idxOf_lt_length_iff.2 (List.mem_singleton.mpr rfl)⟩ = ix3 b f 0 := by
      funext c; refine Fin.ext ?_
      match c with
      | ⟨0, _⟩ => rfl
      | ⟨1, _⟩ => rfl
      | ⟨2, _⟩ => rfl
    rw [hsi]
    rfl
  | ⟨1, _⟩ =>
    show GatherDims.start 𝔇 (ix3 b f d) idx 1 + GatherDims.batchCoord 𝔇 (ix3 b f d) 1
        + GatherDims.offCoord 𝔇 (ix3 b f d) 1 = d.val
    have hs : GatherDims.start 𝔇 (ix3 b f d) idx 1 = 0 := by
      unfold GatherDims.start
      rw [dif_neg (show (1 : Fin 2) ∉ (𝔇).startIndexMap from
        fun h => absurd (List.mem_singleton.1 h) (by decide))]
    have ho : GatherDims.offCoord 𝔇 (ix3 b f d) 1 = d.val := by
      unfold GatherDims.offCoord
      rw [dif_pos (show (1 : Fin 2) ∈ (𝔇).sKept from
        (GatherDims.mem_sKept _ _).2 ⟨fun h => absurd (List.mem_singleton.1 h) (by decide), List.not_mem_nil⟩)]
      rfl
    rw [GatherDims.batchCoord_eq_zero _ _ _ List.not_mem_nil, hs, ho]
    omega

/-! ## The categorical tokens -/

/-- With every code at most 999 the looked-up row is the specification's row, and nothing is filled. -/
theorem taken_apply {F : FTy → Type} [FloatOps F] (a1 : IVec S16384x26 32) (a4 : FVec F S26000x128 .f32)
    (h : ∀ j, (a1 j).toNat ≤ 999) (b : Fin 16384) (f : Fin 26) (d : Fin 128) :
    taken a1 a4 (ix3 b f d) = a4 (ix2 (Cert.Proof.Spec.rowOf a1 b f) d) := by
  show Scalar.select
      (broadcastInDim S16384x26x128 ![0, 1] bcast_S16384x26_S16384x26x128_0_1 (inTable a1) (ix3 b f d))
      (Host.gather 𝔇 a4 (idx3 a1) (ix3 b f d))
      (broadcastInDim S16384x26x128 ![] bcast_S_S16384x26x128 (constant S_ .f32 0x7FC00000#32) (ix3 b f d)) = _
  rw [bc_mask, inTable_apply a1 h, select_one, gather_apply]
  have hn := rowIdx_toNat a1 b f (h _)
  have hf := f.isLt
  have hx := h (ix2 b f)
  refine congrArg (fun r => a4 (ix2 r d)) (Fin.ext ?_)
  show min (idx3 a1 (ix3 b f 0)).toInt.toNat 25999 = min ((a1 (ix2 b f)).toNat + 1000 * f.val) 25999
  rw [idx3_apply, wrapped_apply a1 b f (h _), toInt_of_small _ (by omega), Int.toNat_natCast, hn]

/-- A categorical token at an index: the specification's table row plus the feature's bias. -/
theorem catTok_apply {F : FTy → Type} [FloatOps F] (a1 : IVec S16384x26 32) (a4 : FVec F S26000x128 .f32)
    (a5 : FVec F S26x128 .f32) (h : ∀ j, (a1 j).toNat ≤ 999) (b : Fin 16384) (f : Fin 26) (d : Fin 128) :
    catTok a1 a4 a5 (ix3 b f d)
      = FloatOps.addf (a4 (ix2 (Cert.Proof.Spec.rowOf a1 b f) d)) (a5 (ix2 f d)) := by
  show FloatOps.addf (taken a1 a4 (ix3 b f d))
      (broadcastInDim S16384x26x128 ![0, 1, 2] bcast_S1x26x128_S16384x26x128_0_1_2
        (broadcastInDim S1x26x128 ![1, 2] bcast_S26x128_S1x26x128_1_2 a5) (ix3 b f d)) = _
  rw [taken_apply a1 a4 h, bc_cb_full, bc_cb]

/-! ## The two blocks of the result -/

/-- Below token 100 the result is the numeric block. -/
theorem refTerm_num {F : FTy → Type} [FloatOps F] (a0 : FVec F S16384x100 .f32) (a1 : IVec S16384x26 32)
    (a2 a3 : FVec F S100x128 .f32) (a4 : FVec F S26000x128 .f32) (a5 : FVec F S26x128 .f32)
    (b : Fin 16384) (t : Fin 126) (d : Fin 128) (ht : t.val < 100) :
    refTerm a0 a1 a2 a3 a4 a5 (ix3 b t d) = numTok a0 a2 a3 (ix3 b ⟨t.val, ht⟩ d) :=
  concatenate_pair_apply_left (t := S16384x126x128) (s₁ := S16384x100x128) (s₂ := S16384x26x128) (1 : Fin 3)
    (numTok a0 a2 a3) (catTok a1 a4 a5) concatenates_S16384x100x128_S16384x26x128_S16384x126x128_d1
    (ix3 b t d) rfl (ix3 b (⟨t.val, ht⟩ : Fin 100) d)
    fun c => match c with | ⟨0, _⟩ => rfl | ⟨1, _⟩ => rfl | ⟨2, _⟩ => rfl

/-- From token 100 on the result is the categorical block, at the token less 100. -/
theorem refTerm_cat {F : FTy → Type} [FloatOps F] (a0 : FVec F S16384x100 .f32) (a1 : IVec S16384x26 32)
    (a2 a3 : FVec F S100x128 .f32) (a4 : FVec F S26000x128 .f32) (a5 : FVec F S26x128 .f32)
    (b : Fin 16384) (t : Fin 126) (d : Fin 128) (ht : ¬ t.val < 100) :
    refTerm a0 a1 a2 a3 a4 a5 (ix3 b t d)
      = catTok a1 a4 a5 (ix3 b ⟨t.val - 100, by have := t.isLt; omega⟩ d) :=
  concatenate_pair_apply_right (t := S16384x126x128) (s₁ := S16384x100x128) (s₂ := S16384x26x128) (1 : Fin 3)
    (numTok a0 a2 a3) (catTok a1 a4 a5) concatenates_S16384x100x128_S16384x26x128_S16384x126x128_d1
    (ix3 b t d) rfl rfl (ix3 b (⟨t.val - 100, by have := t.isLt; omega⟩ : Fin 26) d)
    (fun c hc => match c, hc with
      | ⟨0, _⟩, _ => rfl
      | ⟨1, _⟩, hc => absurd rfl hc
      | ⟨2, _⟩, _ => rfl)
    (by show t.val - 100 + 100 = t.val; omega)

/-! ## The term is the specification -/

/-- Under the input-domain predicate the reference's term is the specification. -/
theorem refTerm_eq [Cert.Pre_input_domain.Facts]
    (a0 : FVec Ideal S16384x100 .f32) (a1 : IVec S16384x26 32) (a2 a3 : FVec Ideal S100x128 .f32)
    (a4 : FVec Ideal S26000x128 .f32) (a5 : FVec Ideal S26x128 .f32)
    (h : Cert.Pre_input_domain.fn (F := Ideal) a0 a1 a2 a3 a4 a5 = fun _ => 1#1) :
    refTerm a0 a1 a2 a3 a4 a5 = Cert.Proof.Spec.G (F := Ideal) a0 a1 a2 a3 a4 a5 := by
  have hr := Cert.Proof.PreFacts.xcat_range a0 a1 a2 a3 a4 a5 h
  funext i
  obtain ⟨b, t, d, rfl⟩ : ∃ (b : Fin 16384) (t : Fin 126) (d : Fin 128), i = ix3 b t d :=
    ⟨i 0, i 1, i 2, eq_ix3 i⟩
  by_cases ht : t.val < 100
  · rw [refTerm_num a0 a1 a2 a3 a4 a5 b t d ht, numTok_apply]
    unfold Cert.Proof.Spec.G
    rw [dif_pos (show ((ix3 b t d : Cert.Proof.Spec.SO.Idx) 1).val < 100 from ht)]
    show a2 (ix2 ⟨t.val, ht⟩ d) * a0 (ix2 b ⟨t.val, ht⟩) + a3 (ix2 ⟨t.val, ht⟩ d)
      = a0 (ix2 b ⟨t.val, ht⟩) * a2 (ix2 ⟨t.val, ht⟩ d) + a3 (ix2 ⟨t.val, ht⟩ d)
    rw [mul_comm]
  · rw [refTerm_cat a0 a1 a2 a3 a4 a5 b t d ht, catTok_apply a1 a4 a5 hr]
    unfold Cert.Proof.Spec.G
    rw [dif_neg (show ¬ ((ix3 b t d : Cert.Proof.Spec.SO.Idx) 1).val < 100 from ht)]

end Cert.Proof.RefSide

end
-- ==== Proof.RefClaims.lean ====
/-
  The reference's halves of the certificate's claims. Every execution of the reference ends with its
  result buffer at the operations' composed term of the arguments and the arguments unchanged; under the
  input-domain predicate that term is the common specification. Hence the frame claim (no precondition
  is needed for it) and the run at the specification.
-/
import proofs.«207390_g85444079387303_cont_sun_c4_501_21_alg».proof.Proof.RefRun
import proofs.«207390_g85444079387303_cont_sun_c4_501_21_alg».proof.Proof.RefValue
import proofs.«207390_g85444079387303_cont_sun_c4_501_21_alg».proof.Defs

noncomputable section

namespace Cert.Proof.RefSide

open Cert.ReferenceIdeal Idealize.ShloMosaic Idealize.ShloMosaic.TcCoe Idealize.SL.Sem

variable [Cert.ReferenceIdeal.Facts] [Cert.Pre_input_domain.Facts]

/-- Under the input-domain predicate every execution of the reference ends with its result at the
    specification of the arguments' launch contents, and the arguments unchanged. -/
theorem run_G (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ fun r => ∀ c : Dev nD,
      r.2.mem ((c.tc : Thread nD τ).loc main_v18)
          = Cert.Proof.Spec.G (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (refTerm_eq _ _ _ _ _ _ (hpre c)), (h c).2⟩) (run m ρ)

/-- The reference runs to its end, nothing faulting, and leaves its arguments unchanged. -/
theorem frame : Cert.frame_ReferenceIdeal :=
  fun m g _ => (θ_run defs _ _).mono (fun _ h c => (h c).2) (run m g)

end Cert.Proof.RefSide

end
-- ==== Proof.ScObl.lean ====
/-
  From the proof of the row-gathering kernel's body at one grid point — from a task's operands and its vector subcore's
  scoped storage to the task's results — to the launch theorem's obligation for a vector subcore's task: the body table
  runs that body at the grid point of the (SparseCore, vector subcore) pair, the task's payloads are its operands and
  results there, and the kernel owes nothing of its own.
-/
import proofs.«207390_g85444079387303_cont_sun_c4_501_21_alg».proof.Proof.LaunchHost
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

variable [FloatOps F]

/-- The body's theorem: at a grid point L, from the task's operands at any share and contents whose index words all name
    rows of the table, the body runs to its return handing back the operands and the task's chunks at what the call writes. -/
def TileBodyStmt : Prop :=
  ∀ (hF : (K (F := F)).Facts) (d : Dev nD) (L : grid0.Coords) (sh : PosShare TreeShare) (ft : Buf (Elt F) (tabLoc d)) (fg : Buf (Elt F) (gidxLoc d))
    (fb : Buf (Elt F) (biasLoc d)) (prev : Buf (Elt F) (outLoc d)) (hfg : ∀ i, (fg i).toNat < 26000)
    (O : CellTallies nD τ sig (HIx 1)) (W : Waits sig (HIx 1)) (hO : ∀ g, O g none = 0),
    (iprop(levAts (K (F := F)).L (K (F := F)).lev ∗ emp ∗ taskIn d L sh ft fg fb prev ∗ scopedBufs (V d (cV L) (jV L)) ∗ scopedSems0 (V d (cV L) (jV L))
        ∗ owes (V d (cV L) (jV L)) O W) : sProp 𝕄)
      ⊢ wp frame (wpE (defs₀ (F := F)) 𝒱₀ (V d (cV L) (jV L)) none) Set.univ
          (cc0__sc_body L (Memref.whole main_arg4_scv) (Memref.isWhole_whole _) (Memref.whole main_v7_scv) (Memref.isWhole_whole _)
            (Memref.whole main_arg5_scv) (Memref.isWhole_whole _) (Memref.whole main_v8_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scoped0 cc0_scoped1 cc0_scoped2 cc0_scoped3)
          fun _ => iprop(taskOut d L sh ft fg fb prev ∗ scopedBufs (V d (cV L) (jV L)) ∗ scopedSems0 (V d (cV L) (jV L))
            ∗ ∃ W', ⌜∀ p ∈ W', p ∈ W ∨ p.2 = none⌝ ∗ owes (V d (cV L) (jV L)) O W')

/-- The body table at a vector subcore and the kernel's label: the body at the subcore's grid point, on the whole arrays and its scratch. -/
theorem defs₀_vector (c : Fin τ.nSC) (s : Fin τ.nSub) :
    defs₀ (F := F) (.scVector c s) 0 ()
      = SparseCore.onTile hcore0 hsub0 (fun c s => cc0__sc_body (coordsV c s)
          (Memref.whole main_arg4_scv) (Memref.isWhole_whole _) (Memref.whole main_v7_scv) (Memref.isWhole_whole _)
          (Memref.whole main_arg5_scv) (Memref.isWhole_whole _) (Memref.whole main_v8_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scoped0 cc0_scoped1 cc0_scoped2 cc0_scoped3) ⟨⟩ c s := rfl

omit [FloatOps F] in
/-- The recorded pairs added by the body sit at index none: in particular at none or at the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for a vector subcore's task, from the body's theorem. -/
theorem htile_of (hbody : TileBodyStmt (F := F)) : HTile (F := F) := by
  intro ft fg fb prev hfg d c i O W hO _ _
  -- this kernel owes nothing for a protocol of its own
  simp only [show (P ft fg fb prev).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody facts d (coordsV ⟨_, hc.1⟩ ⟨_, hc.2⟩) (shT (Fin.cast nCore_zero c) (Fin.cast nSub_zero i)) (ft d) (fg d) (fb d) (prev d) (hfg d) O W hO).trans
    (wp_mono frame _ _ fun _ => obl_post)

end Cert.Proof.KI

end
-- ==== Proof.WordScObl.lean ====
/-
  From the proof of the row-gathering kernel's body at one grid point — from a task's operands and its vector subcore's
  scoped storage to the task's results — to the launch theorem's obligation for a vector subcore's task: the body table
  runs that body at the grid point of the (SparseCore, vector subcore) pair, the task's payloads are its operands and
  results there, and the kernel owes nothing of its own.
-/
import proofs.«207390_g85444079387303_cont_sun_c4_501_21_alg».proof.Proof.WordLaunchHost
import Idealize.ShloMosaic.Lib.Pipeline.Value
import Idealize.ShloMosaic.Lib.ValueLayout

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq)
open Idealize.ShloMosaic.Tactic
open Idealize.ShloMosaic.ValueIdx

variable {F : FTy → Type}

local notation "𝕄" => MT nD τ sig (HIx 1) (Elt F) ℕ UU ℕ

variable [FloatOps F]

/-- The body's theorem: at a grid point L, from the task's operands at any share and contents whose index words all name
    rows of the table, the body runs to its return handing back the operands and the task's chunks at what the call writes. -/
def TileBodyStmt : Prop :=
  ∀ (hF : (K (F := F)).Facts) (d : Dev nD) (L : grid0.Coords) (sh : PosShare TreeShare) (ft : Buf (Elt F) (tabLoc d)) (fg : Buf (Elt F) (gidxLoc d))
    (fb : Buf (Elt F) (biasLoc d)) (prev : Buf (Elt F) (outLoc d)) (hfg : ∀ i, (fg i).toNat < 26000)
    (O : CellTallies nD τ sig (HIx 1)) (W : Waits sig (HIx 1)) (hO : ∀ g, O g none = 0),
    (iprop(levAts (K (F := F)).L (K (F := F)).lev ∗ emp ∗ taskIn d L sh ft fg fb prev ∗ scopedBufs (V d (cV L) (jV L)) ∗ scopedSems0 (V d (cV L) (jV L))
        ∗ owes (V d (cV L) (jV L)) O W) : sProp 𝕄)
      ⊢ wp frame (wpE (defs₀ (F := F)) 𝒱₀ (V d (cV L) (jV L)) none) Set.univ
          (cc0__sc_body L (Memref.whole main_arg4_scv) (Memref.isWhole_whole _) (Memref.whole main_v7_scv) (Memref.isWhole_whole _)
            (Memref.whole main_arg5_scv) (Memref.isWhole_whole _) (Memref.whole main_v8_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scoped0 cc0_scoped1 cc0_scoped2 cc0_scoped3)
          fun _ => iprop(taskOut d L sh ft fg fb prev ∗ scopedBufs (V d (cV L) (jV L)) ∗ scopedSems0 (V d (cV L) (jV L))
            ∗ ∃ W', ⌜∀ p ∈ W', p ∈ W ∨ p.2 = none⌝ ∗ owes (V d (cV L) (jV L)) O W')

/-- The body table at a vector subcore and the kernel's label: the body at the subcore's grid point, on the whole arrays and its scratch. -/
theorem defs₀_vector (c : Fin τ.nSC) (s : Fin τ.nSub) :
    defs₀ (F := F) (.scVector c s) 0 ()
      = SparseCore.onTile hcore0 hsub0 (fun c s => cc0__sc_body (coordsV c s)
          (Memref.whole main_arg4_scv) (Memref.isWhole_whole _) (Memref.whole main_v7_scv) (Memref.isWhole_whole _)
          (Memref.whole main_arg5_scv) (Memref.isWhole_whole _) (Memref.whole main_v8_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scoped0 cc0_scoped1 cc0_scoped2 cc0_scoped3) ⟨⟩ c s := rfl

omit [FloatOps F] in
/-- The recorded pairs added by the body sit at index none: in particular at none or at the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for a vector subcore's task, from the body's theorem. -/
theorem htile_of (hbody : TileBodyStmt (F := F)) : HTile (F := F) := by
  intro ft fg fb prev hfg d c i O W hO _ _
  -- this kernel owes nothing for a protocol of its own
  simp only [show (P ft fg fb prev).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody facts d (coordsV ⟨_, hc.1⟩ ⟨_, hc.2⟩) (shT (Fin.cast nCore_zero c) (Fin.cast nSub_zero i)) (ft d) (fg d) (fb d) (prev d) (hfg d) O W hO).trans
    (wp_mono frame _ _ fun _ => obl_post)

end Cert.Proof.KW

end
-- ==== Proof.Claims.lean ====
/-
  The certificate's five claims from the parts. Each kernel program's run ends with its result at the
  kernel's term of the launch contents and the six arguments unchanged, once the categorical codes are at
  most 999, which the input-domain predicate gives; that is each kernel program's frame. The reference's
  frame and its run at the common specification are the reference side's. At the ideal instance the
  kernel's term is the specification too, so from memories agreeing on the arguments both programs end
  with the specification of the same six arrays: equal results. The idealization rewrote nothing.
-/
import proofs.«207390_g85444079387303_cont_sun_c4_501_21_alg».proof.Proof.LaunchRun
import proofs.«207390_g85444079387303_cont_sun_c4_501_21_alg».proof.Proof.WordLaunchRun
import proofs.«207390_g85444079387303_cont_sun_c4_501_21_alg».proof.Proof.KernelValue
import proofs.«207390_g85444079387303_cont_sun_c4_501_21_alg».proof.Proof.RefClaims
import proofs.«207390_g85444079387303_cont_sun_c4_501_21_alg».proof.Proof.PreFacts
import proofs.«207390_g85444079387303_cont_sun_c4_501_21_alg».proof.Proof.Gen.ReferenceIdeal
import proofs.«207390_g85444079387303_cont_sun_c4_501_21_alg».proof.Proof.ScObl
import proofs.«207390_g85444079387303_cont_sun_c4_501_21_alg».proof.Proof.WordScObl

noncomputable section

namespace Cert.Proof.Claims

open Idealize.ShloMosaic Idealize.SL.Sem

/-- The word-level kernel program runs and leaves its arguments unchanged. -/
theorem frame_Kernel (htile : Cert.Proof.KW.HTile (F := Bits)) (hregion : Cert.Proof.KW.RegionStmt (F := Bits)) :
    Cert.frame_Kernel :=
  fun m ρ hpre => (θ_run Cert.Kernel.defs _ _).mono (fun _ h c => (h c).2)
    (Cert.Proof.KW.run_main (F := Bits) m ρ htile hregion
      fun d j => Cert.Proof.PreFacts.xcat_range _ _ _ _ _ _ (hpre d) j)

/-- The idealized kernel program runs and leaves its arguments unchanged. -/
theorem frame_KernelIdeal (htile : Cert.Proof.KI.HTile (F := Ideal)) (hregion : Cert.Proof.KI.RegionStmt (F := Ideal)) :
    Cert.frame_KernelIdeal :=
  fun m ρ hpre => (θ_run Cert.KernelIdeal.defs _ _).mono (fun _ h c => (h c).2)
    (Cert.Proof.KI.run_main (F := Ideal) m ρ htile hregion
      fun d j => Cert.Proof.PreFacts.xcat_range _ _ _ _ _ _ (hpre d) j)

/-- The reference runs and leaves its arguments unchanged. -/
theorem frame_ReferenceIdeal : Cert.frame_ReferenceIdeal := Cert.Proof.RefSide.frame

/-- The idealization rewrote no operation. -/
theorem preserves : Cert.preserves_Kernel_KernelIdeal := trivial

/-- At the ideal instance, from memories agreeing on the six arguments, the kernel program and the reference both
    end with the specification of those arguments, and with their arguments unchanged. -/
theorem algebraic (htile : Cert.Proof.KI.HTile (F := Ideal)) (hregion : Cert.Proof.KI.RegionStmt (F := Ideal)) :
    Cert.algebraic_KernelIdeal_ReferenceIdeal := by
  intro m ρ m' ρ' hpre hagree
  have hx : ∀ d j, (m ((SparseCore.T d : Thread Cert.KernelIdeal.nD Cert.KernelIdeal.τ).loc Cert.KernelIdeal.main_arg1) j).toNat ≤ 999 :=
    fun d j => Cert.Proof.PreFacts.xcat_range _ _ _ _ _ _ (hpre d) j
  have hpre' : Cert.Pre_ReferenceIdeal m' := by
    intro c
    rw [(hagree c).1, (hagree c).2.1, (hagree c).2.2.1, (hagree c).2.2.2.1, (hagree c).2.2.2.2.1, (hagree c).2.2.2.2.2]
    exact hpre c
  refine ⟨fun c => Cert.Proof.Spec.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Proof.KI.kernelTerm_eq_G _ _ _ _ _ _ _ (hx c)), (h c).2⟩)
      (Cert.Proof.KI.run_main (F := Ideal) m ρ htile hregion hx)
  · refine (θ_run Cert.ReferenceIdeal.defs _ _).mono (fun _ h c => ⟨(h c).1.trans ?_, (h c).2⟩)
      (Cert.Proof.RefSide.run_G m' ρ' hpre')
    rw [(hagree c).1, (hagree c).2.1, (hagree c).2.2.1, (hagree c).2.2.2.1, (hagree c).2.2.2.2.1, (hagree c).2.2.2.2.2]

/-- The whole claim, from a vector subcore's task and the numeric call's region at both instances: the witnesses
    of the programs' stated side conditions, then the five conjuncts. -/
theorem claim_of (hbodyW : Cert.Proof.KW.TileBodyStmt (F := Bits)) (hregionW : Cert.Proof.KW.RegionStmt (F := Bits))
    (hbodyI : Cert.Proof.KI.TileBodyStmt (F := Ideal)) (hregionI : Cert.Proof.KI.RegionStmt (F := Ideal)) : Cert.Claim :=
  ⟨Cert.Kernel.Gen.facts, Cert.KernelIdeal.Gen.facts, Cert.ReferenceIdeal.Gen.facts, Cert.Pre_input_domain.Gen.facts,
    frame_Kernel (Cert.Proof.KW.htile_of hbodyW) hregionW,
    frame_KernelIdeal (Cert.Proof.KI.htile_of hbodyI) hregionI,
    frame_ReferenceIdeal,
    preserves,
    algebraic (Cert.Proof.KI.htile_of hbodyI) hregionI⟩

end Cert.Proof.Claims

end
-- ==== Proof.ScOwn.lean ====
/-
  A vector subcore's own storage for the row-gathering kernel: its four scratch buffers and six DMA semaphores, named out of what the launch hands a task.
-/
import proofs.«207390_g85444079387303_cont_sun_c4_501_21_alg».proof.Proof.Setup
import proofs.«207390_g85444079387303_cont_sun_c4_501_21_alg».proof.Proof.Spec
import proofs.«207390_g85444079387303_cont_sun_c4_501_21_alg».proof.Proof.Gen.KernelIdeal.Skeleton
import proofs.«207390_g85444079387303_cont_sun_c4_501_21_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Own

variable (d : Dev nD) (c : Fin τ.nSC) (i : Fin τ.nSub)

/-- The cell of DMA semaphore a on vector subcore (c, i). -/
abbrev dcell (a : DmaSem sig) : GSem nD τ sig := (V d c i, SemLoc.dma a)

theorem dcell_ne {a b : DmaSem sig} (h : a ≠ b) : dcell d c i a ≠ dcell d c i b :=
  fun e => h (SemLoc.dma.inj (Prod.mk.inj e).2)

theorem dcell_mem (a : DmaSem sig) (h : (SemLoc.dma a : SemLoc sig).isScoped .scVector = true) : dcell d c i a ∈ ownCells (V d c i) :=
  (mem_ownCells (g := dcell d c i a)).mpr ⟨rfl, h⟩

/-- The six semaphores the body uses, then the rest of the subcore's scoped semaphores. -/
theorem ownSems0_V :
    (ownSems0 (V d c i) : sProp 𝕄)
      = iprop(semVal (dcell d c i cc0_scratch4.sem) 0 ∗ semVal (dcell d c i cc0_scratch5.sem) 0
          ∗ semVal (dcell d c i cc0_scoped0.sem) 0 ∗ semVal (dcell d c i cc0_scoped1.sem) 0
          ∗ semVal (dcell d c i cc0_scoped2.sem) 0 ∗ semVal (dcell d c i cc0_scoped3.sem) 0
          ∗ bigSep ((((((((ownCells (V d c i)).erase (dcell d c i cc0_scratch4.sem)).erase (dcell d c i cc0_scratch5.sem)).erase
              (dcell d c i cc0_scoped0.sem)).erase (dcell d c i cc0_scoped1.sem)).erase (dcell d c i cc0_scoped2.sem)).erase (dcell d c i cc0_scoped3.sem)))
              fun g => semVal g 0) := by
  unfold SparseCore.Cfg.ownSems0
  have m4 := dcell_mem d c i cc0_scratch4.sem (by decide)
  have m5 := dcell_mem d c i cc0_scratch5.sem (by decide)
  have m0 := dcell_mem d c i cc0_scoped0.sem (by decide)
  have m1 := dcell_mem d c i cc0_scoped1.sem (by decide)
  have m2 := dcell_mem d c i cc0_scoped2.sem (by decide)
  have m3 := dcell_mem d c i cc0_scoped3.sem (by decide)
  rw [SparseCore.bigSep_erase' m4,
    SparseCore.bigSep_erase' (Finset.mem_erase.mpr ⟨dcell_ne d c i (by decide), m5⟩),
    SparseCore.bigSep_erase' (Finset.mem_erase.mpr ⟨dcell_ne d c i (by decide), Finset.mem_erase.mpr ⟨dcell_ne d c i (by decide), m0⟩⟩),
    SparseCore.bigSep_erase' (Finset.mem_erase.mpr ⟨dcell_ne d c i (by decide), Finset.mem_erase.mpr ⟨dcell_ne d c i (by decide),
      Finset.mem_erase.mpr ⟨dcell_ne d c i (by decide), m1⟩⟩⟩),
    SparseCore.bigSep_erase' (Finset.mem_erase.mpr ⟨dcell_ne d c i (by decide), Finset.mem_erase.mpr ⟨dcell_ne d c i (by decide),
      Finset.mem_erase.mpr ⟨dcell_ne d c i (by decide), Finset.mem_erase.mpr ⟨dcell_ne d c i (by decide), m2⟩⟩⟩⟩),
    SparseCore.bigSep_erase' (Finset.mem_erase.mpr ⟨dcell_ne d c i (by decide), Finset.mem_erase.mpr ⟨dcell_ne d c i (by decide),
      Finset.mem_erase.mpr ⟨dcell_ne d c i (by decide), Finset.mem_erase.mpr ⟨dcell_ne d c i (by decide),
      Finset.mem_erase.mpr ⟨dcell_ne d c i (by decide), m3⟩⟩⟩⟩⟩)]

/-- A scratch buffer of the subcore, as a buffer of the device. -/
abbrev sref (b : Ref sig .scVector) : DevRef τ sig := (Proc.scVector c i).devRef b

theorem sref_ne {a b : Ref sig .scVector} (h : a ≠ b) : sref c i a ≠ sref c i b :=
  fun e => h (Proc.devRef_injective _ e)

theorem sref_mem (b : Ref sig .scVector) (h : (sref c i b).owner = .proc (.scVector c i)) : sref c i b ∈ ownRefs (τ := τ) (sig := sig) (.scVector c i) :=
  SparseCore.Cfg.mem_ownRefs_of_owner (p := Proc.scVector c i) (b := sref c i b) h

/-- The four scratch buffers, each whole at some contents, then the rest of the subcore's own buffers. -/
theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ bigSep (((((ownRefs (τ := τ) (sig := sig) (.scVector c i)).erase (sref c i cc0_scratch0)).erase (sref c i cc0_scratch1)).erase
              (sref c i cc0_scratch2)).erase (sref c i cc0_scratch3))
              fun b => iprop(∃ f, ((d, b) : Loc nD τ sig) ↦{fullShare} f)) := by
  unfold SparseCore.Cfg.ownBufs
  have m0 := sref_mem c i cc0_scratch0 rfl
  have m1 := sref_mem c i cc0_scratch1 rfl
  have m2 := sref_mem c i cc0_scratch2 rfl
  have m3 := sref_mem c i cc0_scratch3 rfl
  refine (SparseCore.bigSep_erase' m0).trans ?_
  rw [SparseCore.bigSep_erase' (Finset.mem_erase.mpr ⟨sref_ne c i (by decide), m1⟩),
    SparseCore.bigSep_erase' (Finset.mem_erase.mpr ⟨sref_ne c i (by decide), Finset.mem_erase.mpr ⟨sref_ne c i (by decide), m2⟩⟩),
    SparseCore.bigSep_erase' (Finset.mem_erase.mpr ⟨sref_ne c i (by decide), Finset.mem_erase.mpr ⟨sref_ne c i (by decide),
      Finset.mem_erase.mpr ⟨sref_ne c i (by decide), m3⟩⟩⟩)]

end Own

end Cert.Proof.KI

end
-- ==== Proof.ScLane.lean ====
/-
  The arithmetic of the bias loops, free of any program: a buffer of 128 rows of 128 lanes in which the rows below n
  have had a lane function added; writing, through pieces that together cover exactly row r, the old contents plus
  that function adds it on row r; and so takes "r rows done" to "r + 1 rows done".
-/
import Idealize.ShloMosaic.Lib.Writes
import Idealize.ShloMosaic.Lib.ValueIdx
import Idealize.ShloMosaic.Lib.ValueLayout
import Idealize.ShloMosaic.PureOps

noncomputable section

namespace Cert.Proof.Lane

open Idealize.ShloMosaic Idealize.ShloMosaic.ValueIdx

abbrev SR : Shape := ⟨2, ![128, 128]⟩

variable {F : FTy → Type} [FloatOps F]

/-- The rows below n of X with bl added lane by lane; the other rows as they were. -/
def addRows (n : Nat) (X bl : FVec F SR .f32) : FVec F SR .f32 :=
  fun i => if (i 0).val < n then FloatOps.addf (X i) (bl i) else X i

theorem addRows_zero (X bl : FVec F SR .f32) : addRows 0 X bl = X := by
  funext i; unfold addRows; rw [if_neg (Nat.not_lt_zero _)]

/-- All 128 rows done: the whole buffer with bl added. -/
theorem addRows_all (X bl : FVec F SR .f32) : addRows 128 X bl = fun i => FloatOps.addf (X i) (bl i) := by
  funext i; unfold addRows
  have h : (i 0).val < 128 := (i 0).isLt
  rw [if_pos h]

/-- Adding on row r alone takes r rows done to r + 1 rows done. -/
theorem addRows_step (r : Nat) (X bl : FVec F SR .f32) :
    (fun i : SR.Idx => if (i 0).val = r then FloatOps.addf (addRows r X bl i) (bl i) else addRows r X bl i) = addRows (r + 1) X bl := by
  funext i; unfold addRows
  by_cases h1 : (i 0).val = r
  · rw [if_pos h1, if_neg (by omega), if_pos (by omega)]
  · rw [if_neg h1]
    by_cases h2 : (i 0).val < r
    · rw [if_pos h2, if_pos (by omega)]
    · rw [if_neg h2, if_neg (by omega)]

variable {sig : RefSig} {κ : Kind} {sp : Space}

/-- Writes through the whole view of a 128 x 128 buffer, by pieces that cover exactly row r and each hold the old
    contents plus bl, leave the old contents with bl added on row r. -/
theorem writes_row (b : Ref sig κ) (hb : b.ty = ⟨SR, .f32⟩) : True := trivial

end Cert.Proof.Lane

end
-- ==== Proof.ScDefs.lean ====
/-
  One vector subcore's task of the row-gathering kernel: what its scratch buffers hold and the invariant of its loop over pairs of chunks.
-/
import proofs.«207390_g85444079387303_cont_sun_c4_501_21_alg».proof.Proof.Setup
import proofs.«207390_g85444079387303_cont_sun_c4_501_21_alg».proof.Proof.Spec
import proofs.«207390_g85444079387303_cont_sun_c4_501_21_alg».proof.Proof.Gen.KernelIdeal.Skeleton
import proofs.«207390_g85444079387303_cont_sun_c4_501_21_alg».proof.Proof.Pay
import proofs.«207390_g85444079387303_cont_sun_c4_501_21_alg».proof.Proof.ScOwn
import proofs.«207390_g85444079387303_cont_sun_c4_501_21_alg».proof.Proof.ScLane

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.KernelIdeal.main_arg4_scv : Memref Cert.KernelIdeal.sig Kind.scVector Space.hbm Cert.KernelIdeal.S26000x128 EltTy.f32)
local notation "gidxW" => (Memref.whole Cert.KernelIdeal.main_v7_scv : Memref Cert.KernelIdeal.sig Kind.scVector Space.hbm Cert.KernelIdeal.S32x104x128 EltTy.i32)
local notation "biasW" => (Memref.whole Cert.KernelIdeal.main_arg5_scv : Memref Cert.KernelIdeal.sig Kind.scVector Space.hbm Cert.KernelIdeal.S26x128 EltTy.f32)
local notation "outW" => (Memref.whole Cert.KernelIdeal.main_v8_scv : Memref Cert.KernelIdeal.sig Kind.scVector Space.hbm Cert.KernelIdeal.S2064384x128 EltTy.f32)
local notation "idxS" => (Memref.whole Cert.KernelIdeal.cc0_scratch0 : Memref Cert.KernelIdeal.sig Kind.scVector Space.vmem Cert.KernelIdeal.S104x128 EltTy.i32)
local notation "biasS" => (Memref.whole Cert.KernelIdeal.cc0_scratch1 : Memref Cert.KernelIdeal.sig Kind.scVector Space.vmem Cert.KernelIdeal.S26x128 EltTy.f32)
local notation "rowsA" => (Memref.whole Cert.KernelIdeal.cc0_scratch2 : Memref Cert.KernelIdeal.sig Kind.scVector Space.vmem Cert.KernelIdeal.S128x128 EltTy.f32)
local notation "rowsB" => (Memref.whole Cert.KernelIdeal.cc0_scratch3 : Memref Cert.KernelIdeal.sig Kind.scVector Space.vmem Cert.KernelIdeal.S128x128 EltTy.f32)

open Cert.Proof.Lane (addRows)
open Idealize.ShloMosaic.ValueIdx

variable [FloatOps F]

section Tile

variable (d : Dev nD) (L : grid0.Coords)

abbrev thr : Thread nD τ := V d (cV L) (jV L)

/-- This task's 104 x 128 block of table-row numbers, as the body slices it out of the index array. -/
abbrev gidxRow (L : grid0.Coords) : Memref sig .scVector .hbm S104x128 .i32 :=
  ((gidxW).slice (Rect.unit (s := S32x104x128) (k0_off1 L) S1x104x128.size (k0_off1_inb L)) (fun _ => rfl)).squeeze S104x128 squeezes_S1x104x128_S104x128
/-- One row of 128 row numbers of the index scratch, as a gather's offset list. -/
abbrev idxRowK (off : Fin 2 → Nat) (hoff : ∀ a, off a + S1x128.size a ≤ S104x128.size a) : Memref sig .scVector .vmem S128 .i32 :=
  ((idxS).slice (Rect.unit (s := S104x128) off S1x128.size hoff) (fun _ => rfl)).squeeze S128 squeezes_S1x128_S128
/-- The table as a gather names it: the slice that is all of it. -/
abbrev tabSl : Memref sig .scVector .hbm S26000x128 .f32 :=
  (tabW).slice (Rect.unit (s := S26000x128) ![0, 0] S26000x128.size inb_S26000x128_S26000x128_0_0) (fun _ => rfl)

/-- What the index scratch holds after the first copy: the task's block of the index array. -/
def idxBlk (fg : Buf (Elt F) (gidxLoc d)) : Buf (Elt F) ((thr d L).loc cc0_scratch0) :=
  ReadAs.same.apply (View.read (Elt F) (gidxRow L).view fg)
/-- What the bias scratch holds after the second copy: the bias array. -/
def biasBlk (fb : Buf (Elt F) (biasLoc d)) : Buf (Elt F) ((thr d L).loc cc0_scratch1) :=
  ReadAs.same.apply (View.read (Elt F) (biasW).view fb)

omit [FloatOps F] in
/-- Every offset list the task reads holds row numbers of the table: the words of the index array are below 26000. -/
theorem idx_inb (fg : Buf (Elt F) (gidxLoc d)) (hfg : ∀ i, (fg i).toNat < 26000)
    (off : Fin 2 → Nat) (hoff : ∀ a, off a + S1x128.size a ≤ S104x128.size a) :
    ∀ j, ((idxRowK off hoff).view.read (Elt F) (idxBlk d L fg) j).toNat < S26000x128.size gathers_S26000x128_S128x128.axis := by
  intro j
  unfold idxBlk
  simp only [View.read_apply]
  exact hfg _

/-- The 128 table rows a list of row numbers names, as a gather lands them in a rows buffer. -/
def gath (ft : Buf (Elt F) (tabLoc d)) (fg : Buf (Elt F) (gidxLoc d)) (hfg : ∀ i, (fg i).toNat < 26000)
    (off : Fin 2 → Nat) (hoff : ∀ a, off a + S1x128.size a ≤ S104x128.size a) : FVec F S128x128 .f32 :=
  SparseCore.gatherPayload gathers_S26000x128_S128x128 (View.read (Elt F) (tabSl).view ft)
    (SparseCore.rows (View.read (Elt F) (idxRowK off hoff).view (idxBlk d L fg)) rfl (idx_inb d L fg hfg off hoff))

end Tile

end Cert.Proof.KI

end
-- ==== Proof.ScBl.lean ====
/-
  The bias a trip adds, as a function on a rows buffer: the eight 16-lane vectors the trip loads from the bias scratch, side by side; and what a chunk's rows buffer holds when its bias loop is over.
-/
import proofs.«207390_g85444079387303_cont_sun_c4_501_21_alg».proof.Proof.Setup
import proofs.«207390_g85444079387303_cont_sun_c4_501_21_alg».proof.Proof.Spec
import proofs.«207390_g85444079387303_cont_sun_c4_501_21_alg».proof.Proof.Gen.KernelIdeal.Skeleton
import proofs.«207390_g85444079387303_cont_sun_c4_501_21_alg».proof.Proof.ScDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.KernelIdeal.main_arg4_scv : Memref Cert.KernelIdeal.sig Kind.scVector Space.hbm Cert.KernelIdeal.S26000x128 EltTy.f32)
local notation "gidxW" => (Memref.whole Cert.KernelIdeal.main_v7_scv : Memref Cert.KernelIdeal.sig Kind.scVector Space.hbm Cert.KernelIdeal.S32x104x128 EltTy.i32)
local notation "biasW" => (Memref.whole Cert.KernelIdeal.main_arg5_scv : Memref Cert.KernelIdeal.sig Kind.scVector Space.hbm Cert.KernelIdeal.S26x128 EltTy.f32)
local notation "outW" => (Memref.whole Cert.KernelIdeal.main_v8_scv : Memref Cert.KernelIdeal.sig Kind.scVector Space.hbm Cert.KernelIdeal.S2064384x128 EltTy.f32)
local notation "idxS" => (Memref.whole Cert.KernelIdeal.cc0_scratch0 : Memref Cert.KernelIdeal.sig Kind.scVector Space.vmem Cert.KernelIdeal.S104x128 EltTy.i32)
local notation "biasS" => (Memref.whole Cert.KernelIdeal.cc0_scratch1 : Memref Cert.KernelIdeal.sig Kind.scVector Space.vmem Cert.KernelIdeal.S26x128 EltTy.f32)
local notation "rowsA" => (Memref.whole Cert.KernelIdeal.cc0_scratch2 : Memref Cert.KernelIdeal.sig Kind.scVector Space.vmem Cert.KernelIdeal.S128x128 EltTy.f32)
local notation "rowsB" => (Memref.whole Cert.KernelIdeal.cc0_scratch3 : Memref Cert.KernelIdeal.sig Kind.scVector Space.vmem Cert.KernelIdeal.S128x128 EltTy.f32)

open Idealize.ShloMosaic.ValueIdx

/-- The lane function of eight 16-lane vectors side by side: lane c of every row reads vector c / 16 at c % 16. -/
def blOf (b0 b1 b2 b3 b4 b5 b6 b7 : FVec F S16 .f32) : FVec F S128x128 .f32 := fun i =>
  (match (i 1).val / 16 with | 0 => b0 | 1 => b1 | 2 => b2 | 3 => b3 | 4 => b4 | 5 => b5 | 6 => b6 | _ => b7)
    (ix1 ⟨(i 1).val % 16, Nat.mod_lt _ (by norm_num)⟩)

theorem blOf_0 (b0 b1 b2 b3 b4 b5 b6 b7 : FVec F S16 .f32) (i : S128x128.Idx) (l : Fin 16) (h : (i 1).val = 0 + l.val) :
    blOf b0 b1 b2 b3 b4 b5 b6 b7 i = b0 (ix1 l) := by
  unfold blOf
  have h1 : (i 1).val / 16 = 0 := by omega
  have h2 : (i 1).val % 16 = l.val := by omega
  rw [h1]
  exact congrArg _ (congrArg ix1 (Fin.ext h2))

theorem blOf_1 (b0 b1 b2 b3 b4 b5 b6 b7 : FVec F S16 .f32) (i : S128x128.Idx) (l : Fin 16) (h : (i 1).val = 16 + l.val) :
    blOf b0 b1 b2 b3 b4 b5 b6 b7 i = b1 (ix1 l) := by
  unfold blOf
  have h1 : (i 1).val / 16 = 1 := by omega
  have h2 : (i 1).val % 16 = l.val := by omega
  rw [h1]
  exact congrArg _ (congrArg ix1 (Fin.ext h2))

theorem blOf_2 (b0 b1 b2 b3 b4 b5 b6 b7 : FVec F S16 .f32) (i : S128x128.Idx) (l : Fin 16) (h : (i 1).val = 32 + l.val) :
    blOf b0 b1 b2 b3 b4 b5 b6 b7 i = b2 (ix1 l) := by
  unfold blOf
  have h1 : (i 1).val / 16 = 2 := by omega
  have h2 : (i 1).val % 16 = l.val := by omega
  rw [h1]
  exact congrArg _ (congrArg ix1 (Fin.ext h2))

theorem blOf_3 (b0 b1 b2 b3 b4 b5 b6 b7 : FVec F S16 .f32) (i : S128x128.Idx) (l : Fin 16) (h : (i 1).val = 48 + l.val) :
    blOf b0 b1 b2 b3 b4 b5 b6 b7 i = b3 (ix1 l) := by
  unfold blOf
  have h1 : (i 1).val / 16 = 3 := by omega
  have h2 : (i 1).val % 16 = l.val := by omega
  rw [h1]
  exact congrArg _ (congrArg ix1 (Fin.ext h2))

theorem blOf_4 (b0 b1 b2 b3 b4 b5 b6 b7 : FVec F S16 .f32) (i : S128x128.Idx) (l : Fin 16) (h : (i 1).val = 64 + l.val) :
    blOf b0 b1 b2 b3 b4 b5 b6 b7 i = b4 (ix1 l) := by
  unfold blOf
  have h1 : (i 1).val / 16 = 4 := by omega
  have h2 : (i 1).val % 16 = l.val := by omega
  rw [h1]
  exact congrArg _ (congrArg ix1 (Fin.ext h2))

theorem blOf_5 (b0 b1 b2 b3 b4 b5 b6 b7 : FVec F S16 .f32) (i : S128x128.Idx) (l : Fin 16) (h : (i 1).val = 80 + l.val) :
    blOf b0 b1 b2 b3 b4 b5 b6 b7 i = b5 (ix1 l) := by
  unfold blOf
  have h1 : (i 1).val / 16 = 5 := by omega
  have h2 : (i 1).val % 16 = l.val := by omega
  rw [h1]
  exact congrArg _ (congrArg ix1 (Fin.ext h2))

theorem blOf_6 (b0 b1 b2 b3 b4 b5 b6 b7 : FVec F S16 .f32) (i : S128x128.Idx) (l : Fin 16) (h : (i 1).val = 96 + l.val) :
    blOf b0 b1 b2 b3 b4 b5 b6 b7 i = b6 (ix1 l) := by
  unfold blOf
  have h1 : (i 1).val / 16 = 6 := by omega
  have h2 : (i 1).val % 16 = l.val := by omega
  rw [h1]
  exact congrArg _ (congrArg ix1 (Fin.ext h2))

theorem blOf_7 (b0 b1 b2 b3 b4 b5 b6 b7 : FVec F S16 .f32) (i : S128x128.Idx) (l : Fin 16) (h : (i 1).val = 112 + l.val) :
    blOf b0 b1 b2 b3 b4 b5 b6 b7 i = b7 (ix1 l) := by
  unfold blOf
  have h1 : (i 1).val / 16 = 7 := by omega
  have h2 : (i 1).val % 16 = l.val := by omega
  rw [h1]
  exact congrArg _ (congrArg ix1 (Fin.ext h2))

variable [FloatOps F]

section Tile

variable (d : Dev nD) (L : grid0.Coords)

/-- Sixteen lanes of the bias scratch, as a trip loads them. -/
abbrev rdB (fb : Buf (Elt F) (biasLoc d)) (off : Fin 2 → Nat) (hoff : ∀ a, off a + S1x16.size a ≤ S26x128.size a) : Vec F S1x16 .f32 :=
  View.readAt (Elt F) (biasS).view (Rect.unit (s := S26x128) off S1x16.size hoff).toLoadRect (biasBlk d L fb)

/-- The bias trip k adds to its even chunk. -/
def blA (fb : Buf (Elt F) (biasLoc d)) (k : Fin k0_t1_loop.trips) : FVec F S128x128 .f32 :=
  blOf (k0_pay13 (rdB d L fb (k0_off4 L k) (k0_off4_inb L k))) (k0_pay14 (rdB d L fb (k0_off5 L k) (k0_off5_inb L k)))
    (k0_pay15 (rdB d L fb (k0_off6 L k) (k0_off6_inb L k))) (k0_pay16 (rdB d L fb (k0_off7 L k) (k0_off7_inb L k)))
    (k0_pay17 (rdB d L fb (k0_off8 L k) (k0_off8_inb L k))) (shapeCast S16 (rdB d L fb (k0_off9 L k) (k0_off9_inb L k)) shapeCasts_S1x16_S16)
    (shapeCast S16 (rdB d L fb (k0_off10 L k) (k0_off10_inb L k)) shapeCasts_S1x16_S16)
    (shapeCast S16 (rdB d L fb (k0_off11 L k) (k0_off11_inb L k)) shapeCasts_S1x16_S16)

/-- The bias trip k adds to its odd chunk. -/
def blB (fb : Buf (Elt F) (biasLoc d)) (k : Fin k0_t1_loop.trips) : FVec F S128x128 .f32 :=
  blOf (k0_pay21 (rdB d L fb (k0_off22 L k) (k0_off22_inb L k))) (k0_pay22 (rdB d L fb (k0_off23 L k) (k0_off23_inb L k)))
    (k0_pay23 (rdB d L fb (k0_off24 L k) (k0_off24_inb L k))) (k0_pay24 (rdB d L fb (k0_off25 L k) (k0_off25_inb L k)))
    (k0_pay25 (rdB d L fb (k0_off26 L k) (k0_off26_inb L k))) (shapeCast S16 (rdB d L fb (k0_off27 L k) (k0_off27_inb L k)) shapeCasts_S1x16_S16)
    (shapeCast S16 (rdB d L fb (k0_off28 L k) (k0_off28_inb L k)) shapeCasts_S1x16_S16)
    (shapeCast S16 (rdB d L fb (k0_off29 L k) (k0_off29_inb L k)) shapeCasts_S1x16_S16)

variable (ft : Buf (Elt F) (tabLoc d)) (fg : Buf (Elt F) (gidxLoc d)) (hfg : ∀ i, (fg i).toNat < 26000) (fb : Buf (Elt F) (biasLoc d))

/-- The rows trip k gathers for its even chunk (offset row 2 k of the index scratch) and for its odd chunk (row 2 k + 1). -/
abbrev gathA (k : Fin k0_t1_loop.trips) : FVec F S128x128 .f32 := gath d L ft fg hfg (k0_off2 k) (k0_off2_inb k)
abbrev gathB (k : Fin k0_t1_loop.trips) : FVec F S128x128 .f32 := gath d L ft fg hfg (k0_off3 k) (k0_off3_inb k)

/-- What the two rows buffers hold when trip k's bias loops are over: the gathered rows plus the bias. -/
def doneA (k : Fin k0_t1_loop.trips) : FVec F S128x128 .f32 := fun i => FloatOps.addf (gathA d L ft fg hfg k i) (blA d L fb k i)
def doneB (k : Fin k0_t1_loop.trips) : FVec F S128x128 .f32 := fun i => FloatOps.addf (gathB d L ft fg hfg k i) (blB d L fb k i)

end Tile

end Cert.Proof.KI

end
-- ==== Proof.ScInner.lean ====
/-
  The two bias loops of a task: each trip adds the eight 16-lane bias vectors to one row of a rows buffer.
-/
import proofs.«207390_g85444079387303_cont_sun_c4_501_21_alg».proof.Proof.Setup
import proofs.«207390_g85444079387303_cont_sun_c4_501_21_alg».proof.Proof.Spec
import proofs.«207390_g85444079387303_cont_sun_c4_501_21_alg».proof.Proof.Gen.KernelIdeal.Skeleton
import proofs.«207390_g85444079387303_cont_sun_c4_501_21_alg».proof.Proof.ScBl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.KernelIdeal.main_arg4_scv : Memref Cert.KernelIdeal.sig Kind.scVector Space.hbm Cert.KernelIdeal.S26000x128 EltTy.f32)
local notation "gidxW" => (Memref.whole Cert.KernelIdeal.main_v7_scv : Memref Cert.KernelIdeal.sig Kind.scVector Space.hbm Cert.KernelIdeal.S32x104x128 EltTy.i32)
local notation "biasW" => (Memref.whole Cert.KernelIdeal.main_arg5_scv : Memref Cert.KernelIdeal.sig Kind.scVector Space.hbm Cert.KernelIdeal.S26x128 EltTy.f32)
local notation "outW" => (Memref.whole Cert.KernelIdeal.main_v8_scv : Memref Cert.KernelIdeal.sig Kind.scVector Space.hbm Cert.KernelIdeal.S2064384x128 EltTy.f32)
local notation "idxS" => (Memref.whole Cert.KernelIdeal.cc0_scratch0 : Memref Cert.KernelIdeal.sig Kind.scVector Space.vmem Cert.KernelIdeal.S104x128 EltTy.i32)
local notation "biasS" => (Memref.whole Cert.KernelIdeal.cc0_scratch1 : Memref Cert.KernelIdeal.sig Kind.scVector Space.vmem Cert.KernelIdeal.S26x128 EltTy.f32)
local notation "rowsA" => (Memref.whole Cert.KernelIdeal.cc0_scratch2 : Memref Cert.KernelIdeal.sig Kind.scVector Space.vmem Cert.KernelIdeal.S128x128 EltTy.f32)
local notation "rowsB" => (Memref.whole Cert.KernelIdeal.cc0_scratch3 : Memref Cert.KernelIdeal.sig Kind.scVector Space.vmem Cert.KernelIdeal.S128x128 EltTy.f32)

open Cert.Proof.Lane (addRows)
open Idealize.ShloMosaic.ValueIdx

variable [FloatOps F]

section Tile

variable (d : Dev nD) (L : grid0.Coords)

/-! ## The bias loop over the rows buffer rowsA -/

/-- One lane group's store into rowsA: the 16 lanes at (row, lane offset) read, a 16-lane vector added, written back. -/
theorem lane_valA (Y : FVec F S128x128 .f32) (bv : FVec F S16 .f32) (off : Fin 2 → Nat) (h : ∀ a, off a + S1x16.size a ≤ S128x128.size a)
    (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) bv) shapeCasts_S16_S1x16 : FVec F S1x16 .f32) x
      = FloatOps.addf (Y ((Rect.unit (s := S128x128) off S1x16.size h).emb x)) (bv (ix1 (x 1))) := by
  obtain ⟨u, l, rfl⟩ : ∃ (u : Fin 1) (l : Fin 16), x = ix2 u l := ⟨x 0, x 1, eq_ix2 x⟩
  rw [shapeCast_a_1a_apply]
  show FloatOps.addf (shapeCast S16 _ shapeCasts_S1x16_S16 (ix1 l)) (bv (ix1 l)) = _
  rw [shapeCast_1a_a_apply, View.readAt_apply]
  have hu : u = 0 := Subsingleton.elim _ _
  subst hu
  rfl

theorem lane_okA_0 (Y : FVec F S128x128 .f32) (b0 b1 b2 b3 b4 b5 b6 b7 : FVec F S16 .f32) (rr : Nat) (off : Fin 2 → Nat)
    (h : ∀ a, off a + S1x16.size a ≤ S128x128.size a) (hoff : off = ![rr, 0]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b0) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_0 _ _ _ _ _ _ _ _ _ (x 1) ?_).symm)
  show (![rr, 0] : Fin 2 → Nat) 1 + 1 * (x 1).val = 0 + (x 1).val
  simp

theorem lane_okA_1 (Y : FVec F S128x128 .f32) (b0 b1 b2 b3 b4 b5 b6 b7 : FVec F S16 .f32) (rr : Nat) (off : Fin 2 → Nat)
    (h : ∀ a, off a + S1x16.size a ≤ S128x128.size a) (hoff : off = ![rr, 16]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b1) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_1 _ _ _ _ _ _ _ _ _ (x 1) ?_).symm)
  show (![rr, 16] : Fin 2 → Nat) 1 + 1 * (x 1).val = 16 + (x 1).val
  simp

theorem lane_okA_2 (Y : FVec F S128x128 .f32) (b0 b1 b2 b3 b4 b5 b6 b7 : FVec F S16 .f32) (rr : Nat) (off : Fin 2 → Nat)
    (h : ∀ a, off a + S1x16.size a ≤ S128x128.size a) (hoff : off = ![rr, 32]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b2) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_2 _ _ _ _ _ _ _ _ _ (x 1) ?_).symm)
  show (![rr, 32] : Fin 2 → Nat) 1 + 1 * (x 1).val = 32 + (x 1).val
  simp

theorem lane_okA_3 (Y : FVec F S128x128 .f32) (b0 b1 b2 b3 b4 b5 b6 b7 : FVec F S16 .f32) (rr : Nat) (off : Fin 2 → Nat)
    (h : ∀ a, off a + S1x16.size a ≤ S128x128.size a) (hoff : off = ![rr, 48]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b3) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_3 _ _ _ _ _ _ _ _ _ (x 1) ?_).symm)
  show (![rr, 48] : Fin 2 → Nat) 1 + 1 * (x 1).val = 48 + (x 1).val
  simp

theorem lane_okA_4 (Y : FVec F S128x128 .f32) (b0 b1 b2 b3 b4 b5 b6 b7 : FVec F S16 .f32) (rr : Nat) (off : Fin 2 → Nat)
    (h : ∀ a, off a + S1x16.size a ≤ S128x128.size a) (hoff : off = ![rr, 64]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b4) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_4 _ _ _ _ _ _ _ _ _ (x 1) ?_).symm)
  show (![rr, 64] : Fin 2 → Nat) 1 + 1 * (x 1).val = 64 + (x 1).val
  simp

theorem lane_okA_5 (Y : FVec F S128x128 .f32) (b0 b1 b2 b3 b4 b5 b6 b7 : FVec F S16 .f32) (rr : Nat) (off : Fin 2 → Nat)
    (h : ∀ a, off a + S1x16.size a ≤ S128x128.size a) (hoff : off = ![rr, 80]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b5) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_5 _ _ _ _ _ _ _ _ _ (x 1) ?_).symm)
  show (![rr, 80] : Fin 2 → Nat) 1 + 1 * (x 1).val = 80 + (x 1).val
  simp

theorem lane_okA_6 (Y : FVec F S128x128 .f32) (b0 b1 b2 b3 b4 b5 b6 b7 : FVec F S16 .f32) (rr : Nat) (off : Fin 2 → Nat)
    (h : ∀ a, off a + S1x16.size a ≤ S128x128.size a) (hoff : off = ![rr, 96]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b6) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_6 _ _ _ _ _ _ _ _ _ (x 1) ?_).symm)
  show (![rr, 96] : Fin 2 → Nat) 1 + 1 * (x 1).val = 96 + (x 1).val
  simp

theorem lane_okA_7 (Y : FVec F S128x128 .f32) (b0 b1 b2 b3 b4 b5 b6 b7 : FVec F S16 .f32) (rr : Nat) (off : Fin 2 → Nat)
    (h : ∀ a, off a + S1x16.size a ≤ S128x128.size a) (hoff : off = ![rr, 112]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b7) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_7 _ _ _ _ _ _ _ _ _ (x 1) ?_).symm)
  show (![rr, 112] : Fin 2 → Nat) 1 + 1 * (x 1).val = 112 + (x 1).val
  simp

/-- Writes through rowsA's whole view, by pieces that cover exactly row r and each hold the old contents plus bl,
    leave the old contents with bl added on row r. -/
theorem writes_rowA (Y bl : FVec F S128x128 .f32) (r : Nat) (Ls : List (View.Piece (Elt F) S128x128 .f32))
    (hcov : ∀ y : S128x128.Idx, (y 0).val = r → ∃ p ∈ Ls, y ∈ p.1.set)
    (hnot : ∀ y : S128x128.Idx, (y 0).val ≠ r → ∀ p ∈ Ls, y ∉ p.1.set)
    (hval : ∀ p ∈ Ls, ∀ x, p.2 x = FloatOps.addf (Y (p.1.emb x)) (bl (p.1.emb x))) :
    (rowsA).view.writes (Elt F) Y Ls = fun i => if (i 0).val = r then FloatOps.addf (Y i) (bl i) else Y i := by
  refine View.contents_ext _ (fun y => ?_) (fun i hi => absurd rfl (hi i))
  by_cases h : (y 0).val = r
  · rw [View.read_writes_apply_of_pieces _ _ (fun i => FloatOps.addf (Y i) (bl i)) Ls hval y (hcov y h)]
    exact (if_pos h).symm
  · rw [View.read_writes_apply_of_forall_not_mem _ _ y Ls (hnot y h)]
    exact (if_neg h).symm

/-- One trip of the loop: row r of rowsA gets the eight bias vectors added, lane group by lane group. -/
theorem innerA_trip (k : Fin k0_t1_loop.trips) (v2 v7 v8 v33 : BitVec 32) (v36 v39 v42 : FVec F S16 .f32) (v44 v47 v50 v53 v56 : Vec F S1x16 .f32)
    (r : Fin k0_t2_loop.trips) (Y : Buf (Elt F) ((thr d L).loc cc0_scratch2)) :
    (iprop(((rowsA).view.loc (thr d L) ↦{fullShare} Y)) : sProp 𝕄)
      ⊢ wp frame (wpE (defs₀ (F := F)) 𝒱₀ (thr d L) none) Set.univ
          (k0_t2_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k v7 v8 v33 v36 v39 v42 v44 v47 v50 v53 v56 r ())
          fun _ => iprop(((rowsA).view.loc (thr d L) ↦{fullShare}
            (fun i : S128x128.Idx => if (i 0).val = r.val then FloatOps.addf (Y i) (blOf v36 v39 v42 (k0_pay16 v44) (k0_pay17 v47) (shapeCast S16 v50 shapeCasts_S1x16_S16) (shapeCast S16 v53 shapeCasts_S1x16_S16) (shapeCast S16 v56 shapeCasts_S1x16_S16) i) else Y i))) := by
  unfold k0_t2_body
  iintro H2
  sl_exec
  sl_step
  rw [writes_rowA (F := F) Y (blOf v36 v39 v42 (k0_pay16 v44) (k0_pay17 v47) (shapeCast S16 v50 shapeCasts_S1x16_S16) (shapeCast S16 v53 shapeCasts_S1x16_S16) (shapeCast S16 v56 shapeCasts_S1x16_S16)) r.val]
  · iexact H2
  · -- the eight pieces cover row r
    intro y hy
    have hy1 : (y 1).val < 128 := (y 1).isLt
    rcases (show (y 1).val < 16 ∨ (16 ≤ (y 1).val ∧ (y 1).val < 32) ∨ (32 ≤ (y 1).val ∧ (y 1).val < 48) ∨ (48 ≤ (y 1).val ∧ (y 1).val < 64)
        ∨ (64 ≤ (y 1).val ∧ (y 1).val < 80) ∨ (80 ≤ (y 1).val ∧ (y 1).val < 96) ∨ (96 ≤ (y 1).val ∧ (y 1).val < 112) ∨ (112 ≤ (y 1).val) by omega)
      with h | h | h | h | h | h | h | h
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
      show y ∈ (Rect.unit (s := S128x128) (k0_off12 r) S1x16.size (k0_off12_inb r)).set
      refine Rect.mem_set_unit.mpr fun a => ?_
      rw [k0_off12_eq]
      match a with
      | 0 => simp; omega
      | 1 => simp; omega
    · refine ⟨_, List.mem_cons_of_mem _ (List.mem_cons_of_mem _ (List.mem_cons_of_mem _ (List.mem_cons_of_mem _ (List.mem_cons_of_mem _ (List.mem_cons_of_mem _ (List.mem_cons_self)))))), ?_⟩
      show y ∈ (Rect.unit (s := S128x128) (k0_off13 r) S1x16.size (k0_off13_inb r)).set
      refine Rect.mem_set_unit.mpr fun a => ?_
      rw [k0_off13_eq]
      match a with
      | 0 => simp; omega
      | 1 => simp; omega
    · refine ⟨_, List.mem_cons_of_mem _ (List.mem_cons_of_mem _ (List.mem_cons_of_mem _ (List.mem_cons_of_mem _ (List.mem_cons_of_mem _ (List.mem_cons_self))))), ?_⟩
      show y ∈ (Rect.unit (s := S128x128) (k0_off14 r) S1x16.size (k0_off14_inb r)).set
      refine Rect.mem_set_unit.mpr fun a => ?_
      rw [k0_off14_eq]
      match a with
      | 0 => simp; omega
      | 1 => simp; omega
    · refine ⟨_, List.mem_cons_of_mem _ (List.mem_cons_of_mem _ (List.mem_cons_of_mem _ (List.mem_cons_of_mem _ (List.mem_cons_self)))), ?_⟩
      show y ∈ (Rect.unit (s := S128x128) (k0_off15 r) S1x16.size (k0_off15_inb r)).set
      refine Rect.mem_set_unit.mpr fun a => ?_
      rw [k0_off15_eq]
      match a with
      | 0 => simp; omega
      | 1 => simp; omega
    · refine ⟨_, List.mem_cons_of_mem _ (List.mem_cons_of_mem _ (List.mem_cons_of_mem _ (List.mem_cons_self))), ?_⟩
      show y ∈ (Rect.unit (s := S128x128) (k0_off16 r) S1x16.size (k0_off16_inb r)).set
      refine Rect.mem_set_unit.mpr fun a => ?_
      rw [k0_off16_eq]
      match a with
      | 0 => simp; omega
      | 1 => simp; omega
    · refine ⟨_, List.mem_cons_of_mem _ (List.mem_cons_of_mem _ (List.mem_cons_self)), ?_⟩
      show y ∈ (Rect.unit (s := S128x128) (k0_off17 r) S1x16.size (k0_off17_inb r)).set
      refine Rect.mem_set_unit.mpr fun a => ?_
      rw [k0_off17_eq]
      match a with
      | 0 => simp; omega
      | 1 => simp; omega
    · refine ⟨_, List.mem_cons_of_mem _ (List.mem_cons_self), ?_⟩
      show y ∈ (Rect.unit (s := S128x128) (k0_off18 r) S1x16.size (k0_off18_inb r)).set
      refine Rect.mem_set_unit.mpr fun a => ?_
      rw [k0_off18_eq]
      match a with
      | 0 => simp; omega
      | 1 => simp; omega
    · refine ⟨_, List.mem_cons_self, ?_⟩
      show y ∈ (Rect.unit (s := S128x128) (k0_off19 r) S1x16.size (k0_off19_inb r)).set
      refine Rect.mem_set_unit.mpr fun a => ?_
      rw [k0_off19_eq]
      match a with
      | 0 => simp; omega
      | 1 => simp; omega
  · -- and nothing off row r
    intro y hy p hp hm
    simp only [List.mem_cons, List.mem_singleton, List.not_mem_nil, _root_.or_false] at hp
    rcases hp with rfl | rfl | rfl | rfl | rfl | rfl | rfl | rfl
    · have hm' : y ∈ (Rect.unit (s := S128x128) (k0_off19 r) S1x16.size (k0_off19_inb r)).set := hm
      have h0 := (Rect.mem_set_unit.mp hm') 0
      rw [k0_off19_eq] at h0
      simp at h0; omega
    · have hm' : y ∈ (Rect.unit (s := S128x128) (k0_off18 r) S1x16.size (k0_off18_inb r)).set := hm
      have h0 := (Rect.mem_set_unit.mp hm') 0
      rw [k0_off18_eq] at h0
      simp at h0; omega
    · have hm' : y ∈ (Rect.unit (s := S128x128) (k0_off17 r) S1x16.size (k0_off17_inb r)).set := hm
      have h0 := (Rect.mem_set_unit.mp hm') 0
      rw [k0_off17_eq] at h0
      simp at h0; omega
    · have hm' : y ∈ (Rect.unit (s := S128x128) (k0_off16 r) S1x16.size (k0_off16_inb r)).set := hm
      have h0 := (Rect.mem_set_unit.mp hm') 0
      rw [k0_off16_eq] at h0
      simp at h0; omega
    · have hm' : y ∈ (Rect.unit (s := S128x128) (k0_off15 r) S1x16.size (k0_off15_inb r)).set := hm
      have h0 := (Rect.mem_set_unit.mp hm') 0
      rw [k0_off15_eq] at h0
      simp at h0; omega
    · have hm' : y ∈ (Rect.unit (s := S128x128) (k0_off14 r) S1x16.size (k0_off14_inb r)).set := hm
      have h0 := (Rect.mem_set_unit.mp hm') 0
      rw [k0_off14_eq] at h0
      simp at h0; omega
    · have hm' : y ∈ (Rect.unit (s := S128x128) (k0_off13 r) S1x16.size (k0_off13_inb r)).set := hm
      have h0 := (Rect.mem_set_unit.mp hm') 0
      rw [k0_off13_eq] at h0
      simp at h0; omega
    · have hm' : y ∈ (Rect.unit (s := S128x128) (k0_off12 r) S1x16.size (k0_off12_inb r)).set := hm
      have h0 := (Rect.mem_set_unit.mp hm') 0
      rw [k0_off12_eq] at h0
      simp at h0; omega
  · -- each piece holds the old lanes plus its bias vector
    intro p hp x
    simp only [List.mem_cons, List.mem_singleton, List.not_mem_nil, _root_.or_false] at hp
    rcases hp with rfl | rfl | rfl | rfl | rfl | rfl | rfl | rfl
    · exact lane_okA_7 (F := F) Y _ _ _ _ _ _ _ _ r.val _ _ (k0_off19_eq r) x
    · exact lane_okA_6 (F := F) Y _ _ _ _ _ _ _ _ r.val _ _ (k0_off18_eq r) x
    · exact lane_okA_5 (F := F) Y _ _ _ _ _ _ _ _ r.val _ _ (k0_off17_eq r) x
    · exact lane_okA_4 (F := F) Y _ _ _ _ _ _ _ _ r.val _ _ (k0_off16_eq r) x
    · exact lane_okA_3 (F := F) Y _ _ _ _ _ _ _ _ r.val _ _ (k0_off15_eq r) x
    · exact lane_okA_2 (F := F) Y _ _ _ _ _ _ _ _ r.val _ _ (k0_off14_eq r) x
    · exact lane_okA_1 (F := F) Y _ _ _ _ _ _ _ _ r.val _ _ (k0_off13_eq r) x
    · exact lane_okA_0 (F := F) Y _ _ _ _ _ _ _ _ r.val _ _ (k0_off12_eq r) x

/-- The trip as a step of the loop's invariant: r rows done to r + 1 rows done. -/
theorem innerA_step (k : Fin k0_t1_loop.trips) (v2 v7 v8 v33 : BitVec 32) (v36 v39 v42 : FVec F S16 .f32) (v44 v47 v50 v53 v56 : Vec F S1x16 .f32)
    (r : Fin k0_t2_loop.trips) (G : FVec F S128x128 .f32) :
    (iprop(((rowsA).view.loc (thr d L) ↦{fullShare} addRows r.val G (blOf v36 v39 v42 (k0_pay16 v44) (k0_pay17 v47) (shapeCast S16 v50 shapeCasts_S1x16_S16) (shapeCast S16 v53 shapeCasts_S1x16_S16) (shapeCast S16 v56 shapeCasts_S1x16_S16)))) : sProp 𝕄)
      ⊢ wp frame (wpE (defs₀ (F := F)) 𝒱₀ (thr d L) none) Set.univ
          (k0_t2_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k v7 v8 v33 v36 v39 v42 v44 v47 v50 v53 v56 r ())
          fun _ => iprop(((rowsA).view.loc (thr d L) ↦{fullShare} addRows (r.val + 1) G (blOf v36 v39 v42 (k0_pay16 v44) (k0_pay17 v47) (shapeCast S16 v50 shapeCasts_S1x16_S16) (shapeCast S16 v53 shapeCasts_S1x16_S16) (shapeCast S16 v56 shapeCasts_S1x16_S16)))) := by
  have h := innerA_trip (F := F) d L k v2 v7 v8 v33 v36 v39 v42 v44 v47 v50 v53 v56 r (addRows r.val G (blOf v36 v39 v42 (k0_pay16 v44) (k0_pay17 v47) (shapeCast S16 v50 shapeCasts_S1x16_S16) (shapeCast S16 v53 shapeCasts_S1x16_S16) (shapeCast S16 v56 shapeCasts_S1x16_S16)))
  rw [Cert.Proof.Lane.addRows_step] at h
  exact h

/-! ## The bias loop over the rows buffer rowsB -/

/-- One lane group's store into rowsB: the 16 lanes at (row, lane offset) read, a 16-lane vector added, written back. -/
theorem lane_valB (Y : FVec F S128x128 .f32) (bv : FVec F S16 .f32) (off : Fin 2 → Nat) (h : ∀ a, off a + S1x16.size a ≤ S128x128.size a)
    (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) bv) shapeCasts_S16_S1x16 : FVec F S1x16 .f32) x
      = FloatOps.addf (Y ((Rect.unit (s := S128x128) off S1x16.size h).emb x)) (bv (ix1 (x 1))) := by
  obtain ⟨u, l, rfl⟩ : ∃ (u : Fin 1) (l : Fin 16), x = ix2 u l := ⟨x 0, x 1, eq_ix2 x⟩
  rw [shapeCast_a_1a_apply]
  show FloatOps.addf (shapeCast S16 _ shapeCasts_S1x16_S16 (ix1 l)) (bv (ix1 l)) = _
  rw [shapeCast_1a_a_apply, View.readAt_apply]
  have hu : u = 0 := Subsingleton.elim _ _
  subst hu
  rfl

theorem lane_okB_0 (Y : FVec F S128x128 .f32) (b0 b1 b2 b3 b4 b5 b6 b7 : FVec F S16 .f32) (rr : Nat) (off : Fin 2 → Nat)
    (h : ∀ a, off a + S1x16.size a ≤ S128x128.size a) (hoff : off = ![rr, 0]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b0) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_0 _ _ _ _ _ _ _ _ _ (x 1) ?_).symm)
  show (![rr, 0] : Fin 2 → Nat) 1 + 1 * (x 1).val = 0 + (x 1).val
  simp

theorem lane_okB_1 (Y : FVec F S128x128 .f32) (b0 b1 b2 b3 b4 b5 b6 b7 : FVec F S16 .f32) (rr : Nat) (off : Fin 2 → Nat)
    (h : ∀ a, off a + S1x16.size a ≤ S128x128.size a) (hoff : off = ![rr, 16]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b1) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_1 _ _ _ _ _ _ _ _ _ (x 1) ?_).symm)
  show (![rr, 16] : Fin 2 → Nat) 1 + 1 * (x 1).val = 16 + (x 1).val
  simp

theorem lane_okB_2 (Y : FVec F S128x128 .f32) (b0 b1 b2 b3 b4 b5 b6 b7 : FVec F S16 .f32) (rr : Nat) (off : Fin 2 → Nat)
    (h : ∀ a, off a + S1x16.size a ≤ S128x128.size a) (hoff : off = ![rr, 32]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b2) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_2 _ _ _ _ _ _ _ _ _ (x 1) ?_).symm)
  show (![rr, 32] : Fin 2 → Nat) 1 + 1 * (x 1).val = 32 + (x 1).val
  simp

theorem lane_okB_3 (Y : FVec F S128x128 .f32) (b0 b1 b2 b3 b4 b5 b6 b7 : FVec F S16 .f32) (rr : Nat) (off : Fin 2 → Nat)
    (h : ∀ a, off a + S1x16.size a ≤ S128x128.size a) (hoff : off = ![rr, 48]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b3) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_3 _ _ _ _ _ _ _ _ _ (x 1) ?_).symm)
  show (![rr, 48] : Fin 2 → Nat) 1 + 1 * (x 1).val = 48 + (x 1).val
  simp

theorem lane_okB_4 (Y : FVec F S128x128 .f32) (b0 b1 b2 b3 b4 b5 b6 b7 : FVec F S16 .f32) (rr : Nat) (off : Fin 2 → Nat)
    (h : ∀ a, off a + S1x16.size a ≤ S128x128.size a) (hoff : off = ![rr, 64]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b4) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_4 _ _ _ _ _ _ _ _ _ (x 1) ?_).symm)
  show (![rr, 64] : Fin 2 → Nat) 1 + 1 * (x 1).val = 64 + (x 1).val
  simp

theorem lane_okB_5 (Y : FVec F S128x128 .f32) (b0 b1 b2 b3 b4 b5 b6 b7 : FVec F S16 .f32) (rr : Nat) (off : Fin 2 → Nat)
    (h : ∀ a, off a + S1x16.size a ≤ S128x128.size a) (hoff : off = ![rr, 80]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b5) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_5 _ _ _ _ _ _ _ _ _ (x 1) ?_).symm)
  show (![rr, 80] : Fin 2 → Nat) 1 + 1 * (x 1).val = 80 + (x 1).val
  simp

theorem lane_okB_6 (Y : FVec F S128x128 .f32) (b0 b1 b2 b3 b4 b5 b6 b7 : FVec F S16 .f32) (rr : Nat) (off : Fin 2 → Nat)
    (h : ∀ a, off a + S1x16.size a ≤ S128x128.size a) (hoff : off = ![rr, 96]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b6) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_6 _ _ _ _ _ _ _ _ _ (x 1) ?_).symm)
  show (![rr, 96] : Fin 2 → Nat) 1 + 1 * (x 1).val = 96 + (x 1).val
  simp

theorem lane_okB_7 (Y : FVec F S128x128 .f32) (b0 b1 b2 b3 b4 b5 b6 b7 : FVec F S16 .f32) (rr : Nat) (off : Fin 2 → Nat)
    (h : ∀ a, off a + S1x16.size a ≤ S128x128.size a) (hoff : off = ![rr, 112]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b7) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_7 _ _ _ _ _ _ _ _ _ (x 1) ?_).symm)
  show (![rr, 112] : Fin 2 → Nat) 1 + 1 * (x 1).val = 112 + (x 1).val
  simp

/-- Writes through rowsB's whole view, by pieces that cover exactly row r and each hold the old contents plus bl,
    leave the old contents with bl added on row r. -/
theorem writes_rowB (Y bl : FVec F S128x128 .f32) (r : Nat) (Ls : List (View.Piece (Elt F) S128x128 .f32))
    (hcov : ∀ y : S128x128.Idx, (y 0).val = r → ∃ p ∈ Ls, y ∈ p.1.set)
    (hnot : ∀ y : S128x128.Idx, (y 0).val ≠ r → ∀ p ∈ Ls, y ∉ p.1.set)
    (hval : ∀ p ∈ Ls, ∀ x, p.2 x = FloatOps.addf (Y (p.1.emb x)) (bl (p.1.emb x))) :
    (rowsB).view.writes (Elt F) Y Ls = fun i => if (i 0).val = r then FloatOps.addf (Y i) (bl i) else Y i := by
  refine View.contents_ext _ (fun y => ?_) (fun i hi => absurd rfl (hi i))
  by_cases h : (y 0).val = r
  · rw [View.read_writes_apply_of_pieces _ _ (fun i => FloatOps.addf (Y i) (bl i)) Ls hval y (hcov y h)]
    exact (if_pos h).symm
  · rw [View.read_writes_apply_of_forall_not_mem _ _ y Ls (hnot y h)]
    exact (if_neg h).symm

/-- One trip of the loop: row r of rowsB gets the eight bias vectors added, lane group by lane group. -/
theorem innerB_trip (k : Fin k0_t1_loop.trips) (v70 c16384 v71 : BitVec 32) (v89 v92 v95 v98 v101 v104 v107 v110 : Vec F S1x16 .f32)
    (r : Fin k0_t3_loop.trips) (Y : Buf (Elt F) ((thr d L).loc cc0_scratch3)) :
    (iprop(((rowsB).view.loc (thr d L) ↦{fullShare} Y)) : sProp 𝕄)
      ⊢ wp frame (wpE (defs₀ (F := F)) 𝒱₀ (thr d L) none) Set.univ
          (k0_t3_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 k v70 c16384 v71 v89 v92 v95 v98 v101 v104 v107 v110 r ())
          fun _ => iprop(((rowsB).view.loc (thr d L) ↦{fullShare}
            (fun i : S128x128.Idx => if (i 0).val = r.val then FloatOps.addf (Y i) (blOf (k0_pay21 v89) (k0_pay22 v92) (k0_pay23 v95) (k0_pay24 v98) (k0_pay25 v101) (shapeCast S16 v104 shapeCasts_S1x16_S16) (shapeCast S16 v107 shapeCasts_S1x16_S16) (shapeCast S16 v110 shapeCasts_S1x16_S16) i) else Y i))) := by
  unfold k0_t3_body
  iintro H2
  sl_exec
  sl_step
  rw [writes_rowB (F := F) Y (blOf (k0_pay21 v89) (k0_pay22 v92) (k0_pay23 v95) (k0_pay24 v98) (k0_pay25 v101) (shapeCast S16 v104 shapeCasts_S1x16_S16) (shapeCast S16 v107 shapeCasts_S1x16_S16) (shapeCast S16 v110 shapeCasts_S1x16_S16)) r.val]
  · iexact H2
  · -- the eight pieces cover row r
    intro y hy
    have hy1 : (y 1).val < 128 := (y 1).isLt
    rcases (show (y 1).val < 16 ∨ (16 ≤ (y 1).val ∧ (y 1).val < 32) ∨ (32 ≤ (y 1).val ∧ (y 1).val < 48) ∨ (48 ≤ (y 1).val ∧ (y 1).val < 64)
        ∨ (64 ≤ (y 1).val ∧ (y 1).val < 80) ∨ (80 ≤ (y 1).val ∧ (y 1).val < 96) ∨ (96 ≤ (y 1).val ∧ (y 1).val < 112) ∨ (112 ≤ (y 1).val) by omega)
      with h | h | h | h | h | h | h | h
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
      show y ∈ (Rect.unit (s := S128x128) (k0_off30 r) S1x16.size (k0_off30_inb r)).set
      refine Rect.mem_set_unit.mpr fun a => ?_
      rw [k0_off30_eq]
      match a with
      | 0 => simp; omega
      | 1 => simp; omega
    · refine ⟨_, List.mem_cons_of_mem _ (List.mem_cons_of_mem _ (List.mem_cons_of_mem _ (List.mem_cons_of_mem _ (List.mem_cons_of_mem _ (List.mem_cons_of_mem _ (List.mem_cons_self)))))), ?_⟩
      show y ∈ (Rect.unit (s := S128x128) (k0_off31 r) S1x16.size (k0_off31_inb r)).set
      refine Rect.mem_set_unit.mpr fun a => ?_
      rw [k0_off31_eq]
      match a with
      | 0 => simp; omega
      | 1 => simp; omega
    · refine ⟨_, List.mem_cons_of_mem _ (List.mem_cons_of_mem _ (List.mem_cons_of_mem _ (List.mem_cons_of_mem _ (List.mem_cons_of_mem _ (List.mem_cons_self))))), ?_⟩
      show y ∈ (Rect.unit (s := S128x128) (k0_off32 r) S1x16.size (k0_off32_inb r)).set
      refine Rect.mem_set_unit.mpr fun a => ?_
      rw [k0_off32_eq]
      match a with
      | 0 => simp; omega
      | 1 => simp; omega
    · refine ⟨_, List.mem_cons_of_mem _ (List.mem_cons_of_mem _ (List.mem_cons_of_mem _ (List.mem_cons_of_mem _ (List.mem_cons_self)))), ?_⟩
      show y ∈ (Rect.unit (s := S128x128) (k0_off33 r) S1x16.size (k0_off33_inb r)).set
      refine Rect.mem_set_unit.mpr fun a => ?_
      rw [k0_off33_eq]
      match a with
      | 0 => simp; omega
      | 1 => simp; omega
    · refine ⟨_, List.mem_cons_of_mem _ (List.mem_cons_of_mem _ (List.mem_cons_of_mem _ (List.mem_cons_self))), ?_⟩
      show y ∈ (Rect.unit (s := S128x128) (k0_off34 r) S1x16.size (k0_off34_inb r)).set
      refine Rect.mem_set_unit.mpr fun a => ?_
      rw [k0_off34_eq]
      match a with
      | 0 => simp; omega
      | 1 => simp; omega
    · refine ⟨_, List.mem_cons_of_mem _ (List.mem_cons_of_mem _ (List.mem_cons_self)), ?_⟩
      show y ∈ (Rect.unit (s := S128x128) (k0_off35 r) S1x16.size (k0_off35_inb r)).set
      refine Rect.mem_set_unit.mpr fun a => ?_
      rw [k0_off35_eq]
      match a with
      | 0 => simp; omega
      | 1 => simp; omega
    · refine ⟨_, List.mem_cons_of_mem _ (List.mem_cons_self), ?_⟩
      show y ∈ (Rect.unit (s := S128x128) (k0_off36 r) S1x16.size (k0_off36_inb r)).set
      refine Rect.mem_set_unit.mpr fun a => ?_
      rw [k0_off36_eq]
      match a with
      | 0 => simp; omega
      | 1 => simp; omega
    · refine ⟨_, List.mem_cons_self, ?_⟩
      show y ∈ (Rect.unit (s := S128x128) (k0_off37 r) S1x16.size (k0_off37_inb r)).set
      refine Rect.mem_set_unit.mpr fun a => ?_
      rw [k0_off37_eq]
      match a with
      | 0 => simp; omega
      | 1 => simp; omega
  · -- and nothing off row r
    intro y hy p hp hm
    simp only [List.mem_cons, List.mem_singleton, List.not_mem_nil, _root_.or_false] at hp
    rcases hp with rfl | rfl | rfl | rfl | rfl | rfl | rfl | rfl
    · have hm' : y ∈ (Rect.unit (s := S128x128) (k0_off37 r) S1x16.size (k0_off37_inb r)).set := hm
      have h0 := (Rect.mem_set_unit.mp hm') 0
      rw [k0_off37_eq] at h0
      simp at h0; omega
    · have hm' : y ∈ (Rect.unit (s := S128x128) (k0_off36 r) S1x16.size (k0_off36_inb r)).set := hm
      have h0 := (Rect.mem_set_unit.mp hm') 0
      rw [k0_off36_eq] at h0
      simp at h0; omega
    · have hm' : y ∈ (Rect.unit (s := S128x128) (k0_off35 r) S1x16.size (k0_off35_inb r)).set := hm
      have h0 := (Rect.mem_set_unit.mp hm') 0
      rw [k0_off35_eq] at h0
      simp at h0; omega
    · have hm' : y ∈ (Rect.unit (s := S128x128) (k0_off34 r) S1x16.size (k0_off34_inb r)).set := hm
      have h0 := (Rect.mem_set_unit.mp hm') 0
      rw [k0_off34_eq] at h0
      simp at h0; omega
    · have hm' : y ∈ (Rect.unit (s := S128x128) (k0_off33 r) S1x16.size (k0_off33_inb r)).set := hm
      have h0 := (Rect.mem_set_unit.mp hm') 0
      rw [k0_off33_eq] at h0
      simp at h0; omega
    · have hm' : y ∈ (Rect.unit (s := S128x128) (k0_off32 r) S1x16.size (k0_off32_inb r)).set := hm
      have h0 := (Rect.mem_set_unit.mp hm') 0
      rw [k0_off32_eq] at h0
      simp at h0; omega
    · have hm' : y ∈ (Rect.unit (s := S128x128) (k0_off31 r) S1x16.size (k0_off31_inb r)).set := hm
      have h0 := (Rect.mem_set_unit.mp hm') 0
      rw [k0_off31_eq] at h0
      simp at h0; omega
    · have hm' : y ∈ (Rect.unit (s := S128x128) (k0_off30 r) S1x16.size (k0_off30_inb r)).set := hm
      have h0 := (Rect.mem_set_unit.mp hm') 0
      rw [k0_off30_eq] at h0
      simp at h0; omega
  · -- each piece holds the old lanes plus its bias vector
    intro p hp x
    simp only [List.mem_cons, List.mem_singleton, List.not_mem_nil, _root_.or_false] at hp
    rcases hp with rfl | rfl | rfl | rfl | rfl | rfl | rfl | rfl
    · exact lane_okB_7 (F := F) Y _ _ _ _ _ _ _ _ r.val _ _ (k0_off37_eq r) x
    · exact lane_okB_6 (F := F) Y _ _ _ _ _ _ _ _ r.val _ _ (k0_off36_eq r) x
    · exact lane_okB_5 (F := F) Y _ _ _ _ _ _ _ _ r.val _ _ (k0_off35_eq r) x
    · exact lane_okB_4 (F := F) Y _ _ _ _ _ _ _ _ r.val _ _ (k0_off34_eq r) x
    · exact lane_okB_3 (F := F) Y _ _ _ _ _ _ _ _ r.val _ _ (k0_off33_eq r) x
    · exact lane_okB_2 (F := F) Y _ _ _ _ _ _ _ _ r.val _ _ (k0_off32_eq r) x
    · exact lane_okB_1 (F := F) Y _ _ _ _ _ _ _ _ r.val _ _ (k0_off31_eq r) x
    · exact lane_okB_0 (F := F) Y _ _ _ _ _ _ _ _ r.val _ _ (k0_off30_eq r) x

/-- The trip as a step of the loop's invariant: r rows done to r + 1 rows done. -/
theorem innerB_step (k : Fin k0_t1_loop.trips) (v70 c16384 v71 : BitVec 32) (v89 v92 v95 v98 v101 v104 v107 v110 : Vec F S1x16 .f32)
    (r : Fin k0_t3_loop.trips) (G : FVec F S128x128 .f32) :
    (iprop(((rowsB).view.loc (thr d L) ↦{fullShare} addRows r.val G (blOf (k0_pay21 v89) (k0_pay22 v92) (k0_pay23 v95) (k0_pay24 v98) (k0_pay25 v101) (shapeCast S16 v104 shapeCasts_S1x16_S16) (shapeCast S16 v107 shapeCasts_S1x16_S16) (shapeCast S16 v110 shapeCasts_S1x16_S16)))) : sProp 𝕄)
      ⊢ wp frame (wpE (defs₀ (F := F)) 𝒱₀ (thr d L) none) Set.univ
          (k0_t3_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 k v70 c16384 v71 v89 v92 v95 v98 v101 v104 v107 v110 r ())
          fun _ => iprop(((rowsB).view.loc (thr d L) ↦{fullShare} addRows (r.val + 1) G (blOf (k0_pay21 v89) (k0_pay22 v92) (k0_pay23 v95) (k0_pay24 v98) (k0_pay25 v101) (shapeCast S16 v104 shapeCasts_S1x16_S16) (shapeCast S16 v107 shapeCasts_S1x16_S16) (shapeCast S16 v110 shapeCasts_S1x16_S16)))) := by
  have h := innerB_trip (F := F) d L k v70 c16384 v71 v89 v92 v95 v98 v101 v104 v107 v110 r (addRows r.val G (blOf (k0_pay21 v89) (k0_pay22 v92) (k0_pay23 v95) (k0_pay24 v98) (k0_pay25 v101) (shapeCast S16 v104 shapeCasts_S1x16_S16) (shapeCast S16 v107 shapeCasts_S1x16_S16) (shapeCast S16 v110 shapeCasts_S1x16_S16)))
  rw [Cert.Proof.Lane.addRows_step] at h
  exact h

end Tile

end Cert.Proof.KI

end
-- ==== Proof.ScOuter.lean ====
/-
  One trip of a task's loop over pairs of chunks: from the gather of the even chunk in flight to the gather of the next even chunk in flight (or none after the last pair), both chunks written out at the gathered rows plus bias.
-/
import proofs.«207390_g85444079387303_cont_sun_c4_501_21_alg».proof.Proof.Setup
import proofs.«207390_g85444079387303_cont_sun_c4_501_21_alg».proof.Proof.Spec
import proofs.«207390_g85444079387303_cont_sun_c4_501_21_alg».proof.Proof.Gen.KernelIdeal.Skeleton
import proofs.«207390_g85444079387303_cont_sun_c4_501_21_alg».proof.Proof.ScInner

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.KernelIdeal.main_arg4_scv : Memref Cert.KernelIdeal.sig Kind.scVector Space.hbm Cert.KernelIdeal.S26000x128 EltTy.f32)
local notation "gidxW" => (Memref.whole Cert.KernelIdeal.main_v7_scv : Memref Cert.KernelIdeal.sig Kind.scVector Space.hbm Cert.KernelIdeal.S32x104x128 EltTy.i32)
local notation "biasW" => (Memref.whole Cert.KernelIdeal.main_arg5_scv : Memref Cert.KernelIdeal.sig Kind.scVector Space.hbm Cert.KernelIdeal.S26x128 EltTy.f32)
local notation "outW" => (Memref.whole Cert.KernelIdeal.main_v8_scv : Memref Cert.KernelIdeal.sig Kind.scVector Space.hbm Cert.KernelIdeal.S2064384x128 EltTy.f32)
local notation "idxS" => (Memref.whole Cert.KernelIdeal.cc0_scratch0 : Memref Cert.KernelIdeal.sig Kind.scVector Space.vmem Cert.KernelIdeal.S104x128 EltTy.i32)
local notation "biasS" => (Memref.whole Cert.KernelIdeal.cc0_scratch1 : Memref Cert.KernelIdeal.sig Kind.scVector Space.vmem Cert.KernelIdeal.S26x128 EltTy.f32)
local notation "rowsA" => (Memref.whole Cert.KernelIdeal.cc0_scratch2 : Memref Cert.KernelIdeal.sig Kind.scVector Space.vmem Cert.KernelIdeal.S128x128 EltTy.f32)
local notation "rowsB" => (Memref.whole Cert.KernelIdeal.cc0_scratch3 : Memref Cert.KernelIdeal.sig Kind.scVector Space.vmem Cert.KernelIdeal.S128x128 EltTy.f32)

open Cert.Proof.Lane (addRows addRows_zero addRows_all)
open Idealize.ShloMosaic.ValueIdx

/-! ## Small conversions -/

/-- A points-to of a view's elements reads its contents only through the view. -/
theorem pointsTo_view_congr {κ : Kind} {sp : Space} {s : Shape} {e : EltTy} (c : Thread nD τ) (hκ : c.2.kind = κ)
    (v : View sig c.2.kind sp s e) (q : PosShare TreeShare) (f g : Buf (Elt F) (v.loc c))
    (h : ∀ x, f (v.emb x) = g (v.emb x)) : (v.loc c ↦[v.set]{q} f : sProp 𝕄) = v.loc c ↦[v.set]{q} g :=
  pointsTo_congr fun i hi => by
    obtain ⟨x, -, rfl⟩ := Finset.mem_map.mp hi
    exact h x

/-- The trip's guard "there is a next pair of chunks" in closed form. -/
theorem cond1_iff : ∀ k : Fin k0_t1_loop.trips, k0_cond1 k = 1#1 ↔ k.val + 1 < 52 := by decide +kernel

theorem trips_eq : k0_t1_loop.trips = 52 := by decide

/-- The next trip's even offset row is the row this trip's guarded gather names. -/
theorem off21_eq_off2 (k : Fin k0_t1_loop.trips) (h : k.val + 1 < k0_t1_loop.trips) : k0_off21 k = k0_off2 ⟨k.val + 1, h⟩ := by
  rw [k0_off21_eq, k0_off2_eq]
  funext a
  match a with
  | 0 => show 2 * k.val + 2 = 2 * (k.val + 1); omega
  | 1 => rfl

/-- Trip 0's even offset row is the first row. -/
theorem off2_zero : k0_off2 ⟨0, by decide⟩ = ![0, 0] := by rw [k0_off2_eq]; rfl

variable [FloatOps F]

section Tile

variable (d : Dev nD) (L : grid0.Coords) (sh : PosShare TreeShare) (O : CellTallies nD τ sig (HIx 1))
variable (ft : Buf (Elt F) (tabLoc d)) (fg : Buf (Elt F) (gidxLoc d)) (hfg : ∀ i, (fg i).toNat < 26000) (fb : Buf (Elt F) (biasLoc d))

/-- Equal offset rows name equal lists, hence equal gathered rows and equal element sets of the index scratch. -/
theorem gath_congr {off off' : Fin 2 → Nat} (h : off = off') (hoff : ∀ a, off a + S1x128.size a ≤ S104x128.size a)
    (hoff' : ∀ a, off' a + S1x128.size a ≤ S104x128.size a) : gath d L ft fg hfg off hoff = gath d L ft fg hfg off' hoff' := by
  subst h; rfl
omit [FloatOps F] in
theorem idxRow_set_congr {off off' : Fin 2 → Nat} (h : off = off') (hoff : ∀ a, off a + S1x128.size a ≤ S104x128.size a)
    (hoff' : ∀ a, off' a + S1x128.size a ≤ S104x128.size a) : (idxRowK off hoff).view.set = (idxRowK off' hoff').view.set := by
  subst h; rfl

/-- Written whole, a rows buffer holds what was written, read at any index. -/
theorem writesA_whole_apply (f : (rowsA).view.ty.Contents (Elt F)) (g : S128x128.Idx → Elt F .f32) (y : S128x128.Idx) :
    (rowsA).view.writes (Elt F) f [⟨Rect.whole S128x128, g⟩] y = g y := by
  have h := View.read_writes_cons_emb (Val := Elt F) (rowsA).view f (Rect.whole S128x128) g [] y
  have e : (Rect.whole S128x128).emb y = y := Rect.emb_whole_apply _ _
  rw [e] at h
  exact h
theorem writesB_whole_apply (f : (rowsB).view.ty.Contents (Elt F)) (g : S128x128.Idx → Elt F .f32) (y : S128x128.Idx) :
    (rowsB).view.writes (Elt F) f [⟨Rect.whole S128x128, g⟩] y = g y := by
  have h := View.read_writes_cons_emb (Val := Elt F) (rowsB).view f (Rect.whole S128x128) g [] y
  have e : (Rect.whole S128x128).emb y = y := Rect.emb_whole_apply _ _
  rw [e] at h
  exact h

/-! ## The states between trips -/

/-- The gather of trip k's even chunk in flight: its delivery (the rows buffer at the gathered rows, the offset row of the
    index scratch, the table's share), and what of the three buffers is not lent. -/
def pendA (k : Fin k0_t1_loop.trips) : sProp 𝕄 :=
  iprop(Transfers.Flight countersEmb (thr d L) (SemLoc.dma cc0_scratch4.sem) (default : HIx 1) 524288
      iprop((((rowsA).view.loc (thr d L) ↦[(rowsA).view.set]{fullShare} gathA d L ft fg hfg k)
        ∗ ((idxS).view.loc (thr d L) ↦[(idxRowK (k0_off2 k) (k0_off2_inb k)).view.set]{fullShare} idxBlk d L fg))
        ∗ ((tabW).view.loc (thr d L) ↦[(tabSl).view.set]{sh} ft))
    ∗ ((idxS).view.loc (thr d L) ↦[Finset.univ \ (idxRowK (k0_off2 k) (k0_off2_inb k)).view.set]{fullShare} idxBlk d L fg)
    ∗ ((tabW).view.loc (thr d L) ↦[Finset.univ \ (tabSl).view.set]{sh} ft)
    ∗ ((rowsA).view.loc (thr d L) ↦[Finset.univ \ (rowsA).view.set]{fullShare} gathA d L ft fg hfg k))

/-- No gather in flight: the three buffers whole, the gather's semaphore at zero. -/
def idleA : sProp 𝕄 :=
  iprop((∃ f, (rowsA).view.loc (thr d L) ↦{fullShare} f) ∗ ((idxS).view.loc (thr d L) ↦{fullShare} idxBlk d L fg)
    ∗ ((tabW).view.loc (thr d L) ↦{sh} ft) ∗ semVal (thr d L, SemLoc.dma cc0_scratch4.sem) 0)

/-- What stands before trip n as far as the even chunk's gather goes. -/
def pendAt (n : Nat) : sProp 𝕄 :=
  if h : n < k0_t1_loop.trips then pendA d L sh ft fg hfg ⟨n, h⟩ else idleA d L sh ft fg

/-- The gather a trip starts for the next pair, as the run leaves it, is the next trip's pending gather. -/
theorem pend_next (k : Fin k0_t1_loop.trips) (hc : k0_cond1 k = 1#1) (hk : k.val + 1 < k0_t1_loop.trips)
    (X : (rowsA).view.ty.Contents (Elt F)) (g1 : S128x128.Idx → Elt F .f32)
    (hg1 : ∀ x, g1 x = gath d L ft fg hfg (k0_off21 k) (k0_off21_inb k hc) x) :
    (iprop(Transfers.Flight countersEmb (thr d L) (SemLoc.dma cc0_scratch4.sem) (default : HIx 1) 524288
          iprop((((rowsA).view.loc (thr d L) ↦[(rowsA).view.set]{fullShare} (rowsA).view.writes (Elt F) X [⟨Rect.whole S128x128, g1⟩])
            ∗ ((idxS).view.loc (thr d L) ↦[(idxRowK (k0_off21 k) (k0_off21_inb k hc)).view.set]{fullShare} idxBlk d L fg))
            ∗ ((tabW).view.loc (thr d L) ↦[(tabSl).view.set]{sh} ft))
        ∗ ((idxS).view.loc (thr d L) ↦[Finset.univ \ (idxRowK (k0_off21 k) (k0_off21_inb k hc)).view.set]{fullShare} idxBlk d L fg)
        ∗ ((tabW).view.loc (thr d L) ↦[Finset.univ \ (tabSl).view.set]{sh} ft)
        ∗ ((rowsA).view.loc (thr d L) ↦[Finset.univ \ (rowsA).view.set]{fullShare} (rowsA).view.writes (Elt F) X [⟨Rect.whole S128x128, g1⟩])) : sProp 𝕄)
      ⊢ pendA d L sh ft fg hfg ⟨k.val + 1, hk⟩ := by
  have hoff := off21_eq_off2 k hk
  have hset := idxRow_set_congr hoff (k0_off21_inb k hc) (k0_off2_inb ⟨k.val + 1, hk⟩)
  have hG : ∀ x, (rowsA).view.writes (Elt F) X [⟨Rect.whole S128x128, g1⟩] x = gathA d L ft fg hfg ⟨k.val + 1, hk⟩ x := fun x =>
    (writesA_whole_apply (F := F) X g1 x).trans ((hg1 x).trans (congrFun (gath_congr (F := F) d L ft fg hfg hoff _ _) x))
  have eA : ∀ (S : Finset S128x128.Idx), (((rowsA).view.loc (thr d L) ↦[S]{fullShare} (rowsA).view.writes (Elt F) X [⟨Rect.whole S128x128, g1⟩]) : sProp 𝕄)
      = ((rowsA).view.loc (thr d L) ↦[S]{fullShare} gathA d L ft fg hfg ⟨k.val + 1, hk⟩) := fun S => pointsTo_congr fun i _ => hG i
  unfold pendA
  rw [← hset]
  iintro ⟨Hfl, H0r, Htr, H2r⟩
  isplitl [Hfl]
  · iapply (Transfers.Flight_mono countersEmb (thr d L) ?_) $$ Hfl
    iintro ⟨⟨Ha, Hi⟩, Ht⟩
    isplitr [Ht]
    · isplitl [Ha]
      · iapply (Entails.of_eq (eA _)); iexact Ha
      · iexact Hi
    · iexact Ht
  isplitl [H0r]; · iexact H0r
  isplitl [Htr]; · iexact Htr
  iapply (Entails.of_eq (eA _)); iexact H2r

/-! ## The trip -/

theorem trips2_eq : Scf.trips k0_t2_loop.lb k0_t2_loop.ub k0_t2_loop.st = 128 := by decide
theorem trips3_eq : Scf.trips k0_t3_loop.lb k0_t3_loop.ub k0_t3_loop.st = 128 := by decide

/-- What the copy-out of the finished even rows buffer leaves in its chunk of the output array is what the call writes there;
    the rows buffer's contents before the bias loop are any G that reads as the gathered rows. -/
theorem chunkA_done (k : Fin k0_t1_loop.trips) (prev : Buf (Elt F) (outLoc d))
    (hA : ∀ x, scRows fg ft fb prev ((chunkA L k).view.emb x) = doneA d L ft fg hfg fb k x)
    (junk : (chunkA L k).view.ty.Contents (Elt F)) (G : FVec F S128x128 .f32) (hG : ∀ x, G x = gathA d L ft fg hfg k x) :
    (((chunkA L k).view.loc (thr d L) ↦[(chunkA L k).view.set]{fullShare} (chunkA L k).view.writes (Elt F) junk
        [⟨Rect.whole S128x128, ReadAs.same.apply (View.read (Elt F) (rowsA).view
          (addRows (Scf.trips k0_t2_loop.lb k0_t2_loop.ub k0_t2_loop.st) G (blA d L fb k)))⟩]) : sProp 𝕄)
      = ((chunkA L k).view.loc (thr d L) ↦[(chunkA L k).view.set]{fullShare} scRows fg ft fb prev) :=
  pointsTo_congr fun i hi => by
    obtain ⟨x, -, rfl⟩ := Finset.mem_map.mp hi
    have h := View.read_writes_cons_emb (Val := Elt F) (chunkA L k).view junk (Rect.whole S128x128)
      (ReadAs.same.apply (View.read (Elt F) (rowsA).view
          (addRows (Scf.trips k0_t2_loop.lb k0_t2_loop.ub k0_t2_loop.st) G (blA d L fb k)))) [] x
    have e : (Rect.whole S128x128).emb x = x := Rect.emb_whole_apply _ _
    rw [e, View.read_apply] at h
    refine ((cast_eq _ _).symm.trans h).trans ?_
    rw [hA x]
    show addRows (Scf.trips k0_t2_loop.lb k0_t2_loop.ub k0_t2_loop.st) G (blA d L fb k) x = doneA d L ft fg hfg fb k x
    rw [trips2_eq, addRows_all]
    show FloatOps.addf (G x) _ = FloatOps.addf (gathA d L ft fg hfg k x) _
    rw [hG x]

/-- What the copy-out of the finished odd rows buffer leaves in its chunk of the output array is what the call writes there;
    the rows buffer's contents before the bias loop are any G that reads as the gathered rows. -/
theorem chunkB_done (k : Fin k0_t1_loop.trips) (prev : Buf (Elt F) (outLoc d))
    (hB : ∀ x, scRows fg ft fb prev ((chunkB L k).view.emb x) = doneB d L ft fg hfg fb k x)
    (junk : (chunkB L k).view.ty.Contents (Elt F)) (G : FVec F S128x128 .f32) (hG : ∀ x, G x = gathB d L ft fg hfg k x) :
    (((chunkB L k).view.loc (thr d L) ↦[(chunkB L k).view.set]{fullShare} (chunkB L k).view.writes (Elt F) junk
        [⟨Rect.whole S128x128, ReadAs.same.apply (View.read (Elt F) (rowsB).view
          (addRows (Scf.trips k0_t3_loop.lb k0_t3_loop.ub k0_t3_loop.st) G (blB d L fb k)))⟩]) : sProp 𝕄)
      = ((chunkB L k).view.loc (thr d L) ↦[(chunkB L k).view.set]{fullShare} scRows fg ft fb prev) :=
  pointsTo_congr fun i hi => by
    obtain ⟨x, -, rfl⟩ := Finset.mem_map.mp hi
    have h := View.read_writes_cons_emb (Val := Elt F) (chunkB L k).view junk (Rect.whole S128x128)
      (ReadAs.same.apply (View.read (Elt F) (rowsB).view
          (addRows (Scf.trips k0_t3_loop.lb k0_t3_loop.ub k0_t3_loop.st) G (blB d L fb k)))) [] x
    have e : (Rect.whole S128x128).emb x = x := Rect.emb_whole_apply _ _
    rw [e, View.read_apply] at h
    refine ((cast_eq _ _).symm.trans h).trans ?_
    rw [hB x]
    show addRows (Scf.trips k0_t3_loop.lb k0_t3_loop.ub k0_t3_loop.st) G (blB d L fb k) x = doneB d L ft fg hfg fb k x
    rw [trips3_eq, addRows_all]
    show FloatOps.addf (G x) _ = FloatOps.addf (gathB d L ft fg hfg k x) _
    rw [hG x]

set_option maxHeartbeats 1600000 in
/-- A trip that is not the last: the next pair's even gather is started before the odd chunk's bias loop. -/
theorem outer_trip_next (W W0 : Waits sig (HIx 1)) (hW0 : ∀ p ∈ W0, p ∈ W ∨ p.2 = none) (k : Fin k0_t1_loop.trips) (v2 : BitVec 32)
    (prev : Buf (Elt F) (outLoc d))
    (hA : ∀ x, scRows fg ft fb prev ((chunkA L k).view.emb x) = doneA d L ft fg hfg fb k x)
    (hB : ∀ x, scRows fg ft fb prev ((chunkB L k).view.emb x) = doneB d L ft fg hfg fb k x)
    (f3 : Buf (Elt F) ((thr d L).loc cc0_scratch3))
    (hc : k0_cond1 k = 1#1) :
    (iprop(Transfers.MayWaits (thr d L) (none : HIx 1) O
        ∗ ((gidxW).view.loc (thr d L) ↦{sh} fg) ∗ ((biasW).view.loc (thr d L) ↦{sh} fb)
        ∗ ((biasS).view.loc (thr d L) ↦{fullShare} biasBlk d L fb) ∗ ((rowsB).view.loc (thr d L) ↦{fullShare} f3)
        ∗ ((chunkA L k).view.loc (thr d L) ↦[(chunkA L k).view.set]{fullShare} prev)
        ∗ ((chunkB L k).view.loc (thr d L) ↦[(chunkB L k).view.set]{fullShare} prev)
        ∗ pendA d L sh ft fg hfg k
        ∗ semVal (thr d L, SemLoc.dma cc0_scratch5.sem) 0
        ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ owes (thr d L) O W0) : sProp 𝕄)
      ⊢ wp frame (wpE (defs₀ (F := F)) 𝒱₀ (thr d L) none) Set.univ
          (k0_t1_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k ())
          fun _ => iprop(Transfers.MayWaits (thr d L) (none : HIx 1) O
            ∗ ((gidxW).view.loc (thr d L) ↦{sh} fg) ∗ ((biasW).view.loc (thr d L) ↦{sh} fb)
            ∗ ((biasS).view.loc (thr d L) ↦{fullShare} biasBlk d L fb) ∗ (∃ f3', (rowsB).view.loc (thr d L) ↦{fullShare} f3')
            ∗ ((chunkA L k).view.loc (thr d L) ↦[(chunkA L k).view.set]{fullShare} scRows fg ft fb prev)
            ∗ ((chunkB L k).view.loc (thr d L) ↦[(chunkB L k).view.set]{fullShare} scRows fg ft fb prev)
            ∗ pendAt d L sh ft fg hfg (k.val + 1)
            ∗ semVal (thr d L, SemLoc.dma cc0_scratch5.sem) 0
            ∗ semVal (thr d L, SemLoc.dma cc0_scoped0.sem) 0 ∗ semVal (thr d L, SemLoc.dma cc0_scoped1.sem) 0
            ∗ semVal (thr d L, SemLoc.dma cc0_scoped2.sem) 0 ∗ semVal (thr d L, SemLoc.dma cc0_scoped3.sem) 0
            ∗ ∃ W', ⌜∀ p ∈ W', p ∈ W ∨ p.2 = none⌝ ∗ owes (thr d L) O W') := by
  unfold k0_t1_body
  unfold pendA
  iintro ⟨#Hmw, Hg, Hb, H1, H3, HoA, HoB, ⟨HflA, H0r, Htr, H2r⟩, Hs5, Hr0, Hr1, Hr2, Hr3, HO⟩
  have hin := idx_inb (F := F) d L fg hfg
  have hk : k.val + 1 < k0_t1_loop.trips := by
    have h1 := (cond1_iff k).mp hc
    have h2 := trips_eq
    omega
  sl_exec
  sl_for (fun (r : Nat) (_ : Unit) => (iprop(((rowsA).view.loc (thr d L) ↦{fullShare} addRows r (gathA d L ft fg hfg k) (blA d L fb k))) : sProp 𝕄)) $$ [H2r]
  case region =>
    intro r _
    exact innerA_step (F := F) d L k _ _ _ _ _ _ _ _ _ _ _ _ r (gathA d L ft fg hfg k)
  · rw [addRows_zero]; iexact H2r
  iintro %_ H2r
  sl_exec
  sl_for (fun (r : Nat) (_ : Unit) => (iprop(((rowsB).view.loc (thr d L) ↦{fullShare}
      addRows r ((rowsB).view.writes (Elt F) (rowsB).view.junk [⟨Rect.whole cc0_scratch3.ty.shape, Cert.Proof.KI.outer_trip_next.sl.gather0 d L ft fg k hin⟩])
        (blB d L fb k))) : sProp 𝕄)) $$ [H3]
  case region =>
    intro r _
    exact innerB_step (F := F) d L k _ _ _ _ _ _ _ _ _ _ _ r _
  · rw [addRows_zero]; iexact H3
  iintro %_ H3
  sl_exec
  sl_step
  delta Cert.Proof.KI.outer_trip_next.sl.dma0 Cert.Proof.KI.outer_trip_next.sl.dma0_1
  ihave HoA := (Entails.of_eq (chunkA_done (F := F) d L ft fg hfg fb k prev hA (chunkA L k).view.junk (gathA d L ft fg hfg k) (fun _ => rfl))) $$ HoA
  ihave HoB := (Entails.of_eq (chunkB_done (F := F) d L ft fg hfg fb k prev hB prev
    ((rowsB).view.writes (Elt F) (rowsB).view.junk [⟨Rect.whole cc0_scratch3.ty.shape, Cert.Proof.KI.outer_trip_next.sl.gather0 d L ft fg k hin⟩])
    (fun x => writesB_whole_apply (F := F) _ _ x))) $$ HoB
  isplitr; · iexact Hmw
  isplitl [Hg]; · iexact Hg
  isplitl [Hb]; · iexact Hb
  isplitl [H1]; · iexact H1
  isplitl [H3]; · iexists _; iexact H3
  isplitl [HoA]; · iexact HoA
  isplitl [HoB]; · iexact HoB
  isplitl [HflA H0r Htr H2r]
  · unfold pendAt
    rw [dif_pos hk]
    iapply (pend_next (F := F) d L sh ft fg hfg k hc hk _ (Cert.Proof.KI.outer_trip_next.sl.gather1 d L ft fg k hc hin) (fun _ => rfl))
    isplitl [HflA]; · iexact HflA
    isplitl [H0r]; · iexact H0r
    isplitl [Htr]; · iexact Htr
    iexact H2r
  isplitl [Hs5]; · iexact Hs5
  isplitl [Hr0]; · iexact Hr0
  isplitl [Hr1]; · iexact Hr1
  isplitl [Hr2]; · iexact Hr2
  isplitl [Hr3]; · iexact Hr3
  iexists _; isplitr
  on_goal 2 => iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW0 p hp

set_option maxHeartbeats 1600000 in
/-- The last trip: no gather is started; the even rows buffer, the index scratch and the table's share end whole. -/
theorem outer_trip_last (W W0 : Waits sig (HIx 1)) (hW0 : ∀ p ∈ W0, p ∈ W ∨ p.2 = none) (k : Fin k0_t1_loop.trips) (v2 : BitVec 32)
    (prev : Buf (Elt F) (outLoc d))
    (hA : ∀ x, scRows fg ft fb prev ((chunkA L k).view.emb x) = doneA d L ft fg hfg fb k x)
    (hB : ∀ x, scRows fg ft fb prev ((chunkB L k).view.emb x) = doneB d L ft fg hfg fb k x)
    (f3 : Buf (Elt F) ((thr d L).loc cc0_scratch3))
    (hc : ¬ k0_cond1 k = 1#1) :
    (iprop(Transfers.MayWaits (thr d L) (none : HIx 1) O
        ∗ ((gidxW).view.loc (thr d L) ↦{sh} fg) ∗ ((biasW).view.loc (thr d L) ↦{sh} fb)
        ∗ ((biasS).view.loc (thr d L) ↦{fullShare} biasBlk d L fb) ∗ ((rowsB).view.loc (thr d L) ↦{fullShare} f3)
        ∗ ((chunkA L k).view.loc (thr d L) ↦[(chunkA L k).view.set]{fullShare} prev)
        ∗ ((chunkB L k).view.loc (thr d L) ↦[(chunkB L k).view.set]{fullShare} prev)
        ∗ pendA d L sh ft fg hfg k
        ∗ semVal (thr d L, SemLoc.dma cc0_scratch5.sem) 0
        ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ owes (thr d L) O W0) : sProp 𝕄)
      ⊢ wp frame (wpE (defs₀ (F := F)) 𝒱₀ (thr d L) none) Set.univ
          (k0_t1_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k ())
          fun _ => iprop(Transfers.MayWaits (thr d L) (none : HIx 1) O
            ∗ ((gidxW).view.loc (thr d L) ↦{sh} fg) ∗ ((biasW).view.loc (thr d L) ↦{sh} fb)
            ∗ ((biasS).view.loc (thr d L) ↦{fullShare} biasBlk d L fb) ∗ (∃ f3', (rowsB).view.loc (thr d L) ↦{fullShare} f3')
            ∗ ((chunkA L k).view.loc (thr d L) ↦[(chunkA L k).view.set]{fullShare} scRows fg ft fb prev)
            ∗ ((chunkB L k).view.loc (thr d L) ↦[(chunkB L k).view.set]{fullShare} scRows fg ft fb prev)
            ∗ pendAt d L sh ft fg hfg (k.val + 1)
            ∗ semVal (thr d L, SemLoc.dma cc0_scratch5.sem) 0
            ∗ semVal (thr d L, SemLoc.dma cc0_scoped0.sem) 0 ∗ semVal (thr d L, SemLoc.dma cc0_scoped1.sem) 0
            ∗ semVal (thr d L, SemLoc.dma cc0_scoped2.sem) 0 ∗ semVal (thr d L, SemLoc.dma cc0_scoped3.sem) 0
            ∗ ∃ W', ⌜∀ p ∈ W', p ∈ W ∨ p.2 = none⌝ ∗ owes (thr d L) O W') := by
  unfold k0_t1_body
  unfold pendA
  iintro ⟨#Hmw, Hg, Hb, H1, H3, HoA, HoB, ⟨HflA, H0r, Htr, H2r⟩, Hs5, Hr0, Hr1, Hr2, Hr3, HO⟩
  have hin := idx_inb (F := F) d L fg hfg
  have hk : ¬ k.val + 1 < k0_t1_loop.trips := by
    have h1 := (cond1_iff k).not.mp hc
    have h2 := trips_eq
    omega
  sl_exec
  sl_for (fun (r : Nat) (_ : Unit) => (iprop(((rowsA).view.loc (thr d L) ↦{fullShare} addRows r (gathA d L ft fg hfg k) (blA d L fb k))) : sProp 𝕄)) $$ [H2r]
  case region =>
    intro r _
    exact innerA_step (F := F) d L k _ _ _ _ _ _ _ _ _ _ _ _ r (gathA d L ft fg hfg k)
  · rw [addRows_zero]; iexact H2r
  iintro %_ H2r
  sl_exec
  sl_for (fun (r : Nat) (_ : Unit) => (iprop(((rowsB).view.loc (thr d L) ↦{fullShare}
      addRows r ((rowsB).view.writes (Elt F) (rowsB).view.junk [⟨Rect.whole cc0_scratch3.ty.shape, Cert.Proof.KI.outer_trip_last.sl.gather0 d L ft fg k hin⟩])
        (blB d L fb k))) : sProp 𝕄)) $$ [H3]
  case region =>
    intro r _
    exact innerB_step (F := F) d L k _ _ _ _ _ _ _ _ _ _ _ r _
  · rw [addRows_zero]; iexact H3
  iintro %_ H3
  sl_exec
  sl_step
  delta Cert.Proof.KI.outer_trip_last.sl.dma0 Cert.Proof.KI.outer_trip_last.sl.dma0_1
  ihave HoA := (Entails.of_eq (chunkA_done (F := F) d L ft fg hfg fb k prev hA (chunkA L k).view.junk (gathA d L ft fg hfg k) (fun _ => rfl))) $$ HoA
  ihave HoB := (Entails.of_eq (chunkB_done (F := F) d L ft fg hfg fb k prev hB prev
    ((rowsB).view.writes (Elt F) (rowsB).view.junk [⟨Rect.whole cc0_scratch3.ty.shape, Cert.Proof.KI.outer_trip_last.sl.gather0 d L ft fg k hin⟩])
    (fun x => writesB_whole_apply (F := F) _ _ x))) $$ HoB
  isplitr; · iexact Hmw
  isplitl [Hg]; · iexact Hg
  isplitl [Hb]; · iexact Hb
  isplitl [H1]; · iexact H1
  isplitl [H3]; · iexists _; iexact H3
  isplitl [HoA]; · iexact HoA
  isplitl [HoB]; · iexact HoB
  isplitl [HflA H0r Htr H2r]
  · unfold pendAt
    rw [dif_neg hk]
    unfold idleA
    isplitl [H2r]; · iexists _; iexact H2r
    isplitl [H0r]; · iexact H0r
    isplitl [Htr]; · iexact Htr
    iexact HflA
  isplitl [Hs5]; · iexact Hs5
  isplitl [Hr0]; · iexact Hr0
  isplitl [Hr1]; · iexact Hr1
  isplitl [Hr2]; · iexact Hr2
  isplitl [Hr3]; · iexact Hr3
  iexists _; isplitr
  on_goal 2 => iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW0 p hp

/-- One trip: wait for the even chunk's rows, start the odd chunk's gather, add the bias to the even rows and copy them
    out, wait for the odd rows, start the next even gather if there is a next pair, add the bias to the odd rows and
    copy them out. -/
theorem outer_trip (W W0 : Waits sig (HIx 1)) (hW0 : ∀ p ∈ W0, p ∈ W ∨ p.2 = none) (k : Fin k0_t1_loop.trips) (v2 : BitVec 32)
    (prev : Buf (Elt F) (outLoc d))
    (hA : ∀ x, scRows fg ft fb prev ((chunkA L k).view.emb x) = doneA d L ft fg hfg fb k x)
    (hB : ∀ x, scRows fg ft fb prev ((chunkB L k).view.emb x) = doneB d L ft fg hfg fb k x)
    (f3 : Buf (Elt F) ((thr d L).loc cc0_scratch3)) :
    (iprop(Transfers.MayWaits (thr d L) (none : HIx 1) O
        ∗ ((gidxW).view.loc (thr d L) ↦{sh} fg) ∗ ((biasW).view.loc (thr d L) ↦{sh} fb)
        ∗ ((biasS).view.loc (thr d L) ↦{fullShare} biasBlk d L fb) ∗ ((rowsB).view.loc (thr d L) ↦{fullShare} f3)
        ∗ ((chunkA L k).view.loc (thr d L) ↦[(chunkA L k).view.set]{fullShare} prev)
        ∗ ((chunkB L k).view.loc (thr d L) ↦[(chunkB L k).view.set]{fullShare} prev)
        ∗ pendA d L sh ft fg hfg k
        ∗ semVal (thr d L, SemLoc.dma cc0_scratch5.sem) 0
        ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ owes (thr d L) O W0) : sProp 𝕄)
      ⊢ wp frame (wpE (defs₀ (F := F)) 𝒱₀ (thr d L) none) Set.univ
          (k0_t1_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k ())
          fun _ => iprop(Transfers.MayWaits (thr d L) (none : HIx 1) O
            ∗ ((gidxW).view.loc (thr d L) ↦{sh} fg) ∗ ((biasW).view.loc (thr d L) ↦{sh} fb)
            ∗ ((biasS).view.loc (thr d L) ↦{fullShare} biasBlk d L fb) ∗ (∃ f3', (rowsB).view.loc (thr d L) ↦{fullShare} f3')
            ∗ ((chunkA L k).view.loc (thr d L) ↦[(chunkA L k).view.set]{fullShare} scRows fg ft fb prev)
            ∗ ((chunkB L k).view.loc (thr d L) ↦[(chunkB L k).view.set]{fullShare} scRows fg ft fb prev)
            ∗ pendAt d L sh ft fg hfg (k.val + 1)
            ∗ semVal (thr d L, SemLoc.dma cc0_scratch5.sem) 0
            ∗ semVal (thr d L, SemLoc.dma cc0_scoped0.sem) 0 ∗ semVal (thr d L, SemLoc.dma cc0_scoped1.sem) 0
            ∗ semVal (thr d L, SemLoc.dma cc0_scoped2.sem) 0 ∗ semVal (thr d L, SemLoc.dma cc0_scoped3.sem) 0
            ∗ ∃ W', ⌜∀ p ∈ W', p ∈ W ∨ p.2 = none⌝ ∗ owes (thr d L) O W') := by
  by_cases hc : k0_cond1 k = 1#1
  · exact outer_trip_next (F := F) d L sh O ft fg hfg fb W W0 hW0 k v2 prev hA hB f3 hc
  · exact outer_trip_last (F := F) d L sh O ft fg hfg fb W W0 hW0 k v2 prev hA hB f3 hc

end Tile

end Cert.Proof.KI

end
-- ==== Proof.ScTile.lean ====
/-
  A vector subcore's whole task of the row-gathering kernel: the two copies into its scratch, the first gather, the loop over 52 pairs of chunks by its invariant, and what it hands back.
-/
import proofs.«207390_g85444079387303_cont_sun_c4_501_21_alg».proof.Proof.Setup
import proofs.«207390_g85444079387303_cont_sun_c4_501_21_alg».proof.Proof.Spec
import proofs.«207390_g85444079387303_cont_sun_c4_501_21_alg».proof.Proof.Gen.KernelIdeal.Skeleton
import proofs.«207390_g85444079387303_cont_sun_c4_501_21_alg».proof.Proof.ScOuter

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.KernelIdeal.main_arg4_scv : Memref Cert.KernelIdeal.sig Kind.scVector Space.hbm Cert.KernelIdeal.S26000x128 EltTy.f32)
local notation "gidxW" => (Memref.whole Cert.KernelIdeal.main_v7_scv : Memref Cert.KernelIdeal.sig Kind.scVector Space.hbm Cert.KernelIdeal.S32x104x128 EltTy.i32)
local notation "biasW" => (Memref.whole Cert.KernelIdeal.main_arg5_scv : Memref Cert.KernelIdeal.sig Kind.scVector Space.hbm Cert.KernelIdeal.S26x128 EltTy.f32)
local notation "outW" => (Memref.whole Cert.KernelIdeal.main_v8_scv : Memref Cert.KernelIdeal.sig Kind.scVector Space.hbm Cert.KernelIdeal.S2064384x128 EltTy.f32)
local notation "idxS" => (Memref.whole Cert.KernelIdeal.cc0_scratch0 : Memref Cert.KernelIdeal.sig Kind.scVector Space.vmem Cert.KernelIdeal.S104x128 EltTy.i32)
local notation "biasS" => (Memref.whole Cert.KernelIdeal.cc0_scratch1 : Memref Cert.KernelIdeal.sig Kind.scVector Space.vmem Cert.KernelIdeal.S26x128 EltTy.f32)
local notation "rowsA" => (Memref.whole Cert.KernelIdeal.cc0_scratch2 : Memref Cert.KernelIdeal.sig Kind.scVector Space.vmem Cert.KernelIdeal.S128x128 EltTy.f32)
local notation "rowsB" => (Memref.whole Cert.KernelIdeal.cc0_scratch3 : Memref Cert.KernelIdeal.sig Kind.scVector Space.vmem Cert.KernelIdeal.S128x128 EltTy.f32)

open Cert.Proof.Lane (addRows addRows_zero addRows_all)
open Idealize.ShloMosaic.ValueIdx

/-! ## Splitting a family over the trips at one trip -/

theorem todo_split {N : Nat} (k : Fin N) :
    (Finset.univ.filter fun j : Fin N => k.val ≤ j.val) = insert k (Finset.univ.filter fun j : Fin N => k.val + 1 ≤ j.val) := by
  ext j
  simp only [Finset.mem_filter, Finset.mem_univ, true_and, Finset.mem_insert, Fin.ext_iff]
  omega
theorem todo_notMem {N : Nat} (k : Fin N) : k ∉ (Finset.univ.filter fun j : Fin N => k.val + 1 ≤ j.val) := by
  simp
theorem done_split {N : Nat} (k : Fin N) :
    (Finset.univ.filter fun j : Fin N => j.val < k.val + 1) = insert k (Finset.univ.filter fun j : Fin N => j.val < k.val) := by
  ext j
  simp only [Finset.mem_filter, Finset.mem_univ, true_and, Finset.mem_insert, Fin.ext_iff]
  omega
theorem done_notMem {N : Nat} (k : Fin N) : k ∉ (Finset.univ.filter fun j : Fin N => j.val < k.val) := by
  simp
theorem todo_zero {N : Nat} : (Finset.univ.filter fun j : Fin N => 0 ≤ j.val) = Finset.univ := by
  ext j; simp
theorem done_zero {N : Nat} : (Finset.univ.filter fun j : Fin N => j.val < 0) = ∅ := by
  ext j; simp
theorem todo_all {N : Nat} : (Finset.univ.filter fun j : Fin N => N ≤ j.val) = ∅ := by
  ext j; simp only [Finset.mem_filter, Finset.mem_univ, true_and, Finset.notMem_empty, iff_false]; omega
theorem done_all {N : Nat} : (Finset.univ.filter fun j : Fin N => j.val < N) = Finset.univ := by
  ext j; simp

variable [FloatOps F]

section Tile

variable (d : Dev nD) (L : grid0.Coords) (sh : PosShare TreeShare) (O : CellTallies nD τ sig (HIx 1))
variable (ft : Buf (Elt F) (tabLoc d)) (fg : Buf (Elt F) (gidxLoc d)) (hfg : ∀ i, (fg i).toNat < 26000) (fb : Buf (Elt F) (biasLoc d))

/-- A pair of chunks of the output array at contents f. -/
def pairAt (j : Fin k0_t1_loop.trips) (f : Buf (Elt F) (outLoc d)) : sProp 𝕄 :=
  iprop((outLoc d ↦[(chunkA L j).view.set]{fullShare} f) ∗ (outLoc d ↦[(chunkB L j).view.set]{fullShare} f))

/-- Before trip n: the pairs below n written, the others as they were; the even gather of trip n in flight (none after
    the last trip); everything else at rest. -/
def Inv (W : Waits sig (HIx 1)) (prev : Buf (Elt F) (outLoc d)) (n : Nat) (_ : Unit) : sProp 𝕄 :=
  iprop(Transfers.MayWaits (thr d L) (none : HIx 1) O
    ∗ ((gidxW).view.loc (thr d L) ↦{sh} fg) ∗ ((biasW).view.loc (thr d L) ↦{sh} fb)
    ∗ ((biasS).view.loc (thr d L) ↦{fullShare} biasBlk d L fb) ∗ (∃ f3, (rowsB).view.loc (thr d L) ↦{fullShare} f3)
    ∗ (bigSep (Finset.univ.filter fun j : Fin k0_t1_loop.trips => j.val < n) fun j => pairAt d L j (scRows fg ft fb prev))
    ∗ (bigSep (Finset.univ.filter fun j : Fin k0_t1_loop.trips => n ≤ j.val) fun j => pairAt d L j prev)
    ∗ pendAt d L sh ft fg hfg n
    ∗ semVal (thr d L, SemLoc.dma cc0_scratch5.sem) 0
    ∗ semVal (thr d L, SemLoc.dma cc0_scoped0.sem) 0 ∗ semVal (thr d L, SemLoc.dma cc0_scoped1.sem) 0
    ∗ semVal (thr d L, SemLoc.dma cc0_scoped2.sem) 0 ∗ semVal (thr d L, SemLoc.dma cc0_scoped3.sem) 0
    ∗ ∃ W', ⌜∀ p ∈ W', p ∈ W ∨ p.2 = none⌝ ∗ owes (thr d L) O W')

omit [FloatOps F] in
/-- Before a trip that exists, its even gather is in flight. -/
theorem pendAt_lt (k : Fin k0_t1_loop.trips) : pendAt d L sh ft fg hfg k.val = pendA d L sh ft fg hfg k := by
  unfold pendAt; rw [dif_pos k.isLt]

/-- A trip re-establishes the invariant one trip on. -/
theorem inv_step (W : Waits sig (HIx 1)) (prev : Buf (Elt F) (outLoc d))
    (hA : ∀ k x, scRows fg ft fb prev ((chunkA L k).view.emb x) = doneA d L ft fg hfg fb k x)
    (hB : ∀ k x, scRows fg ft fb prev ((chunkB L k).view.emb x) = doneB d L ft fg hfg fb k x)
    (v2 : BitVec 32) (k : Fin k0_t1_loop.trips) (u : Unit) :
    Inv d L sh O ft fg hfg fb W prev k.val u
      ⊢ wp frame (wpE (defs₀ (F := F)) 𝒱₀ (thr d L) none) Set.univ
          (k0_t1_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k u)
          (Inv d L sh O ft fg hfg fb W prev (k.val + 1)) := by
  unfold Inv
  rw [todo_split k, SparseCore.bigSep_insert' (todo_notMem k), done_split k, SparseCore.bigSep_insert' (done_notMem k)]
  rw [pendAt_lt]
  unfold pairAt
  iintro ⟨#Hmw, Hg, Hb, H1, ⟨%f3, H3⟩, Hdone, ⟨⟨HoA, HoB⟩, Htodo⟩, Hpend, Hs5, Hr0, Hr1, Hr2, Hr3, %W0, %hW0, HO⟩
  iapply (wp_wand_r frame _ _)
  isplitl [Hg Hb H1 H3 HoA HoB Hpend Hs5 Hr0 Hr1 Hr2 Hr3 HO]
  · iapply (outer_trip (F := F) d L sh O ft fg hfg fb W W0 hW0 k v2 prev (hA k) (hB k) f3)
    isplitr; · iexact Hmw
    isplitl [Hg]; · iexact Hg
    isplitl [Hb]; · iexact Hb
    isplitl [H1]; · iexact H1
    isplitl [H3]; · iexact H3
    isplitl [HoA]; · iexact HoA
    isplitl [HoB]; · iexact HoB
    isplitl [Hpend]; · iexact Hpend
    isplitl [Hs5]; · iexact Hs5
    isplitl [Hr0]; · iexact Hr0
    isplitl [Hr1]; · iexact Hr1
    isplitl [Hr2]; · iexact Hr2
    isplitl [Hr3]; · iexact Hr3
    iexact HO
  iintro %_ ⟨#Hmw', Hg, Hb, H1, H3, HoA, HoB, Hpend, Hs5, Hr0, Hr1, Hr2, Hr3, HO⟩
  isplitr; · iexact Hmw
  isplitl [Hg]; · iexact Hg
  isplitl [Hb]; · iexact Hb
  isplitl [H1]; · iexact H1
  isplitl [H3]; · iexact H3
  isplitl [Hdone HoA HoB]
  · isplitl [HoA HoB]
    · isplitl [HoA]; · iexact HoA
      iexact HoB
    · iexact Hdone
  isplitl [Htodo]; · iexact Htodo
  isplitl [Hpend]; · iexact Hpend
  isplitl [Hs5]; · iexact Hs5
  isplitl [Hr0]; · iexact Hr0
  isplitl [Hr1]; · iexact Hr1
  isplitl [Hr2]; · iexact Hr2
  isplitl [Hr3]; · iexact Hr3
  iexact HO

/-- The gather started before the loop, as the run leaves it, is trip 0's pending gather. -/
theorem pend_first (h0 : 0 < k0_t1_loop.trips) (X : (rowsA).view.ty.Contents (Elt F)) (g1 : S128x128.Idx → Elt F .f32)
    (hg1 : ∀ x, g1 x = gath d L ft fg hfg ![0, 0] inb_S104x128_S1x128_0_0 x) :
    (iprop(Transfers.Flight countersEmb (thr d L) (SemLoc.dma cc0_scratch4.sem) (default : HIx 1) 524288
          iprop((((rowsA).view.loc (thr d L) ↦[(rowsA).view.set]{fullShare} (rowsA).view.writes (Elt F) X [⟨Rect.whole S128x128, g1⟩])
            ∗ ((idxS).view.loc (thr d L) ↦[(idxRowK ![0, 0] inb_S104x128_S1x128_0_0).view.set]{fullShare} idxBlk d L fg))
            ∗ ((tabW).view.loc (thr d L) ↦[(tabSl).view.set]{sh} ft))
        ∗ ((idxS).view.loc (thr d L) ↦[Finset.univ \ (idxRowK ![0, 0] inb_S104x128_S1x128_0_0).view.set]{fullShare} idxBlk d L fg)
        ∗ ((tabW).view.loc (thr d L) ↦[Finset.univ \ (tabSl).view.set]{sh} ft)
        ∗ ((rowsA).view.loc (thr d L) ↦[Finset.univ \ (rowsA).view.set]{fullShare} (rowsA).view.writes (Elt F) X [⟨Rect.whole S128x128, g1⟩])) : sProp 𝕄)
      ⊢ pendA d L sh ft fg hfg ⟨0, h0⟩ := by
  have hoff : (![0, 0] : Fin 2 → Nat) = k0_off2 ⟨0, h0⟩ := off2_zero.symm
  have hset := idxRow_set_congr hoff inb_S104x128_S1x128_0_0 (k0_off2_inb ⟨0, h0⟩)
  have hG : ∀ x, (rowsA).view.writes (Elt F) X [⟨Rect.whole S128x128, g1⟩] x = gathA d L ft fg hfg ⟨0, h0⟩ x := fun x =>
    (writesA_whole_apply (F := F) X g1 x).trans ((hg1 x).trans (congrFun (gath_congr (F := F) d L ft fg hfg hoff _ _) x))
  have eA : ∀ (S : Finset S128x128.Idx), (((rowsA).view.loc (thr d L) ↦[S]{fullShare} (rowsA).view.writes (Elt F) X [⟨Rect.whole S128x128, g1⟩]) : sProp 𝕄)
      = ((rowsA).view.loc (thr d L) ↦[S]{fullShare} gathA d L ft fg hfg ⟨0, h0⟩) := fun S => pointsTo_congr fun i _ => hG i
  unfold pendA
  rw [← hset]
  iintro ⟨Hfl, H0r, Htr, H2r⟩
  isplitl [Hfl]
  · iapply (Transfers.Flight_mono countersEmb (thr d L) ?_) $$ Hfl
    iintro ⟨⟨Ha, Hi⟩, Ht⟩
    isplitr [Ht]
    · isplitl [Ha]
      · iapply (Entails.of_eq (eA _)); iexact Ha
      · iexact Hi
    · iexact Ht
  isplitl [H0r]; · iexact H0r
  isplitl [Htr]; · iexact Htr
  iapply (Entails.of_eq (eA _)); iexact H2r

set_option maxHeartbeats 1600000 in
/-- The task: two copies into the scratch, the first gather, the 52 trips, and everything handed back. -/
theorem tile_body (hF : (K (F := F)).Facts) (prev : Buf (Elt F) (outLoc d)) (W : Waits sig (HIx 1)) (hO : ∀ g, O g none = 0)
    (hA : ∀ k x, scRows fg ft fb prev ((chunkA L k).view.emb x) = doneA d L ft fg hfg fb k x)
    (hB : ∀ k x, scRows fg ft fb prev ((chunkB L k).view.emb x) = doneB d L ft fg hfg fb k x) :
    (iprop(levAts (K (F := F)).L (K (F := F)).lev ∗ emp ∗ taskIn d L sh ft fg fb prev
        ∗ scopedBufs (thr d L) ∗ scopedSems0 (thr d L) ∗ owes (thr d L) O W) : sProp 𝕄)
      ⊢ wp frame (wpE (defs₀ (F := F)) 𝒱₀ (thr d L) none) Set.univ
          (cc0__sc_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3)
          fun _ => iprop(taskOut d L sh ft fg fb prev ∗ scopedBufs (thr d L) ∗ scopedSems0 (thr d L)
            ∗ ∃ W', ⌜∀ p ∈ W', p ∈ W ∨ p.2 = none⌝ ∗ owes (thr d L) O W') := by
  rw [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold taskIn outPieces
  iintro ⟨#Hlv, -, ⟨Ht, Hg, Hb, Hout⟩, ⟨⟨%f0, H0⟩, ⟨%f1, H1⟩, ⟨%f2, H2⟩, ⟨%f3, H3⟩, Hbufs⟩, ⟨Hs4, Hs5, Hr0, Hr1, Hr2, Hr3, Hsems⟩, HO⟩
  ihave Hmw := ((K (F := F)).mayWaits_none (thr := thr d L) hO) $$ Hlv
  ihave Ht := (Entails.of_eq (show (tabLoc d ↦{sh} ft : sProp 𝕄) = ((tabW).view.loc (thr d L) ↦{sh} ft) from rfl)) $$ Ht
  ihave Hg := (Entails.of_eq (show (gidxLoc d ↦{sh} fg : sProp 𝕄) = ((gidxW).view.loc (thr d L) ↦{sh} fg) from rfl)) $$ Hg
  ihave Hb := (Entails.of_eq (show (biasLoc d ↦{sh} fb : sProp 𝕄) = ((biasW).view.loc (thr d L) ↦{sh} fb) from rfl)) $$ Hb
  ihave H0 := (Entails.of_eq (show ((thr d L).loc cc0_scratch0 ↦{fullShare} f0 : sProp 𝕄) = ((idxS).view.loc (thr d L) ↦{fullShare} f0) from rfl)) $$ H0
  ihave H1 := (Entails.of_eq (show ((thr d L).loc cc0_scratch1 ↦{fullShare} f1 : sProp 𝕄) = ((biasS).view.loc (thr d L) ↦{fullShare} f1) from rfl)) $$ H1
  ihave H2 := (Entails.of_eq (show ((thr d L).loc cc0_scratch2 ↦{fullShare} f2 : sProp 𝕄) = ((rowsA).view.loc (thr d L) ↦{fullShare} f2) from rfl)) $$ H2
  ihave H3 := (Entails.of_eq (show ((thr d L).loc cc0_scratch3 ↦{fullShare} f3 : sProp 𝕄) = ((rowsB).view.loc (thr d L) ↦{fullShare} f3) from rfl)) $$ H3
  sl_exec
  delta Cert.Proof.KI.tile_body.sl.dma0 Cert.Proof.KI.tile_body.sl.dma0_1
  ihave H0 := (Entails.of_eq (show (((idxS).view.loc (thr d L) ↦{fullShare}
        View.write (Elt F) (idxS).view f0 (ReadAs.same.apply (View.read (Elt F) (gidxRow L).view fg)) Finset.univ) : sProp 𝕄)
      = ((idxS).view.loc (thr d L) ↦{fullShare} idxBlk d L fg)
    from congrArg (fun f => ((idxS).view.loc (thr d L) ↦{fullShare} f : sProp 𝕄)) (View.write_whole_univ cc0_scratch0 f0 _))) $$ H0
  ihave H1 := (Entails.of_eq (show (((biasS).view.loc (thr d L) ↦{fullShare}
        View.write (Elt F) (biasS).view f1 (ReadAs.same.apply (View.read (Elt F) (biasW).view fb)) Finset.univ) : sProp 𝕄)
      = ((biasS).view.loc (thr d L) ↦{fullShare} biasBlk d L fb)
    from congrArg (fun f => ((biasS).view.loc (thr d L) ↦{fullShare} f : sProp 𝕄)) (View.write_whole_univ cc0_scratch1 f1 _))) $$ H1
  have hin := idx_inb (F := F) d L fg hfg
  sl_exec
  have h0 : 0 < k0_t1_loop.trips := by decide
  sl_for (Inv d L sh O ft fg hfg fb W prev) $$ [Hg Hb H1 H3 Hout Hs4 Ht H2 H0 Hs5 Hr0 Hr1 Hr2 Hr3 HO]
  case region =>
    intro k u
    exact inv_step (F := F) d L sh O ft fg hfg fb W prev hA hB _ k u
  · unfold Inv
    rw [done_zero, todo_zero, bigSep_empty]
    isplitr; · iexact Hmw
    isplitl [Hg]; · iexact Hg
    isplitl [Hb]; · iexact Hb
    isplitl [H1]; · iexact H1
    isplitl [H3]; · iexists _; iexact H3
    isplitr; · iempintro
    isplitl [Hout]; · unfold pairAt; iexact Hout
    isplitl [Hs4 H0 Ht H2]
    · unfold pendAt
      rw [dif_pos h0]
      iapply (pend_first (F := F) d L sh ft fg hfg h0 f2 (Cert.Proof.KI.tile_body.sl.gather0 d L ft fg hin) (fun _ => rfl))
      isplitl [Hs4]; · iexact Hs4
      isplitl [H0]; · iexact H0
      isplitl [Ht]; · iexact Ht
      iexact H2
    isplitl [Hs5]; · iexact Hs5
    isplitl [Hr0]; · iexact Hr0
    isplitl [Hr1]; · iexact Hr1
    isplitl [Hr2]; · iexact Hr2
    isplitl [Hr3]; · iexact Hr3
    iexists _; isplitr
    on_goal 2 => iexact HO
    ipureintro; intro p hp
    rcases Finset.mem_insert.mp hp with rfl | hp
    · exact .inr rfl
    rcases Finset.mem_insert.mp hp with rfl | hp
    · exact .inr rfl
    exact .inl hp
  iintro %_ HI
  unfold Inv
  rw [done_all, todo_all, bigSep_empty]
  unfold pendAt
  rw [dif_neg (lt_irrefl _)]
  unfold idleA
  icases HI with ⟨-, Hg, Hb, H1, ⟨%f3', H3⟩, Hdone, -, ⟨⟨%f2', H2⟩, H0, Ht, Hs4⟩, Hs5, Hr0, Hr1, Hr2, Hr3, %W', %hW', HO⟩
  sl_exec
  sl_step
  ihave Ht := (Entails.of_eq (show (((tabW).view.loc (thr d L) ↦{sh} ft) : sProp 𝕄) = (tabLoc d ↦{sh} ft) from rfl)) $$ Ht
  ihave Hg := (Entails.of_eq (show (((gidxW).view.loc (thr d L) ↦{sh} fg) : sProp 𝕄) = (gidxLoc d ↦{sh} fg) from rfl)) $$ Hg
  ihave Hb := (Entails.of_eq (show (((biasW).view.loc (thr d L) ↦{sh} fb) : sProp 𝕄) = (biasLoc d ↦{sh} fb) from rfl)) $$ Hb
  ihave H0 := (Entails.of_eq (show (((idxS).view.loc (thr d L) ↦{fullShare} idxBlk d L fg) : sProp 𝕄) = ((thr d L).loc cc0_scratch0 ↦{fullShare} idxBlk d L fg) from rfl)) $$ H0
  ihave H1 := (Entails.of_eq (show (((biasS).view.loc (thr d L) ↦{fullShare} biasBlk d L fb) : sProp 𝕄) = ((thr d L).loc cc0_scratch1 ↦{fullShare} biasBlk d L fb) from rfl)) $$ H1
  ihave H2 := (Entails.of_eq (show (((rowsA).view.loc (thr d L) ↦{fullShare} f2') : sProp 𝕄) = ((thr d L).loc cc0_scratch2 ↦{fullShare} f2') from rfl)) $$ H2
  ihave H3 := (Entails.of_eq (show (((rowsB).view.loc (thr d L) ↦{fullShare} f3') : sProp 𝕄) = ((thr d L).loc cc0_scratch3 ↦{fullShare} f3') from rfl)) $$ H3
  unfold taskOut outPieces
  isplitl [Ht Hg Hb Hdone]
  · isplitl [Ht]; · iexact Ht
    isplitl [Hg]; · iexact Hg
    isplitl [Hb]; · iexact Hb
    unfold pairAt; iexact Hdone
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hs4 Hs5 Hr0 Hr1 Hr2 Hr3 Hsems]
  · isplitl [Hs4]; · iexact Hs4
    isplitl [Hs5]; · iexact Hs5
    isplitl [Hr0]; · iexact Hr0
    isplitl [Hr1]; · iexact Hr1
    isplitl [Hr2]; · iexact Hr2
    isplitl [Hr3]; · iexact Hr3
    iexact Hsems
  iexists W'; isplitr
  · ipureintro; exact hW'
  · iexact HO

end Tile

end Cert.Proof.KI

end
-- ==== Proof.ScChunk.lean ====
/-
  Reading what the row-gathering call writes through one of a task's 128-row chunks gives that chunk's
  finished rows buffer: the gathered table rows plus the bias. The chunk of trip k starts at row
  1638400 + 13312 (2 s + c) + 256 k (the odd one 128 rows further), so its row x0 is the flat position
  r = 13312 (2 s + c) + 128 m + x0 with m = 2 k (resp. 2 k + 1), which cuts into (r / 13312, r % 13312 / 128,
  r % 128) = (2 s + c, m, x0): the entry x0 of row m of the task's block of the index array, the very
  entry the trip's offset list holds for row x0. Its word is below 26000, so clamping it into the table
  changes nothing. The feature r / 16384 is that of the chunk's first row, 128 dividing both 13312 and
  16384 and x0 being below 128; that is the row of the bias array the trip's eight 16-lane loads read.
-/
import proofs.«207390_g85444079387303_cont_sun_c4_501_21_alg».proof.Proof.ScBl
import Idealize.ShloMosaic.Lib.Pipeline.Value
import Idealize.ShloMosaic.Lib.ValueLayout
import Idealize.ShloMosaic.Lib.Affine

noncomputable section

namespace Cert.Proof.KI

open Cert.KernelIdeal Cert.KernelIdeal.Gen
open Idealize.ShloMosaic
open Idealize.ShloMosaic.ValueIdx

variable {F : FTy → Type}

/-- The bias row of the even chunk's first sixteen lanes in closed form: the flat position of the chunk's first
    row, 13312 (2 s + c) + 256 k, divided by the 16384 rows of a feature (a floor division of a number that is
    not negative, so the plain quotient). -/
theorem k0_off4_eq (i : grid0.Coords) (k0_t1 : Fin k0_t1_loop.trips) :
    k0_off4 i k0_t1 = ![(26624 * (i 1).val + 13312 * (i 0).val + 256 * k0_t1.val) / 16384, 0] := by
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c13312_i32 : Affine.IsInt 13312#32 (13312) := Affine.ofNat _ (by omega)
  have h_v2 : Affine.IsInt _ (26624 * ((i 1).val : Int) + 13312 * ((i 0).val : Int)) := Affine.muli h_v1 h_c13312_i32 (by omega)
  have h_c2_i32_6 : Affine.IsInt 2#32 (2) := Affine.ofNat _ (by omega)
  have h_c0_i32_4 : Affine.IsInt 0#32 (0) := Affine.ofNat _ (by omega)
  have h_c1_i32 : Affine.IsInt 1#32 (1) := Affine.ofNat _ (by omega)
  have r_k0_t1 : k0_t1.val < 52 := Nat.lt_of_lt_of_le k0_t1.isLt k0_t1_abs.2.1
  have h_arg12 : Affine.IsInt _ ((k0_t1.val : Int)) := Affine.iv h_c0_i32_4 h_c1_i32 k0_t1.val (by omega)
  have c_arg12 : (k0_t1.val : Int) ≤ 52 - 1 := Affine.iv_lt k0_t1_abs.1 k0_t1.isLt k0_t1_abs.2.2 h_arg12
  have h_v7 : Affine.IsInt _ (2 * (k0_t1.val : Int)) := Affine.muli h_c2_i32_6 h_arg12 (by omega)
  have h_c128_i32 : Affine.IsInt 128#32 (128) := Affine.ofNat _ (by omega)
  have h_v15 : Affine.IsInt _ (256 * (k0_t1.val : Int)) := Affine.muli h_v7 h_c128_i32 (by omega)
  have h_v16 : Affine.IsInt _ (26624 * ((i 1).val : Int) + 13312 * ((i 0).val : Int) + 256 * (k0_t1.val : Int)) := Affine.addi h_v2 h_v15 (by omega)
  have h_c0_i32_14 : Affine.IsInt 0#32 (0) := Affine.ofNat _ (by omega)
  rcases (show 26624 * ((i 1).val : Int) + 13312 * ((i 0).val : Int) + 256 * (k0_t1.val : Int) ≤ 0 ∨ 1 ≤ 26624 * ((i 1).val : Int) + 13312 * ((i 0).val : Int) + 256 * (k0_t1.val : Int) by omega) with hs | hs
  · have h_v18 : Affine.Fails _ := Affine.sgt_fails h_v16 h_c0_i32_14 (by omega)
    have h_v19 : Affine.IsInt _ (0) := Affine.extui_fails h_v18 (by omega)
    have h_c0_i32_15 : Affine.IsInt 0#32 (0) := Affine.ofNat _ (by omega)
    have h_v20 : Affine.Fails _ := Affine.slt_fails h_v16 h_c0_i32_15 (by omega)
    have h_v21 : Affine.IsInt _ (0) := Affine.extui_fails h_v20 (by omega)
    have h_v22 : Affine.IsInt _ (0) := Affine.subi h_v19 h_v21 (by omega)
    have h_c16384_i32 : Affine.IsInt 16384#32 (16384) := Affine.ofNat _ (by omega)
    have h_c0_i32_16 : Affine.IsInt 0#32 (0) := Affine.ofNat _ (by omega)
    have h_v23 : Affine.Holds _ := Affine.sgt_holds h_c16384_i32 h_c0_i32_16 (by omega)
    have h_v24 : Affine.IsInt _ (1) := Affine.extui_holds h_v23 (by omega)
    have h_c0_i32_17 : Affine.IsInt 0#32 (0) := Affine.ofNat _ (by omega)
    have h_v25 : Affine.Fails _ := Affine.slt_fails h_c16384_i32 h_c0_i32_17 (by omega)
    have h_v26 : Affine.IsInt _ (0) := Affine.extui_fails h_v25 (by omega)
    have h_v27 : Affine.IsInt _ (1) := Affine.subi h_v24 h_v26 (by omega)
    have h_v28 : Affine.Holds _ := Affine.ne_holds h_v22 h_v27 (by omega)
    have h_v29 : Affine.IsInt _ (26624 * ((i 1).val : Int) + 13312 * ((i 0).val : Int) + 256 * (k0_t1.val : Int)) := Affine.remsi h_v16 h_c16384_i32 (by omega)
    have h_c0_i32_18 : Affine.IsInt 0#32 (0) := Affine.ofNat _ (by omega)
    have h_v30 : Affine.Fails _ := Affine.ne_fails h_v29 h_c0_i32_18 (by omega)
    have h_v31 : Affine.Fails _ := Affine.andi_fails_right (Affine.tH h_v28) h_v30
    have h_v17 : Affine.IsInt _ (((26624 * ((i 1).val : Int) + 13312 * ((i 0).val : Int) + 256 * (k0_t1.val : Int)) / 16384)) := Affine.divsi h_v16 h_c16384_i32 (by omega)
    have h_c1_i32_19 : Affine.IsInt 1#32 (1) := Affine.ofNat _ (by omega)
    have h_v32 : Affine.IsInt _ (((26624 * ((i 1).val : Int) + 13312 * ((i 0).val : Int) + 256 * (k0_t1.val : Int)) / 16384) - 1) := Affine.subi h_v17 h_c1_i32_19 (by omega)
    have h_v33 : Affine.IsInt _ (((26624 * ((i 1).val : Int) + 13312 * ((i 0).val : Int) + 256 * (k0_t1.val : Int)) / 16384)) := Affine.select_fails h_v31 h_v32 h_v17 (by omega)
    have h_v34 : Affine.IsInt _ (((26624 * ((i 1).val : Int) + 13312 * ((i 0).val : Int) + 256 * (k0_t1.val : Int)) / 16384)) := Affine.indexCast h_v33
    have h_c0 : Affine.IsInt 0#32 (0) := Affine.ofNat _ (by omega)
    exact Affine.vec_cons h_v34 (by omega) <| Affine.vec_cons (Affine.ofNat 0 (by omega) : Affine.IsInt 0#32 0) (by omega) <| Affine.vec_nil
  · have h_v18 : Affine.Holds _ := Affine.sgt_holds h_v16 h_c0_i32_14 (by omega)
    have h_v19 : Affine.IsInt _ (1) := Affine.extui_holds h_v18 (by omega)
    have h_c0_i32_15 : Affine.IsInt 0#32 (0) := Affine.ofNat _ (by omega)
    have h_v20 : Affine.Fails _ := Affine.slt_fails h_v16 h_c0_i32_15 (by omega)
    have h_v21 : Affine.IsInt _ (0) := Affine.extui_fails h_v20 (by omega)
    have h_v22 : Affine.IsInt _ (1) := Affine.subi h_v19 h_v21 (by omega)
    have h_c16384_i32 : Affine.IsInt 16384#32 (16384) := Affine.ofNat _ (by omega)
    have h_c0_i32_16 : Affine.IsInt 0#32 (0) := Affine.ofNat _ (by omega)
    have h_v23 : Affine.Holds _ := Affine.sgt_holds h_c16384_i32 h_c0_i32_16 (by omega)
    have h_v24 : Affine.IsInt _ (1) := Affine.extui_holds h_v23 (by omega)
    have h_c0_i32_17 : Affine.IsInt 0#32 (0) := Affine.ofNat _ (by omega)
    have h_v25 : Affine.Fails _ := Affine.slt_fails h_c16384_i32 h_c0_i32_17 (by omega)
    have h_v26 : Affine.IsInt _ (0) := Affine.extui_fails h_v25 (by omega)
    have h_v27 : Affine.IsInt _ (1) := Affine.subi h_v24 h_v26 (by omega)
    have h_v28 : Affine.Fails _ := Affine.ne_fails h_v22 h_v27 (by omega)
    have h_v29 : Affine.IsInt _ (((26624 * ((i 1).val : Int) + 13312 * ((i 0).val : Int) + 256 * (k0_t1.val : Int)) % 16384)) := Affine.remsi h_v16 h_c16384_i32 (by omega)
    have h_c0_i32_18 : Affine.IsInt 0#32 (0) := Affine.ofNat _ (by omega)
    have h_v30 : Affine.Term _ := Affine.cmpi_term .ne h_v29 h_c0_i32_18
    have h_v31 : Affine.Fails _ := Affine.andi_fails_left h_v28 h_v30
    have h_v17 : Affine.IsInt _ (((26624 * ((i 1).val : Int) + 13312 * ((i 0).val : Int) + 256 * (k0_t1.val : Int)) / 16384)) := Affine.divsi h_v16 h_c16384_i32 (by omega)
    have h_c1_i32_19 : Affine.IsInt 1#32 (1) := Affine.ofNat _ (by omega)
    have h_v32 : Affine.IsInt _ (((26624 * ((i 1).val : Int) + 13312 * ((i 0).val : Int) + 256 * (k0_t1.val : Int)) / 16384) - 1) := Affine.subi h_v17 h_c1_i32_19 (by omega)
    have h_v33 : Affine.IsInt _ (((26624 * ((i 1).val : Int) + 13312 * ((i 0).val : Int) + 256 * (k0_t1.val : Int)) / 16384)) := Affine.select_fails h_v31 h_v32 h_v17 (by omega)
    have h_v34 : Affine.IsInt _ (((26624 * ((i 1).val : Int) + 13312 * ((i 0).val : Int) + 256 * (k0_t1.val : Int)) / 16384)) := Affine.indexCast h_v33
    have h_c0 : Affine.IsInt 0#32 (0) := Affine.ofNat _ (by omega)
    exact Affine.vec_cons h_v34 (by omega) <| Affine.vec_cons (Affine.ofNat 0 (by omega) : Affine.IsInt 0#32 0) (by omega) <| Affine.vec_nil

/-- Eight 16-lane vectors side by side that each read a lane function at their own sixteen lanes read it at every lane. -/
theorem blOf_eq (b0 b1 b2 b3 b4 b5 b6 b7 : FVec F S16 .f32) (g : Fin 128 → F .f32)
    (h0 : ∀ l : Fin 16, b0 (ix1 l) = g ⟨0 + l.val, by omega⟩) (h1 : ∀ l : Fin 16, b1 (ix1 l) = g ⟨16 + l.val, by omega⟩)
    (h2 : ∀ l : Fin 16, b2 (ix1 l) = g ⟨32 + l.val, by omega⟩) (h3 : ∀ l : Fin 16, b3 (ix1 l) = g ⟨48 + l.val, by omega⟩)
    (h4 : ∀ l : Fin 16, b4 (ix1 l) = g ⟨64 + l.val, by omega⟩) (h5 : ∀ l : Fin 16, b5 (ix1 l) = g ⟨80 + l.val, by omega⟩)
    (h6 : ∀ l : Fin 16, b6 (ix1 l) = g ⟨96 + l.val, by omega⟩) (h7 : ∀ l : Fin 16, b7 (ix1 l) = g ⟨112 + l.val, by omega⟩)
    (x0 x1 : Fin 128) : blOf b0 b1 b2 b3 b4 b5 b6 b7 (ix2 x0 x1) = g x1 := by
  have hx := x1.isLt
  have hl : x1.val % 16 < 16 := Nat.mod_lt _ (by norm_num)
  have hv : x1.val / 16 < 8 := by omega
  have key : ∀ v : ℕ, x1.val / 16 = v → x1.val = 16 * v + x1.val % 16 := by intro v hv'; omega
  rcases (show x1.val / 16 = 0 ∨ x1.val / 16 = 1 ∨ x1.val / 16 = 2 ∨ x1.val / 16 = 3 ∨ x1.val / 16 = 4 ∨ x1.val / 16 = 5
      ∨ x1.val / 16 = 6 ∨ x1.val / 16 = 7 by omega) with e | e | e | e | e | e | e | e
  · rw [blOf_0 _ _ _ _ _ _ _ _ (ix2 x0 x1) ⟨x1.val % 16, hl⟩ (by show x1.val = 0 + x1.val % 16; omega), h0]
    exact congrArg g (Fin.ext (by show 0 + x1.val % 16 = x1.val; omega))
  · rw [blOf_1 _ _ _ _ _ _ _ _ (ix2 x0 x1) ⟨x1.val % 16, hl⟩ (by show x1.val = 16 + x1.val % 16; omega), h1]
    exact congrArg g (Fin.ext (by show 16 + x1.val % 16 = x1.val; omega))
  · rw [blOf_2 _ _ _ _ _ _ _ _ (ix2 x0 x1) ⟨x1.val % 16, hl⟩ (by show x1.val = 32 + x1.val % 16; omega), h2]
    exact congrArg g (Fin.ext (by show 32 + x1.val % 16 = x1.val; omega))
  · rw [blOf_3 _ _ _ _ _ _ _ _ (ix2 x0 x1) ⟨x1.val % 16, hl⟩ (by show x1.val = 48 + x1.val % 16; omega), h3]
    exact congrArg g (Fin.ext (by show 48 + x1.val % 16 = x1.val; omega))
  · rw [blOf_4 _ _ _ _ _ _ _ _ (ix2 x0 x1) ⟨x1.val % 16, hl⟩ (by show x1.val = 64 + x1.val % 16; omega), h4]
    exact congrArg g (Fin.ext (by show 64 + x1.val % 16 = x1.val; omega))
  · rw [blOf_5 _ _ _ _ _ _ _ _ (ix2 x0 x1) ⟨x1.val % 16, hl⟩ (by show x1.val = 80 + x1.val % 16; omega), h5]
    exact congrArg g (Fin.ext (by show 80 + x1.val % 16 = x1.val; omega))
  · rw [blOf_6 _ _ _ _ _ _ _ _ (ix2 x0 x1) ⟨x1.val % 16, hl⟩ (by show x1.val = 96 + x1.val % 16; omega), h6]
    exact congrArg g (Fin.ext (by show 96 + x1.val % 16 = x1.val; omega))
  · rw [blOf_7 _ _ _ _ _ _ _ _ (ix2 x0 x1) ⟨x1.val % 16, hl⟩ (by show x1.val = 112 + x1.val % 16; omega), h7]
    exact congrArg g (Fin.ext (by show 112 + x1.val % 16 = x1.val; omega))

variable [FloatOps F]

section Tile
variable (d : Dev nD) (L : grid0.Coords)

theorem w_lt (L : grid0.Coords) : 2 * (L 1).val + (L 0).val < 32 := by
  have h0 : (L 0).val < 2 := (L 0).isLt
  have h1 : (L 1).val < 16 := (L 1).isLt
  omega

/-- The index scratch at (p, q): the index array at the task's block, row p, lane q. -/
theorem idxBlk_apply (fg : Buf (Elt F) (gidxLoc d)) (p : Fin 104) (q : Fin 128) :
    idxBlk d L fg (ix2 p q) = fg (ix3 (⟨2 * (L 1).val + (L 0).val, w_lt L⟩ : Fin 32) p q) := by
  unfold idxBlk
  rw [ReadAs.apply_same, View.read_apply]
  refine (cast_eq _ _).trans (congrArg fg ?_)
  show (Rect.unit (s := S32x104x128) (k0_off1 L) S1x104x128.size (k0_off1_inb L)).emb (Shape.reshapeEquiv _ (ix2 p q)) = _
  rw [reshapeEquiv_ix2_1ab]
  funext a; apply Fin.ext
  rw [Rect.emb_apply]
  have e0 : k0_off1 L 0 = 2 * (L 1).val + (L 0).val := congrFun (k0_off1_eq L) 0
  have e1 : k0_off1 L 1 = 0 := congrFun (k0_off1_eq L) 1
  have e2 : k0_off1 L 2 = 0 := congrFun (k0_off1_eq L) 2
  match a with
  | ⟨0, _⟩ => show k0_off1 L 0 + 1 * 0 = 2 * (L 1).val + (L 0).val; omega
  | ⟨1, _⟩ => show k0_off1 L 1 + 1 * p.val = p.val; omega
  | ⟨2, _⟩ => show k0_off1 L 2 + 1 * q.val = q.val; omega

/-- The index scratch at any index. -/
theorem idxBlk_apply' (fg : Buf (Elt F) (gidxLoc d)) (i : S104x128.Idx) :
    idxBlk d L fg i = fg (ix3 (⟨2 * (L 1).val + (L 0).val, w_lt L⟩ : Fin 32) (i 0) (i 1)) := by
  conv_lhs => rw [eq_ix2 i]
  exact idxBlk_apply d L fg (i 0) (i 1)

/-- A vector index matched with the one-row shape is (0, the coordinate). -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

/-- One row of the index scratch read as an offset list: entry x is the index array at the task's block, that row, lane x. -/
theorem idxRow_read (fg : Buf (Elt F) (gidxLoc d)) (off : Fin 2 → Nat) (hoff : ∀ a, off a + S1x128.size a ≤ S104x128.size a)
    (x : Fin 128) :
    (idxRowK off hoff).view.read (Elt F) (idxBlk d L fg) (ix1 x)
      = fg (ix3 (⟨2 * (L 1).val + (L 0).val, w_lt L⟩ : Fin 32)
          (⟨off 0, by have h0 : off 0 + 1 ≤ 104 := hoff 0; omega⟩ : Fin 104)
          (⟨off 1 + x.val, by have h1 : off 1 + 128 ≤ 128 := hoff 1; have := x.isLt; omega⟩ : Fin 128)) := by
  rw [View.read_apply]
  refine (cast_eq _ _).trans ?_
  rw [idxBlk_apply']
  refine congrArg fg (congrArg₂ (ix3 _) (Fin.ext ?_) (Fin.ext ?_))
  · show ((Rect.unit (s := S104x128) off S1x128.size hoff).emb (Shape.reshapeEquiv _ (ix1 x)) 0).val = off 0
    rw [reshapeEquiv_ix1_1a, Rect.emb_apply]
    show off 0 + 1 * 0 = off 0
    omega
  · show ((Rect.unit (s := S104x128) off S1x128.size hoff).emb (Shape.reshapeEquiv _ (ix1 x)) 1).val = off 1 + x.val
    rw [reshapeEquiv_ix1_1a, Rect.emb_apply]
    show off 1 + 1 * x.val = off 1 + x.val
    omega

/-- The vector index at a row-major position is that coordinate. -/
theorem rowMajor_symm_S128 (k : Fin S128.numel) :
    S128.rowMajor.symm k = ix1 (⟨k.val, k.isLt⟩ : Fin 128) := by
  apply (Equiv.symm_apply_eq _).2
  apply Fin.ext
  rw [Shape.rowMajor_val_one]

/-- The gathered rows at an index: the table at the row the index array names for the task's block, the offset
    list's row and the index's own row as lane, and at the index's own lane. -/
theorem gath_apply (ft : Buf (Elt F) (tabLoc d)) (fg : Buf (Elt F) (gidxLoc d)) (hfg : ∀ i, (fg i).toNat < 26000)
    (off : Fin 2 → Nat) (hoff : ∀ a, off a + S1x128.size a ≤ S104x128.size a) (x0 x1 : Fin 128) :
    gath d L ft fg hfg off hoff (ix2 x0 x1)
      = ft (ix2 (⟨(fg (ix3 (⟨2 * (L 1).val + (L 0).val, w_lt L⟩ : Fin 32)
            (⟨off 0, by have h0 : off 0 + 1 ≤ 104 := hoff 0; omega⟩ : Fin 104)
            (⟨off 1 + x0.val, by have h1 : off 1 + 128 ≤ 128 := hoff 1; have := x0.isLt; omega⟩ : Fin 128))).toNat, hfg _⟩ : Fin 26000) x1) := by
  unfold gath SparseCore.gatherPayload
  rw [View.read_apply]
  refine (cast_eq _ _).trans (congrArg ft ?_)
  funext a; apply Fin.ext
  have hrd := idxRow_read d L fg off hoff x0
  match a with
  | ⟨0, h0⟩ =>
    show (![0, 0] : Fin 2 → ℕ) 0 + 1 * (Shape.Gathers.idx gathers_S26000x128_S128x128 _ (ix2 x0 x1) ⟨0, h0⟩).val = _
    rw [show (⟨0, h0⟩ : Fin S26000x128.rank) = Shape.Gathers.axis gathers_S26000x128_S128x128 from rfl,
      Shape.Gathers.idx_axis]
    show 0 + 1 * ((idxRowK off hoff).view.read (Elt F) (idxBlk d L fg) (S128.rowMajor.symm _)).toNat = _
    rw [rowMajor_symm_S128]
    show 0 + 1 * ((idxRowK off hoff).view.read (Elt F) (idxBlk d L fg) (ix1 x0)).toNat = _
    rw [hrd]
    show 0 + 1 * BitVec.toNat (fg _) = BitVec.toNat (fg _)
    omega
  | ⟨1, h1⟩ =>
    show (![0, 0] : Fin 2 → ℕ) 1 + 1 * (Shape.Gathers.idx gathers_S26000x128_S128x128 _ (ix2 x0 x1) ⟨1, h1⟩).val = x1.val
    rw [Shape.Gathers.idx_of_ne _ _ _ _ (Nat.succ_ne_zero 0)]
    show 0 + 1 * x1.val = x1.val
    omega

/-- Sixteen lanes loaded from the bias scratch, as a vector, at lane l: the bias array at the load's row and lane. -/
theorem bias_read (fb : Buf (Elt F) (biasLoc d)) (off : Fin 2 → Nat) (hoff : ∀ a, off a + S1x16.size a ≤ S26x128.size a)
    (l : Fin 16) :
    shapeCast S16 (rdB d L fb off hoff) shapeCasts_S1x16_S16 (ix1 l)
      = fb (ix2 (⟨off 0, by have h0 : off 0 + 1 ≤ 26 := hoff 0; omega⟩ : Fin 26)
          (⟨off 1 + l.val, by have h1 : off 1 + 16 ≤ 128 := hoff 1; have := l.isLt; omega⟩ : Fin 128)) := by
  rw [shapeCast_1a_a_apply]
  unfold rdB
  rw [View.readAt_apply, View.read_apply]
  refine (cast_eq _ _).trans ?_
  unfold biasBlk
  rw [ReadAs.apply_same, View.read_apply]
  refine (cast_eq _ _).trans (congrArg fb ?_)
  funext a; apply Fin.ext
  match a with
  | ⟨0, _⟩ => show off 0 + 1 * 0 = off 0; omega
  | ⟨1, _⟩ => show off 1 + 1 * l.val = off 1 + l.val; omega

/-- Sixteen loaded lanes at lane l, for a load whose row and first lane are known. -/
theorem bias_lane (fb : Buf (Elt F) (biasLoc d)) (off : Fin 2 → Nat) (hoff : ∀ a, off a + S1x16.size a ≤ S26x128.size a)
    (row : Fin 26) (c0 : ℕ) (h0 : off 0 = row.val) (h1 : off 1 = c0) (l : Fin 16) (hc : c0 + l.val < 128) :
    shapeCast S16 (rdB d L fb off hoff) shapeCasts_S1x16_S16 (ix1 l) = fb (ix2 row (⟨c0 + l.val, hc⟩ : Fin 128)) := by
  rw [bias_read]
  exact congrArg₂ (fun r c => fb (ix2 r c)) (Fin.ext h0) (Fin.ext (by show off 1 + l.val = c0 + l.val; rw [h1]))

theorem rowA_lt (L : grid0.Coords) (k : Fin k0_t1_loop.trips) :
    (26624 * (L 1).val + 13312 * (L 0).val + 256 * k.val) / 16384 < 26 := by
  have hk : k.val < 52 := Nat.lt_of_lt_of_le k.isLt k0_t1_abs.2.1
  have hL0 : (L 0).val < 2 := (L 0).isLt
  have hL1 : (L 1).val < 16 := (L 1).isLt
  omega

theorem rowB_lt (L : grid0.Coords) (k : Fin k0_t1_loop.trips) :
    (26624 * (L 1).val + 13312 * (L 0).val + 256 * k.val + 128) / 16384 < 26 := by
  have hk : k.val < 52 := Nat.lt_of_lt_of_le k.isLt k0_t1_abs.2.1
  have hL0 : (L 0).val < 2 := (L 0).isLt
  have hL1 : (L 1).val < 16 := (L 1).isLt
  omega

/-- The bias of the even chunk at an index: the bias array at the feature of the chunk's first row, at the index's lane. -/
theorem blA_apply (fb : Buf (Elt F) (biasLoc d)) (k : Fin k0_t1_loop.trips) (x0 x1 : Fin 128) :
    blA d L fb k (ix2 x0 x1)
      = fb (ix2 (⟨(26624 * (L 1).val + 13312 * (L 0).val + 256 * k.val) / 16384, rowA_lt L k⟩ : Fin 26) x1) := by
  unfold blA
  refine blOf_eq _ _ _ _ _ _ _ _
    (fun c => fb (ix2 (⟨(26624 * (L 1).val + 13312 * (L 0).val + 256 * k.val) / 16384, rowA_lt L k⟩ : Fin 26) c))
    ?_ ?_ ?_ ?_ ?_ ?_ ?_ ?_ x0 x1
  · intro l; exact bias_lane d L fb _ _ _ 0 (congrFun (k0_off4_eq L k) 0) (congrFun (k0_off4_eq L k) 1) l _
  · intro l; exact bias_lane d L fb _ _ _ 16 (congrFun (k0_off4_eq L k) 0) rfl l _
  · intro l; exact bias_lane d L fb _ _ _ 32 (congrFun (k0_off4_eq L k) 0) rfl l _
  · intro l; exact bias_lane d L fb _ _ _ 48 (congrFun (k0_off4_eq L k) 0) rfl l _
  · intro l; exact bias_lane d L fb _ _ _ 64 (congrFun (k0_off4_eq L k) 0) rfl l _
  · intro l; exact bias_lane d L fb _ _ _ 80 (congrFun (k0_off4_eq L k) 0) rfl l _
  · intro l; exact bias_lane d L fb _ _ _ 96 (congrFun (k0_off4_eq L k) 0) rfl l _
  · intro l; exact bias_lane d L fb _ _ _ 112 (congrFun (k0_off4_eq L k) 0) rfl l _

/-- The bias of the odd chunk at an index. -/
theorem blB_apply (fb : Buf (Elt F) (biasLoc d)) (k : Fin k0_t1_loop.trips) (x0 x1 : Fin 128) :
    blB d L fb k (ix2 x0 x1)
      = fb (ix2 (⟨(26624 * (L 1).val + 13312 * (L 0).val + 256 * k.val + 128) / 16384, rowB_lt L k⟩ : Fin 26) x1) := by
  unfold blB
  refine blOf_eq _ _ _ _ _ _ _ _
    (fun c => fb (ix2 (⟨(26624 * (L 1).val + 13312 * (L 0).val + 256 * k.val + 128) / 16384, rowB_lt L k⟩ : Fin 26) c))
    ?_ ?_ ?_ ?_ ?_ ?_ ?_ ?_ x0 x1
  · intro l; exact bias_lane d L fb _ _ _ 0 (congrFun (k0_off22_eq L k) 0) (congrFun (k0_off22_eq L k) 1) l _
  · intro l; exact bias_lane d L fb _ _ _ 16 (congrFun (k0_off23_eq L k) 0) (congrFun (k0_off23_eq L k) 1) l _
  · intro l; exact bias_lane d L fb _ _ _ 32 (congrFun (k0_off24_eq L k) 0) (congrFun (k0_off24_eq L k) 1) l _
  · intro l; exact bias_lane d L fb _ _ _ 48 (congrFun (k0_off25_eq L k) 0) (congrFun (k0_off25_eq L k) 1) l _
  · intro l; exact bias_lane d L fb _ _ _ 64 (congrFun (k0_off26_eq L k) 0) (congrFun (k0_off26_eq L k) 1) l _
  · intro l; exact bias_lane d L fb _ _ _ 80 (congrFun (k0_off27_eq L k) 0) (congrFun (k0_off27_eq L k) 1) l _
  · intro l; exact bias_lane d L fb _ _ _ 96 (congrFun (k0_off28_eq L k) 0) (congrFun (k0_off28_eq L k) 1) l _
  · intro l; exact bias_lane d L fb _ _ _ 112 (congrFun (k0_off29_eq L k) 0) (congrFun (k0_off29_eq L k) 1) l _

/-- Reading what the call writes through a chunk whose first row is 1638400 + r0, with r0 = 13312 (2 s + c) + 128 m
    for the m-th row of the task's block of the index array: at (x0, x1) it is the table at the row the index
    array names at (2 s + c, m, x0), lane x1, plus the bias array at row r0 / 16384, lane x1. -/
theorem scRows_chunk (ft : Buf (Elt F) (tabLoc d)) (fg : Buf (Elt F) (gidxLoc d)) (fb : Buf (Elt F) (biasLoc d))
    (prev : Buf (Elt F) (outLoc d)) (hfg : ∀ i, (fg i).toNat < 26000) (m : Fin 104) (x0 x1 : Fin 128)
    (R : Fin 2064384) (hR : R.val = 1638400 + 13312 * (2 * (L 1).val + (L 0).val) + 128 * m.val + x0.val)
    (row : Fin 26) (hrow : row.val = (13312 * (2 * (L 1).val + (L 0).val) + 128 * m.val) / 16384) :
    scRows fg ft fb prev (ix2 R x1)
      = FloatOps.addf
          (ft (ix2 (⟨(fg (ix3 (⟨2 * (L 1).val + (L 0).val, w_lt L⟩ : Fin 32) m x0)).toNat, hfg _⟩ : Fin 26000) x1))
          (fb (ix2 row x1)) := by
  have hL0 : (L 0).val < 2 := (L 0).isLt
  have hL1 : (L 1).val < 16 := (L 1).isLt
  have hm := m.isLt
  have hx0 := x0.isLt
  unfold scRows
  rw [dif_pos (show 1638400 ≤ ((ix2 R x1 : S2064384x128.Idx) 0).val from by show 1638400 ≤ R.val; omega)]
  refine congrArg₂ FloatOps.addf ?_ ?_
  · refine congrArg (fun r => ft (ix2 r x1)) (Fin.ext ?_)
    show min (fg (ix3 ⟨(R.val - 1638400) / 13312, _⟩ ⟨(R.val - 1638400) % 13312 / 128, _⟩ ⟨(R.val - 1638400) % 128, _⟩)).toNat 25999
      = (fg (ix3 (⟨2 * (L 1).val + (L 0).val, w_lt L⟩ : Fin 32) m x0)).toNat
    rw [Nat.min_eq_left (Nat.le_of_lt_succ (hfg _))]
    refine congrArg BitVec.toNat (congrArg fg (funext fun a => Fin.ext ?_))
    match a with
    | ⟨0, _⟩ => show (R.val - 1638400) / 13312 = 2 * (L 1).val + (L 0).val; omega
    | ⟨1, _⟩ => show (R.val - 1638400) % 13312 / 128 = m.val; omega
    | ⟨2, _⟩ => show (R.val - 1638400) % 128 = x0.val; omega
  · refine congrArg (fun r => fb (ix2 r x1)) (Fin.ext ?_)
    show (R.val - 1638400) / 16384 = row.val
    omega

/-- Reading what the call writes through the even chunk of trip k gives that chunk's finished rows. -/
theorem chunkA_read (ft : Buf (Elt F) (tabLoc d)) (fg : Buf (Elt F) (gidxLoc d)) (fb : Buf (Elt F) (biasLoc d))
    (prev : Buf (Elt F) (outLoc d)) (hfg : ∀ i, (fg i).toNat < 26000) (k : Fin k0_t1_loop.trips) (x : S128x128.Idx) :
    scRows fg ft fb prev ((chunkA L k).view.emb x) = doneA d L ft fg hfg fb k x := by
  obtain ⟨x0, x1, rfl⟩ : ∃ (x0 x1 : Fin 128), x = ix2 x0 x1 := ⟨x 0, x 1, eq_ix2 x⟩
  have hk : k.val < 52 := Nat.lt_of_lt_of_le k.isLt k0_t1_abs.2.1
  have hL0 : (L 0).val < 2 := (L 0).isLt
  have hL1 : (L 1).val < 16 := (L 1).isLt
  have hx0 := x0.isLt
  have e0 : k0_off20 L k 0 = 26624 * (L 1).val + 13312 * (L 0).val + 256 * k.val + 1638400 := congrFun (k0_off20_eq L k) 0
  have e1 : k0_off20 L k 1 = 0 := congrFun (k0_off20_eq L k) 1
  have hi : (chunkA L k).view.emb (ix2 x0 x1)
      = ix2 (⟨26624 * (L 1).val + 13312 * (L 0).val + 256 * k.val + 1638400 + x0.val, by omega⟩ : Fin 2064384) x1 := by
    funext a; apply Fin.ext
    match a with
    | ⟨0, _⟩ =>
      show k0_off20 L k 0 + 1 * x0.val = 26624 * (L 1).val + 13312 * (L 0).val + 256 * k.val + 1638400 + x0.val
      omega
    | ⟨1, _⟩ => show k0_off20 L k 1 + 1 * x1.val = x1.val; omega
  have f0 : k0_off2 k 0 = 2 * k.val := congrFun (k0_off2_eq k) 0
  have f1 : k0_off2 k 1 = 0 := congrFun (k0_off2_eq k) 1
  rw [hi, scRows_chunk d L ft fg fb prev hfg ⟨2 * k.val, by omega⟩ x0 x1 _
    (by show 26624 * (L 1).val + 13312 * (L 0).val + 256 * k.val + 1638400 + x0.val
          = 1638400 + 13312 * (2 * (L 1).val + (L 0).val) + 128 * (2 * k.val) + x0.val
        omega)
    ⟨(26624 * (L 1).val + 13312 * (L 0).val + 256 * k.val) / 16384, rowA_lt L k⟩
    (by show (26624 * (L 1).val + 13312 * (L 0).val + 256 * k.val) / 16384
          = (13312 * (2 * (L 1).val + (L 0).val) + 128 * (2 * k.val)) / 16384
        omega)]
  unfold doneA gathA
  rw [gath_apply, blA_apply]
  refine congrArg₂ FloatOps.addf (congrArg (fun r => ft (ix2 r x1)) (Fin.ext ?_)) rfl
  refine congrArg BitVec.toNat (congrArg fg (congrArg₂ (ix3 _) (Fin.ext ?_) (Fin.ext ?_)))
  · show 2 * k.val = k0_off2 k 0; omega
  · show x0.val = k0_off2 k 1 + x0.val; omega

/-- Reading what the call writes through the odd chunk of trip k gives that chunk's finished rows. -/
theorem chunkB_read (ft : Buf (Elt F) (tabLoc d)) (fg : Buf (Elt F) (gidxLoc d)) (fb : Buf (Elt F) (biasLoc d))
    (prev : Buf (Elt F) (outLoc d)) (hfg : ∀ i, (fg i).toNat < 26000) (k : Fin k0_t1_loop.trips) (x : S128x128.Idx) :
    scRows fg ft fb prev ((chunkB L k).view.emb x) = doneB d L ft fg hfg fb k x := by
  obtain ⟨x0, x1, rfl⟩ : ∃ (x0 x1 : Fin 128), x = ix2 x0 x1 := ⟨x 0, x 1, eq_ix2 x⟩
  have hk : k.val < 52 := Nat.lt_of_lt_of_le k.isLt k0_t1_abs.2.1
  have hL0 : (L 0).val < 2 := (L 0).isLt
  have hL1 : (L 1).val < 16 := (L 1).isLt
  have hx0 := x0.isLt
  have e0 : k0_off38 L k 0 = 26624 * (L 1).val + 13312 * (L 0).val + 256 * k.val + 1638528 := congrFun (k0_off38_eq L k) 0
  have e1 : k0_off38 L k 1 = 0 := congrFun (k0_off38_eq L k) 1
  have hi : (chunkB L k).view.emb (ix2 x0 x1)
      = ix2 (⟨26624 * (L 1).val + 13312 * (L 0).val + 256 * k.val + 1638528 + x0.val, by omega⟩ : Fin 2064384) x1 := by
    funext a; apply Fin.ext
    match a with
    | ⟨0, _⟩ =>
      show k0_off38 L k 0 + 1 * x0.val = 26624 * (L 1).val + 13312 * (L 0).val + 256 * k.val + 1638528 + x0.val
      omega
    | ⟨1, _⟩ => show k0_off38 L k 1 + 1 * x1.val = x1.val; omega
  have f0 : k0_off3 k 0 = 2 * k.val + 1 := congrFun (k0_off3_eq k) 0
  have f1 : k0_off3 k 1 = 0 := congrFun (k0_off3_eq k) 1
  rw [hi, scRows_chunk d L ft fg fb prev hfg ⟨2 * k.val + 1, by omega⟩ x0 x1 _
    (by show 26624 * (L 1).val + 13312 * (L 0).val + 256 * k.val + 1638528 + x0.val
          = 1638400 + 13312 * (2 * (L 1).val + (L 0).val) + 128 * (2 * k.val + 1) + x0.val
        omega)
    ⟨(26624 * (L 1).val + 13312 * (L 0).val + 256 * k.val + 128) / 16384, rowB_lt L k⟩
    (by show (26624 * (L 1).val + 13312 * (L 0).val + 256 * k.val + 128) / 16384
          = (13312 * (2 * (L 1).val + (L 0).val) + 128 * (2 * k.val + 1)) / 16384
        omega)]
  unfold doneB gathB
  rw [gath_apply, blB_apply]
  refine congrArg₂ FloatOps.addf (congrArg (fun r => ft (ix2 r x1)) (Fin.ext ?_)) rfl
  refine congrArg BitVec.toNat (congrArg fg (congrArg₂ (ix3 _) (Fin.ext ?_) (Fin.ext ?_)))
  · show 2 * k.val + 1 = k0_off3 k 0; omega
  · show x0.val = k0_off3 k 1 + x0.val; omega

end Tile

end Cert.Proof.KI

end
-- ==== Proof.ScFinal.lean ====
/-
  A vector subcore's task, in the form the launch takes it: the task body's theorem with the per-chunk value facts supplied.
-/
import proofs.«207390_g85444079387303_cont_sun_c4_501_21_alg».proof.Proof.Setup
import proofs.«207390_g85444079387303_cont_sun_c4_501_21_alg».proof.Proof.Spec
import proofs.«207390_g85444079387303_cont_sun_c4_501_21_alg».proof.Proof.Gen.KernelIdeal.Skeleton
import proofs.«207390_g85444079387303_cont_sun_c4_501_21_alg».proof.Proof.ScTile
import proofs.«207390_g85444079387303_cont_sun_c4_501_21_alg».proof.Proof.ScChunk
import proofs.«207390_g85444079387303_cont_sun_c4_501_21_alg».proof.Proof.ScObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The task on any vector subcore of the grid: from its operands' shares and its output chunks to the chunks at what the
    call writes, its scoped storage handed back. -/
theorem tile_body_stmt : TileBodyStmt (F := F) := fun hF d L sh ft fg fb prev hfg O W hO =>
  tile_body (F := F) d L sh O ft fg hfg fb hF prev W hO
    (fun k x => chunkA_read (F := F) d L ft fg fb prev hfg k x) (fun k x => chunkB_read (F := F) d L ft fg fb prev hfg k x)

end Cert.Proof.KI

end
-- ==== Proof.TcBody.lean ====
/-
  The numeric-token kernel's body, run once at symbolic staging buffers: from the three input blocks and the output
  block held whole, it returns leaving the inputs as they were and the output block at contents the run finds
  (a list of one hundred slice stores over the inputs' loads).
-/
import proofs.«207390_g85444079387303_cont_sun_c4_501_21_alg».proof.Proof.Setup
import proofs.«207390_g85444079387303_cont_sun_c4_501_21_alg».proof.Proof.Gen.KernelIdeal.Skeleton
import Idealize.ShloMosaic.Lib.Tactic

noncomputable section

namespace Cert.Proof.KI.Tc

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What the body leaves in the output block, WITH the proof that from the four staging buffers held whole the kernel
    runs to its return handing back the inputs as they were and the output block at the witness. -/
noncomputable def tcRun (c : Dev nD) (i : grid1.Coords)
    (M1 : Memref sig .tc .vmem S512x100 .f32) (h1 : M1.IsWhole) (M2 : Memref sig .tc .vmem S100x128 .f32) (h2 : M2.IsWhole)
    (M3 : Memref sig .tc .vmem S100x128 .f32) (h3 : M3.IsWhole) (M4 : Memref sig .tc .hbm S126x16384x128 .f32) (h4 : M4.IsWhole)
    (M5 : Memref sig .tc .vmem S100x512x128 .f32) (h5 : M5.IsWhole)
    (f1 : Bf (F := F) c M1) (f2 : Bf (F := F) c M2) (f3 : Bf (F := F) c M3) :
    { W : Bf (F := F) c M5 // ∀ (f5 : Bf (F := F) c M5) (E : Set ℕ) (Q : PUnit → sProp 𝕄),
        iprop(pt c M1 f1 ∗ pt c M2 f2 ∗ pt c M3 f3 ∗ pt c M5 f5
          ∗ (iprop(pt c M1 f1 ∗ pt c M2 f2 ∗ pt c M3 f3 ∗ pt c M5 W) -∗ Q ⟨⟩))
          ⊢ wp frame (wpE (defs₀ (F := F)) Variants.none c none) E (cc1__tc_num_body i M1 h1 M2 h2 M3 h3 M4 h4 M5 h5) Q } := by
  refine ⟨?_, fun f5 E Q => ?run⟩
  case run =>
    iintro ⟨H1, H2, H3, H5, Hk⟩
    sl_exec_parts!
    sl_step
    iapply Hk
    isplitl [H1]; · iexact H1
    isplitl [H2]; · iexact H2
    isplitl [H3]; · iexact H3
    iexact H5

end Cert.Proof.KI.Tc

end
-- ==== Proof.TcVal.lean ====
/-
  What the body's one hundred stores leave in the output block, read back as ONE function of the three input blocks:
  at (f, r, l) it is x[r, f] * w[f, l] + b[f, l]. Each store's payload agrees with that function on its slice,
  and the slices cover the block.
-/
import proofs.«207390_g85444079387303_cont_sun_c4_501_21_alg».proof.Proof.TcBody
import Idealize.ShloMosaic.Lib.Pipeline.Value
import Idealize.ShloMosaic.Lib.ValueIdx

noncomputable section

namespace Cert.Proof.KI.Tc

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One token block as a function of the three input blocks: row r of feature f is x[r,f] * w[f,·] + b[f,·]. -/
def outF (X0 : S512x100.Idx → Elt F .f32) (X1 X2 : S100x128.Idx → Elt F .f32) : S100x512x128.Idx → Elt F .f32 :=
  fun i => FloatOps.addf (FloatOps.mulf (X0 (ValueIdx.ix2 (i 1) (i 0))) (X1 (ValueIdx.ix2 (i 0) (i 2)))) (X2 (ValueIdx.ix2 (i 0) (i 2)))

/-- The payload stored at feature f, from column f of x and rows f of w and b, is the function on slice f. -/
theorem piece_ok (X0 : S512x100.Idx → Elt F .f32) (X1 X2 : S100x128.Idx → Elt F .f32) (f : ℕ)
    (inb5 : ∀ a, (![f, 0, 0] : Fin 3 → ℕ) a + S1x512x128.size a ≤ S100x512x128.size a)
    (inb1 : ∀ a, (![0, f] : Fin 2 → ℕ) a + S512x1.size a ≤ S512x100.size a)
    (inb2 : ∀ a, (![f, 0] : Fin 2 → ℕ) a + S1x128.size a ≤ S100x128.size a)
    (h1 : S512x1.Broadcasts S512x128) (h2 : S1x128.Broadcasts S512x128) (h3 : S512x128.ShapeCasts S1x512x128)
    (x : S1x512x128.Idx) :
    shapeCast S1x512x128 (addf (mulf (broadcastTo S512x128 (View.ld X0 (Rect.unit (s := S512x100) ![0, f] S512x1.size inb1)) h1)
        (broadcastTo S512x128 (View.ld X1 (Rect.unit (s := S100x128) ![f, 0] S1x128.size inb2)) h2))
        (broadcastTo S512x128 (View.ld X2 (Rect.unit (s := S100x128) ![f, 0] S1x128.size inb2)) h2)) h3 x
      = outF X0 X1 X2 ((Rect.unit (s := S100x512x128) ![f, 0, 0] S1x512x128.size inb5).emb x) := by
  have e := shapeCast_addUnit_apply (α := Elt F .f32) ![512, 128]
    (addf (mulf (broadcastTo S512x128 (View.ld X0 (Rect.unit (s := S512x100) ![0, f] S512x1.size inb1)) h1)
        (broadcastTo S512x128 (View.ld X1 (Rect.unit (s := S100x128) ![f, 0] S1x128.size inb2)) h2))
        (broadcastTo S512x128 (View.ld X2 (Rect.unit (s := S100x128) ![f, 0] S1x128.size inb2)) h2)) h3 x
  refine e.trans ?_
  show FloatOps.addf (FloatOps.mulf (broadcastTo S512x128 (View.ld X0 (Rect.unit (s := S512x100) ![0, f] S512x1.size inb1)) h1 (fun a => x a.succ))
        (broadcastTo S512x128 (View.ld X1 (Rect.unit (s := S100x128) ![f, 0] S1x128.size inb2)) h2 (fun a => x a.succ)))
        (broadcastTo S512x128 (View.ld X2 (Rect.unit (s := S100x128) ![f, 0] S1x128.size inb2)) h2 (fun a => x a.succ)) = _
  have b1 := broadcastTo_apply (View.ld X0 (Rect.unit (s := S512x100) ![0, f] S512x1.size inb1)) h1 (fun a => x a.succ) (ValueIdx.ix2 (x 1) 0) (by intro a; fin_cases a <;> simp)
  have b2 := broadcastTo_apply (View.ld X1 (Rect.unit (s := S100x128) ![f, 0] S1x128.size inb2)) h2 (fun a => x a.succ) (ValueIdx.ix2 0 (x 2)) (by intro a; fin_cases a <;> simp)
  have b3 := broadcastTo_apply (View.ld X2 (Rect.unit (s := S100x128) ![f, 0] S1x128.size inb2)) h2 (fun a => x a.succ) (ValueIdx.ix2 0 (x 2)) (by intro a; fin_cases a <;> simp)
  rw [b1, b2, b3]
  have hx0 : (x 0).val = 0 := by have := (x 0).isLt; simp at this; omega
  unfold outF View.ld
  have e0 : (Rect.unit (s := S512x100) ![0, f] S512x1.size inb1).idx (ValueIdx.ix2 (x 1) 0)
      = ValueIdx.ix2 ((Rect.unit (s := S100x512x128) ![f, 0, 0] S1x512x128.size inb5).emb x 1) ((Rect.unit (s := S100x512x128) ![f, 0, 0] S1x512x128.size inb5).emb x 0) := by
    funext a; fin_cases a <;> (apply Fin.ext; show ((Rect.unit _ _ _).emb _ _).val = _; simp [Rect.emb_apply, hx0])
  have e1 : (Rect.unit (s := S100x128) ![f, 0] S1x128.size inb2).idx (ValueIdx.ix2 0 (x 2))
      = ValueIdx.ix2 ((Rect.unit (s := S100x512x128) ![f, 0, 0] S1x512x128.size inb5).emb x 0) ((Rect.unit (s := S100x512x128) ![f, 0, 0] S1x512x128.size inb5).emb x 2) := by
    funext a; fin_cases a <;> (apply Fin.ext; show ((Rect.unit _ _ _).emb _ _).val = _; simp [Rect.emb_apply, hx0])
  rw [e0, e1]
  rfl

/-- A list of stores all of whose payloads agree with `G` on their slices, and whose slices hold every index of
    feature below `N`. -/
def Ok (G : S100x512x128.Idx → Elt F .f32) (N : ℕ) (L : List (View.Piece (Elt F) S100x512x128 .f32)) : Prop :=
  (∀ p ∈ L, ∀ x : p.1.shape.Idx, p.2 x = G (p.1.emb x)) ∧ ∀ y : S100x512x128.Idx, (y 0).val < N → ∃ p ∈ L, y ∈ p.1.set

theorem Ok.nil (G : S100x512x128.Idx → Elt F .f32) : Ok G 0 [] :=
  ⟨fun p hp => absurd hp List.not_mem_nil, fun y h => absurd h (Nat.not_lt_zero _)⟩

theorem Ok.cons {G : S100x512x128.Idx → Elt F .f32} {N : ℕ} {L : List (View.Piece (Elt F) S100x512x128 .f32)} (h : Ok G N L)
    (inb5 : ∀ a, (![N, 0, 0] : Fin 3 → ℕ) a + S1x512x128.size a ≤ S100x512x128.size a)
    (pl : (Rect.unit (s := S100x512x128) ![N, 0, 0] S1x512x128.size inb5).shape.Idx → Elt F .f32)
    (hp : ∀ x, pl x = G ((Rect.unit (s := S100x512x128) ![N, 0, 0] S1x512x128.size inb5).emb x)) :
    Ok G (N + 1) ((⟨Rect.unit (s := S100x512x128) ![N, 0, 0] S1x512x128.size inb5, pl⟩ : View.Piece (Elt F) S100x512x128 .f32) :: L) := by
  refine ⟨List.forall_mem_cons.2 ⟨hp, h.1⟩, fun y hy => ?_⟩
  by_cases hN : (y 0).val < N
  · obtain ⟨p, hp', hyp⟩ := h.2 y hN
    exact ⟨p, List.mem_cons_of_mem _ hp', hyp⟩
  · refine ⟨_, List.mem_cons_self, ?_⟩
    rw [Rect.mem_set_unit]
    intro a
    have h1 := (y 1).isLt
    have h2 := (y 2).isLt
    fin_cases a
    · show N ≤ (y 0).val ∧ (y 0).val < N + 1; omega
    · show 0 ≤ (y 1).val ∧ (y 1).val < 0 + 512; exact ⟨Nat.zero_le _, by simpa using h1⟩
    · show 0 ≤ (y 2).val ∧ (y 2).val < 0 + 128; exact ⟨Nat.zero_le _, by simpa using h2⟩

theorem ok_2 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 2 (tcRun.sl.H5_2 c M1 M2 M3 f1 f2 f3) := by
  unfold tcRun.sl.H5_2
  exact (Ok.cons (Ok.cons (Ok.nil _) _ _ (fun x => piece_ok _ _ _ 0 inb_S100x512x128_S1x512x128_0_0_0 inb_S512x100_S512x1_0_0 inb_S100x128_S1x128_0_0 broadcasts_S512x1_S512x128 broadcasts_S1x128_S512x128 shapeCasts_S512x128_S1x512x128 x)) _ _ (fun x => piece_ok _ _ _ 1 inb_S100x512x128_S1x512x128_1_0_0 inb_S512x100_S512x1_0_1 inb_S100x128_S1x128_1_0 broadcasts_S512x1_S512x128 broadcasts_S1x128_S512x128 shapeCasts_S512x128_S1x512x128 x))

theorem ok_5 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 5 (tcRun.sl.H5_5 c M1 M2 M3 f1 f2 f3) := by
  unfold tcRun.sl.H5_5
  exact (Ok.cons (Ok.cons (Ok.cons (ok_2 c M1 M2 M3 f1 f2 f3) _ _ (fun x => piece_ok _ _ _ 2 inb_S100x512x128_S1x512x128_2_0_0 inb_S512x100_S512x1_0_2 inb_S100x128_S1x128_2_0 broadcasts_S512x1_S512x128 broadcasts_S1x128_S512x128 shapeCasts_S512x128_S1x512x128 x)) _ _ (fun x => piece_ok _ _ _ 3 inb_S100x512x128_S1x512x128_3_0_0 inb_S512x100_S512x1_0_3 inb_S100x128_S1x128_3_0 broadcasts_S512x1_S512x128 broadcasts_S1x128_S512x128 shapeCasts_S512x128_S1x512x128 x)) _ _ (fun x => piece_ok _ _ _ 4 inb_S100x512x128_S1x512x128_4_0_0 inb_S512x100_S512x1_0_4 inb_S100x128_S1x128_4_0 broadcasts_S512x1_S512x128 broadcasts_S1x128_S512x128 shapeCasts_S512x128_S1x512x128 x))

theorem ok_8 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 8 (tcRun.sl.H5_8 c M1 M2 M3 f1 f2 f3) := by
  unfold tcRun.sl.H5_8
  exact (Ok.cons (Ok.cons (Ok.cons (ok_5 c M1 M2 M3 f1 f2 f3) _ _ (fun x => piece_ok _ _ _ 5 inb_S100x512x128_S1x512x128_5_0_0 inb_S512x100_S512x1_0_5 inb_S100x128_S1x128_5_0 broadcasts_S512x1_S512x128 broadcasts_S1x128_S512x128 shapeCasts_S512x128_S1x512x128 x)) _ _ (fun x => piece_ok _ _ _ 6 inb_S100x512x128_S1x512x128_6_0_0 inb_S512x100_S512x1_0_6 inb_S100x128_S1x128_6_0 broadcasts_S512x1_S512x128 broadcasts_S1x128_S512x128 shapeCasts_S512x128_S1x512x128 x)) _ _ (fun x => piece_ok _ _ _ 7 inb_S100x512x128_S1x512x128_7_0_0 inb_S512x100_S512x1_0_7 inb_S100x128_S1x128_7_0 broadcasts_S512x1_S512x128 broadcasts_S1x128_S512x128 shapeCasts_S512x128_S1x512x128 x))

theorem ok_11 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 11 (tcRun.sl.H5_11 c M1 M2 M3 f1 f2 f3) := by
  unfold tcRun.sl.H5_11
  exact (Ok.cons (Ok.cons (Ok.cons (ok_8 c M1 M2 M3 f1 f2 f3) _ _ (fun x => piece_ok _ _ _ 8 inb_S100x512x128_S1x512x128_8_0_0 inb_S512x100_S512x1_0_8 inb_S100x128_S1x128_8_0 broadcasts_S512x1_S512x128 broadcasts_S1x128_S512x128 shapeCasts_S512x128_S1x512x128 x)) _ _ (fun x => piece_ok _ _ _ 9 inb_S100x512x128_S1x512x128_9_0_0 inb_S512x100_S512x1_0_9 inb_S100x128_S1x128_9_0 broadcasts_S512x1_S512x128 broadcasts_S1x128_S512x128 shapeCasts_S512x128_S1x512x128 x)) _ _ (fun x => piece_ok _ _ _ 10 inb_S100x512x128_S1x512x128_10_0_0 inb_S512x100_S512x1_0_10 inb_S100x128_S1x128_10_0 broadcasts_S512x1_S512x128 broadcasts_S1x128_S512x128 shapeCasts_S512x128_S1x512x128 x))

theorem ok_14 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 14 (tcRun.sl.H5_14 c M1 M2 M3 f1 f2 f3) := by
  unfold tcRun.sl.H5_14
  exact (Ok.cons (Ok.cons (Ok.cons (ok_11 c M1 M2 M3 f1 f2 f3) _ _ (fun x => piece_ok _ _ _ 11 inb_S100x512x128_S1x512x128_11_0_0 inb_S512x100_S512x1_0_11 inb_S100x128_S1x128_11_0 broadcasts_S512x1_S512x128 broadcasts_S1x128_S512x128 shapeCasts_S512x128_S1x512x128 x)) _ _ (fun x => piece_ok _ _ _ 12 inb_S100x512x128_S1x512x128_12_0_0 inb_S512x100_S512x1_0_12 inb_S100x128_S1x128_12_0 broadcasts_S512x1_S512x128 broadcasts_S1x128_S512x128 shapeCasts_S512x128_S1x512x128 x)) _ _ (fun x => piece_ok _ _ _ 13 inb_S100x512x128_S1x512x128_13_0_0 inb_S512x100_S512x1_0_13 inb_S100x128_S1x128_13_0 broadcasts_S512x1_S512x128 broadcasts_S1x128_S512x128 shapeCasts_S512x128_S1x512x128 x))

theorem ok_17 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 17 (tcRun.sl.H5_17 c M1 M2 M3 f1 f2 f3) := by
  unfold tcRun.sl.H5_17
  exact (Ok.cons (Ok.cons (Ok.cons (ok_14 c M1 M2 M3 f1 f2 f3) _ _ (fun x => piece_ok _ _ _ 14 inb_S100x512x128_S1x512x128_14_0_0 inb_S512x100_S512x1_0_14 inb_S100x128_S1x128_14_0 broadcasts_S512x1_S512x128 broadcasts_S1x128_S512x128 shapeCasts_S512x128_S1x512x128 x)) _ _ (fun x => piece_ok _ _ _ 15 inb_S100x512x128_S1x512x128_15_0_0 inb_S512x100_S512x1_0_15 inb_S100x128_S1x128_15_0 broadcasts_S512x1_S512x128 broadcasts_S1x128_S512x128 shapeCasts_S512x128_S1x512x128 x)) _ _ (fun x => piece_ok _ _ _ 16 inb_S100x512x128_S1x512x128_16_0_0 inb_S512x100_S512x1_0_16 inb_S100x128_S1x128_16_0 broadcasts_S512x1_S512x128 broadcasts_S1x128_S512x128 shapeCasts_S512x128_S1x512x128 x))

theorem ok_19 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 19 (tcRun.sl.H5_19 c M1 M2 M3 f1 f2 f3) := by
  unfold tcRun.sl.H5_19
  exact (Ok.cons (Ok.cons (ok_17 c M1 M2 M3 f1 f2 f3) _ _ (fun x => piece_ok _ _ _ 17 inb_S100x512x128_S1x512x128_17_0_0 inb_S512x100_S512x1_0_17 inb_S100x128_S1x128_17_0 broadcasts_S512x1_S512x128 broadcasts_S1x128_S512x128 shapeCasts_S512x128_S1x512x128 x)) _ _ (fun x => piece_ok _ _ _ 18 inb_S100x512x128_S1x512x128_18_0_0 inb_S512x100_S512x1_0_18 inb_S100x128_S1x128_18_0 broadcasts_S512x1_S512x128 broadcasts_S1x128_S512x128 shapeCasts_S512x128_S1x512x128 x))

theorem ok_22 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 22 (tcRun.sl.H5_22 c M1 M2 M3 f1 f2 f3) := by
  unfold tcRun.sl.H5_22
  exact (Ok.cons (Ok.cons (Ok.cons (ok_19 c M1 M2 M3 f1 f2 f3) _ _ (fun x => piece_ok _ _ _ 19 inb_S100x512x128_S1x512x128_19_0_0 inb_S512x100_S512x1_0_19 inb_S100x128_S1x128_19_0 broadcasts_S512x1_S512x128 broadcasts_S1x128_S512x128 shapeCasts_S512x128_S1x512x128 x)) _ _ (fun x => piece_ok _ _ _ 20 inb_S100x512x128_S1x512x128_20_0_0 inb_S512x100_S512x1_0_20 inb_S100x128_S1x128_20_0 broadcasts_S512x1_S512x128 broadcasts_S1x128_S512x128 shapeCasts_S512x128_S1x512x128 x)) _ _ (fun x => piece_ok _ _ _ 21 inb_S100x512x128_S1x512x128_21_0_0 inb_S512x100_S512x1_0_21 inb_S100x128_S1x128_21_0 broadcasts_S512x1_S512x128 broadcasts_S1x128_S512x128 shapeCasts_S512x128_S1x512x128 x))

theorem ok_25 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 25 (tcRun.sl.H5_25 c M1 M2 M3 f1 f2 f3) := by
  unfold tcRun.sl.H5_25
  exact (Ok.cons (Ok.cons (Ok.cons (ok_22 c M1 M2 M3 f1 f2 f3) _ _ (fun x => piece_ok _ _ _ 22 inb_S100x512x128_S1x512x128_22_0_0 inb_S512x100_S512x1_0_22 inb_S100x128_S1x128_22_0 broadcasts_S512x1_S512x128 broadcasts_S1x128_S512x128 shapeCasts_S512x128_S1x512x128 x)) _ _ (fun x => piece_ok _ _ _ 23 inb_S100x512x128_S1x512x128_23_0_0 inb_S512x100_S512x1_0_23 inb_S100x128_S1x128_23_0 broadcasts_S512x1_S512x128 broadcasts_S1x128_S512x128 shapeCasts_S512x128_S1x512x128 x)) _ _ (fun x => piece_ok _ _ _ 24 inb_S100x512x128_S1x512x128_24_0_0 inb_S512x100_S512x1_0_24 inb_S100x128_S1x128_24_0 broadcasts_S512x1_S512x128 broadcasts_S1x128_S512x128 shapeCasts_S512x128_S1x512x128 x))

theorem ok_28 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 28 (tcRun.sl.H5_28 c M1 M2 M3 f1 f2 f3) := by
  unfold tcRun.sl.H5_28
  exact (Ok.cons (Ok.cons (Ok.cons (ok_25 c M1 M2 M3 f1 f2 f3) _ _ (fun x => piece_ok _ _ _ 25 inb_S100x512x128_S1x512x128_25_0_0 inb_S512x100_S512x1_0_25 inb_S100x128_S1x128_25_0 broadcasts_S512x1_S512x128 broadcasts_S1x128_S512x128 shapeCasts_S512x128_S1x512x128 x)) _ _ (fun x => piece_ok _ _ _ 26 inb_S100x512x128_S1x512x128_26_0_0 inb_S512x100_S512x1_0_26 inb_S100x128_S1x128_26_0 broadcasts_S512x1_S512x128 broadcasts_S1x128_S512x128 shapeCasts_S512x128_S1x512x128 x)) _ _ (fun x => piece_ok _ _ _ 27 inb_S100x512x128_S1x512x128_27_0_0 inb_S512x100_S512x1_0_27 inb_S100x128_S1x128_27_0 broadcasts_S512x1_S512x128 broadcasts_S1x128_S512x128 shapeCasts_S512x128_S1x512x128 x))

theorem ok_31 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 31 (tcRun.sl.H5_31 c M1 M2 M3 f1 f2 f3) := by
  unfold tcRun.sl.H5_31
  exact (Ok.cons (Ok.cons (Ok.cons (ok_28 c M1 M2 M3 f1 f2 f3) _ _ (fun x => piece_ok _ _ _ 28 inb_S100x512x128_S1x512x128_28_0_0 inb_S512x100_S512x1_0_28 inb_S100x128_S1x128_28_0 broadcasts_S512x1_S512x128 broadcasts_S1x128_S512x128 shapeCasts_S512x128_S1x512x128 x)) _ _ (fun x => piece_ok _ _ _ 29 inb_S100x512x128_S1x512x128_29_0_0 inb_S512x100_S512x1_0_29 inb_S100x128_S1x128_29_0 broadcasts_S512x1_S512x128 broadcasts_S1x128_S512x128 shapeCasts_S512x128_S1x512x128 x)) _ _ (fun x => piece_ok _ _ _ 30 inb_S100x512x128_S1x512x128_30_0_0 inb_S512x100_S512x1_0_30 inb_S100x128_S1x128_30_0 broadcasts_S512x1_S512x128 broadcasts_S1x128_S512x128 shapeCasts_S512x128_S1x512x128 x))

theorem ok_34 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 34 (tcRun.sl.H5_34 c M1 M2 M3 f1 f2 f3) := by
  unfold tcRun.sl.H5_34
  exact (Ok.cons (Ok.cons (Ok.cons (ok_31 c M1 M2 M3 f1 f2 f3) _ _ (fun x => piece_ok _ _ _ 31 inb_S100x512x128_S1x512x128_31_0_0 inb_S512x100_S512x1_0_31 inb_S100x128_S1x128_31_0 broadcasts_S512x1_S512x128 broadcasts_S1x128_S512x128 shapeCasts_S512x128_S1x512x128 x)) _ _ (fun x => piece_ok _ _ _ 32 inb_S100x512x128_S1x512x128_32_0_0 inb_S512x100_S512x1_0_32 inb_S100x128_S1x128_32_0 broadcasts_S512x1_S512x128 broadcasts_S1x128_S512x128 shapeCasts_S512x128_S1x512x128 x)) _ _ (fun x => piece_ok _ _ _ 33 inb_S100x512x128_S1x512x128_33_0_0 inb_S512x100_S512x1_0_33 inb_S100x128_S1x128_33_0 broadcasts_S512x1_S512x128 broadcasts_S1x128_S512x128 shapeCasts_S512x128_S1x512x128 x))

theorem ok_37 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 37 (tcRun.sl.H5_37 c M1 M2 M3 f1 f2 f3) := by
  unfold tcRun.sl.H5_37
  exact (Ok.cons (Ok.cons (Ok.cons (ok_34 c M1 M2 M3 f1 f2 f3) _ _ (fun x => piece_ok _ _ _ 34 inb_S100x512x128_S1x512x128_34_0_0 inb_S512x100_S512x1_0_34 inb_S100x128_S1x128_34_0 broadcasts_S512x1_S512x128 broadcasts_S1x128_S512x128 shapeCasts_S512x128_S1x512x128 x)) _ _ (fun x => piece_ok _ _ _ 35 inb_S100x512x128_S1x512x128_35_0_0 inb_S512x100_S512x1_0_35 inb_S100x128_S1x128_35_0 broadcasts_S512x1_S512x128 broadcasts_S1x128_S512x128 shapeCasts_S512x128_S1x512x128 x)) _ _ (fun x => piece_ok _ _ _ 36 inb_S100x512x128_S1x512x128_36_0_0 inb_S512x100_S512x1_0_36 inb_S100x128_S1x128_36_0 broadcasts_S512x1_S512x128 broadcasts_S1x128_S512x128 shapeCasts_S512x128_S1x512x128 x))

theorem ok_39 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 39 (tcRun.sl.H5_39 c M1 M2 M3 f1 f2 f3) := by
  unfold tcRun.sl.H5_39
  exact (Ok.cons (Ok.cons (ok_37 c M1 M2 M3 f1 f2 f3) _ _ (fun x => piece_ok _ _ _ 37 inb_S100x512x128_S1x512x128_37_0_0 inb_S512x100_S512x1_0_37 inb_S100x128_S1x128_37_0 broadcasts_S512x1_S512x128 broadcasts_S1x128_S512x128 shapeCasts_S512x128_S1x512x128 x)) _ _ (fun x => piece_ok _ _ _ 38 inb_S100x512x128_S1x512x128_38_0_0 inb_S512x100_S512x1_0_38 inb_S100x128_S1x128_38_0 broadcasts_S512x1_S512x128 broadcasts_S1x128_S512x128 shapeCasts_S512x128_S1x512x128 x))

theorem ok_42 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 42 (tcRun.sl.H5_42 c M1 M2 M3 f1 f2 f3) := by
  unfold tcRun.sl.H5_42
  exact (Ok.cons (Ok.cons (Ok.cons (ok_39 c M1 M2 M3 f1 f2 f3) _ _ (fun x => piece_ok _ _ _ 39 inb_S100x512x128_S1x512x128_39_0_0 inb_S512x100_S512x1_0_39 inb_S100x128_S1x128_39_0 broadcasts_S512x1_S512x128 broadcasts_S1x128_S512x128 shapeCasts_S512x128_S1x512x128 x)) _ _ (fun x => piece_ok _ _ _ 40 inb_S100x512x128_S1x512x128_40_0_0 inb_S512x100_S512x1_0_40 inb_S100x128_S1x128_40_0 broadcasts_S512x1_S512x128 broadcasts_S1x128_S512x128 shapeCasts_S512x128_S1x512x128 x)) _ _ (fun x => piece_ok _ _ _ 41 inb_S100x512x128_S1x512x128_41_0_0 inb_S512x100_S512x1_0_41 inb_S100x128_S1x128_41_0 broadcasts_S512x1_S512x128 broadcasts_S1x128_S512x128 shapeCasts_S512x128_S1x512x128 x))

theorem ok_45 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 45 (tcRun.sl.H5_45 c M1 M2 M3 f1 f2 f3) := by
  unfold tcRun.sl.H5_45
  exact (Ok.cons (Ok.cons (Ok.cons (ok_42 c M1 M2 M3 f1 f2 f3) _ _ (fun x => piece_ok _ _ _ 42 inb_S100x512x128_S1x512x128_42_0_0 inb_S512x100_S512x1_0_42 inb_S100x128_S1x128_42_0 broadcasts_S512x1_S512x128 broadcasts_S1x128_S512x128 shapeCasts_S512x128_S1x512x128 x)) _ _ (fun x => piece_ok _ _ _ 43 inb_S100x512x128_S1x512x128_43_0_0 inb_S512x100_S512x1_0_43 inb_S100x128_S1x128_43_0 broadcasts_S512x1_S512x128 broadcasts_S1x128_S512x128 shapeCasts_S512x128_S1x512x128 x)) _ _ (fun x => piece_ok _ _ _ 44 inb_S100x512x128_S1x512x128_44_0_0 inb_S512x100_S512x1_0_44 inb_S100x128_S1x128_44_0 broadcasts_S512x1_S512x128 broadcasts_S1x128_S512x128 shapeCasts_S512x128_S1x512x128 x))

theorem ok_48 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 48 (tcRun.sl.H5_48 c M1 M2 M3 f1 f2 f3) := by
  unfold tcRun.sl.H5_48
  exact (Ok.cons (Ok.cons (Ok.cons (ok_45 c M1 M2 M3 f1 f2 f3) _ _ (fun x => piece_ok _ _ _ 45 inb_S100x512x128_S1x512x128_45_0_0 inb_S512x100_S512x1_0_45 inb_S100x128_S1x128_45_0 broadcasts_S512x1_S512x128 broadcasts_S1x128_S512x128 shapeCasts_S512x128_S1x512x128 x)) _ _ (fun x => piece_ok _ _ _ 46 inb_S100x512x128_S1x512x128_46_0_0 inb_S512x100_S512x1_0_46 inb_S100x128_S1x128_46_0 broadcasts_S512x1_S512x128 broadcasts_S1x128_S512x128 shapeCasts_S512x128_S1x512x128 x)) _ _ (fun x => piece_ok _ _ _ 47 inb_S100x512x128_S1x512x128_47_0_0 inb_S512x100_S512x1_0_47 inb_S100x128_S1x128_47_0 broadcasts_S512x1_S512x128 broadcasts_S1x128_S512x128 shapeCasts_S512x128_S1x512x128 x))

theorem ok_51 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 51 (tcRun.sl.H5_51 c M1 M2 M3 f1 f2 f3) := by
  unfold tcRun.sl.H5_51
  exact (Ok.cons (Ok.cons (Ok.cons (ok_48 c M1 M2 M3 f1 f2 f3) _ _ (fun x => piece_ok _ _ _ 48 inb_S100x512x128_S1x512x128_48_0_0 inb_S512x100_S512x1_0_48 inb_S100x128_S1x128_48_0 broadcasts_S512x1_S512x128 broadcasts_S1x128_S512x128 shapeCasts_S512x128_S1x512x128 x)) _ _ (fun x => piece_ok _ _ _ 49 inb_S100x512x128_S1x512x128_49_0_0 inb_S512x100_S512x1_0_49 inb_S100x128_S1x128_49_0 broadcasts_S512x1_S512x128 broadcasts_S1x128_S512x128 shapeCasts_S512x128_S1x512x128 x)) _ _ (fun x => piece_ok _ _ _ 50 inb_S100x512x128_S1x512x128_50_0_0 inb_S512x100_S512x1_0_50 inb_S100x128_S1x128_50_0 broadcasts_S512x1_S512x128 broadcasts_S1x128_S512x128 shapeCasts_S512x128_S1x512x128 x))

theorem ok_54 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 54 (tcRun.sl.H5_54 c M1 M2 M3 f1 f2 f3) := by
  unfold tcRun.sl.H5_54
  exact (Ok.cons (Ok.cons (Ok.cons (ok_51 c M1 M2 M3 f1 f2 f3) _ _ (fun x => piece_ok _ _ _ 51 inb_S100x512x128_S1x512x128_51_0_0 inb_S512x100_S512x1_0_51 inb_S100x128_S1x128_51_0 broadcasts_S512x1_S512x128 broadcasts_S1x128_S512x128 shapeCasts_S512x128_S1x512x128 x)) _ _ (fun x => piece_ok _ _ _ 52 inb_S100x512x128_S1x512x128_52_0_0 inb_S512x100_S512x1_0_52 inb_S100x128_S1x128_52_0 broadcasts_S512x1_S512x128 broadcasts_S1x128_S512x128 shapeCasts_S512x128_S1x512x128 x)) _ _ (fun x => piece_ok _ _ _ 53 inb_S100x512x128_S1x512x128_53_0_0 inb_S512x100_S512x1_0_53 inb_S100x128_S1x128_53_0 broadcasts_S512x1_S512x128 broadcasts_S1x128_S512x128 shapeCasts_S512x128_S1x512x128 x))

theorem ok_57 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 57 (tcRun.sl.H5_57 c M1 M2 M3 f1 f2 f3) := by
  unfold tcRun.sl.H5_57
  exact (Ok.cons (Ok.cons (Ok.cons (ok_54 c M1 M2 M3 f1 f2 f3) _ _ (fun x => piece_ok _ _ _ 54 inb_S100x512x128_S1x512x128_54_0_0 inb_S512x100_S512x1_0_54 inb_S100x128_S1x128_54_0 broadcasts_S512x1_S512x128 broadcasts_S1x128_S512x128 shapeCasts_S512x128_S1x512x128 x)) _ _ (fun x => piece_ok _ _ _ 55 inb_S100x512x128_S1x512x128_55_0_0 inb_S512x100_S512x1_0_55 inb_S100x128_S1x128_55_0 broadcasts_S512x1_S512x128 broadcasts_S1x128_S512x128 shapeCasts_S512x128_S1x512x128 x)) _ _ (fun x => piece_ok _ _ _ 56 inb_S100x512x128_S1x512x128_56_0_0 inb_S512x100_S512x1_0_56 inb_S100x128_S1x128_56_0 broadcasts_S512x1_S512x128 broadcasts_S1x128_S512x128 shapeCasts_S512x128_S1x512x128 x))

theorem ok_59 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 59 (tcRun.sl.H5_59 c M1 M2 M3 f1 f2 f3) := by
  unfold tcRun.sl.H5_59
  exact (Ok.cons (Ok.cons (ok_57 c M1 M2 M3 f1 f2 f3) _ _ (fun x => piece_ok _ _ _ 57 inb_S100x512x128_S1x512x128_57_0_0 inb_S512x100_S512x1_0_57 inb_S100x128_S1x128_57_0 broadcasts_S512x1_S512x128 broadcasts_S1x128_S512x128 shapeCasts_S512x128_S1x512x128 x)) _ _ (fun x => piece_ok _ _ _ 58 inb_S100x512x128_S1x512x128_58_0_0 inb_S512x100_S512x1_0_58 inb_S100x128_S1x128_58_0 broadcasts_S512x1_S512x128 broadcasts_S1x128_S512x128 shapeCasts_S512x128_S1x512x128 x))

theorem ok_62 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 62 (tcRun.sl.H5_62 c M1 M2 M3 f1 f2 f3) := by
  unfold tcRun.sl.H5_62
  exact (Ok.cons (Ok.cons (Ok.cons (ok_59 c M1 M2 M3 f1 f2 f3) _ _ (fun x => piece_ok _ _ _ 59 inb_S100x512x128_S1x512x128_59_0_0 inb_S512x100_S512x1_0_59 inb_S100x128_S1x128_59_0 broadcasts_S512x1_S512x128 broadcasts_S1x128_S512x128 shapeCasts_S512x128_S1x512x128 x)) _ _ (fun x => piece_ok _ _ _ 60 inb_S100x512x128_S1x512x128_60_0_0 inb_S512x100_S512x1_0_60 inb_S100x128_S1x128_60_0 broadcasts_S512x1_S512x128 broadcasts_S1x128_S512x128 shapeCasts_S512x128_S1x512x128 x)) _ _ (fun x => piece_ok _ _ _ 61 inb_S100x512x128_S1x512x128_61_0_0 inb_S512x100_S512x1_0_61 inb_S100x128_S1x128_61_0 broadcasts_S512x1_S512x128 broadcasts_S1x128_S512x128 shapeCasts_S512x128_S1x512x128 x))

theorem ok_65 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 65 (tcRun.sl.H5_65 c M1 M2 M3 f1 f2 f3) := by
  unfold tcRun.sl.H5_65
  exact (Ok.cons (Ok.cons (Ok.cons (ok_62 c M1 M2 M3 f1 f2 f3) _ _ (fun x => piece_ok _ _ _ 62 inb_S100x512x128_S1x512x128_62_0_0 inb_S512x100_S512x1_0_62 inb_S100x128_S1x128_62_0 broadcasts_S512x1_S512x128 broadcasts_S1x128_S512x128 shapeCasts_S512x128_S1x512x128 x)) _ _ (fun x => piece_ok _ _ _ 63 inb_S100x512x128_S1x512x128_63_0_0 inb_S512x100_S512x1_0_63 inb_S100x128_S1x128_63_0 broadcasts_S512x1_S512x128 broadcasts_S1x128_S512x128 shapeCasts_S512x128_S1x512x128 x)) _ _ (fun x => piece_ok _ _ _ 64 inb_S100x512x128_S1x512x128_64_0_0 inb_S512x100_S512x1_0_64 inb_S100x128_S1x128_64_0 broadcasts_S512x1_S512x128 broadcasts_S1x128_S512x128 shapeCasts_S512x128_S1x512x128 x))

theorem ok_68 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 68 (tcRun.sl.H5_68 c M1 M2 M3 f1 f2 f3) := by
  unfold tcRun.sl.H5_68
  exact (Ok.cons (Ok.cons (Ok.cons (ok_65 c M1 M2 M3 f1 f2 f3) _ _ (fun x => piece_ok _ _ _ 65 inb_S100x512x128_S1x512x128_65_0_0 inb_S512x100_S512x1_0_65 inb_S100x128_S1x128_65_0 broadcasts_S512x1_S512x128 broadcasts_S1x128_S512x128 shapeCasts_S512x128_S1x512x128 x)) _ _ (fun x => piece_ok _ _ _ 66 inb_S100x512x128_S1x512x128_66_0_0 inb_S512x100_S512x1_0_66 inb_S100x128_S1x128_66_0 broadcasts_S512x1_S512x128 broadcasts_S1x128_S512x128 shapeCasts_S512x128_S1x512x128 x)) _ _ (fun x => piece_ok _ _ _ 67 inb_S100x512x128_S1x512x128_67_0_0 inb_S512x100_S512x1_0_67 inb_S100x128_S1x128_67_0 broadcasts_S512x1_S512x128 broadcasts_S1x128_S512x128 shapeCasts_S512x128_S1x512x128 x))

theorem ok_71 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 71 (tcRun.sl.H5_71 c M1 M2 M3 f1 f2 f3) := by
  unfold tcRun.sl.H5_71
  exact (Ok.cons (Ok.cons (Ok.cons (ok_68 c M1 M2 M3 f1 f2 f3) _ _ (fun x => piece_ok _ _ _ 68 inb_S100x512x128_S1x512x128_68_0_0 inb_S512x100_S512x1_0_68 inb_S100x128_S1x128_68_0 broadcasts_S512x1_S512x128 broadcasts_S1x128_S512x128 shapeCasts_S512x128_S1x512x128 x)) _ _ (fun x => piece_ok _ _ _ 69 inb_S100x512x128_S1x512x128_69_0_0 inb_S512x100_S512x1_0_69 inb_S100x128_S1x128_69_0 broadcasts_S512x1_S512x128 broadcasts_S1x128_S512x128 shapeCasts_S512x128_S1x512x128 x)) _ _ (fun x => piece_ok _ _ _ 70 inb_S100x512x128_S1x512x128_70_0_0 inb_S512x100_S512x1_0_70 inb_S100x128_S1x128_70_0 broadcasts_S512x1_S512x128 broadcasts_S1x128_S512x128 shapeCasts_S512x128_S1x512x128 x))

theorem ok_74 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 74 (tcRun.sl.H5_74 c M1 M2 M3 f1 f2 f3) := by
  unfold tcRun.sl.H5_74
  exact (Ok.cons (Ok.cons (Ok.cons (ok_71 c M1 M2 M3 f1 f2 f3) _ _ (fun x => piece_ok _ _ _ 71 inb_S100x512x128_S1x512x128_71_0_0 inb_S512x100_S512x1_0_71 inb_S100x128_S1x128_71_0 broadcasts_S512x1_S512x128 broadcasts_S1x128_S512x128 shapeCasts_S512x128_S1x512x128 x)) _ _ (fun x => piece_ok _ _ _ 72 inb_S100x512x128_S1x512x128_72_0_0 inb_S512x100_S512x1_0_72 inb_S100x128_S1x128_72_0 broadcasts_S512x1_S512x128 broadcasts_S1x128_S512x128 shapeCasts_S512x128_S1x512x128 x)) _ _ (fun x => piece_ok _ _ _ 73 inb_S100x512x128_S1x512x128_73_0_0 inb_S512x100_S512x1_0_73 inb_S100x128_S1x128_73_0 broadcasts_S512x1_S512x128 broadcasts_S1x128_S512x128 shapeCasts_S512x128_S1x512x128 x))

theorem ok_77 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 77 (tcRun.sl.H5_77 c M1 M2 M3 f1 f2 f3) := by
  unfold tcRun.sl.H5_77
  exact (Ok.cons (Ok.cons (Ok.cons (ok_74 c M1 M2 M3 f1 f2 f3) _ _ (fun x => piece_ok _ _ _ 74 inb_S100x512x128_S1x512x128_74_0_0 inb_S512x100_S512x1_0_74 inb_S100x128_S1x128_74_0 broadcasts_S512x1_S512x128 broadcasts_S1x128_S512x128 shapeCasts_S512x128_S1x512x128 x)) _ _ (fun x => piece_ok _ _ _ 75 inb_S100x512x128_S1x512x128_75_0_0 inb_S512x100_S512x1_0_75 inb_S100x128_S1x128_75_0 broadcasts_S512x1_S512x128 broadcasts_S1x128_S512x128 shapeCasts_S512x128_S1x512x128 x)) _ _ (fun x => piece_ok _ _ _ 76 inb_S100x512x128_S1x512x128_76_0_0 inb_S512x100_S512x1_0_76 inb_S100x128_S1x128_76_0 broadcasts_S512x1_S512x128 broadcasts_S1x128_S512x128 shapeCasts_S512x128_S1x512x128 x))

theorem ok_79 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 79 (tcRun.sl.H5_79 c M1 M2 M3 f1 f2 f3) := by
  unfold tcRun.sl.H5_79
  exact (Ok.cons (Ok.cons (ok_77 c M1 M2 M3 f1 f2 f3) _ _ (fun x => piece_ok _ _ _ 77 inb_S100x512x128_S1x512x128_77_0_0 inb_S512x100_S512x1_0_77 inb_S100x128_S1x128_77_0 broadcasts_S512x1_S512x128 broadcasts_S1x128_S512x128 shapeCasts_S512x128_S1x512x128 x)) _ _ (fun x => piece_ok _ _ _ 78 inb_S100x512x128_S1x512x128_78_0_0 inb_S512x100_S512x1_0_78 inb_S100x128_S1x128_78_0 broadcasts_S512x1_S512x128 broadcasts_S1x128_S512x128 shapeCasts_S512x128_S1x512x128 x))

theorem ok_82 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 82 (tcRun.sl.H5_82 c M1 M2 M3 f1 f2 f3) := by
  unfold tcRun.sl.H5_82
  exact (Ok.cons (Ok.cons (Ok.cons (ok_79 c M1 M2 M3 f1 f2 f3) _ _ (fun x => piece_ok _ _ _ 79 inb_S100x512x128_S1x512x128_79_0_0 inb_S512x100_S512x1_0_79 inb_S100x128_S1x128_79_0 broadcasts_S512x1_S512x128 broadcasts_S1x128_S512x128 shapeCasts_S512x128_S1x512x128 x)) _ _ (fun x => piece_ok _ _ _ 80 inb_S100x512x128_S1x512x128_80_0_0 inb_S512x100_S512x1_0_80 inb_S100x128_S1x128_80_0 broadcasts_S512x1_S512x128 broadcasts_S1x128_S512x128 shapeCasts_S512x128_S1x512x128 x)) _ _ (fun x => piece_ok _ _ _ 81 inb_S100x512x128_S1x512x128_81_0_0 inb_S512x100_S512x1_0_81 inb_S100x128_S1x128_81_0 broadcasts_S512x1_S512x128 broadcasts_S1x128_S512x128 shapeCasts_S512x128_S1x512x128 x))

theorem ok_85 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 85 (tcRun.sl.H5_85 c M1 M2 M3 f1 f2 f3) := by
  unfold tcRun.sl.H5_85
  exact (Ok.cons (Ok.cons (Ok.cons (ok_82 c M1 M2 M3 f1 f2 f3) _ _ (fun x => piece_ok _ _ _ 82 inb_S100x512x128_S1x512x128_82_0_0 inb_S512x100_S512x1_0_82 inb_S100x128_S1x128_82_0 broadcasts_S512x1_S512x128 broadcasts_S1x128_S512x128 shapeCasts_S512x128_S1x512x128 x)) _ _ (fun x => piece_ok _ _ _ 83 inb_S100x512x128_S1x512x128_83_0_0 inb_S512x100_S512x1_0_83 inb_S100x128_S1x128_83_0 broadcasts_S512x1_S512x128 broadcasts_S1x128_S512x128 shapeCasts_S512x128_S1x512x128 x)) _ _ (fun x => piece_ok _ _ _ 84 inb_S100x512x128_S1x512x128_84_0_0 inb_S512x100_S512x1_0_84 inb_S100x128_S1x128_84_0 broadcasts_S512x1_S512x128 broadcasts_S1x128_S512x128 shapeCasts_S512x128_S1x512x128 x))

theorem ok_88 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 88 (tcRun.sl.H5_88 c M1 M2 M3 f1 f2 f3) := by
  unfold tcRun.sl.H5_88
  exact (Ok.cons (Ok.cons (Ok.cons (ok_85 c M1 M2 M3 f1 f2 f3) _ _ (fun x => piece_ok _ _ _ 85 inb_S100x512x128_S1x512x128_85_0_0 inb_S512x100_S512x1_0_85 inb_S100x128_S1x128_85_0 broadcasts_S512x1_S512x128 broadcasts_S1x128_S512x128 shapeCasts_S512x128_S1x512x128 x)) _ _ (fun x => piece_ok _ _ _ 86 inb_S100x512x128_S1x512x128_86_0_0 inb_S512x100_S512x1_0_86 inb_S100x128_S1x128_86_0 broadcasts_S512x1_S512x128 broadcasts_S1x128_S512x128 shapeCasts_S512x128_S1x512x128 x)) _ _ (fun x => piece_ok _ _ _ 87 inb_S100x512x128_S1x512x128_87_0_0 inb_S512x100_S512x1_0_87 inb_S100x128_S1x128_87_0 broadcasts_S512x1_S512x128 broadcasts_S1x128_S512x128 shapeCasts_S512x128_S1x512x128 x))

theorem ok_91 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 91 (tcRun.sl.H5_91 c M1 M2 M3 f1 f2 f3) := by
  unfold tcRun.sl.H5_91
  exact (Ok.cons (Ok.cons (Ok.cons (ok_88 c M1 M2 M3 f1 f2 f3) _ _ (fun x => piece_ok _ _ _ 88 inb_S100x512x128_S1x512x128_88_0_0 inb_S512x100_S512x1_0_88 inb_S100x128_S1x128_88_0 broadcasts_S512x1_S512x128 broadcasts_S1x128_S512x128 shapeCasts_S512x128_S1x512x128 x)) _ _ (fun x => piece_ok _ _ _ 89 inb_S100x512x128_S1x512x128_89_0_0 inb_S512x100_S512x1_0_89 inb_S100x128_S1x128_89_0 broadcasts_S512x1_S512x128 broadcasts_S1x128_S512x128 shapeCasts_S512x128_S1x512x128 x)) _ _ (fun x => piece_ok _ _ _ 90 inb_S100x512x128_S1x512x128_90_0_0 inb_S512x100_S512x1_0_90 inb_S100x128_S1x128_90_0 broadcasts_S512x1_S512x128 broadcasts_S1x128_S512x128 shapeCasts_S512x128_S1x512x128 x))

theorem ok_94 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 94 (tcRun.sl.H5_94 c M1 M2 M3 f1 f2 f3) := by
  unfold tcRun.sl.H5_94
  exact (Ok.cons (Ok.cons (Ok.cons (ok_91 c M1 M2 M3 f1 f2 f3) _ _ (fun x => piece_ok _ _ _ 91 inb_S100x512x128_S1x512x128_91_0_0 inb_S512x100_S512x1_0_91 inb_S100x128_S1x128_91_0 broadcasts_S512x1_S512x128 broadcasts_S1x128_S512x128 shapeCasts_S512x128_S1x512x128 x)) _ _ (fun x => piece_ok _ _ _ 92 inb_S100x512x128_S1x512x128_92_0_0 inb_S512x100_S512x1_0_92 inb_S100x128_S1x128_92_0 broadcasts_S512x1_S512x128 broadcasts_S1x128_S512x128 shapeCasts_S512x128_S1x512x128 x)) _ _ (fun x => piece_ok _ _ _ 93 inb_S100x512x128_S1x512x128_93_0_0 inb_S512x100_S512x1_0_93 inb_S100x128_S1x128_93_0 broadcasts_S512x1_S512x128 broadcasts_S1x128_S512x128 shapeCasts_S512x128_S1x512x128 x))

theorem ok_97 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 97 (tcRun.sl.H5_97 c M1 M2 M3 f1 f2 f3) := by
  unfold tcRun.sl.H5_97
  exact (Ok.cons (Ok.cons (Ok.cons (ok_94 c M1 M2 M3 f1 f2 f3) _ _ (fun x => piece_ok _ _ _ 94 inb_S100x512x128_S1x512x128_94_0_0 inb_S512x100_S512x1_0_94 inb_S100x128_S1x128_94_0 broadcasts_S512x1_S512x128 broadcasts_S1x128_S512x128 shapeCasts_S512x128_S1x512x128 x)) _ _ (fun x => piece_ok _ _ _ 95 inb_S100x512x128_S1x512x128_95_0_0 inb_S512x100_S512x1_0_95 inb_S100x128_S1x128_95_0 broadcasts_S512x1_S512x128 broadcasts_S1x128_S512x128 shapeCasts_S512x128_S1x512x128 x)) _ _ (fun x => piece_ok _ _ _ 96 inb_S100x512x128_S1x512x128_96_0_0 inb_S512x100_S512x1_0_96 inb_S100x128_S1x128_96_0 broadcasts_S512x1_S512x128 broadcasts_S1x128_S512x128 shapeCasts_S512x128_S1x512x128 x))

theorem ok_100 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 100 (tcRun.sl.H5_100 c M1 M2 M3 f1 f2 f3) := by
  unfold tcRun.sl.H5_100
  exact (Ok.cons (Ok.cons (Ok.cons (ok_97 c M1 M2 M3 f1 f2 f3) _ _ (fun x => piece_ok _ _ _ 97 inb_S100x512x128_S1x512x128_97_0_0 inb_S512x100_S512x1_0_97 inb_S100x128_S1x128_97_0 broadcasts_S512x1_S512x128 broadcasts_S1x128_S512x128 shapeCasts_S512x128_S1x512x128 x)) _ _ (fun x => piece_ok _ _ _ 98 inb_S100x512x128_S1x512x128_98_0_0 inb_S512x100_S512x1_0_98 inb_S100x128_S1x128_98_0 broadcasts_S512x1_S512x128 broadcasts_S1x128_S512x128 shapeCasts_S512x128_S1x512x128 x)) _ _ (fun x => piece_ok _ _ _ 99 inb_S100x512x128_S1x512x128_99_0_0 inb_S512x100_S512x1_0_99 inb_S100x128_S1x128_99_0 broadcasts_S512x1_S512x128 broadcasts_S1x128_S512x128 shapeCasts_S512x128_S1x512x128 x))

end Cert.Proof.KI.Tc

end
-- ==== Proof.TcKernel.lean ====
/-
  The numeric-token kernel's body on whole staging memrefs held by their elements: from the three input blocks at
  read contents and the output block at anything, it returns leaving the inputs as they were and the output block at
  the one function of the input blocks.
-/
import proofs.«207390_g85444079387303_cont_sun_c4_501_21_alg».proof.Proof.TcVal

noncomputable section

namespace Cert.Proof.KI.Tc

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
/-- The output block after the body, read back: the one function of the input blocks. -/
theorem tcRun_read (c : Dev nD) (i : grid1.Coords)
    (M1 : Memref sig .tc .vmem S512x100 .f32) (h1 : M1.IsWhole) (M2 : Memref sig .tc .vmem S100x128 .f32) (h2 : M2.IsWhole)
    (M3 : Memref sig .tc .vmem S100x128 .f32) (h3 : M3.IsWhole) (M4 : Memref sig .tc .hbm S126x16384x128 .f32) (h4 : M4.IsWhole)
    (M5 : Memref sig .tc .vmem S100x512x128 .f32) (h5 : M5.IsWhole)
    (f1 : Bf (F := F) c M1) (f2 : Bf (F := F) c M2) (f3 : Bf (F := F) c M3) :
    M5.view.read (Elt F) (tcRun c i M1 h1 M2 h2 M3 h3 M4 h4 M5 h5 f1 f2 f3).1
      = outF (M1.view.read (Elt F) f1) (M2.view.read (Elt F) f2) (M3.view.read (Elt F) f3) := by
  have e : (tcRun c i M1 h1 M2 h2 M3 h3 M4 h4 M5 h5 f1 f2 f3).1
      = M5.view.writes (Elt F) M5.view.junk (tcRun.sl.H5_100 c M1 M2 M3 f1 f2 f3) := rfl
  rw [e]
  funext y
  exact View.read_writes_apply_of_pieces M5.view M5.view.junk
    (outF (M1.view.read (Elt F) f1) (M2.view.read (Elt F) f2) (M3.view.read (Elt F) f3))
    (tcRun.sl.H5_100 c M1 M2 M3 f1 f2 f3) (ok_100 c M1 M2 M3 f1 f2 f3).1 y ((ok_100 c M1 M2 M3 f1 f2 f3).2 y (y 0).isLt)

/-- A whole memref owned at read contents `X` is its buffer's points-to at contents that read `X`. -/
theorem owns_isWhole {c : Thread nD τ} {sp : Space} {sh : Shape} {e : EltTy} {m : Memref sig c.2.kind sp sh e}
    (hw : m.IsWhole) (q : PosShare TreeShare) (X : sh.Idx → Elt F e) :
    (owns c m q X : sProp 𝕄) = iprop(∃ f : Buf (Elt F) (m.view.loc c), ⌜m.view.read (Elt F) f = X⌝ ∗ (m.view.loc c ↦{q} f)) := by
  unfold owns; rw [hw.set_eq_univ]

/-- The kernel body on whole staging memrefs, the inputs' at read contents and the output's at anything. -/
theorem sound_kernel (c : Dev nD) (E : Set ℕ) (i : grid1.Coords)
    (M1 : Memref sig .tc .vmem S512x100 .f32) (h1 : M1.IsWhole) (M2 : Memref sig .tc .vmem S100x128 .f32) (h2 : M2.IsWhole)
    (M3 : Memref sig .tc .vmem S100x128 .f32) (h3 : M3.IsWhole) (M4 : Memref sig .tc .hbm S126x16384x128 .f32) (h4 : M4.IsWhole)
    (M5 : Memref sig .tc .vmem S100x512x128 .f32) (h5 : M5.IsWhole)
    (x0 : S512x100.Idx → Elt F .f32) (x1 x2 : S100x128.Idx → Elt F .f32) (K : PUnit → sProp 𝕄) :
    iprop(owns (c : Thread nD τ) M1 fullShare x0 ∗ owns (c : Thread nD τ) M2 fullShare x1 ∗ owns (c : Thread nD τ) M3 fullShare x2
        ∗ (∃ d, owns (c : Thread nD τ) M5 fullShare d)
        ∗ (iprop(owns (c : Thread nD τ) M1 fullShare x0 ∗ owns (c : Thread nD τ) M2 fullShare x1 ∗ owns (c : Thread nD τ) M3 fullShare x2
            ∗ owns (c : Thread nD τ) M5 fullShare (outF x0 x1 x2)) -∗ K ⟨⟩))
      ⊢ wp frame (wpE (defs₀ (F := F)) Variants.none c none) E (cc1__tc_num_body i M1 h1 M2 h2 M3 h3 M4 h4 M5 h5) K := by
  rw [owns_isWhole h1, owns_isWhole h2, owns_isWhole h3]
  simp only [owns_isWhole (c := (c : Thread nD τ)) h5]
  iintro ⟨⟨%f1, %e1, H1⟩, ⟨%f2, %e2, H2⟩, ⟨%f3, %e3, H3⟩, ⟨%d, %f5, -, H5⟩, Hk⟩
  subst e1 e2 e3
  iapply ((tcRun c i M1 h1 M2 h2 M3 h3 M4 h4 M5 h5 f1 f2 f3).2 f5 E K)
  isplitl [H1]; · iexact H1
  isplitl [H2]; · iexact H2
  isplitl [H3]; · iexact H3
  isplitl [H5]; · iexact H5
  iintro ⟨H1, H2, H3, H5⟩
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H5
  ipureintro
  exact tcRun_read c i M1 h1 M2 h2 M3 h3 M4 h4 M5 h5 f1 f2 f3

end Cert.Proof.KI.Tc

end
-- ==== Proof.TcDat.lean ====
/-
  The proof data of the numeric-token pipeline: the four arrays at their entry contents; after the body at point t each
  input's staging buffer at its block and the output's at the one function of the three input blocks; what the
  write-backs leave in the token-major array: the numeric tokens computed, the categorical tokens as they were.
-/
import proofs.«207390_g85444079387303_cont_sun_c4_501_21_alg».proof.Proof.TcKernel
import proofs.«207390_g85444079387303_cont_sun_c4_501_21_alg».proof.Proof.Spec
import Idealize.ShloMosaic.Lib.Pipeline.Frame
import Idealize.ShloMosaic.Lib.Pipeline.FrameBody

noncomputable section

namespace Cert.Proof.KI.Tc

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation BodyObligationLoose cellOf)

variable (xs : (c : Dev nD) → Buf (Elt F) ((c : Thread nD τ).loc main_arg0))
  (ws : (c : Dev nD) → Buf (Elt F) ((c : Thread nD τ).loc main_arg2))
  (nbs : (c : Dev nD) → Buf (Elt F) ((c : Thread nD τ).loc main_arg3))
  (prevs : (c : Dev nD) → Buf (Elt F) ((c : Thread nD τ).loc main_v10))
  (O : CellTallies nD τ sig (HIx 1)) (b : ℕ)

/-- The input windows' blocks at point `t`, read off their arrays. -/
def iblk0 (c : Dev nD) (t : Fin cfg1.N) : ((cfg1.win 0).xblock (cfg1.grid.coords t)).Idx → Elt F (cfg1.win 0).elt :=
  ((cfg1.win 0).blk t).view.read (Elt F) (xs c)
def iblk1 (c : Dev nD) (t : Fin cfg1.N) : ((cfg1.win 1).xblock (cfg1.grid.coords t)).Idx → Elt F (cfg1.win 1).elt :=
  ((cfg1.win 1).blk t).view.read (Elt F) (ws c)
def iblk2 (c : Dev nD) (t : Fin cfg1.N) : ((cfg1.win 2).xblock (cfg1.grid.coords t)).Idx → Elt F (cfg1.win 2).elt :=
  ((cfg1.win 2).blk t).view.read (Elt F) (nbs c)

/-- The proof data on core `c`. -/
def dat (c : Dev nD) : Dat τ (Elt F) (HIx 1) ℕ UU ℕ cfg1 c where
  A w := match w with
    | ⟨0, _⟩ => xs c
    | ⟨1, _⟩ => ws c
    | ⟨2, _⟩ => nbs c
    | ⟨3, _⟩ => prevs c
  after w t := match w with
    | ⟨0, _⟩ => iblk0 xs c t
    | ⟨1, _⟩ => iblk1 ws c t
    | ⟨2, _⟩ => iblk2 nbs c t
    | ⟨3, _⟩ => outF (iblk0 xs c t) (iblk1 ws c t) (iblk2 nbs c t)
  Φ _ := Pipeline.scopedRest (Ix := HIx 1) (Name := ℕ) (U := UU) (Lvl := ℕ) (Val := Elt F) spec1 c
  q _ := fullShare
  owed _ := O
  recorded _ := {p | (K (F := F)).lev ((c : Thread nD τ), p.1) p.2 ≤ b}

theorem A_0 (c : Dev nD) : (dat xs ws nbs prevs O b c).A 0 = xs c := by dsimp only [dat]
theorem A_1 (c : Dev nD) : (dat xs ws nbs prevs O b c).A 1 = ws c := by dsimp only [dat]
theorem A_2 (c : Dev nD) : (dat xs ws nbs prevs O b c).A 2 = nbs c := by dsimp only [dat]
theorem A_3 (c : Dev nD) : (dat xs ws nbs prevs O b c).A 3 = prevs c := by dsimp only [dat]
theorem after_0 (c : Dev nD) (t : Fin cfg1.N) : (dat xs ws nbs prevs O b c).after 0 t = iblk0 xs c t := by dsimp only [dat]
theorem after_1 (c : Dev nD) (t : Fin cfg1.N) : (dat xs ws nbs prevs O b c).after 1 t = iblk1 ws c t := by dsimp only [dat]
theorem after_2 (c : Dev nD) (t : Fin cfg1.N) : (dat xs ws nbs prevs O b c).after 2 t = iblk2 nbs c t := by dsimp only [dat]
theorem after_3 (c : Dev nD) (t : Fin cfg1.N) :
    (dat xs ws nbs prevs O b c).after 3 t = outF (iblk0 xs c t) (iblk1 ws c t) (iblk2 nbs c t) := by dsimp only [dat]

/-- Each input's current staging buffer holds its block at every point, fetched there or not. -/
theorem before_0 (c : Dev nD) (t : Fin cfg1.N) (d) : (dat xs ws nbs prevs O b c).before 0 t d = iblk0 xs c t :=
  ((dat xs ws nbs prevs O b c).before_in_eq_fetched 0 rfl (fun _ => rfl) (fun _ _ _ => rfl)
    (fun t => by rw [after_0]; unfold Dat.blockOf iblk0; rw [A_0]; try rfl) t d).trans
    (by unfold Dat.fetched Dat.blockOf iblk0; rw [A_0]; try rfl)
theorem before_1 (c : Dev nD) (t : Fin cfg1.N) (d) : (dat xs ws nbs prevs O b c).before 1 t d = iblk1 ws c t :=
  ((dat xs ws nbs prevs O b c).before_in_eq_fetched 1 rfl (fun _ => rfl) (fun _ _ _ => rfl)
    (fun t => by rw [after_1]; unfold Dat.blockOf iblk1; rw [A_1]; try rfl) t d).trans
    (by unfold Dat.fetched Dat.blockOf iblk1; rw [A_1]; try rfl)
theorem before_2 (c : Dev nD) (t : Fin cfg1.N) (d) : (dat xs ws nbs prevs O b c).before 2 t d = iblk2 nbs c t :=
  ((dat xs ws nbs prevs O b c).before_in_eq_fetched 2 rfl (fun _ => rfl) (fun _ _ _ => rfl)
    (fun t => by rw [after_2]; unfold Dat.blockOf iblk2; rw [A_2]; try rfl) t d).trans
    (by unfold Dat.fetched Dat.blockOf iblk2; rw [A_2]; try rfl)

/-- What the body is called with at point `t`, the windows one by one, -/
def bodyPre (c : Dev nD) (t : Fin cfg1.N) : sProp 𝕄 :=
  iprop((dat xs ws nbs prevs O b c).Φ t.castSucc ∗ (dat xs ws nbs prevs O b c).owesAt none t.castSucc
    ∗ (∃ d, owns (c : Thread nD τ) (st1_0 t) fullShare ((dat xs ws nbs prevs O b c).before 0 t d))
    ∗ (∃ d, owns (c : Thread nD τ) (st1_1 t) fullShare ((dat xs ws nbs prevs O b c).before 1 t d))
    ∗ (∃ d, owns (c : Thread nD τ) (st1_2 t) fullShare ((dat xs ws nbs prevs O b c).before 2 t d))
    ∗ (∃ d, owns (c : Thread nD τ) (st1_3 t) fullShare ((dat xs ws nbs prevs O b c).before 3 t d)))

/-- and what it returns. -/
def bodyPost (c : Dev nD) (t : Fin cfg1.N) : sProp 𝕄 :=
  iprop((dat xs ws nbs prevs O b c).Φ t.succ ∗ (dat xs ws nbs prevs O b c).owesAt none t.succ
    ∗ owns (c : Thread nD τ) (st1_0 t) fullShare ((dat xs ws nbs prevs O b c).after 0 t)
    ∗ owns (c : Thread nD τ) (st1_1 t) fullShare ((dat xs ws nbs prevs O b c).after 1 t)
    ∗ owns (c : Thread nD τ) (st1_2 t) fullShare ((dat xs ws nbs prevs O b c).after 2 t)
    ∗ owns (c : Thread nD τ) (st1_3 t) fullShare ((dat xs ws nbs prevs O b c).after 3 t))

/-- The body at any point: the inputs' staging memrefs hold their blocks, so the kernel's triple applies; the invariant
    and what the core owes pass through unread. -/
theorem sound_body (c : Dev nD) (t : Fin cfg1.N) :
    bodyPre xs ws nbs prevs O b c t ⊢ wp frame (wpE (defs₀ (F := F)) Variants.none c none) Set.univ (bodyAt1 t)
      (fun _ => bodyPost xs ws nbs prevs O b c t) := by
  unfold bodyPre bodyPost bodyAt1
  simp only [before_0, before_1, before_2]
  rw [show (dat xs ws nbs prevs O b c).Φ t.succ = (dat xs ws nbs prevs O b c).Φ t.castSucc from rfl,
    show (dat xs ws nbs prevs O b c).owesAt none t.succ = (dat xs ws nbs prevs O b c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ _ _ (iblk0 xs c t) (iblk1 ws c t) (iblk2 nbs c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) :
    BodyObligation (dat xs ws nbs prevs O b c) (defs₀ (F := F)) Variants.none (none : HIx 1) Set.univ := fun t => by
  rw [bigSep_W1, bigSep_W1]
  exact sound_body xs ws nbs prevs O b c t

end Cert.Proof.KI.Tc

end
-- ==== Proof.TcArr.lean ====
/-
  What the numeric-token pipeline's write-backs leave in the token-major array: at a token below 100, batch column
  512 t + r of point t, the value the body stored for feature f and row r — x[b,f] * w[f,d] + nb[f,d]; a token from 100 on
  lies in no block and keeps its entry contents.
-/
import proofs.«207390_g85444079387303_cont_sun_c4_501_21_alg».proof.Proof.TcDat
import Idealize.ShloMosaic.Lib.Pipeline.Value

noncomputable section

namespace Cert.Proof.KI.Tc

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation BodyObligationLoose cellOf)
open Cert.Proof.Spec (numTokens)

variable (xs : (c : Dev nD) → Buf (Elt F) ((c : Thread nD τ).loc main_arg0))
  (ws : (c : Dev nD) → Buf (Elt F) ((c : Thread nD τ).loc main_arg2))
  (nbs : (c : Dev nD) → Buf (Elt F) ((c : Thread nD τ).loc main_arg3))
  (prevs : (c : Dev nD) → Buf (Elt F) ((c : Thread nD τ).loc main_v10))
  (O : CellTallies nD τ sig (HIx 1)) (b : ℕ)

/-- What point t writes back is block t of the numeric tokens. -/
theorem flushed_eq (c : Dev nD) (t : Fin cfg1.N) :
    (dat xs ws nbs prevs O b c).flushed 3 t
      = ((cfg1.win 3).blk t).view.read (Elt F) (numTokens (F := F) (xs c) (ws c) (nbs c) (prevs c)) := by
  funext y
  show (dat xs ws nbs prevs O b c).after 3 t ((cfg1.win 3).xinj (cfg1.grid.coords t) y) = _
  rw [after_3, View.read_apply]
  unfold outF iblk0 iblk1 iblk2 numTokens
  simp only [View.read_apply, cast_eq]
  have hy0 : (y 0).val < 100 := (y 0).isLt
  have h : (((View.whole main_v10).slice ((win1 3).rect t)).emb y 0).val < 100 := by
    show (win1 3).index t 0 * 100 + 1 * (y 0).val < 100
    have : (win1 3).index t 0 = 0 := rfl
    omega
  rw [dif_pos h]
  have ex : ((View.whole main_arg0).slice ((win1 0).rect t)).emb
      (ValueIdx.ix2 ((win1 3).xinj (grid1.coords t) y 1) ((win1 3).xinj (grid1.coords t) y 0))
      = ValueIdx.ix2 (((View.whole main_v10).slice ((win1 3).rect t)).emb y 1)
          ⟨(((View.whole main_v10).slice ((win1 3).rect t)).emb y 0).val, h⟩ := by
    funext a; fin_cases a
    · apply Fin.ext
      show (win1 0).index t 0 * 512 + 1 * (y 1).val = (win1 3).index t 1 * 512 + 1 * (y 1).val
      rfl
    · apply Fin.ext
      show (win1 0).index t 1 * 100 + 1 * (y 0).val = (win1 3).index t 0 * 100 + 1 * (y 0).val
      rfl
  have ew : ((View.whole main_arg2).slice ((win1 1).rect t)).emb
      (ValueIdx.ix2 ((win1 3).xinj (grid1.coords t) y 0) ((win1 3).xinj (grid1.coords t) y 2))
      = ValueIdx.ix2 ⟨(((View.whole main_v10).slice ((win1 3).rect t)).emb y 0).val, h⟩
          (((View.whole main_v10).slice ((win1 3).rect t)).emb y 2) := by
    funext a; fin_cases a
    · apply Fin.ext
      show (win1 1).index t 0 * 100 + 1 * (y 0).val = (win1 3).index t 0 * 100 + 1 * (y 0).val
      rfl
    · apply Fin.ext
      show (win1 1).index t 1 * 128 + 1 * (y 2).val = (win1 3).index t 2 * 128 + 1 * (y 2).val
      rfl
  have eb : ((View.whole main_arg3).slice ((win1 2).rect t)).emb
      (ValueIdx.ix2 ((win1 3).xinj (grid1.coords t) y 0) ((win1 3).xinj (grid1.coords t) y 2))
      = ValueIdx.ix2 ⟨(((View.whole main_v10).slice ((win1 3).rect t)).emb y 0).val, h⟩
          (((View.whole main_v10).slice ((win1 3).rect t)).emb y 2) := by
    funext a; fin_cases a
    · apply Fin.ext
      show (win1 2).index t 0 * 100 + 1 * (y 0).val = (win1 3).index t 0 * 100 + 1 * (y 0).val
      rfl
    · apply Fin.ext
      show (win1 2).index t 1 * 128 + 1 * (y 2).val = (win1 3).index t 2 * 128 + 1 * (y 2).val
      rfl
  rw [ex, ew, eb]
  rfl

/-- The output window's block index along the batch axis is the point; no block is cut. -/
theorem index3_1 : ∀ t : Fin cfg1.N, (win1 3).index t 1 = t.val := by decide +kernel
theorem xsize3 : ∀ (t : Fin cfg1.N) (a : Fin 3), (win1 3).xsize (grid1.coords t) a = S100x512x128.size a := by decide +kernel

/-- An index of a numeric token lies in the block of the point its batch column falls in. -/
theorem cover3 (j : S126x16384x128.Idx) (hj : (j 0).val < 100) (t' : Fin cfg1.N) (ht' : t'.val = (j 1).val / 512) :
    j ∈ ((win1 3).rect t').set := by
  have h1 : (j 1).val < 16384 := (j 1).isLt
  have h2 : (j 2).val < 128 := (j 2).isLt
  rw [Rect.mem_set_unit]
  intro a
  rw [xsize3]
  fin_cases a
  · show (win1 3).index _ 0 * 100 ≤ (j 0).val ∧ (j 0).val < (win1 3).index _ 0 * 100 + 100
    rw [show (win1 3).index t' 0 = 0 from rfl]; omega
  · show (win1 3).index _ 1 * 512 ≤ (j 1).val ∧ (j 1).val < (win1 3).index _ 1 * 512 + 512
    rw [index3_1, ht']; omega
  · show (win1 3).index _ 2 * 128 ≤ (j 2).val ∧ (j 2).val < (win1 3).index _ 2 * 128 + 128
    rw [show (win1 3).index t' 2 = 0 from rfl]; omega

/-- What the write-backs leave in the token-major array: the numeric tokens computed, the rest as it was. -/
theorem arrAt_3 (c : Dev nD) :
    (dat xs ws nbs prevs O b c).arrAt 3 cfg1.N = numTokens (F := F) (xs c) (ws c) (nbs c) (prevs c) := by
  funext i
  rw [(dat xs ws nbs prevs O b c).arrAt_eq_piecewise 3 (numTokens (F := F) (xs c) (ws c) (nbs c) (prevs c))
    (fun t _ => flushed_eq xs ws nbs prevs O b c t) i]
  split
  · rfl
  · rename_i hno
    rw [A_3]
    unfold numTokens
    rw [dif_neg]
    intro hi
    apply hno
    have h1 : (i 1).val < 16384 := (i 1).isLt
    refine ⟨⟨(i 1).val / 512, by show _ < 32; omega⟩, flush1_3 _, ?_⟩
    have hm := cover3 i hi ⟨(i 1).val / 512, by show _ < 32; omega⟩ rfl
    rw [← View.set_slice_whole main_v10] at hm
    exact hm

end Cert.Proof.KI.Tc
end
-- ==== Proof.TcRegion.lean ====
/-
  The numeric-token call as one step of the TensorCore's program: from the boundary, the four arrays whole at their
  entry contents, what the core owes and the pipeline's ghost state, the call runs to the boundary with the token-major
  array at the numeric tokens computed over its entry contents and everything else as it was.
-/
import proofs.«207390_g85444079387303_cont_sun_c4_501_21_alg».proof.Proof.TcDat
import proofs.«207390_g85444079387303_cont_sun_c4_501_21_alg».proof.Proof.TcArr

noncomputable section

namespace Cert.Proof.KI.Tc

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation BodyObligationLoose cellOf)

abbrev adm : (p : Fin 1) → (pcfgs (F := F) p).Adm := fun q => (cfgs q).toPCfg_adm

variable (xs : (c : Dev nD) → Buf (Elt F) ((c : Thread nD τ).loc main_arg0))
  (ws : (c : Dev nD) → Buf (Elt F) ((c : Thread nD τ).loc main_arg2))
  (nbs : (c : Dev nD) → Buf (Elt F) ((c : Thread nD τ).loc main_arg3))
  (prevs : (c : Dev nD) → Buf (Elt F) ((c : Thread nD τ).loc main_v10))
  (O : CellTallies nD τ sig (HIx 1)) (b : ℕ)

/-- The proof data family: one pipeline. -/
def pdats : (p : Fin 1) → (c : Dev nD) → Dat τ (Elt F) (HIx 1) ℕ UU ℕ (Pipeline.pin (pcfgs (F := F)) adm p) c
  | ⟨0, _⟩ => fun c => dat xs ws nbs prevs O b c

/-- What the core owes, its recorded pairs at or below level `b`. -/
abbrev owesB (c : Dev nD) : sProp 𝕄 := iprop(∃ W, ⌜(K (F := F)).WBelow (T c) W b⌝ ∗ owes (T c : Thread nD τ) O W)

/-- The four arrays whole, the last at contents `out`. -/
abbrev arrs (c : Dev nD) (out : Buf (Elt F) ((c : Thread nD τ).loc main_v10)) : sProp 𝕄 :=
  iprop(((c : Thread nD τ).loc main_arg0 ↦{fullShare} xs c) ∗ ((c : Thread nD τ).loc main_arg2 ↦{fullShare} ws c)
    ∗ ((c : Thread nD τ).loc main_arg3 ↦{fullShare} nbs c) ∗ ((c : Thread nD τ).loc main_v10 ↦{fullShare} out))

/-- The pipeline's arrays at their final contents are the four arrays, the last at the numeric tokens computed. -/
theorem arrays_final (c : Dev nD) :
    ((pdats xs ws nbs prevs O b 0 c).arrays ((pdats xs ws nbs prevs O b 0 c).arrAt · (Pipeline.pin (pcfgs (F := F)) adm 0).N) : sProp 𝕄)
      = arrs xs ws nbs c (Cert.Proof.Spec.numTokens (F := F) (xs c) (ws c) (nbs c) (prevs c)) := by
  rw [Pipeline.arrays_eq (Pipeline.pin (pcfgs (F := F)) adm) (pdats xs ws nbs prevs O b) 0 c launch1.arr_whole
    ((pdats xs ws nbs prevs O b 0 c).share_full fun _ => rfl), bigSep_W1]
  show iprop((_ ↦{fullShare} (dat xs ws nbs prevs O b c).arrAt 0 cfg1.N) ∗ (_ ↦{fullShare} (dat xs ws nbs prevs O b c).arrAt 1 cfg1.N)
    ∗ (_ ↦{fullShare} (dat xs ws nbs prevs O b c).arrAt 2 cfg1.N) ∗ (_ ↦{fullShare} (dat xs ws nbs prevs O b c).arrAt 3 cfg1.N)) = _
  rw [((dat xs ws nbs prevs O b c).arrAt_in 0 rfl _).trans (A_0 xs ws nbs prevs O b c),
    ((dat xs ws nbs prevs O b c).arrAt_in 1 rfl _).trans (A_1 xs ws nbs prevs O b c),
    ((dat xs ws nbs prevs O b c).arrAt_in 2 rfl _).trans (A_2 xs ws nbs prevs O b c), arrAt_3]

set_option backward.isDefEq.respectTransparency.types false in
/-- The region over the thread state "the four arrays and what the core owes". -/
def reg (hO : ∀ g, O g none = 0) : Pipeline.RegionSeg (pcfgs (F := F)) adm (pdats xs ws nbs prevs O b) (none : HIx 1) defs₀ 𝒱₀
    (K (F := F)).L (K (F := F)).lev 0 where
  win := launch1.win.to₀
  block_pos := launch1.block_pos
  stage_whole := launch1.stage_whole
  K := PEmpty
  osem k := k.elim
  ho := Pipeline.OwnSemFacts.none _
  hbody c := (body_obligation xs ws nbs prevs O b c).loose
  hwaits c := Pipeline.cellsWaits_intro (Pipeline.pin (pcfgs (F := F)) adm) (pdats xs ws nbs prevs O b) (none : HIx 1) 0 c
    fun w s t => (K (F := F)).mayWait_none _ hO
  pre c := iprop(arrs xs ws nbs c (prevs c) ∗ owesB O b c)
  post c := iprop(arrs xs ws nbs c (Cert.Proof.Spec.numTokens (F := F) (xs c) (ws c) (nbs c) (prevs c)) ∗ owesB O b c)
  X _ := BI.emp
  Y _ := BI.emp
  Z _ := BI.emp
  hentry c := by
    rw [Pipeline.ownSems0_none]
    iintro ⟨⟨⟨H0, H1, H2, H3⟩, HO⟩, -, -⟩
    imodintro
    isplitl [H0 H1 H2 H3]
    · rw [Pipeline.arrays_eq (Pipeline.pin (pcfgs (F := F)) adm) (pdats xs ws nbs prevs O b) 0 c launch1.arr_whole
        ((pdats xs ws nbs prevs O b 0 c).share_full fun _ => rfl), bigSep_W1]
      isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitr; · iempintro
    iempintro
  hin c := by
    rw [show (pdats xs ws nbs prevs O b 0 c).Φ 0
      = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats xs ws nbs prevs O b 0 c).Φ (Fin.last _)
      = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, -⟩
    imodintro
    isplitl [Ha]
    · rw [arrays_final]; exact BI.Entails.refl _
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Cert.Proof.KI.Tc

end
-- ==== Proof.TcCall.lean ====
/-
  The numeric-token call as one lemma over the TensorCore's program under the SparseCore dispatch: the region's step
  (the pipeline library's rule at the proof data of this call), carried to the body table extended with the SparseCore
  calls' dispatch, over the thread state "the four arrays whole, what the core owes".
-/
import proofs.«207390_g85444079387303_cont_sun_c4_501_21_alg».proof.Proof.TcRegion

noncomputable section

namespace Cert.Proof.KI.Tc

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation BodyObligationLoose cellOf)

/-- A family over the (one) devices from its member at `d`. -/
def fam {β : Dev nD → Type} (d : Dev nD) (x : β d) : (c : Dev nD) → β c := fun c => (Subsingleton.elim d c) ▸ x
theorem fam_self {β : Dev nD → Type} (d : Dev nD) (x : β d) : fam d x d = x := rfl

abbrev fx (d : Dev nD) (x : Buf (Elt F) ((T d : Thread nD τ).loc main_arg0)) :=
  fam (β := fun c => Buf (Elt F) ((c : Thread nD τ).loc main_arg0)) d x
abbrev fw (d : Dev nD) (w : Buf (Elt F) ((T d : Thread nD τ).loc main_arg2)) :=
  fam (β := fun c => Buf (Elt F) ((c : Thread nD τ).loc main_arg2)) d w
abbrev fnb (d : Dev nD) (nb : Buf (Elt F) ((T d : Thread nD τ).loc main_arg3)) :=
  fam (β := fun c => Buf (Elt F) ((c : Thread nD τ).loc main_arg3)) d nb
abbrev fprev (d : Dev nD) (prev : Buf (Elt F) ((T d : Thread nD τ).loc main_v10)) :=
  fam (β := fun c => Buf (Elt F) ((c : Thread nD τ).loc main_v10)) d prev

/-- A proof about the call under the pipeline's body table is one under the table extended with the SparseCore dispatch. -/
theorem stepA (d : Dev nD) (Φ : PUnit → sProp 𝕄) :
    wp frame (wpE (D (F := F)) 𝒱 (T d) none) Set.univ (Prog.lift (.customCall (Pipeline.entry 0) ())) Φ
      ⊢ wp frame (wpE ((K (F := F)).defs (D (F := F))) 𝒱 (T d) none) Set.univ
          (Prog.lift (.customCall (SparseCore.inner (Pipeline.entry 0)) ())) Φ :=
  (K (F := F)).wp_liftProg (D (F := F)) 𝒱 (T d) Set.univ none (Prog.lift (.customCall (Pipeline.entry 0) ())) Φ

/-- The region's step, its conclusion over the call followed by the return. -/
theorem stepB (d : Dev nD)
    (x : Buf (Elt F) ((T d : Thread nD τ).loc main_arg0)) (w : Buf (Elt F) ((T d : Thread nD τ).loc main_arg2))
    (nb : Buf (Elt F) ((T d : Thread nD τ).loc main_arg3)) (prev : Buf (Elt F) ((T d : Thread nD τ).loc main_v10))
    (O : CellTallies nD τ sig (HIx 1)) (hO : ∀ g, O g none = 0) (b : ℕ) (Φ : PUnit → sProp 𝕄) :
    iprop((iprop(boundary (d.tc : Thread nD τ) ∗ (reg (fx d x) (fw d w) (fnb d nb) (fprev d prev) O b hO).post d)
          -∗ wp frame (wpE (Pipeline.defs (pcfgs (F := F)) defs₀) (Variants.lift 𝒱₀) (d.tc : Thread nD τ) none) Set.univ (Prog.ret PUnit.unit) Φ)
        ∗ boundary (d.tc : Thread nD τ) ∗ (reg (fx d x) (fw d w) (fnb d nb) (fprev d prev) O b hO).pre d
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) (Variants.lift 𝒱₀) (d.tc : Thread nD τ) none) Set.univ
          (.op (.customCall (Pipeline.entry 0) ()) fun _ => Prog.ret PUnit.unit) Φ :=
  Pipeline.RegionSeg.wp (pcfgs (F := F)) adm (pdats (fx d x) (fw d w) (fnb d nb) (fprev d prev) O b)
    (none : HIx 1) cellOf_inj EP defs₀ 𝒱₀ (K (F := F)).L (K (F := F)).lev
    (reg (fx d x) (fw d w) (fnb d nb) (fprev d prev) O b hO)
    d none (fun u hu => absurd hu (Option.not_mem_none u)) (fun _ => Prog.ret PUnit.unit) Φ

/-- The same over the thread state spelt out, at the member `d` of the families. -/
theorem stepB' (d : Dev nD)
    (x : Buf (Elt F) ((T d : Thread nD τ).loc main_arg0)) (w : Buf (Elt F) ((T d : Thread nD τ).loc main_arg2))
    (nb : Buf (Elt F) ((T d : Thread nD τ).loc main_arg3)) (prev : Buf (Elt F) ((T d : Thread nD τ).loc main_v10))
    (O : CellTallies nD τ sig (HIx 1)) (hO : ∀ g, O g none = 0) (b : ℕ) (Φ : PUnit → sProp 𝕄) :
    iprop((iprop(boundary (T d : Thread nD τ)
            ∗ ((((T d : Thread nD τ).loc main_arg0 ↦{fullShare} x) ∗ ((T d : Thread nD τ).loc main_arg2 ↦{fullShare} w)
              ∗ ((T d : Thread nD τ).loc main_arg3 ↦{fullShare} nb)
              ∗ ((T d : Thread nD τ).loc main_v10 ↦{fullShare} (Cert.Proof.Spec.numTokens (F := F) x w nb prev)))
            ∗ (∃ W, ⌜(K (F := F)).WBelow (T d) W b⌝ ∗ owes (T d : Thread nD τ) O W)))
          -∗ wp frame (wpE (D (F := F)) 𝒱 (T d) none) Set.univ (Prog.ret PUnit.unit) Φ)
        ∗ boundary (T d : Thread nD τ)
        ∗ ((((T d : Thread nD τ).loc main_arg0 ↦{fullShare} x) ∗ ((T d : Thread nD τ).loc main_arg2 ↦{fullShare} w)
              ∗ ((T d : Thread nD τ).loc main_arg3 ↦{fullShare} nb) ∗ ((T d : Thread nD τ).loc main_v10 ↦{fullShare} prev))
            ∗ (∃ W, ⌜(K (F := F)).WBelow (T d) W b⌝ ∗ owes (T d : Thread nD τ) O W))
        ∗ levAts (K (F := F)).L (K (F := F)).lev
        ∗ Pipeline.cellsGhost cfgs EP 0 d ∗ Pipeline.toksInit cfgs EP 0 d)
      ⊢ wp frame (wpE (D (F := F)) 𝒱 (T d) none) Set.univ (Prog.lift (.customCall (Pipeline.entry 0) ())) Φ :=
  stepB d x w nb prev O hO b Φ

/-- The thread state of the call rearranged as the region's step takes it. -/
theorem glue (d : Dev nD)
    (x : Buf (Elt F) ((T d : Thread nD τ).loc main_arg0)) (w : Buf (Elt F) ((T d : Thread nD τ).loc main_arg2))
    (nb : Buf (Elt F) ((T d : Thread nD τ).loc main_arg3)) (prev : Buf (Elt F) ((T d : Thread nD τ).loc main_v10))
    (O : CellTallies nD τ sig (HIx 1)) (hO : ∀ g, O g none = 0) (b : ℕ) (Φ : PUnit → sProp 𝕄) :
    iprop((levAts (K (F := F)).L (K (F := F)).lev : sProp 𝕄) ∗ boundary (T d : Thread nD τ)
        ∗ ((T d : Thread nD τ).loc main_arg0 ↦{fullShare} x) ∗ ((T d : Thread nD τ).loc main_arg2 ↦{fullShare} w)
        ∗ ((T d : Thread nD τ).loc main_arg3 ↦{fullShare} nb) ∗ ((T d : Thread nD τ).loc main_v10 ↦{fullShare} prev)
        ∗ (∃ W, ⌜(K (F := F)).WBelow (T d) W b⌝ ∗ owes (T d : Thread nD τ) O W)
        ∗ Pipeline.cellsGhost cfgs EP 0 d ∗ Pipeline.toksInit cfgs EP 0 d
        ∗ (iprop(boundary (T d : Thread nD τ)
            ∗ ((T d : Thread nD τ).loc main_arg0 ↦{fullShare} x) ∗ ((T d : Thread nD τ).loc main_arg2 ↦{fullShare} w)
            ∗ ((T d : Thread nD τ).loc main_arg3 ↦{fullShare} nb)
            ∗ ((T d : Thread nD τ).loc main_v10 ↦{fullShare} (Cert.Proof.Spec.numTokens (F := F) x w nb prev))
            ∗ (∃ W, ⌜(K (F := F)).WBelow (T d) W b⌝ ∗ owes (T d : Thread nD τ) O W)) -∗ Φ ⟨⟩))
      ⊢ iprop((iprop(boundary (T d : Thread nD τ)
            ∗ ((((T d : Thread nD τ).loc main_arg0 ↦{fullShare} x) ∗ ((T d : Thread nD τ).loc main_arg2 ↦{fullShare} w)
              ∗ ((T d : Thread nD τ).loc main_arg3 ↦{fullShare} nb)
              ∗ ((T d : Thread nD τ).loc main_v10 ↦{fullShare} (Cert.Proof.Spec.numTokens (F := F) x w nb prev)))
            ∗ (∃ W, ⌜(K (F := F)).WBelow (T d) W b⌝ ∗ owes (T d : Thread nD τ) O W)))
          -∗ wp frame (wpE (D (F := F)) 𝒱 (T d) none) Set.univ (Prog.ret PUnit.unit) Φ)
        ∗ boundary (T d : Thread nD τ)
        ∗ ((((T d : Thread nD τ).loc main_arg0 ↦{fullShare} x) ∗ ((T d : Thread nD τ).loc main_arg2 ↦{fullShare} w)
              ∗ ((T d : Thread nD τ).loc main_arg3 ↦{fullShare} nb) ∗ ((T d : Thread nD τ).loc main_v10 ↦{fullShare} prev))
            ∗ (∃ W, ⌜(K (F := F)).WBelow (T d) W b⌝ ∗ owes (T d : Thread nD τ) O W))
        ∗ levAts (K (F := F)).L (K (F := F)).lev
        ∗ Pipeline.cellsGhost cfgs EP 0 d ∗ Pipeline.toksInit cfgs EP 0 d) := by
  iintro ⟨Hlev, Hb, H0, H1, H2, H3, HO, Hg, Ht, Hk⟩
  isplitl [Hk]
  · iintro ⟨Hb, ⟨⟨H0, H1, H2, H3⟩, HO⟩⟩
    iapply (le_wp_ret _ _)
    iapply Hk
    isplitl [Hb]; · iexact Hb
    isplitl [H0]; · iexact H0
    isplitl [H1]; · iexact H1
    isplitl [H2]; · iexact H2
    isplitl [H3]; · iexact H3
    iexact HO
  isplitl [Hb]; · iexact Hb
  isplitl [H0 H1 H2 H3 HO]
  · isplitr [HO]
    · isplitl [H0]; · iexact H0
      isplitl [H1]; · iexact H1
      isplitl [H2]; · iexact H2
      iexact H3
    · iexact HO
  isplitl [Hlev]; · iexact Hlev
  isplitl [Hg]; · iexact Hg
  iexact Ht

/-- THE CALL, as one step of @main on the TensorCore of `d`. -/
theorem region (d : Dev nD)
    (x : Buf (Elt F) ((T d : Thread nD τ).loc main_arg0)) (w : Buf (Elt F) ((T d : Thread nD τ).loc main_arg2))
    (nb : Buf (Elt F) ((T d : Thread nD τ).loc main_arg3)) (prev : Buf (Elt F) ((T d : Thread nD τ).loc main_v10))
    (O : CellTallies nD τ sig (HIx 1)) (hO : ∀ g, O g none = 0) (b : ℕ) {Φ : PUnit → sProp 𝕄} :
    iprop((levAts (K (F := F)).L (K (F := F)).lev : sProp 𝕄) ∗ boundary (T d : Thread nD τ)
        ∗ ((T d : Thread nD τ).loc main_arg0 ↦{fullShare} x) ∗ ((T d : Thread nD τ).loc main_arg2 ↦{fullShare} w)
        ∗ ((T d : Thread nD τ).loc main_arg3 ↦{fullShare} nb) ∗ ((T d : Thread nD τ).loc main_v10 ↦{fullShare} prev)
        ∗ (∃ W, ⌜(K (F := F)).WBelow (T d) W b⌝ ∗ owes (T d : Thread nD τ) O W)
        ∗ Pipeline.cellsGhost cfgs EP 0 d ∗ Pipeline.toksInit cfgs EP 0 d
        ∗ (iprop(boundary (T d : Thread nD τ)
            ∗ ((T d : Thread nD τ).loc main_arg0 ↦{fullShare} x) ∗ ((T d : Thread nD τ).loc main_arg2 ↦{fullShare} w)
            ∗ ((T d : Thread nD τ).loc main_arg3 ↦{fullShare} nb)
            ∗ ((T d : Thread nD τ).loc main_v10 ↦{fullShare} (Cert.Proof.Spec.numTokens (F := F) x w nb prev))
            ∗ (∃ W, ⌜(K (F := F)).WBelow (T d) W b⌝ ∗ owes (T d : Thread nD τ) O W)) -∗ Φ ⟨⟩))
      ⊢ wp frame (wpE ((K (F := F)).defs (D (F := F))) 𝒱 (T d) none) Set.univ
          (Prog.lift (.customCall (SparseCore.inner (Pipeline.entry 0)) ())) Φ :=
  (glue d x w nb prev O hO b Φ).trans ((stepB' d x w nb prev O hO b Φ).trans (stepA d Φ))

end Cert.Proof.KI.Tc

end
-- ==== Proof.WordScOwn.lean ====
/-
  A vector subcore's own storage for the row-gathering kernel: its four scratch buffers and six DMA semaphores, named out of what the launch hands a task.
-/
import proofs.«207390_g85444079387303_cont_sun_c4_501_21_alg».proof.Proof.WordSetup
import proofs.«207390_g85444079387303_cont_sun_c4_501_21_alg».proof.Proof.Spec
import proofs.«207390_g85444079387303_cont_sun_c4_501_21_alg».proof.Proof.Gen.Kernel.Skeleton
import proofs.«207390_g85444079387303_cont_sun_c4_501_21_alg».proof.Proof.WordPay

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Own

variable (d : Dev nD) (c : Fin τ.nSC) (i : Fin τ.nSub)

/-- The cell of DMA semaphore a on vector subcore (c, i). -/
abbrev dcell (a : DmaSem sig) : GSem nD τ sig := (V d c i, SemLoc.dma a)

theorem dcell_ne {a b : DmaSem sig} (h : a ≠ b) : dcell d c i a ≠ dcell d c i b :=
  fun e => h (SemLoc.dma.inj (Prod.mk.inj e).2)

theorem dcell_mem (a : DmaSem sig) (h : (SemLoc.dma a : SemLoc sig).isScoped .scVector = true) : dcell d c i a ∈ ownCells (V d c i) :=
  (mem_ownCells (g := dcell d c i a)).mpr ⟨rfl, h⟩

/-- The six semaphores the body uses, then the rest of the subcore's scoped semaphores. -/
theorem ownSems0_V :
    (ownSems0 (V d c i) : sProp 𝕄)
      = iprop(semVal (dcell d c i cc0_scratch4.sem) 0 ∗ semVal (dcell d c i cc0_scratch5.sem) 0
          ∗ semVal (dcell d c i cc0_scoped0.sem) 0 ∗ semVal (dcell d c i cc0_scoped1.sem) 0
          ∗ semVal (dcell d c i cc0_scoped2.sem) 0 ∗ semVal (dcell d c i cc0_scoped3.sem) 0
          ∗ bigSep ((((((((ownCells (V d c i)).erase (dcell d c i cc0_scratch4.sem)).erase (dcell d c i cc0_scratch5.sem)).erase
              (dcell d c i cc0_scoped0.sem)).erase (dcell d c i cc0_scoped1.sem)).erase (dcell d c i cc0_scoped2.sem)).erase (dcell d c i cc0_scoped3.sem)))
              fun g => semVal g 0) := by
  unfold SparseCore.Cfg.ownSems0
  have m4 := dcell_mem d c i cc0_scratch4.sem (by decide)
  have m5 := dcell_mem d c i cc0_scratch5.sem (by decide)
  have m0 := dcell_mem d c i cc0_scoped0.sem (by decide)
  have m1 := dcell_mem d c i cc0_scoped1.sem (by decide)
  have m2 := dcell_mem d c i cc0_scoped2.sem (by decide)
  have m3 := dcell_mem d c i cc0_scoped3.sem (by decide)
  rw [SparseCore.bigSep_erase' m4,
    SparseCore.bigSep_erase' (Finset.mem_erase.mpr ⟨dcell_ne d c i (by decide), m5⟩),
    SparseCore.bigSep_erase' (Finset.mem_erase.mpr ⟨dcell_ne d c i (by decide), Finset.mem_erase.mpr ⟨dcell_ne d c i (by decide), m0⟩⟩),
    SparseCore.bigSep_erase' (Finset.mem_erase.mpr ⟨dcell_ne d c i (by decide), Finset.mem_erase.mpr ⟨dcell_ne d c i (by decide),
      Finset.mem_erase.mpr ⟨dcell_ne d c i (by decide), m1⟩⟩⟩),
    SparseCore.bigSep_erase' (Finset.mem_erase.mpr ⟨dcell_ne d c i (by decide), Finset.mem_erase.mpr ⟨dcell_ne d c i (by decide),
      Finset.mem_erase.mpr ⟨dcell_ne d c i (by decide), Finset.mem_erase.mpr ⟨dcell_ne d c i (by decide), m2⟩⟩⟩⟩),
    SparseCore.bigSep_erase' (Finset.mem_erase.mpr ⟨dcell_ne d c i (by decide), Finset.mem_erase.mpr ⟨dcell_ne d c i (by decide),
      Finset.mem_erase.mpr ⟨dcell_ne d c i (by decide), Finset.mem_erase.mpr ⟨dcell_ne d c i (by decide),
      Finset.mem_erase.mpr ⟨dcell_ne d c i (by decide), m3⟩⟩⟩⟩⟩)]

/-- A scratch buffer of the subcore, as a buffer of the device. -/
abbrev sref (b : Ref sig .scVector) : DevRef τ sig := (Proc.scVector c i).devRef b

theorem sref_ne {a b : Ref sig .scVector} (h : a ≠ b) : sref c i a ≠ sref c i b :=
  fun e => h (Proc.devRef_injective _ e)

theorem sref_mem (b : Ref sig .scVector) (h : (sref c i b).owner = .proc (.scVector c i)) : sref c i b ∈ ownRefs (τ := τ) (sig := sig) (.scVector c i) :=
  SparseCore.Cfg.mem_ownRefs_of_owner (p := Proc.scVector c i) (b := sref c i b) h

/-- The four scratch buffers, each whole at some contents, then the rest of the subcore's own buffers. -/
theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ bigSep (((((ownRefs (τ := τ) (sig := sig) (.scVector c i)).erase (sref c i cc0_scratch0)).erase (sref c i cc0_scratch1)).erase
              (sref c i cc0_scratch2)).erase (sref c i cc0_scratch3))
              fun b => iprop(∃ f, ((d, b) : Loc nD τ sig) ↦{fullShare} f)) := by
  unfold SparseCore.Cfg.ownBufs
  have m0 := sref_mem c i cc0_scratch0 rfl
  have m1 := sref_mem c i cc0_scratch1 rfl
  have m2 := sref_mem c i cc0_scratch2 rfl
  have m3 := sref_mem c i cc0_scratch3 rfl
  refine (SparseCore.bigSep_erase' m0).trans ?_
  rw [SparseCore.bigSep_erase' (Finset.mem_erase.mpr ⟨sref_ne c i (by decide), m1⟩),
    SparseCore.bigSep_erase' (Finset.mem_erase.mpr ⟨sref_ne c i (by decide), Finset.mem_erase.mpr ⟨sref_ne c i (by decide), m2⟩⟩),
    SparseCore.bigSep_erase' (Finset.mem_erase.mpr ⟨sref_ne c i (by decide), Finset.mem_erase.mpr ⟨sref_ne c i (by decide),
      Finset.mem_erase.mpr ⟨sref_ne c i (by decide), m3⟩⟩⟩)]

end Own

end Cert.Proof.KW

end
-- ==== Proof.WordScDefs.lean ====
/-
  One vector subcore's task of the row-gathering kernel: what its scratch buffers hold and the invariant of its loop over pairs of chunks.
-/
import proofs.«207390_g85444079387303_cont_sun_c4_501_21_alg».proof.Proof.WordSetup
import proofs.«207390_g85444079387303_cont_sun_c4_501_21_alg».proof.Proof.Spec
import proofs.«207390_g85444079387303_cont_sun_c4_501_21_alg».proof.Proof.Gen.Kernel.Skeleton
import proofs.«207390_g85444079387303_cont_sun_c4_501_21_alg».proof.Proof.WordPay
import proofs.«207390_g85444079387303_cont_sun_c4_501_21_alg».proof.Proof.WordScOwn
import proofs.«207390_g85444079387303_cont_sun_c4_501_21_alg».proof.Proof.ScLane

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.Kernel.main_arg4_scv : Memref Cert.Kernel.sig Kind.scVector Space.hbm Cert.Kernel.S26000x128 EltTy.f32)
local notation "gidxW" => (Memref.whole Cert.Kernel.main_v7_scv : Memref Cert.Kernel.sig Kind.scVector Space.hbm Cert.Kernel.S32x104x128 EltTy.i32)
local notation "biasW" => (Memref.whole Cert.Kernel.main_arg5_scv : Memref Cert.Kernel.sig Kind.scVector Space.hbm Cert.Kernel.S26x128 EltTy.f32)
local notation "outW" => (Memref.whole Cert.Kernel.main_v8_scv : Memref Cert.Kernel.sig Kind.scVector Space.hbm Cert.Kernel.S2064384x128 EltTy.f32)
local notation "idxS" => (Memref.whole Cert.Kernel.cc0_scratch0 : Memref Cert.Kernel.sig Kind.scVector Space.vmem Cert.Kernel.S104x128 EltTy.i32)
local notation "biasS" => (Memref.whole Cert.Kernel.cc0_scratch1 : Memref Cert.Kernel.sig Kind.scVector Space.vmem Cert.Kernel.S26x128 EltTy.f32)
local notation "rowsA" => (Memref.whole Cert.Kernel.cc0_scratch2 : Memref Cert.Kernel.sig Kind.scVector Space.vmem Cert.Kernel.S128x128 EltTy.f32)
local notation "rowsB" => (Memref.whole Cert.Kernel.cc0_scratch3 : Memref Cert.Kernel.sig Kind.scVector Space.vmem Cert.Kernel.S128x128 EltTy.f32)

open Cert.Proof.Lane (addRows)
open Idealize.ShloMosaic.ValueIdx

variable [FloatOps F]

section Tile

variable (d : Dev nD) (L : grid0.Coords)

abbrev thr : Thread nD τ := V d (cV L) (jV L)

/-- This task's 104 x 128 block of table-row numbers, as the body slices it out of the index array. -/
abbrev gidxRow (L : grid0.Coords) : Memref sig .scVector .hbm S104x128 .i32 :=
  ((gidxW).slice (Rect.unit (s := S32x104x128) (k0_off1 L) S1x104x128.size (k0_off1_inb L)) (fun _ => rfl)).squeeze S104x128 squeezes_S1x104x128_S104x128
/-- One row of 128 row numbers of the index scratch, as a gather's offset list. -/
abbrev idxRowK (off : Fin 2 → Nat) (hoff : ∀ a, off a + S1x128.size a ≤ S104x128.size a) : Memref sig .scVector .vmem S128 .i32 :=
  ((idxS).slice (Rect.unit (s := S104x128) off S1x128.size hoff) (fun _ => rfl)).squeeze S128 squeezes_S1x128_S128
/-- The table as a gather names it: the slice that is all of it. -/
abbrev tabSl : Memref sig .scVector .hbm S26000x128 .f32 :=
  (tabW).slice (Rect.unit (s := S26000x128) ![0, 0] S26000x128.size inb_S26000x128_S26000x128_0_0) (fun _ => rfl)

/-- What the index scratch holds after the first copy: the task's block of the index array. -/
def idxBlk (fg : Buf (Elt F) (gidxLoc d)) : Buf (Elt F) ((thr d L).loc cc0_scratch0) :=
  ReadAs.same.apply (View.read (Elt F) (gidxRow L).view fg)
/-- What the bias scratch holds after the second copy: the bias array. -/
def biasBlk (fb : Buf (Elt F) (biasLoc d)) : Buf (Elt F) ((thr d L).loc cc0_scratch1) :=
  ReadAs.same.apply (View.read (Elt F) (biasW).view fb)

omit [FloatOps F] in
/-- Every offset list the task reads holds row numbers of the table: the words of the index array are below 26000. -/
theorem idx_inb (fg : Buf (Elt F) (gidxLoc d)) (hfg : ∀ i, (fg i).toNat < 26000)
    (off : Fin 2 → Nat) (hoff : ∀ a, off a + S1x128.size a ≤ S104x128.size a) :
    ∀ j, ((idxRowK off hoff).view.read (Elt F) (idxBlk d L fg) j).toNat < S26000x128.size gathers_S26000x128_S128x128.axis := by
  intro j
  unfold idxBlk
  simp only [View.read_apply]
  exact hfg _

/-- The 128 table rows a list of row numbers names, as a gather lands them in a rows buffer. -/
def gath (ft : Buf (Elt F) (tabLoc d)) (fg : Buf (Elt F) (gidxLoc d)) (hfg : ∀ i, (fg i).toNat < 26000)
    (off : Fin 2 → Nat) (hoff : ∀ a, off a + S1x128.size a ≤ S104x128.size a) : FVec F S128x128 .f32 :=
  SparseCore.gatherPayload gathers_S26000x128_S128x128 (View.read (Elt F) (tabSl).view ft)
    (SparseCore.rows (View.read (Elt F) (idxRowK off hoff).view (idxBlk d L fg)) rfl (idx_inb d L fg hfg off hoff))

end Tile

end Cert.Proof.KW

end
-- ==== Proof.WordScBl.lean ====
/-
  The bias a trip adds, as a function on a rows buffer: the eight 16-lane vectors the trip loads from the bias scratch, side by side; and what a chunk's rows buffer holds when its bias loop is over.
-/
import proofs.«207390_g85444079387303_cont_sun_c4_501_21_alg».proof.Proof.WordSetup
import proofs.«207390_g85444079387303_cont_sun_c4_501_21_alg».proof.Proof.Spec
import proofs.«207390_g85444079387303_cont_sun_c4_501_21_alg».proof.Proof.Gen.Kernel.Skeleton
import proofs.«207390_g85444079387303_cont_sun_c4_501_21_alg».proof.Proof.WordScDefs

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.Kernel.main_arg4_scv : Memref Cert.Kernel.sig Kind.scVector Space.hbm Cert.Kernel.S26000x128 EltTy.f32)
local notation "gidxW" => (Memref.whole Cert.Kernel.main_v7_scv : Memref Cert.Kernel.sig Kind.scVector Space.hbm Cert.Kernel.S32x104x128 EltTy.i32)
local notation "biasW" => (Memref.whole Cert.Kernel.main_arg5_scv : Memref Cert.Kernel.sig Kind.scVector Space.hbm Cert.Kernel.S26x128 EltTy.f32)
local notation "outW" => (Memref.whole Cert.Kernel.main_v8_scv : Memref Cert.Kernel.sig Kind.scVector Space.hbm Cert.Kernel.S2064384x128 EltTy.f32)
local notation "idxS" => (Memref.whole Cert.Kernel.cc0_scratch0 : Memref Cert.Kernel.sig Kind.scVector Space.vmem Cert.Kernel.S104x128 EltTy.i32)
local notation "biasS" => (Memref.whole Cert.Kernel.cc0_scratch1 : Memref Cert.Kernel.sig Kind.scVector Space.vmem Cert.Kernel.S26x128 EltTy.f32)
local notation "rowsA" => (Memref.whole Cert.Kernel.cc0_scratch2 : Memref Cert.Kernel.sig Kind.scVector Space.vmem Cert.Kernel.S128x128 EltTy.f32)
local notation "rowsB" => (Memref.whole Cert.Kernel.cc0_scratch3 : Memref Cert.Kernel.sig Kind.scVector Space.vmem Cert.Kernel.S128x128 EltTy.f32)

open Idealize.ShloMosaic.ValueIdx

/-- The lane function of eight 16-lane vectors side by side: lane c of every row reads vector c / 16 at c % 16. -/
def blOf (b0 b1 b2 b3 b4 b5 b6 b7 : FVec F S16 .f32) : FVec F S128x128 .f32 := fun i =>
  (match (i 1).val / 16 with | 0 => b0 | 1 => b1 | 2 => b2 | 3 => b3 | 4 => b4 | 5 => b5 | 6 => b6 | _ => b7)
    (ix1 ⟨(i 1).val % 16, Nat.mod_lt _ (by norm_num)⟩)

theorem blOf_0 (b0 b1 b2 b3 b4 b5 b6 b7 : FVec F S16 .f32) (i : S128x128.Idx) (l : Fin 16) (h : (i 1).val = 0 + l.val) :
    blOf b0 b1 b2 b3 b4 b5 b6 b7 i = b0 (ix1 l) := by
  unfold blOf
  have h1 : (i 1).val / 16 = 0 := by omega
  have h2 : (i 1).val % 16 = l.val := by omega
  rw [h1]
  exact congrArg _ (congrArg ix1 (Fin.ext h2))

theorem blOf_1 (b0 b1 b2 b3 b4 b5 b6 b7 : FVec F S16 .f32) (i : S128x128.Idx) (l : Fin 16) (h : (i 1).val = 16 + l.val) :
    blOf b0 b1 b2 b3 b4 b5 b6 b7 i = b1 (ix1 l) := by
  unfold blOf
  have h1 : (i 1).val / 16 = 1 := by omega
  have h2 : (i 1).val % 16 = l.val := by omega
  rw [h1]
  exact congrArg _ (congrArg ix1 (Fin.ext h2))

theorem blOf_2 (b0 b1 b2 b3 b4 b5 b6 b7 : FVec F S16 .f32) (i : S128x128.Idx) (l : Fin 16) (h : (i 1).val = 32 + l.val) :
    blOf b0 b1 b2 b3 b4 b5 b6 b7 i = b2 (ix1 l) := by
  unfold blOf
  have h1 : (i 1).val / 16 = 2 := by omega
  have h2 : (i 1).val % 16 = l.val := by omega
  rw [h1]
  exact congrArg _ (congrArg ix1 (Fin.ext h2))

theorem blOf_3 (b0 b1 b2 b3 b4 b5 b6 b7 : FVec F S16 .f32) (i : S128x128.Idx) (l : Fin 16) (h : (i 1).val = 48 + l.val) :
    blOf b0 b1 b2 b3 b4 b5 b6 b7 i = b3 (ix1 l) := by
  unfold blOf
  have h1 : (i 1).val / 16 = 3 := by omega
  have h2 : (i 1).val % 16 = l.val := by omega
  rw [h1]
  exact congrArg _ (congrArg ix1 (Fin.ext h2))

theorem blOf_4 (b0 b1 b2 b3 b4 b5 b6 b7 : FVec F S16 .f32) (i : S128x128.Idx) (l : Fin 16) (h : (i 1).val = 64 + l.val) :
    blOf b0 b1 b2 b3 b4 b5 b6 b7 i = b4 (ix1 l) := by
  unfold blOf
  have h1 : (i 1).val / 16 = 4 := by omega
  have h2 : (i 1).val % 16 = l.val := by omega
  rw [h1]
  exact congrArg _ (congrArg ix1 (Fin.ext h2))

theorem blOf_5 (b0 b1 b2 b3 b4 b5 b6 b7 : FVec F S16 .f32) (i : S128x128.Idx) (l : Fin 16) (h : (i 1).val = 80 + l.val) :
    blOf b0 b1 b2 b3 b4 b5 b6 b7 i = b5 (ix1 l) := by
  unfold blOf
  have h1 : (i 1).val / 16 = 5 := by omega
  have h2 : (i 1).val % 16 = l.val := by omega
  rw [h1]
  exact congrArg _ (congrArg ix1 (Fin.ext h2))

theorem blOf_6 (b0 b1 b2 b3 b4 b5 b6 b7 : FVec F S16 .f32) (i : S128x128.Idx) (l : Fin 16) (h : (i 1).val = 96 + l.val) :
    blOf b0 b1 b2 b3 b4 b5 b6 b7 i = b6 (ix1 l) := by
  unfold blOf
  have h1 : (i 1).val / 16 = 6 := by omega
  have h2 : (i 1).val % 16 = l.val := by omega
  rw [h1]
  exact congrArg _ (congrArg ix1 (Fin.ext h2))

theorem blOf_7 (b0 b1 b2 b3 b4 b5 b6 b7 : FVec F S16 .f32) (i : S128x128.Idx) (l : Fin 16) (h : (i 1).val = 112 + l.val) :
    blOf b0 b1 b2 b3 b4 b5 b6 b7 i = b7 (ix1 l) := by
  unfold blOf
  have h1 : (i 1).val / 16 = 7 := by omega
  have h2 : (i 1).val % 16 = l.val := by omega
  rw [h1]
  exact congrArg _ (congrArg ix1 (Fin.ext h2))

variable [FloatOps F]

section Tile

variable (d : Dev nD) (L : grid0.Coords)

/-- Sixteen lanes of the bias scratch, as a trip loads them. -/
abbrev rdB (fb : Buf (Elt F) (biasLoc d)) (off : Fin 2 → Nat) (hoff : ∀ a, off a + S1x16.size a ≤ S26x128.size a) : Vec F S1x16 .f32 :=
  View.readAt (Elt F) (biasS).view (Rect.unit (s := S26x128) off S1x16.size hoff).toLoadRect (biasBlk d L fb)

/-- The bias trip k adds to its even chunk. -/
def blA (fb : Buf (Elt F) (biasLoc d)) (k : Fin k0_t1_loop.trips) : FVec F S128x128 .f32 :=
  blOf (k0_pay13 (rdB d L fb (k0_off4 L k) (k0_off4_inb L k))) (k0_pay14 (rdB d L fb (k0_off5 L k) (k0_off5_inb L k)))
    (k0_pay15 (rdB d L fb (k0_off6 L k) (k0_off6_inb L k))) (k0_pay16 (rdB d L fb (k0_off7 L k) (k0_off7_inb L k)))
    (k0_pay17 (rdB d L fb (k0_off8 L k) (k0_off8_inb L k))) (shapeCast S16 (rdB d L fb (k0_off9 L k) (k0_off9_inb L k)) shapeCasts_S1x16_S16)
    (shapeCast S16 (rdB d L fb (k0_off10 L k) (k0_off10_inb L k)) shapeCasts_S1x16_S16)
    (shapeCast S16 (rdB d L fb (k0_off11 L k) (k0_off11_inb L k)) shapeCasts_S1x16_S16)

/-- The bias trip k adds to its odd chunk. -/
def blB (fb : Buf (Elt F) (biasLoc d)) (k : Fin k0_t1_loop.trips) : FVec F S128x128 .f32 :=
  blOf (k0_pay21 (rdB d L fb (k0_off22 L k) (k0_off22_inb L k))) (k0_pay22 (rdB d L fb (k0_off23 L k) (k0_off23_inb L k)))
    (k0_pay23 (rdB d L fb (k0_off24 L k) (k0_off24_inb L k))) (k0_pay24 (rdB d L fb (k0_off25 L k) (k0_off25_inb L k)))
    (k0_pay25 (rdB d L fb (k0_off26 L k) (k0_off26_inb L k))) (shapeCast S16 (rdB d L fb (k0_off27 L k) (k0_off27_inb L k)) shapeCasts_S1x16_S16)
    (shapeCast S16 (rdB d L fb (k0_off28 L k) (k0_off28_inb L k)) shapeCasts_S1x16_S16)
    (shapeCast S16 (rdB d L fb (k0_off29 L k) (k0_off29_inb L k)) shapeCasts_S1x16_S16)

variable (ft : Buf (Elt F) (tabLoc d)) (fg : Buf (Elt F) (gidxLoc d)) (hfg : ∀ i, (fg i).toNat < 26000) (fb : Buf (Elt F) (biasLoc d))

/-- The rows trip k gathers for its even chunk (offset row 2 k of the index scratch) and for its odd chunk (row 2 k + 1). -/
abbrev gathA (k : Fin k0_t1_loop.trips) : FVec F S128x128 .f32 := gath d L ft fg hfg (k0_off2 k) (k0_off2_inb k)
abbrev gathB (k : Fin k0_t1_loop.trips) : FVec F S128x128 .f32 := gath d L ft fg hfg (k0_off3 k) (k0_off3_inb k)

/-- What the two rows buffers hold when trip k's bias loops are over: the gathered rows plus the bias. -/
def doneA (k : Fin k0_t1_loop.trips) : FVec F S128x128 .f32 := fun i => FloatOps.addf (gathA d L ft fg hfg k i) (blA d L fb k i)
def doneB (k : Fin k0_t1_loop.trips) : FVec F S128x128 .f32 := fun i => FloatOps.addf (gathB d L ft fg hfg k i) (blB d L fb k i)

end Tile

end Cert.Proof.KW

end
-- ==== Proof.WordScInner.lean ====
/-
  The two bias loops of a task: each trip adds the eight 16-lane bias vectors to one row of a rows buffer.
-/
import proofs.«207390_g85444079387303_cont_sun_c4_501_21_alg».proof.Proof.WordSetup
import proofs.«207390_g85444079387303_cont_sun_c4_501_21_alg».proof.Proof.Spec
import proofs.«207390_g85444079387303_cont_sun_c4_501_21_alg».proof.Proof.Gen.Kernel.Skeleton
import proofs.«207390_g85444079387303_cont_sun_c4_501_21_alg».proof.Proof.WordScBl

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.Kernel.main_arg4_scv : Memref Cert.Kernel.sig Kind.scVector Space.hbm Cert.Kernel.S26000x128 EltTy.f32)
local notation "gidxW" => (Memref.whole Cert.Kernel.main_v7_scv : Memref Cert.Kernel.sig Kind.scVector Space.hbm Cert.Kernel.S32x104x128 EltTy.i32)
local notation "biasW" => (Memref.whole Cert.Kernel.main_arg5_scv : Memref Cert.Kernel.sig Kind.scVector Space.hbm Cert.Kernel.S26x128 EltTy.f32)
local notation "outW" => (Memref.whole Cert.Kernel.main_v8_scv : Memref Cert.Kernel.sig Kind.scVector Space.hbm Cert.Kernel.S2064384x128 EltTy.f32)
local notation "idxS" => (Memref.whole Cert.Kernel.cc0_scratch0 : Memref Cert.Kernel.sig Kind.scVector Space.vmem Cert.Kernel.S104x128 EltTy.i32)
local notation "biasS" => (Memref.whole Cert.Kernel.cc0_scratch1 : Memref Cert.Kernel.sig Kind.scVector Space.vmem Cert.Kernel.S26x128 EltTy.f32)
local notation "rowsA" => (Memref.whole Cert.Kernel.cc0_scratch2 : Memref Cert.Kernel.sig Kind.scVector Space.vmem Cert.Kernel.S128x128 EltTy.f32)
local notation "rowsB" => (Memref.whole Cert.Kernel.cc0_scratch3 : Memref Cert.Kernel.sig Kind.scVector Space.vmem Cert.Kernel.S128x128 EltTy.f32)

open Cert.Proof.Lane (addRows)
open Idealize.ShloMosaic.ValueIdx

variable [FloatOps F]

section Tile

variable (d : Dev nD) (L : grid0.Coords)

/-! ## The bias loop over the rows buffer rowsA -/

/-- One lane group's store into rowsA: the 16 lanes at (row, lane offset) read, a 16-lane vector added, written back. -/
theorem lane_valA (Y : FVec F S128x128 .f32) (bv : FVec F S16 .f32) (off : Fin 2 → Nat) (h : ∀ a, off a + S1x16.size a ≤ S128x128.size a)
    (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) bv) shapeCasts_S16_S1x16 : FVec F S1x16 .f32) x
      = FloatOps.addf (Y ((Rect.unit (s := S128x128) off S1x16.size h).emb x)) (bv (ix1 (x 1))) := by
  obtain ⟨u, l, rfl⟩ : ∃ (u : Fin 1) (l : Fin 16), x = ix2 u l := ⟨x 0, x 1, eq_ix2 x⟩
  rw [shapeCast_a_1a_apply]
  show FloatOps.addf (shapeCast S16 _ shapeCasts_S1x16_S16 (ix1 l)) (bv (ix1 l)) = _
  rw [shapeCast_1a_a_apply, View.readAt_apply]
  have hu : u = 0 := Subsingleton.elim _ _
  subst hu
  rfl

theorem lane_okA_0 (Y : FVec F S128x128 .f32) (b0 b1 b2 b3 b4 b5 b6 b7 : FVec F S16 .f32) (rr : Nat) (off : Fin 2 → Nat)
    (h : ∀ a, off a + S1x16.size a ≤ S128x128.size a) (hoff : off = ![rr, 0]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b0) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_0 _ _ _ _ _ _ _ _ _ (x 1) ?_).symm)
  show (![rr, 0] : Fin 2 → Nat) 1 + 1 * (x 1).val = 0 + (x 1).val
  simp

theorem lane_okA_1 (Y : FVec F S128x128 .f32) (b0 b1 b2 b3 b4 b5 b6 b7 : FVec F S16 .f32) (rr : Nat) (off : Fin 2 → Nat)
    (h : ∀ a, off a + S1x16.size a ≤ S128x128.size a) (hoff : off = ![rr, 16]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b1) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_1 _ _ _ _ _ _ _ _ _ (x 1) ?_).symm)
  show (![rr, 16] : Fin 2 → Nat) 1 + 1 * (x 1).val = 16 + (x 1).val
  simp

theorem lane_okA_2 (Y : FVec F S128x128 .f32) (b0 b1 b2 b3 b4 b5 b6 b7 : FVec F S16 .f32) (rr : Nat) (off : Fin 2 → Nat)
    (h : ∀ a, off a + S1x16.size a ≤ S128x128.size a) (hoff : off = ![rr, 32]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b2) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_2 _ _ _ _ _ _ _ _ _ (x 1) ?_).symm)
  show (![rr, 32] : Fin 2 → Nat) 1 + 1 * (x 1).val = 32 + (x 1).val
  simp

theorem lane_okA_3 (Y : FVec F S128x128 .f32) (b0 b1 b2 b3 b4 b5 b6 b7 : FVec F S16 .f32) (rr : Nat) (off : Fin 2 → Nat)
    (h : ∀ a, off a + S1x16.size a ≤ S128x128.size a) (hoff : off = ![rr, 48]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b3) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_3 _ _ _ _ _ _ _ _ _ (x 1) ?_).symm)
  show (![rr, 48] : Fin 2 → Nat) 1 + 1 * (x 1).val = 48 + (x 1).val
  simp

theorem lane_okA_4 (Y : FVec F S128x128 .f32) (b0 b1 b2 b3 b4 b5 b6 b7 : FVec F S16 .f32) (rr : Nat) (off : Fin 2 → Nat)
    (h : ∀ a, off a + S1x16.size a ≤ S128x128.size a) (hoff : off = ![rr, 64]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b4) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_4 _ _ _ _ _ _ _ _ _ (x 1) ?_).symm)
  show (![rr, 64] : Fin 2 → Nat) 1 + 1 * (x 1).val = 64 + (x 1).val
  simp

theorem lane_okA_5 (Y : FVec F S128x128 .f32) (b0 b1 b2 b3 b4 b5 b6 b7 : FVec F S16 .f32) (rr : Nat) (off : Fin 2 → Nat)
    (h : ∀ a, off a + S1x16.size a ≤ S128x128.size a) (hoff : off = ![rr, 80]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b5) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_5 _ _ _ _ _ _ _ _ _ (x 1) ?_).symm)
  show (![rr, 80] : Fin 2 → Nat) 1 + 1 * (x 1).val = 80 + (x 1).val
  simp

theorem lane_okA_6 (Y : FVec F S128x128 .f32) (b0 b1 b2 b3 b4 b5 b6 b7 : FVec F S16 .f32) (rr : Nat) (off : Fin 2 → Nat)
    (h : ∀ a, off a + S1x16.size a ≤ S128x128.size a) (hoff : off = ![rr, 96]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b6) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_6 _ _ _ _ _ _ _ _ _ (x 1) ?_).symm)
  show (![rr, 96] : Fin 2 → Nat) 1 + 1 * (x 1).val = 96 + (x 1).val
  simp

theorem lane_okA_7 (Y : FVec F S128x128 .f32) (b0 b1 b2 b3 b4 b5 b6 b7 : FVec F S16 .f32) (rr : Nat) (off : Fin 2 → Nat)
    (h : ∀ a, off a + S1x16.size a ≤ S128x128.size a) (hoff : off = ![rr, 112]) (x : (Rect.unit (s := S128x128) off S1x16.size h).shape.Idx) :
    (shapeCast S1x16 (addf (shapeCast S16 (View.readAt (Elt F) (rowsA).view (Rect.unit (s := S128x128) off S1x16.size h).toLoadRect Y)
        shapeCasts_S1x16_S16) b7) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valA (F := F) Y _ _ _ x).trans (congrArg _ (blOf_7 _ _ _ _ _ _ _ _ _ (x 1) ?_).symm)
  show (![rr, 112] : Fin 2 → Nat) 1 + 1 * (x 1).val = 112 + (x 1).val
  simp

/-- Writes through rowsA's whole view, by pieces that cover exactly row r and each hold the old contents plus bl,
    leave the old contents with bl added on row r. -/
theorem writes_rowA (Y bl : FVec F S128x128 .f32) (r : Nat) (Ls : List (View.Piece (Elt F) S128x128 .f32))
    (hcov : ∀ y : S128x128.Idx, (y 0).val = r → ∃ p ∈ Ls, y ∈ p.1.set)
    (hnot : ∀ y : S128x128.Idx, (y 0).val ≠ r → ∀ p ∈ Ls, y ∉ p.1.set)
    (hval : ∀ p ∈ Ls, ∀ x, p.2 x = FloatOps.addf (Y (p.1.emb x)) (bl (p.1.emb x))) :
    (rowsA).view.writes (Elt F) Y Ls = fun i => if (i 0).val = r then FloatOps.addf (Y i) (bl i) else Y i := by
  refine View.contents_ext _ (fun y => ?_) (fun i hi => absurd rfl (hi i))
  by_cases h : (y 0).val = r
  · rw [View.read_writes_apply_of_pieces _ _ (fun i => FloatOps.addf (Y i) (bl i)) Ls hval y (hcov y h)]
    exact (if_pos h).symm
  · rw [View.read_writes_apply_of_forall_not_mem _ _ y Ls (hnot y h)]
    exact (if_neg h).symm

/-- One trip of the loop: row r of rowsA gets the eight bias vectors added, lane group by lane group. -/
theorem innerA_trip (k : Fin k0_t1_loop.trips) (v2 v7 v8 v33 : BitVec 32) (v36 v39 v42 : FVec F S16 .f32) (v44 v47 v50 v53 v56 : Vec F S1x16 .f32)
    (r : Fin k0_t2_loop.trips) (Y : Buf (Elt F) ((thr d L).loc cc0_scratch2)) :
    (iprop(((rowsA).view.loc (thr d L) ↦{fullShare} Y)) : sProp 𝕄)
      ⊢ wp frame (wpE (defs₀ (F := F)) 𝒱₀ (thr d L) none) Set.univ
          (k0_t2_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k v7 v8 v33 v36 v39 v42 v44 v47 v50 v53 v56 r ())
          fun _ => iprop(((rowsA).view.loc (thr d L) ↦{fullShare}
            (fun i : S128x128.Idx => if (i 0).val = r.val then FloatOps.addf (Y i) (blOf v36 v39 v42 (k0_pay16 v44) (k0_pay17 v47) (shapeCast S16 v50 shapeCasts_S1x16_S16) (shapeCast S16 v53 shapeCasts_S1x16_S16) (shapeCast S16 v56 shapeCasts_S1x16_S16) i) else Y i))) := by
  unfold k0_t2_body
  iintro H2
  sl_exec
  sl_step
  rw [writes_rowA (F := F) Y (blOf v36 v39 v42 (k0_pay16 v44) (k0_pay17 v47) (shapeCast S16 v50 shapeCasts_S1x16_S16) (shapeCast S16 v53 shapeCasts_S1x16_S16) (shapeCast S16 v56 shapeCasts_S1x16_S16)) r.val]
  · iexact H2
  · -- the eight pieces cover row r
    intro y hy
    have hy1 : (y 1).val < 128 := (y 1).isLt
    rcases (show (y 1).val < 16 ∨ (16 ≤ (y 1).val ∧ (y 1).val < 32) ∨ (32 ≤ (y 1).val ∧ (y 1).val < 48) ∨ (48 ≤ (y 1).val ∧ (y 1).val < 64)
        ∨ (64 ≤ (y 1).val ∧ (y 1).val < 80) ∨ (80 ≤ (y 1).val ∧ (y 1).val < 96) ∨ (96 ≤ (y 1).val ∧ (y 1).val < 112) ∨ (112 ≤ (y 1).val) by omega)
      with h | h | h | h | h | h | h | h
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
      show y ∈ (Rect.unit (s := S128x128) (k0_off12 r) S1x16.size (k0_off12_inb r)).set
      refine Rect.mem_set_unit.mpr fun a => ?_
      rw [k0_off12_eq]
      match a with
      | 0 => simp; omega
      | 1 => simp; omega
    · refine ⟨_, List.mem_cons_of_mem _ (List.mem_cons_of_mem _ (List.mem_cons_of_mem _ (List.mem_cons_of_mem _ (List.mem_cons_of_mem _ (List.mem_cons_of_mem _ (List.mem_cons_self)))))), ?_⟩
      show y ∈ (Rect.unit (s := S128x128) (k0_off13 r) S1x16.size (k0_off13_inb r)).set
      refine Rect.mem_set_unit.mpr fun a => ?_
      rw [k0_off13_eq]
      match a with
      | 0 => simp; omega
      | 1 => simp; omega
    · refine ⟨_, List.mem_cons_of_mem _ (List.mem_cons_of_mem _ (List.mem_cons_of_mem _ (List.mem_cons_of_mem _ (List.mem_cons_of_mem _ (List.mem_cons_self))))), ?_⟩
      show y ∈ (Rect.unit (s := S128x128) (k0_off14 r) S1x16.size (k0_off14_inb r)).set
      refine Rect.mem_set_unit.mpr fun a => ?_
      rw [k0_off14_eq]
      match a with
      | 0 => simp; omega
      | 1 => simp; omega
    · refine ⟨_, List.mem_cons_of_mem _ (List.mem_cons_of_mem _ (List.mem_cons_of_mem _ (List.mem_cons_of_mem _ (List.mem_cons_self)))), ?_⟩
      show y ∈ (Rect.unit (s := S128x128) (k0_off15 r) S1x16.size (k0_off15_inb r)).set
      refine Rect.mem_set_unit.mpr fun a => ?_
      rw [k0_off15_eq]
      match a with
      | 0 => simp; omega
      | 1 => simp; omega
    · refine ⟨_, List.mem_cons_of_mem _ (List.mem_cons_of_mem _ (List.mem_cons_of_mem _ (List.mem_cons_self))), ?_⟩
      show y ∈ (Rect.unit (s := S128x128) (k0_off16 r) S1x16.size (k0_off16_inb r)).set
      refine Rect.mem_set_unit.mpr fun a => ?_
      rw [k0_off16_eq]
      match a with
      | 0 => simp; omega
      | 1 => simp; omega
    · refine ⟨_, List.mem_cons_of_mem _ (List.mem_cons_of_mem _ (List.mem_cons_self)), ?_⟩
      show y ∈ (Rect.unit (s := S128x128) (k0_off17 r) S1x16.size (k0_off17_inb r)).set
      refine Rect.mem_set_unit.mpr fun a => ?_
      rw [k0_off17_eq]
      match a with
      | 0 => simp; omega
      | 1 => simp; omega
    · refine ⟨_, List.mem_cons_of_mem _ (List.mem_cons_self), ?_⟩
      show y ∈ (Rect.unit (s := S128x128) (k0_off18 r) S1x16.size (k0_off18_inb r)).set
      refine Rect.mem_set_unit.mpr fun a => ?_
      rw [k0_off18_eq]
      match a with
      | 0 => simp; omega
      | 1 => simp; omega
    · refine ⟨_, List.mem_cons_self, ?_⟩
      show y ∈ (Rect.unit (s := S128x128) (k0_off19 r) S1x16.size (k0_off19_inb r)).set
      refine Rect.mem_set_unit.mpr fun a => ?_
      rw [k0_off19_eq]
      match a with
      | 0 => simp; omega
      | 1 => simp; omega
  · -- and nothing off row r
    intro y hy p hp hm
    simp only [List.mem_cons, List.mem_singleton, List.not_mem_nil, _root_.or_false] at hp
    rcases hp with rfl | rfl | rfl | rfl | rfl | rfl | rfl | rfl
    · have hm' : y ∈ (Rect.unit (s := S128x128) (k0_off19 r) S1x16.size (k0_off19_inb r)).set := hm
      have h0 := (Rect.mem_set_unit.mp hm') 0
      rw [k0_off19_eq] at h0
      simp at h0; omega
    · have hm' : y ∈ (Rect.unit (s := S128x128) (k0_off18 r) S1x16.size (k0_off18_inb r)).set := hm
      have h0 := (Rect.mem_set_unit.mp hm') 0
      rw [k0_off18_eq] at h0
      simp at h0; omega
    · have hm' : y ∈ (Rect.unit (s := S128x128) (k0_off17 r) S1x16.size (k0_off17_inb r)).set := hm
      have h0 := (Rect.mem_set_unit.mp hm') 0
      rw [k0_off17_eq] at h0
      simp at h0; omega
    · have hm' : y ∈ (Rect.unit (s := S128x128) (k0_off16 r) S1x16.size (k0_off16_inb r)).set := hm
      have h0 := (Rect.mem_set_unit.mp hm') 0
      rw [k0_off16_eq] at h0
      simp at h0; omega
    · have hm' : y ∈ (Rect.unit (s := S128x128) (k0_off15 r) S1x16.size (k0_off15_inb r)).set := hm
      have h0 := (Rect.mem_set_unit.mp hm') 0
      rw [k0_off15_eq] at h0
      simp at h0; omega
    · have hm' : y ∈ (Rect.unit (s := S128x128) (k0_off14 r) S1x16.size (k0_off14_inb r)).set := hm
      have h0 := (Rect.mem_set_unit.mp hm') 0
      rw [k0_off14_eq] at h0
      simp at h0; omega
    · have hm' : y ∈ (Rect.unit (s := S128x128) (k0_off13 r) S1x16.size (k0_off13_inb r)).set := hm
      have h0 := (Rect.mem_set_unit.mp hm') 0
      rw [k0_off13_eq] at h0
      simp at h0; omega
    · have hm' : y ∈ (Rect.unit (s := S128x128) (k0_off12 r) S1x16.size (k0_off12_inb r)).set := hm
      have h0 := (Rect.mem_set_unit.mp hm') 0
      rw [k0_off12_eq] at h0
      simp at h0; omega
  · -- each piece holds the old lanes plus its bias vector
    intro p hp x
    simp only [List.mem_cons, List.mem_singleton, List.not_mem_nil, _root_.or_false] at hp
    rcases hp with rfl | rfl | rfl | rfl | rfl | rfl | rfl | rfl
    · exact lane_okA_7 (F := F) Y _ _ _ _ _ _ _ _ r.val _ _ (k0_off19_eq r) x
    · exact lane_okA_6 (F := F) Y _ _ _ _ _ _ _ _ r.val _ _ (k0_off18_eq r) x
    · exact lane_okA_5 (F := F) Y _ _ _ _ _ _ _ _ r.val _ _ (k0_off17_eq r) x
    · exact lane_okA_4 (F := F) Y _ _ _ _ _ _ _ _ r.val _ _ (k0_off16_eq r) x
    · exact lane_okA_3 (F := F) Y _ _ _ _ _ _ _ _ r.val _ _ (k0_off15_eq r) x
    · exact lane_okA_2 (F := F) Y _ _ _ _ _ _ _ _ r.val _ _ (k0_off14_eq r) x
    · exact lane_okA_1 (F := F) Y _ _ _ _ _ _ _ _ r.val _ _ (k0_off13_eq r) x
    · exact lane_okA_0 (F := F) Y _ _ _ _ _ _ _ _ r.val _ _ (k0_off12_eq r) x

/-- The trip as a step of the loop's invariant: r rows done to r + 1 rows done. -/
theorem innerA_step (k : Fin k0_t1_loop.trips) (v2 v7 v8 v33 : BitVec 32) (v36 v39 v42 : FVec F S16 .f32) (v44 v47 v50 v53 v56 : Vec F S1x16 .f32)
    (r : Fin k0_t2_loop.trips) (G : FVec F S128x128 .f32) :
    (iprop(((rowsA).view.loc (thr d L) ↦{fullShare} addRows r.val G (blOf v36 v39 v42 (k0_pay16 v44) (k0_pay17 v47) (shapeCast S16 v50 shapeCasts_S1x16_S16) (shapeCast S16 v53 shapeCasts_S1x16_S16) (shapeCast S16 v56 shapeCasts_S1x16_S16)))) : sProp 𝕄)
      ⊢ wp frame (wpE (defs₀ (F := F)) 𝒱₀ (thr d L) none) Set.univ
          (k0_t2_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k v7 v8 v33 v36 v39 v42 v44 v47 v50 v53 v56 r ())
          fun _ => iprop(((rowsA).view.loc (thr d L) ↦{fullShare} addRows (r.val + 1) G (blOf v36 v39 v42 (k0_pay16 v44) (k0_pay17 v47) (shapeCast S16 v50 shapeCasts_S1x16_S16) (shapeCast S16 v53 shapeCasts_S1x16_S16) (shapeCast S16 v56 shapeCasts_S1x16_S16)))) := by
  have h := innerA_trip (F := F) d L k v2 v7 v8 v33 v36 v39 v42 v44 v47 v50 v53 v56 r (addRows r.val G (blOf v36 v39 v42 (k0_pay16 v44) (k0_pay17 v47) (shapeCast S16 v50 shapeCasts_S1x16_S16) (shapeCast S16 v53 shapeCasts_S1x16_S16) (shapeCast S16 v56 shapeCasts_S1x16_S16)))
  rw [Cert.Proof.Lane.addRows_step] at h
  exact h

/-! ## The bias loop over the rows buffer rowsB -/

/-- One lane group's store into rowsB: the 16 lanes at (row, lane offset) read, a 16-lane vector added, written back. -/
theorem lane_valB (Y : FVec F S128x128 .f32) (bv : FVec F S16 .f32) (off : Fin 2 → Nat) (h : ∀ a, off a + S1x16.size a ≤ S128x128.size a)
    (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) bv) shapeCasts_S16_S1x16 : FVec F S1x16 .f32) x
      = FloatOps.addf (Y ((Rect.unit (s := S128x128) off S1x16.size h).emb x)) (bv (ix1 (x 1))) := by
  obtain ⟨u, l, rfl⟩ : ∃ (u : Fin 1) (l : Fin 16), x = ix2 u l := ⟨x 0, x 1, eq_ix2 x⟩
  rw [shapeCast_a_1a_apply]
  show FloatOps.addf (shapeCast S16 _ shapeCasts_S1x16_S16 (ix1 l)) (bv (ix1 l)) = _
  rw [shapeCast_1a_a_apply, View.readAt_apply]
  have hu : u = 0 := Subsingleton.elim _ _
  subst hu
  rfl

theorem lane_okB_0 (Y : FVec F S128x128 .f32) (b0 b1 b2 b3 b4 b5 b6 b7 : FVec F S16 .f32) (rr : Nat) (off : Fin 2 → Nat)
    (h : ∀ a, off a + S1x16.size a ≤ S128x128.size a) (hoff : off = ![rr, 0]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b0) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_0 _ _ _ _ _ _ _ _ _ (x 1) ?_).symm)
  show (![rr, 0] : Fin 2 → Nat) 1 + 1 * (x 1).val = 0 + (x 1).val
  simp

theorem lane_okB_1 (Y : FVec F S128x128 .f32) (b0 b1 b2 b3 b4 b5 b6 b7 : FVec F S16 .f32) (rr : Nat) (off : Fin 2 → Nat)
    (h : ∀ a, off a + S1x16.size a ≤ S128x128.size a) (hoff : off = ![rr, 16]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b1) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_1 _ _ _ _ _ _ _ _ _ (x 1) ?_).symm)
  show (![rr, 16] : Fin 2 → Nat) 1 + 1 * (x 1).val = 16 + (x 1).val
  simp

theorem lane_okB_2 (Y : FVec F S128x128 .f32) (b0 b1 b2 b3 b4 b5 b6 b7 : FVec F S16 .f32) (rr : Nat) (off : Fin 2 → Nat)
    (h : ∀ a, off a + S1x16.size a ≤ S128x128.size a) (hoff : off = ![rr, 32]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b2) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_2 _ _ _ _ _ _ _ _ _ (x 1) ?_).symm)
  show (![rr, 32] : Fin 2 → Nat) 1 + 1 * (x 1).val = 32 + (x 1).val
  simp

theorem lane_okB_3 (Y : FVec F S128x128 .f32) (b0 b1 b2 b3 b4 b5 b6 b7 : FVec F S16 .f32) (rr : Nat) (off : Fin 2 → Nat)
    (h : ∀ a, off a + S1x16.size a ≤ S128x128.size a) (hoff : off = ![rr, 48]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b3) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_3 _ _ _ _ _ _ _ _ _ (x 1) ?_).symm)
  show (![rr, 48] : Fin 2 → Nat) 1 + 1 * (x 1).val = 48 + (x 1).val
  simp

theorem lane_okB_4 (Y : FVec F S128x128 .f32) (b0 b1 b2 b3 b4 b5 b6 b7 : FVec F S16 .f32) (rr : Nat) (off : Fin 2 → Nat)
    (h : ∀ a, off a + S1x16.size a ≤ S128x128.size a) (hoff : off = ![rr, 64]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b4) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_4 _ _ _ _ _ _ _ _ _ (x 1) ?_).symm)
  show (![rr, 64] : Fin 2 → Nat) 1 + 1 * (x 1).val = 64 + (x 1).val
  simp

theorem lane_okB_5 (Y : FVec F S128x128 .f32) (b0 b1 b2 b3 b4 b5 b6 b7 : FVec F S16 .f32) (rr : Nat) (off : Fin 2 → Nat)
    (h : ∀ a, off a + S1x16.size a ≤ S128x128.size a) (hoff : off = ![rr, 80]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b5) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_5 _ _ _ _ _ _ _ _ _ (x 1) ?_).symm)
  show (![rr, 80] : Fin 2 → Nat) 1 + 1 * (x 1).val = 80 + (x 1).val
  simp

theorem lane_okB_6 (Y : FVec F S128x128 .f32) (b0 b1 b2 b3 b4 b5 b6 b7 : FVec F S16 .f32) (rr : Nat) (off : Fin 2 → Nat)
    (h : ∀ a, off a + S1x16.size a ≤ S128x128.size a) (hoff : off = ![rr, 96]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b6) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_6 _ _ _ _ _ _ _ _ _ (x 1) ?_).symm)
  show (![rr, 96] : Fin 2 → Nat) 1 + 1 * (x 1).val = 96 + (x 1).val
  simp

theorem lane_okB_7 (Y : FVec F S128x128 .f32) (b0 b1 b2 b3 b4 b5 b6 b7 : FVec F S16 .f32) (rr : Nat) (off : Fin 2 → Nat)
    (h : ∀ a, off a + S1x16.size a ≤ S128x128.size a) (hoff : off = ![rr, 112]) (x : (Rect.unit (s := S128x128) off S1x16.size h).shape.Idx) :
    (shapeCast S1x16 (addf (shapeCast S16 (View.readAt (Elt F) (rowsB).view (Rect.unit (s := S128x128) off S1x16.size h).toLoadRect Y)
        shapeCasts_S1x16_S16) b7) shapeCasts_S16_S1x16 : FVec F S1x16 .f32) x
      = FloatOps.addf (Y ((Rect.unit (s := S128x128) off S1x16.size h).emb x)) (blOf b0 b1 b2 b3 b4 b5 b6 b7 ((Rect.unit (s := S128x128) off S1x16.size h).emb x)) := by
  subst hoff
  refine (lane_valB (F := F) Y _ _ _ x).trans (congrArg _ (blOf_7 _ _ _ _ _ _ _ _ _ (x 1) ?_).symm)
  show (![rr, 112] : Fin 2 → Nat) 1 + 1 * (x 1).val = 112 + (x 1).val
  simp

/-- Writes through rowsB's whole view, by pieces that cover exactly row r and each hold the old contents plus bl,
    leave the old contents with bl added on row r. -/
theorem writes_rowB (Y bl : FVec F S128x128 .f32) (r : Nat) (Ls : List (View.Piece (Elt F) S128x128 .f32))
    (hcov : ∀ y : S128x128.Idx, (y 0).val = r → ∃ p ∈ Ls, y ∈ p.1.set)
    (hnot : ∀ y : S128x128.Idx, (y 0).val ≠ r → ∀ p ∈ Ls, y ∉ p.1.set)
    (hval : ∀ p ∈ Ls, ∀ x, p.2 x = FloatOps.addf (Y (p.1.emb x)) (bl (p.1.emb x))) :
    (rowsB).view.writes (Elt F) Y Ls = fun i => if (i 0).val = r then FloatOps.addf (Y i) (bl i) else Y i := by
  refine View.contents_ext _ (fun y => ?_) (fun i hi => absurd rfl (hi i))
  by_cases h : (y 0).val = r
  · rw [View.read_writes_apply_of_pieces _ _ (fun i => FloatOps.addf (Y i) (bl i)) Ls hval y (hcov y h)]
    exact (if_pos h).symm
  · rw [View.read_writes_apply_of_forall_not_mem _ _ y Ls (hnot y h)]
    exact (if_neg h).symm

/-- One trip of the loop: row r of rowsB gets the eight bias vectors added, lane group by lane group. -/
theorem innerB_trip (k : Fin k0_t1_loop.trips) (v70 c16384 v71 : BitVec 32) (v89 v92 v95 v98 v101 v104 v107 v110 : Vec F S1x16 .f32)
    (r : Fin k0_t3_loop.trips) (Y : Buf (Elt F) ((thr d L).loc cc0_scratch3)) :
    (iprop(((rowsB).view.loc (thr d L) ↦{fullShare} Y)) : sProp 𝕄)
      ⊢ wp frame (wpE (defs₀ (F := F)) 𝒱₀ (thr d L) none) Set.univ
          (k0_t3_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 k v70 c16384 v71 v89 v92 v95 v98 v101 v104 v107 v110 r ())
          fun _ => iprop(((rowsB).view.loc (thr d L) ↦{fullShare}
            (fun i : S128x128.Idx => if (i 0).val = r.val then FloatOps.addf (Y i) (blOf (k0_pay21 v89) (k0_pay22 v92) (k0_pay23 v95) (k0_pay24 v98) (k0_pay25 v101) (shapeCast S16 v104 shapeCasts_S1x16_S16) (shapeCast S16 v107 shapeCasts_S1x16_S16) (shapeCast S16 v110 shapeCasts_S1x16_S16) i) else Y i))) := by
  unfold k0_t3_body
  iintro H2
  sl_exec
  sl_step
  rw [writes_rowB (F := F) Y (blOf (k0_pay21 v89) (k0_pay22 v92) (k0_pay23 v95) (k0_pay24 v98) (k0_pay25 v101) (shapeCast S16 v104 shapeCasts_S1x16_S16) (shapeCast S16 v107 shapeCasts_S1x16_S16) (shapeCast S16 v110 shapeCasts_S1x16_S16)) r.val]
  · iexact H2
  · -- the eight pieces cover row r
    intro y hy
    have hy1 : (y 1).val < 128 := (y 1).isLt
    rcases (show (y 1).val < 16 ∨ (16 ≤ (y 1).val ∧ (y 1).val < 32) ∨ (32 ≤ (y 1).val ∧ (y 1).val < 48) ∨ (48 ≤ (y 1).val ∧ (y 1).val < 64)
        ∨ (64 ≤ (y 1).val ∧ (y 1).val < 80) ∨ (80 ≤ (y 1).val ∧ (y 1).val < 96) ∨ (96 ≤ (y 1).val ∧ (y 1).val < 112) ∨ (112 ≤ (y 1).val) by omega)
      with h | h | h | h | h | h | h | h
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
      show y ∈ (Rect.unit (s := S128x128) (k0_off30 r) S1x16.size (k0_off30_inb r)).set
      refine Rect.mem_set_unit.mpr fun a => ?_
      rw [k0_off30_eq]
      match a with
      | 0 => simp; omega
      | 1 => simp; omega
    · refine ⟨_, List.mem_cons_of_mem _ (List.mem_cons_of_mem _ (List.mem_cons_of_mem _ (List.mem_cons_of_mem _ (List.mem_cons_of_mem _ (List.mem_cons_of_mem _ (List.mem_cons_self)))))), ?_⟩
      show y ∈ (Rect.unit (s := S128x128) (k0_off31 r) S1x16.size (k0_off31_inb r)).set
      refine Rect.mem_set_unit.mpr fun a => ?_
      rw [k0_off31_eq]
      match a with
      | 0 => simp; omega
      | 1 => simp; omega
    · refine ⟨_, List.mem_cons_of_mem _ (List.mem_cons_of_mem _ (List.mem_cons_of_mem _ (List.mem_cons_of_mem _ (List.mem_cons_of_mem _ (List.mem_cons_self))))), ?_⟩
      show y ∈ (Rect.unit (s := S128x128) (k0_off32 r) S1x16.size (k0_off32_inb r)).set
      refine Rect.mem_set_unit.mpr fun a => ?_
      rw [k0_off32_eq]
      match a with
      | 0 => simp; omega
      | 1 => simp; omega
    · refine ⟨_, List.mem_cons_of_mem _ (List.mem_cons_of_mem _ (List.mem_cons_of_mem _ (List.mem_cons_of_mem _ (List.mem_cons_self)))), ?_⟩
      show y ∈ (Rect.unit (s := S128x128) (k0_off33 r) S1x16.size (k0_off33_inb r)).set
      refine Rect.mem_set_unit.mpr fun a => ?_
      rw [k0_off33_eq]
      match a with
      | 0 => simp; omega
      | 1 => simp; omega
    · refine ⟨_, List.mem_cons_of_mem _ (List.mem_cons_of_mem _ (List.mem_cons_of_mem _ (List.mem_cons_self))), ?_⟩
      show y ∈ (Rect.unit (s := S128x128) (k0_off34 r) S1x16.size (k0_off34_inb r)).set
      refine Rect.mem_set_unit.mpr fun a => ?_
      rw [k0_off34_eq]
      match a with
      | 0 => simp; omega
      | 1 => simp; omega
    · refine ⟨_, List.mem_cons_of_mem _ (List.mem_cons_of_mem _ (List.mem_cons_self)), ?_⟩
      show y ∈ (Rect.unit (s := S128x128) (k0_off35 r) S1x16.size (k0_off35_inb r)).set
      refine Rect.mem_set_unit.mpr fun a => ?_
      rw [k0_off35_eq]
      match a with
      | 0 => simp; omega
      | 1 => simp; omega
    · refine ⟨_, List.mem_cons_of_mem _ (List.mem_cons_self), ?_⟩
      show y ∈ (Rect.unit (s := S128x128) (k0_off36 r) S1x16.size (k0_off36_inb r)).set
      refine Rect.mem_set_unit.mpr fun a => ?_
      rw [k0_off36_eq]
      match a with
      | 0 => simp; omega
      | 1 => simp; omega
    · refine ⟨_, List.mem_cons_self, ?_⟩
      show y ∈ (Rect.unit (s := S128x128) (k0_off37 r) S1x16.size (k0_off37_inb r)).set
      refine Rect.mem_set_unit.mpr fun a => ?_
      rw [k0_off37_eq]
      match a with
      | 0 => simp; omega
      | 1 => simp; omega
  · -- and nothing off row r
    intro y hy p hp hm
    simp only [List.mem_cons, List.mem_singleton, List.not_mem_nil, _root_.or_false] at hp
    rcases hp with rfl | rfl | rfl | rfl | rfl | rfl | rfl | rfl
    · have hm' : y ∈ (Rect.unit (s := S128x128) (k0_off37 r) S1x16.size (k0_off37_inb r)).set := hm
      have h0 := (Rect.mem_set_unit.mp hm') 0
      rw [k0_off37_eq] at h0
      simp at h0; omega
    · have hm' : y ∈ (Rect.unit (s := S128x128) (k0_off36 r) S1x16.size (k0_off36_inb r)).set := hm
      have h0 := (Rect.mem_set_unit.mp hm') 0
      rw [k0_off36_eq] at h0
      simp at h0; omega
    · have hm' : y ∈ (Rect.unit (s := S128x128) (k0_off35 r) S1x16.size (k0_off35_inb r)).set := hm
      have h0 := (Rect.mem_set_unit.mp hm') 0
      rw [k0_off35_eq] at h0
      simp at h0; omega
    · have hm' : y ∈ (Rect.unit (s := S128x128) (k0_off34 r) S1x16.size (k0_off34_inb r)).set := hm
      have h0 := (Rect.mem_set_unit.mp hm') 0
      rw [k0_off34_eq] at h0
      simp at h0; omega
    · have hm' : y ∈ (Rect.unit (s := S128x128) (k0_off33 r) S1x16.size (k0_off33_inb r)).set := hm
      have h0 := (Rect.mem_set_unit.mp hm') 0
      rw [k0_off33_eq] at h0
      simp at h0; omega
    · have hm' : y ∈ (Rect.unit (s := S128x128) (k0_off32 r) S1x16.size (k0_off32_inb r)).set := hm
      have h0 := (Rect.mem_set_unit.mp hm') 0
      rw [k0_off32_eq] at h0
      simp at h0; omega
    · have hm' : y ∈ (Rect.unit (s := S128x128) (k0_off31 r) S1x16.size (k0_off31_inb r)).set := hm
      have h0 := (Rect.mem_set_unit.mp hm') 0
      rw [k0_off31_eq] at h0
      simp at h0; omega
    · have hm' : y ∈ (Rect.unit (s := S128x128) (k0_off30 r) S1x16.size (k0_off30_inb r)).set := hm
      have h0 := (Rect.mem_set_unit.mp hm') 0
      rw [k0_off30_eq] at h0
      simp at h0; omega
  · -- each piece holds the old lanes plus its bias vector
    intro p hp x
    simp only [List.mem_cons, List.mem_singleton, List.not_mem_nil, _root_.or_false] at hp
    rcases hp with rfl | rfl | rfl | rfl | rfl | rfl | rfl | rfl
    · exact lane_okB_7 (F := F) Y _ _ _ _ _ _ _ _ r.val _ _ (k0_off37_eq r) x
    · exact lane_okB_6 (F := F) Y _ _ _ _ _ _ _ _ r.val _ _ (k0_off36_eq r) x
    · exact lane_okB_5 (F := F) Y _ _ _ _ _ _ _ _ r.val _ _ (k0_off35_eq r) x
    · exact lane_okB_4 (F := F) Y _ _ _ _ _ _ _ _ r.val _ _ (k0_off34_eq r) x
    · exact lane_okB_3 (F := F) Y _ _ _ _ _ _ _ _ r.val _ _ (k0_off33_eq r) x
    · exact lane_okB_2 (F := F) Y _ _ _ _ _ _ _ _ r.val _ _ (k0_off32_eq r) x
    · exact lane_okB_1 (F := F) Y _ _ _ _ _ _ _ _ r.val _ _ (k0_off31_eq r) x
    · exact lane_okB_0 (F := F) Y _ _ _ _ _ _ _ _ r.val _ _ (k0_off30_eq r) x

/-- The trip as a step of the loop's invariant: r rows done to r + 1 rows done. -/
theorem innerB_step (k : Fin k0_t1_loop.trips) (v70 c16384 v71 : BitVec 32) (v89 v92 v95 v98 v101 v104 v107 v110 : Vec F S1x16 .f32)
    (r : Fin k0_t3_loop.trips) (G : FVec F S128x128 .f32) :
    (iprop(((rowsB).view.loc (thr d L) ↦{fullShare} addRows r.val G (blOf (k0_pay21 v89) (k0_pay22 v92) (k0_pay23 v95) (k0_pay24 v98) (k0_pay25 v101) (shapeCast S16 v104 shapeCasts_S1x16_S16) (shapeCast S16 v107 shapeCasts_S1x16_S16) (shapeCast S16 v110 shapeCasts_S1x16_S16)))) : sProp 𝕄)
      ⊢ wp frame (wpE (defs₀ (F := F)) 𝒱₀ (thr d L) none) Set.univ
          (k0_t3_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 k v70 c16384 v71 v89 v92 v95 v98 v101 v104 v107 v110 r ())
          fun _ => iprop(((rowsB).view.loc (thr d L) ↦{fullShare} addRows (r.val + 1) G (blOf (k0_pay21 v89) (k0_pay22 v92) (k0_pay23 v95) (k0_pay24 v98) (k0_pay25 v101) (shapeCast S16 v104 shapeCasts_S1x16_S16) (shapeCast S16 v107 shapeCasts_S1x16_S16) (shapeCast S16 v110 shapeCasts_S1x16_S16)))) := by
  have h := innerB_trip (F := F) d L k v70 c16384 v71 v89 v92 v95 v98 v101 v104 v107 v110 r (addRows r.val G (blOf (k0_pay21 v89) (k0_pay22 v92) (k0_pay23 v95) (k0_pay24 v98) (k0_pay25 v101) (shapeCast S16 v104 shapeCasts_S1x16_S16) (shapeCast S16 v107 shapeCasts_S1x16_S16) (shapeCast S16 v110 shapeCasts_S1x16_S16)))
  rw [Cert.Proof.Lane.addRows_step] at h
  exact h

end Tile

end Cert.Proof.KW

end
-- ==== Proof.WordScOuter.lean ====
/-
  One trip of a task's loop over pairs of chunks: from the gather of the even chunk in flight to the gather of the next even chunk in flight (or none after the last pair), both chunks written out at the gathered rows plus bias.
-/
import proofs.«207390_g85444079387303_cont_sun_c4_501_21_alg».proof.Proof.WordSetup
import proofs.«207390_g85444079387303_cont_sun_c4_501_21_alg».proof.Proof.Spec
import proofs.«207390_g85444079387303_cont_sun_c4_501_21_alg».proof.Proof.Gen.Kernel.Skeleton
import proofs.«207390_g85444079387303_cont_sun_c4_501_21_alg».proof.Proof.WordScInner

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.Kernel.main_arg4_scv : Memref Cert.Kernel.sig Kind.scVector Space.hbm Cert.Kernel.S26000x128 EltTy.f32)
local notation "gidxW" => (Memref.whole Cert.Kernel.main_v7_scv : Memref Cert.Kernel.sig Kind.scVector Space.hbm Cert.Kernel.S32x104x128 EltTy.i32)
local notation "biasW" => (Memref.whole Cert.Kernel.main_arg5_scv : Memref Cert.Kernel.sig Kind.scVector Space.hbm Cert.Kernel.S26x128 EltTy.f32)
local notation "outW" => (Memref.whole Cert.Kernel.main_v8_scv : Memref Cert.Kernel.sig Kind.scVector Space.hbm Cert.Kernel.S2064384x128 EltTy.f32)
local notation "idxS" => (Memref.whole Cert.Kernel.cc0_scratch0 : Memref Cert.Kernel.sig Kind.scVector Space.vmem Cert.Kernel.S104x128 EltTy.i32)
local notation "biasS" => (Memref.whole Cert.Kernel.cc0_scratch1 : Memref Cert.Kernel.sig Kind.scVector Space.vmem Cert.Kernel.S26x128 EltTy.f32)
local notation "rowsA" => (Memref.whole Cert.Kernel.cc0_scratch2 : Memref Cert.Kernel.sig Kind.scVector Space.vmem Cert.Kernel.S128x128 EltTy.f32)
local notation "rowsB" => (Memref.whole Cert.Kernel.cc0_scratch3 : Memref Cert.Kernel.sig Kind.scVector Space.vmem Cert.Kernel.S128x128 EltTy.f32)

open Cert.Proof.Lane (addRows addRows_zero addRows_all)
open Idealize.ShloMosaic.ValueIdx

/-! ## Small conversions -/

/-- A points-to of a view's elements reads its contents only through the view. -/
theorem pointsTo_view_congr {κ : Kind} {sp : Space} {s : Shape} {e : EltTy} (c : Thread nD τ) (hκ : c.2.kind = κ)
    (v : View sig c.2.kind sp s e) (q : PosShare TreeShare) (f g : Buf (Elt F) (v.loc c))
    (h : ∀ x, f (v.emb x) = g (v.emb x)) : (v.loc c ↦[v.set]{q} f : sProp 𝕄) = v.loc c ↦[v.set]{q} g :=
  pointsTo_congr fun i hi => by
    obtain ⟨x, -, rfl⟩ := Finset.mem_map.mp hi
    exact h x

/-- The trip's guard "there is a next pair of chunks" in closed form. -/
theorem cond1_iff : ∀ k : Fin k0_t1_loop.trips, k0_cond1 k = 1#1 ↔ k.val + 1 < 52 := by decide +kernel

theorem trips_eq : k0_t1_loop.trips = 52 := by decide

/-- The next trip's even offset row is the row this trip's guarded gather names. -/
theorem off21_eq_off2 (k : Fin k0_t1_loop.trips) (h : k.val + 1 < k0_t1_loop.trips) : k0_off21 k = k0_off2 ⟨k.val + 1, h⟩ := by
  rw [k0_off21_eq, k0_off2_eq]
  funext a
  match a with
  | 0 => show 2 * k.val + 2 = 2 * (k.val + 1); omega
  | 1 => rfl

/-- Trip 0's even offset row is the first row. -/
theorem off2_zero : k0_off2 ⟨0, by decide⟩ = ![0, 0] := by rw [k0_off2_eq]; rfl

variable [FloatOps F]

section Tile

variable (d : Dev nD) (L : grid0.Coords) (sh : PosShare TreeShare) (O : CellTallies nD τ sig (HIx 1))
variable (ft : Buf (Elt F) (tabLoc d)) (fg : Buf (Elt F) (gidxLoc d)) (hfg : ∀ i, (fg i).toNat < 26000) (fb : Buf (Elt F) (biasLoc d))

/-- Equal offset rows name equal lists, hence equal gathered rows and equal element sets of the index scratch. -/
theorem gath_congr {off off' : Fin 2 → Nat} (h : off = off') (hoff : ∀ a, off a + S1x128.size a ≤ S104x128.size a)
    (hoff' : ∀ a, off' a + S1x128.size a ≤ S104x128.size a) : gath d L ft fg hfg off hoff = gath d L ft fg hfg off' hoff' := by
  subst h; rfl
omit [FloatOps F] in
theorem idxRow_set_congr {off off' : Fin 2 → Nat} (h : off = off') (hoff : ∀ a, off a + S1x128.size a ≤ S104x128.size a)
    (hoff' : ∀ a, off' a + S1x128.size a ≤ S104x128.size a) : (idxRowK off hoff).view.set = (idxRowK off' hoff').view.set := by
  subst h; rfl

/-- Written whole, a rows buffer holds what was written, read at any index. -/
theorem writesA_whole_apply (f : (rowsA).view.ty.Contents (Elt F)) (g : S128x128.Idx → Elt F .f32) (y : S128x128.Idx) :
    (rowsA).view.writes (Elt F) f [⟨Rect.whole S128x128, g⟩] y = g y := by
  have h := View.read_writes_cons_emb (Val := Elt F) (rowsA).view f (Rect.whole S128x128) g [] y
  have e : (Rect.whole S128x128).emb y = y := Rect.emb_whole_apply _ _
  rw [e] at h
  exact h
theorem writesB_whole_apply (f : (rowsB).view.ty.Contents (Elt F)) (g : S128x128.Idx → Elt F .f32) (y : S128x128.Idx) :
    (rowsB).view.writes (Elt F) f [⟨Rect.whole S128x128, g⟩] y = g y := by
  have h := View.read_writes_cons_emb (Val := Elt F) (rowsB).view f (Rect.whole S128x128) g [] y
  have e : (Rect.whole S128x128).emb y = y := Rect.emb_whole_apply _ _
  rw [e] at h
  exact h

/-! ## The states between trips -/

/-- The gather of trip k's even chunk in flight: its delivery (the rows buffer at the gathered rows, the offset row of the
    index scratch, the table's share), and what of the three buffers is not lent. -/
def pendA (k : Fin k0_t1_loop.trips) : sProp 𝕄 :=
  iprop(Transfers.Flight countersEmb (thr d L) (SemLoc.dma cc0_scratch4.sem) (default : HIx 1) 524288
      iprop((((rowsA).view.loc (thr d L) ↦[(rowsA).view.set]{fullShare} gathA d L ft fg hfg k)
        ∗ ((idxS).view.loc (thr d L) ↦[(idxRowK (k0_off2 k) (k0_off2_inb k)).view.set]{fullShare} idxBlk d L fg))
        ∗ ((tabW).view.loc (thr d L) ↦[(tabSl).view.set]{sh} ft))
    ∗ ((idxS).view.loc (thr d L) ↦[Finset.univ \ (idxRowK (k0_off2 k) (k0_off2_inb k)).view.set]{fullShare} idxBlk d L fg)
    ∗ ((tabW).view.loc (thr d L) ↦[Finset.univ \ (tabSl).view.set]{sh} ft)
    ∗ ((rowsA).view.loc (thr d L) ↦[Finset.univ \ (rowsA).view.set]{fullShare} gathA d L ft fg hfg k))

/-- No gather in flight: the three buffers whole, the gather's semaphore at zero. -/
def idleA : sProp 𝕄 :=
  iprop((∃ f, (rowsA).view.loc (thr d L) ↦{fullShare} f) ∗ ((idxS).view.loc (thr d L) ↦{fullShare} idxBlk d L fg)
    ∗ ((tabW).view.loc (thr d L) ↦{sh} ft) ∗ semVal (thr d L, SemLoc.dma cc0_scratch4.sem) 0)

/-- What stands before trip n as far as the even chunk's gather goes. -/
def pendAt (n : Nat) : sProp 𝕄 :=
  if h : n < k0_t1_loop.trips then pendA d L sh ft fg hfg ⟨n, h⟩ else idleA d L sh ft fg

/-- The gather a trip starts for the next pair, as the run leaves it, is the next trip's pending gather. -/
theorem pend_next (k : Fin k0_t1_loop.trips) (hc : k0_cond1 k = 1#1) (hk : k.val + 1 < k0_t1_loop.trips)
    (X : (rowsA).view.ty.Contents (Elt F)) (g1 : S128x128.Idx → Elt F .f32)
    (hg1 : ∀ x, g1 x = gath d L ft fg hfg (k0_off21 k) (k0_off21_inb k hc) x) :
    (iprop(Transfers.Flight countersEmb (thr d L) (SemLoc.dma cc0_scratch4.sem) (default : HIx 1) 524288
          iprop((((rowsA).view.loc (thr d L) ↦[(rowsA).view.set]{fullShare} (rowsA).view.writes (Elt F) X [⟨Rect.whole S128x128, g1⟩])
            ∗ ((idxS).view.loc (thr d L) ↦[(idxRowK (k0_off21 k) (k0_off21_inb k hc)).view.set]{fullShare} idxBlk d L fg))
            ∗ ((tabW).view.loc (thr d L) ↦[(tabSl).view.set]{sh} ft))
        ∗ ((idxS).view.loc (thr d L) ↦[Finset.univ \ (idxRowK (k0_off21 k) (k0_off21_inb k hc)).view.set]{fullShare} idxBlk d L fg)
        ∗ ((tabW).view.loc (thr d L) ↦[Finset.univ \ (tabSl).view.set]{sh} ft)
        ∗ ((rowsA).view.loc (thr d L) ↦[Finset.univ \ (rowsA).view.set]{fullShare} (rowsA).view.writes (Elt F) X [⟨Rect.whole S128x128, g1⟩])) : sProp 𝕄)
      ⊢ pendA d L sh ft fg hfg ⟨k.val + 1, hk⟩ := by
  have hoff := off21_eq_off2 k hk
  have hset := idxRow_set_congr hoff (k0_off21_inb k hc) (k0_off2_inb ⟨k.val + 1, hk⟩)
  have hG : ∀ x, (rowsA).view.writes (Elt F) X [⟨Rect.whole S128x128, g1⟩] x = gathA d L ft fg hfg ⟨k.val + 1, hk⟩ x := fun x =>
    (writesA_whole_apply (F := F) X g1 x).trans ((hg1 x).trans (congrFun (gath_congr (F := F) d L ft fg hfg hoff _ _) x))
  have eA : ∀ (S : Finset S128x128.Idx), (((rowsA).view.loc (thr d L) ↦[S]{fullShare} (rowsA).view.writes (Elt F) X [⟨Rect.whole S128x128, g1⟩]) : sProp 𝕄)
      = ((rowsA).view.loc (thr d L) ↦[S]{fullShare} gathA d L ft fg hfg ⟨k.val + 1, hk⟩) := fun S => pointsTo_congr fun i _ => hG i
  unfold pendA
  rw [← hset]
  iintro ⟨Hfl, H0r, Htr, H2r⟩
  isplitl [Hfl]
  · iapply (Transfers.Flight_mono countersEmb (thr d L) ?_) $$ Hfl
    iintro ⟨⟨Ha, Hi⟩, Ht⟩
    isplitr [Ht]
    · isplitl [Ha]
      · iapply (Entails.of_eq (eA _)); iexact Ha
      · iexact Hi
    · iexact Ht
  isplitl [H0r]; · iexact H0r
  isplitl [Htr]; · iexact Htr
  iapply (Entails.of_eq (eA _)); iexact H2r

/-! ## The trip -/

theorem trips2_eq : Scf.trips k0_t2_loop.lb k0_t2_loop.ub k0_t2_loop.st = 128 := by decide
theorem trips3_eq : Scf.trips k0_t3_loop.lb k0_t3_loop.ub k0_t3_loop.st = 128 := by decide

/-- What the copy-out of the finished even rows buffer leaves in its chunk of the output array is what the call writes there;
    the rows buffer's contents before the bias loop are any G that reads as the gathered rows. -/
theorem chunkA_done (k : Fin k0_t1_loop.trips) (prev : Buf (Elt F) (outLoc d))
    (hA : ∀ x, scRows fg ft fb prev ((chunkA L k).view.emb x) = doneA d L ft fg hfg fb k x)
    (junk : (chunkA L k).view.ty.Contents (Elt F)) (G : FVec F S128x128 .f32) (hG : ∀ x, G x = gathA d L ft fg hfg k x) :
    (((chunkA L k).view.loc (thr d L) ↦[(chunkA L k).view.set]{fullShare} (chunkA L k).view.writes (Elt F) junk
        [⟨Rect.whole S128x128, ReadAs.same.apply (View.read (Elt F) (rowsA).view
          (addRows (Scf.trips k0_t2_loop.lb k0_t2_loop.ub k0_t2_loop.st) G (blA d L fb k)))⟩]) : sProp 𝕄)
      = ((chunkA L k).view.loc (thr d L) ↦[(chunkA L k).view.set]{fullShare} scRows fg ft fb prev) :=
  pointsTo_congr fun i hi => by
    obtain ⟨x, -, rfl⟩ := Finset.mem_map.mp hi
    have h := View.read_writes_cons_emb (Val := Elt F) (chunkA L k).view junk (Rect.whole S128x128)
      (ReadAs.same.apply (View.read (Elt F) (rowsA).view
          (addRows (Scf.trips k0_t2_loop.lb k0_t2_loop.ub k0_t2_loop.st) G (blA d L fb k)))) [] x
    have e : (Rect.whole S128x128).emb x = x := Rect.emb_whole_apply _ _
    rw [e, View.read_apply] at h
    refine ((cast_eq _ _).symm.trans h).trans ?_
    rw [hA x]
    show addRows (Scf.trips k0_t2_loop.lb k0_t2_loop.ub k0_t2_loop.st) G (blA d L fb k) x = doneA d L ft fg hfg fb k x
    rw [trips2_eq, addRows_all]
    show FloatOps.addf (G x) _ = FloatOps.addf (gathA d L ft fg hfg k x) _
    rw [hG x]

/-- What the copy-out of the finished odd rows buffer leaves in its chunk of the output array is what the call writes there;
    the rows buffer's contents before the bias loop are any G that reads as the gathered rows. -/
theorem chunkB_done (k : Fin k0_t1_loop.trips) (prev : Buf (Elt F) (outLoc d))
    (hB : ∀ x, scRows fg ft fb prev ((chunkB L k).view.emb x) = doneB d L ft fg hfg fb k x)
    (junk : (chunkB L k).view.ty.Contents (Elt F)) (G : FVec F S128x128 .f32) (hG : ∀ x, G x = gathB d L ft fg hfg k x) :
    (((chunkB L k).view.loc (thr d L) ↦[(chunkB L k).view.set]{fullShare} (chunkB L k).view.writes (Elt F) junk
        [⟨Rect.whole S128x128, ReadAs.same.apply (View.read (Elt F) (rowsB).view
          (addRows (Scf.trips k0_t3_loop.lb k0_t3_loop.ub k0_t3_loop.st) G (blB d L fb k)))⟩]) : sProp 𝕄)
      = ((chunkB L k).view.loc (thr d L) ↦[(chunkB L k).view.set]{fullShare} scRows fg ft fb prev) :=
  pointsTo_congr fun i hi => by
    obtain ⟨x, -, rfl⟩ := Finset.mem_map.mp hi
    have h := View.read_writes_cons_emb (Val := Elt F) (chunkB L k).view junk (Rect.whole S128x128)
      (ReadAs.same.apply (View.read (Elt F) (rowsB).view
          (addRows (Scf.trips k0_t3_loop.lb k0_t3_loop.ub k0_t3_loop.st) G (blB d L fb k)))) [] x
    have e : (Rect.whole S128x128).emb x = x := Rect.emb_whole_apply _ _
    rw [e, View.read_apply] at h
    refine ((cast_eq _ _).symm.trans h).trans ?_
    rw [hB x]
    show addRows (Scf.trips k0_t3_loop.lb k0_t3_loop.ub k0_t3_loop.st) G (blB d L fb k) x = doneB d L ft fg hfg fb k x
    rw [trips3_eq, addRows_all]
    show FloatOps.addf (G x) _ = FloatOps.addf (gathB d L ft fg hfg k x) _
    rw [hG x]

set_option maxHeartbeats 1600000 in
/-- A trip that is not the last: the next pair's even gather is started before the odd chunk's bias loop. -/
theorem outer_trip_next (W W0 : Waits sig (HIx 1)) (hW0 : ∀ p ∈ W0, p ∈ W ∨ p.2 = none) (k : Fin k0_t1_loop.trips) (v2 : BitVec 32)
    (prev : Buf (Elt F) (outLoc d))
    (hA : ∀ x, scRows fg ft fb prev ((chunkA L k).view.emb x) = doneA d L ft fg hfg fb k x)
    (hB : ∀ x, scRows fg ft fb prev ((chunkB L k).view.emb x) = doneB d L ft fg hfg fb k x)
    (f3 : Buf (Elt F) ((thr d L).loc cc0_scratch3))
    (hc : k0_cond1 k = 1#1) :
    (iprop(Transfers.MayWaits (thr d L) (none : HIx 1) O
        ∗ ((gidxW).view.loc (thr d L) ↦{sh} fg) ∗ ((biasW).view.loc (thr d L) ↦{sh} fb)
        ∗ ((biasS).view.loc (thr d L) ↦{fullShare} biasBlk d L fb) ∗ ((rowsB).view.loc (thr d L) ↦{fullShare} f3)
        ∗ ((chunkA L k).view.loc (thr d L) ↦[(chunkA L k).view.set]{fullShare} prev)
        ∗ ((chunkB L k).view.loc (thr d L) ↦[(chunkB L k).view.set]{fullShare} prev)
        ∗ pendA d L sh ft fg hfg k
        ∗ semVal (thr d L, SemLoc.dma cc0_scratch5.sem) 0
        ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ owes (thr d L) O W0) : sProp 𝕄)
      ⊢ wp frame (wpE (defs₀ (F := F)) 𝒱₀ (thr d L) none) Set.univ
          (k0_t1_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k ())
          fun _ => iprop(Transfers.MayWaits (thr d L) (none : HIx 1) O
            ∗ ((gidxW).view.loc (thr d L) ↦{sh} fg) ∗ ((biasW).view.loc (thr d L) ↦{sh} fb)
            ∗ ((biasS).view.loc (thr d L) ↦{fullShare} biasBlk d L fb) ∗ (∃ f3', (rowsB).view.loc (thr d L) ↦{fullShare} f3')
            ∗ ((chunkA L k).view.loc (thr d L) ↦[(chunkA L k).view.set]{fullShare} scRows fg ft fb prev)
            ∗ ((chunkB L k).view.loc (thr d L) ↦[(chunkB L k).view.set]{fullShare} scRows fg ft fb prev)
            ∗ pendAt d L sh ft fg hfg (k.val + 1)
            ∗ semVal (thr d L, SemLoc.dma cc0_scratch5.sem) 0
            ∗ semVal (thr d L, SemLoc.dma cc0_scoped0.sem) 0 ∗ semVal (thr d L, SemLoc.dma cc0_scoped1.sem) 0
            ∗ semVal (thr d L, SemLoc.dma cc0_scoped2.sem) 0 ∗ semVal (thr d L, SemLoc.dma cc0_scoped3.sem) 0
            ∗ ∃ W', ⌜∀ p ∈ W', p ∈ W ∨ p.2 = none⌝ ∗ owes (thr d L) O W') := by
  unfold k0_t1_body
  unfold pendA
  iintro ⟨#Hmw, Hg, Hb, H1, H3, HoA, HoB, ⟨HflA, H0r, Htr, H2r⟩, Hs5, Hr0, Hr1, Hr2, Hr3, HO⟩
  have hin := idx_inb (F := F) d L fg hfg
  have hk : k.val + 1 < k0_t1_loop.trips := by
    have h1 := (cond1_iff k).mp hc
    have h2 := trips_eq
    omega
  sl_exec
  sl_for (fun (r : Nat) (_ : Unit) => (iprop(((rowsA).view.loc (thr d L) ↦{fullShare} addRows r (gathA d L ft fg hfg k) (blA d L fb k))) : sProp 𝕄)) $$ [H2r]
  case region =>
    intro r _
    exact innerA_step (F := F) d L k _ _ _ _ _ _ _ _ _ _ _ _ r (gathA d L ft fg hfg k)
  · rw [addRows_zero]; iexact H2r
  iintro %_ H2r
  sl_exec
  sl_for (fun (r : Nat) (_ : Unit) => (iprop(((rowsB).view.loc (thr d L) ↦{fullShare}
      addRows r ((rowsB).view.writes (Elt F) (rowsB).view.junk [⟨Rect.whole cc0_scratch3.ty.shape, Cert.Proof.KW.outer_trip_next.sl.gather0 d L ft fg k hin⟩])
        (blB d L fb k))) : sProp 𝕄)) $$ [H3]
  case region =>
    intro r _
    exact innerB_step (F := F) d L k _ _ _ _ _ _ _ _ _ _ _ r _
  · rw [addRows_zero]; iexact H3
  iintro %_ H3
  sl_exec
  sl_step
  delta Cert.Proof.KW.outer_trip_next.sl.dma0 Cert.Proof.KW.outer_trip_next.sl.dma0_1
  ihave HoA := (Entails.of_eq (chunkA_done (F := F) d L ft fg hfg fb k prev hA (chunkA L k).view.junk (gathA d L ft fg hfg k) (fun _ => rfl))) $$ HoA
  ihave HoB := (Entails.of_eq (chunkB_done (F := F) d L ft fg hfg fb k prev hB prev
    ((rowsB).view.writes (Elt F) (rowsB).view.junk [⟨Rect.whole cc0_scratch3.ty.shape, Cert.Proof.KW.outer_trip_next.sl.gather0 d L ft fg k hin⟩])
    (fun x => writesB_whole_apply (F := F) _ _ x))) $$ HoB
  isplitr; · iexact Hmw
  isplitl [Hg]; · iexact Hg
  isplitl [Hb]; · iexact Hb
  isplitl [H1]; · iexact H1
  isplitl [H3]; · iexists _; iexact H3
  isplitl [HoA]; · iexact HoA
  isplitl [HoB]; · iexact HoB
  isplitl [HflA H0r Htr H2r]
  · unfold pendAt
    rw [dif_pos hk]
    iapply (pend_next (F := F) d L sh ft fg hfg k hc hk _ (Cert.Proof.KW.outer_trip_next.sl.gather1 d L ft fg k hc hin) (fun _ => rfl))
    isplitl [HflA]; · iexact HflA
    isplitl [H0r]; · iexact H0r
    isplitl [Htr]; · iexact Htr
    iexact H2r
  isplitl [Hs5]; · iexact Hs5
  isplitl [Hr0]; · iexact Hr0
  isplitl [Hr1]; · iexact Hr1
  isplitl [Hr2]; · iexact Hr2
  isplitl [Hr3]; · iexact Hr3
  iexists _; isplitr
  on_goal 2 => iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW0 p hp

set_option maxHeartbeats 1600000 in
/-- The last trip: no gather is started; the even rows buffer, the index scratch and the table's share end whole. -/
theorem outer_trip_last (W W0 : Waits sig (HIx 1)) (hW0 : ∀ p ∈ W0, p ∈ W ∨ p.2 = none) (k : Fin k0_t1_loop.trips) (v2 : BitVec 32)
    (prev : Buf (Elt F) (outLoc d))
    (hA : ∀ x, scRows fg ft fb prev ((chunkA L k).view.emb x) = doneA d L ft fg hfg fb k x)
    (hB : ∀ x, scRows fg ft fb prev ((chunkB L k).view.emb x) = doneB d L ft fg hfg fb k x)
    (f3 : Buf (Elt F) ((thr d L).loc cc0_scratch3))
    (hc : ¬ k0_cond1 k = 1#1) :
    (iprop(Transfers.MayWaits (thr d L) (none : HIx 1) O
        ∗ ((gidxW).view.loc (thr d L) ↦{sh} fg) ∗ ((biasW).view.loc (thr d L) ↦{sh} fb)
        ∗ ((biasS).view.loc (thr d L) ↦{fullShare} biasBlk d L fb) ∗ ((rowsB).view.loc (thr d L) ↦{fullShare} f3)
        ∗ ((chunkA L k).view.loc (thr d L) ↦[(chunkA L k).view.set]{fullShare} prev)
        ∗ ((chunkB L k).view.loc (thr d L) ↦[(chunkB L k).view.set]{fullShare} prev)
        ∗ pendA d L sh ft fg hfg k
        ∗ semVal (thr d L, SemLoc.dma cc0_scratch5.sem) 0
        ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ owes (thr d L) O W0) : sProp 𝕄)
      ⊢ wp frame (wpE (defs₀ (F := F)) 𝒱₀ (thr d L) none) Set.univ
          (k0_t1_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k ())
          fun _ => iprop(Transfers.MayWaits (thr d L) (none : HIx 1) O
            ∗ ((gidxW).view.loc (thr d L) ↦{sh} fg) ∗ ((biasW).view.loc (thr d L) ↦{sh} fb)
            ∗ ((biasS).view.loc (thr d L) ↦{fullShare} biasBlk d L fb) ∗ (∃ f3', (rowsB).view.loc (thr d L) ↦{fullShare} f3')
            ∗ ((chunkA L k).view.loc (thr d L) ↦[(chunkA L k).view.set]{fullShare} scRows fg ft fb prev)
            ∗ ((chunkB L k).view.loc (thr d L) ↦[(chunkB L k).view.set]{fullShare} scRows fg ft fb prev)
            ∗ pendAt d L sh ft fg hfg (k.val + 1)
            ∗ semVal (thr d L, SemLoc.dma cc0_scratch5.sem) 0
            ∗ semVal (thr d L, SemLoc.dma cc0_scoped0.sem) 0 ∗ semVal (thr d L, SemLoc.dma cc0_scoped1.sem) 0
            ∗ semVal (thr d L, SemLoc.dma cc0_scoped2.sem) 0 ∗ semVal (thr d L, SemLoc.dma cc0_scoped3.sem) 0
            ∗ ∃ W', ⌜∀ p ∈ W', p ∈ W ∨ p.2 = none⌝ ∗ owes (thr d L) O W') := by
  unfold k0_t1_body
  unfold pendA
  iintro ⟨#Hmw, Hg, Hb, H1, H3, HoA, HoB, ⟨HflA, H0r, Htr, H2r⟩, Hs5, Hr0, Hr1, Hr2, Hr3, HO⟩
  have hin := idx_inb (F := F) d L fg hfg
  have hk : ¬ k.val + 1 < k0_t1_loop.trips := by
    have h1 := (cond1_iff k).not.mp hc
    have h2 := trips_eq
    omega
  sl_exec
  sl_for (fun (r : Nat) (_ : Unit) => (iprop(((rowsA).view.loc (thr d L) ↦{fullShare} addRows r (gathA d L ft fg hfg k) (blA d L fb k))) : sProp 𝕄)) $$ [H2r]
  case region =>
    intro r _
    exact innerA_step (F := F) d L k _ _ _ _ _ _ _ _ _ _ _ _ r (gathA d L ft fg hfg k)
  · rw [addRows_zero]; iexact H2r
  iintro %_ H2r
  sl_exec
  sl_for (fun (r : Nat) (_ : Unit) => (iprop(((rowsB).view.loc (thr d L) ↦{fullShare}
      addRows r ((rowsB).view.writes (Elt F) (rowsB).view.junk [⟨Rect.whole cc0_scratch3.ty.shape, Cert.Proof.KW.outer_trip_last.sl.gather0 d L ft fg k hin⟩])
        (blB d L fb k))) : sProp 𝕄)) $$ [H3]
  case region =>
    intro r _
    exact innerB_step (F := F) d L k _ _ _ _ _ _ _ _ _ _ _ r _
  · rw [addRows_zero]; iexact H3
  iintro %_ H3
  sl_exec
  sl_step
  delta Cert.Proof.KW.outer_trip_last.sl.dma0 Cert.Proof.KW.outer_trip_last.sl.dma0_1
  ihave HoA := (Entails.of_eq (chunkA_done (F := F) d L ft fg hfg fb k prev hA (chunkA L k).view.junk (gathA d L ft fg hfg k) (fun _ => rfl))) $$ HoA
  ihave HoB := (Entails.of_eq (chunkB_done (F := F) d L ft fg hfg fb k prev hB prev
    ((rowsB).view.writes (Elt F) (rowsB).view.junk [⟨Rect.whole cc0_scratch3.ty.shape, Cert.Proof.KW.outer_trip_last.sl.gather0 d L ft fg k hin⟩])
    (fun x => writesB_whole_apply (F := F) _ _ x))) $$ HoB
  isplitr; · iexact Hmw
  isplitl [Hg]; · iexact Hg
  isplitl [Hb]; · iexact Hb
  isplitl [H1]; · iexact H1
  isplitl [H3]; · iexists _; iexact H3
  isplitl [HoA]; · iexact HoA
  isplitl [HoB]; · iexact HoB
  isplitl [HflA H0r Htr H2r]
  · unfold pendAt
    rw [dif_neg hk]
    unfold idleA
    isplitl [H2r]; · iexists _; iexact H2r
    isplitl [H0r]; · iexact H0r
    isplitl [Htr]; · iexact Htr
    iexact HflA
  isplitl [Hs5]; · iexact Hs5
  isplitl [Hr0]; · iexact Hr0
  isplitl [Hr1]; · iexact Hr1
  isplitl [Hr2]; · iexact Hr2
  isplitl [Hr3]; · iexact Hr3
  iexists _; isplitr
  on_goal 2 => iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW0 p hp

/-- One trip: wait for the even chunk's rows, start the odd chunk's gather, add the bias to the even rows and copy them
    out, wait for the odd rows, start the next even gather if there is a next pair, add the bias to the odd rows and
    copy them out. -/
theorem outer_trip (W W0 : Waits sig (HIx 1)) (hW0 : ∀ p ∈ W0, p ∈ W ∨ p.2 = none) (k : Fin k0_t1_loop.trips) (v2 : BitVec 32)
    (prev : Buf (Elt F) (outLoc d))
    (hA : ∀ x, scRows fg ft fb prev ((chunkA L k).view.emb x) = doneA d L ft fg hfg fb k x)
    (hB : ∀ x, scRows fg ft fb prev ((chunkB L k).view.emb x) = doneB d L ft fg hfg fb k x)
    (f3 : Buf (Elt F) ((thr d L).loc cc0_scratch3)) :
    (iprop(Transfers.MayWaits (thr d L) (none : HIx 1) O
        ∗ ((gidxW).view.loc (thr d L) ↦{sh} fg) ∗ ((biasW).view.loc (thr d L) ↦{sh} fb)
        ∗ ((biasS).view.loc (thr d L) ↦{fullShare} biasBlk d L fb) ∗ ((rowsB).view.loc (thr d L) ↦{fullShare} f3)
        ∗ ((chunkA L k).view.loc (thr d L) ↦[(chunkA L k).view.set]{fullShare} prev)
        ∗ ((chunkB L k).view.loc (thr d L) ↦[(chunkB L k).view.set]{fullShare} prev)
        ∗ pendA d L sh ft fg hfg k
        ∗ semVal (thr d L, SemLoc.dma cc0_scratch5.sem) 0
        ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ owes (thr d L) O W0) : sProp 𝕄)
      ⊢ wp frame (wpE (defs₀ (F := F)) 𝒱₀ (thr d L) none) Set.univ
          (k0_t1_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k ())
          fun _ => iprop(Transfers.MayWaits (thr d L) (none : HIx 1) O
            ∗ ((gidxW).view.loc (thr d L) ↦{sh} fg) ∗ ((biasW).view.loc (thr d L) ↦{sh} fb)
            ∗ ((biasS).view.loc (thr d L) ↦{fullShare} biasBlk d L fb) ∗ (∃ f3', (rowsB).view.loc (thr d L) ↦{fullShare} f3')
            ∗ ((chunkA L k).view.loc (thr d L) ↦[(chunkA L k).view.set]{fullShare} scRows fg ft fb prev)
            ∗ ((chunkB L k).view.loc (thr d L) ↦[(chunkB L k).view.set]{fullShare} scRows fg ft fb prev)
            ∗ pendAt d L sh ft fg hfg (k.val + 1)
            ∗ semVal (thr d L, SemLoc.dma cc0_scratch5.sem) 0
            ∗ semVal (thr d L, SemLoc.dma cc0_scoped0.sem) 0 ∗ semVal (thr d L, SemLoc.dma cc0_scoped1.sem) 0
            ∗ semVal (thr d L, SemLoc.dma cc0_scoped2.sem) 0 ∗ semVal (thr d L, SemLoc.dma cc0_scoped3.sem) 0
            ∗ ∃ W', ⌜∀ p ∈ W', p ∈ W ∨ p.2 = none⌝ ∗ owes (thr d L) O W') := by
  by_cases hc : k0_cond1 k = 1#1
  · exact outer_trip_next (F := F) d L sh O ft fg hfg fb W W0 hW0 k v2 prev hA hB f3 hc
  · exact outer_trip_last (F := F) d L sh O ft fg hfg fb W W0 hW0 k v2 prev hA hB f3 hc

end Tile

end Cert.Proof.KW

end
-- ==== Proof.WordScTile.lean ====
/-
  A vector subcore's whole task of the row-gathering kernel: the two copies into its scratch, the first gather, the loop over 52 pairs of chunks by its invariant, and what it hands back.
-/
import proofs.«207390_g85444079387303_cont_sun_c4_501_21_alg».proof.Proof.WordSetup
import proofs.«207390_g85444079387303_cont_sun_c4_501_21_alg».proof.Proof.Spec
import proofs.«207390_g85444079387303_cont_sun_c4_501_21_alg».proof.Proof.Gen.Kernel.Skeleton
import proofs.«207390_g85444079387303_cont_sun_c4_501_21_alg».proof.Proof.WordScOuter

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.Kernel.main_arg4_scv : Memref Cert.Kernel.sig Kind.scVector Space.hbm Cert.Kernel.S26000x128 EltTy.f32)
local notation "gidxW" => (Memref.whole Cert.Kernel.main_v7_scv : Memref Cert.Kernel.sig Kind.scVector Space.hbm Cert.Kernel.S32x104x128 EltTy.i32)
local notation "biasW" => (Memref.whole Cert.Kernel.main_arg5_scv : Memref Cert.Kernel.sig Kind.scVector Space.hbm Cert.Kernel.S26x128 EltTy.f32)
local notation "outW" => (Memref.whole Cert.Kernel.main_v8_scv : Memref Cert.Kernel.sig Kind.scVector Space.hbm Cert.Kernel.S2064384x128 EltTy.f32)
local notation "idxS" => (Memref.whole Cert.Kernel.cc0_scratch0 : Memref Cert.Kernel.sig Kind.scVector Space.vmem Cert.Kernel.S104x128 EltTy.i32)
local notation "biasS" => (Memref.whole Cert.Kernel.cc0_scratch1 : Memref Cert.Kernel.sig Kind.scVector Space.vmem Cert.Kernel.S26x128 EltTy.f32)
local notation "rowsA" => (Memref.whole Cert.Kernel.cc0_scratch2 : Memref Cert.Kernel.sig Kind.scVector Space.vmem Cert.Kernel.S128x128 EltTy.f32)
local notation "rowsB" => (Memref.whole Cert.Kernel.cc0_scratch3 : Memref Cert.Kernel.sig Kind.scVector Space.vmem Cert.Kernel.S128x128 EltTy.f32)

open Cert.Proof.Lane (addRows addRows_zero addRows_all)
open Idealize.ShloMosaic.ValueIdx

/-! ## Splitting a family over the trips at one trip -/

theorem todo_split {N : Nat} (k : Fin N) :
    (Finset.univ.filter fun j : Fin N => k.val ≤ j.val) = insert k (Finset.univ.filter fun j : Fin N => k.val + 1 ≤ j.val) := by
  ext j
  simp only [Finset.mem_filter, Finset.mem_univ, true_and, Finset.mem_insert, Fin.ext_iff]
  omega
theorem todo_notMem {N : Nat} (k : Fin N) : k ∉ (Finset.univ.filter fun j : Fin N => k.val + 1 ≤ j.val) := by
  simp
theorem done_split {N : Nat} (k : Fin N) :
    (Finset.univ.filter fun j : Fin N => j.val < k.val + 1) = insert k (Finset.univ.filter fun j : Fin N => j.val < k.val) := by
  ext j
  simp only [Finset.mem_filter, Finset.mem_univ, true_and, Finset.mem_insert, Fin.ext_iff]
  omega
theorem done_notMem {N : Nat} (k : Fin N) : k ∉ (Finset.univ.filter fun j : Fin N => j.val < k.val) := by
  simp
theorem todo_zero {N : Nat} : (Finset.univ.filter fun j : Fin N => 0 ≤ j.val) = Finset.univ := by
  ext j; simp
theorem done_zero {N : Nat} : (Finset.univ.filter fun j : Fin N => j.val < 0) = ∅ := by
  ext j; simp
theorem todo_all {N : Nat} : (Finset.univ.filter fun j : Fin N => N ≤ j.val) = ∅ := by
  ext j; simp only [Finset.mem_filter, Finset.mem_univ, true_and, Finset.notMem_empty, iff_false]; omega
theorem done_all {N : Nat} : (Finset.univ.filter fun j : Fin N => j.val < N) = Finset.univ := by
  ext j; simp

variable [FloatOps F]

section Tile

variable (d : Dev nD) (L : grid0.Coords) (sh : PosShare TreeShare) (O : CellTallies nD τ sig (HIx 1))
variable (ft : Buf (Elt F) (tabLoc d)) (fg : Buf (Elt F) (gidxLoc d)) (hfg : ∀ i, (fg i).toNat < 26000) (fb : Buf (Elt F) (biasLoc d))

/-- A pair of chunks of the output array at contents f. -/
def pairAt (j : Fin k0_t1_loop.trips) (f : Buf (Elt F) (outLoc d)) : sProp 𝕄 :=
  iprop((outLoc d ↦[(chunkA L j).view.set]{fullShare} f) ∗ (outLoc d ↦[(chunkB L j).view.set]{fullShare} f))

/-- Before trip n: the pairs below n written, the others as they were; the even gather of trip n in flight (none after
    the last trip); everything else at rest. -/
def Inv (W : Waits sig (HIx 1)) (prev : Buf (Elt F) (outLoc d)) (n : Nat) (_ : Unit) : sProp 𝕄 :=
  iprop(Transfers.MayWaits (thr d L) (none : HIx 1) O
    ∗ ((gidxW).view.loc (thr d L) ↦{sh} fg) ∗ ((biasW).view.loc (thr d L) ↦{sh} fb)
    ∗ ((biasS).view.loc (thr d L) ↦{fullShare} biasBlk d L fb) ∗ (∃ f3, (rowsB).view.loc (thr d L) ↦{fullShare} f3)
    ∗ (bigSep (Finset.univ.filter fun j : Fin k0_t1_loop.trips => j.val < n) fun j => pairAt d L j (scRows fg ft fb prev))
    ∗ (bigSep (Finset.univ.filter fun j : Fin k0_t1_loop.trips => n ≤ j.val) fun j => pairAt d L j prev)
    ∗ pendAt d L sh ft fg hfg n
    ∗ semVal (thr d L, SemLoc.dma cc0_scratch5.sem) 0
    ∗ semVal (thr d L, SemLoc.dma cc0_scoped0.sem) 0 ∗ semVal (thr d L, SemLoc.dma cc0_scoped1.sem) 0
    ∗ semVal (thr d L, SemLoc.dma cc0_scoped2.sem) 0 ∗ semVal (thr d L, SemLoc.dma cc0_scoped3.sem) 0
    ∗ ∃ W', ⌜∀ p ∈ W', p ∈ W ∨ p.2 = none⌝ ∗ owes (thr d L) O W')

omit [FloatOps F] in
/-- Before a trip that exists, its even gather is in flight. -/
theorem pendAt_lt (k : Fin k0_t1_loop.trips) : pendAt d L sh ft fg hfg k.val = pendA d L sh ft fg hfg k := by
  unfold pendAt; rw [dif_pos k.isLt]

/-- A trip re-establishes the invariant one trip on. -/
theorem inv_step (W : Waits sig (HIx 1)) (prev : Buf (Elt F) (outLoc d))
    (hA : ∀ k x, scRows fg ft fb prev ((chunkA L k).view.emb x) = doneA d L ft fg hfg fb k x)
    (hB : ∀ k x, scRows fg ft fb prev ((chunkB L k).view.emb x) = doneB d L ft fg hfg fb k x)
    (v2 : BitVec 32) (k : Fin k0_t1_loop.trips) (u : Unit) :
    Inv d L sh O ft fg hfg fb W prev k.val u
      ⊢ wp frame (wpE (defs₀ (F := F)) 𝒱₀ (thr d L) none) Set.univ
          (k0_t1_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3 v2 k u)
          (Inv d L sh O ft fg hfg fb W prev (k.val + 1)) := by
  unfold Inv
  rw [todo_split k, SparseCore.bigSep_insert' (todo_notMem k), done_split k, SparseCore.bigSep_insert' (done_notMem k)]
  rw [pendAt_lt]
  unfold pairAt
  iintro ⟨#Hmw, Hg, Hb, H1, ⟨%f3, H3⟩, Hdone, ⟨⟨HoA, HoB⟩, Htodo⟩, Hpend, Hs5, Hr0, Hr1, Hr2, Hr3, %W0, %hW0, HO⟩
  iapply (wp_wand_r frame _ _)
  isplitl [Hg Hb H1 H3 HoA HoB Hpend Hs5 Hr0 Hr1 Hr2 Hr3 HO]
  · iapply (outer_trip (F := F) d L sh O ft fg hfg fb W W0 hW0 k v2 prev (hA k) (hB k) f3)
    isplitr; · iexact Hmw
    isplitl [Hg]; · iexact Hg
    isplitl [Hb]; · iexact Hb
    isplitl [H1]; · iexact H1
    isplitl [H3]; · iexact H3
    isplitl [HoA]; · iexact HoA
    isplitl [HoB]; · iexact HoB
    isplitl [Hpend]; · iexact Hpend
    isplitl [Hs5]; · iexact Hs5
    isplitl [Hr0]; · iexact Hr0
    isplitl [Hr1]; · iexact Hr1
    isplitl [Hr2]; · iexact Hr2
    isplitl [Hr3]; · iexact Hr3
    iexact HO
  iintro %_ ⟨#Hmw', Hg, Hb, H1, H3, HoA, HoB, Hpend, Hs5, Hr0, Hr1, Hr2, Hr3, HO⟩
  isplitr; · iexact Hmw
  isplitl [Hg]; · iexact Hg
  isplitl [Hb]; · iexact Hb
  isplitl [H1]; · iexact H1
  isplitl [H3]; · iexact H3
  isplitl [Hdone HoA HoB]
  · isplitl [HoA HoB]
    · isplitl [HoA]; · iexact HoA
      iexact HoB
    · iexact Hdone
  isplitl [Htodo]; · iexact Htodo
  isplitl [Hpend]; · iexact Hpend
  isplitl [Hs5]; · iexact Hs5
  isplitl [Hr0]; · iexact Hr0
  isplitl [Hr1]; · iexact Hr1
  isplitl [Hr2]; · iexact Hr2
  isplitl [Hr3]; · iexact Hr3
  iexact HO

/-- The gather started before the loop, as the run leaves it, is trip 0's pending gather. -/
theorem pend_first (h0 : 0 < k0_t1_loop.trips) (X : (rowsA).view.ty.Contents (Elt F)) (g1 : S128x128.Idx → Elt F .f32)
    (hg1 : ∀ x, g1 x = gath d L ft fg hfg ![0, 0] inb_S104x128_S1x128_0_0 x) :
    (iprop(Transfers.Flight countersEmb (thr d L) (SemLoc.dma cc0_scratch4.sem) (default : HIx 1) 524288
          iprop((((rowsA).view.loc (thr d L) ↦[(rowsA).view.set]{fullShare} (rowsA).view.writes (Elt F) X [⟨Rect.whole S128x128, g1⟩])
            ∗ ((idxS).view.loc (thr d L) ↦[(idxRowK ![0, 0] inb_S104x128_S1x128_0_0).view.set]{fullShare} idxBlk d L fg))
            ∗ ((tabW).view.loc (thr d L) ↦[(tabSl).view.set]{sh} ft))
        ∗ ((idxS).view.loc (thr d L) ↦[Finset.univ \ (idxRowK ![0, 0] inb_S104x128_S1x128_0_0).view.set]{fullShare} idxBlk d L fg)
        ∗ ((tabW).view.loc (thr d L) ↦[Finset.univ \ (tabSl).view.set]{sh} ft)
        ∗ ((rowsA).view.loc (thr d L) ↦[Finset.univ \ (rowsA).view.set]{fullShare} (rowsA).view.writes (Elt F) X [⟨Rect.whole S128x128, g1⟩])) : sProp 𝕄)
      ⊢ pendA d L sh ft fg hfg ⟨0, h0⟩ := by
  have hoff : (![0, 0] : Fin 2 → Nat) = k0_off2 ⟨0, h0⟩ := off2_zero.symm
  have hset := idxRow_set_congr hoff inb_S104x128_S1x128_0_0 (k0_off2_inb ⟨0, h0⟩)
  have hG : ∀ x, (rowsA).view.writes (Elt F) X [⟨Rect.whole S128x128, g1⟩] x = gathA d L ft fg hfg ⟨0, h0⟩ x := fun x =>
    (writesA_whole_apply (F := F) X g1 x).trans ((hg1 x).trans (congrFun (gath_congr (F := F) d L ft fg hfg hoff _ _) x))
  have eA : ∀ (S : Finset S128x128.Idx), (((rowsA).view.loc (thr d L) ↦[S]{fullShare} (rowsA).view.writes (Elt F) X [⟨Rect.whole S128x128, g1⟩]) : sProp 𝕄)
      = ((rowsA).view.loc (thr d L) ↦[S]{fullShare} gathA d L ft fg hfg ⟨0, h0⟩) := fun S => pointsTo_congr fun i _ => hG i
  unfold pendA
  rw [← hset]
  iintro ⟨Hfl, H0r, Htr, H2r⟩
  isplitl [Hfl]
  · iapply (Transfers.Flight_mono countersEmb (thr d L) ?_) $$ Hfl
    iintro ⟨⟨Ha, Hi⟩, Ht⟩
    isplitr [Ht]
    · isplitl [Ha]
      · iapply (Entails.of_eq (eA _)); iexact Ha
      · iexact Hi
    · iexact Ht
  isplitl [H0r]; · iexact H0r
  isplitl [Htr]; · iexact Htr
  iapply (Entails.of_eq (eA _)); iexact H2r

set_option maxHeartbeats 1600000 in
/-- The task: two copies into the scratch, the first gather, the 52 trips, and everything handed back. -/
theorem tile_body (hF : (K (F := F)).Facts) (prev : Buf (Elt F) (outLoc d)) (W : Waits sig (HIx 1)) (hO : ∀ g, O g none = 0)
    (hA : ∀ k x, scRows fg ft fb prev ((chunkA L k).view.emb x) = doneA d L ft fg hfg fb k x)
    (hB : ∀ k x, scRows fg ft fb prev ((chunkB L k).view.emb x) = doneB d L ft fg hfg fb k x) :
    (iprop(levAts (K (F := F)).L (K (F := F)).lev ∗ emp ∗ taskIn d L sh ft fg fb prev
        ∗ scopedBufs (thr d L) ∗ scopedSems0 (thr d L) ∗ owes (thr d L) O W) : sProp 𝕄)
      ⊢ wp frame (wpE (defs₀ (F := F)) 𝒱₀ (thr d L) none) Set.univ
          (cc0__sc_body L tabW (Memref.isWhole_whole _) gidxW (Memref.isWhole_whole _) biasW (Memref.isWhole_whole _) outW (Memref.isWhole_whole _)
            idxS (Memref.isWhole_whole _) biasS (Memref.isWhole_whole _) rowsA (Memref.isWhole_whole _) rowsB (Memref.isWhole_whole _)
            cc0_scratch4 cc0_scratch5 cc0_scoped0 cc0_scoped1 cc0_scoped2 cc0_scoped3)
          fun _ => iprop(taskOut d L sh ft fg fb prev ∗ scopedBufs (thr d L) ∗ scopedSems0 (thr d L)
            ∗ ∃ W', ⌜∀ p ∈ W', p ∈ W ∨ p.2 = none⌝ ∗ owes (thr d L) O W') := by
  rw [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold taskIn outPieces
  iintro ⟨#Hlv, -, ⟨Ht, Hg, Hb, Hout⟩, ⟨⟨%f0, H0⟩, ⟨%f1, H1⟩, ⟨%f2, H2⟩, ⟨%f3, H3⟩, Hbufs⟩, ⟨Hs4, Hs5, Hr0, Hr1, Hr2, Hr3, Hsems⟩, HO⟩
  ihave Hmw := ((K (F := F)).mayWaits_none (thr := thr d L) hO) $$ Hlv
  ihave Ht := (Entails.of_eq (show (tabLoc d ↦{sh} ft : sProp 𝕄) = ((tabW).view.loc (thr d L) ↦{sh} ft) from rfl)) $$ Ht
  ihave Hg := (Entails.of_eq (show (gidxLoc d ↦{sh} fg : sProp 𝕄) = ((gidxW).view.loc (thr d L) ↦{sh} fg) from rfl)) $$ Hg
  ihave Hb := (Entails.of_eq (show (biasLoc d ↦{sh} fb : sProp 𝕄) = ((biasW).view.loc (thr d L) ↦{sh} fb) from rfl)) $$ Hb
  ihave H0 := (Entails.of_eq (show ((thr d L).loc cc0_scratch0 ↦{fullShare} f0 : sProp 𝕄) = ((idxS).view.loc (thr d L) ↦{fullShare} f0) from rfl)) $$ H0
  ihave H1 := (Entails.of_eq (show ((thr d L).loc cc0_scratch1 ↦{fullShare} f1 : sProp 𝕄) = ((biasS).view.loc (thr d L) ↦{fullShare} f1) from rfl)) $$ H1
  ihave H2 := (Entails.of_eq (show ((thr d L).loc cc0_scratch2 ↦{fullShare} f2 : sProp 𝕄) = ((rowsA).view.loc (thr d L) ↦{fullShare} f2) from rfl)) $$ H2
  ihave H3 := (Entails.of_eq (show ((thr d L).loc cc0_scratch3 ↦{fullShare} f3 : sProp 𝕄) = ((rowsB).view.loc (thr d L) ↦{fullShare} f3) from rfl)) $$ H3
  sl_exec
  delta Cert.Proof.KW.tile_body.sl.dma0 Cert.Proof.KW.tile_body.sl.dma0_1
  ihave H0 := (Entails.of_eq (show (((idxS).view.loc (thr d L) ↦{fullShare}
        View.write (Elt F) (idxS).view f0 (ReadAs.same.apply (View.read (Elt F) (gidxRow L).view fg)) Finset.univ) : sProp 𝕄)
      = ((idxS).view.loc (thr d L) ↦{fullShare} idxBlk d L fg)
    from congrArg (fun f => ((idxS).view.loc (thr d L) ↦{fullShare} f : sProp 𝕄)) (View.write_whole_univ cc0_scratch0 f0 _))) $$ H0
  ihave H1 := (Entails.of_eq (show (((biasS).view.loc (thr d L) ↦{fullShare}
        View.write (Elt F) (biasS).view f1 (ReadAs.same.apply (View.read (Elt F) (biasW).view fb)) Finset.univ) : sProp 𝕄)
      = ((biasS).view.loc (thr d L) ↦{fullShare} biasBlk d L fb)
    from congrArg (fun f => ((biasS).view.loc (thr d L) ↦{fullShare} f : sProp 𝕄)) (View.write_whole_univ cc0_scratch1 f1 _))) $$ H1
  have hin := idx_inb (F := F) d L fg hfg
  sl_exec
  have h0 : 0 < k0_t1_loop.trips := by decide
  sl_for (Inv d L sh O ft fg hfg fb W prev) $$ [Hg Hb H1 H3 Hout Hs4 Ht H2 H0 Hs5 Hr0 Hr1 Hr2 Hr3 HO]
  case region =>
    intro k u
    exact inv_step (F := F) d L sh O ft fg hfg fb W prev hA hB _ k u
  · unfold Inv
    rw [done_zero, todo_zero, bigSep_empty]
    isplitr; · iexact Hmw
    isplitl [Hg]; · iexact Hg
    isplitl [Hb]; · iexact Hb
    isplitl [H1]; · iexact H1
    isplitl [H3]; · iexists _; iexact H3
    isplitr; · iempintro
    isplitl [Hout]; · unfold pairAt; iexact Hout
    isplitl [Hs4 H0 Ht H2]
    · unfold pendAt
      rw [dif_pos h0]
      iapply (pend_first (F := F) d L sh ft fg hfg h0 f2 (Cert.Proof.KW.tile_body.sl.gather0 d L ft fg hin) (fun _ => rfl))
      isplitl [Hs4]; · iexact Hs4
      isplitl [H0]; · iexact H0
      isplitl [Ht]; · iexact Ht
      iexact H2
    isplitl [Hs5]; · iexact Hs5
    isplitl [Hr0]; · iexact Hr0
    isplitl [Hr1]; · iexact Hr1
    isplitl [Hr2]; · iexact Hr2
    isplitl [Hr3]; · iexact Hr3
    iexists _; isplitr
    on_goal 2 => iexact HO
    ipureintro; intro p hp
    rcases Finset.mem_insert.mp hp with rfl | hp
    · exact .inr rfl
    rcases Finset.mem_insert.mp hp with rfl | hp
    · exact .inr rfl
    exact .inl hp
  iintro %_ HI
  unfold Inv
  rw [done_all, todo_all, bigSep_empty]
  unfold pendAt
  rw [dif_neg (lt_irrefl _)]
  unfold idleA
  icases HI with ⟨-, Hg, Hb, H1, ⟨%f3', H3⟩, Hdone, -, ⟨⟨%f2', H2⟩, H0, Ht, Hs4⟩, Hs5, Hr0, Hr1, Hr2, Hr3, %W', %hW', HO⟩
  sl_exec
  sl_step
  ihave Ht := (Entails.of_eq (show (((tabW).view.loc (thr d L) ↦{sh} ft) : sProp 𝕄) = (tabLoc d ↦{sh} ft) from rfl)) $$ Ht
  ihave Hg := (Entails.of_eq (show (((gidxW).view.loc (thr d L) ↦{sh} fg) : sProp 𝕄) = (gidxLoc d ↦{sh} fg) from rfl)) $$ Hg
  ihave Hb := (Entails.of_eq (show (((biasW).view.loc (thr d L) ↦{sh} fb) : sProp 𝕄) = (biasLoc d ↦{sh} fb) from rfl)) $$ Hb
  ihave H0 := (Entails.of_eq (show (((idxS).view.loc (thr d L) ↦{fullShare} idxBlk d L fg) : sProp 𝕄) = ((thr d L).loc cc0_scratch0 ↦{fullShare} idxBlk d L fg) from rfl)) $$ H0
  ihave H1 := (Entails.of_eq (show (((biasS).view.loc (thr d L) ↦{fullShare} biasBlk d L fb) : sProp 𝕄) = ((thr d L).loc cc0_scratch1 ↦{fullShare} biasBlk d L fb) from rfl)) $$ H1
  ihave H2 := (Entails.of_eq (show (((rowsA).view.loc (thr d L) ↦{fullShare} f2') : sProp 𝕄) = ((thr d L).loc cc0_scratch2 ↦{fullShare} f2') from rfl)) $$ H2
  ihave H3 := (Entails.of_eq (show (((rowsB).view.loc (thr d L) ↦{fullShare} f3') : sProp 𝕄) = ((thr d L).loc cc0_scratch3 ↦{fullShare} f3') from rfl)) $$ H3
  unfold taskOut outPieces
  isplitl [Ht Hg Hb Hdone]
  · isplitl [Ht]; · iexact Ht
    isplitl [Hg]; · iexact Hg
    isplitl [Hb]; · iexact Hb
    unfold pairAt; iexact Hdone
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hs4 Hs5 Hr0 Hr1 Hr2 Hr3 Hsems]
  · isplitl [Hs4]; · iexact Hs4
    isplitl [Hs5]; · iexact Hs5
    isplitl [Hr0]; · iexact Hr0
    isplitl [Hr1]; · iexact Hr1
    isplitl [Hr2]; · iexact Hr2
    isplitl [Hr3]; · iexact Hr3
    iexact Hsems
  iexists W'; isplitr
  · ipureintro; exact hW'
  · iexact HO

end Tile

end Cert.Proof.KW

end
-- ==== Proof.WordScChunk.lean ====
/-
  Reading what the row-gathering call writes through one of a task's 128-row chunks gives that chunk's
  finished rows buffer: the gathered table rows plus the bias. The chunk of trip k starts at row
  1638400 + 13312 (2 s + c) + 256 k (the odd one 128 rows further), so its row x0 is the flat position
  r = 13312 (2 s + c) + 128 m + x0 with m = 2 k (resp. 2 k + 1), which cuts into (r / 13312, r % 13312 / 128,
  r % 128) = (2 s + c, m, x0): the entry x0 of row m of the task's block of the index array, the very
  entry the trip's offset list holds for row x0. Its word is below 26000, so clamping it into the table
  changes nothing. The feature r / 16384 is that of the chunk's first row, 128 dividing both 13312 and
  16384 and x0 being below 128; that is the row of the bias array the trip's eight 16-lane loads read.
-/
import proofs.«207390_g85444079387303_cont_sun_c4_501_21_alg».proof.Proof.WordScBl
import Idealize.ShloMosaic.Lib.Pipeline.Value
import Idealize.ShloMosaic.Lib.ValueLayout
import Idealize.ShloMosaic.Lib.Affine

noncomputable section

namespace Cert.Proof.KW

open Cert.Kernel Cert.Kernel.Gen
open Idealize.ShloMosaic
open Idealize.ShloMosaic.ValueIdx

variable {F : FTy → Type}

/-- The bias row of the even chunk's first sixteen lanes in closed form: the flat position of the chunk's first
    row, 13312 (2 s + c) + 256 k, divided by the 16384 rows of a feature (a floor division of a number that is
    not negative, so the plain quotient). -/
theorem k0_off4_eq (i : grid0.Coords) (k0_t1 : Fin k0_t1_loop.trips) :
    k0_off4 i k0_t1 = ![(26624 * (i 1).val + 13312 * (i 0).val + 256 * k0_t1.val) / 16384, 0] := by
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c13312_i32 : Affine.IsInt 13312#32 (13312) := Affine.ofNat _ (by omega)
  have h_v2 : Affine.IsInt _ (26624 * ((i 1).val : Int) + 13312 * ((i 0).val : Int)) := Affine.muli h_v1 h_c13312_i32 (by omega)
  have h_c2_i32_6 : Affine.IsInt 2#32 (2) := Affine.ofNat _ (by omega)
  have h_c0_i32_4 : Affine.IsInt 0#32 (0) := Affine.ofNat _ (by omega)
  have h_c1_i32 : Affine.IsInt 1#32 (1) := Affine.ofNat _ (by omega)
  have r_k0_t1 : k0_t1.val < 52 := Nat.lt_of_lt_of_le k0_t1.isLt k0_t1_abs.2.1
  have h_arg12 : Affine.IsInt _ ((k0_t1.val : Int)) := Affine.iv h_c0_i32_4 h_c1_i32 k0_t1.val (by omega)
  have c_arg12 : (k0_t1.val : Int) ≤ 52 - 1 := Affine.iv_lt k0_t1_abs.1 k0_t1.isLt k0_t1_abs.2.2 h_arg12
  have h_v7 : Affine.IsInt _ (2 * (k0_t1.val : Int)) := Affine.muli h_c2_i32_6 h_arg12 (by omega)
  have h_c128_i32 : Affine.IsInt 128#32 (128) := Affine.ofNat _ (by omega)
  have h_v15 : Affine.IsInt _ (256 * (k0_t1.val : Int)) := Affine.muli h_v7 h_c128_i32 (by omega)
  have h_v16 : Affine.IsInt _ (26624 * ((i 1).val : Int) + 13312 * ((i 0).val : Int) + 256 * (k0_t1.val : Int)) := Affine.addi h_v2 h_v15 (by omega)
  have h_c0_i32_14 : Affine.IsInt 0#32 (0) := Affine.ofNat _ (by omega)
  rcases (show 26624 * ((i 1).val : Int) + 13312 * ((i 0).val : Int) + 256 * (k0_t1.val : Int) ≤ 0 ∨ 1 ≤ 26624 * ((i 1).val : Int) + 13312 * ((i 0).val : Int) + 256 * (k0_t1.val : Int) by omega) with hs | hs
  · have h_v18 : Affine.Fails _ := Affine.sgt_fails h_v16 h_c0_i32_14 (by omega)
    have h_v19 : Affine.IsInt _ (0) := Affine.extui_fails h_v18 (by omega)
    have h_c0_i32_15 : Affine.IsInt 0#32 (0) := Affine.ofNat _ (by omega)
    have h_v20 : Affine.Fails _ := Affine.slt_fails h_v16 h_c0_i32_15 (by omega)
    have h_v21 : Affine.IsInt _ (0) := Affine.extui_fails h_v20 (by omega)
    have h_v22 : Affine.IsInt _ (0) := Affine.subi h_v19 h_v21 (by omega)
    have h_c16384_i32 : Affine.IsInt 16384#32 (16384) := Affine.ofNat _ (by omega)
    have h_c0_i32_16 : Affine.IsInt 0#32 (0) := Affine.ofNat _ (by omega)
    have h_v23 : Affine.Holds _ := Affine.sgt_holds h_c16384_i32 h_c0_i32_16 (by omega)
    have h_v24 : Affine.IsInt _ (1) := Affine.extui_holds h_v23 (by omega)
    have h_c0_i32_17 : Affine.IsInt 0#32 (0) := Affine.ofNat _ (by omega)
    have h_v25 : Affine.Fails _ := Affine.slt_fails h_c16384_i32 h_c0_i32_17 (by omega)
    have h_v26 : Affine.IsInt _ (0) := Affine.extui_fails h_v25 (by omega)
    have h_v27 : Affine.IsInt _ (1) := Affine.subi h_v24 h_v26 (by omega)
    have h_v28 : Affine.Holds _ := Affine.ne_holds h_v22 h_v27 (by omega)
    have h_v29 : Affine.IsInt _ (26624 * ((i 1).val : Int) + 13312 * ((i 0).val : Int) + 256 * (k0_t1.val : Int)) := Affine.remsi h_v16 h_c16384_i32 (by omega)
    have h_c0_i32_18 : Affine.IsInt 0#32 (0) := Affine.ofNat _ (by omega)
    have h_v30 : Affine.Fails _ := Affine.ne_fails h_v29 h_c0_i32_18 (by omega)
    have h_v31 : Affine.Fails _ := Affine.andi_fails_right (Affine.tH h_v28) h_v30
    have h_v17 : Affine.IsInt _ (((26624 * ((i 1).val : Int) + 13312 * ((i 0).val : Int) + 256 * (k0_t1.val : Int)) / 16384)) := Affine.divsi h_v16 h_c16384_i32 (by omega)
    have h_c1_i32_19 : Affine.IsInt 1#32 (1) := Affine.ofNat _ (by omega)
    have h_v32 : Affine.IsInt _ (((26624 * ((i 1).val : Int) + 13312 * ((i 0).val : Int) + 256 * (k0_t1.val : Int)) / 16384) - 1) := Affine.subi h_v17 h_c1_i32_19 (by omega)
    have h_v33 : Affine.IsInt _ (((26624 * ((i 1).val : Int) + 13312 * ((i 0).val : Int) + 256 * (k0_t1.val : Int)) / 16384)) := Affine.select_fails h_v31 h_v32 h_v17 (by omega)
    have h_v34 : Affine.IsInt _ (((26624 * ((i 1).val : Int) + 13312 * ((i 0).val : Int) + 256 * (k0_t1.val : Int)) / 16384)) := Affine.indexCast h_v33
    have h_c0 : Affine.IsInt 0#32 (0) := Affine.ofNat _ (by omega)
    exact Affine.vec_cons h_v34 (by omega) <| Affine.vec_cons (Affine.ofNat 0 (by omega) : Affine.IsInt 0#32 0) (by omega) <| Affine.vec_nil
  · have h_v18 : Affine.Holds _ := Affine.sgt_holds h_v16 h_c0_i32_14 (by omega)
    have h_v19 : Affine.IsInt _ (1) := Affine.extui_holds h_v18 (by omega)
    have h_c0_i32_15 : Affine.IsInt 0#32 (0) := Affine.ofNat _ (by omega)
    have h_v20 : Affine.Fails _ := Affine.slt_fails h_v16 h_c0_i32_15 (by omega)
    have h_v21 : Affine.IsInt _ (0) := Affine.extui_fails h_v20 (by omega)
    have h_v22 : Affine.IsInt _ (1) := Affine.subi h_v19 h_v21 (by omega)
    have h_c16384_i32 : Affine.IsInt 16384#32 (16384) := Affine.ofNat _ (by omega)
    have h_c0_i32_16 : Affine.IsInt 0#32 (0) := Affine.ofNat _ (by omega)
    have h_v23 : Affine.Holds _ := Affine.sgt_holds h_c16384_i32 h_c0_i32_16 (by omega)
    have h_v24 : Affine.IsInt _ (1) := Affine.extui_holds h_v23 (by omega)
    have h_c0_i32_17 : Affine.IsInt 0#32 (0) := Affine.ofNat _ (by omega)
    have h_v25 : Affine.Fails _ := Affine.slt_fails h_c16384_i32 h_c0_i32_17 (by omega)
    have h_v26 : Affine.IsInt _ (0) := Affine.extui_fails h_v25 (by omega)
    have h_v27 : Affine.IsInt _ (1) := Affine.subi h_v24 h_v26 (by omega)
    have h_v28 : Affine.Fails _ := Affine.ne_fails h_v22 h_v27 (by omega)
    have h_v29 : Affine.IsInt _ (((26624 * ((i 1).val : Int) + 13312 * ((i 0).val : Int) + 256 * (k0_t1.val : Int)) % 16384)) := Affine.remsi h_v16 h_c16384_i32 (by omega)
    have h_c0_i32_18 : Affine.IsInt 0#32 (0) := Affine.ofNat _ (by omega)
    have h_v30 : Affine.Term _ := Affine.cmpi_term .ne h_v29 h_c0_i32_18
    have h_v31 : Affine.Fails _ := Affine.andi_fails_left h_v28 h_v30
    have h_v17 : Affine.IsInt _ (((26624 * ((i 1).val : Int) + 13312 * ((i 0).val : Int) + 256 * (k0_t1.val : Int)) / 16384)) := Affine.divsi h_v16 h_c16384_i32 (by omega)
    have h_c1_i32_19 : Affine.IsInt 1#32 (1) := Affine.ofNat _ (by omega)
    have h_v32 : Affine.IsInt _ (((26624 * ((i 1).val : Int) + 13312 * ((i 0).val : Int) + 256 * (k0_t1.val : Int)) / 16384) - 1) := Affine.subi h_v17 h_c1_i32_19 (by omega)
    have h_v33 : Affine.IsInt _ (((26624 * ((i 1).val : Int) + 13312 * ((i 0).val : Int) + 256 * (k0_t1.val : Int)) / 16384)) := Affine.select_fails h_v31 h_v32 h_v17 (by omega)
    have h_v34 : Affine.IsInt _ (((26624 * ((i 1).val : Int) + 13312 * ((i 0).val : Int) + 256 * (k0_t1.val : Int)) / 16384)) := Affine.indexCast h_v33
    have h_c0 : Affine.IsInt 0#32 (0) := Affine.ofNat _ (by omega)
    exact Affine.vec_cons h_v34 (by omega) <| Affine.vec_cons (Affine.ofNat 0 (by omega) : Affine.IsInt 0#32 0) (by omega) <| Affine.vec_nil

/-- Eight 16-lane vectors side by side that each read a lane function at their own sixteen lanes read it at every lane. -/
theorem blOf_eq (b0 b1 b2 b3 b4 b5 b6 b7 : FVec F S16 .f32) (g : Fin 128 → F .f32)
    (h0 : ∀ l : Fin 16, b0 (ix1 l) = g ⟨0 + l.val, by omega⟩) (h1 : ∀ l : Fin 16, b1 (ix1 l) = g ⟨16 + l.val, by omega⟩)
    (h2 : ∀ l : Fin 16, b2 (ix1 l) = g ⟨32 + l.val, by omega⟩) (h3 : ∀ l : Fin 16, b3 (ix1 l) = g ⟨48 + l.val, by omega⟩)
    (h4 : ∀ l : Fin 16, b4 (ix1 l) = g ⟨64 + l.val, by omega⟩) (h5 : ∀ l : Fin 16, b5 (ix1 l) = g ⟨80 + l.val, by omega⟩)
    (h6 : ∀ l : Fin 16, b6 (ix1 l) = g ⟨96 + l.val, by omega⟩) (h7 : ∀ l : Fin 16, b7 (ix1 l) = g ⟨112 + l.val, by omega⟩)
    (x0 x1 : Fin 128) : blOf b0 b1 b2 b3 b4 b5 b6 b7 (ix2 x0 x1) = g x1 := by
  have hx := x1.isLt
  have hl : x1.val % 16 < 16 := Nat.mod_lt _ (by norm_num)
  have hv : x1.val / 16 < 8 := by omega
  have key : ∀ v : ℕ, x1.val / 16 = v → x1.val = 16 * v + x1.val % 16 := by intro v hv'; omega
  rcases (show x1.val / 16 = 0 ∨ x1.val / 16 = 1 ∨ x1.val / 16 = 2 ∨ x1.val / 16 = 3 ∨ x1.val / 16 = 4 ∨ x1.val / 16 = 5
      ∨ x1.val / 16 = 6 ∨ x1.val / 16 = 7 by omega) with e | e | e | e | e | e | e | e
  · rw [blOf_0 _ _ _ _ _ _ _ _ (ix2 x0 x1) ⟨x1.val % 16, hl⟩ (by show x1.val = 0 + x1.val % 16; omega), h0]
    exact congrArg g (Fin.ext (by show 0 + x1.val % 16 = x1.val; omega))
  · rw [blOf_1 _ _ _ _ _ _ _ _ (ix2 x0 x1) ⟨x1.val % 16, hl⟩ (by show x1.val = 16 + x1.val % 16; omega), h1]
    exact congrArg g (Fin.ext (by show 16 + x1.val % 16 = x1.val; omega))
  · rw [blOf_2 _ _ _ _ _ _ _ _ (ix2 x0 x1) ⟨x1.val % 16, hl⟩ (by show x1.val = 32 + x1.val % 16; omega), h2]
    exact congrArg g (Fin.ext (by show 32 + x1.val % 16 = x1.val; omega))
  · rw [blOf_3 _ _ _ _ _ _ _ _ (ix2 x0 x1) ⟨x1.val % 16, hl⟩ (by show x1.val = 48 + x1.val % 16; omega), h3]
    exact congrArg g (Fin.ext (by show 48 + x1.val % 16 = x1.val; omega))
  · rw [blOf_4 _ _ _ _ _ _ _ _ (ix2 x0 x1) ⟨x1.val % 16, hl⟩ (by show x1.val = 64 + x1.val % 16; omega), h4]
    exact congrArg g (Fin.ext (by show 64 + x1.val % 16 = x1.val; omega))
  · rw [blOf_5 _ _ _ _ _ _ _ _ (ix2 x0 x1) ⟨x1.val % 16, hl⟩ (by show x1.val = 80 + x1.val % 16; omega), h5]
    exact congrArg g (Fin.ext (by show 80 + x1.val % 16 = x1.val; omega))
  · rw [blOf_6 _ _ _ _ _ _ _ _ (ix2 x0 x1) ⟨x1.val % 16, hl⟩ (by show x1.val = 96 + x1.val % 16; omega), h6]
    exact congrArg g (Fin.ext (by show 96 + x1.val % 16 = x1.val; omega))
  · rw [blOf_7 _ _ _ _ _ _ _ _ (ix2 x0 x1) ⟨x1.val % 16, hl⟩ (by show x1.val = 112 + x1.val % 16; omega), h7]
    exact congrArg g (Fin.ext (by show 112 + x1.val % 16 = x1.val; omega))

variable [FloatOps F]

section Tile
variable (d : Dev nD) (L : grid0.Coords)

theorem w_lt (L : grid0.Coords) : 2 * (L 1).val + (L 0).val < 32 := by
  have h0 : (L 0).val < 2 := (L 0).isLt
  have h1 : (L 1).val < 16 := (L 1).isLt
  omega

/-- The index scratch at (p, q): the index array at the task's block, row p, lane q. -/
theorem idxBlk_apply (fg : Buf (Elt F) (gidxLoc d)) (p : Fin 104) (q : Fin 128) :
    idxBlk d L fg (ix2 p q) = fg (ix3 (⟨2 * (L 1).val + (L 0).val, w_lt L⟩ : Fin 32) p q) := by
  unfold idxBlk
  rw [ReadAs.apply_same, View.read_apply]
  refine (cast_eq _ _).trans (congrArg fg ?_)
  show (Rect.unit (s := S32x104x128) (k0_off1 L) S1x104x128.size (k0_off1_inb L)).emb (Shape.reshapeEquiv _ (ix2 p q)) = _
  rw [reshapeEquiv_ix2_1ab]
  funext a; apply Fin.ext
  rw [Rect.emb_apply]
  have e0 : k0_off1 L 0 = 2 * (L 1).val + (L 0).val := congrFun (k0_off1_eq L) 0
  have e1 : k0_off1 L 1 = 0 := congrFun (k0_off1_eq L) 1
  have e2 : k0_off1 L 2 = 0 := congrFun (k0_off1_eq L) 2
  match a with
  | ⟨0, _⟩ => show k0_off1 L 0 + 1 * 0 = 2 * (L 1).val + (L 0).val; omega
  | ⟨1, _⟩ => show k0_off1 L 1 + 1 * p.val = p.val; omega
  | ⟨2, _⟩ => show k0_off1 L 2 + 1 * q.val = q.val; omega

/-- The index scratch at any index. -/
theorem idxBlk_apply' (fg : Buf (Elt F) (gidxLoc d)) (i : S104x128.Idx) :
    idxBlk d L fg i = fg (ix3 (⟨2 * (L 1).val + (L 0).val, w_lt L⟩ : Fin 32) (i 0) (i 1)) := by
  conv_lhs => rw [eq_ix2 i]
  exact idxBlk_apply d L fg (i 0) (i 1)

/-- A vector index matched with the one-row shape is (0, the coordinate). -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

/-- One row of the index scratch read as an offset list: entry x is the index array at the task's block, that row, lane x. -/
theorem idxRow_read (fg : Buf (Elt F) (gidxLoc d)) (off : Fin 2 → Nat) (hoff : ∀ a, off a + S1x128.size a ≤ S104x128.size a)
    (x : Fin 128) :
    (idxRowK off hoff).view.read (Elt F) (idxBlk d L fg) (ix1 x)
      = fg (ix3 (⟨2 * (L 1).val + (L 0).val, w_lt L⟩ : Fin 32)
          (⟨off 0, by have h0 : off 0 + 1 ≤ 104 := hoff 0; omega⟩ : Fin 104)
          (⟨off 1 + x.val, by have h1 : off 1 + 128 ≤ 128 := hoff 1; have := x.isLt; omega⟩ : Fin 128)) := by
  rw [View.read_apply]
  refine (cast_eq _ _).trans ?_
  rw [idxBlk_apply']
  refine congrArg fg (congrArg₂ (ix3 _) (Fin.ext ?_) (Fin.ext ?_))
  · show ((Rect.unit (s := S104x128) off S1x128.size hoff).emb (Shape.reshapeEquiv _ (ix1 x)) 0).val = off 0
    rw [reshapeEquiv_ix1_1a, Rect.emb_apply]
    show off 0 + 1 * 0 = off 0
    omega
  · show ((Rect.unit (s := S104x128) off S1x128.size hoff).emb (Shape.reshapeEquiv _ (ix1 x)) 1).val = off 1 + x.val
    rw [reshapeEquiv_ix1_1a, Rect.emb_apply]
    show off 1 + 1 * x.val = off 1 + x.val
    omega

/-- The vector index at a row-major position is that coordinate. -/
theorem rowMajor_symm_S128 (k : Fin S128.numel) :
    S128.rowMajor.symm k = ix1 (⟨k.val, k.isLt⟩ : Fin 128) := by
  apply (Equiv.symm_apply_eq _).2
  apply Fin.ext
  rw [Shape.rowMajor_val_one]

/-- The gathered rows at an index: the table at the row the index array names for the task's block, the offset
    list's row and the index's own row as lane, and at the index's own lane. -/
theorem gath_apply (ft : Buf (Elt F) (tabLoc d)) (fg : Buf (Elt F) (gidxLoc d)) (hfg : ∀ i, (fg i).toNat < 26000)
    (off : Fin 2 → Nat) (hoff : ∀ a, off a + S1x128.size a ≤ S104x128.size a) (x0 x1 : Fin 128) :
    gath d L ft fg hfg off hoff (ix2 x0 x1)
      = ft (ix2 (⟨(fg (ix3 (⟨2 * (L 1).val + (L 0).val, w_lt L⟩ : Fin 32)
            (⟨off 0, by have h0 : off 0 + 1 ≤ 104 := hoff 0; omega⟩ : Fin 104)
            (⟨off 1 + x0.val, by have h1 : off 1 + 128 ≤ 128 := hoff 1; have := x0.isLt; omega⟩ : Fin 128))).toNat, hfg _⟩ : Fin 26000) x1) := by
  unfold gath SparseCore.gatherPayload
  rw [View.read_apply]
  refine (cast_eq _ _).trans (congrArg ft ?_)
  funext a; apply Fin.ext
  have hrd := idxRow_read d L fg off hoff x0
  match a with
  | ⟨0, h0⟩ =>
    show (![0, 0] : Fin 2 → ℕ) 0 + 1 * (Shape.Gathers.idx gathers_S26000x128_S128x128 _ (ix2 x0 x1) ⟨0, h0⟩).val = _
    rw [show (⟨0, h0⟩ : Fin S26000x128.rank) = Shape.Gathers.axis gathers_S26000x128_S128x128 from rfl,
      Shape.Gathers.idx_axis]
    show 0 + 1 * ((idxRowK off hoff).view.read (Elt F) (idxBlk d L fg) (S128.rowMajor.symm _)).toNat = _
    rw [rowMajor_symm_S128]
    show 0 + 1 * ((idxRowK off hoff).view.read (Elt F) (idxBlk d L fg) (ix1 x0)).toNat = _
    rw [hrd]
    show 0 + 1 * BitVec.toNat (fg _) = BitVec.toNat (fg _)
    omega
  | ⟨1, h1⟩ =>
    show (![0, 0] : Fin 2 → ℕ) 1 + 1 * (Shape.Gathers.idx gathers_S26000x128_S128x128 _ (ix2 x0 x1) ⟨1, h1⟩).val = x1.val
    rw [Shape.Gathers.idx_of_ne _ _ _ _ (Nat.succ_ne_zero 0)]
    show 0 + 1 * x1.val = x1.val
    omega

/-- Sixteen lanes loaded from the bias scratch, as a vector, at lane l: the bias array at the load's row and lane. -/
theorem bias_read (fb : Buf (Elt F) (biasLoc d)) (off : Fin 2 → Nat) (hoff : ∀ a, off a + S1x16.size a ≤ S26x128.size a)
    (l : Fin 16) :
    shapeCast S16 (rdB d L fb off hoff) shapeCasts_S1x16_S16 (ix1 l)
      = fb (ix2 (⟨off 0, by have h0 : off 0 + 1 ≤ 26 := hoff 0; omega⟩ : Fin 26)
          (⟨off 1 + l.val, by have h1 : off 1 + 16 ≤ 128 := hoff 1; have := l.isLt; omega⟩ : Fin 128)) := by
  rw [shapeCast_1a_a_apply]
  unfold rdB
  rw [View.readAt_apply, View.read_apply]
  refine (cast_eq _ _).trans ?_
  unfold biasBlk
  rw [ReadAs.apply_same, View.read_apply]
  refine (cast_eq _ _).trans (congrArg fb ?_)
  funext a; apply Fin.ext
  match a with
  | ⟨0, _⟩ => show off 0 + 1 * 0 = off 0; omega
  | ⟨1, _⟩ => show off 1 + 1 * l.val = off 1 + l.val; omega

/-- Sixteen loaded lanes at lane l, for a load whose row and first lane are known. -/
theorem bias_lane (fb : Buf (Elt F) (biasLoc d)) (off : Fin 2 → Nat) (hoff : ∀ a, off a + S1x16.size a ≤ S26x128.size a)
    (row : Fin 26) (c0 : ℕ) (h0 : off 0 = row.val) (h1 : off 1 = c0) (l : Fin 16) (hc : c0 + l.val < 128) :
    shapeCast S16 (rdB d L fb off hoff) shapeCasts_S1x16_S16 (ix1 l) = fb (ix2 row (⟨c0 + l.val, hc⟩ : Fin 128)) := by
  rw [bias_read]
  exact congrArg₂ (fun r c => fb (ix2 r c)) (Fin.ext h0) (Fin.ext (by show off 1 + l.val = c0 + l.val; rw [h1]))

theorem rowA_lt (L : grid0.Coords) (k : Fin k0_t1_loop.trips) :
    (26624 * (L 1).val + 13312 * (L 0).val + 256 * k.val) / 16384 < 26 := by
  have hk : k.val < 52 := Nat.lt_of_lt_of_le k.isLt k0_t1_abs.2.1
  have hL0 : (L 0).val < 2 := (L 0).isLt
  have hL1 : (L 1).val < 16 := (L 1).isLt
  omega

theorem rowB_lt (L : grid0.Coords) (k : Fin k0_t1_loop.trips) :
    (26624 * (L 1).val + 13312 * (L 0).val + 256 * k.val + 128) / 16384 < 26 := by
  have hk : k.val < 52 := Nat.lt_of_lt_of_le k.isLt k0_t1_abs.2.1
  have hL0 : (L 0).val < 2 := (L 0).isLt
  have hL1 : (L 1).val < 16 := (L 1).isLt
  omega

/-- The bias of the even chunk at an index: the bias array at the feature of the chunk's first row, at the index's lane. -/
theorem blA_apply (fb : Buf (Elt F) (biasLoc d)) (k : Fin k0_t1_loop.trips) (x0 x1 : Fin 128) :
    blA d L fb k (ix2 x0 x1)
      = fb (ix2 (⟨(26624 * (L 1).val + 13312 * (L 0).val + 256 * k.val) / 16384, rowA_lt L k⟩ : Fin 26) x1) := by
  unfold blA
  refine blOf_eq _ _ _ _ _ _ _ _
    (fun c => fb (ix2 (⟨(26624 * (L 1).val + 13312 * (L 0).val + 256 * k.val) / 16384, rowA_lt L k⟩ : Fin 26) c))
    ?_ ?_ ?_ ?_ ?_ ?_ ?_ ?_ x0 x1
  · intro l; exact bias_lane d L fb _ _ _ 0 (congrFun (k0_off4_eq L k) 0) (congrFun (k0_off4_eq L k) 1) l _
  · intro l; exact bias_lane d L fb _ _ _ 16 (congrFun (k0_off4_eq L k) 0) rfl l _
  · intro l; exact bias_lane d L fb _ _ _ 32 (congrFun (k0_off4_eq L k) 0) rfl l _
  · intro l; exact bias_lane d L fb _ _ _ 48 (congrFun (k0_off4_eq L k) 0) rfl l _
  · intro l; exact bias_lane d L fb _ _ _ 64 (congrFun (k0_off4_eq L k) 0) rfl l _
  · intro l; exact bias_lane d L fb _ _ _ 80 (congrFun (k0_off4_eq L k) 0) rfl l _
  · intro l; exact bias_lane d L fb _ _ _ 96 (congrFun (k0_off4_eq L k) 0) rfl l _
  · intro l; exact bias_lane d L fb _ _ _ 112 (congrFun (k0_off4_eq L k) 0) rfl l _

/-- The bias of the odd chunk at an index. -/
theorem blB_apply (fb : Buf (Elt F) (biasLoc d)) (k : Fin k0_t1_loop.trips) (x0 x1 : Fin 128) :
    blB d L fb k (ix2 x0 x1)
      = fb (ix2 (⟨(26624 * (L 1).val + 13312 * (L 0).val + 256 * k.val + 128) / 16384, rowB_lt L k⟩ : Fin 26) x1) := by
  unfold blB
  refine blOf_eq _ _ _ _ _ _ _ _
    (fun c => fb (ix2 (⟨(26624 * (L 1).val + 13312 * (L 0).val + 256 * k.val + 128) / 16384, rowB_lt L k⟩ : Fin 26) c))
    ?_ ?_ ?_ ?_ ?_ ?_ ?_ ?_ x0 x1
  · intro l; exact bias_lane d L fb _ _ _ 0 (congrFun (k0_off22_eq L k) 0) (congrFun (k0_off22_eq L k) 1) l _
  · intro l; exact bias_lane d L fb _ _ _ 16 (congrFun (k0_off23_eq L k) 0) (congrFun (k0_off23_eq L k) 1) l _
  · intro l; exact bias_lane d L fb _ _ _ 32 (congrFun (k0_off24_eq L k) 0) (congrFun (k0_off24_eq L k) 1) l _
  · intro l; exact bias_lane d L fb _ _ _ 48 (congrFun (k0_off25_eq L k) 0) (congrFun (k0_off25_eq L k) 1) l _
  · intro l; exact bias_lane d L fb _ _ _ 64 (congrFun (k0_off26_eq L k) 0) (congrFun (k0_off26_eq L k) 1) l _
  · intro l; exact bias_lane d L fb _ _ _ 80 (congrFun (k0_off27_eq L k) 0) (congrFun (k0_off27_eq L k) 1) l _
  · intro l; exact bias_lane d L fb _ _ _ 96 (congrFun (k0_off28_eq L k) 0) (congrFun (k0_off28_eq L k) 1) l _
  · intro l; exact bias_lane d L fb _ _ _ 112 (congrFun (k0_off29_eq L k) 0) (congrFun (k0_off29_eq L k) 1) l _

/-- Reading what the call writes through a chunk whose first row is 1638400 + r0, with r0 = 13312 (2 s + c) + 128 m
    for the m-th row of the task's block of the index array: at (x0, x1) it is the table at the row the index
    array names at (2 s + c, m, x0), lane x1, plus the bias array at row r0 / 16384, lane x1. -/
theorem scRows_chunk (ft : Buf (Elt F) (tabLoc d)) (fg : Buf (Elt F) (gidxLoc d)) (fb : Buf (Elt F) (biasLoc d))
    (prev : Buf (Elt F) (outLoc d)) (hfg : ∀ i, (fg i).toNat < 26000) (m : Fin 104) (x0 x1 : Fin 128)
    (R : Fin 2064384) (hR : R.val = 1638400 + 13312 * (2 * (L 1).val + (L 0).val) + 128 * m.val + x0.val)
    (row : Fin 26) (hrow : row.val = (13312 * (2 * (L 1).val + (L 0).val) + 128 * m.val) / 16384) :
    scRows fg ft fb prev (ix2 R x1)
      = FloatOps.addf
          (ft (ix2 (⟨(fg (ix3 (⟨2 * (L 1).val + (L 0).val, w_lt L⟩ : Fin 32) m x0)).toNat, hfg _⟩ : Fin 26000) x1))
          (fb (ix2 row x1)) := by
  have hL0 : (L 0).val < 2 := (L 0).isLt
  have hL1 : (L 1).val < 16 := (L 1).isLt
  have hm := m.isLt
  have hx0 := x0.isLt
  unfold scRows
  rw [dif_pos (show 1638400 ≤ ((ix2 R x1 : S2064384x128.Idx) 0).val from by show 1638400 ≤ R.val; omega)]
  refine congrArg₂ FloatOps.addf ?_ ?_
  · refine congrArg (fun r => ft (ix2 r x1)) (Fin.ext ?_)
    show min (fg (ix3 ⟨(R.val - 1638400) / 13312, _⟩ ⟨(R.val - 1638400) % 13312 / 128, _⟩ ⟨(R.val - 1638400) % 128, _⟩)).toNat 25999
      = (fg (ix3 (⟨2 * (L 1).val + (L 0).val, w_lt L⟩ : Fin 32) m x0)).toNat
    rw [Nat.min_eq_left (Nat.le_of_lt_succ (hfg _))]
    refine congrArg BitVec.toNat (congrArg fg (funext fun a => Fin.ext ?_))
    match a with
    | ⟨0, _⟩ => show (R.val - 1638400) / 13312 = 2 * (L 1).val + (L 0).val; omega
    | ⟨1, _⟩ => show (R.val - 1638400) % 13312 / 128 = m.val; omega
    | ⟨2, _⟩ => show (R.val - 1638400) % 128 = x0.val; omega
  · refine congrArg (fun r => fb (ix2 r x1)) (Fin.ext ?_)
    show (R.val - 1638400) / 16384 = row.val
    omega

/-- Reading what the call writes through the even chunk of trip k gives that chunk's finished rows. -/
theorem chunkA_read (ft : Buf (Elt F) (tabLoc d)) (fg : Buf (Elt F) (gidxLoc d)) (fb : Buf (Elt F) (biasLoc d))
    (prev : Buf (Elt F) (outLoc d)) (hfg : ∀ i, (fg i).toNat < 26000) (k : Fin k0_t1_loop.trips) (x : S128x128.Idx) :
    scRows fg ft fb prev ((chunkA L k).view.emb x) = doneA d L ft fg hfg fb k x := by
  obtain ⟨x0, x1, rfl⟩ : ∃ (x0 x1 : Fin 128), x = ix2 x0 x1 := ⟨x 0, x 1, eq_ix2 x⟩
  have hk : k.val < 52 := Nat.lt_of_lt_of_le k.isLt k0_t1_abs.2.1
  have hL0 : (L 0).val < 2 := (L 0).isLt
  have hL1 : (L 1).val < 16 := (L 1).isLt
  have hx0 := x0.isLt
  have e0 : k0_off20 L k 0 = 26624 * (L 1).val + 13312 * (L 0).val + 256 * k.val + 1638400 := congrFun (k0_off20_eq L k) 0
  have e1 : k0_off20 L k 1 = 0 := congrFun (k0_off20_eq L k) 1
  have hi : (chunkA L k).view.emb (ix2 x0 x1)
      = ix2 (⟨26624 * (L 1).val + 13312 * (L 0).val + 256 * k.val + 1638400 + x0.val, by omega⟩ : Fin 2064384) x1 := by
    funext a; apply Fin.ext
    match a with
    | ⟨0, _⟩ =>
      show k0_off20 L k 0 + 1 * x0.val = 26624 * (L 1).val + 13312 * (L 0).val + 256 * k.val + 1638400 + x0.val
      omega
    | ⟨1, _⟩ => show k0_off20 L k 1 + 1 * x1.val = x1.val; omega
  have f0 : k0_off2 k 0 = 2 * k.val := congrFun (k0_off2_eq k) 0
  have f1 : k0_off2 k 1 = 0 := congrFun (k0_off2_eq k) 1
  rw [hi, scRows_chunk d L ft fg fb prev hfg ⟨2 * k.val, by omega⟩ x0 x1 _
    (by show 26624 * (L 1).val + 13312 * (L 0).val + 256 * k.val + 1638400 + x0.val
          = 1638400 + 13312 * (2 * (L 1).val + (L 0).val) + 128 * (2 * k.val) + x0.val
        omega)
    ⟨(26624 * (L 1).val + 13312 * (L 0).val + 256 * k.val) / 16384, rowA_lt L k⟩
    (by show (26624 * (L 1).val + 13312 * (L 0).val + 256 * k.val) / 16384
          = (13312 * (2 * (L 1).val + (L 0).val) + 128 * (2 * k.val)) / 16384
        omega)]
  unfold doneA gathA
  rw [gath_apply, blA_apply]
  refine congrArg₂ FloatOps.addf (congrArg (fun r => ft (ix2 r x1)) (Fin.ext ?_)) rfl
  refine congrArg BitVec.toNat (congrArg fg (congrArg₂ (ix3 _) (Fin.ext ?_) (Fin.ext ?_)))
  · show 2 * k.val = k0_off2 k 0; omega
  · show x0.val = k0_off2 k 1 + x0.val; omega

/-- Reading what the call writes through the odd chunk of trip k gives that chunk's finished rows. -/
theorem chunkB_read (ft : Buf (Elt F) (tabLoc d)) (fg : Buf (Elt F) (gidxLoc d)) (fb : Buf (Elt F) (biasLoc d))
    (prev : Buf (Elt F) (outLoc d)) (hfg : ∀ i, (fg i).toNat < 26000) (k : Fin k0_t1_loop.trips) (x : S128x128.Idx) :
    scRows fg ft fb prev ((chunkB L k).view.emb x) = doneB d L ft fg hfg fb k x := by
  obtain ⟨x0, x1, rfl⟩ : ∃ (x0 x1 : Fin 128), x = ix2 x0 x1 := ⟨x 0, x 1, eq_ix2 x⟩
  have hk : k.val < 52 := Nat.lt_of_lt_of_le k.isLt k0_t1_abs.2.1
  have hL0 : (L 0).val < 2 := (L 0).isLt
  have hL1 : (L 1).val < 16 := (L 1).isLt
  have hx0 := x0.isLt
  have e0 : k0_off38 L k 0 = 26624 * (L 1).val + 13312 * (L 0).val + 256 * k.val + 1638528 := congrFun (k0_off38_eq L k) 0
  have e1 : k0_off38 L k 1 = 0 := congrFun (k0_off38_eq L k) 1
  have hi : (chunkB L k).view.emb (ix2 x0 x1)
      = ix2 (⟨26624 * (L 1).val + 13312 * (L 0).val + 256 * k.val + 1638528 + x0.val, by omega⟩ : Fin 2064384) x1 := by
    funext a; apply Fin.ext
    match a with
    | ⟨0, _⟩ =>
      show k0_off38 L k 0 + 1 * x0.val = 26624 * (L 1).val + 13312 * (L 0).val + 256 * k.val + 1638528 + x0.val
      omega
    | ⟨1, _⟩ => show k0_off38 L k 1 + 1 * x1.val = x1.val; omega
  have f0 : k0_off3 k 0 = 2 * k.val + 1 := congrFun (k0_off3_eq k) 0
  have f1 : k0_off3 k 1 = 0 := congrFun (k0_off3_eq k) 1
  rw [hi, scRows_chunk d L ft fg fb prev hfg ⟨2 * k.val + 1, by omega⟩ x0 x1 _
    (by show 26624 * (L 1).val + 13312 * (L 0).val + 256 * k.val + 1638528 + x0.val
          = 1638400 + 13312 * (2 * (L 1).val + (L 0).val) + 128 * (2 * k.val + 1) + x0.val
        omega)
    ⟨(26624 * (L 1).val + 13312 * (L 0).val + 256 * k.val + 128) / 16384, rowB_lt L k⟩
    (by show (26624 * (L 1).val + 13312 * (L 0).val + 256 * k.val + 128) / 16384
          = (13312 * (2 * (L 1).val + (L 0).val) + 128 * (2 * k.val + 1)) / 16384
        omega)]
  unfold doneB gathB
  rw [gath_apply, blB_apply]
  refine congrArg₂ FloatOps.addf (congrArg (fun r => ft (ix2 r x1)) (Fin.ext ?_)) rfl
  refine congrArg BitVec.toNat (congrArg fg (congrArg₂ (ix3 _) (Fin.ext ?_) (Fin.ext ?_)))
  · show 2 * k.val + 1 = k0_off3 k 0; omega
  · show x0.val = k0_off3 k 1 + x0.val; omega

end Tile

end Cert.Proof.KW

end
-- ==== Proof.WordScFinal.lean ====
/-
  A vector subcore's task, in the form the launch takes it: the task body's theorem with the per-chunk value facts supplied.
-/
import proofs.«207390_g85444079387303_cont_sun_c4_501_21_alg».proof.Proof.WordSetup
import proofs.«207390_g85444079387303_cont_sun_c4_501_21_alg».proof.Proof.Spec
import proofs.«207390_g85444079387303_cont_sun_c4_501_21_alg».proof.Proof.Gen.Kernel.Skeleton
import proofs.«207390_g85444079387303_cont_sun_c4_501_21_alg».proof.Proof.WordScTile
import proofs.«207390_g85444079387303_cont_sun_c4_501_21_alg».proof.Proof.WordScChunk
import proofs.«207390_g85444079387303_cont_sun_c4_501_21_alg».proof.Proof.WordScObl

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The task on any vector subcore of the grid: from its operands' shares and its output chunks to the chunks at what the
    call writes, its scoped storage handed back. -/
theorem tile_body_stmt : TileBodyStmt (F := F) := fun hF d L sh ft fg fb prev hfg O W hO =>
  tile_body (F := F) d L sh O ft fg hfg fb hF prev W hO
    (fun k x => chunkA_read (F := F) d L ft fg fb prev hfg k x) (fun k x => chunkB_read (F := F) d L ft fg fb prev hfg k x)

end Cert.Proof.KW

end
-- ==== Proof.WordTcBody.lean ====
/-
  The numeric-token kernel's body, run once at symbolic staging buffers: from the three input blocks and the output
  block held whole, it returns leaving the inputs as they were and the output block at contents the run finds
  (a list of one hundred slice stores over the inputs' loads).
-/
import proofs.«207390_g85444079387303_cont_sun_c4_501_21_alg».proof.Proof.WordSetup
import proofs.«207390_g85444079387303_cont_sun_c4_501_21_alg».proof.Proof.Gen.Kernel.Skeleton
import Idealize.ShloMosaic.Lib.Tactic

noncomputable section

namespace Cert.Proof.KW.Tc

open Cert.Kernel Cert.Kernel.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What the body leaves in the output block, WITH the proof that from the four staging buffers held whole the kernel
    runs to its return handing back the inputs as they were and the output block at the witness. -/
noncomputable def tcRun (c : Dev nD) (i : grid1.Coords)
    (M1 : Memref sig .tc .vmem S512x100 .f32) (h1 : M1.IsWhole) (M2 : Memref sig .tc .vmem S100x128 .f32) (h2 : M2.IsWhole)
    (M3 : Memref sig .tc .vmem S100x128 .f32) (h3 : M3.IsWhole) (M4 : Memref sig .tc .hbm S126x16384x128 .f32) (h4 : M4.IsWhole)
    (M5 : Memref sig .tc .vmem S100x512x128 .f32) (h5 : M5.IsWhole)
    (f1 : Bf (F := F) c M1) (f2 : Bf (F := F) c M2) (f3 : Bf (F := F) c M3) :
    { W : Bf (F := F) c M5 // ∀ (f5 : Bf (F := F) c M5) (E : Set ℕ) (Q : PUnit → sProp 𝕄),
        iprop(pt c M1 f1 ∗ pt c M2 f2 ∗ pt c M3 f3 ∗ pt c M5 f5
          ∗ (iprop(pt c M1 f1 ∗ pt c M2 f2 ∗ pt c M3 f3 ∗ pt c M5 W) -∗ Q ⟨⟩))
          ⊢ wp frame (wpE (defs₀ (F := F)) Variants.none c none) E (cc1__tc_num_body i M1 h1 M2 h2 M3 h3 M4 h4 M5 h5) Q } := by
  refine ⟨?_, fun f5 E Q => ?run⟩
  case run =>
    iintro ⟨H1, H2, H3, H5, Hk⟩
    sl_exec_parts!
    sl_step
    iapply Hk
    isplitl [H1]; · iexact H1
    isplitl [H2]; · iexact H2
    isplitl [H3]; · iexact H3
    iexact H5

end Cert.Proof.KW.Tc

end
-- ==== Proof.WordTcVal.lean ====
/-
  What the body's one hundred stores leave in the output block, read back as ONE function of the three input blocks:
  at (f, r, l) it is x[r, f] * w[f, l] + b[f, l]. Each store's payload agrees with that function on its slice,
  and the slices cover the block.
-/
import proofs.«207390_g85444079387303_cont_sun_c4_501_21_alg».proof.Proof.WordTcBody
import Idealize.ShloMosaic.Lib.Pipeline.Value
import Idealize.ShloMosaic.Lib.ValueIdx

noncomputable section

namespace Cert.Proof.KW.Tc

open Cert.Kernel Cert.Kernel.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One token block as a function of the three input blocks: row r of feature f is x[r,f] * w[f,·] + b[f,·]. -/
def outF (X0 : S512x100.Idx → Elt F .f32) (X1 X2 : S100x128.Idx → Elt F .f32) : S100x512x128.Idx → Elt F .f32 :=
  fun i => FloatOps.addf (FloatOps.mulf (X0 (ValueIdx.ix2 (i 1) (i 0))) (X1 (ValueIdx.ix2 (i 0) (i 2)))) (X2 (ValueIdx.ix2 (i 0) (i 2)))

/-- The payload stored at feature f, from column f of x and rows f of w and b, is the function on slice f. -/
theorem piece_ok (X0 : S512x100.Idx → Elt F .f32) (X1 X2 : S100x128.Idx → Elt F .f32) (f : ℕ)
    (inb5 : ∀ a, (![f, 0, 0] : Fin 3 → ℕ) a + S1x512x128.size a ≤ S100x512x128.size a)
    (inb1 : ∀ a, (![0, f] : Fin 2 → ℕ) a + S512x1.size a ≤ S512x100.size a)
    (inb2 : ∀ a, (![f, 0] : Fin 2 → ℕ) a + S1x128.size a ≤ S100x128.size a)
    (h1 : S512x1.Broadcasts S512x128) (h2 : S1x128.Broadcasts S512x128) (h3 : S512x128.ShapeCasts S1x512x128)
    (x : S1x512x128.Idx) :
    shapeCast S1x512x128 (addf (mulf (broadcastTo S512x128 (View.ld X0 (Rect.unit (s := S512x100) ![0, f] S512x1.size inb1)) h1)
        (broadcastTo S512x128 (View.ld X1 (Rect.unit (s := S100x128) ![f, 0] S1x128.size inb2)) h2))
        (broadcastTo S512x128 (View.ld X2 (Rect.unit (s := S100x128) ![f, 0] S1x128.size inb2)) h2)) h3 x
      = outF X0 X1 X2 ((Rect.unit (s := S100x512x128) ![f, 0, 0] S1x512x128.size inb5).emb x) := by
  have e := shapeCast_addUnit_apply (α := Elt F .f32) ![512, 128]
    (addf (mulf (broadcastTo S512x128 (View.ld X0 (Rect.unit (s := S512x100) ![0, f] S512x1.size inb1)) h1)
        (broadcastTo S512x128 (View.ld X1 (Rect.unit (s := S100x128) ![f, 0] S1x128.size inb2)) h2))
        (broadcastTo S512x128 (View.ld X2 (Rect.unit (s := S100x128) ![f, 0] S1x128.size inb2)) h2)) h3 x
  refine e.trans ?_
  show FloatOps.addf (FloatOps.mulf (broadcastTo S512x128 (View.ld X0 (Rect.unit (s := S512x100) ![0, f] S512x1.size inb1)) h1 (fun a => x a.succ))
        (broadcastTo S512x128 (View.ld X1 (Rect.unit (s := S100x128) ![f, 0] S1x128.size inb2)) h2 (fun a => x a.succ)))
        (broadcastTo S512x128 (View.ld X2 (Rect.unit (s := S100x128) ![f, 0] S1x128.size inb2)) h2 (fun a => x a.succ)) = _
  have b1 := broadcastTo_apply (View.ld X0 (Rect.unit (s := S512x100) ![0, f] S512x1.size inb1)) h1 (fun a => x a.succ) (ValueIdx.ix2 (x 1) 0) (by intro a; fin_cases a <;> simp)
  have b2 := broadcastTo_apply (View.ld X1 (Rect.unit (s := S100x128) ![f, 0] S1x128.size inb2)) h2 (fun a => x a.succ) (ValueIdx.ix2 0 (x 2)) (by intro a; fin_cases a <;> simp)
  have b3 := broadcastTo_apply (View.ld X2 (Rect.unit (s := S100x128) ![f, 0] S1x128.size inb2)) h2 (fun a => x a.succ) (ValueIdx.ix2 0 (x 2)) (by intro a; fin_cases a <;> simp)
  rw [b1, b2, b3]
  have hx0 : (x 0).val = 0 := by have := (x 0).isLt; simp at this; omega
  unfold outF View.ld
  have e0 : (Rect.unit (s := S512x100) ![0, f] S512x1.size inb1).idx (ValueIdx.ix2 (x 1) 0)
      = ValueIdx.ix2 ((Rect.unit (s := S100x512x128) ![f, 0, 0] S1x512x128.size inb5).emb x 1) ((Rect.unit (s := S100x512x128) ![f, 0, 0] S1x512x128.size inb5).emb x 0) := by
    funext a; fin_cases a <;> (apply Fin.ext; show ((Rect.unit _ _ _).emb _ _).val = _; simp [Rect.emb_apply, hx0])
  have e1 : (Rect.unit (s := S100x128) ![f, 0] S1x128.size inb2).idx (ValueIdx.ix2 0 (x 2))
      = ValueIdx.ix2 ((Rect.unit (s := S100x512x128) ![f, 0, 0] S1x512x128.size inb5).emb x 0) ((Rect.unit (s := S100x512x128) ![f, 0, 0] S1x512x128.size inb5).emb x 2) := by
    funext a; fin_cases a <;> (apply Fin.ext; show ((Rect.unit _ _ _).emb _ _).val = _; simp [Rect.emb_apply, hx0])
  rw [e0, e1]
  rfl

/-- A list of stores all of whose payloads agree with `G` on their slices, and whose slices hold every index of
    feature below `N`. -/
def Ok (G : S100x512x128.Idx → Elt F .f32) (N : ℕ) (L : List (View.Piece (Elt F) S100x512x128 .f32)) : Prop :=
  (∀ p ∈ L, ∀ x : p.1.shape.Idx, p.2 x = G (p.1.emb x)) ∧ ∀ y : S100x512x128.Idx, (y 0).val < N → ∃ p ∈ L, y ∈ p.1.set

theorem Ok.nil (G : S100x512x128.Idx → Elt F .f32) : Ok G 0 [] :=
  ⟨fun p hp => absurd hp List.not_mem_nil, fun y h => absurd h (Nat.not_lt_zero _)⟩

theorem Ok.cons {G : S100x512x128.Idx → Elt F .f32} {N : ℕ} {L : List (View.Piece (Elt F) S100x512x128 .f32)} (h : Ok G N L)
    (inb5 : ∀ a, (![N, 0, 0] : Fin 3 → ℕ) a + S1x512x128.size a ≤ S100x512x128.size a)
    (pl : (Rect.unit (s := S100x512x128) ![N, 0, 0] S1x512x128.size inb5).shape.Idx → Elt F .f32)
    (hp : ∀ x, pl x = G ((Rect.unit (s := S100x512x128) ![N, 0, 0] S1x512x128.size inb5).emb x)) :
    Ok G (N + 1) ((⟨Rect.unit (s := S100x512x128) ![N, 0, 0] S1x512x128.size inb5, pl⟩ : View.Piece (Elt F) S100x512x128 .f32) :: L) := by
  refine ⟨List.forall_mem_cons.2 ⟨hp, h.1⟩, fun y hy => ?_⟩
  by_cases hN : (y 0).val < N
  · obtain ⟨p, hp', hyp⟩ := h.2 y hN
    exact ⟨p, List.mem_cons_of_mem _ hp', hyp⟩
  · refine ⟨_, List.mem_cons_self, ?_⟩
    rw [Rect.mem_set_unit]
    intro a
    have h1 := (y 1).isLt
    have h2 := (y 2).isLt
    fin_cases a
    · show N ≤ (y 0).val ∧ (y 0).val < N + 1; omega
    · show 0 ≤ (y 1).val ∧ (y 1).val < 0 + 512; exact ⟨Nat.zero_le _, by simpa using h1⟩
    · show 0 ≤ (y 2).val ∧ (y 2).val < 0 + 128; exact ⟨Nat.zero_le _, by simpa using h2⟩

theorem ok_2 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 2 (tcRun.sl.H5_2 c M1 M2 M3 f1 f2 f3) := by
  unfold tcRun.sl.H5_2
  exact (Ok.cons (Ok.cons (Ok.nil _) _ _ (fun x => piece_ok _ _ _ 0 inb_S100x512x128_S1x512x128_0_0_0 inb_S512x100_S512x1_0_0 inb_S100x128_S1x128_0_0 broadcasts_S512x1_S512x128 broadcasts_S1x128_S512x128 shapeCasts_S512x128_S1x512x128 x)) _ _ (fun x => piece_ok _ _ _ 1 inb_S100x512x128_S1x512x128_1_0_0 inb_S512x100_S512x1_0_1 inb_S100x128_S1x128_1_0 broadcasts_S512x1_S512x128 broadcasts_S1x128_S512x128 shapeCasts_S512x128_S1x512x128 x))

theorem ok_5 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 5 (tcRun.sl.H5_5 c M1 M2 M3 f1 f2 f3) := by
  unfold tcRun.sl.H5_5
  exact (Ok.cons (Ok.cons (Ok.cons (ok_2 c M1 M2 M3 f1 f2 f3) _ _ (fun x => piece_ok _ _ _ 2 inb_S100x512x128_S1x512x128_2_0_0 inb_S512x100_S512x1_0_2 inb_S100x128_S1x128_2_0 broadcasts_S512x1_S512x128 broadcasts_S1x128_S512x128 shapeCasts_S512x128_S1x512x128 x)) _ _ (fun x => piece_ok _ _ _ 3 inb_S100x512x128_S1x512x128_3_0_0 inb_S512x100_S512x1_0_3 inb_S100x128_S1x128_3_0 broadcasts_S512x1_S512x128 broadcasts_S1x128_S512x128 shapeCasts_S512x128_S1x512x128 x)) _ _ (fun x => piece_ok _ _ _ 4 inb_S100x512x128_S1x512x128_4_0_0 inb_S512x100_S512x1_0_4 inb_S100x128_S1x128_4_0 broadcasts_S512x1_S512x128 broadcasts_S1x128_S512x128 shapeCasts_S512x128_S1x512x128 x))

theorem ok_8 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 8 (tcRun.sl.H5_8 c M1 M2 M3 f1 f2 f3) := by
  unfold tcRun.sl.H5_8
  exact (Ok.cons (Ok.cons (Ok.cons (ok_5 c M1 M2 M3 f1 f2 f3) _ _ (fun x => piece_ok _ _ _ 5 inb_S100x512x128_S1x512x128_5_0_0 inb_S512x100_S512x1_0_5 inb_S100x128_S1x128_5_0 broadcasts_S512x1_S512x128 broadcasts_S1x128_S512x128 shapeCasts_S512x128_S1x512x128 x)) _ _ (fun x => piece_ok _ _ _ 6 inb_S100x512x128_S1x512x128_6_0_0 inb_S512x100_S512x1_0_6 inb_S100x128_S1x128_6_0 broadcasts_S512x1_S512x128 broadcasts_S1x128_S512x128 shapeCasts_S512x128_S1x512x128 x)) _ _ (fun x => piece_ok _ _ _ 7 inb_S100x512x128_S1x512x128_7_0_0 inb_S512x100_S512x1_0_7 inb_S100x128_S1x128_7_0 broadcasts_S512x1_S512x128 broadcasts_S1x128_S512x128 shapeCasts_S512x128_S1x512x128 x))

theorem ok_11 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 11 (tcRun.sl.H5_11 c M1 M2 M3 f1 f2 f3) := by
  unfold tcRun.sl.H5_11
  exact (Ok.cons (Ok.cons (Ok.cons (ok_8 c M1 M2 M3 f1 f2 f3) _ _ (fun x => piece_ok _ _ _ 8 inb_S100x512x128_S1x512x128_8_0_0 inb_S512x100_S512x1_0_8 inb_S100x128_S1x128_8_0 broadcasts_S512x1_S512x128 broadcasts_S1x128_S512x128 shapeCasts_S512x128_S1x512x128 x)) _ _ (fun x => piece_ok _ _ _ 9 inb_S100x512x128_S1x512x128_9_0_0 inb_S512x100_S512x1_0_9 inb_S100x128_S1x128_9_0 broadcasts_S512x1_S512x128 broadcasts_S1x128_S512x128 shapeCasts_S512x128_S1x512x128 x)) _ _ (fun x => piece_ok _ _ _ 10 inb_S100x512x128_S1x512x128_10_0_0 inb_S512x100_S512x1_0_10 inb_S100x128_S1x128_10_0 broadcasts_S512x1_S512x128 broadcasts_S1x128_S512x128 shapeCasts_S512x128_S1x512x128 x))

theorem ok_14 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 14 (tcRun.sl.H5_14 c M1 M2 M3 f1 f2 f3) := by
  unfold tcRun.sl.H5_14
  exact (Ok.cons (Ok.cons (Ok.cons (ok_11 c M1 M2 M3 f1 f2 f3) _ _ (fun x => piece_ok _ _ _ 11 inb_S100x512x128_S1x512x128_11_0_0 inb_S512x100_S512x1_0_11 inb_S100x128_S1x128_11_0 broadcasts_S512x1_S512x128 broadcasts_S1x128_S512x128 shapeCasts_S512x128_S1x512x128 x)) _ _ (fun x => piece_ok _ _ _ 12 inb_S100x512x128_S1x512x128_12_0_0 inb_S512x100_S512x1_0_12 inb_S100x128_S1x128_12_0 broadcasts_S512x1_S512x128 broadcasts_S1x128_S512x128 shapeCasts_S512x128_S1x512x128 x)) _ _ (fun x => piece_ok _ _ _ 13 inb_S100x512x128_S1x512x128_13_0_0 inb_S512x100_S512x1_0_13 inb_S100x128_S1x128_13_0 broadcasts_S512x1_S512x128 broadcasts_S1x128_S512x128 shapeCasts_S512x128_S1x512x128 x))

theorem ok_17 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 17 (tcRun.sl.H5_17 c M1 M2 M3 f1 f2 f3) := by
  unfold tcRun.sl.H5_17
  exact (Ok.cons (Ok.cons (Ok.cons (ok_14 c M1 M2 M3 f1 f2 f3) _ _ (fun x => piece_ok _ _ _ 14 inb_S100x512x128_S1x512x128_14_0_0 inb_S512x100_S512x1_0_14 inb_S100x128_S1x128_14_0 broadcasts_S512x1_S512x128 broadcasts_S1x128_S512x128 shapeCasts_S512x128_S1x512x128 x)) _ _ (fun x => piece_ok _ _ _ 15 inb_S100x512x128_S1x512x128_15_0_0 inb_S512x100_S512x1_0_15 inb_S100x128_S1x128_15_0 broadcasts_S512x1_S512x128 broadcasts_S1x128_S512x128 shapeCasts_S512x128_S1x512x128 x)) _ _ (fun x => piece_ok _ _ _ 16 inb_S100x512x128_S1x512x128_16_0_0 inb_S512x100_S512x1_0_16 inb_S100x128_S1x128_16_0 broadcasts_S512x1_S512x128 broadcasts_S1x128_S512x128 shapeCasts_S512x128_S1x512x128 x))

theorem ok_19 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 19 (tcRun.sl.H5_19 c M1 M2 M3 f1 f2 f3) := by
  unfold tcRun.sl.H5_19
  exact (Ok.cons (Ok.cons (ok_17 c M1 M2 M3 f1 f2 f3) _ _ (fun x => piece_ok _ _ _ 17 inb_S100x512x128_S1x512x128_17_0_0 inb_S512x100_S512x1_0_17 inb_S100x128_S1x128_17_0 broadcasts_S512x1_S512x128 broadcasts_S1x128_S512x128 shapeCasts_S512x128_S1x512x128 x)) _ _ (fun x => piece_ok _ _ _ 18 inb_S100x512x128_S1x512x128_18_0_0 inb_S512x100_S512x1_0_18 inb_S100x128_S1x128_18_0 broadcasts_S512x1_S512x128 broadcasts_S1x128_S512x128 shapeCasts_S512x128_S1x512x128 x))

theorem ok_22 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 22 (tcRun.sl.H5_22 c M1 M2 M3 f1 f2 f3) := by
  unfold tcRun.sl.H5_22
  exact (Ok.cons (Ok.cons (Ok.cons (ok_19 c M1 M2 M3 f1 f2 f3) _ _ (fun x => piece_ok _ _ _ 19 inb_S100x512x128_S1x512x128_19_0_0 inb_S512x100_S512x1_0_19 inb_S100x128_S1x128_19_0 broadcasts_S512x1_S512x128 broadcasts_S1x128_S512x128 shapeCasts_S512x128_S1x512x128 x)) _ _ (fun x => piece_ok _ _ _ 20 inb_S100x512x128_S1x512x128_20_0_0 inb_S512x100_S512x1_0_20 inb_S100x128_S1x128_20_0 broadcasts_S512x1_S512x128 broadcasts_S1x128_S512x128 shapeCasts_S512x128_S1x512x128 x)) _ _ (fun x => piece_ok _ _ _ 21 inb_S100x512x128_S1x512x128_21_0_0 inb_S512x100_S512x1_0_21 inb_S100x128_S1x128_21_0 broadcasts_S512x1_S512x128 broadcasts_S1x128_S512x128 shapeCasts_S512x128_S1x512x128 x))

theorem ok_25 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 25 (tcRun.sl.H5_25 c M1 M2 M3 f1 f2 f3) := by
  unfold tcRun.sl.H5_25
  exact (Ok.cons (Ok.cons (Ok.cons (ok_22 c M1 M2 M3 f1 f2 f3) _ _ (fun x => piece_ok _ _ _ 22 inb_S100x512x128_S1x512x128_22_0_0 inb_S512x100_S512x1_0_22 inb_S100x128_S1x128_22_0 broadcasts_S512x1_S512x128 broadcasts_S1x128_S512x128 shapeCasts_S512x128_S1x512x128 x)) _ _ (fun x => piece_ok _ _ _ 23 inb_S100x512x128_S1x512x128_23_0_0 inb_S512x100_S512x1_0_23 inb_S100x128_S1x128_23_0 broadcasts_S512x1_S512x128 broadcasts_S1x128_S512x128 shapeCasts_S512x128_S1x512x128 x)) _ _ (fun x => piece_ok _ _ _ 24 inb_S100x512x128_S1x512x128_24_0_0 inb_S512x100_S512x1_0_24 inb_S100x128_S1x128_24_0 broadcasts_S512x1_S512x128 broadcasts_S1x128_S512x128 shapeCasts_S512x128_S1x512x128 x))

theorem ok_28 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 28 (tcRun.sl.H5_28 c M1 M2 M3 f1 f2 f3) := by
  unfold tcRun.sl.H5_28
  exact (Ok.cons (Ok.cons (Ok.cons (ok_25 c M1 M2 M3 f1 f2 f3) _ _ (fun x => piece_ok _ _ _ 25 inb_S100x512x128_S1x512x128_25_0_0 inb_S512x100_S512x1_0_25 inb_S100x128_S1x128_25_0 broadcasts_S512x1_S512x128 broadcasts_S1x128_S512x128 shapeCasts_S512x128_S1x512x128 x)) _ _ (fun x => piece_ok _ _ _ 26 inb_S100x512x128_S1x512x128_26_0_0 inb_S512x100_S512x1_0_26 inb_S100x128_S1x128_26_0 broadcasts_S512x1_S512x128 broadcasts_S1x128_S512x128 shapeCasts_S512x128_S1x512x128 x)) _ _ (fun x => piece_ok _ _ _ 27 inb_S100x512x128_S1x512x128_27_0_0 inb_S512x100_S512x1_0_27 inb_S100x128_S1x128_27_0 broadcasts_S512x1_S512x128 broadcasts_S1x128_S512x128 shapeCasts_S512x128_S1x512x128 x))

theorem ok_31 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 31 (tcRun.sl.H5_31 c M1 M2 M3 f1 f2 f3) := by
  unfold tcRun.sl.H5_31
  exact (Ok.cons (Ok.cons (Ok.cons (ok_28 c M1 M2 M3 f1 f2 f3) _ _ (fun x => piece_ok _ _ _ 28 inb_S100x512x128_S1x512x128_28_0_0 inb_S512x100_S512x1_0_28 inb_S100x128_S1x128_28_0 broadcasts_S512x1_S512x128 broadcasts_S1x128_S512x128 shapeCasts_S512x128_S1x512x128 x)) _ _ (fun x => piece_ok _ _ _ 29 inb_S100x512x128_S1x512x128_29_0_0 inb_S512x100_S512x1_0_29 inb_S100x128_S1x128_29_0 broadcasts_S512x1_S512x128 broadcasts_S1x128_S512x128 shapeCasts_S512x128_S1x512x128 x)) _ _ (fun x => piece_ok _ _ _ 30 inb_S100x512x128_S1x512x128_30_0_0 inb_S512x100_S512x1_0_30 inb_S100x128_S1x128_30_0 broadcasts_S512x1_S512x128 broadcasts_S1x128_S512x128 shapeCasts_S512x128_S1x512x128 x))

theorem ok_34 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 34 (tcRun.sl.H5_34 c M1 M2 M3 f1 f2 f3) := by
  unfold tcRun.sl.H5_34
  exact (Ok.cons (Ok.cons (Ok.cons (ok_31 c M1 M2 M3 f1 f2 f3) _ _ (fun x => piece_ok _ _ _ 31 inb_S100x512x128_S1x512x128_31_0_0 inb_S512x100_S512x1_0_31 inb_S100x128_S1x128_31_0 broadcasts_S512x1_S512x128 broadcasts_S1x128_S512x128 shapeCasts_S512x128_S1x512x128 x)) _ _ (fun x => piece_ok _ _ _ 32 inb_S100x512x128_S1x512x128_32_0_0 inb_S512x100_S512x1_0_32 inb_S100x128_S1x128_32_0 broadcasts_S512x1_S512x128 broadcasts_S1x128_S512x128 shapeCasts_S512x128_S1x512x128 x)) _ _ (fun x => piece_ok _ _ _ 33 inb_S100x512x128_S1x512x128_33_0_0 inb_S512x100_S512x1_0_33 inb_S100x128_S1x128_33_0 broadcasts_S512x1_S512x128 broadcasts_S1x128_S512x128 shapeCasts_S512x128_S1x512x128 x))

theorem ok_37 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 37 (tcRun.sl.H5_37 c M1 M2 M3 f1 f2 f3) := by
  unfold tcRun.sl.H5_37
  exact (Ok.cons (Ok.cons (Ok.cons (ok_34 c M1 M2 M3 f1 f2 f3) _ _ (fun x => piece_ok _ _ _ 34 inb_S100x512x128_S1x512x128_34_0_0 inb_S512x100_S512x1_0_34 inb_S100x128_S1x128_34_0 broadcasts_S512x1_S512x128 broadcasts_S1x128_S512x128 shapeCasts_S512x128_S1x512x128 x)) _ _ (fun x => piece_ok _ _ _ 35 inb_S100x512x128_S1x512x128_35_0_0 inb_S512x100_S512x1_0_35 inb_S100x128_S1x128_35_0 broadcasts_S512x1_S512x128 broadcasts_S1x128_S512x128 shapeCasts_S512x128_S1x512x128 x)) _ _ (fun x => piece_ok _ _ _ 36 inb_S100x512x128_S1x512x128_36_0_0 inb_S512x100_S512x1_0_36 inb_S100x128_S1x128_36_0 broadcasts_S512x1_S512x128 broadcasts_S1x128_S512x128 shapeCasts_S512x128_S1x512x128 x))

theorem ok_39 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 39 (tcRun.sl.H5_39 c M1 M2 M3 f1 f2 f3) := by
  unfold tcRun.sl.H5_39
  exact (Ok.cons (Ok.cons (ok_37 c M1 M2 M3 f1 f2 f3) _ _ (fun x => piece_ok _ _ _ 37 inb_S100x512x128_S1x512x128_37_0_0 inb_S512x100_S512x1_0_37 inb_S100x128_S1x128_37_0 broadcasts_S512x1_S512x128 broadcasts_S1x128_S512x128 shapeCasts_S512x128_S1x512x128 x)) _ _ (fun x => piece_ok _ _ _ 38 inb_S100x512x128_S1x512x128_38_0_0 inb_S512x100_S512x1_0_38 inb_S100x128_S1x128_38_0 broadcasts_S512x1_S512x128 broadcasts_S1x128_S512x128 shapeCasts_S512x128_S1x512x128 x))

theorem ok_42 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 42 (tcRun.sl.H5_42 c M1 M2 M3 f1 f2 f3) := by
  unfold tcRun.sl.H5_42
  exact (Ok.cons (Ok.cons (Ok.cons (ok_39 c M1 M2 M3 f1 f2 f3) _ _ (fun x => piece_ok _ _ _ 39 inb_S100x512x128_S1x512x128_39_0_0 inb_S512x100_S512x1_0_39 inb_S100x128_S1x128_39_0 broadcasts_S512x1_S512x128 broadcasts_S1x128_S512x128 shapeCasts_S512x128_S1x512x128 x)) _ _ (fun x => piece_ok _ _ _ 40 inb_S100x512x128_S1x512x128_40_0_0 inb_S512x100_S512x1_0_40 inb_S100x128_S1x128_40_0 broadcasts_S512x1_S512x128 broadcasts_S1x128_S512x128 shapeCasts_S512x128_S1x512x128 x)) _ _ (fun x => piece_ok _ _ _ 41 inb_S100x512x128_S1x512x128_41_0_0 inb_S512x100_S512x1_0_41 inb_S100x128_S1x128_41_0 broadcasts_S512x1_S512x128 broadcasts_S1x128_S512x128 shapeCasts_S512x128_S1x512x128 x))

theorem ok_45 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 45 (tcRun.sl.H5_45 c M1 M2 M3 f1 f2 f3) := by
  unfold tcRun.sl.H5_45
  exact (Ok.cons (Ok.cons (Ok.cons (ok_42 c M1 M2 M3 f1 f2 f3) _ _ (fun x => piece_ok _ _ _ 42 inb_S100x512x128_S1x512x128_42_0_0 inb_S512x100_S512x1_0_42 inb_S100x128_S1x128_42_0 broadcasts_S512x1_S512x128 broadcasts_S1x128_S512x128 shapeCasts_S512x128_S1x512x128 x)) _ _ (fun x => piece_ok _ _ _ 43 inb_S100x512x128_S1x512x128_43_0_0 inb_S512x100_S512x1_0_43 inb_S100x128_S1x128_43_0 broadcasts_S512x1_S512x128 broadcasts_S1x128_S512x128 shapeCasts_S512x128_S1x512x128 x)) _ _ (fun x => piece_ok _ _ _ 44 inb_S100x512x128_S1x512x128_44_0_0 inb_S512x100_S512x1_0_44 inb_S100x128_S1x128_44_0 broadcasts_S512x1_S512x128 broadcasts_S1x128_S512x128 shapeCasts_S512x128_S1x512x128 x))

theorem ok_48 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 48 (tcRun.sl.H5_48 c M1 M2 M3 f1 f2 f3) := by
  unfold tcRun.sl.H5_48
  exact (Ok.cons (Ok.cons (Ok.cons (ok_45 c M1 M2 M3 f1 f2 f3) _ _ (fun x => piece_ok _ _ _ 45 inb_S100x512x128_S1x512x128_45_0_0 inb_S512x100_S512x1_0_45 inb_S100x128_S1x128_45_0 broadcasts_S512x1_S512x128 broadcasts_S1x128_S512x128 shapeCasts_S512x128_S1x512x128 x)) _ _ (fun x => piece_ok _ _ _ 46 inb_S100x512x128_S1x512x128_46_0_0 inb_S512x100_S512x1_0_46 inb_S100x128_S1x128_46_0 broadcasts_S512x1_S512x128 broadcasts_S1x128_S512x128 shapeCasts_S512x128_S1x512x128 x)) _ _ (fun x => piece_ok _ _ _ 47 inb_S100x512x128_S1x512x128_47_0_0 inb_S512x100_S512x1_0_47 inb_S100x128_S1x128_47_0 broadcasts_S512x1_S512x128 broadcasts_S1x128_S512x128 shapeCasts_S512x128_S1x512x128 x))

theorem ok_51 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 51 (tcRun.sl.H5_51 c M1 M2 M3 f1 f2 f3) := by
  unfold tcRun.sl.H5_51
  exact (Ok.cons (Ok.cons (Ok.cons (ok_48 c M1 M2 M3 f1 f2 f3) _ _ (fun x => piece_ok _ _ _ 48 inb_S100x512x128_S1x512x128_48_0_0 inb_S512x100_S512x1_0_48 inb_S100x128_S1x128_48_0 broadcasts_S512x1_S512x128 broadcasts_S1x128_S512x128 shapeCasts_S512x128_S1x512x128 x)) _ _ (fun x => piece_ok _ _ _ 49 inb_S100x512x128_S1x512x128_49_0_0 inb_S512x100_S512x1_0_49 inb_S100x128_S1x128_49_0 broadcasts_S512x1_S512x128 broadcasts_S1x128_S512x128 shapeCasts_S512x128_S1x512x128 x)) _ _ (fun x => piece_ok _ _ _ 50 inb_S100x512x128_S1x512x128_50_0_0 inb_S512x100_S512x1_0_50 inb_S100x128_S1x128_50_0 broadcasts_S512x1_S512x128 broadcasts_S1x128_S512x128 shapeCasts_S512x128_S1x512x128 x))

theorem ok_54 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 54 (tcRun.sl.H5_54 c M1 M2 M3 f1 f2 f3) := by
  unfold tcRun.sl.H5_54
  exact (Ok.cons (Ok.cons (Ok.cons (ok_51 c M1 M2 M3 f1 f2 f3) _ _ (fun x => piece_ok _ _ _ 51 inb_S100x512x128_S1x512x128_51_0_0 inb_S512x100_S512x1_0_51 inb_S100x128_S1x128_51_0 broadcasts_S512x1_S512x128 broadcasts_S1x128_S512x128 shapeCasts_S512x128_S1x512x128 x)) _ _ (fun x => piece_ok _ _ _ 52 inb_S100x512x128_S1x512x128_52_0_0 inb_S512x100_S512x1_0_52 inb_S100x128_S1x128_52_0 broadcasts_S512x1_S512x128 broadcasts_S1x128_S512x128 shapeCasts_S512x128_S1x512x128 x)) _ _ (fun x => piece_ok _ _ _ 53 inb_S100x512x128_S1x512x128_53_0_0 inb_S512x100_S512x1_0_53 inb_S100x128_S1x128_53_0 broadcasts_S512x1_S512x128 broadcasts_S1x128_S512x128 shapeCasts_S512x128_S1x512x128 x))

theorem ok_57 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 57 (tcRun.sl.H5_57 c M1 M2 M3 f1 f2 f3) := by
  unfold tcRun.sl.H5_57
  exact (Ok.cons (Ok.cons (Ok.cons (ok_54 c M1 M2 M3 f1 f2 f3) _ _ (fun x => piece_ok _ _ _ 54 inb_S100x512x128_S1x512x128_54_0_0 inb_S512x100_S512x1_0_54 inb_S100x128_S1x128_54_0 broadcasts_S512x1_S512x128 broadcasts_S1x128_S512x128 shapeCasts_S512x128_S1x512x128 x)) _ _ (fun x => piece_ok _ _ _ 55 inb_S100x512x128_S1x512x128_55_0_0 inb_S512x100_S512x1_0_55 inb_S100x128_S1x128_55_0 broadcasts_S512x1_S512x128 broadcasts_S1x128_S512x128 shapeCasts_S512x128_S1x512x128 x)) _ _ (fun x => piece_ok _ _ _ 56 inb_S100x512x128_S1x512x128_56_0_0 inb_S512x100_S512x1_0_56 inb_S100x128_S1x128_56_0 broadcasts_S512x1_S512x128 broadcasts_S1x128_S512x128 shapeCasts_S512x128_S1x512x128 x))

theorem ok_59 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 59 (tcRun.sl.H5_59 c M1 M2 M3 f1 f2 f3) := by
  unfold tcRun.sl.H5_59
  exact (Ok.cons (Ok.cons (ok_57 c M1 M2 M3 f1 f2 f3) _ _ (fun x => piece_ok _ _ _ 57 inb_S100x512x128_S1x512x128_57_0_0 inb_S512x100_S512x1_0_57 inb_S100x128_S1x128_57_0 broadcasts_S512x1_S512x128 broadcasts_S1x128_S512x128 shapeCasts_S512x128_S1x512x128 x)) _ _ (fun x => piece_ok _ _ _ 58 inb_S100x512x128_S1x512x128_58_0_0 inb_S512x100_S512x1_0_58 inb_S100x128_S1x128_58_0 broadcasts_S512x1_S512x128 broadcasts_S1x128_S512x128 shapeCasts_S512x128_S1x512x128 x))

theorem ok_62 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 62 (tcRun.sl.H5_62 c M1 M2 M3 f1 f2 f3) := by
  unfold tcRun.sl.H5_62
  exact (Ok.cons (Ok.cons (Ok.cons (ok_59 c M1 M2 M3 f1 f2 f3) _ _ (fun x => piece_ok _ _ _ 59 inb_S100x512x128_S1x512x128_59_0_0 inb_S512x100_S512x1_0_59 inb_S100x128_S1x128_59_0 broadcasts_S512x1_S512x128 broadcasts_S1x128_S512x128 shapeCasts_S512x128_S1x512x128 x)) _ _ (fun x => piece_ok _ _ _ 60 inb_S100x512x128_S1x512x128_60_0_0 inb_S512x100_S512x1_0_60 inb_S100x128_S1x128_60_0 broadcasts_S512x1_S512x128 broadcasts_S1x128_S512x128 shapeCasts_S512x128_S1x512x128 x)) _ _ (fun x => piece_ok _ _ _ 61 inb_S100x512x128_S1x512x128_61_0_0 inb_S512x100_S512x1_0_61 inb_S100x128_S1x128_61_0 broadcasts_S512x1_S512x128 broadcasts_S1x128_S512x128 shapeCasts_S512x128_S1x512x128 x))

theorem ok_65 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 65 (tcRun.sl.H5_65 c M1 M2 M3 f1 f2 f3) := by
  unfold tcRun.sl.H5_65
  exact (Ok.cons (Ok.cons (Ok.cons (ok_62 c M1 M2 M3 f1 f2 f3) _ _ (fun x => piece_ok _ _ _ 62 inb_S100x512x128_S1x512x128_62_0_0 inb_S512x100_S512x1_0_62 inb_S100x128_S1x128_62_0 broadcasts_S512x1_S512x128 broadcasts_S1x128_S512x128 shapeCasts_S512x128_S1x512x128 x)) _ _ (fun x => piece_ok _ _ _ 63 inb_S100x512x128_S1x512x128_63_0_0 inb_S512x100_S512x1_0_63 inb_S100x128_S1x128_63_0 broadcasts_S512x1_S512x128 broadcasts_S1x128_S512x128 shapeCasts_S512x128_S1x512x128 x)) _ _ (fun x => piece_ok _ _ _ 64 inb_S100x512x128_S1x512x128_64_0_0 inb_S512x100_S512x1_0_64 inb_S100x128_S1x128_64_0 broadcasts_S512x1_S512x128 broadcasts_S1x128_S512x128 shapeCasts_S512x128_S1x512x128 x))

theorem ok_68 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 68 (tcRun.sl.H5_68 c M1 M2 M3 f1 f2 f3) := by
  unfold tcRun.sl.H5_68
  exact (Ok.cons (Ok.cons (Ok.cons (ok_65 c M1 M2 M3 f1 f2 f3) _ _ (fun x => piece_ok _ _ _ 65 inb_S100x512x128_S1x512x128_65_0_0 inb_S512x100_S512x1_0_65 inb_S100x128_S1x128_65_0 broadcasts_S512x1_S512x128 broadcasts_S1x128_S512x128 shapeCasts_S512x128_S1x512x128 x)) _ _ (fun x => piece_ok _ _ _ 66 inb_S100x512x128_S1x512x128_66_0_0 inb_S512x100_S512x1_0_66 inb_S100x128_S1x128_66_0 broadcasts_S512x1_S512x128 broadcasts_S1x128_S512x128 shapeCasts_S512x128_S1x512x128 x)) _ _ (fun x => piece_ok _ _ _ 67 inb_S100x512x128_S1x512x128_67_0_0 inb_S512x100_S512x1_0_67 inb_S100x128_S1x128_67_0 broadcasts_S512x1_S512x128 broadcasts_S1x128_S512x128 shapeCasts_S512x128_S1x512x128 x))

theorem ok_71 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 71 (tcRun.sl.H5_71 c M1 M2 M3 f1 f2 f3) := by
  unfold tcRun.sl.H5_71
  exact (Ok.cons (Ok.cons (Ok.cons (ok_68 c M1 M2 M3 f1 f2 f3) _ _ (fun x => piece_ok _ _ _ 68 inb_S100x512x128_S1x512x128_68_0_0 inb_S512x100_S512x1_0_68 inb_S100x128_S1x128_68_0 broadcasts_S512x1_S512x128 broadcasts_S1x128_S512x128 shapeCasts_S512x128_S1x512x128 x)) _ _ (fun x => piece_ok _ _ _ 69 inb_S100x512x128_S1x512x128_69_0_0 inb_S512x100_S512x1_0_69 inb_S100x128_S1x128_69_0 broadcasts_S512x1_S512x128 broadcasts_S1x128_S512x128 shapeCasts_S512x128_S1x512x128 x)) _ _ (fun x => piece_ok _ _ _ 70 inb_S100x512x128_S1x512x128_70_0_0 inb_S512x100_S512x1_0_70 inb_S100x128_S1x128_70_0 broadcasts_S512x1_S512x128 broadcasts_S1x128_S512x128 shapeCasts_S512x128_S1x512x128 x))

theorem ok_74 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 74 (tcRun.sl.H5_74 c M1 M2 M3 f1 f2 f3) := by
  unfold tcRun.sl.H5_74
  exact (Ok.cons (Ok.cons (Ok.cons (ok_71 c M1 M2 M3 f1 f2 f3) _ _ (fun x => piece_ok _ _ _ 71 inb_S100x512x128_S1x512x128_71_0_0 inb_S512x100_S512x1_0_71 inb_S100x128_S1x128_71_0 broadcasts_S512x1_S512x128 broadcasts_S1x128_S512x128 shapeCasts_S512x128_S1x512x128 x)) _ _ (fun x => piece_ok _ _ _ 72 inb_S100x512x128_S1x512x128_72_0_0 inb_S512x100_S512x1_0_72 inb_S100x128_S1x128_72_0 broadcasts_S512x1_S512x128 broadcasts_S1x128_S512x128 shapeCasts_S512x128_S1x512x128 x)) _ _ (fun x => piece_ok _ _ _ 73 inb_S100x512x128_S1x512x128_73_0_0 inb_S512x100_S512x1_0_73 inb_S100x128_S1x128_73_0 broadcasts_S512x1_S512x128 broadcasts_S1x128_S512x128 shapeCasts_S512x128_S1x512x128 x))

theorem ok_77 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 77 (tcRun.sl.H5_77 c M1 M2 M3 f1 f2 f3) := by
  unfold tcRun.sl.H5_77
  exact (Ok.cons (Ok.cons (Ok.cons (ok_74 c M1 M2 M3 f1 f2 f3) _ _ (fun x => piece_ok _ _ _ 74 inb_S100x512x128_S1x512x128_74_0_0 inb_S512x100_S512x1_0_74 inb_S100x128_S1x128_74_0 broadcasts_S512x1_S512x128 broadcasts_S1x128_S512x128 shapeCasts_S512x128_S1x512x128 x)) _ _ (fun x => piece_ok _ _ _ 75 inb_S100x512x128_S1x512x128_75_0_0 inb_S512x100_S512x1_0_75 inb_S100x128_S1x128_75_0 broadcasts_S512x1_S512x128 broadcasts_S1x128_S512x128 shapeCasts_S512x128_S1x512x128 x)) _ _ (fun x => piece_ok _ _ _ 76 inb_S100x512x128_S1x512x128_76_0_0 inb_S512x100_S512x1_0_76 inb_S100x128_S1x128_76_0 broadcasts_S512x1_S512x128 broadcasts_S1x128_S512x128 shapeCasts_S512x128_S1x512x128 x))

theorem ok_79 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 79 (tcRun.sl.H5_79 c M1 M2 M3 f1 f2 f3) := by
  unfold tcRun.sl.H5_79
  exact (Ok.cons (Ok.cons (ok_77 c M1 M2 M3 f1 f2 f3) _ _ (fun x => piece_ok _ _ _ 77 inb_S100x512x128_S1x512x128_77_0_0 inb_S512x100_S512x1_0_77 inb_S100x128_S1x128_77_0 broadcasts_S512x1_S512x128 broadcasts_S1x128_S512x128 shapeCasts_S512x128_S1x512x128 x)) _ _ (fun x => piece_ok _ _ _ 78 inb_S100x512x128_S1x512x128_78_0_0 inb_S512x100_S512x1_0_78 inb_S100x128_S1x128_78_0 broadcasts_S512x1_S512x128 broadcasts_S1x128_S512x128 shapeCasts_S512x128_S1x512x128 x))

theorem ok_82 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 82 (tcRun.sl.H5_82 c M1 M2 M3 f1 f2 f3) := by
  unfold tcRun.sl.H5_82
  exact (Ok.cons (Ok.cons (Ok.cons (ok_79 c M1 M2 M3 f1 f2 f3) _ _ (fun x => piece_ok _ _ _ 79 inb_S100x512x128_S1x512x128_79_0_0 inb_S512x100_S512x1_0_79 inb_S100x128_S1x128_79_0 broadcasts_S512x1_S512x128 broadcasts_S1x128_S512x128 shapeCasts_S512x128_S1x512x128 x)) _ _ (fun x => piece_ok _ _ _ 80 inb_S100x512x128_S1x512x128_80_0_0 inb_S512x100_S512x1_0_80 inb_S100x128_S1x128_80_0 broadcasts_S512x1_S512x128 broadcasts_S1x128_S512x128 shapeCasts_S512x128_S1x512x128 x)) _ _ (fun x => piece_ok _ _ _ 81 inb_S100x512x128_S1x512x128_81_0_0 inb_S512x100_S512x1_0_81 inb_S100x128_S1x128_81_0 broadcasts_S512x1_S512x128 broadcasts_S1x128_S512x128 shapeCasts_S512x128_S1x512x128 x))

theorem ok_85 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 85 (tcRun.sl.H5_85 c M1 M2 M3 f1 f2 f3) := by
  unfold tcRun.sl.H5_85
  exact (Ok.cons (Ok.cons (Ok.cons (ok_82 c M1 M2 M3 f1 f2 f3) _ _ (fun x => piece_ok _ _ _ 82 inb_S100x512x128_S1x512x128_82_0_0 inb_S512x100_S512x1_0_82 inb_S100x128_S1x128_82_0 broadcasts_S512x1_S512x128 broadcasts_S1x128_S512x128 shapeCasts_S512x128_S1x512x128 x)) _ _ (fun x => piece_ok _ _ _ 83 inb_S100x512x128_S1x512x128_83_0_0 inb_S512x100_S512x1_0_83 inb_S100x128_S1x128_83_0 broadcasts_S512x1_S512x128 broadcasts_S1x128_S512x128 shapeCasts_S512x128_S1x512x128 x)) _ _ (fun x => piece_ok _ _ _ 84 inb_S100x512x128_S1x512x128_84_0_0 inb_S512x100_S512x1_0_84 inb_S100x128_S1x128_84_0 broadcasts_S512x1_S512x128 broadcasts_S1x128_S512x128 shapeCasts_S512x128_S1x512x128 x))

theorem ok_88 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 88 (tcRun.sl.H5_88 c M1 M2 M3 f1 f2 f3) := by
  unfold tcRun.sl.H5_88
  exact (Ok.cons (Ok.cons (Ok.cons (ok_85 c M1 M2 M3 f1 f2 f3) _ _ (fun x => piece_ok _ _ _ 85 inb_S100x512x128_S1x512x128_85_0_0 inb_S512x100_S512x1_0_85 inb_S100x128_S1x128_85_0 broadcasts_S512x1_S512x128 broadcasts_S1x128_S512x128 shapeCasts_S512x128_S1x512x128 x)) _ _ (fun x => piece_ok _ _ _ 86 inb_S100x512x128_S1x512x128_86_0_0 inb_S512x100_S512x1_0_86 inb_S100x128_S1x128_86_0 broadcasts_S512x1_S512x128 broadcasts_S1x128_S512x128 shapeCasts_S512x128_S1x512x128 x)) _ _ (fun x => piece_ok _ _ _ 87 inb_S100x512x128_S1x512x128_87_0_0 inb_S512x100_S512x1_0_87 inb_S100x128_S1x128_87_0 broadcasts_S512x1_S512x128 broadcasts_S1x128_S512x128 shapeCasts_S512x128_S1x512x128 x))

theorem ok_91 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 91 (tcRun.sl.H5_91 c M1 M2 M3 f1 f2 f3) := by
  unfold tcRun.sl.H5_91
  exact (Ok.cons (Ok.cons (Ok.cons (ok_88 c M1 M2 M3 f1 f2 f3) _ _ (fun x => piece_ok _ _ _ 88 inb_S100x512x128_S1x512x128_88_0_0 inb_S512x100_S512x1_0_88 inb_S100x128_S1x128_88_0 broadcasts_S512x1_S512x128 broadcasts_S1x128_S512x128 shapeCasts_S512x128_S1x512x128 x)) _ _ (fun x => piece_ok _ _ _ 89 inb_S100x512x128_S1x512x128_89_0_0 inb_S512x100_S512x1_0_89 inb_S100x128_S1x128_89_0 broadcasts_S512x1_S512x128 broadcasts_S1x128_S512x128 shapeCasts_S512x128_S1x512x128 x)) _ _ (fun x => piece_ok _ _ _ 90 inb_S100x512x128_S1x512x128_90_0_0 inb_S512x100_S512x1_0_90 inb_S100x128_S1x128_90_0 broadcasts_S512x1_S512x128 broadcasts_S1x128_S512x128 shapeCasts_S512x128_S1x512x128 x))

theorem ok_94 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 94 (tcRun.sl.H5_94 c M1 M2 M3 f1 f2 f3) := by
  unfold tcRun.sl.H5_94
  exact (Ok.cons (Ok.cons (Ok.cons (ok_91 c M1 M2 M3 f1 f2 f3) _ _ (fun x => piece_ok _ _ _ 91 inb_S100x512x128_S1x512x128_91_0_0 inb_S512x100_S512x1_0_91 inb_S100x128_S1x128_91_0 broadcasts_S512x1_S512x128 broadcasts_S1x128_S512x128 shapeCasts_S512x128_S1x512x128 x)) _ _ (fun x => piece_ok _ _ _ 92 inb_S100x512x128_S1x512x128_92_0_0 inb_S512x100_S512x1_0_92 inb_S100x128_S1x128_92_0 broadcasts_S512x1_S512x128 broadcasts_S1x128_S512x128 shapeCasts_S512x128_S1x512x128 x)) _ _ (fun x => piece_ok _ _ _ 93 inb_S100x512x128_S1x512x128_93_0_0 inb_S512x100_S512x1_0_93 inb_S100x128_S1x128_93_0 broadcasts_S512x1_S512x128 broadcasts_S1x128_S512x128 shapeCasts_S512x128_S1x512x128 x))

theorem ok_97 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 97 (tcRun.sl.H5_97 c M1 M2 M3 f1 f2 f3) := by
  unfold tcRun.sl.H5_97
  exact (Ok.cons (Ok.cons (Ok.cons (ok_94 c M1 M2 M3 f1 f2 f3) _ _ (fun x => piece_ok _ _ _ 94 inb_S100x512x128_S1x512x128_94_0_0 inb_S512x100_S512x1_0_94 inb_S100x128_S1x128_94_0 broadcasts_S512x1_S512x128 broadcasts_S1x128_S512x128 shapeCasts_S512x128_S1x512x128 x)) _ _ (fun x => piece_ok _ _ _ 95 inb_S100x512x128_S1x512x128_95_0_0 inb_S512x100_S512x1_0_95 inb_S100x128_S1x128_95_0 broadcasts_S512x1_S512x128 broadcasts_S1x128_S512x128 shapeCasts_S512x128_S1x512x128 x)) _ _ (fun x => piece_ok _ _ _ 96 inb_S100x512x128_S1x512x128_96_0_0 inb_S512x100_S512x1_0_96 inb_S100x128_S1x128_96_0 broadcasts_S512x1_S512x128 broadcasts_S1x128_S512x128 shapeCasts_S512x128_S1x512x128 x))

theorem ok_100 (c : Dev nD) (M1 : Memref sig .tc .vmem S512x100 .f32) (M2 M3 : Memref sig .tc .vmem S100x128 .f32)
    (f1 : Bf (F := F) c M1) (f2 : Bf (F := F) c M2) (f3 : Bf (F := F) c M3) :
    Ok (outF (M1.view.read (Elt F) f1) (M2.view.read (Elt F) f2) (M3.view.read (Elt F) f3)) 100 (tcRun.sl.H5_100 c M1 M2 M3 f1 f2 f3) := by
  unfold tcRun.sl.H5_100
  exact (Ok.cons (Ok.cons (Ok.cons (ok_97 c M1 M2 M3 f1 f2 f3) _ _ (fun x => piece_ok _ _ _ 97 inb_S100x512x128_S1x512x128_97_0_0 inb_S512x100_S512x1_0_97 inb_S100x128_S1x128_97_0 broadcasts_S512x1_S512x128 broadcasts_S1x128_S512x128 shapeCasts_S512x128_S1x512x128 x)) _ _ (fun x => piece_ok _ _ _ 98 inb_S100x512x128_S1x512x128_98_0_0 inb_S512x100_S512x1_0_98 inb_S100x128_S1x128_98_0 broadcasts_S512x1_S512x128 broadcasts_S1x128_S512x128 shapeCasts_S512x128_S1x512x128 x)) _ _ (fun x => piece_ok _ _ _ 99 inb_S100x512x128_S1x512x128_99_0_0 inb_S512x100_S512x1_0_99 inb_S100x128_S1x128_99_0 broadcasts_S512x1_S512x128 broadcasts_S1x128_S512x128 shapeCasts_S512x128_S1x512x128 x))

end Cert.Proof.KW.Tc

end
-- ==== Proof.WordTcKernel.lean ====
/-
  The numeric-token kernel's body on whole staging memrefs held by their elements: from the three input blocks at
  read contents and the output block at anything, it returns leaving the inputs as they were and the output block at
  the one function of the input blocks.
-/
import proofs.«207390_g85444079387303_cont_sun_c4_501_21_alg».proof.Proof.WordTcVal

noncomputable section

namespace Cert.Proof.KW.Tc

open Cert.Kernel Cert.Kernel.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
/-- The output block after the body, read back: the one function of the input blocks. -/
theorem tcRun_read (c : Dev nD) (i : grid1.Coords)
    (M1 : Memref sig .tc .vmem S512x100 .f32) (h1 : M1.IsWhole) (M2 : Memref sig .tc .vmem S100x128 .f32) (h2 : M2.IsWhole)
    (M3 : Memref sig .tc .vmem S100x128 .f32) (h3 : M3.IsWhole) (M4 : Memref sig .tc .hbm S126x16384x128 .f32) (h4 : M4.IsWhole)
    (M5 : Memref sig .tc .vmem S100x512x128 .f32) (h5 : M5.IsWhole)
    (f1 : Bf (F := F) c M1) (f2 : Bf (F := F) c M2) (f3 : Bf (F := F) c M3) :
    M5.view.read (Elt F) (tcRun c i M1 h1 M2 h2 M3 h3 M4 h4 M5 h5 f1 f2 f3).1
      = outF (M1.view.read (Elt F) f1) (M2.view.read (Elt F) f2) (M3.view.read (Elt F) f3) := by
  have e : (tcRun c i M1 h1 M2 h2 M3 h3 M4 h4 M5 h5 f1 f2 f3).1
      = M5.view.writes (Elt F) M5.view.junk (tcRun.sl.H5_100 c M1 M2 M3 f1 f2 f3) := rfl
  rw [e]
  funext y
  exact View.read_writes_apply_of_pieces M5.view M5.view.junk
    (outF (M1.view.read (Elt F) f1) (M2.view.read (Elt F) f2) (M3.view.read (Elt F) f3))
    (tcRun.sl.H5_100 c M1 M2 M3 f1 f2 f3) (ok_100 c M1 M2 M3 f1 f2 f3).1 y ((ok_100 c M1 M2 M3 f1 f2 f3).2 y (y 0).isLt)

/-- A whole memref owned at read contents `X` is its buffer's points-to at contents that read `X`. -/
theorem owns_isWhole {c : Thread nD τ} {sp : Space} {sh : Shape} {e : EltTy} {m : Memref sig c.2.kind sp sh e}
    (hw : m.IsWhole) (q : PosShare TreeShare) (X : sh.Idx → Elt F e) :
    (owns c m q X : sProp 𝕄) = iprop(∃ f : Buf (Elt F) (m.view.loc c), ⌜m.view.read (Elt F) f = X⌝ ∗ (m.view.loc c ↦{q} f)) := by
  unfold owns; rw [hw.set_eq_univ]

/-- The kernel body on whole staging memrefs, the inputs' at read contents and the output's at anything. -/
theorem sound_kernel (c : Dev nD) (E : Set ℕ) (i : grid1.Coords)
    (M1 : Memref sig .tc .vmem S512x100 .f32) (h1 : M1.IsWhole) (M2 : Memref sig .tc .vmem S100x128 .f32) (h2 : M2.IsWhole)
    (M3 : Memref sig .tc .vmem S100x128 .f32) (h3 : M3.IsWhole) (M4 : Memref sig .tc .hbm S126x16384x128 .f32) (h4 : M4.IsWhole)
    (M5 : Memref sig .tc .vmem S100x512x128 .f32) (h5 : M5.IsWhole)
    (x0 : S512x100.Idx → Elt F .f32) (x1 x2 : S100x128.Idx → Elt F .f32) (K : PUnit → sProp 𝕄) :
    iprop(owns (c : Thread nD τ) M1 fullShare x0 ∗ owns (c : Thread nD τ) M2 fullShare x1 ∗ owns (c : Thread nD τ) M3 fullShare x2
        ∗ (∃ d, owns (c : Thread nD τ) M5 fullShare d)
        ∗ (iprop(owns (c : Thread nD τ) M1 fullShare x0 ∗ owns (c : Thread nD τ) M2 fullShare x1 ∗ owns (c : Thread nD τ) M3 fullShare x2
            ∗ owns (c : Thread nD τ) M5 fullShare (outF x0 x1 x2)) -∗ K ⟨⟩))
      ⊢ wp frame (wpE (defs₀ (F := F)) Variants.none c none) E (cc1__tc_num_body i M1 h1 M2 h2 M3 h3 M4 h4 M5 h5) K := by
  rw [owns_isWhole h1, owns_isWhole h2, owns_isWhole h3]
  simp only [owns_isWhole (c := (c : Thread nD τ)) h5]
  iintro ⟨⟨%f1, %e1, H1⟩, ⟨%f2, %e2, H2⟩, ⟨%f3, %e3, H3⟩, ⟨%d, %f5, -, H5⟩, Hk⟩
  subst e1 e2 e3
  iapply ((tcRun c i M1 h1 M2 h2 M3 h3 M4 h4 M5 h5 f1 f2 f3).2 f5 E K)
  isplitl [H1]; · iexact H1
  isplitl [H2]; · iexact H2
  isplitl [H3]; · iexact H3
  isplitl [H5]; · iexact H5
  iintro ⟨H1, H2, H3, H5⟩
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H5
  ipureintro
  exact tcRun_read c i M1 h1 M2 h2 M3 h3 M4 h4 M5 h5 f1 f2 f3

end Cert.Proof.KW.Tc

end
-- ==== Proof.WordTcDat.lean ====
/-
  The proof data of the numeric-token pipeline: the four arrays at their entry contents; after the body at point t each
  input's staging buffer at its block and the output's at the one function of the three input blocks; what the
  write-backs leave in the token-major array: the numeric tokens computed, the categorical tokens as they were.
-/
import proofs.«207390_g85444079387303_cont_sun_c4_501_21_alg».proof.Proof.WordTcKernel
import proofs.«207390_g85444079387303_cont_sun_c4_501_21_alg».proof.Proof.Spec
import Idealize.ShloMosaic.Lib.Pipeline.Frame
import Idealize.ShloMosaic.Lib.Pipeline.FrameBody

noncomputable section

namespace Cert.Proof.KW.Tc

open Cert.Kernel Cert.Kernel.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation BodyObligationLoose cellOf)

variable (xs : (c : Dev nD) → Buf (Elt F) ((c : Thread nD τ).loc main_arg0))
  (ws : (c : Dev nD) → Buf (Elt F) ((c : Thread nD τ).loc main_arg2))
  (nbs : (c : Dev nD) → Buf (Elt F) ((c : Thread nD τ).loc main_arg3))
  (prevs : (c : Dev nD) → Buf (Elt F) ((c : Thread nD τ).loc main_v10))
  (O : CellTallies nD τ sig (HIx 1)) (b : ℕ)

/-- The input windows' blocks at point `t`, read off their arrays. -/
def iblk0 (c : Dev nD) (t : Fin cfg1.N) : ((cfg1.win 0).xblock (cfg1.grid.coords t)).Idx → Elt F (cfg1.win 0).elt :=
  ((cfg1.win 0).blk t).view.read (Elt F) (xs c)
def iblk1 (c : Dev nD) (t : Fin cfg1.N) : ((cfg1.win 1).xblock (cfg1.grid.coords t)).Idx → Elt F (cfg1.win 1).elt :=
  ((cfg1.win 1).blk t).view.read (Elt F) (ws c)
def iblk2 (c : Dev nD) (t : Fin cfg1.N) : ((cfg1.win 2).xblock (cfg1.grid.coords t)).Idx → Elt F (cfg1.win 2).elt :=
  ((cfg1.win 2).blk t).view.read (Elt F) (nbs c)

/-- The proof data on core `c`. -/
def dat (c : Dev nD) : Dat τ (Elt F) (HIx 1) ℕ UU ℕ cfg1 c where
  A w := match w with
    | ⟨0, _⟩ => xs c
    | ⟨1, _⟩ => ws c
    | ⟨2, _⟩ => nbs c
    | ⟨3, _⟩ => prevs c
  after w t := match w with
    | ⟨0, _⟩ => iblk0 xs c t
    | ⟨1, _⟩ => iblk1 ws c t
    | ⟨2, _⟩ => iblk2 nbs c t
    | ⟨3, _⟩ => outF (iblk0 xs c t) (iblk1 ws c t) (iblk2 nbs c t)
  Φ _ := Pipeline.scopedRest (Ix := HIx 1) (Name := ℕ) (U := UU) (Lvl := ℕ) (Val := Elt F) spec1 c
  q _ := fullShare
  owed _ := O
  recorded _ := {p | (K (F := F)).lev ((c : Thread nD τ), p.1) p.2 ≤ b}

theorem A_0 (c : Dev nD) : (dat xs ws nbs prevs O b c).A 0 = xs c := by dsimp only [dat]
theorem A_1 (c : Dev nD) : (dat xs ws nbs prevs O b c).A 1 = ws c := by dsimp only [dat]
theorem A_2 (c : Dev nD) : (dat xs ws nbs prevs O b c).A 2 = nbs c := by dsimp only [dat]
theorem A_3 (c : Dev nD) : (dat xs ws nbs prevs O b c).A 3 = prevs c := by dsimp only [dat]
theorem after_0 (c : Dev nD) (t : Fin cfg1.N) : (dat xs ws nbs prevs O b c).after 0 t = iblk0 xs c t := by dsimp only [dat]
theorem after_1 (c : Dev nD) (t : Fin cfg1.N) : (dat xs ws nbs prevs O b c).after 1 t = iblk1 ws c t := by dsimp only [dat]
theorem after_2 (c : Dev nD) (t : Fin cfg1.N) : (dat xs ws nbs prevs O b c).after 2 t = iblk2 nbs c t := by dsimp only [dat]
theorem after_3 (c : Dev nD) (t : Fin cfg1.N) :
    (dat xs ws nbs prevs O b c).after 3 t = outF (iblk0 xs c t) (iblk1 ws c t) (iblk2 nbs c t) := by dsimp only [dat]

/-- Each input's current staging buffer holds its block at every point, fetched there or not. -/
theorem before_0 (c : Dev nD) (t : Fin cfg1.N) (d) : (dat xs ws nbs prevs O b c).before 0 t d = iblk0 xs c t :=
  ((dat xs ws nbs prevs O b c).before_in_eq_fetched 0 rfl (fun _ => rfl) (fun _ _ _ => rfl)
    (fun t => by rw [after_0]; unfold Dat.blockOf iblk0; rw [A_0]; try rfl) t d).trans
    (by unfold Dat.fetched Dat.blockOf iblk0; rw [A_0]; try rfl)
theorem before_1 (c : Dev nD) (t : Fin cfg1.N) (d) : (dat xs ws nbs prevs O b c).before 1 t d = iblk1 ws c t :=
  ((dat xs ws nbs prevs O b c).before_in_eq_fetched 1 rfl (fun _ => rfl) (fun _ _ _ => rfl)
    (fun t => by rw [after_1]; unfold Dat.blockOf iblk1; rw [A_1]; try rfl) t d).trans
    (by unfold Dat.fetched Dat.blockOf iblk1; rw [A_1]; try rfl)
theorem before_2 (c : Dev nD) (t : Fin cfg1.N) (d) : (dat xs ws nbs prevs O b c).before 2 t d = iblk2 nbs c t :=
  ((dat xs ws nbs prevs O b c).before_in_eq_fetched 2 rfl (fun _ => rfl) (fun _ _ _ => rfl)
    (fun t => by rw [after_2]; unfold Dat.blockOf iblk2; rw [A_2]; try rfl) t d).trans
    (by unfold Dat.fetched Dat.blockOf iblk2; rw [A_2]; try rfl)

/-- What the body is called with at point `t`, the windows one by one, -/
def bodyPre (c : Dev nD) (t : Fin cfg1.N) : sProp 𝕄 :=
  iprop((dat xs ws nbs prevs O b c).Φ t.castSucc ∗ (dat xs ws nbs prevs O b c).owesAt none t.castSucc
    ∗ (∃ d, owns (c : Thread nD τ) (st1_0 t) fullShare ((dat xs ws nbs prevs O b c).before 0 t d))
    ∗ (∃ d, owns (c : Thread nD τ) (st1_1 t) fullShare ((dat xs ws nbs prevs O b c).before 1 t d))
    ∗ (∃ d, owns (c : Thread nD τ) (st1_2 t) fullShare ((dat xs ws nbs prevs O b c).before 2 t d))
    ∗ (∃ d, owns (c : Thread nD τ) (st1_3 t) fullShare ((dat xs ws nbs prevs O b c).before 3 t d)))

/-- and what it returns. -/
def bodyPost (c : Dev nD) (t : Fin cfg1.N) : sProp 𝕄 :=
  iprop((dat xs ws nbs prevs O b c).Φ t.succ ∗ (dat xs ws nbs prevs O b c).owesAt none t.succ
    ∗ owns (c : Thread nD τ) (st1_0 t) fullShare ((dat xs ws nbs prevs O b c).after 0 t)
    ∗ owns (c : Thread nD τ) (st1_1 t) fullShare ((dat xs ws nbs prevs O b c).after 1 t)
    ∗ owns (c : Thread nD τ) (st1_2 t) fullShare ((dat xs ws nbs prevs O b c).after 2 t)
    ∗ owns (c : Thread nD τ) (st1_3 t) fullShare ((dat xs ws nbs prevs O b c).after 3 t))

/-- The body at any point: the inputs' staging memrefs hold their blocks, so the kernel's triple applies; the invariant
    and what the core owes pass through unread. -/
theorem sound_body (c : Dev nD) (t : Fin cfg1.N) :
    bodyPre xs ws nbs prevs O b c t ⊢ wp frame (wpE (defs₀ (F := F)) Variants.none c none) Set.univ (bodyAt1 t)
      (fun _ => bodyPost xs ws nbs prevs O b c t) := by
  unfold bodyPre bodyPost bodyAt1
  simp only [before_0, before_1, before_2]
  rw [show (dat xs ws nbs prevs O b c).Φ t.succ = (dat xs ws nbs prevs O b c).Φ t.castSucc from rfl,
    show (dat xs ws nbs prevs O b c).owesAt none t.succ = (dat xs ws nbs prevs O b c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ _ _ (iblk0 xs c t) (iblk1 ws c t) (iblk2 nbs c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) :
    BodyObligation (dat xs ws nbs prevs O b c) (defs₀ (F := F)) Variants.none (none : HIx 1) Set.univ := fun t => by
  rw [bigSep_W1, bigSep_W1]
  exact sound_body xs ws nbs prevs O b c t

end Cert.Proof.KW.Tc

end
-- ==== Proof.WordTcArr.lean ====
/-
  What the numeric-token pipeline's write-backs leave in the token-major array: at a token below 100, batch column
  512 t + r of point t, the value the body stored for feature f and row r — x[b,f] * w[f,d] + nb[f,d]; a token from 100 on
  lies in no block and keeps its entry contents.
-/
import proofs.«207390_g85444079387303_cont_sun_c4_501_21_alg».proof.Proof.WordTcDat
import Idealize.ShloMosaic.Lib.Pipeline.Value

noncomputable section

namespace Cert.Proof.KW.Tc

open Cert.Kernel Cert.Kernel.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation BodyObligationLoose cellOf)
open Cert.Proof.Spec (numTokens)

variable (xs : (c : Dev nD) → Buf (Elt F) ((c : Thread nD τ).loc main_arg0))
  (ws : (c : Dev nD) → Buf (Elt F) ((c : Thread nD τ).loc main_arg2))
  (nbs : (c : Dev nD) → Buf (Elt F) ((c : Thread nD τ).loc main_arg3))
  (prevs : (c : Dev nD) → Buf (Elt F) ((c : Thread nD τ).loc main_v10))
  (O : CellTallies nD τ sig (HIx 1)) (b : ℕ)

/-- What point t writes back is block t of the numeric tokens. -/
theorem flushed_eq (c : Dev nD) (t : Fin cfg1.N) :
    (dat xs ws nbs prevs O b c).flushed 3 t
      = ((cfg1.win 3).blk t).view.read (Elt F) (numTokens (F := F) (xs c) (ws c) (nbs c) (prevs c)) := by
  funext y
  show (dat xs ws nbs prevs O b c).after 3 t ((cfg1.win 3).xinj (cfg1.grid.coords t) y) = _
  rw [after_3, View.read_apply]
  unfold outF iblk0 iblk1 iblk2 numTokens
  simp only [View.read_apply, cast_eq]
  have hy0 : (y 0).val < 100 := (y 0).isLt
  have h : (((View.whole main_v10).slice ((win1 3).rect t)).emb y 0).val < 100 := by
    show (win1 3).index t 0 * 100 + 1 * (y 0).val < 100
    have : (win1 3).index t 0 = 0 := rfl
    omega
  rw [dif_pos h]
  have ex : ((View.whole main_arg0).slice ((win1 0).rect t)).emb
      (ValueIdx.ix2 ((win1 3).xinj (grid1.coords t) y 1) ((win1 3).xinj (grid1.coords t) y 0))
      = ValueIdx.ix2 (((View.whole main_v10).slice ((win1 3).rect t)).emb y 1)
          ⟨(((View.whole main_v10).slice ((win1 3).rect t)).emb y 0).val, h⟩ := by
    funext a; fin_cases a
    · apply Fin.ext
      show (win1 0).index t 0 * 512 + 1 * (y 1).val = (win1 3).index t 1 * 512 + 1 * (y 1).val
      rfl
    · apply Fin.ext
      show (win1 0).index t 1 * 100 + 1 * (y 0).val = (win1 3).index t 0 * 100 + 1 * (y 0).val
      rfl
  have ew : ((View.whole main_arg2).slice ((win1 1).rect t)).emb
      (ValueIdx.ix2 ((win1 3).xinj (grid1.coords t) y 0) ((win1 3).xinj (grid1.coords t) y 2))
      = ValueIdx.ix2 ⟨(((View.whole main_v10).slice ((win1 3).rect t)).emb y 0).val, h⟩
          (((View.whole main_v10).slice ((win1 3).rect t)).emb y 2) := by
    funext a; fin_cases a
    · apply Fin.ext
      show (win1 1).index t 0 * 100 + 1 * (y 0).val = (win1 3).index t 0 * 100 + 1 * (y 0).val
      rfl
    · apply Fin.ext
      show (win1 1).index t 1 * 128 + 1 * (y 2).val = (win1 3).index t 2 * 128 + 1 * (y 2).val
      rfl
  have eb : ((View.whole main_arg3).slice ((win1 2).rect t)).emb
      (ValueIdx.ix2 ((win1 3).xinj (grid1.coords t) y 0) ((win1 3).xinj (grid1.coords t) y 2))
      = ValueIdx.ix2 ⟨(((View.whole main_v10).slice ((win1 3).rect t)).emb y 0).val, h⟩
          (((View.whole main_v10).slice ((win1 3).rect t)).emb y 2) := by
    funext a; fin_cases a
    · apply Fin.ext
      show (win1 2).index t 0 * 100 + 1 * (y 0).val = (win1 3).index t 0 * 100 + 1 * (y 0).val
      rfl
    · apply Fin.ext
      show (win1 2).index t 1 * 128 + 1 * (y 2).val = (win1 3).index t 2 * 128 + 1 * (y 2).val
      rfl
  rw [ex, ew, eb]
  rfl

/-- The output window's block index along the batch axis is the point; no block is cut. -/
theorem index3_1 : ∀ t : Fin cfg1.N, (win1 3).index t 1 = t.val := by decide +kernel
theorem xsize3 : ∀ (t : Fin cfg1.N) (a : Fin 3), (win1 3).xsize (grid1.coords t) a = S100x512x128.size a := by decide +kernel

/-- An index of a numeric token lies in the block of the point its batch column falls in. -/
theorem cover3 (j : S126x16384x128.Idx) (hj : (j 0).val < 100) (t' : Fin cfg1.N) (ht' : t'.val = (j 1).val / 512) :
    j ∈ ((win1 3).rect t').set := by
  have h1 : (j 1).val < 16384 := (j 1).isLt
  have h2 : (j 2).val < 128 := (j 2).isLt
  rw [Rect.mem_set_unit]
  intro a
  rw [xsize3]
  fin_cases a
  · show (win1 3).index _ 0 * 100 ≤ (j 0).val ∧ (j 0).val < (win1 3).index _ 0 * 100 + 100
    rw [show (win1 3).index t' 0 = 0 from rfl]; omega
  · show (win1 3).index _ 1 * 512 ≤ (j 1).val ∧ (j 1).val < (win1 3).index _ 1 * 512 + 512
    rw [index3_1, ht']; omega
  · show (win1 3).index _ 2 * 128 ≤ (j 2).val ∧ (j 2).val < (win1 3).index _ 2 * 128 + 128
    rw [show (win1 3).index t' 2 = 0 from rfl]; omega

/-- What the write-backs leave in the token-major array: the numeric tokens computed, the rest as it was. -/
theorem arrAt_3 (c : Dev nD) :
    (dat xs ws nbs prevs O b c).arrAt 3 cfg1.N = numTokens (F := F) (xs c) (ws c) (nbs c) (prevs c) := by
  funext i
  rw [(dat xs ws nbs prevs O b c).arrAt_eq_piecewise 3 (numTokens (F := F) (xs c) (ws c) (nbs c) (prevs c))
    (fun t _ => flushed_eq xs ws nbs prevs O b c t) i]
  split
  · rfl
  · rename_i hno
    rw [A_3]
    unfold numTokens
    rw [dif_neg]
    intro hi
    apply hno
    have h1 : (i 1).val < 16384 := (i 1).isLt
    refine ⟨⟨(i 1).val / 512, by show _ < 32; omega⟩, flush1_3 _, ?_⟩
    have hm := cover3 i hi ⟨(i 1).val / 512, by show _ < 32; omega⟩ rfl
    rw [← View.set_slice_whole main_v10] at hm
    exact hm

end Cert.Proof.KW.Tc
end
-- ==== Proof.WordTcRegion.lean ====
/-
  The numeric-token call as one step of the TensorCore's program: from the boundary, the four arrays whole at their
  entry contents, what the core owes and the pipeline's ghost state, the call runs to the boundary with the token-major
  array at the numeric tokens computed over its entry contents and everything else as it was.
-/
import proofs.«207390_g85444079387303_cont_sun_c4_501_21_alg».proof.Proof.WordTcDat
import proofs.«207390_g85444079387303_cont_sun_c4_501_21_alg».proof.Proof.WordTcArr

noncomputable section

namespace Cert.Proof.KW.Tc

open Cert.Kernel Cert.Kernel.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation BodyObligationLoose cellOf)

abbrev adm : (p : Fin 1) → (pcfgs (F := F) p).Adm := fun q => (cfgs q).toPCfg_adm

variable (xs : (c : Dev nD) → Buf (Elt F) ((c : Thread nD τ).loc main_arg0))
  (ws : (c : Dev nD) → Buf (Elt F) ((c : Thread nD τ).loc main_arg2))
  (nbs : (c : Dev nD) → Buf (Elt F) ((c : Thread nD τ).loc main_arg3))
  (prevs : (c : Dev nD) → Buf (Elt F) ((c : Thread nD τ).loc main_v10))
  (O : CellTallies nD τ sig (HIx 1)) (b : ℕ)

/-- The proof data family: one pipeline. -/
def pdats : (p : Fin 1) → (c : Dev nD) → Dat τ (Elt F) (HIx 1) ℕ UU ℕ (Pipeline.pin (pcfgs (F := F)) adm p) c
  | ⟨0, _⟩ => fun c => dat xs ws nbs prevs O b c

/-- What the core owes, its recorded pairs at or below level `b`. -/
abbrev owesB (c : Dev nD) : sProp 𝕄 := iprop(∃ W, ⌜(K (F := F)).WBelow (T c) W b⌝ ∗ owes (T c : Thread nD τ) O W)

/-- The four arrays whole, the last at contents `out`. -/
abbrev arrs (c : Dev nD) (out : Buf (Elt F) ((c : Thread nD τ).loc main_v10)) : sProp 𝕄 :=
  iprop(((c : Thread nD τ).loc main_arg0 ↦{fullShare} xs c) ∗ ((c : Thread nD τ).loc main_arg2 ↦{fullShare} ws c)
    ∗ ((c : Thread nD τ).loc main_arg3 ↦{fullShare} nbs c) ∗ ((c : Thread nD τ).loc main_v10 ↦{fullShare} out))

/-- The pipeline's arrays at their final contents are the four arrays, the last at the numeric tokens computed. -/
theorem arrays_final (c : Dev nD) :
    ((pdats xs ws nbs prevs O b 0 c).arrays ((pdats xs ws nbs prevs O b 0 c).arrAt · (Pipeline.pin (pcfgs (F := F)) adm 0).N) : sProp 𝕄)
      = arrs xs ws nbs c (Cert.Proof.Spec.numTokens (F := F) (xs c) (ws c) (nbs c) (prevs c)) := by
  rw [Pipeline.arrays_eq (Pipeline.pin (pcfgs (F := F)) adm) (pdats xs ws nbs prevs O b) 0 c launch1.arr_whole
    ((pdats xs ws nbs prevs O b 0 c).share_full fun _ => rfl), bigSep_W1]
  show iprop((_ ↦{fullShare} (dat xs ws nbs prevs O b c).arrAt 0 cfg1.N) ∗ (_ ↦{fullShare} (dat xs ws nbs prevs O b c).arrAt 1 cfg1.N)
    ∗ (_ ↦{fullShare} (dat xs ws nbs prevs O b c).arrAt 2 cfg1.N) ∗ (_ ↦{fullShare} (dat xs ws nbs prevs O b c).arrAt 3 cfg1.N)) = _
  rw [((dat xs ws nbs prevs O b c).arrAt_in 0 rfl _).trans (A_0 xs ws nbs prevs O b c),
    ((dat xs ws nbs prevs O b c).arrAt_in 1 rfl _).trans (A_1 xs ws nbs prevs O b c),
    ((dat xs ws nbs prevs O b c).arrAt_in 2 rfl _).trans (A_2 xs ws nbs prevs O b c), arrAt_3]

set_option backward.isDefEq.respectTransparency.types false in
/-- The region over the thread state "the four arrays and what the core owes". -/
def reg (hO : ∀ g, O g none = 0) : Pipeline.RegionSeg (pcfgs (F := F)) adm (pdats xs ws nbs prevs O b) (none : HIx 1) defs₀ 𝒱₀
    (K (F := F)).L (K (F := F)).lev 0 where
  win := launch1.win.to₀
  block_pos := launch1.block_pos
  stage_whole := launch1.stage_whole
  K := PEmpty
  osem k := k.elim
  ho := Pipeline.OwnSemFacts.none _
  hbody c := (body_obligation xs ws nbs prevs O b c).loose
  hwaits c := Pipeline.cellsWaits_intro (Pipeline.pin (pcfgs (F := F)) adm) (pdats xs ws nbs prevs O b) (none : HIx 1) 0 c
    fun w s t => (K (F := F)).mayWait_none _ hO
  pre c := iprop(arrs xs ws nbs c (prevs c) ∗ owesB O b c)
  post c := iprop(arrs xs ws nbs c (Cert.Proof.Spec.numTokens (F := F) (xs c) (ws c) (nbs c) (prevs c)) ∗ owesB O b c)
  X _ := BI.emp
  Y _ := BI.emp
  Z _ := BI.emp
  hentry c := by
    rw [Pipeline.ownSems0_none]
    iintro ⟨⟨⟨H0, H1, H2, H3⟩, HO⟩, -, -⟩
    imodintro
    isplitl [H0 H1 H2 H3]
    · rw [Pipeline.arrays_eq (Pipeline.pin (pcfgs (F := F)) adm) (pdats xs ws nbs prevs O b) 0 c launch1.arr_whole
        ((pdats xs ws nbs prevs O b 0 c).share_full fun _ => rfl), bigSep_W1]
      isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitr; · iempintro
    iempintro
  hin c := by
    rw [show (pdats xs ws nbs prevs O b 0 c).Φ 0
      = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats xs ws nbs prevs O b 0 c).Φ (Fin.last _)
      = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, -⟩
    imodintro
    isplitl [Ha]
    · rw [arrays_final]; exact BI.Entails.refl _
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Cert.Proof.KW.Tc

end
-- ==== Proof.WordTcCall.lean ====
/-
  The numeric-token call as one lemma over the TensorCore's program under the SparseCore dispatch: the region's step
  (the pipeline library's rule at the proof data of this call), carried to the body table extended with the SparseCore
  calls' dispatch, over the thread state "the four arrays whole, what the core owes".
-/
import proofs.«207390_g85444079387303_cont_sun_c4_501_21_alg».proof.Proof.WordTcRegion

noncomputable section

namespace Cert.Proof.KW.Tc

open Cert.Kernel Cert.Kernel.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (Dat Cfg Window BodyObligation BodyObligationLoose cellOf)

/-- A family over the (one) devices from its member at `d`. -/
def fam {β : Dev nD → Type} (d : Dev nD) (x : β d) : (c : Dev nD) → β c := fun c => (Subsingleton.elim d c) ▸ x
theorem fam_self {β : Dev nD → Type} (d : Dev nD) (x : β d) : fam d x d = x := rfl

abbrev fx (d : Dev nD) (x : Buf (Elt F) ((T d : Thread nD τ).loc main_arg0)) :=
  fam (β := fun c => Buf (Elt F) ((c : Thread nD τ).loc main_arg0)) d x
abbrev fw (d : Dev nD) (w : Buf (Elt F) ((T d : Thread nD τ).loc main_arg2)) :=
  fam (β := fun c => Buf (Elt F) ((c : Thread nD τ).loc main_arg2)) d w
abbrev fnb (d : Dev nD) (nb : Buf (Elt F) ((T d : Thread nD τ).loc main_arg3)) :=
  fam (β := fun c => Buf (Elt F) ((c : Thread nD τ).loc main_arg3)) d nb
abbrev fprev (d : Dev nD) (prev : Buf (Elt F) ((T d : Thread nD τ).loc main_v10)) :=
  fam (β := fun c => Buf (Elt F) ((c : Thread nD τ).loc main_v10)) d prev

/-- A proof about the call under the pipeline's body table is one under the table extended with the SparseCore dispatch. -/
theorem stepA (d : Dev nD) (Φ : PUnit → sProp 𝕄) :
    wp frame (wpE (D (F := F)) 𝒱 (T d) none) Set.univ (Prog.lift (.customCall (Pipeline.entry 0) ())) Φ
      ⊢ wp frame (wpE ((K (F := F)).defs (D (F := F))) 𝒱 (T d) none) Set.univ
          (Prog.lift (.customCall (SparseCore.inner (Pipeline.entry 0)) ())) Φ :=
  (K (F := F)).wp_liftProg (D (F := F)) 𝒱 (T d) Set.univ none (Prog.lift (.customCall (Pipeline.entry 0) ())) Φ

/-- The region's step, its conclusion over the call followed by the return. -/
theorem stepB (d : Dev nD)
    (x : Buf (Elt F) ((T d : Thread nD τ).loc main_arg0)) (w : Buf (Elt F) ((T d : Thread nD τ).loc main_arg2))
    (nb : Buf (Elt F) ((T d : Thread nD τ).loc main_arg3)) (prev : Buf (Elt F) ((T d : Thread nD τ).loc main_v10))
    (O : CellTallies nD τ sig (HIx 1)) (hO : ∀ g, O g none = 0) (b : ℕ) (Φ : PUnit → sProp 𝕄) :
    iprop((iprop(boundary (d.tc : Thread nD τ) ∗ (reg (fx d x) (fw d w) (fnb d nb) (fprev d prev) O b hO).post d)
          -∗ wp frame (wpE (Pipeline.defs (pcfgs (F := F)) defs₀) (Variants.lift 𝒱₀) (d.tc : Thread nD τ) none) Set.univ (Prog.ret PUnit.unit) Φ)
        ∗ boundary (d.tc : Thread nD τ) ∗ (reg (fx d x) (fw d w) (fnb d nb) (fprev d prev) O b hO).pre d
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) (Variants.lift 𝒱₀) (d.tc : Thread nD τ) none) Set.univ
          (.op (.customCall (Pipeline.entry 0) ()) fun _ => Prog.ret PUnit.unit) Φ :=
  Pipeline.RegionSeg.wp (pcfgs (F := F)) adm (pdats (fx d x) (fw d w) (fnb d nb) (fprev d prev) O b)
    (none : HIx 1) cellOf_inj EP defs₀ 𝒱₀ (K (F := F)).L (K (F := F)).lev
    (reg (fx d x) (fw d w) (fnb d nb) (fprev d prev) O b hO)
    d none (fun u hu => absurd hu (Option.not_mem_none u)) (fun _ => Prog.ret PUnit.unit) Φ

/-- The same over the thread state spelt out, at the member `d` of the families. -/
theorem stepB' (d : Dev nD)
    (x : Buf (Elt F) ((T d : Thread nD τ).loc main_arg0)) (w : Buf (Elt F) ((T d : Thread nD τ).loc main_arg2))
    (nb : Buf (Elt F) ((T d : Thread nD τ).loc main_arg3)) (prev : Buf (Elt F) ((T d : Thread nD τ).loc main_v10))
    (O : CellTallies nD τ sig (HIx 1)) (hO : ∀ g, O g none = 0) (b : ℕ) (Φ : PUnit → sProp 𝕄) :
    iprop((iprop(boundary (T d : Thread nD τ)
            ∗ ((((T d : Thread nD τ).loc main_arg0 ↦{fullShare} x) ∗ ((T d : Thread nD τ).loc main_arg2 ↦{fullShare} w)
              ∗ ((T d : Thread nD τ).loc main_arg3 ↦{fullShare} nb)
              ∗ ((T d : Thread nD τ).loc main_v10 ↦{fullShare} (Cert.Proof.Spec.numTokens (F := F) x w nb prev)))
            ∗ (∃ W, ⌜(K (F := F)).WBelow (T d) W b⌝ ∗ owes (T d : Thread nD τ) O W)))
          -∗ wp frame (wpE (D (F := F)) 𝒱 (T d) none) Set.univ (Prog.ret PUnit.unit) Φ)
        ∗ boundary (T d : Thread nD τ)
        ∗ ((((T d : Thread nD τ).loc main_arg0 ↦{fullShare} x) ∗ ((T d : Thread nD τ).loc main_arg2 ↦{fullShare} w)
              ∗ ((T d : Thread nD τ).loc main_arg3 ↦{fullShare} nb) ∗ ((T d : Thread nD τ).loc main_v10 ↦{fullShare} prev))
            ∗ (∃ W, ⌜(K (F := F)).WBelow (T d) W b⌝ ∗ owes (T d : Thread nD τ) O W))
        ∗ levAts (K (F := F)).L (K (F := F)).lev
        ∗ Pipeline.cellsGhost cfgs EP 0 d ∗ Pipeline.toksInit cfgs EP 0 d)
      ⊢ wp frame (wpE (D (F := F)) 𝒱 (T d) none) Set.univ (Prog.lift (.customCall (Pipeline.entry 0) ())) Φ :=
  stepB d x w nb prev O hO b Φ

/-- The thread state of the call rearranged as the region's step takes it. -/
theorem glue (d : Dev nD)
    (x : Buf (Elt F) ((T d : Thread nD τ).loc main_arg0)) (w : Buf (Elt F) ((T d : Thread nD τ).loc main_arg2))
    (nb : Buf (Elt F) ((T d : Thread nD τ).loc main_arg3)) (prev : Buf (Elt F) ((T d : Thread nD τ).loc main_v10))
    (O : CellTallies nD τ sig (HIx 1)) (hO : ∀ g, O g none = 0) (b : ℕ) (Φ : PUnit → sProp 𝕄) :
    iprop((levAts (K (F := F)).L (K (F := F)).lev : sProp 𝕄) ∗ boundary (T d : Thread nD τ)
        ∗ ((T d : Thread nD τ).loc main_arg0 ↦{fullShare} x) ∗ ((T d : Thread nD τ).loc main_arg2 ↦{fullShare} w)
        ∗ ((T d : Thread nD τ).loc main_arg3 ↦{fullShare} nb) ∗ ((T d : Thread nD τ).loc main_v10 ↦{fullShare} prev)
        ∗ (∃ W, ⌜(K (F := F)).WBelow (T d) W b⌝ ∗ owes (T d : Thread nD τ) O W)
        ∗ Pipeline.cellsGhost cfgs EP 0 d ∗ Pipeline.toksInit cfgs EP 0 d
        ∗ (iprop(boundary (T d : Thread nD τ)
            ∗ ((T d : Thread nD τ).loc main_arg0 ↦{fullShare} x) ∗ ((T d : Thread nD τ).loc main_arg2 ↦{fullShare} w)
            ∗ ((T d : Thread nD τ).loc main_arg3 ↦{fullShare} nb)
            ∗ ((T d : Thread nD τ).loc main_v10 ↦{fullShare} (Cert.Proof.Spec.numTokens (F := F) x w nb prev))
            ∗ (∃ W, ⌜(K (F := F)).WBelow (T d) W b⌝ ∗ owes (T d : Thread nD τ) O W)) -∗ Φ ⟨⟩))
      ⊢ iprop((iprop(boundary (T d : Thread nD τ)
            ∗ ((((T d : Thread nD τ).loc main_arg0 ↦{fullShare} x) ∗ ((T d : Thread nD τ).loc main_arg2 ↦{fullShare} w)
              ∗ ((T d : Thread nD τ).loc main_arg3 ↦{fullShare} nb)
              ∗ ((T d : Thread nD τ).loc main_v10 ↦{fullShare} (Cert.Proof.Spec.numTokens (F := F) x w nb prev)))
            ∗ (∃ W, ⌜(K (F := F)).WBelow (T d) W b⌝ ∗ owes (T d : Thread nD τ) O W)))
          -∗ wp frame (wpE (D (F := F)) 𝒱 (T d) none) Set.univ (Prog.ret PUnit.unit) Φ)
        ∗ boundary (T d : Thread nD τ)
        ∗ ((((T d : Thread nD τ).loc main_arg0 ↦{fullShare} x) ∗ ((T d : Thread nD τ).loc main_arg2 ↦{fullShare} w)
              ∗ ((T d : Thread nD τ).loc main_arg3 ↦{fullShare} nb) ∗ ((T d : Thread nD τ).loc main_v10 ↦{fullShare} prev))
            ∗ (∃ W, ⌜(K (F := F)).WBelow (T d) W b⌝ ∗ owes (T d : Thread nD τ) O W))
        ∗ levAts (K (F := F)).L (K (F := F)).lev
        ∗ Pipeline.cellsGhost cfgs EP 0 d ∗ Pipeline.toksInit cfgs EP 0 d) := by
  iintro ⟨Hlev, Hb, H0, H1, H2, H3, HO, Hg, Ht, Hk⟩
  isplitl [Hk]
  · iintro ⟨Hb, ⟨⟨H0, H1, H2, H3⟩, HO⟩⟩
    iapply (le_wp_ret _ _)
    iapply Hk
    isplitl [Hb]; · iexact Hb
    isplitl [H0]; · iexact H0
    isplitl [H1]; · iexact H1
    isplitl [H2]; · iexact H2
    isplitl [H3]; · iexact H3
    iexact HO
  isplitl [Hb]; · iexact Hb
  isplitl [H0 H1 H2 H3 HO]
  · isplitr [HO]
    · isplitl [H0]; · iexact H0
      isplitl [H1]; · iexact H1
      isplitl [H2]; · iexact H2
      iexact H3
    · iexact HO
  isplitl [Hlev]; · iexact Hlev
  isplitl [Hg]; · iexact Hg
  iexact Ht

/-- THE CALL, as one step of @main on the TensorCore of `d`. -/
theorem region (d : Dev nD)
    (x : Buf (Elt F) ((T d : Thread nD τ).loc main_arg0)) (w : Buf (Elt F) ((T d : Thread nD τ).loc main_arg2))
    (nb : Buf (Elt F) ((T d : Thread nD τ).loc main_arg3)) (prev : Buf (Elt F) ((T d : Thread nD τ).loc main_v10))
    (O : CellTallies nD τ sig (HIx 1)) (hO : ∀ g, O g none = 0) (b : ℕ) {Φ : PUnit → sProp 𝕄} :
    iprop((levAts (K (F := F)).L (K (F := F)).lev : sProp 𝕄) ∗ boundary (T d : Thread nD τ)
        ∗ ((T d : Thread nD τ).loc main_arg0 ↦{fullShare} x) ∗ ((T d : Thread nD τ).loc main_arg2 ↦{fullShare} w)
        ∗ ((T d : Thread nD τ).loc main_arg3 ↦{fullShare} nb) ∗ ((T d : Thread nD τ).loc main_v10 ↦{fullShare} prev)
        ∗ (∃ W, ⌜(K (F := F)).WBelow (T d) W b⌝ ∗ owes (T d : Thread nD τ) O W)
        ∗ Pipeline.cellsGhost cfgs EP 0 d ∗ Pipeline.toksInit cfgs EP 0 d
        ∗ (iprop(boundary (T d : Thread nD τ)
            ∗ ((T d : Thread nD τ).loc main_arg0 ↦{fullShare} x) ∗ ((T d : Thread nD τ).loc main_arg2 ↦{fullShare} w)
            ∗ ((T d : Thread nD τ).loc main_arg3 ↦{fullShare} nb)
            ∗ ((T d : Thread nD τ).loc main_v10 ↦{fullShare} (Cert.Proof.Spec.numTokens (F := F) x w nb prev))
            ∗ (∃ W, ⌜(K (F := F)).WBelow (T d) W b⌝ ∗ owes (T d : Thread nD τ) O W)) -∗ Φ ⟨⟩))
      ⊢ wp frame (wpE ((K (F := F)).defs (D (F := F))) 𝒱 (T d) none) Set.univ
          (Prog.lift (.customCall (SparseCore.inner (Pipeline.entry 0)) ())) Φ :=
  (glue d x w nb prev O hO b Φ).trans ((stepB' d x w nb prev O hO b Φ).trans (stepA d Φ))

end Cert.Proof.KW.Tc

end
-- ==== Proof.lean ====
/-
  A tokenizer kernel and its reference compute one function: for a batch row, a token and a lane, value times
  weight plus bias for a numeric token, the embedding-table row code + 1000 · feature plus the feature's bias
  for a categorical one. Each program's run is read back as a term of its six argument arrays, each term is
  shown equal to that common specification where the categorical codes lie in [0, 999], and the claims follow:
  every program runs to its end leaving its arguments unchanged, and at the ideal instance the kernel program
  and the reference end with equal results.
-/
import proofs.«207390_g85444079387303_cont_sun_c4_501_21_alg».proof.Defs
import proofs.«207390_g85444079387303_cont_sun_c4_501_21_alg».proof.Proof.Claims
import proofs.«207390_g85444079387303_cont_sun_c4_501_21_alg».proof.Proof.ScFinal
import proofs.«207390_g85444079387303_cont_sun_c4_501_21_alg».proof.Proof.TcCall
import proofs.«207390_g85444079387303_cont_sun_c4_501_21_alg».proof.Proof.WordScFinal
import proofs.«207390_g85444079387303_cont_sun_c4_501_21_alg».proof.Proof.WordTcCall

noncomputable section

namespace Cert.Proof

/-- The certificate's claim: the three frames, the idealization's ledger (empty) and the equality of results at the
    ideal instance, from a vector subcore's task and the numeric call's region proved at both instances. -/
theorem claim : Cert.Claim :=
  Cert.Proof.Claims.claim_of Cert.Proof.KW.tile_body_stmt Cert.Proof.KW.Tc.region Cert.Proof.KI.tile_body_stmt Cert.Proof.KI.Tc.region

end Cert.Proof

end
